-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x26x64 : Shape := ⟨3, ![4096, 26, 64]⟩
abbrev S325 : Shape := ⟨1, ![325]⟩
abbrev S_ : Shape := ⟨0, ![]⟩

class Facts : Prop where
  bcast_S_S4096x26x64 : S_.BroadcastsInDim S4096x26x64 (![] : Fin 0 → Fin S4096x26x64.rank)
  reducesTo_S4096x26x64_S_d0_1_2 : S4096x26x64.ReducesTo [0, 1, 2] S_
  h_S_ : 0 < S_.numel
  bcast_S_S325 : S_.BroadcastsInDim S325 (![] : Fin 0 → Fin S325.rank)
  reducesTo_S325_S_d0 : S325.ReducesTo [0] S_

variable [Facts]

def fn_part1 {F : FTy → Type} [FloatOps F] (main_v13 : IVec S_ 1) (main_v16 : IVec S325 1) : IVec S_ 1 :=
  let main_c_5 : IVec S_ 1 := constantI S_ 1 1#1
  let main_v17 : IVec S_ 1 := (fun x v => Host.reduce IntOp.andi x v reducesTo_S325_S_d0 h_S_) main_v16 main_c_5
  let main_v18 : IVec S_ 1 := andi main_v13 main_v17
  main_v18

def fn {F : FTy → Type} [FloatOps F] (main_arg0 : FVec F S4096x26x64 .f32) (main_arg1 : FVec F S325 .f32) (main_arg2 : FVec F S325 .f32) (main_arg3 : FVec F S325 .f32) : IVec S_ 1 :=
  let main_v0 : FVec F S4096x26x64 .f32 := Host.absf main_arg0
  let main_cst : FVec F S_ .f32 := constant S_ .f32 0x7F800000#32
  let main_v1 : FVec F S4096x26x64 .f32 := broadcastInDim S4096x26x64 ![] bcast_S_S4096x26x64 main_cst
  let main_v2 : IVec S4096x26x64 1 := cmpf .olt main_v0 main_v1
  let main_c : IVec S_ 1 := constantI S_ 1 1#1
  let main_v3 : IVec S_ 1 := (fun x v => Host.reduce IntOp.andi x v reducesTo_S4096x26x64_S_d0_1_2 h_S_) main_v2 main_c
  let main_v4 : FVec F S325 .f32 := Host.absf main_arg1
  let main_cst_0 : FVec F S_ .f32 := constant S_ .f32 0x7F800000#32
  let main_v5 : FVec F S325 .f32 := broadcastInDim S325 ![] bcast_S_S325 main_cst_0
  let main_v6 : IVec S325 1 := cmpf .olt main_v4 main_v5
  let main_c_1 : IVec S_ 1 := constantI S_ 1 1#1
  let main_v7 : IVec S_ 1 := (fun x v => Host.reduce IntOp.andi x v reducesTo_S325_S_d0 h_S_) main_v6 main_c_1
  let main_v8 : IVec S_ 1 := andi main_v3 main_v7
  let main_v9 : FVec F S325 .f32 := Host.absf main_arg2
  let main_cst_2 : FVec F S_ .f32 := constant S_ .f32 0x7F800000#32
  let main_v10 : FVec F S325 .f32 := broadcastInDim S325 ![] bcast_S_S325 main_cst_2
  let main_v11 : IVec S325 1 := cmpf .olt main_v9 main_v10
  let main_c_3 : IVec S_ 1 := constantI S_ 1 1#1
  let main_v12 : IVec S_ 1 := (fun x v => Host.reduce IntOp.andi x v reducesTo_S325_S_d0 h_S_) main_v11 main_c_3
  let main_v13 : IVec S_ 1 := andi main_v8 main_v12
  let main_v14 : FVec F S325 .f32 := Host.absf main_arg3
  let main_cst_4 : FVec F S_ .f32 := constant S_ .f32 0x7F800000#32
  let main_v15 : FVec F S325 .f32 := broadcastInDim S325 ![] bcast_S_S325 main_cst_4
  let main_v16 : IVec S325 1 := cmpf .olt main_v14 main_v15
  fn_part1 (F := F) main_v13 main_v16
-- ==== Kernel.lean ====
abbrev S4096x26x64 : Shape := ⟨3, ![4096, 26, 64]⟩
abbrev S325 : Shape := ⟨1, ![325]⟩
abbrev S256x16x26x64 : Shape := ⟨4, ![256, 16, 26, 64]⟩
abbrev S256x26x64x16 : Shape := ⟨4, ![256, 26, 64, 16]⟩
abbrev S256x26624 : Shape := ⟨2, ![256, 26624]⟩
abbrev S_ : Shape := ⟨0, ![]⟩
abbrev S832 : Shape := ⟨1, ![832]⟩
abbrev S325x1 : Shape := ⟨2, ![325, 1]⟩
abbrev S832x1 : Shape := ⟨2, ![832, 1]⟩
abbrev S832x16 : Shape := ⟨2, ![832, 16]⟩
abbrev S1x13312 : Shape := ⟨2, ![1, 13312]⟩
abbrev S256x13312 : Shape := ⟨2, ![256, 13312]⟩
abbrev S32x13312 : Shape := ⟨2, ![32, 13312]⟩
abbrev S26624 : Shape := ⟨1, ![26624]⟩
abbrev S13312 : Shape := ⟨1, ![13312]⟩
abbrev S512 : Shape := ⟨1, ![512]⟩
abbrev S16 : Shape := ⟨1, ![16]⟩
abbrev S1x26624 : Shape := ⟨2, ![1, 26624]⟩
abbrev S1x16 : Shape := ⟨2, ![1, 16]⟩
abbrev S1x13304 : Shape := ⟨2, ![1, 13304]⟩
abbrev S1x8 : Shape := ⟨2, ![1, 8]⟩
abbrev S1x13308 : Shape := ⟨2, ![1, 13308]⟩
abbrev S1x4 : Shape := ⟨2, ![1, 4]⟩
abbrev S1x13310 : Shape := ⟨2, ![1, 13310]⟩
abbrev S1x2 : Shape := ⟨2, ![1, 2]⟩
abbrev S1x13311 : Shape := ⟨2, ![1, 13311]⟩
abbrev S1x1 : Shape := ⟨2, ![1, 1]⟩
abbrev S1x1x13312 : Shape := ⟨3, ![1, 1, 13312]⟩
abbrev S1 : Shape := ⟨1, ![1]⟩
abbrev S1x1x1 : Shape := ⟨3, ![1, 1, 1]⟩
abbrev S4096 : Shape := ⟨1, ![4096]⟩
abbrev S4096x1 : Shape := ⟨2, ![4096, 1]⟩

abbrev nBuf : Table → Nat
  | .hbm => 53
  | .local .tc .vmem => 7
  | .local .scVector .vmem => 9
  | _ => 0

abbrev bufTy : (tb : Table) → Fin (nBuf tb) → BufTy
  | .hbm, ⟨0, _⟩ => ⟨S4096x26x64, .f32⟩
  | .hbm, ⟨1, _⟩ => ⟨S325, .f32⟩
  | .hbm, ⟨2, _⟩ => ⟨S325, .f32⟩
  | .hbm, ⟨3, _⟩ => ⟨S325, .f32⟩
  | .hbm, ⟨4, _⟩ => ⟨S325, .i32⟩
  | .hbm, ⟨5, _⟩ => ⟨S325, .i1⟩
  | .hbm, ⟨6, _⟩ => ⟨S325, .i1⟩
  | .hbm, ⟨7, _⟩ => ⟨S325, .i1⟩
  | .hbm, ⟨8, _⟩ => ⟨S256x16x26x64, .f32⟩
  | .hbm, ⟨9, _⟩ => ⟨S256x26x64x16, .f32⟩
  | .hbm, ⟨10, _⟩ => ⟨S256x26624, .f32⟩
  | .hbm, ⟨11, _⟩ => ⟨S_, .f32⟩
  | .hbm, ⟨12, _⟩ => ⟨S832, .f32⟩
  | .hbm, ⟨13, _⟩ => ⟨S_, .i32⟩
  | .hbm, ⟨14, _⟩ => ⟨S325, .i32⟩
  | .hbm, ⟨15, _⟩ => ⟨S325, .i32⟩
  | .hbm, ⟨16, _⟩ => ⟨S325, .i32⟩
  | .hbm, ⟨17, _⟩ => ⟨S325x1, .i32⟩
  | .hbm, ⟨18, _⟩ => ⟨S832, .f32⟩
  | .hbm, ⟨19, _⟩ => ⟨S832x1, .f32⟩
  | .hbm, ⟨20, _⟩ => ⟨S832x16, .f32⟩
  | .hbm, ⟨21, _⟩ => ⟨S1x13312, .f32⟩
  | .hbm, ⟨22, _⟩ => ⟨S_, .f32⟩
  | .hbm, ⟨23, _⟩ => ⟨S832, .f32⟩
  | .hbm, ⟨24, _⟩ => ⟨S_, .i32⟩
  | .hbm, ⟨25, _⟩ => ⟨S325, .i32⟩
  | .hbm, ⟨26, _⟩ => ⟨S325, .i32⟩
  | .hbm, ⟨27, _⟩ => ⟨S325, .i32⟩
  | .hbm, ⟨28, _⟩ => ⟨S325x1, .i32⟩
  | .hbm, ⟨29, _⟩ => ⟨S832, .f32⟩
  | .hbm, ⟨30, _⟩ => ⟨S832x1, .f32⟩
  | .hbm, ⟨31, _⟩ => ⟨S832x16, .f32⟩
  | .hbm, ⟨32, _⟩ => ⟨S1x13312, .f32⟩
  | .hbm, ⟨33, _⟩ => ⟨S_, .f32⟩
  | .hbm, ⟨34, _⟩ => ⟨S832, .f32⟩
  | .hbm, ⟨35, _⟩ => ⟨S_, .i32⟩
  | .hbm, ⟨36, _⟩ => ⟨S325, .i32⟩
  | .hbm, ⟨37, _⟩ => ⟨S325, .i32⟩
  | .hbm, ⟨38, _⟩ => ⟨S325, .i32⟩
  | .hbm, ⟨39, _⟩ => ⟨S325x1, .i32⟩
  | .hbm, ⟨40, _⟩ => ⟨S832, .f32⟩
  | .hbm, ⟨41, _⟩ => ⟨S832x1, .f32⟩
  | .hbm, ⟨42, _⟩ => ⟨S832x16, .f32⟩
  | .hbm, ⟨43, _⟩ => ⟨S1x13312, .f32⟩
  | .hbm, ⟨44, _⟩ => ⟨S256x13312, .f32⟩
  | .hbm, ⟨45, _⟩ => ⟨S32x13312, .f32⟩
  | .hbm, ⟨46, _⟩ => ⟨S32x13312, .f32⟩
  | .hbm, ⟨47, _⟩ => ⟨S1x13312, .f32⟩
  | .hbm, ⟨48, _⟩ => ⟨S1x16, .f32⟩
  | .hbm, ⟨49, _⟩ => ⟨S13312, .f32⟩
  | .hbm, ⟨50, _⟩ => ⟨S16, .f32⟩
  | .hbm, ⟨51, _⟩ => ⟨S4096, .f32⟩
  | .hbm, ⟨52, _⟩ => ⟨S4096x1, .f32⟩
  | .local .tc .vmem, ⟨0, _⟩ => ⟨S32x13312, .f32⟩
  | .local .tc .vmem, ⟨1, _⟩ => ⟨S32x13312, .f32⟩
  | .local .tc .vmem, ⟨2, _⟩ => ⟨S1x13312, .f32⟩
  | .local .tc .vmem, ⟨3, _⟩ => ⟨S1x13312, .f32⟩
  | .local .tc .vmem, ⟨4, _⟩ => ⟨S1x13312, .f32⟩
  | .local .tc .vmem, ⟨5, _⟩ => ⟨S1x13312, .f32⟩
  | .local .tc .vmem, ⟨6, _⟩ => ⟨S1x16, .f32⟩
  | .local .scVector .vmem, ⟨0, _⟩ => ⟨S26624, .f32⟩
  | .local .scVector .vmem, ⟨1, _⟩ => ⟨S13312, .f32⟩
  | .local .scVector .vmem, ⟨2, _⟩ => ⟨S13312, .f32⟩
  | .local .scVector .vmem, ⟨3, _⟩ => ⟨S13312, .f32⟩
  | .local .scVector .vmem, ⟨4, _⟩ => ⟨S512, .f32⟩
  | .local .scVector .vmem, ⟨5, _⟩ => ⟨S13312, .f32⟩
  | .local .scVector .vmem, ⟨6, _⟩ => ⟨S13312, .f32⟩
  | .local .scVector .vmem, ⟨7, _⟩ => ⟨S16, .f32⟩
  | .local .scVector .vmem, ⟨8, _⟩ => ⟨S16, .f32⟩
  | _, _ => ⟨S4096x26x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_c_3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_c_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_v30_2 : Ref sig .tc := ⟨.hbm, 46, rfl⟩
abbrev main_v31_0 : Ref sig .tc := ⟨.hbm, 47, rfl⟩
abbrev main_v31_1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v2_scv : Ref sig .scVector := ⟨.hbm, 10, rfl⟩
abbrev main_v30_0_scv : Ref sig .scVector := ⟨.hbm, 44, rfl⟩
abbrev main_v30_1_scv : Ref sig .scVector := ⟨.hbm, 45, rfl⟩
abbrev main_v30_2_scv : Ref sig .scVector := ⟨.hbm, 46, rfl⟩
abbrev main_v32_scv : Ref sig .scVector := ⟨.hbm, 49, rfl⟩
abbrev main_v33_scv : Ref sig .scVector := ⟨.hbm, 50, rfl⟩
abbrev main_v34_scv : Ref sig .scVector := ⟨.hbm, 51, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc2_scratch0 : Ref sig .scVector := ⟨.vmem, 5, rfl⟩
abbrev cc2_scratch1 : Ref sig .scVector := ⟨.vmem, 6, rfl⟩
abbrev cc2_scratch2 : Ref sig .scVector := ⟨.vmem, 7, rfl⟩
abbrev cc2_scratch3 : Ref sig .scVector := ⟨.vmem, 8, rfl⟩
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c832_i32 : BitVec 32 := 832#32
  let v3 : BitVec 32 := Scalar.addi c0_i32_0 c832_i32
  let c1_i32 : BitVec 32 := 1#32
  ⟨c0_i32_0, v3, c1_i32⟩
def k0_off1 (k0_t1 : Fin k0_t1_loop.trips) : Fin 1 → Nat :=
  let c0_i32_0 : BitVec 32 := 0#32
  let c1_i32 : BitVec 32 := 1#32
  let arg11 : BitVec 32 := Scf.iv c0_i32_0 c1_i32 k0_t1
  let c16_i32 : BitVec 32 := 16#32
  let v7 : BitVec 32 := Scalar.muli arg11 c16_i32
  let v8 : Index := Scalar.indexCast v7
  ![v8.toNat]
@[reducible] def k0_t2_loop : Scf.Loop 32 :=
  let c0_i32_3 : BitVec 32 := 0#32
  let c8_i32 : BitVec 32 := 8#32
  let v5 : BitVec 32 := Scalar.addi c0_i32_3 c8_i32
  let c1_i32_4 : BitVec 32 := 1#32
  ⟨c0_i32_3, v5, c1_i32_4⟩
def k0_off2 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_6 : BitVec 32 := 8#32
  let v7 : BitVec 32 := Scalar.muli v1 c8_i32_6
  let c0_i32_3 : BitVec 32 := 0#32
  let c1_i32_4 : BitVec 32 := 1#32
  let arg11 : BitVec 32 := Scf.iv c0_i32_3 c1_i32_4 k0_t2
  let v8 : BitVec 32 := Scalar.addi v7 arg11
  let c0_i32_12_r0 : BitVec 32 := 0#32
  ![v8.toNat, 0]
@[reducible] def k0_t3_loop : Scf.Loop 32 :=
  let c1_i32_8 : BitVec 32 := 1#32
  let c25_i32 : BitVec 32 := 25#32
  let v9 : BitVec 32 := Scalar.addi c1_i32_8 c25_i32
  let c1_i32_9 : BitVec 32 := 1#32
  ⟨c1_i32_8, v9, c1_i32_9⟩
def k0_off3 (k0_t3 : Fin k0_t3_loop.trips) (c0_i32_12 : BitVec 32) (c0_i32_13 : BitVec 32) : Fin 1 → Nat :=
  let c1_i32_8 : BitVec 32 := 1#32
  let c1_i32_9 : BitVec 32 := 1#32
  let arg13 : BitVec 32 := Scf.iv c1_i32_8 c1_i32_9 k0_t3
  let c64_i32 : BitVec 32 := 64#32
  let v11 : BitVec 32 := Scalar.muli arg13 c64_i32
  let v12 : BitVec 32 := Scalar.addi v11 c0_i32_12
  let v13 : BitVec 32 := Scalar.addi v12 c0_i32_13
  let c16_i32 : BitVec 32 := 16#32
  let v14 : BitVec 32 := Scalar.muli v13 c16_i32
  let v15 : Index := Scalar.indexCast v14
  ![v15.toNat]
@[reducible] def k0_t4_loop (k0_t3 : Fin k0_t3_loop.trips) : Scf.Loop 32 :=
  let c0_i32_62 : BitVec 32 := 0#32
  let c1_i32_8 : BitVec 32 := 1#32
  let c1_i32_9 : BitVec 32 := 1#32
  let arg13 : BitVec 32 := Scf.iv c1_i32_8 c1_i32_9 k0_t3
  let v123 : BitVec 32 := Scalar.subi arg13 c0_i32_62
  let c1_i32_64 : BitVec 32 := 1#32
  let v125 : BitVec 32 := Scalar.divsi v123 c1_i32_64
  let v126 : BitVec 32 := Scalar.muli v125 c1_i32_64
  let v127 : BitVec 32 := Scalar.addi c0_i32_62 v126
  let c1_i32_65 : BitVec 32 := 1#32
  ⟨c0_i32_62, v127, c1_i32_65⟩
def k0_off4 (k0_t3 : Fin k0_t3_loop.trips) (k0_t4 : Fin (k0_t4_loop k0_t3).trips) : Fin 1 → Nat :=
  let c0_i32_62 : BitVec 32 := 0#32
  let c1_i32_65 : BitVec 32 := 1#32
  let arg15 : BitVec 32 := Scf.iv c0_i32_62 c1_i32_65 k0_t4
  let c64_i32_278 : BitVec 32 := 64#32
  let v494 : BitVec 32 := Scalar.muli arg15 c64_i32_278
  let c0_i32_279 : BitVec 32 := 0#32
  let v495 : BitVec 32 := Scalar.addi v494 c0_i32_279
  let c16_i32_280 : BitVec 32 := 16#32
  let v496 : BitVec 32 := Scalar.muli v495 c16_i32_280
  let v497 : Index := Scalar.indexCast v496
  ![v497.toNat]
def k0_off5 (k0_t3 : Fin k0_t3_loop.trips) (k0_t4 : Fin (k0_t4_loop k0_t3).trips) (c1_i32_283 : BitVec 32) : Fin 1 → Nat :=
  let c0_i32_62 : BitVec 32 := 0#32
  let c1_i32_65 : BitVec 32 := 1#32
  let arg15 : BitVec 32 := Scf.iv c0_i32_62 c1_i32_65 k0_t4
  let c64_i32_281 : BitVec 32 := 64#32
  let v501 : BitVec 32 := Scalar.muli arg15 c64_i32_281
  let c0_i32_282 : BitVec 32 := 0#32
  let v502 : BitVec 32 := Scalar.addi v501 c0_i32_282
  let v503 : BitVec 32 := Scalar.addi v502 c1_i32_283
  let c16_i32_284 : BitVec 32 := 16#32
  let v504 : BitVec 32 := Scalar.muli v503 c16_i32_284
  let v505 : Index := Scalar.indexCast v504
  ![v505.toNat]
def k0_off6 (k0_t3 : Fin k0_t3_loop.trips) (k0_t4 : Fin (k0_t4_loop k0_t3).trips) : Fin 1 → Nat :=
  let c0_i32_62 : BitVec 32 := 0#32
  let c1_i32_65 : BitVec 32 := 1#32
  let arg15 : BitVec 32 := Scf.iv c0_i32_62 c1_i32_65 k0_t4
  let c16_i32_341 : BitVec 32 := 16#32
  let v636 : BitVec 32 := Scalar.muli arg15 c16_i32_341
  let v637 : Index := Scalar.indexCast v636
  ![v637.toNat]
@[reducible] def k0_t5_loop (k0_t3 : Fin k0_t3_loop.trips) : Scf.Loop 32 :=
  let c0_i32_62 : BitVec 32 := 0#32
  let c1_i32_8 : BitVec 32 := 1#32
  let c1_i32_9 : BitVec 32 := 1#32
  let arg13 : BitVec 32 := Scf.iv c1_i32_8 c1_i32_9 k0_t3
  let v123 : BitVec 32 := Scalar.subi arg13 c0_i32_62
  let c1_i32_64 : BitVec 32 := 1#32
  let v125 : BitVec 32 := Scalar.divsi v123 c1_i32_64
  let v126 : BitVec 32 := Scalar.muli v125 c1_i32_64
  let v127 : BitVec 32 := Scalar.addi c0_i32_62 v126
  let v124 : BitVec 32 := Scalar.addi c0_i32_62 v123
  let c1_i32_66 : BitVec 32 := 1#32
  ⟨v127, v124, c1_i32_66⟩
def k0_off7 (k0_t3 : Fin k0_t3_loop.trips) (k0_t5 : Fin (k0_t5_loop k0_t3).trips) : Fin 1 → Nat :=
  let c0_i32_62 : BitVec 32 := 0#32
  let c1_i32_8 : BitVec 32 := 1#32
  let c1_i32_9 : BitVec 32 := 1#32
  let arg13 : BitVec 32 := Scf.iv c1_i32_8 c1_i32_9 k0_t3
  let v123 : BitVec 32 := Scalar.subi arg13 c0_i32_62
  let c1_i32_64 : BitVec 32 := 1#32
  let v125 : BitVec 32 := Scalar.divsi v123 c1_i32_64
  let v126 : BitVec 32 := Scalar.muli v125 c1_i32_64
  let v127 : BitVec 32 := Scalar.addi c0_i32_62 v126
  let c1_i32_66 : BitVec 32 := 1#32
  let arg15 : BitVec 32 := Scf.iv v127 c1_i32_66 k0_t5
  let c64_i32_278 : BitVec 32 := 64#32
  let v494 : BitVec 32 := Scalar.muli arg15 c64_i32_278
  let c0_i32_279 : BitVec 32 := 0#32
  let v495 : BitVec 32 := Scalar.addi v494 c0_i32_279
  let c16_i32_280 : BitVec 32 := 16#32
  let v496 : BitVec 32 := Scalar.muli v495 c16_i32_280
  let v497 : Index := Scalar.indexCast v496
  ![v497.toNat]
def k0_off8 (k0_t3 : Fin k0_t3_loop.trips) (k0_t5 : Fin (k0_t5_loop k0_t3).trips) (c1_i32_283 : BitVec 32) : Fin 1 → Nat :=
  let c0_i32_62 : BitVec 32 := 0#32
  let c1_i32_8 : BitVec 32 := 1#32
  let c1_i32_9 : BitVec 32 := 1#32
  let arg13 : BitVec 32 := Scf.iv c1_i32_8 c1_i32_9 k0_t3
  let v123 : BitVec 32 := Scalar.subi arg13 c0_i32_62
  let c1_i32_64 : BitVec 32 := 1#32
  let v125 : BitVec 32 := Scalar.divsi v123 c1_i32_64
  let v126 : BitVec 32 := Scalar.muli v125 c1_i32_64
  let v127 : BitVec 32 := Scalar.addi c0_i32_62 v126
  let c1_i32_66 : BitVec 32 := 1#32
  let arg15 : BitVec 32 := Scf.iv v127 c1_i32_66 k0_t5
  let c64_i32_281 : BitVec 32 := 64#32
  let v501 : BitVec 32 := Scalar.muli arg15 c64_i32_281
  let c0_i32_282 : BitVec 32 := 0#32
  let v502 : BitVec 32 := Scalar.addi v501 c0_i32_282
  let v503 : BitVec 32 := Scalar.addi v502 c1_i32_283
  let c16_i32_284 : BitVec 32 := 16#32
  let v504 : BitVec 32 := Scalar.muli v503 c16_i32_284
  let v505 : Index := Scalar.indexCast v504
  ![v505.toNat]
def k0_off9 (k0_t3 : Fin k0_t3_loop.trips) (k0_t5 : Fin (k0_t5_loop k0_t3).trips) : Fin 1 → Nat :=
  let c0_i32_62 : BitVec 32 := 0#32
  let c1_i32_8 : BitVec 32 := 1#32
  let c1_i32_9 : BitVec 32 := 1#32
  let arg13 : BitVec 32 := Scf.iv c1_i32_8 c1_i32_9 k0_t3
  let v123 : BitVec 32 := Scalar.subi arg13 c0_i32_62
  let c1_i32_64 : BitVec 32 := 1#32
  let v125 : BitVec 32 := Scalar.divsi v123 c1_i32_64
  let v126 : BitVec 32 := Scalar.muli v125 c1_i32_64
  let v127 : BitVec 32 := Scalar.addi c0_i32_62 v126
  let c1_i32_66 : BitVec 32 := 1#32
  let arg15 : BitVec 32 := Scf.iv v127 c1_i32_66 k0_t5
  let c16_i32_341 : BitVec 32 := 16#32
  let v636 : BitVec 32 := Scalar.muli arg15 c16_i32_341
  let v637 : Index := Scalar.indexCast v636
  ![v637.toNat]
@[reducible] def k0_t6_loop (k0_t3 : Fin k0_t3_loop.trips) : Scf.Loop 32 :=
  let c0_i32_131 : BitVec 32 := 0#32
  let c1_i32_8 : BitVec 32 := 1#32
  let c1_i32_9 : BitVec 32 := 1#32
  let arg13 : BitVec 32 := Scf.iv c1_i32_8 c1_i32_9 k0_t3
  let v242 : BitVec 32 := Scalar.subi arg13 c0_i32_131
  let c1_i32_133 : BitVec 32 := 1#32
  let v244 : BitVec 32 := Scalar.divsi v242 c1_i32_133
  let v245 : BitVec 32 := Scalar.muli v244 c1_i32_133
  let v246 : BitVec 32 := Scalar.addi c0_i32_131 v245
  let c1_i32_134 : BitVec 32 := 1#32
  ⟨c0_i32_131, v246, c1_i32_134⟩
def k0_off10 (k0_t3 : Fin k0_t3_loop.trips) (k0_t6 : Fin (k0_t6_loop k0_t3).trips) : Fin 1 → Nat :=
  let c0_i32_131 : BitVec 32 := 0#32
  let c1_i32_134 : BitVec 32 := 1#32
  let arg15 : BitVec 32 := Scf.iv c0_i32_131 c1_i32_134 k0_t6
  let c64_i32_278 : BitVec 32 := 64#32
  let v494 : BitVec 32 := Scalar.muli arg15 c64_i32_278
  let c16_i32_279 : BitVec 32 := 16#32
  let v495 : BitVec 32 := Scalar.addi v494 c16_i32_279
  let c16_i32_280 : BitVec 32 := 16#32
  let v496 : BitVec 32 := Scalar.muli v495 c16_i32_280
  let v497 : Index := Scalar.indexCast v496
  ![v497.toNat]
def k0_off11 (k0_t3 : Fin k0_t3_loop.trips) (k0_t6 : Fin (k0_t6_loop k0_t3).trips) (c1_i32_283 : BitVec 32) : Fin 1 → Nat :=
  let c0_i32_131 : BitVec 32 := 0#32
  let c1_i32_134 : BitVec 32 := 1#32
  let arg15 : BitVec 32 := Scf.iv c0_i32_131 c1_i32_134 k0_t6
  let c64_i32_281 : BitVec 32 := 64#32
  let v501 : BitVec 32 := Scalar.muli arg15 c64_i32_281
  let c16_i32_282 : BitVec 32 := 16#32
  let v502 : BitVec 32 := Scalar.addi v501 c16_i32_282
  let v503 : BitVec 32 := Scalar.addi v502 c1_i32_283
  let c16_i32_284 : BitVec 32 := 16#32
  let v504 : BitVec 32 := Scalar.muli v503 c16_i32_284
  let v505 : Index := Scalar.indexCast v504
  ![v505.toNat]
def k0_off12 (k0_t3 : Fin k0_t3_loop.trips) (k0_t6 : Fin (k0_t6_loop k0_t3).trips) : Fin 1 → Nat :=
  let c0_i32_131 : BitVec 32 := 0#32
  let c1_i32_134 : BitVec 32 := 1#32
  let arg15 : BitVec 32 := Scf.iv c0_i32_131 c1_i32_134 k0_t6
  let c16_i32_341 : BitVec 32 := 16#32
  let v636 : BitVec 32 := Scalar.muli arg15 c16_i32_341
  let v637 : Index := Scalar.indexCast v636
  ![v637.toNat]
@[reducible] def k0_t7_loop (k0_t3 : Fin k0_t3_loop.trips) : Scf.Loop 32 :=
  let c0_i32_131 : BitVec 32 := 0#32
  let c1_i32_8 : BitVec 32 := 1#32
  let c1_i32_9 : BitVec 32 := 1#32
  let arg13 : BitVec 32 := Scf.iv c1_i32_8 c1_i32_9 k0_t3
  let v242 : BitVec 32 := Scalar.subi arg13 c0_i32_131
  let c1_i32_133 : BitVec 32 := 1#32
  let v244 : BitVec 32 := Scalar.divsi v242 c1_i32_133
  let v245 : BitVec 32 := Scalar.muli v244 c1_i32_133
  let v246 : BitVec 32 := Scalar.addi c0_i32_131 v245
  let v243 : BitVec 32 := Scalar.addi c0_i32_131 v242
  let c1_i32_135 : BitVec 32 := 1#32
  ⟨v246, v243, c1_i32_135⟩
def k0_off13 (k0_t3 : Fin k0_t3_loop.trips) (k0_t7 : Fin (k0_t7_loop k0_t3).trips) : Fin 1 → Nat :=
  let c0_i32_131 : BitVec 32 := 0#32
  let c1_i32_8 : BitVec 32 := 1#32
  let c1_i32_9 : BitVec 32 := 1#32
  let arg13 : BitVec 32 := Scf.iv c1_i32_8 c1_i32_9 k0_t3
  let v242 : BitVec 32 := Scalar.subi arg13 c0_i32_131
  let c1_i32_133 : BitVec 32 := 1#32
  let v244 : BitVec 32 := Scalar.divsi v242 c1_i32_133
  let v245 : BitVec 32 := Scalar.muli v244 c1_i32_133
  let v246 : BitVec 32 := Scalar.addi c0_i32_131 v245
  let c1_i32_135 : BitVec 32 := 1#32
  let arg15 : BitVec 32 := Scf.iv v246 c1_i32_135 k0_t7
  let c64_i32_278 : BitVec 32 := 64#32
  let v494 : BitVec 32 := Scalar.muli arg15 c64_i32_278
  let c16_i32_279 : BitVec 32 := 16#32
  let v495 : BitVec 32 := Scalar.addi v494 c16_i32_279
  let c16_i32_280 : BitVec 32 := 16#32
  let v496 : BitVec 32 := Scalar.muli v495 c16_i32_280
  let v497 : Index := Scalar.indexCast v496
  ![v497.toNat]
def k0_off14 (k0_t3 : Fin k0_t3_loop.trips) (k0_t7 : Fin (k0_t7_loop k0_t3).trips) (c1_i32_283 : BitVec 32) : Fin 1 → Nat :=
  let c0_i32_131 : BitVec 32 := 0#32
  let c1_i32_8 : BitVec 32 := 1#32
  let c1_i32_9 : BitVec 32 := 1#32
  let arg13 : BitVec 32 := Scf.iv c1_i32_8 c1_i32_9 k0_t3
  let v242 : BitVec 32 := Scalar.subi arg13 c0_i32_131
  let c1_i32_133 : BitVec 32 := 1#32
  let v244 : BitVec 32 := Scalar.divsi v242 c1_i32_133
  let v245 : BitVec 32 := Scalar.muli v244 c1_i32_133
  let v246 : BitVec 32 := Scalar.addi c0_i32_131 v245
  let c1_i32_135 : BitVec 32 := 1#32
  let arg15 : BitVec 32 := Scf.iv v246 c1_i32_135 k0_t7
  let c64_i32_281 : BitVec 32 := 64#32
  let v501 : BitVec 32 := Scalar.muli arg15 c64_i32_281
  let c16_i32_282 : BitVec 32 := 16#32
  let v502 : BitVec 32 := Scalar.addi v501 c16_i32_282
  let v503 : BitVec 32 := Scalar.addi v502 c1_i32_283
  let c16_i32_284 : BitVec 32 := 16#32
  let v504 : BitVec 32 := Scalar.muli v503 c16_i32_284
  let v505 : Index := Scalar.indexCast v504
  ![v505.toNat]
def k0_off15 (k0_t3 : Fin k0_t3_loop.trips) (k0_t7 : Fin (k0_t7_loop k0_t3).trips) : Fin 1 → Nat :=
  let c0_i32_131 : BitVec 32 := 0#32
  let c1_i32_8 : BitVec 32 := 1#32
  let c1_i32_9 : BitVec 32 := 1#32
  let arg13 : BitVec 32 := Scf.iv c1_i32_8 c1_i32_9 k0_t3
  let v242 : BitVec 32 := Scalar.subi arg13 c0_i32_131
  let c1_i32_133 : BitVec 32 := 1#32
  let v244 : BitVec 32 := Scalar.divsi v242 c1_i32_133
  let v245 : BitVec 32 := Scalar.muli v244 c1_i32_133
  let v246 : BitVec 32 := Scalar.addi c0_i32_131 v245
  let c1_i32_135 : BitVec 32 := 1#32
  let arg15 : BitVec 32 := Scf.iv v246 c1_i32_135 k0_t7
  let c16_i32_341 : BitVec 32 := 16#32
  let v636 : BitVec 32 := Scalar.muli arg15 c16_i32_341
  let v637 : Index := Scalar.indexCast v636
  ![v637.toNat]
@[reducible] def k0_t8_loop (k0_t3 : Fin k0_t3_loop.trips) : Scf.Loop 32 :=
  let c0_i32_199 : BitVec 32 := 0#32
  let c1_i32_8 : BitVec 32 := 1#32
  let c1_i32_9 : BitVec 32 := 1#32
  let arg13 : BitVec 32 := Scf.iv c1_i32_8 c1_i32_9 k0_t3
  let v361 : BitVec 32 := Scalar.subi arg13 c0_i32_199
  let c1_i32_201 : BitVec 32 := 1#32
  let v363 : BitVec 32 := Scalar.divsi v361 c1_i32_201
  let v364 : BitVec 32 := Scalar.muli v363 c1_i32_201
  let v365 : BitVec 32 := Scalar.addi c0_i32_199 v364
  let c1_i32_202 : BitVec 32 := 1#32
  ⟨c0_i32_199, v365, c1_i32_202⟩
def k0_off16 (k0_t3 : Fin k0_t3_loop.trips) (k0_t8 : Fin (k0_t8_loop k0_t3).trips) : Fin 1 → Nat :=
  let c0_i32_199 : BitVec 32 := 0#32
  let c1_i32_202 : BitVec 32 := 1#32
  let arg15 : BitVec 32 := Scf.iv c0_i32_199 c1_i32_202 k0_t8
  let c64_i32_278 : BitVec 32 := 64#32
  let v494 : BitVec 32 := Scalar.muli arg15 c64_i32_278
  let c32_i32_279 : BitVec 32 := 32#32
  let v495 : BitVec 32 := Scalar.addi v494 c32_i32_279
  let c16_i32_280 : BitVec 32 := 16#32
  let v496 : BitVec 32 := Scalar.muli v495 c16_i32_280
  let v497 : Index := Scalar.indexCast v496
  ![v497.toNat]
def k0_off17 (k0_t3 : Fin k0_t3_loop.trips) (k0_t8 : Fin (k0_t8_loop k0_t3).trips) (c1_i32_283 : BitVec 32) : Fin 1 → Nat :=
  let c0_i32_199 : BitVec 32 := 0#32
  let c1_i32_202 : BitVec 32 := 1#32
  let arg15 : BitVec 32 := Scf.iv c0_i32_199 c1_i32_202 k0_t8
  let c64_i32_281 : BitVec 32 := 64#32
  let v501 : BitVec 32 := Scalar.muli arg15 c64_i32_281
  let c32_i32_282 : BitVec 32 := 32#32
  let v502 : BitVec 32 := Scalar.addi v501 c32_i32_282
  let v503 : BitVec 32 := Scalar.addi v502 c1_i32_283
  let c16_i32_284 : BitVec 32 := 16#32
  let v504 : BitVec 32 := Scalar.muli v503 c16_i32_284
  let v505 : Index := Scalar.indexCast v504
  ![v505.toNat]
def k0_off18 (k0_t3 : Fin k0_t3_loop.trips) (k0_t8 : Fin (k0_t8_loop k0_t3).trips) : Fin 1 → Nat :=
  let c0_i32_199 : BitVec 32 := 0#32
  let c1_i32_202 : BitVec 32 := 1#32
  let arg15 : BitVec 32 := Scf.iv c0_i32_199 c1_i32_202 k0_t8
  let c16_i32_341 : BitVec 32 := 16#32
  let v636 : BitVec 32 := Scalar.muli arg15 c16_i32_341
  let v637 : Index := Scalar.indexCast v636
  ![v637.toNat]
@[reducible] def k0_t9_loop (k0_t3 : Fin k0_t3_loop.trips) : Scf.Loop 32 :=
  let c0_i32_199 : BitVec 32 := 0#32
  let c1_i32_8 : BitVec 32 := 1#32
  let c1_i32_9 : BitVec 32 := 1#32
  let arg13 : BitVec 32 := Scf.iv c1_i32_8 c1_i32_9 k0_t3
  let v361 : BitVec 32 := Scalar.subi arg13 c0_i32_199
  let c1_i32_201 : BitVec 32 := 1#32
  let v363 : BitVec 32 := Scalar.divsi v361 c1_i32_201
  let v364 : BitVec 32 := Scalar.muli v363 c1_i32_201
  let v365 : BitVec 32 := Scalar.addi c0_i32_199 v364
  let v362 : BitVec 32 := Scalar.addi c0_i32_199 v361
  let c1_i32_203 : BitVec 32 := 1#32
  ⟨v365, v362, c1_i32_203⟩
def k0_off19 (k0_t3 : Fin k0_t3_loop.trips) (k0_t9 : Fin (k0_t9_loop k0_t3).trips) : Fin 1 → Nat :=
  let c0_i32_199 : BitVec 32 := 0#32
  let c1_i32_8 : BitVec 32 := 1#32
  let c1_i32_9 : BitVec 32 := 1#32
  let arg13 : BitVec 32 := Scf.iv c1_i32_8 c1_i32_9 k0_t3
  let v361 : BitVec 32 := Scalar.subi arg13 c0_i32_199
  let c1_i32_201 : BitVec 32 := 1#32
  let v363 : BitVec 32 := Scalar.divsi v361 c1_i32_201
  let v364 : BitVec 32 := Scalar.muli v363 c1_i32_201
  let v365 : BitVec 32 := Scalar.addi c0_i32_199 v364
  let c1_i32_203 : BitVec 32 := 1#32
  let arg15 : BitVec 32 := Scf.iv v365 c1_i32_203 k0_t9
  let c64_i32_278 : BitVec 32 := 64#32
  let v494 : BitVec 32 := Scalar.muli arg15 c64_i32_278
  let c32_i32_279 : BitVec 32 := 32#32
  let v495 : BitVec 32 := Scalar.addi v494 c32_i32_279
  let c16_i32_280 : BitVec 32 := 16#32
  let v496 : BitVec 32 := Scalar.muli v495 c16_i32_280
  let v497 : Index := Scalar.indexCast v496
  ![v497.toNat]
def k0_off20 (k0_t3 : Fin k0_t3_loop.trips) (k0_t9 : Fin (k0_t9_loop k0_t3).trips) (c1_i32_283 : BitVec 32) : Fin 1 → Nat :=
  let c0_i32_199 : BitVec 32 := 0#32
  let c1_i32_8 : BitVec 32 := 1#32
  let c1_i32_9 : BitVec 32 := 1#32
  let arg13 : BitVec 32 := Scf.iv c1_i32_8 c1_i32_9 k0_t3
  let v361 : BitVec 32 := Scalar.subi arg13 c0_i32_199
  let c1_i32_201 : BitVec 32 := 1#32
  let v363 : BitVec 32 := Scalar.divsi v361 c1_i32_201
  let v364 : BitVec 32 := Scalar.muli v363 c1_i32_201
  let v365 : BitVec 32 := Scalar.addi c0_i32_199 v364
  let c1_i32_203 : BitVec 32 := 1#32
  let arg15 : BitVec 32 := Scf.iv v365 c1_i32_203 k0_t9
  let c64_i32_281 : BitVec 32 := 64#32
  let v501 : BitVec 32 := Scalar.muli arg15 c64_i32_281
  let c32_i32_282 : BitVec 32 := 32#32
  let v502 : BitVec 32 := Scalar.addi v501 c32_i32_282
  let v503 : BitVec 32 := Scalar.addi v502 c1_i32_283
  let c16_i32_284 : BitVec 32 := 16#32
  let v504 : BitVec 32 := Scalar.muli v503 c16_i32_284
  let v505 : Index := Scalar.indexCast v504
  ![v505.toNat]
def k0_off21 (k0_t3 : Fin k0_t3_loop.trips) (k0_t9 : Fin (k0_t9_loop k0_t3).trips) : Fin 1 → Nat :=
  let c0_i32_199 : BitVec 32 := 0#32
  let c1_i32_8 : BitVec 32 := 1#32
  let c1_i32_9 : BitVec 32 := 1#32
  let arg13 : BitVec 32 := Scf.iv c1_i32_8 c1_i32_9 k0_t3
  let v361 : BitVec 32 := Scalar.subi arg13 c0_i32_199
  let c1_i32_201 : BitVec 32 := 1#32
  let v363 : BitVec 32 := Scalar.divsi v361 c1_i32_201
  let v364 : BitVec 32 := Scalar.muli v363 c1_i32_201
  let v365 : BitVec 32 := Scalar.addi c0_i32_199 v364
  let c1_i32_203 : BitVec 32 := 1#32
  let arg15 : BitVec 32 := Scf.iv v365 c1_i32_203 k0_t9
  let c16_i32_341 : BitVec 32 := 16#32
  let v636 : BitVec 32 := Scalar.muli arg15 c16_i32_341
  let v637 : Index := Scalar.indexCast v636
  ![v637.toNat]
@[reducible] def k0_t10_loop (k0_t3 : Fin k0_t3_loop.trips) : Scf.Loop 32 :=
  let c0_i32_267 : BitVec 32 := 0#32
  let c1_i32_8 : BitVec 32 := 1#32
  let c1_i32_9 : BitVec 32 := 1#32
  let arg13 : BitVec 32 := Scf.iv c1_i32_8 c1_i32_9 k0_t3
  let v480 : BitVec 32 := Scalar.subi arg13 c0_i32_267
  let c1_i32_269 : BitVec 32 := 1#32
  let v482 : BitVec 32 := Scalar.divsi v480 c1_i32_269
  let v483 : BitVec 32 := Scalar.muli v482 c1_i32_269
  let v484 : BitVec 32 := Scalar.addi c0_i32_267 v483
  let c1_i32_270 : BitVec 32 := 1#32
  ⟨c0_i32_267, v484, c1_i32_270⟩
def k0_off22 (k0_t3 : Fin k0_t3_loop.trips) (k0_t10 : Fin (k0_t10_loop k0_t3).trips) : Fin 1 → Nat :=
  let c0_i32_267 : BitVec 32 := 0#32
  let c1_i32_270 : BitVec 32 := 1#32
  let arg15 : BitVec 32 := Scf.iv c0_i32_267 c1_i32_270 k0_t10
  let c64_i32_278 : BitVec 32 := 64#32
  let v494 : BitVec 32 := Scalar.muli arg15 c64_i32_278
  let c48_i32_279 : BitVec 32 := 48#32
  let v495 : BitVec 32 := Scalar.addi v494 c48_i32_279
  let c16_i32_280 : BitVec 32 := 16#32
  let v496 : BitVec 32 := Scalar.muli v495 c16_i32_280
  let v497 : Index := Scalar.indexCast v496
  ![v497.toNat]
def k0_off23 (k0_t3 : Fin k0_t3_loop.trips) (k0_t10 : Fin (k0_t10_loop k0_t3).trips) (c1_i32_283 : BitVec 32) : Fin 1 → Nat :=
  let c0_i32_267 : BitVec 32 := 0#32
  let c1_i32_270 : BitVec 32 := 1#32
  let arg15 : BitVec 32 := Scf.iv c0_i32_267 c1_i32_270 k0_t10
  let c64_i32_281 : BitVec 32 := 64#32
  let v501 : BitVec 32 := Scalar.muli arg15 c64_i32_281
  let c48_i32_282 : BitVec 32 := 48#32
  let v502 : BitVec 32 := Scalar.addi v501 c48_i32_282
  let v503 : BitVec 32 := Scalar.addi v502 c1_i32_283
  let c16_i32_284 : BitVec 32 := 16#32
  let v504 : BitVec 32 := Scalar.muli v503 c16_i32_284
  let v505 : Index := Scalar.indexCast v504
  ![v505.toNat]
def k0_off24 (k0_t3 : Fin k0_t3_loop.trips) (k0_t10 : Fin (k0_t10_loop k0_t3).trips) : Fin 1 → Nat :=
  let c0_i32_267 : BitVec 32 := 0#32
  let c1_i32_270 : BitVec 32 := 1#32
  let arg15 : BitVec 32 := Scf.iv c0_i32_267 c1_i32_270 k0_t10
  let c16_i32_341 : BitVec 32 := 16#32
  let v636 : BitVec 32 := Scalar.muli arg15 c16_i32_341
  let v637 : Index := Scalar.indexCast v636
  ![v637.toNat]
@[reducible] def k0_t11_loop (k0_t3 : Fin k0_t3_loop.trips) : Scf.Loop 32 :=
  let c0_i32_267 : BitVec 32 := 0#32
  let c1_i32_8 : BitVec 32 := 1#32
  let c1_i32_9 : BitVec 32 := 1#32
  let arg13 : BitVec 32 := Scf.iv c1_i32_8 c1_i32_9 k0_t3
  let v480 : BitVec 32 := Scalar.subi arg13 c0_i32_267
  let c1_i32_269 : BitVec 32 := 1#32
  let v482 : BitVec 32 := Scalar.divsi v480 c1_i32_269
  let v483 : BitVec 32 := Scalar.muli v482 c1_i32_269
  let v484 : BitVec 32 := Scalar.addi c0_i32_267 v483
  let v481 : BitVec 32 := Scalar.addi c0_i32_267 v480
  let c1_i32_271 : BitVec 32 := 1#32
  ⟨v484, v481, c1_i32_271⟩
def k0_off25 (k0_t3 : Fin k0_t3_loop.trips) (k0_t11 : Fin (k0_t11_loop k0_t3).trips) : Fin 1 → Nat :=
  let c0_i32_267 : BitVec 32 := 0#32
  let c1_i32_8 : BitVec 32 := 1#32
  let c1_i32_9 : BitVec 32 := 1#32
  let arg13 : BitVec 32 := Scf.iv c1_i32_8 c1_i32_9 k0_t3
  let v480 : BitVec 32 := Scalar.subi arg13 c0_i32_267
  let c1_i32_269 : BitVec 32 := 1#32
  let v482 : BitVec 32 := Scalar.divsi v480 c1_i32_269
  let v483 : BitVec 32 := Scalar.muli v482 c1_i32_269
  let v484 : BitVec 32 := Scalar.addi c0_i32_267 v483
  let c1_i32_271 : BitVec 32 := 1#32
  let arg15 : BitVec 32 := Scf.iv v484 c1_i32_271 k0_t11
  let c64_i32_278 : BitVec 32 := 64#32
  let v494 : BitVec 32 := Scalar.muli arg15 c64_i32_278
  let c48_i32_279 : BitVec 32 := 48#32
  let v495 : BitVec 32 := Scalar.addi v494 c48_i32_279
  let c16_i32_280 : BitVec 32 := 16#32
  let v496 : BitVec 32 := Scalar.muli v495 c16_i32_280
  let v497 : Index := Scalar.indexCast v496
  ![v497.toNat]
def k0_off26 (k0_t3 : Fin k0_t3_loop.trips) (k0_t11 : Fin (k0_t11_loop k0_t3).trips) (c1_i32_283 : BitVec 32) : Fin 1 → Nat :=
  let c0_i32_267 : BitVec 32 := 0#32
  let c1_i32_8 : BitVec 32 := 1#32
  let c1_i32_9 : BitVec 32 := 1#32
  let arg13 : BitVec 32 := Scf.iv c1_i32_8 c1_i32_9 k0_t3
  let v480 : BitVec 32 := Scalar.subi arg13 c0_i32_267
  let c1_i32_269 : BitVec 32 := 1#32
  let v482 : BitVec 32 := Scalar.divsi v480 c1_i32_269
  let v483 : BitVec 32 := Scalar.muli v482 c1_i32_269
  let v484 : BitVec 32 := Scalar.addi c0_i32_267 v483
  let c1_i32_271 : BitVec 32 := 1#32
  let arg15 : BitVec 32 := Scf.iv v484 c1_i32_271 k0_t11
  let c64_i32_281 : BitVec 32 := 64#32
  let v501 : BitVec 32 := Scalar.muli arg15 c64_i32_281
  let c48_i32_282 : BitVec 32 := 48#32
  let v502 : BitVec 32 := Scalar.addi v501 c48_i32_282
  let v503 : BitVec 32 := Scalar.addi v502 c1_i32_283
  let c16_i32_284 : BitVec 32 := 16#32
  let v504 : BitVec 32 := Scalar.muli v503 c16_i32_284
  let v505 : Index := Scalar.indexCast v504
  ![v505.toNat]
def k0_off27 (k0_t3 : Fin k0_t3_loop.trips) (k0_t11 : Fin (k0_t11_loop k0_t3).trips) : Fin 1 → Nat :=
  let c0_i32_267 : BitVec 32 := 0#32
  let c1_i32_8 : BitVec 32 := 1#32
  let c1_i32_9 : BitVec 32 := 1#32
  let arg13 : BitVec 32 := Scf.iv c1_i32_8 c1_i32_9 k0_t3
  let v480 : BitVec 32 := Scalar.subi arg13 c0_i32_267
  let c1_i32_269 : BitVec 32 := 1#32
  let v482 : BitVec 32 := Scalar.divsi v480 c1_i32_269
  let v483 : BitVec 32 := Scalar.muli v482 c1_i32_269
  let v484 : BitVec 32 := Scalar.addi c0_i32_267 v483
  let c1_i32_271 : BitVec 32 := 1#32
  let arg15 : BitVec 32 := Scf.iv v484 c1_i32_271 k0_t11
  let c16_i32_341 : BitVec 32 := 16#32
  let v636 : BitVec 32 := Scalar.muli arg15 c16_i32_341
  let v637 : Index := Scalar.indexCast v636
  ![v637.toNat]
@[reducible] def k0_t12_loop (k0_t3 : Fin k0_t3_loop.trips) : Scf.Loop 32 :=
  let c0_i32_272 : BitVec 32 := 0#32
  let c1_i32_8 : BitVec 32 := 1#32
  let c1_i32_9 : BitVec 32 := 1#32
  let arg13 : BitVec 32 := Scf.iv c1_i32_8 c1_i32_9 k0_t3
  let v487 : BitVec 32 := Scalar.subi arg13 c0_i32_272
  let c1_i32_274 : BitVec 32 := 1#32
  let v489 : BitVec 32 := Scalar.divsi v487 c1_i32_274
  let v490 : BitVec 32 := Scalar.muli v489 c1_i32_274
  let v491 : BitVec 32 := Scalar.addi c0_i32_272 v490
  let c1_i32_275 : BitVec 32 := 1#32
  ⟨c0_i32_272, v491, c1_i32_275⟩
def k0_off28 (k0_t3 : Fin k0_t3_loop.trips) (k0_t12 : Fin (k0_t12_loop k0_t3).trips) : Fin 1 → Nat :=
  let c0_i32_272 : BitVec 32 := 0#32
  let c1_i32_275 : BitVec 32 := 1#32
  let arg15 : BitVec 32 := Scf.iv c0_i32_272 c1_i32_275 k0_t12
  let c16_i32_278 : BitVec 32 := 16#32
  let v494 : BitVec 32 := Scalar.muli arg15 c16_i32_278
  let v495 : Index := Scalar.indexCast v494
  ![v495.toNat]
def k0_off29 (k0_t3 : Fin k0_t3_loop.trips) (k0_t12 : Fin (k0_t12_loop k0_t3).trips) : Fin 1 → Nat :=
  let c1_i32_8 : BitVec 32 := 1#32
  let c1_i32_9 : BitVec 32 := 1#32
  let arg13 : BitVec 32 := Scf.iv c1_i32_8 c1_i32_9 k0_t3
  let c32_i32_279 : BitVec 32 := 32#32
  let v498 : BitVec 32 := Scalar.muli arg13 c32_i32_279
  let c0_i32_272 : BitVec 32 := 0#32
  let c1_i32_275 : BitVec 32 := 1#32
  let arg15 : BitVec 32 := Scf.iv c0_i32_272 c1_i32_275 k0_t12
  let v499 : BitVec 32 := Scalar.addi v498 arg15
  let c16_i32_280 : BitVec 32 := 16#32
  let v500 : BitVec 32 := Scalar.muli v499 c16_i32_280
  let v501 : Index := Scalar.indexCast v500
  ![v501.toNat]
@[reducible] def k0_t13_loop (k0_t3 : Fin k0_t3_loop.trips) : Scf.Loop 32 :=
  let c0_i32_272 : BitVec 32 := 0#32
  let c1_i32_8 : BitVec 32 := 1#32
  let c1_i32_9 : BitVec 32 := 1#32
  let arg13 : BitVec 32 := Scf.iv c1_i32_8 c1_i32_9 k0_t3
  let v487 : BitVec 32 := Scalar.subi arg13 c0_i32_272
  let c1_i32_274 : BitVec 32 := 1#32
  let v489 : BitVec 32 := Scalar.divsi v487 c1_i32_274
  let v490 : BitVec 32 := Scalar.muli v489 c1_i32_274
  let v491 : BitVec 32 := Scalar.addi c0_i32_272 v490
  let v488 : BitVec 32 := Scalar.addi c0_i32_272 v487
  let c1_i32_276 : BitVec 32 := 1#32
  ⟨v491, v488, c1_i32_276⟩
def k0_off30 (k0_t3 : Fin k0_t3_loop.trips) (k0_t13 : Fin (k0_t13_loop k0_t3).trips) : Fin 1 → Nat :=
  let c0_i32_272 : BitVec 32 := 0#32
  let c1_i32_8 : BitVec 32 := 1#32
  let c1_i32_9 : BitVec 32 := 1#32
  let arg13 : BitVec 32 := Scf.iv c1_i32_8 c1_i32_9 k0_t3
  let v487 : BitVec 32 := Scalar.subi arg13 c0_i32_272
  let c1_i32_274 : BitVec 32 := 1#32
  let v489 : BitVec 32 := Scalar.divsi v487 c1_i32_274
  let v490 : BitVec 32 := Scalar.muli v489 c1_i32_274
  let v491 : BitVec 32 := Scalar.addi c0_i32_272 v490
  let c1_i32_276 : BitVec 32 := 1#32
  let arg15 : BitVec 32 := Scf.iv v491 c1_i32_276 k0_t13
  let c16_i32_278 : BitVec 32 := 16#32
  let v494 : BitVec 32 := Scalar.muli arg15 c16_i32_278
  let v495 : Index := Scalar.indexCast v494
  ![v495.toNat]
def k0_off31 (k0_t3 : Fin k0_t3_loop.trips) (k0_t13 : Fin (k0_t13_loop k0_t3).trips) : Fin 1 → Nat :=
  let c1_i32_8 : BitVec 32 := 1#32
  let c1_i32_9 : BitVec 32 := 1#32
  let arg13 : BitVec 32 := Scf.iv c1_i32_8 c1_i32_9 k0_t3
  let c32_i32_279 : BitVec 32 := 32#32
  let v498 : BitVec 32 := Scalar.muli arg13 c32_i32_279
  let c0_i32_272 : BitVec 32 := 0#32
  let v487 : BitVec 32 := Scalar.subi arg13 c0_i32_272
  let c1_i32_274 : BitVec 32 := 1#32
  let v489 : BitVec 32 := Scalar.divsi v487 c1_i32_274
  let v490 : BitVec 32 := Scalar.muli v489 c1_i32_274
  let v491 : BitVec 32 := Scalar.addi c0_i32_272 v490
  let c1_i32_276 : BitVec 32 := 1#32
  let arg15 : BitVec 32 := Scf.iv v491 c1_i32_276 k0_t13
  let v499 : BitVec 32 := Scalar.addi v498 arg15
  let c16_i32_280 : BitVec 32 := 16#32
  let v500 : BitVec 32 := Scalar.muli v499 c16_i32_280
  let v501 : Index := Scalar.indexCast v500
  ![v501.toNat]
def k0_off32 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_6 : BitVec 32 := 8#32
  let v7 : BitVec 32 := Scalar.muli v1 c8_i32_6
  let c0_i32_3 : BitVec 32 := 0#32
  let c1_i32_4 : BitVec 32 := 1#32
  let arg11 : BitVec 32 := Scf.iv c0_i32_3 c1_i32_4 k0_t2
  let v8 : BitVec 32 := Scalar.addi v7 arg11
  let c0_i32_12_r1 : BitVec 32 := 0#32
  ![v8.toNat, 0]
def k0_off33 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6_r2 : BitVec 32 := 0#32
  ![v1.toNat, 0]
abbrev grid1 : Pipeline.Grid := .none

abbrev stage1_0 : Fin 1 → Memref sig .tc .vmem S32x13312 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x13312 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x13312 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x13312 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x13312 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x13312 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev grid2 : Pipeline.Grid := ⟨2, ![2, 16], ![false, false]⟩

@[reducible] def k2_t1_loop : Scf.Loop 32 :=
  let c0_i32_0 : BitVec 32 := 0#32
  let c8_i32 : BitVec 32 := 8#32
  let v2 : BitVec 32 := Scalar.addi c0_i32_0 c8_i32
  let c1_i32 : BitVec 32 := 1#32
  ⟨c0_i32_0, v2, c1_i32⟩
def k2_off1 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2 : BitVec 32 := 8#32
  let v4 : BitVec 32 := Scalar.muli v1 c8_i32_2
  let c0_i32_0 : BitVec 32 := 0#32
  let c1_i32 : BitVec 32 := 1#32
  let arg10 : BitVec 32 := Scf.iv c0_i32_0 c1_i32 k2_t1
  let v5 : BitVec 32 := Scalar.addi v4 arg10
  let c0_i32_9_r2 : BitVec 32 := 0#32
  ![v5.toNat, 0]
@[reducible] def k2_t2_loop : Scf.Loop 32 :=
  let c1_i32_5 : BitVec 32 := 1#32
  let c25_i32 : BitVec 32 := 25#32
  let v11 : BitVec 32 := Scalar.addi c1_i32_5 c25_i32
  let c1_i32_6 : BitVec 32 := 1#32
  ⟨c1_i32_5, v11, c1_i32_6⟩
@[reducible] def k2_t3_loop (k2_t2 : Fin k2_t2_loop.trips) : Scf.Loop 32 :=
  let c0_i32_9 : BitVec 32 := 0#32
  let c1_i32_5 : BitVec 32 := 1#32
  let c1_i32_6 : BitVec 32 := 1#32
  let arg12 : BitVec 32 := Scf.iv c1_i32_5 c1_i32_6 k2_t2
  let v14 : BitVec 32 := Scalar.subi arg12 c0_i32_9
  let c1_i32_11 : BitVec 32 := 1#32
  let v16 : BitVec 32 := Scalar.divsi v14 c1_i32_11
  let v17 : BitVec 32 := Scalar.muli v16 c1_i32_11
  let v18 : BitVec 32 := Scalar.addi c0_i32_9 v17
  let c1_i32_12 : BitVec 32 := 1#32
  ⟨c0_i32_9, v18, c1_i32_12⟩
def k2_off2 (k2_t2 : Fin k2_t2_loop.trips) (k2_t3 : Fin (k2_t3_loop k2_t2).trips) : Fin 1 → Nat :=
  let c1_i32_5 : BitVec 32 := 1#32
  let c1_i32_6 : BitVec 32 := 1#32
  let arg12 : BitVec 32 := Scf.iv c1_i32_5 c1_i32_6 k2_t2
  let c32_i32 : BitVec 32 := 32#32
  let v21 : BitVec 32 := Scalar.muli arg12 c32_i32
  let c0_i32_9 : BitVec 32 := 0#32
  let c1_i32_12 : BitVec 32 := 1#32
  let arg14 : BitVec 32 := Scf.iv c0_i32_9 c1_i32_12 k2_t3
  let v22 : BitVec 32 := Scalar.addi v21 arg14
  let c16_i32_16 : BitVec 32 := 16#32
  let v25 : BitVec 32 := Scalar.muli v22 c16_i32_16
  let v26 : Index := Scalar.indexCast v25
  ![v26.toNat]
@[reducible] def k2_t4_loop (k2_t2 : Fin k2_t2_loop.trips) : Scf.Loop 32 :=
  let c0_i32_9 : BitVec 32 := 0#32
  let c1_i32_5 : BitVec 32 := 1#32
  let c1_i32_6 : BitVec 32 := 1#32
  let arg12 : BitVec 32 := Scf.iv c1_i32_5 c1_i32_6 k2_t2
  let v14 : BitVec 32 := Scalar.subi arg12 c0_i32_9
  let c1_i32_11 : BitVec 32 := 1#32
  let v16 : BitVec 32 := Scalar.divsi v14 c1_i32_11
  let v17 : BitVec 32 := Scalar.muli v16 c1_i32_11
  let v18 : BitVec 32 := Scalar.addi c0_i32_9 v17
  let v15 : BitVec 32 := Scalar.addi c0_i32_9 v14
  let c1_i32_13 : BitVec 32 := 1#32
  ⟨v18, v15, c1_i32_13⟩
def k2_off3 (k2_t2 : Fin k2_t2_loop.trips) (k2_t4 : Fin (k2_t4_loop k2_t2).trips) : Fin 1 → Nat :=
  let c1_i32_5 : BitVec 32 := 1#32
  let c1_i32_6 : BitVec 32 := 1#32
  let arg12 : BitVec 32 := Scf.iv c1_i32_5 c1_i32_6 k2_t2
  let c32_i32 : BitVec 32 := 32#32
  let v21 : BitVec 32 := Scalar.muli arg12 c32_i32
  let c0_i32_9 : BitVec 32 := 0#32
  let v14 : BitVec 32 := Scalar.subi arg12 c0_i32_9
  let c1_i32_11 : BitVec 32 := 1#32
  let v16 : BitVec 32 := Scalar.divsi v14 c1_i32_11
  let v17 : BitVec 32 := Scalar.muli v16 c1_i32_11
  let v18 : BitVec 32 := Scalar.addi c0_i32_9 v17
  let c1_i32_13 : BitVec 32 := 1#32
  let arg14 : BitVec 32 := Scf.iv v18 c1_i32_13 k2_t4
  let v22 : BitVec 32 := Scalar.addi v21 arg14
  let c16_i32_16 : BitVec 32 := 16#32
  let v25 : BitVec 32 := Scalar.muli v22 c16_i32_16
  let v26 : Index := Scalar.indexCast v25
  ![v26.toNat]
def k2_off4 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2 : BitVec 32 := 8#32
  let v4 : BitVec 32 := Scalar.muli v1 c8_i32_2
  let c0_i32_0 : BitVec 32 := 0#32
  let c1_i32 : BitVec 32 := 1#32
  let arg10 : BitVec 32 := Scf.iv c0_i32_0 c1_i32 k2_t1
  let v5 : BitVec 32 := Scalar.addi v4 arg10
  let c16_i32 : BitVec 32 := 16#32
  let v13 : BitVec 32 := Scalar.muli v5 c16_i32
  ![v13.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  shapeCasts_S4096x26x64_S256x16x26x64 : S4096x26x64.ShapeCasts S256x16x26x64
  transposes_S256x16x26x64_S256x26x64x16_0_2_3_1 : S256x16x26x64.Transposes [0, 2, 3, 1] S256x26x64x16
  shapeCasts_S256x26x64x16_S256x26624 : S256x26x64x16.ShapeCasts S256x26624
  bcast_S_S832 : S_.BroadcastsInDim S832 (![] : Fin 0 → Fin S832.rank)
  bcast_S_S325 : S_.BroadcastsInDim S325 (![] : Fin 0 → Fin S325.rank)
  bcast_S325_S325x1_0 : S325.BroadcastsInDim S325x1 (![0] : Fin 1 → Fin S325x1.rank)
  shapeCasts_S832_S832x1 : S832.ShapeCasts S832x1
  bcast_S832x1_S832x16_0_1 : S832x1.BroadcastsInDim S832x16 (![0, 1] : Fin 2 → Fin S832x16.rank)
  shapeCasts_S832x16_S1x13312 : S832x16.ShapeCasts S1x13312
  h_S16 : 0 < S16.numel
  shapeCasts_S16_S16 : S16.ShapeCasts S16
  squeezes_S1x26624_S26624 : S1x26624.Squeezes S26624
  squeezes_S1x13312_S13312 : S1x13312.Squeezes S13312
  inb_S32x13312_S32x13312_0_0 : ∀ a, (![0, 0] : Fin 2 → Nat) a + S32x13312.size a ≤ S32x13312.size a
  h_S32x13312 : 0 < S32x13312.numel
  shapeCasts_S32x13312_S32x13312 : S32x13312.ShapeCasts S32x13312
  reduces_S32x13312_S13312 : S32x13312.Reduces [0] S13312
  shapeCasts_S13312_S1x13312 : S13312.ShapeCasts S1x13312
  slices_S1x13312_o0_8_S1x13304 : S1x13312.Slices ![0, 8] S1x13304
  slices_S1x13312_o0_0_S1x8 : S1x13312.Slices ![0, 0] S1x8
  concatenates_S1x13304_S1x8_S1x13312_d1 : Shape.Concatenates [S1x13304, S1x8] S1x13312 1
  slices_S1x13312_o0_4_S1x13308 : S1x13312.Slices ![0, 4] S1x13308
  slices_S1x13312_o0_0_S1x4 : S1x13312.Slices ![0, 0] S1x4
  concatenates_S1x13308_S1x4_S1x13312_d1 : Shape.Concatenates [S1x13308, S1x4] S1x13312 1
  slices_S1x13312_o0_2_S1x13310 : S1x13312.Slices ![0, 2] S1x13310
  slices_S1x13312_o0_0_S1x2 : S1x13312.Slices ![0, 0] S1x2
  concatenates_S1x13310_S1x2_S1x13312_d1 : Shape.Concatenates [S1x13310, S1x2] S1x13312 1
  slices_S1x13312_o0_1_S1x13311 : S1x13312.Slices ![0, 1] S1x13311
  slices_S1x13312_o0_0_S1x1 : S1x13312.Slices ![0, 0] S1x1
  concatenates_S1x13311_S1x1_S1x13312_d1 : Shape.Concatenates [S1x13311, S1x1] S1x13312 1
  iota_S1x13312_d1_w32 : S1x13312.Iotas .tc 32 [1]
  broadcasts_S1x13312_S1x13312 : S1x13312.Broadcasts S1x13312
  slices_S1x13312_o0_13311_S1x1 : S1x13312.Slices ![0, 13311] S1x1
  slices_S1x13312_o0_0_S1x13311 : S1x13312.Slices ![0, 0] S1x13311
  concatenates_S1x1_S1x13311_S1x13312_d1 : Shape.Concatenates [S1x1, S1x13311] S1x13312 1
  slices_S1x13312_o0_13310_S1x2 : S1x13312.Slices ![0, 13310] S1x2
  slices_S1x13312_o0_0_S1x13310 : S1x13312.Slices ![0, 0] S1x13310
  concatenates_S1x2_S1x13310_S1x13312_d1 : Shape.Concatenates [S1x2, S1x13310] S1x13312 1
  slices_S1x13312_o0_13308_S1x4 : S1x13312.Slices ![0, 13308] S1x4
  slices_S1x13312_o0_0_S1x13308 : S1x13312.Slices ![0, 0] S1x13308
  concatenates_S1x4_S1x13308_S1x13312_d1 : Shape.Concatenates [S1x4, S1x13308] S1x13312 1
  slices_S1x13312_o0_13304_S1x8 : S1x13312.Slices ![0, 13304] S1x8
  slices_S1x13312_o0_0_S1x13304 : S1x13312.Slices ![0, 0] S1x13304
  concatenates_S1x8_S1x13304_S1x13312_d1 : Shape.Concatenates [S1x8, S1x13304] S1x13312 1
  inb_S1x13312_S1x13312_0_0 : ∀ a, (![0, 0] : Fin 2 → Nat) a + S1x13312.size a ≤ S1x13312.size a
  h_S1x13312 : 0 < S1x13312.numel
  shapeCasts_S1x13312_S1x13312 : S1x13312.ShapeCasts S1x13312
  shapeCasts_S1x13312_S1x1x13312 : S1x13312.ShapeCasts S1x1x13312
  reduces_S1x1x13312_S1 : S1x1x13312.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  broadcasts_S1x1_S1x16 : S1x1.Broadcasts S1x16
  inb_S1x16_S1x16_0_0 : ∀ a, (![0, 0] : Fin 2 → Nat) a + S1x16.size a ≤ S1x16.size a
  h_S1x16 : 0 < S1x16.numel
  shapeCasts_S1x13312_S13312 : S1x13312.ShapeCasts S13312
  shapeCasts_S1x16_S16 : S1x16.ShapeCasts S16
  inb_S16_S16_0 : ∀ a, (![0] : Fin 1 → Nat) a + S16.size a ≤ S16.size a
  shapeCasts_S4096_S4096x1 : S4096.ShapeCasts S4096x1
  scatter_S832_S325x1_S325_n_0_0_1_wf : ScatterDims.WF S832 S325x1 S325 [] [0] [0] 1
  hcc0_scoped0 : 0 + S_.numel ≤ 15
  hcc0_scoped1 : 1 + S_.numel ≤ 15
  hcc0_scoped2 : 2 + S_.numel ≤ 15
  hcc0_scoped3 : 3 + S_.numel ≤ 15
  hcc2_scoped0 : 11 + S_.numel ≤ 15
  hcc2_scoped1 : 12 + S_.numel ≤ 15
  hcc2_scoped2 : 13 + S_.numel ≤ 15
  hcc2_scoped3 : 14 + S_.numel ≤ 15
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S16.size a ≤ S13312.size a
  k0_t2_ok : k0_t2_loop.OK
  k0_off2_inb : ∀ (i : grid0.Coords) (k0_t2 : Fin k0_t2_loop.trips), ∀ a, (k0_off2 i k0_t2) a + S1x26624.size a ≤ S256x26624.size a
  k0_t3_ok : k0_t3_loop.OK
  k0_off3_inb : ∀ k0_t3 : Fin k0_t3_loop.trips, ∀ (r₁ : Fin 4) (r₂ : Fin 16), ∀ a, (k0_off3 k0_t3 (BitVec.ofNat 32 (16 * r₁.val)) (BitVec.ofNat 32 r₂.val)) a + S16.size a ≤ S26624.size a
  k0_t4_ok : ∀ k0_t3 : Fin k0_t3_loop.trips, (k0_t4_loop k0_t3).OK
  k0_off4_inb : ∀ (k0_t3 : Fin k0_t3_loop.trips) (k0_t4 : Fin (k0_t4_loop k0_t3).trips), ∀ a, (k0_off4 k0_t3 k0_t4) a + S16.size a ≤ S26624.size a
  k0_off5_inb : ∀ (k0_t3 : Fin k0_t3_loop.trips) (k0_t4 : Fin (k0_t4_loop k0_t3).trips), ∀ (r : Fin 15), ∀ a, (k0_off5 k0_t3 k0_t4 (BitVec.ofNat 32 (1 + r.val))) a + S16.size a ≤ S26624.size a
  k0_off6_inb : ∀ (k0_t3 : Fin k0_t3_loop.trips) (k0_t4 : Fin (k0_t4_loop k0_t3).trips), ∀ a, (k0_off6 k0_t3 k0_t4) a + S16.size a ≤ S512.size a
  k0_t5_ok : ∀ k0_t3 : Fin k0_t3_loop.trips, (k0_t5_loop k0_t3).OK
  k0_off7_inb : ∀ (k0_t3 : Fin k0_t3_loop.trips) (k0_t5 : Fin (k0_t5_loop k0_t3).trips), ∀ a, (k0_off7 k0_t3 k0_t5) a + S16.size a ≤ S26624.size a
  k0_off8_inb : ∀ (k0_t3 : Fin k0_t3_loop.trips) (k0_t5 : Fin (k0_t5_loop k0_t3).trips), ∀ (r : Fin 15), ∀ a, (k0_off8 k0_t3 k0_t5 (BitVec.ofNat 32 (1 + r.val))) a + S16.size a ≤ S26624.size a
  k0_off9_inb : ∀ (k0_t3 : Fin k0_t3_loop.trips) (k0_t5 : Fin (k0_t5_loop k0_t3).trips), ∀ a, (k0_off9 k0_t3 k0_t5) a + S16.size a ≤ S512.size a
  k0_t6_ok : ∀ k0_t3 : Fin k0_t3_loop.trips, (k0_t6_loop k0_t3).OK
  k0_off10_inb : ∀ (k0_t3 : Fin k0_t3_loop.trips) (k0_t6 : Fin (k0_t6_loop k0_t3).trips), ∀ a, (k0_off10 k0_t3 k0_t6) a + S16.size a ≤ S26624.size a
  k0_off11_inb : ∀ (k0_t3 : Fin k0_t3_loop.trips) (k0_t6 : Fin (k0_t6_loop k0_t3).trips), ∀ (r : Fin 15), ∀ a, (k0_off11 k0_t3 k0_t6 (BitVec.ofNat 32 (1 + r.val))) a + S16.size a ≤ S26624.size a
  k0_off12_inb : ∀ (k0_t3 : Fin k0_t3_loop.trips) (k0_t6 : Fin (k0_t6_loop k0_t3).trips), ∀ a, (k0_off12 k0_t3 k0_t6) a + S16.size a ≤ S512.size a
  k0_t7_ok : ∀ k0_t3 : Fin k0_t3_loop.trips, (k0_t7_loop k0_t3).OK
  k0_off13_inb : ∀ (k0_t3 : Fin k0_t3_loop.trips) (k0_t7 : Fin (k0_t7_loop k0_t3).trips), ∀ a, (k0_off13 k0_t3 k0_t7) a + S16.size a ≤ S26624.size a
  k0_off14_inb : ∀ (k0_t3 : Fin k0_t3_loop.trips) (k0_t7 : Fin (k0_t7_loop k0_t3).trips), ∀ (r : Fin 15), ∀ a, (k0_off14 k0_t3 k0_t7 (BitVec.ofNat 32 (1 + r.val))) a + S16.size a ≤ S26624.size a
  k0_off15_inb : ∀ (k0_t3 : Fin k0_t3_loop.trips) (k0_t7 : Fin (k0_t7_loop k0_t3).trips), ∀ a, (k0_off15 k0_t3 k0_t7) a + S16.size a ≤ S512.size a
  k0_t8_ok : ∀ k0_t3 : Fin k0_t3_loop.trips, (k0_t8_loop k0_t3).OK
  k0_off16_inb : ∀ (k0_t3 : Fin k0_t3_loop.trips) (k0_t8 : Fin (k0_t8_loop k0_t3).trips), ∀ a, (k0_off16 k0_t3 k0_t8) a + S16.size a ≤ S26624.size a
  k0_off17_inb : ∀ (k0_t3 : Fin k0_t3_loop.trips) (k0_t8 : Fin (k0_t8_loop k0_t3).trips), ∀ (r : Fin 15), ∀ a, (k0_off17 k0_t3 k0_t8 (BitVec.ofNat 32 (1 + r.val))) a + S16.size a ≤ S26624.size a
  k0_off18_inb : ∀ (k0_t3 : Fin k0_t3_loop.trips) (k0_t8 : Fin (k0_t8_loop k0_t3).trips), ∀ a, (k0_off18 k0_t3 k0_t8) a + S16.size a ≤ S512.size a
  k0_t9_ok : ∀ k0_t3 : Fin k0_t3_loop.trips, (k0_t9_loop k0_t3).OK
  k0_off19_inb : ∀ (k0_t3 : Fin k0_t3_loop.trips) (k0_t9 : Fin (k0_t9_loop k0_t3).trips), ∀ a, (k0_off19 k0_t3 k0_t9) a + S16.size a ≤ S26624.size a
  k0_off20_inb : ∀ (k0_t3 : Fin k0_t3_loop.trips) (k0_t9 : Fin (k0_t9_loop k0_t3).trips), ∀ (r : Fin 15), ∀ a, (k0_off20 k0_t3 k0_t9 (BitVec.ofNat 32 (1 + r.val))) a + S16.size a ≤ S26624.size a
  k0_off21_inb : ∀ (k0_t3 : Fin k0_t3_loop.trips) (k0_t9 : Fin (k0_t9_loop k0_t3).trips), ∀ a, (k0_off21 k0_t3 k0_t9) a + S16.size a ≤ S512.size a
  k0_t10_ok : ∀ k0_t3 : Fin k0_t3_loop.trips, (k0_t10_loop k0_t3).OK
  k0_off22_inb : ∀ (k0_t3 : Fin k0_t3_loop.trips) (k0_t10 : Fin (k0_t10_loop k0_t3).trips), ∀ a, (k0_off22 k0_t3 k0_t10) a + S16.size a ≤ S26624.size a
  k0_off23_inb : ∀ (k0_t3 : Fin k0_t3_loop.trips) (k0_t10 : Fin (k0_t10_loop k0_t3).trips), ∀ (r : Fin 15), ∀ a, (k0_off23 k0_t3 k0_t10 (BitVec.ofNat 32 (1 + r.val))) a + S16.size a ≤ S26624.size a
  k0_off24_inb : ∀ (k0_t3 : Fin k0_t3_loop.trips) (k0_t10 : Fin (k0_t10_loop k0_t3).trips), ∀ a, (k0_off24 k0_t3 k0_t10) a + S16.size a ≤ S512.size a
  k0_t11_ok : ∀ k0_t3 : Fin k0_t3_loop.trips, (k0_t11_loop k0_t3).OK
  k0_off25_inb : ∀ (k0_t3 : Fin k0_t3_loop.trips) (k0_t11 : Fin (k0_t11_loop k0_t3).trips), ∀ a, (k0_off25 k0_t3 k0_t11) a + S16.size a ≤ S26624.size a
  k0_off26_inb : ∀ (k0_t3 : Fin k0_t3_loop.trips) (k0_t11 : Fin (k0_t11_loop k0_t3).trips), ∀ (r : Fin 15), ∀ a, (k0_off26 k0_t3 k0_t11 (BitVec.ofNat 32 (1 + r.val))) a + S16.size a ≤ S26624.size a
  k0_off27_inb : ∀ (k0_t3 : Fin k0_t3_loop.trips) (k0_t11 : Fin (k0_t11_loop k0_t3).trips), ∀ a, (k0_off27 k0_t3 k0_t11) a + S16.size a ≤ S512.size a
  k0_t12_ok : ∀ k0_t3 : Fin k0_t3_loop.trips, (k0_t12_loop k0_t3).OK
  k0_off28_inb : ∀ (k0_t3 : Fin k0_t3_loop.trips) (k0_t12 : Fin (k0_t12_loop k0_t3).trips), ∀ a, (k0_off28 k0_t3 k0_t12) a + S16.size a ≤ S512.size a
  k0_off29_inb : ∀ (k0_t3 : Fin k0_t3_loop.trips) (k0_t12 : Fin (k0_t12_loop k0_t3).trips), ∀ a, (k0_off29 k0_t3 k0_t12) a + S16.size a ≤ S13312.size a
  k0_t13_ok : ∀ k0_t3 : Fin k0_t3_loop.trips, (k0_t13_loop k0_t3).OK
  k0_off30_inb : ∀ (k0_t3 : Fin k0_t3_loop.trips) (k0_t13 : Fin (k0_t13_loop k0_t3).trips), ∀ a, (k0_off30 k0_t3 k0_t13) a + S16.size a ≤ S512.size a
  k0_off31_inb : ∀ (k0_t3 : Fin k0_t3_loop.trips) (k0_t13 : Fin (k0_t13_loop k0_t3).trips), ∀ a, (k0_off31 k0_t3 k0_t13) a + S16.size a ≤ S13312.size a
  k0_off32_inb : ∀ (i : grid0.Coords) (k0_t2 : Fin k0_t2_loop.trips), ∀ a, (k0_off32 i k0_t2) a + S1x13312.size a ≤ S256x13312.size a
  k0_off33_inb : ∀ i : grid0.Coords, ∀ a, (k0_off33 i) a + S1x13312.size a ≤ S32x13312.size a
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hcore2 : grid2.bound 0 ≤ τ.nSC
  hsub2 : grid2.bound 1 ≤ τ.nSub
  k2_t1_ok : k2_t1_loop.OK
  k2_off1_inb : ∀ (i : grid2.Coords) (k2_t1 : Fin k2_t1_loop.trips), ∀ a, (k2_off1 i k2_t1) a + S1x13312.size a ≤ S256x13312.size a
  k2_t2_ok : k2_t2_loop.OK
  k2_t3_ok : ∀ k2_t2 : Fin k2_t2_loop.trips, (k2_t3_loop k2_t2).OK
  k2_off2_inb : ∀ (k2_t2 : Fin k2_t2_loop.trips) (k2_t3 : Fin (k2_t3_loop k2_t2).trips), ∀ a, (k2_off2 k2_t2 k2_t3) a + S16.size a ≤ S13312.size a
  k2_t4_ok : ∀ k2_t2 : Fin k2_t2_loop.trips, (k2_t4_loop k2_t2).OK
  k2_off3_inb : ∀ (k2_t2 : Fin k2_t2_loop.trips) (k2_t4 : Fin (k2_t4_loop k2_t2).trips), ∀ a, (k2_off3 k2_t2 k2_t4) a + S16.size a ≤ S13312.size a
  k2_off4_inb : ∀ (i : grid2.Coords) (k2_t1 : Fin k2_t1_loop.trips), ∀ a, (k2_off4 i k2_t1) a + S16.size a ≤ S4096.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc2_scoped0 : DmaSems sig S_ := SemArray.consecutive 11 S_ hcc2_scoped0
abbrev cc2_scoped1 : DmaSems sig S_ := SemArray.consecutive 12 S_ hcc2_scoped1
abbrev cc2_scoped2 : DmaSems sig S_ := SemArray.consecutive 13 S_ hcc2_scoped2
abbrev cc2_scoped3 : DmaSems sig S_ := SemArray.consecutive 14 S_ hcc2_scoped3
def scatter_S832_S325x1_S325_n_0_0_1 : ScatterDims S832 S325x1 S325 where
  updateWindowDims := []
  insertedWindowDims := [0]
  scatterDimsToOperandDims := [0]
  indexVectorDim := 1
  wf := scatter_S832_S325x1_S325_n_0_0_1_wf

abbrev win1_0 : Pipeline.Window sig grid1 :=
  Pipeline.Window.whole (Memref.whole main_v30_1) false false (stage1_0 0) (sem1_0 0) (Memref.isWhole_whole _) (hstage1_0 0)

abbrev win1_1 : Pipeline.Window sig grid1 :=
  Pipeline.Window.whole (Memref.whole main_v30_2) false false (stage1_1 0) (sem1_1 0) (Memref.isWhole_whole _) (hstage1_1 0)

abbrev win1_2 : Pipeline.Window sig grid1 :=
  Pipeline.Window.whole (Memref.whole main_v11) false false (stage1_2 0) (sem1_2 0) (Memref.isWhole_whole _) (hstage1_2 0)

abbrev win1_3 : Pipeline.Window sig grid1 :=
  Pipeline.Window.whole (Memref.whole main_v20) false false (stage1_3 0) (sem1_3 0) (Memref.isWhole_whole _) (hstage1_3 0)

abbrev win1_4 : Pipeline.Window sig grid1 :=
  Pipeline.Window.whole (Memref.whole main_v29) false false (stage1_4 0) (sem1_4 0) (Memref.isWhole_whole _) (hstage1_4 0)

abbrev win1_5 : Pipeline.Window sig grid1 :=
  Pipeline.Window.whole (Memref.whole main_v31_0) true false (stage1_5 0) (sem1_5 0) (Memref.isWhole_whole _) (hstage1_5 0)

abbrev win1_6 : Pipeline.Window sig grid1 :=
  Pipeline.Window.whole (Memref.whole main_v31_1) true false (stage1_6 0) (sem1_6 0) (Memref.isWhole_whole _) (hstage1_6 0)

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4096x26x64 : Shape := ⟨3, ![4096, 26, 64]⟩
abbrev S325 : Shape := ⟨1, ![325]⟩
abbrev S_ : Shape := ⟨0, ![]⟩
abbrev S325x1 : Shape := ⟨2, ![325, 1]⟩
abbrev S1 : Shape := ⟨1, ![1]⟩
abbrev S1x1 : Shape := ⟨2, ![1, 1]⟩
abbrev S4096x325x64 : Shape := ⟨3, ![4096, 325, 64]⟩
abbrev S4096x325 : Shape := ⟨2, ![4096, 325]⟩
abbrev S1x325 : Shape := ⟨2, ![1, 325]⟩
abbrev S4096 : Shape := ⟨1, ![4096]⟩
abbrev S4096x1 : Shape := ⟨2, ![4096, 1]⟩

abbrev nBuf : Space → Nat
  | .hbm => 105
  | .vmem => 0
  | .smem => 0
  | _ => 0

abbrev bufTy : (tb : Table) → Fin (tcTables nBuf tb) → BufTy
  | .hbm, ⟨0, _⟩ => ⟨S4096x26x64, .f32⟩
  | .hbm, ⟨1, _⟩ => ⟨S325, .f32⟩
  | .hbm, ⟨2, _⟩ => ⟨S325, .f32⟩
  | .hbm, ⟨3, _⟩ => ⟨S325, .f32⟩
  | .hbm, ⟨4, _⟩ => ⟨S325, .i32⟩
  | .hbm, ⟨5, _⟩ => ⟨S325, .i32⟩
  | .hbm, ⟨6, _⟩ => ⟨S_, .i32⟩
  | .hbm, ⟨7, _⟩ => ⟨S325, .i32⟩
  | .hbm, ⟨8, _⟩ => ⟨S325, .i1⟩
  | .hbm, ⟨9, _⟩ => ⟨S_, .i32⟩
  | .hbm, ⟨10, _⟩ => ⟨S325, .i32⟩
  | .hbm, ⟨11, _⟩ => ⟨S325, .i32⟩
  | .hbm, ⟨12, _⟩ => ⟨S325, .i32⟩
  | .hbm, ⟨13, _⟩ => ⟨S325x1, .i32⟩
  | .hbm, ⟨14, _⟩ => ⟨S1, .i32⟩
  | .hbm, ⟨15, _⟩ => ⟨S_, .i32⟩
  | .hbm, ⟨16, _⟩ => ⟨S325x1, .i32⟩
  | .hbm, ⟨17, _⟩ => ⟨S325x1, .i1⟩
  | .hbm, ⟨18, _⟩ => ⟨S1x1, .i32⟩
  | .hbm, ⟨19, _⟩ => ⟨S325x1, .i32⟩
  | .hbm, ⟨20, _⟩ => ⟨S325x1, .i1⟩
  | .hbm, ⟨21, _⟩ => ⟨S325x1, .i1⟩
  | .hbm, ⟨22, _⟩ => ⟨S_, .i1⟩
  | .hbm, ⟨23, _⟩ => ⟨S325, .i1⟩
  | .hbm, ⟨24, _⟩ => ⟨S4096x325x64, .f32⟩
  | .hbm, ⟨25, _⟩ => ⟨S4096x325x64, .i1⟩
  | .hbm, ⟨26, _⟩ => ⟨S_, .f32⟩
  | .hbm, ⟨27, _⟩ => ⟨S4096x325x64, .f32⟩
  | .hbm, ⟨28, _⟩ => ⟨S4096x325x64, .f32⟩
  | .hbm, ⟨29, _⟩ => ⟨S_, .i32⟩
  | .hbm, ⟨30, _⟩ => ⟨S325, .i32⟩
  | .hbm, ⟨31, _⟩ => ⟨S325, .i1⟩
  | .hbm, ⟨32, _⟩ => ⟨S_, .i32⟩
  | .hbm, ⟨33, _⟩ => ⟨S325, .i32⟩
  | .hbm, ⟨34, _⟩ => ⟨S325, .i32⟩
  | .hbm, ⟨35, _⟩ => ⟨S325, .i32⟩
  | .hbm, ⟨36, _⟩ => ⟨S325x1, .i32⟩
  | .hbm, ⟨37, _⟩ => ⟨S1, .i32⟩
  | .hbm, ⟨38, _⟩ => ⟨S_, .i32⟩
  | .hbm, ⟨39, _⟩ => ⟨S325x1, .i32⟩
  | .hbm, ⟨40, _⟩ => ⟨S325x1, .i1⟩
  | .hbm, ⟨41, _⟩ => ⟨S1x1, .i32⟩
  | .hbm, ⟨42, _⟩ => ⟨S325x1, .i32⟩
  | .hbm, ⟨43, _⟩ => ⟨S325x1, .i1⟩
  | .hbm, ⟨44, _⟩ => ⟨S325x1, .i1⟩
  | .hbm, ⟨45, _⟩ => ⟨S_, .i1⟩
  | .hbm, ⟨46, _⟩ => ⟨S325, .i1⟩
  | .hbm, ⟨47, _⟩ => ⟨S4096x325x64, .f32⟩
  | .hbm, ⟨48, _⟩ => ⟨S4096x325x64, .i1⟩
  | .hbm, ⟨49, _⟩ => ⟨S_, .f32⟩
  | .hbm, ⟨50, _⟩ => ⟨S4096x325x64, .f32⟩
  | .hbm, ⟨51, _⟩ => ⟨S4096x325x64, .f32⟩
  | .hbm, ⟨52, _⟩ => ⟨S4096x325x64, .f32⟩
  | .hbm, ⟨53, _⟩ => ⟨S_, .f32⟩
  | .hbm, ⟨54, _⟩ => ⟨S4096x325, .f32⟩
  | .hbm, ⟨55, _⟩ => ⟨S_, .f32⟩
  | .hbm, ⟨56, _⟩ => ⟨S325, .f32⟩
  | .hbm, ⟨57, _⟩ => ⟨S1x325, .f32⟩
  | .hbm, ⟨58, _⟩ => ⟨S_, .f32⟩
  | .hbm, ⟨59, _⟩ => ⟨S1x325, .f32⟩
  | .hbm, ⟨60, _⟩ => ⟨S1x325, .f32⟩
  | .hbm, ⟨61, _⟩ => ⟨S_, .i32⟩
  | .hbm, ⟨62, _⟩ => ⟨S_, .f32⟩
  | .hbm, ⟨63, _⟩ => ⟨S325, .f32⟩
  | .hbm, ⟨64, _⟩ => ⟨S1x325, .f32⟩
  | .hbm, ⟨65, _⟩ => ⟨S_, .f32⟩
  | .hbm, ⟨66, _⟩ => ⟨S1x325, .f32⟩
  | .hbm, ⟨67, _⟩ => ⟨S1x325, .f32⟩
  | .hbm, ⟨68, _⟩ => ⟨S4096x325, .f32⟩
  | .hbm, ⟨69, _⟩ => ⟨S4096x325, .f32⟩
  | .hbm, ⟨70, _⟩ => ⟨S4096x325, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S325, .f32⟩
  | .hbm, ⟨76, _⟩ => ⟨S1x325, .f32⟩
  | .hbm, ⟨77, _⟩ => ⟨S1x325, .f32⟩
  | .hbm, ⟨78, _⟩ => ⟨S1x325, .f32⟩
  | .hbm, ⟨79, _⟩ => ⟨S_, .f32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S1x325, .f32⟩
  | .hbm, ⟨84, _⟩ => ⟨S1x325, .f32⟩
  | .hbm, ⟨85, _⟩ => ⟨S4096x325, .f32⟩
  | .hbm, ⟨86, _⟩ => ⟨S4096x325, .f32⟩
  | .hbm, ⟨87, _⟩ => ⟨S_, .f32⟩
  | .hbm, ⟨88, _⟩ => ⟨S1x325, .f32⟩
  | .hbm, ⟨89, _⟩ => ⟨S1x325, .f32⟩
  | .hbm, ⟨90, _⟩ => ⟨S1x325, .f32⟩
  | .hbm, ⟨91, _⟩ => ⟨S4096x325, .f32⟩
  | .hbm, ⟨92, _⟩ => ⟨S4096x325, .f32⟩
  | .hbm, ⟨93, _⟩ => ⟨S1x325, .f32⟩
  | .hbm, ⟨94, _⟩ => ⟨S4096x325, .f32⟩
  | .hbm, ⟨95, _⟩ => ⟨S4096x325, .f32⟩
  | .hbm, ⟨96, _⟩ => ⟨S1x325, .f32⟩
  | .hbm, ⟨97, _⟩ => ⟨S4096x325, .f32⟩
  | .hbm, ⟨98, _⟩ => ⟨S4096x325, .f32⟩
  | .hbm, ⟨99, _⟩ => ⟨S1x325, .f32⟩
  | .hbm, ⟨100, _⟩ => ⟨S4096x325, .f32⟩
  | .hbm, ⟨101, _⟩ => ⟨S4096x325, .f32⟩
  | .hbm, ⟨102, _⟩ => ⟨S_, .f32⟩
  | .hbm, ⟨103, _⟩ => ⟨S4096, .f32⟩
  | .hbm, ⟨104, _⟩ => ⟨S4096x1, .f32⟩
  | _, _ => ⟨S4096x26x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_cst : Ref sig .tc := ⟨.hbm, 53, rfl⟩
abbrev main_v3 : Ref sig .tc := ⟨.hbm, 54, rfl⟩
abbrev main_cst_1 : Ref sig .tc := ⟨.hbm, 55, rfl⟩
abbrev main_v4 : Ref sig .tc := ⟨.hbm, 56, rfl⟩
abbrev main_v5 : Ref sig .tc := ⟨.hbm, 57, rfl⟩
abbrev main_cst_2 : Ref sig .tc := ⟨.hbm, 58, rfl⟩
abbrev main_v6 : Ref sig .tc := ⟨.hbm, 59, rfl⟩
abbrev main_v7 : Ref sig .tc := ⟨.hbm, 60, rfl⟩
abbrev main_c_3 : Ref sig .tc := ⟨.hbm, 61, rfl⟩
abbrev main_call2_cst : Ref sig .tc := ⟨.hbm, 62, rfl⟩
abbrev main_call2_v0 : Ref sig .tc := ⟨.hbm, 63, rfl⟩
abbrev main_call2_v1 : Ref sig .tc := ⟨.hbm, 64, rfl⟩
abbrev main_call2_cst_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_cst_1 : Ref sig .tc := ⟨.hbm, 72, rfl⟩
abbrev main_call2_v8 : Ref sig .tc := ⟨.hbm, 73, rfl⟩
abbrev main_call2_cst_2 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_v12 : Ref sig .tc := ⟨.hbm, 78, rfl⟩
abbrev main_call2_cst_3 : Ref sig .tc := ⟨.hbm, 79, rfl⟩
abbrev main_call2_v13 : Ref sig .tc := ⟨.hbm, 80, rfl⟩
abbrev main_call2_cst_4 : Ref sig .tc := ⟨.hbm, 81, rfl⟩
abbrev main_call2_call0_v0 : Ref sig .tc := ⟨.hbm, 82, rfl⟩
abbrev main_call2_call0_v1 : Ref sig .tc := ⟨.hbm, 83, rfl⟩
abbrev main_v8 : Ref sig .tc := ⟨.hbm, 84, rfl⟩
abbrev main_v9 : Ref sig .tc := ⟨.hbm, 85, rfl⟩
abbrev main_v10 : Ref sig .tc := ⟨.hbm, 86, rfl⟩
abbrev main_cst_4 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_v14 : Ref sig .tc := ⟨.hbm, 91, rfl⟩
abbrev main_v15 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_cst_5 : Ref sig .tc := ⟨.hbm, 102, rfl⟩
abbrev main_v25 : Ref sig .tc := ⟨.hbm, 103, rfl⟩
abbrev main_v26 : Ref sig .tc := ⟨.hbm, 104, rfl⟩

abbrev nD : Nat := 1
abbrev τ : Topo := Topo.v7x

variable {F : FTy → Type} [FloatOps F]

class Facts₀ : Prop where
  bcast_S_S325 : S_.BroadcastsInDim S325 (![] : Fin 0 → Fin S325.rank)
  bcast_S325_S325x1_0 : S325.BroadcastsInDim S325x1 (![0] : Fin 1 → Fin S325x1.rank)
  bcast_S_S325x1 : S_.BroadcastsInDim S325x1 (![] : Fin 0 → Fin S325x1.rank)
  bcast_S1_S1x1_1 : S1.BroadcastsInDim S1x1 (![1] : Fin 1 → Fin S1x1.rank)
  bcast_S1x1_S325x1_0_1 : S1x1.BroadcastsInDim S325x1 (![0, 1] : Fin 2 → Fin S325x1.rank)
  reducesTo_S325x1_S325_d1 : S325x1.ReducesTo [1] S325
  h_S_ : 0 < S_.numel
  bcast_S325_S4096x325x64_1 : S325.BroadcastsInDim S4096x325x64 (![1] : Fin 1 → Fin S4096x325x64.rank)
  bcast_S_S4096x325x64 : S_.BroadcastsInDim S4096x325x64 (![] : Fin 0 → Fin S4096x325x64.rank)
  reducesTo_S4096x325x64_S4096x325_d2 : S4096x325x64.ReducesTo [2] S4096x325
  reducesTo_S4096x325_S325_d0 : S4096x325.ReducesTo [0] S325
  bcast_S325_S1x325_1 : S325.BroadcastsInDim S1x325 (![1] : Fin 1 → Fin S1x325.rank)
  bcast_S_S1x325 : S_.BroadcastsInDim S1x325 (![] : Fin 0 → Fin S1x325.rank)
  bcast_S1x325_S4096x325_0_1 : S1x325.BroadcastsInDim S4096x325 (![0, 1] : Fin 2 → Fin S4096x325.rank)
  reducesTo_S4096x325_S4096_d1 : S4096x325.ReducesTo [1] S4096
  bcast_S4096_S4096x1_0 : S4096.BroadcastsInDim S4096x1 (![0] : Fin 1 → Fin S4096x1.rank)
  gather_S4096x26x64_S325x1_S4096x325x64_02_1_n_n_1_1_4096164_wf : GatherDims.WF S4096x26x64 S325x1 S4096x325x64 [0, 2] [1] [] [1] [] 1 ![4096, 1, 64]

variable [Facts₀]

def gather_S4096x26x64_S325x1_S4096x325x64_02_1_n_n_1_1_4096164 : GatherDims S4096x26x64 S325x1 S4096x325x64 where
  offsetDims := [0, 2]
  collapsedSliceDims := [1]
  operandBatchingDims := []
  startIndicesBatchingDims := []
  startIndexMap := [1]
  indexVectorDim := 1
  sliceSizes := ![4096, 1, 64]
  wf := gather_S4096x26x64_S325x1_S4096x325x64_02_1_n_n_1_1_4096164_wf

class Facts : Prop extends Facts₀ where

variable [Facts]
-- ==== Proof.CommonW.lean ====
/-
  Shared vocabulary for the kernel program's frame: the program as the SparseCore launch theorem sees it (two
  vector-subcore calls around one TensorCore region), the resource algebra (the handshakes' rounds, the region's
  staging cells' rounds, the transfers' counters), the arrays the calls move, and what each vector subcore is handed
  at a call and hands back.

  Call 0 (the moments): subcore (c, s), worker w = 2 s + c, reads rows 8 w .. 8 w + 7 of the regrouped input
  (26624 words each: field, feature, lane), writes the same rows of the pair-product array (13312 words each: pair
  slot q = 32 j + i, lane) and row w of each of the two partial-sum arrays.
  Call 1 (the output): the same worker reads its eight rows of the pair-product array, the whole scale vector and the
  whole offset vector, and writes the eight 16-word segments 16 (8 w + g) .. of the result.
  Every word a subcore writes lies in a row or segment that is its own; what it only reads it holds a read share of.
-/
import proofs.«210137_g30502857736458_cont_9to1_2222_4_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic
import proofs.«210137_g30502857736458_cont_9to1_2222_4_alg».proof.Proof.Gen.Kernel
import proofs.«210137_g30502857736458_cont_9to1_2222_4_alg».proof.Proof.Gen.Kernel.Skeleton

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 2 := sc (F := F)
theorem nSub_eq (q : Fin 2) : (K (F := F)).nSub q = 16 := by
  match q with
  | 0 => rfl
  | 1 => rfl
theorem nCore_eq (q : Fin 2) : (K (F := F)).nCore q = 2 := by
  match q with
  | 0 => rfl
  | 1 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb
instance EP_landsIn : (EP : Emb UP 𝕄).LandsIn (upEmb : UEmb _ 𝕄) := by unfold EP; infer_instance

/-! ## The arrays -/

abbrev xgLoc (d : Dev nD) : Loc nD τ sig := (SparseCore.T d).loc main_v2
abbrev itLoc (d : Dev nD) : Loc nD τ sig := (SparseCore.T d).loc main_v30_0
abbrev s1Loc (d : Dev nD) : Loc nD τ sig := (SparseCore.T d).loc main_v30_1
abbrev s2Loc (d : Dev nD) : Loc nD τ sig := (SparseCore.T d).loc main_v30_2
abbrev alLoc (d : Dev nD) : Loc nD τ sig := (SparseCore.T d).loc main_v32
abbrev cvLoc (d : Dev nD) : Loc nD τ sig := (SparseCore.T d).loc main_v33
abbrev otLoc (d : Dev nD) : Loc nD τ sig := (SparseCore.T d).loc main_v34

abbrev xgV : Memref sig .scVector .hbm S256x26624 .f32 := Memref.whole main_v2_scv
abbrev itV : Memref sig .scVector .hbm S256x13312 .f32 := Memref.whole main_v30_0_scv
abbrev s1V : Memref sig .scVector .hbm S32x13312 .f32 := Memref.whole main_v30_1_scv
abbrev s2V : Memref sig .scVector .hbm S32x13312 .f32 := Memref.whole main_v30_2_scv
abbrev alV : Memref sig .scVector .hbm S13312 .f32 := Memref.whole main_v32_scv
abbrev cvV : Memref sig .scVector .hbm S16 .f32 := Memref.whole main_v33_scv
abbrev otV : Memref sig .scVector .hbm S4096 .f32 := Memref.whole main_v34_scv

/-- Subcore L's worker number 2 s + c, below 32. -/
def wid (L : grid0.Coords) : Fin 32 := ⟨2 * (L 1).val + (L 0).val, by
  have h0 : (L 0).val < 2 := (L 0).isLt
  have h1 : (L 1).val < 16 := (L 1).isLt
  omega⟩

/-- Row 8 w + g of the pair-product array, as call 0's task slices it for its write-out of group g. -/
abbrev itRowM (L : grid0.Coords) (g : Fin k0_t2_loop.trips) : Memref sig .scVector .hbm S13312 .f32 :=
  ((itV).slice (Rect.unit (s := S256x13312) (k0_off32 L g) S1x13312.size (k0_off32_inb L g)) (fun _ => rfl)).squeeze S13312 squeezes_S1x13312_S13312
/-- Row w of each partial-sum array, as call 0's task slices it. -/
abbrev s1RowM (L : grid0.Coords) : Memref sig .scVector .hbm S13312 .f32 :=
  ((s1V).slice (Rect.unit (s := S32x13312) (k0_off33 L) S1x13312.size (k0_off33_inb L)) (fun _ => rfl)).squeeze S13312 squeezes_S1x13312_S13312
abbrev s2RowM (L : grid0.Coords) : Memref sig .scVector .hbm S13312 .f32 :=
  ((s2V).slice (Rect.unit (s := S32x13312) (k0_off33 L) S1x13312.size (k0_off33_inb L)) (fun _ => rfl)).squeeze S13312 squeezes_S1x13312_S13312
/-- Segment 8 w + g (16 words) of the result, as call 1's task slices it for group g. -/
abbrev otSegM (L : grid2.Coords) (g : Fin k2_t1_loop.trips) : Memref sig .scVector .hbm S16 .f32 :=
  (otV).slice (Rect.unit (s := S4096) (k2_off4 L g) S16.size (k2_off4_inb L g)) (fun _ => rfl)

/-- The read share of a whole array that worker w of 32 holds. -/
abbrev rq (w : Fin 32) : PosShare TreeShare := Transfers.shareTok fullShare 32 w

variable [FloatOps F]

/-- The pieces a subcore holds, each at whatever it holds: a read share of a whole array; a row or segment of its own. -/
def xgSh (d : Dev nD) (w : Fin 32) : sProp 𝕄 := iprop(∃ f, xgLoc d ↦{rq w} f)
def itSh (d : Dev nD) (w : Fin 32) : sProp 𝕄 := iprop(∃ f, itLoc d ↦{rq w} f)
def alSh (d : Dev nD) (w : Fin 32) : sProp 𝕄 := iprop(∃ f, alLoc d ↦{rq w} f)
def cvSh (d : Dev nD) (w : Fin 32) : sProp 𝕄 := iprop(∃ f, cvLoc d ↦{rq w} f)
def itRowPts (d : Dev nD) (L : grid0.Coords) (g : Fin k0_t2_loop.trips) : sProp 𝕄 := iprop(∃ f, itLoc d ↦[(itRowM L g).view.set]{fullShare} f)
def s1RowPts (d : Dev nD) (L : grid0.Coords) : sProp 𝕄 := iprop(∃ f, s1Loc d ↦[(s1RowM L).view.set]{fullShare} f)
def s2RowPts (d : Dev nD) (L : grid0.Coords) : sProp 𝕄 := iprop(∃ f, s2Loc d ↦[(s2RowM L).view.set]{fullShare} f)
def otSegPts (d : Dev nD) (L : grid2.Coords) (g : Fin k2_t1_loop.trips) : sProp 𝕄 := iprop(∃ f, otLoc d ↦[(otSegM L g).view.set]{fullShare} f)

instance xgSh_storable (d : Dev nD) (w : Fin 32) : BI.Storable (upEmb : UEmb _ 𝕄) (xgSh (F := F) d w) := by unfold xgSh; infer_instance
instance itSh_storable (d : Dev nD) (w : Fin 32) : BI.Storable (upEmb : UEmb _ 𝕄) (itSh (F := F) d w) := by unfold itSh; infer_instance
instance alSh_storable (d : Dev nD) (w : Fin 32) : BI.Storable (upEmb : UEmb _ 𝕄) (alSh (F := F) d w) := by unfold alSh; infer_instance
instance cvSh_storable (d : Dev nD) (w : Fin 32) : BI.Storable (upEmb : UEmb _ 𝕄) (cvSh (F := F) d w) := by unfold cvSh; infer_instance
instance itRowPts_storable (d : Dev nD) (L : grid0.Coords) (g : Fin k0_t2_loop.trips) : BI.Storable (upEmb : UEmb _ 𝕄) (itRowPts (F := F) d L g) := by unfold itRowPts; infer_instance
instance s1RowPts_storable (d : Dev nD) (L : grid0.Coords) : BI.Storable (upEmb : UEmb _ 𝕄) (s1RowPts (F := F) d L) := by unfold s1RowPts; infer_instance
instance s2RowPts_storable (d : Dev nD) (L : grid0.Coords) : BI.Storable (upEmb : UEmb _ 𝕄) (s2RowPts (F := F) d L) := by unfold s2RowPts; infer_instance
instance otSegPts_storable (d : Dev nD) (L : grid2.Coords) (g : Fin k2_t1_loop.trips) : BI.Storable (upEmb : UEmb _ 𝕄) (otSegPts (F := F) d L g) := by unfold otSegPts; infer_instance

/-- What call 0 hands subcore L and takes back: a read share of the regrouped input, its eight rows of the
    pair-product array and its row of each partial-sum array. -/
def G0 (d : Dev nD) (L : grid0.Coords) : sProp 𝕄 :=
  iprop(xgSh d (wid L) ∗ (bigSep Finset.univ fun g : Fin k0_t2_loop.trips => itRowPts d L g) ∗ s1RowPts d L ∗ s2RowPts d L)

/-- What call 1 hands subcore L and takes back: read shares of the pair-product array, the scale vector and the
    offset vector, and its eight segments of the result. -/
def G1 (d : Dev nD) (L : grid2.Coords) : sProp 𝕄 :=
  iprop(itSh d (wid L) ∗ alSh d (wid L) ∗ cvSh d (wid L) ∗ (bigSep Finset.univ fun g : Fin k2_t1_loop.trips => otSegPts d L g))

def coordsV (c : Fin 2) (s : Fin 16) : grid0.Coords :=
  fun | 0 => c | 1 => s | ⟨_ + 2, h⟩ => absurd h (Nat.not_lt.2 (Nat.le_add_left _ _))

/-- The calls' payloads: a SparseCore's share is its sixteen subcores' shares side by side; nothing changes shape
    between the way in and the way out. -/
def P : (K (F := F)).Pay (nD := nD) (Val := Elt F) (Name := ℕ) (U := UU) where
  st := fun q d c => match q with
    | 0 => bigSep Finset.univ fun s : Fin 16 => G0 d (coordsV (Fin.cast (nCore_eq 0) c) s)
    | 1 => bigSep Finset.univ fun s : Fin 16 => G1 d (coordsV (Fin.cast (nCore_eq 1) c) s)
  dn := fun q d c => match q with
    | 0 => bigSep Finset.univ fun s : Fin 16 => G0 d (coordsV (Fin.cast (nCore_eq 0) c) s)
    | 1 => bigSep Finset.univ fun s : Fin 16 => G1 d (coordsV (Fin.cast (nCore_eq 1) c) s)
  go := fun q d c i => match q with
    | 0 => G0 d (coordsV (Fin.cast (nCore_eq 0) c) (Fin.cast (nSub_eq 0) i))
    | 1 => G1 d (coordsV (Fin.cast (nCore_eq 1) c) (Fin.cast (nSub_eq 1) i))
  td := fun q d c i => match q with
    | 0 => G0 d (coordsV (Fin.cast (nCore_eq 0) c) (Fin.cast (nSub_eq 0) i))
    | 1 => G1 d (coordsV (Fin.cast (nCore_eq 1) c) (Fin.cast (nSub_eq 1) i))
  x := fun _ _ => iprop(emp)

instance G0_storable (d : Dev nD) (L : grid0.Coords) : BI.Storable (upEmb : UEmb _ 𝕄) (G0 (F := F) d L) := by
  unfold G0; infer_instance
instance G1_storable (d : Dev nD) (L : grid2.Coords) : BI.Storable (upEmb : UEmb _ 𝕄) (G1 (F := F) d L) := by
  unfold G1; infer_instance

instance P_storable : (P (F := F)).IsStorable where
  st q d c := by
    match q with
    | 0 => unfold P; infer_instance
    | 1 => unfold P; infer_instance
  dn q d c := by
    match q with
    | 0 => unfold P; infer_instance
    | 1 => unfold P; infer_instance
  go q d c i := by
    match q with
    | 0 => unfold P; infer_instance
    | 1 => unfold P; infer_instance
  td q d c i := by
    match q with
    | 0 => unfold P; infer_instance
    | 1 => unfold P; infer_instance

end Cert.Proof.KW

end
-- ==== Proof.SplitW.lean ====
/-
  An array held whole is its pieces held side by side, and back: over any family of pairwise disjoint index sets that
  cover the array (each piece at whatever it holds), and as thirty-two read shares. The families used are the rows
  8 w + g of the pair-product array, the rows w of the partial-sum arrays and the 16-word segments 8 w + g of the
  result, w = 2 s + c running over the thirty-two subcores (c, s) and g over the eight groups: row r belongs to
  exactly one (c, s, g), namely s = r / 16, c = (r / 8) mod 2, g = r mod 8.
-/
import proofs.«210137_g30502857736458_cont_9to1_2222_4_alg».proof.Proof.CommonW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## Pieces, in general -/

section Generic

variable {ℓ : Loc nD τ sig} {I : Type} [Fintype I] [DecidableEq I] (A : I → Finset (Idx ℓ))

theorem whole_pieces (hd : ∀ t t', t ≠ t' → Disjoint (A t) (A t')) (hc : Finset.univ.biUnion A = Finset.univ) (f : Buf (Elt F) ℓ) :
    (ℓ ↦{fullShare} f : sProp 𝕄) ⊢ bigSep Finset.univ fun t => iprop(∃ g, ℓ ↦[A t]{fullShare} g) := by
  have e : (ℓ ↦{fullShare} f : sProp 𝕄) = bigSep Finset.univ fun t => ℓ ↦[A t]{fullShare} f := by
    rw [← pointsTo_biUnion Finset.univ A (fun t _ t' _ h => hd t t' h), hc]
  rw [e]
  exact bigSep_mono fun t _ => exists_intro (Φ := fun g : Buf (Elt F) ℓ => (ℓ ↦[A t]{fullShare} g : sProp 𝕄)) f

theorem pieces_whole (hd : ∀ t t', t ≠ t' → Disjoint (A t) (A t')) (hc : Finset.univ.biUnion A = Finset.univ) [Nonempty (Buf (Elt F) ℓ)] :
    (bigSep Finset.univ fun t => iprop(∃ g, ℓ ↦[A t]{fullShare} g)) ⊢ (iprop(∃ g, ℓ ↦{fullShare} g) : sProp 𝕄) := by
  refine (bigSep_exists_pi Finset.univ (fun t (g : Buf (Elt F) ℓ) => (ℓ ↦[A t]{fullShare} g : sProp 𝕄))).trans ?_
  iintro ⟨%fs, H⟩
  ihave H' := (pointsTo_biUnion_join (ℓ := ℓ) (q := fullShare) (Val := Elt F) Finset.univ A fs (Classical.choice inferInstance) (fun t _ t' _ h => hd t t' h)) $$ H
  icases H' with ⟨%g, -, Hg⟩
  rw [hc]
  iexists g; iexact Hg

theorem whole_shares (f : Buf (Elt F) ℓ) :
    (ℓ ↦{fullShare} f : sProp 𝕄) ⊢ bigSep Finset.univ fun w : Fin 32 => iprop(∃ g, ℓ ↦{rq w} g) := by
  refine (Transfers.pointsTo_toks_split (S := Finset.univ) (f := f) fullShare 32).trans (sep_elim_right.trans (bigSep_mono fun w _ => ?_))
  exact exists_intro (Φ := fun g : Buf (Elt F) ℓ => (ℓ ↦{rq w} g : sProp 𝕄)) f

end Generic

/-! ## The thirty-two subcores and their eight groups -/

theorem trips0 : k0_t2_loop.trips = 8 := by decide
theorem trips2 : k2_t1_loop.trips = 8 := by decide

/-- Subcore (c, s) is worker 2 s + c. -/
def widE : Fin 2 × Fin 16 ≃ Fin 32 where
  toFun p := wid (coordsV p.1 p.2)
  invFun w := (⟨w.val % 2, Nat.mod_lt _ (by decide)⟩, ⟨w.val / 2, by have := w.isLt; omega⟩)
  left_inv := by
    rintro ⟨c, s⟩
    have hc := c.isLt; have hs := s.isLt
    ext <;> simp [wid, coordsV] <;> omega
  right_inv := by
    intro w
    have hw := w.isLt
    ext; simp [wid, coordsV]; omega

theorem bigSep_workers (Φ : Fin 32 → sProp 𝕄) :
    bigSep Finset.univ Φ = bigSep Finset.univ fun c : Fin 2 => bigSep Finset.univ fun s : Fin 16 => Φ (wid (coordsV c s)) := by
  rw [bigSep_univ_equiv widE Φ, bigSep_univ_prod]; rfl

end Cert.Proof.KW

end
-- ==== Proof.RowsW.lean ====
/-
  Which words of an array a subcore's row or segment holds, and that the rows (segments) of the thirty-two subcores
  and eight groups are pairwise disjoint and cover the array: word (r, k) of the pair-product array lies in the row of
  (c, s, g) exactly when r = 16 s + 8 c + g; word (r, k) of a partial-sum array in the row of (c, s) exactly when
  r = 2 s + c; word n of the result in the segment of (c, s, g) exactly when n / 16 = 16 s + 8 c + g.
-/
import proofs.«210137_g30502857736458_cont_9to1_2222_4_alg».proof.Proof.CommonW
import proofs.«210137_g30502857736458_cont_9to1_2222_4_alg».proof.Proof.SplitW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

theorem set_itRowM (L : grid0.Coords) (g : Fin k0_t2_loop.trips) :
    (itRowM L g).view.set = (Rect.unit (s := S256x13312) (k0_off32 L g) S1x13312.size (k0_off32_inb L g)).set := by
  show (((itV).view.slice (Rect.unit (s := S256x13312) (k0_off32 L g) S1x13312.size (k0_off32_inb L g))).reshape S13312 squeezes_S1x13312_S13312.numel_eq).set = _
  rw [View.set_reshape, View.set_slice]; exact Finset.map_refl

theorem mem_itRowM (L : grid0.Coords) (g : Fin k0_t2_loop.trips) (i : S256x13312.Idx) :
    i ∈ (itRowM L g).view.set ↔ (i 0).val = 16 * (L 1).val + 8 * (L 0).val + g.val := by
  rw [set_itRowM, Rect.mem_set_unit, k0_off32_eq]
  constructor
  · intro h; have h0 := h 0; simp at h0; omega
  · intro h a
    match a with
    | 0 => simp; omega
    | 1 => simp; exact (i 1).isLt

theorem set_s1RowM (L : grid0.Coords) :
    (s1RowM L).view.set = (Rect.unit (s := S32x13312) (k0_off33 L) S1x13312.size (k0_off33_inb L)).set := by
  show (((s1V).view.slice (Rect.unit (s := S32x13312) (k0_off33 L) S1x13312.size (k0_off33_inb L))).reshape S13312 squeezes_S1x13312_S13312.numel_eq).set = _
  rw [View.set_reshape, View.set_slice]; exact Finset.map_refl
theorem set_s2RowM (L : grid0.Coords) :
    (s2RowM L).view.set = (Rect.unit (s := S32x13312) (k0_off33 L) S1x13312.size (k0_off33_inb L)).set := by
  show (((s2V).view.slice (Rect.unit (s := S32x13312) (k0_off33 L) S1x13312.size (k0_off33_inb L))).reshape S13312 squeezes_S1x13312_S13312.numel_eq).set = _
  rw [View.set_reshape, View.set_slice]; exact Finset.map_refl

theorem mem_sRow (L : grid0.Coords) (i : S32x13312.Idx) :
    i ∈ (Rect.unit (s := S32x13312) (k0_off33 L) S1x13312.size (k0_off33_inb L)).set ↔ (i 0).val = 2 * (L 1).val + (L 0).val := by
  rw [Rect.mem_set_unit, k0_off33_eq]
  constructor
  · intro h; have h0 := h 0; simp at h0; omega
  · intro h a
    match a with
    | 0 => simp; omega
    | 1 => simp; exact (i 1).isLt

theorem set_otSegM (L : grid2.Coords) (g : Fin k2_t1_loop.trips) :
    (otSegM L g).view.set = (Rect.unit (s := S4096) (k2_off4 L g) S16.size (k2_off4_inb L g)).set := by
  show ((otV).view.slice (Rect.unit (s := S4096) (k2_off4 L g) S16.size (k2_off4_inb L g))).set = _
  rw [View.set_slice]; exact Finset.map_refl

theorem mem_otSegM (L : grid2.Coords) (g : Fin k2_t1_loop.trips) (i : S4096.Idx) :
    i ∈ (otSegM L g).view.set ↔ (i 0).val / 16 = 16 * (L 1).val + 8 * (L 0).val + g.val := by
  rw [set_otSegM, Rect.mem_set_unit, k2_off4_eq]
  constructor
  · intro h; have h0 := h 0; simp at h0; omega
  · intro h a
    match a with
    | 0 => simp; omega

/-! ## The families -/

abbrev T3 : Type := Fin 2 × Fin 16 × Fin 8
abbrev T2 : Type := Fin 2 × Fin 16

def g0 (g : Fin 8) : Fin k0_t2_loop.trips := Fin.cast trips0.symm g
def g2 (g : Fin 8) : Fin k2_t1_loop.trips := Fin.cast trips2.symm g

def itA (p : T3) : Finset S256x13312.Idx := (itRowM (coordsV p.1 p.2.1) (g0 p.2.2)).view.set
def s1A (p : T2) : Finset S32x13312.Idx := (s1RowM (coordsV p.1 p.2)).view.set
def s2A (p : T2) : Finset S32x13312.Idx := (s2RowM (coordsV p.1 p.2)).view.set
def otA (p : T3) : Finset S4096.Idx := (otSegM (coordsV p.1 p.2.1) (g2 p.2.2)).view.set

theorem coordsV_0 (c : Fin 2) (s : Fin 16) : ((coordsV c s) 0).val = c.val := rfl
theorem coordsV_1 (c : Fin 2) (s : Fin 16) : ((coordsV c s) 1).val = s.val := rfl

theorem itA_disj (p p' : T3) (h : p ≠ p') : Disjoint (itA p) (itA p') := by
  rw [Finset.disjoint_left]
  intro i h1 h2
  unfold itA at h1 h2
  rw [mem_itRowM, coordsV_0, coordsV_1] at h1 h2
  obtain ⟨c, s, g⟩ := p; obtain ⟨c', s', g'⟩ := p'
  have := c.isLt; have := c'.isLt; have := g.isLt; have := g'.isLt; have := s.isLt; have := s'.isLt
  simp only [g0, Fin.val_cast] at h1 h2
  apply h
  have e1 : s.val = s'.val := by omega
  have e2 : c.val = c'.val := by omega
  have e3 : g.val = g'.val := by omega
  rw [Fin.ext e1, Fin.ext e2, Fin.ext e3]

theorem itA_cover : (Finset.univ : Finset T3).biUnion itA = Finset.univ := by
  ext i
  simp only [Finset.mem_biUnion, Finset.mem_univ, true_and, iff_true]
  have hi : (i 0).val < 256 := (i 0).isLt
  refine ⟨(⟨((i 0).val / 8) % 2, Nat.mod_lt _ (by decide)⟩, ⟨(i 0).val / 16, by omega⟩, ⟨(i 0).val % 8, Nat.mod_lt _ (by decide)⟩), ?_⟩
  unfold itA
  rw [mem_itRowM, coordsV_0, coordsV_1]
  simp only [g0, Fin.val_cast]
  omega

theorem otA_disj (p p' : T3) (h : p ≠ p') : Disjoint (otA p) (otA p') := by
  rw [Finset.disjoint_left]
  intro i h1 h2
  unfold otA at h1 h2
  rw [mem_otSegM, coordsV_0, coordsV_1] at h1 h2
  obtain ⟨c, s, g⟩ := p; obtain ⟨c', s', g'⟩ := p'
  have := c.isLt; have := c'.isLt; have := g.isLt; have := g'.isLt; have := s.isLt; have := s'.isLt
  simp only [g2, Fin.val_cast] at h1 h2
  apply h
  have e1 : s.val = s'.val := by omega
  have e2 : c.val = c'.val := by omega
  have e3 : g.val = g'.val := by omega
  rw [Fin.ext e1, Fin.ext e2, Fin.ext e3]

theorem otA_cover : (Finset.univ : Finset T3).biUnion otA = Finset.univ := by
  ext i
  simp only [Finset.mem_biUnion, Finset.mem_univ, true_and, iff_true]
  have hi : (i 0).val < 4096 := (i 0).isLt
  refine ⟨(⟨((i 0).val / 128) % 2, Nat.mod_lt _ (by decide)⟩, ⟨(i 0).val / 256, by omega⟩, ⟨((i 0).val / 16) % 8, Nat.mod_lt _ (by decide)⟩), ?_⟩
  unfold otA
  rw [mem_otSegM, coordsV_0, coordsV_1]
  simp only [g2, Fin.val_cast]
  omega

theorem s1A_disj (p p' : T2) (h : p ≠ p') : Disjoint (s1A p) (s1A p') := by
  rw [Finset.disjoint_left]
  intro i h1 h2
  unfold s1A at h1 h2
  rw [set_s1RowM, mem_sRow, coordsV_0, coordsV_1] at h1 h2
  obtain ⟨c, s⟩ := p; obtain ⟨c', s'⟩ := p'
  have := c.isLt; have := c'.isLt; have := s.isLt; have := s'.isLt
  dsimp only at h1 h2
  apply h
  have e1 : s.val = s'.val := by omega
  have e2 : c.val = c'.val := by omega
  rw [Fin.ext e1, Fin.ext e2]
theorem s2A_disj (p p' : T2) (h : p ≠ p') : Disjoint (s2A p) (s2A p') := by
  rw [Finset.disjoint_left]
  intro i h1 h2
  unfold s2A at h1 h2
  rw [set_s2RowM, mem_sRow, coordsV_0, coordsV_1] at h1 h2
  obtain ⟨c, s⟩ := p; obtain ⟨c', s'⟩ := p'
  have := c.isLt; have := c'.isLt; have := s.isLt; have := s'.isLt
  dsimp only at h1 h2
  apply h
  have e1 : s.val = s'.val := by omega
  have e2 : c.val = c'.val := by omega
  rw [Fin.ext e1, Fin.ext e2]

theorem s1A_cover : (Finset.univ : Finset T2).biUnion s1A = Finset.univ := by
  ext i
  simp only [Finset.mem_biUnion, Finset.mem_univ, true_and, iff_true]
  have hi : (i 0).val < 32 := (i 0).isLt
  refine ⟨(⟨(i 0).val % 2, Nat.mod_lt _ (by decide)⟩, ⟨(i 0).val / 2, by omega⟩), ?_⟩
  unfold s1A
  rw [set_s1RowM, mem_sRow, coordsV_0, coordsV_1]
  simp only []
  omega
theorem s2A_cover : (Finset.univ : Finset T2).biUnion s2A = Finset.univ := by
  ext i
  simp only [Finset.mem_biUnion, Finset.mem_univ, true_and, iff_true]
  have hi : (i 0).val < 32 := (i 0).isLt
  refine ⟨(⟨(i 0).val % 2, Nat.mod_lt _ (by decide)⟩, ⟨(i 0).val / 2, by omega⟩), ?_⟩
  unfold s2A
  rw [set_s2RowM, mem_sRow, coordsV_0, coordsV_1]
  simp only []
  omega

end Cert.Proof.KW

end
-- ==== Proof.DealW.lean ====
/-
  What the TensorCore hands the SparseCores at each call and gets back, from and to whole arrays: at call 0 the
  regrouped input as thirty-two read shares and the pair-product and partial-sum arrays row by row; back come the three
  written arrays whole (at whatever they hold). At call 1 the pair-product array, the scale vector and the offset
  vector as read shares and the result segment by segment; back comes the result whole.
-/
import proofs.«210137_g30502857736458_cont_9to1_2222_4_alg».proof.Proof.CommonW
import proofs.«210137_g30502857736458_cont_9to1_2222_4_alg».proof.Proof.RowsW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] [∀ e, Nonempty (Elt F e)]

instance (ℓ : Loc nD τ sig) : Nonempty (Buf (Elt F) ℓ) := ⟨fun _ => Classical.choice inferInstance⟩

theorem bigSep_g0 (Φ : Fin k0_t2_loop.trips → sProp 𝕄) : bigSep Finset.univ Φ = bigSep Finset.univ fun g : Fin 8 => Φ (g0 g) :=
  bigSep_univ_equiv (finCongr trips0.symm) Φ
theorem bigSep_g2 (Φ : Fin k2_t1_loop.trips → sProp 𝕄) : bigSep Finset.univ Φ = bigSep Finset.univ fun g : Fin 8 => Φ (g2 g) :=
  bigSep_univ_equiv (finCongr trips2.symm) Φ

theorem bigSep_T3 (Φ : T3 → sProp 𝕄) :
    bigSep Finset.univ Φ = bigSep Finset.univ fun c : Fin 2 => bigSep Finset.univ fun s : Fin 16 => bigSep Finset.univ fun g : Fin 8 => Φ (c, s, g) := by
  rw [bigSep_univ_prod]
  exact bigSep_congr fun c _ => bigSep_univ_prod (fun p : Fin 16 × Fin 8 => Φ (c, p))
theorem bigSep_T2 (Φ : T2 → sProp 𝕄) :
    bigSep Finset.univ Φ = bigSep Finset.univ fun c : Fin 2 => bigSep Finset.univ fun s : Fin 16 => Φ (c, s) := bigSep_univ_prod Φ

/-! ## Call 0 -/

theorem xg_deal (d : Dev nD) (f : Buf (Elt F) (xgLoc d)) :
    (xgLoc d ↦{fullShare} f : sProp 𝕄) ⊢ bigSep Finset.univ fun c : Fin 2 => bigSep Finset.univ fun s : Fin 16 => xgSh d (wid (coordsV c s)) :=
  (whole_shares f).trans (Entails.of_eq (bigSep_workers (fun w => xgSh (F := F) d w)))

theorem it_deal (d : Dev nD) (f : Buf (Elt F) (itLoc d)) :
    (itLoc d ↦{fullShare} f : sProp 𝕄) ⊢ bigSep Finset.univ fun c : Fin 2 => bigSep Finset.univ fun s : Fin 16 =>
      bigSep Finset.univ fun g : Fin k0_t2_loop.trips => itRowPts d (coordsV c s) g := by
  refine (whole_pieces (ℓ := itLoc d) itA itA_disj itA_cover f).trans (Entails.of_eq ?_)
  rw [bigSep_T3]
  exact bigSep_congr fun c _ => bigSep_congr fun s _ => (bigSep_g0 (fun g => itRowPts (F := F) d (coordsV c s) g)).symm

theorem it_back (d : Dev nD) :
    (bigSep Finset.univ fun c : Fin 2 => bigSep Finset.univ fun s : Fin 16 =>
      bigSep Finset.univ fun g : Fin k0_t2_loop.trips => itRowPts d (coordsV c s) g) ⊢ (iprop(∃ f, itLoc d ↦{fullShare} f) : sProp 𝕄) := by
  refine (Entails.of_eq ?_).trans (pieces_whole (ℓ := itLoc d) itA itA_disj itA_cover)
  rw [bigSep_T3]
  exact bigSep_congr fun c _ => bigSep_congr fun s _ => bigSep_g0 (fun g => itRowPts (F := F) d (coordsV c s) g)

theorem s1_deal (d : Dev nD) (f : Buf (Elt F) (s1Loc d)) :
    (s1Loc d ↦{fullShare} f : sProp 𝕄) ⊢ bigSep Finset.univ fun c : Fin 2 => bigSep Finset.univ fun s : Fin 16 => s1RowPts d (coordsV c s) :=
  (whole_pieces (ℓ := s1Loc d) s1A s1A_disj s1A_cover f).trans (Entails.of_eq (bigSep_T2 _))
theorem s2_deal (d : Dev nD) (f : Buf (Elt F) (s2Loc d)) :
    (s2Loc d ↦{fullShare} f : sProp 𝕄) ⊢ bigSep Finset.univ fun c : Fin 2 => bigSep Finset.univ fun s : Fin 16 => s2RowPts d (coordsV c s) :=
  (whole_pieces (ℓ := s2Loc d) s2A s2A_disj s2A_cover f).trans (Entails.of_eq (bigSep_T2 _))
theorem s1_back (d : Dev nD) :
    (bigSep Finset.univ fun c : Fin 2 => bigSep Finset.univ fun s : Fin 16 => s1RowPts d (coordsV c s)) ⊢ (iprop(∃ f, s1Loc d ↦{fullShare} f) : sProp 𝕄) :=
  (Entails.of_eq (bigSep_T2 _).symm).trans (pieces_whole (ℓ := s1Loc d) s1A s1A_disj s1A_cover)
theorem s2_back (d : Dev nD) :
    (bigSep Finset.univ fun c : Fin 2 => bigSep Finset.univ fun s : Fin 16 => s2RowPts d (coordsV c s)) ⊢ (iprop(∃ f, s2Loc d ↦{fullShare} f) : sProp 𝕄) :=
  (Entails.of_eq (bigSep_T2 _).symm).trans (pieces_whole (ℓ := s2Loc d) s2A s2A_disj s2A_cover)

theorem st0_eq (d : Dev nD) :
    (bigSep Finset.univ fun c : Fin ((K (F := F)).nCore 0) => (P (F := F)).st 0 d c)
      = iprop((bigSep Finset.univ fun c : Fin 2 => bigSep Finset.univ fun s : Fin 16 => xgSh d (wid (coordsV c s)))
        ∗ (bigSep Finset.univ fun c : Fin 2 => bigSep Finset.univ fun s : Fin 16 => bigSep Finset.univ fun g : Fin k0_t2_loop.trips => itRowPts d (coordsV c s) g)
        ∗ (bigSep Finset.univ fun c : Fin 2 => bigSep Finset.univ fun s : Fin 16 => s1RowPts d (coordsV c s))
        ∗ (bigSep Finset.univ fun c : Fin 2 => bigSep Finset.univ fun s : Fin 16 => s2RowPts d (coordsV c s))) := by
  show (bigSep (Finset.univ : Finset (Fin 2)) fun c => bigSep Finset.univ fun s : Fin 16 => G0 d (coordsV c s)) = _
  unfold G0
  simp only [bigSep_sep']

theorem st0_intro (d : Dev nD) (fx : Buf (Elt F) (xgLoc d)) (fi : Buf (Elt F) (itLoc d)) (f1 : Buf (Elt F) (s1Loc d)) (f2 : Buf (Elt F) (s2Loc d)) :
    iprop((xgLoc d ↦{fullShare} fx) ∗ (itLoc d ↦{fullShare} fi) ∗ (s1Loc d ↦{fullShare} f1) ∗ (s2Loc d ↦{fullShare} f2))
      ⊢ (bigSep Finset.univ fun c : Fin ((K (F := F)).nCore 0) => (P (F := F)).st 0 d c : sProp 𝕄) := by
  rw [st0_eq]
  exact BIClass.sep_mono (xg_deal d fx) (BIClass.sep_mono (it_deal d fi) (BIClass.sep_mono (s1_deal d f1) (s2_deal d f2)))

theorem dn0_elim (d : Dev nD) :
    (bigSep Finset.univ fun c : Fin ((K (F := F)).nCore 0) => (P (F := F)).dn 0 d c)
      ⊢ (iprop((∃ f, itLoc d ↦{fullShare} f) ∗ (∃ f, s1Loc d ↦{fullShare} f) ∗ (∃ f, s2Loc d ↦{fullShare} f)) : sProp 𝕄) := by
  rw [show (bigSep Finset.univ fun c : Fin ((K (F := F)).nCore 0) => (P (F := F)).dn 0 d c) = (bigSep Finset.univ fun c : Fin ((K (F := F)).nCore 0) => (P (F := F)).st 0 d c) from rfl, st0_eq]
  exact sep_elim_right.trans (BIClass.sep_mono (it_back d) (BIClass.sep_mono (s1_back d) (s2_back d)))

/-! ## Call 1 -/

theorem sh_deal {ℓ : Loc nD τ sig} (f : Buf (Elt F) ℓ) :
    (ℓ ↦{fullShare} f : sProp 𝕄) ⊢ bigSep Finset.univ fun c : Fin 2 => bigSep Finset.univ fun s : Fin 16 => iprop(∃ g, ℓ ↦{rq (wid (coordsV c s))} g) :=
  (whole_shares f).trans (Entails.of_eq (bigSep_workers (fun w => (iprop(∃ g, ℓ ↦{rq w} g) : sProp 𝕄))))

theorem ot_deal (d : Dev nD) (f : Buf (Elt F) (otLoc d)) :
    (otLoc d ↦{fullShare} f : sProp 𝕄) ⊢ bigSep Finset.univ fun c : Fin 2 => bigSep Finset.univ fun s : Fin 16 =>
      bigSep Finset.univ fun g : Fin k2_t1_loop.trips => otSegPts d (coordsV c s) g := by
  refine (whole_pieces (ℓ := otLoc d) otA otA_disj otA_cover f).trans (Entails.of_eq ?_)
  rw [bigSep_T3]
  exact bigSep_congr fun c _ => bigSep_congr fun s _ => (bigSep_g2 (fun g => otSegPts (F := F) d (coordsV c s) g)).symm

theorem ot_back (d : Dev nD) :
    (bigSep Finset.univ fun c : Fin 2 => bigSep Finset.univ fun s : Fin 16 =>
      bigSep Finset.univ fun g : Fin k2_t1_loop.trips => otSegPts d (coordsV c s) g) ⊢ (iprop(∃ f, otLoc d ↦{fullShare} f) : sProp 𝕄) := by
  refine (Entails.of_eq ?_).trans (pieces_whole (ℓ := otLoc d) otA otA_disj otA_cover)
  rw [bigSep_T3]
  exact bigSep_congr fun c _ => bigSep_congr fun s _ => bigSep_g2 (fun g => otSegPts (F := F) d (coordsV c s) g)

theorem st1_eq (d : Dev nD) :
    (bigSep Finset.univ fun c : Fin ((K (F := F)).nCore 1) => (P (F := F)).st 1 d c)
      = iprop((bigSep Finset.univ fun c : Fin 2 => bigSep Finset.univ fun s : Fin 16 => itSh d (wid (coordsV c s)))
        ∗ (bigSep Finset.univ fun c : Fin 2 => bigSep Finset.univ fun s : Fin 16 => alSh d (wid (coordsV c s)))
        ∗ (bigSep Finset.univ fun c : Fin 2 => bigSep Finset.univ fun s : Fin 16 => cvSh d (wid (coordsV c s)))
        ∗ (bigSep Finset.univ fun c : Fin 2 => bigSep Finset.univ fun s : Fin 16 => bigSep Finset.univ fun g : Fin k2_t1_loop.trips => otSegPts d (coordsV c s) g)) := by
  show (bigSep (Finset.univ : Finset (Fin 2)) fun c => bigSep Finset.univ fun s : Fin 16 => G1 d (coordsV c s)) = _
  unfold G1
  simp only [bigSep_sep']

theorem st1_intro (d : Dev nD) (fi : Buf (Elt F) (itLoc d)) (fa : Buf (Elt F) (alLoc d)) (fc : Buf (Elt F) (cvLoc d)) (fo : Buf (Elt F) (otLoc d)) :
    iprop((itLoc d ↦{fullShare} fi) ∗ (alLoc d ↦{fullShare} fa) ∗ (cvLoc d ↦{fullShare} fc) ∗ (otLoc d ↦{fullShare} fo))
      ⊢ (bigSep Finset.univ fun c : Fin ((K (F := F)).nCore 1) => (P (F := F)).st 1 d c : sProp 𝕄) := by
  rw [st1_eq]
  exact BIClass.sep_mono (sh_deal fi) (BIClass.sep_mono (sh_deal fa) (BIClass.sep_mono (sh_deal fc) (ot_deal d fo)))

theorem dn1_elim (d : Dev nD) :
    (bigSep Finset.univ fun c : Fin ((K (F := F)).nCore 1) => (P (F := F)).dn 1 d c) ⊢ (iprop(∃ f, otLoc d ↦{fullShare} f) : sProp 𝕄) := by
  rw [show (bigSep Finset.univ fun c : Fin ((K (F := F)).nCore 1) => (P (F := F)).dn 1 d c) = (bigSep Finset.univ fun c : Fin ((K (F := F)).nCore 1) => (P (F := F)).st 1 d c) from rfl, st1_eq]
  exact sep_elim_right.trans (sep_elim_right.trans (sep_elim_right.trans (ot_back d)))

/-! ## A SparseCore's share among its subcores -/

theorem vecSplit0 : (K (F := F)).VecSplit' (P (F := F)) 0 := by
  intro d c
  show (bigSep Finset.univ fun s : Fin 16 => G0 d (coordsV (Fin.cast (nCore_eq 0) c) s)) ⊢ |={Set.univ}=> iprop(
      (bigSep Finset.univ fun i : Fin ((K (F := F)).nSub 0) => G0 d (coordsV (Fin.cast (nCore_eq 0) c) (Fin.cast (nSub_eq 0) i)))
      ∗ ((bigSep Finset.univ fun i : Fin ((K (F := F)).nSub 0) => G0 d (coordsV (Fin.cast (nCore_eq 0) c) (Fin.cast (nSub_eq 0) i)))
          -∗ (bigSep Finset.univ fun s : Fin 16 => G0 d (coordsV (Fin.cast (nCore_eq 0) c) s))))
  iintro H; imodintro
  isplitl [H]; · iexact H
  iintro H; iexact H

theorem vecSplit1 : (K (F := F)).VecSplit' (P (F := F)) 1 := by
  intro d c
  show (bigSep Finset.univ fun s : Fin 16 => G1 d (coordsV (Fin.cast (nCore_eq 1) c) s)) ⊢ |={Set.univ}=> iprop(
      (bigSep Finset.univ fun i : Fin ((K (F := F)).nSub 1) => G1 d (coordsV (Fin.cast (nCore_eq 1) c) (Fin.cast (nSub_eq 1) i)))
      ∗ ((bigSep Finset.univ fun i : Fin ((K (F := F)).nSub 1) => G1 d (coordsV (Fin.cast (nCore_eq 1) c) (Fin.cast (nSub_eq 1) i)))
          -∗ (bigSep Finset.univ fun s : Fin 16 => G1 d (coordsV (Fin.cast (nCore_eq 1) c) s))))
  iintro H; imodintro
  isplitl [H]; · iexact H
  iintro H; iexact H

end Cert.Proof.KW

end
-- ==== Proof.OpsW.lean ====
/-
  The TensorCore's program as five stretches: forty host operations (the regrouping of the input and the three
  scatters of the per-pair vectors into the 832 pair slots, each broadcast over sixteen lanes), the first SparseCore
  call, the TensorCore region, two reshapes, the second SparseCore call, one reshape.
-/
import proofs.«210137_g30502857736458_cont_9to1_2222_4_alg».proof.Proof.CommonW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

abbrev ops0 : List (HloOp τ sig (Elt F)) := [
  StableHlo.nullary main_c (fun i => lit0 (S325.rowMajor i)),
  StableHlo.nullary main_c_0 (constantI S325 1 0#1),
  StableHlo.nullary main_c_1 (constantI S325 1 0#1),
  StableHlo.nullary main_c_2 (constantI S325 1 0#1),
  StableHlo.reshape main_arg0 main_v0 rfl shapeCasts_S4096x26x64_S256x16x26x64,
  StableHlo.unary main_v0 main_v1 ((transpose S256x26x64x16 [0, 2, 3, 1] · transposes_S256x16x26x64_S256x26x64x16_0_2_3_1) : (⟨S256x16x26x64, .f32⟩ : BufTy).Contents (Elt F) → (⟨S256x26x64x16, .f32⟩ : BufTy).Contents (Elt F)),
  StableHlo.reshape main_v1 main_v2 rfl shapeCasts_S256x26x64x16_S256x26624,
  StableHlo.nullary main_cst (constant S_ .f32 0x00000000#32),
  StableHlo.unary main_cst main_v3 (broadcastInDim S832 ![] bcast_S_S832 : (⟨S_, .f32⟩ : BufTy).Contents (Elt F) → (⟨S832, .f32⟩ : BufTy).Contents (Elt F)),
  StableHlo.nullary main_c_3 (constantI S_ 32 832#32),
  StableHlo.unary main_c_3 main_v4 (broadcastInDim S325 ![] bcast_S_S325 : (⟨S_, .i32⟩ : BufTy).Contents (Elt F) → (⟨S325, .i32⟩ : BufTy).Contents (Elt F)),
  StableHlo.binary main_c main_v4 main_v5 (addi : (⟨S325, .i32⟩ : BufTy).Contents (Elt F) → (⟨S325, .i32⟩ : BufTy).Contents (Elt F) → (⟨S325, .i32⟩ : BufTy).Contents (Elt F)),
  StableHlo.ternary main_c_0 main_v5 main_c main_v6 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
  StableHlo.unary main_v6 main_v7 (broadcastInDim S325x1 ![0] bcast_S325_S325x1_0 : (⟨S325, .i32⟩ : BufTy).Contents (Elt F) → (⟨S325x1, .i32⟩ : BufTy).Contents (Elt F)),
  StableHlo.ternary main_v3 main_v7 main_arg3 main_v8 ((fun x i u => Host.scatter scatter_S832_S325x1_S325_n_0_0_1 (fun _ b => b) x i u) : (⟨S832, .f32⟩ : BufTy).Contents (Elt F) → (⟨S325x1, .i32⟩ : BufTy).Contents (Elt F) → (⟨S325, .f32⟩ : BufTy).Contents (Elt F) → (⟨S832, .f32⟩ : BufTy).Contents (Elt F)),
  StableHlo.reshape main_v8 main_v9 rfl shapeCasts_S832_S832x1,
  StableHlo.unary main_v9 main_v10 (broadcastInDim S832x16 ![0, 1] bcast_S832x1_S832x16_0_1 : (⟨S832x1, .f32⟩ : BufTy).Contents (Elt F) → (⟨S832x16, .f32⟩ : BufTy).Contents (Elt F)),
  StableHlo.reshape main_v10 main_v11 rfl shapeCasts_S832x16_S1x13312,
  StableHlo.nullary main_cst_4 (constant S_ .f32 0x00000000#32),
  StableHlo.unary main_cst_4 main_v12 (broadcastInDim S832 ![] bcast_S_S832 : (⟨S_, .f32⟩ : BufTy).Contents (Elt F) → (⟨S832, .f32⟩ : BufTy).Contents (Elt F)),
  StableHlo.nullary main_c_5 (constantI S_ 32 832#32),
  StableHlo.unary main_c_5 main_v13 (broadcastInDim S325 ![] bcast_S_S325 : (⟨S_, .i32⟩ : BufTy).Contents (Elt F) → (⟨S325, .i32⟩ : BufTy).Contents (Elt F)),
  StableHlo.binary main_c main_v13 main_v14 (addi : (⟨S325, .i32⟩ : BufTy).Contents (Elt F) → (⟨S325, .i32⟩ : BufTy).Contents (Elt F) → (⟨S325, .i32⟩ : BufTy).Contents (Elt F)),
  StableHlo.ternary main_c_1 main_v14 main_c main_v15 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
  StableHlo.unary main_v15 main_v16 (broadcastInDim S325x1 ![0] bcast_S325_S325x1_0 : (⟨S325, .i32⟩ : BufTy).Contents (Elt F) → (⟨S325x1, .i32⟩ : BufTy).Contents (Elt F)),
  StableHlo.ternary main_v12 main_v16 main_arg1 main_v17 ((fun x i u => Host.scatter scatter_S832_S325x1_S325_n_0_0_1 (fun _ b => b) x i u) : (⟨S832, .f32⟩ : BufTy).Contents (Elt F) → (⟨S325x1, .i32⟩ : BufTy).Contents (Elt F) → (⟨S325, .f32⟩ : BufTy).Contents (Elt F) → (⟨S832, .f32⟩ : BufTy).Contents (Elt F)),
  StableHlo.reshape main_v17 main_v18 rfl shapeCasts_S832_S832x1,
  StableHlo.unary main_v18 main_v19 (broadcastInDim S832x16 ![0, 1] bcast_S832x1_S832x16_0_1 : (⟨S832x1, .f32⟩ : BufTy).Contents (Elt F) → (⟨S832x16, .f32⟩ : BufTy).Contents (Elt F)),
  StableHlo.reshape main_v19 main_v20 rfl shapeCasts_S832x16_S1x13312,
  StableHlo.nullary main_cst_6 (constant S_ .f32 0x00000000#32),
  StableHlo.unary main_cst_6 main_v21 (broadcastInDim S832 ![] bcast_S_S832 : (⟨S_, .f32⟩ : BufTy).Contents (Elt F) → (⟨S832, .f32⟩ : BufTy).Contents (Elt F)),
  StableHlo.nullary main_c_7 (constantI S_ 32 832#32),
  StableHlo.unary main_c_7 main_v22 (broadcastInDim S325 ![] bcast_S_S325 : (⟨S_, .i32⟩ : BufTy).Contents (Elt F) → (⟨S325, .i32⟩ : BufTy).Contents (Elt F)),
  StableHlo.binary main_c main_v22 main_v23 (addi : (⟨S325, .i32⟩ : BufTy).Contents (Elt F) → (⟨S325, .i32⟩ : BufTy).Contents (Elt F) → (⟨S325, .i32⟩ : BufTy).Contents (Elt F)),
  StableHlo.ternary main_c_2 main_v23 main_c main_v24 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
  StableHlo.unary main_v24 main_v25 (broadcastInDim S325x1 ![0] bcast_S325_S325x1_0 : (⟨S325, .i32⟩ : BufTy).Contents (Elt F) → (⟨S325x1, .i32⟩ : BufTy).Contents (Elt F)),
  StableHlo.ternary main_v21 main_v25 main_arg2 main_v26 ((fun x i u => Host.scatter scatter_S832_S325x1_S325_n_0_0_1 (fun _ b => b) x i u) : (⟨S832, .f32⟩ : BufTy).Contents (Elt F) → (⟨S325x1, .i32⟩ : BufTy).Contents (Elt F) → (⟨S325, .f32⟩ : BufTy).Contents (Elt F) → (⟨S832, .f32⟩ : BufTy).Contents (Elt F)),
  StableHlo.reshape main_v26 main_v27 rfl shapeCasts_S832_S832x1,
  StableHlo.unary main_v27 main_v28 (broadcastInDim S832x16 ![0, 1] bcast_S832x1_S832x16_0_1 : (⟨S832x1, .f32⟩ : BufTy).Contents (Elt F) → (⟨S832x16, .f32⟩ : BufTy).Contents (Elt F)),
  StableHlo.reshape main_v28 main_v29 rfl shapeCasts_S832x16_S1x13312]

abbrev ops1 : List (HloOp τ sig (Elt F)) := [
  StableHlo.reshape main_v31_0 main_v32 rfl shapeCasts_S1x13312_S13312,
  StableHlo.reshape main_v31_1 main_v33 rfl shapeCasts_S1x16_S16]

abbrev ops2 : List (HloOp τ sig (Elt F)) := [
  StableHlo.reshape main_v34 main_v35 rfl shapeCasts_S4096_S4096x1]

set_option maxRecDepth 8192 in
theorem main_eq (d : Dev nD) :
    main (F := F) d = (StableHlo.seq (ops0 (F := F)) >>= fun _ => (K (F := F)).run d 0 >>= fun _ =>
      Prog.lift (.customCall (SparseCore.inner (Pipeline.entry 0)) ()) >>= fun _ => StableHlo.seq (ops1 (F := F)) >>= fun _ =>
      (K (F := F)).run d 1 >>= fun _ => StableHlo.seq (ops2 (F := F))) := rfl

end Cert.Proof.KW

end
-- ==== Proof.RegionBodyW.lean ====
import proofs.«210137_g30502857736458_cont_9to1_2222_4_alg».proof.Proof.CommonW
import proofs.«210137_g30502857736458_cont_9to1_2222_4_alg».proof.Proof.Gen.Kernel.Launch
import proofs.«210137_g30502857736458_cont_9to1_2222_4_alg».proof.Proof.Gen.Kernel.Points
import Idealize.ShloMosaic.Lib.Pipeline.Regions

noncomputable section

namespace Cert.Proof.KW

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- A TensorCore memref's buffer on device `c`: its contents type, and the memref's own elements held at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The finalize kernel's body on seven whole staging buffers: it loads the five inputs (and the two outputs'
    buffers), stores once into each output buffer, and returns; the inputs come back as they were, the outputs at
    something. -/
theorem kernelRun (c : Dev nD)
    (M0 : Memref sig .tc .vmem S32x13312 .f32) (h0 : M0.IsWhole) (M1 : Memref sig .tc .vmem S32x13312 .f32) (h1 : M1.IsWhole)
    (M2 : Memref sig .tc .vmem S1x13312 .f32) (h2 : M2.IsWhole) (M3 : Memref sig .tc .vmem S1x13312 .f32) (h3 : M3.IsWhole)
    (M4 : Memref sig .tc .vmem S1x13312 .f32) (h4 : M4.IsWhole) (M5 : Memref sig .tc .vmem S1x13312 .f32) (h5 : M5.IsWhole)
    (M6 : Memref sig .tc .vmem S1x16 .f32) (h6 : M6.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (Q : PUnit → sProp 𝕄) :
    iprop(pt c M0 f0 ∗ pt c M1 f1 ∗ pt c M2 f2 ∗ pt c M3 f3 ∗ pt c M4 f4 ∗ pt c M5 f5 ∗ pt c M6 f6
      ∗ (iprop(pt c M0 f0 ∗ pt c M1 f1 ∗ pt c M2 f2 ∗ pt c M3 f3 ∗ pt c M4 f4 ∗ (∃ f, pt c M5 f) ∗ (∃ f, pt c M6 f)) -∗ Q ⟨⟩))
    ⊢ wp frame (wpE (defs₀ (F := F)) Variants.none c none) Set.univ
        (cc1__finalize_kernel M0 h0 M1 h1 M2 h2 M3 h3 M4 h4 M5 h5 M6 h6) Q := by
  iintro ⟨H0, H1, H2, H3, H4, H5, H6, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexists _; iexact H5
  iexists _; iexact H6

end Cert.Proof.KW

end
-- ==== Proof.RegionDataW.lean ====
import proofs.«210137_g30502857736458_cont_9to1_2222_4_alg».proof.Proof.RegionBodyW
import proofs.«210137_g30502857736458_cont_9to1_2222_4_alg».proof.Proof.Gen.Kernel.Launch
import proofs.«210137_g30502857736458_cont_9to1_2222_4_alg».proof.Proof.Gen.Kernel.Points
import Idealize.ShloMosaic.Lib.Pipeline.Regions

noncomputable section

namespace Cert.Proof.KW

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.Pipeline (RDat)

/-- The pipeline has no prefetched table: the one admissible contents. -/
abbrev adm : (p : Fin 1) → (pcfgs (F := F) p).Adm := fun p => (cfgs p).toPCfg_adm

/-- The seven windows' arrays' contents when the region is entered, per device. -/
abbrev Arr (F : FTy → Type) : Type := (c : Dev nD) → (w : Fin 7) → Buf (Elt F) ((cfg1.win w).arr.view.loc (c : Thread nD τ))

/-- The (semaphore, index) pairs a TensorCore's waits may have recorded by the region's end: those at or below
    the level of the second call's band. -/
def recd (c : Dev nD) : Set (SemLoc sig × HIx 2) := {p | (K (F := F)).lev ((T c : Thread nD τ), p.1) p.2 ≤ 8 * 1}

/-- During the region the TensorCore owes nothing at a kernel's own index. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- The region's relational proof data: the arrays at their entry contents; nothing said of what the body leaves
    in a staging buffer; no invariant; full shares; the TensorCore owing throughout what it owes before the second
    SparseCore call. -/
def rdats (A : Arr F) (_ : Fin 1) (c : Dev nD) : RDat τ (Elt F) (HIx 2) ℕ UU ℕ cfg1 c where
  A w := A c w
  after _ _ _ _ := True
  Φ _ := iprop(emp)
  q _ := fullShare
  owed _ := (K (F := F)).Otc c 1
  recorded _ := recd (F := F) c

theorem share_eq (A : Arr F) (c : Dev nD) (w : Fin 7) : (rdats A 0 c).share w = fullShare := by
  unfold RDat.share; split <;> rfl

/-- The pipeline's waits on its staging cells sit at a kernel's own index, below everything the TensorCore owes. -/
theorem hwaits (A : Arr F) (c : Dev nD) :
    (levAts (K (F := F)).L (K (F := F)).lev : sProp 𝕄) ⊢ Pipeline.RDat.cellsWaits cfgs (rdats A) none 0 c :=
  Pipeline.RDat.cellsWaits_intro cfgs (rdats A) none 0 c fun w s t =>
    SparseCore.Cfg.mayWait_none (K := K (F := F)) _ (fun g => Otc_none c 1 g)

set_option maxRecDepth 8192 in
/-- The body obligation: the staging buffers taken apart, the body run, each handed back at what it holds. -/
theorem body_obligation (A : Arr F) (c : Dev nD) : (rdats A 0 c).BodyObligation (defs₀ (F := F)) 𝒱₀ none Set.univ := fun t Y _ => by
  obtain rfl := fin_N1 t
  rw [bigSep_W1, bigSep_W1]
  unfold owns
  iintro ⟨-, HO, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩
  iapply (kernelRun c _ (hstage1_0 0) _ (hstage1_1 0) _ (hstage1_2 0) _ (hstage1_3 0) _ (hstage1_4 0) _ (hstage1_5 0) _ (hstage1_6 0) f0 f1 f2 f3 f4 f5 f6)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, ⟨%g5, H5⟩, ⟨%g6, H6⟩⟩
  isplitr; · iempintro
  isplitl [HO]; · iexact HO
  isplitl [H0]; · iexists (Y 0); isplitr; · ipureintro; trivial
                  iexists f0; isplitr; · ipureintro; exact e0
                  iexact H0
  isplitl [H1]; · iexists (Y 1); isplitr; · ipureintro; trivial
                  iexists f1; isplitr; · ipureintro; exact e1
                  iexact H1
  isplitl [H2]; · iexists (Y 2); isplitr; · ipureintro; trivial
                  iexists f2; isplitr; · ipureintro; exact e2
                  iexact H2
  isplitl [H3]; · iexists (Y 3); isplitr; · ipureintro; trivial
                  iexists f3; isplitr; · ipureintro; exact e3
                  iexact H3
  isplitl [H4]; · iexists (Y 4); isplitr; · ipureintro; trivial
                  iexists f4; isplitr; · ipureintro; exact e4
                  iexact H4
  isplitl [H5]; · iexists (View.read (Elt F) ((cfg1.win 5).stage (cfg1.slots t1_0 5)).view g5); isplitr; · ipureintro; trivial
                  iexists g5; isplitr; · ipureintro; rfl
                  iexact H5
  iexists (View.read (Elt F) ((cfg1.win 6).stage (cfg1.slots t1_0 6)).view g6); isplitr; · ipureintro; trivial
  iexists g6; isplitr; · ipureintro; rfl
  iexact H6

end Cert.Proof.KW

end
-- ==== Proof.RegionSegW.lean ====
import proofs.«210137_g30502857736458_cont_9to1_2222_4_alg».proof.Proof.RegionDataW
import proofs.«210137_g30502857736458_cont_9to1_2222_4_alg».proof.Proof.Gen.Kernel.Launch
import proofs.«210137_g30502857736458_cont_9to1_2222_4_alg».proof.Proof.Gen.Kernel.Points
import Idealize.ShloMosaic.Lib.Pipeline.Regions

noncomputable section

namespace Cert.Proof.KW

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.Pipeline (RDat)

/-- What the TensorCore owes between the two SparseCore calls, its recorded pairs at or below the second call's band:
    the first component of its handshake state there. -/
def owesB (c : Dev nD) : sProp 𝕄 :=
  iprop(∃ W, ⌜(K (F := F)).WBelow (T c) W (8 * 1)⌝ ∗ owes (T c : Thread nD τ) ((K (F := F)).Otc c 1) W)

-- the region record is stated over the pinned configuration `pin pcfgs adm 0`, which is `cfg1` by unfolding
set_option backward.isDefEq.respectTransparency.types false in
/-- The region: the generated layout, no semaphore of the kernel's own, the body obligation; entered with the seven
    arrays at their entry contents and the TensorCore's debt, left with the arrays at what they may then hold and the
    same debt. -/
def reg (A : Arr F) : Pipeline.RDat.RegionSeg (pcfgs (F := F)) adm (rdats A) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := body_obligation A c
  hwaits c := hwaits A c
  pre c := iprop((rdats A 0 c).arrays (rdats A 0 c).A ∗ owesB (F := F) c)
  post c := iprop((rdats A 0 c).arraysAt cfg1.N ∗ owesB (F := F) c)
  X _ := iprop(emp)
  Y _ := iprop(emp)
  Z _ := iprop(emp)
  hentry c := by
    unfold owesB
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists W; isplitr
      · ipureintro; exact fun p hp => Or.inl (hW p (Finset.mem_coe.mp hp))
      iexact HO
    isplitr <;> iempintro
  hin c := by
    iintro -; iempintro
  hout c := by
    iintro -
    isplitr; · iempintro
    isplitr
    · unfold Pipeline.ownSems0; rw [Finset.univ_eq_empty, BI.bigSep_empty]; iempintro
    · iapply (Entails.of_eq (scopedRest1_eq (Ix := HIx 2) (Val := Elt F) (Name := ℕ) (U := UU) (Lvl := ℕ) c).symm); iempintro
  hexit c := by
    unfold owesB
    iintro ⟨Ha, HO, -, -⟩
    imodintro
    isplitl [Ha]; · iexact Ha
    unfold Pipeline.RDat.owesAt Pipeline.owesWithin
    icases HO with ⟨%W, %hW, HO⟩
    iexists W; isplitr
    · ipureintro
      intro p hp
      rcases hW (Finset.mem_coe.mpr hp) with h | ⟨w, s, h⟩
      · exact h
      · rw [h]; show (K (F := F)).lev _ none ≤ 8 * 1; rw [SparseCore.Cfg.lev_none]; exact Nat.zero_le _
    iexact HO

end Cert.Proof.KW

end
-- ==== Proof.RegionW.lean ====
import proofs.«210137_g30502857736458_cont_9to1_2222_4_alg».proof.Proof.RegionSegW
import proofs.«210137_g30502857736458_cont_9to1_2222_4_alg».proof.Proof.Gen.Kernel.Launch
import proofs.«210137_g30502857736458_cont_9to1_2222_4_alg».proof.Proof.Gen.Kernel.Points
import Idealize.ShloMosaic.Lib.Pipeline.Regions

noncomputable section

namespace Cert.Proof.KW

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.Pipeline (RDat)

/-- The region's ghost state on device `d`: its staging cells' launch state and the duty tokens of its transfers. -/
def G_region (d : Dev nD) : sProp 𝕄 :=
  iprop(Pipeline.cellsGhost cfgs (EP (F := F)) 0 d ∗ Pipeline.toksInit cfgs (EP (F := F)) 0 d)

/-- The element of the staging cells' algebra the launch funds: every staging cell at its launch state, every transfer's
    duty token. -/
def u₀P : UP := initOf (Pipeline.cells (nD := nD) (τ := τ) cfgs cellOf_inj) (Pipeline.launchToks (nD := nD) (τ := τ) cfgs cellOf_inj)

/-- Funding: from the launch element of the staging cells' algebra, every device's region ghost state. -/
theorem fund_region : (BI.own ((EP (F := F)) u₀P) : sProp 𝕄) ⊢ iprop(|==> bigSep Finset.univ fun d : Dev nD => G_region (F := F) d) := by
  have e1 : ∀ c : Dev nD, (bigSep Finset.univ fun p : Fin 1 => (Pipeline.cellsGhost cfgs (EP (F := F)) p c : sProp 𝕄))
      = Pipeline.cellsGhost cfgs (EP (F := F)) 0 c := fun c => bigSep_univ_of_subsingleton (0 : Fin 1)
  have e2 : ∀ c : Dev nD, (bigSep Finset.univ fun p : Fin 1 => (Pipeline.toksInit cfgs (EP (F := F)) p c : sProp 𝕄))
      = Pipeline.toksInit cfgs (EP (F := F)) 0 c := fun c => bigSep_univ_of_subsingleton (0 : Fin 1)
  have h := Pipeline.fund_ghost (nD := nD) (τ := τ) cfgs (EP (F := F)) cellOf_inj
  simp only [e1, e2] at h
  unfold u₀P G_region
  rw [bigSep_sep']
  exact h

/-- The seven windows' contents, the same on every device, from one buffer's contents each. -/
def mkArr (f1 : main_v30_1.ty.Contents (Elt F)) (f2 : main_v30_2.ty.Contents (Elt F)) (f11 : main_v11.ty.Contents (Elt F))
    (f20 : main_v20.ty.Contents (Elt F)) (f29 : main_v29.ty.Contents (Elt F)) (g0 : main_v31_0.ty.Contents (Elt F)) (g1 : main_v31_1.ty.Contents (Elt F)) : Arr F :=
  fun _ w => match w with
    | 0 => f1 | 1 => f2 | 2 => f11 | 3 => f20 | 4 => f29 | 5 => g0 | 6 => g1
    | ⟨_ + 7, h⟩ => absurd h (Nat.not_lt.2 (Nat.le_add_left _ _))

section Arrays

variable (f1 : main_v30_1.ty.Contents (Elt F)) (f2 : main_v30_2.ty.Contents (Elt F)) (f11 : main_v11.ty.Contents (Elt F))
  (f20 : main_v20.ty.Contents (Elt F)) (f29 : main_v29.ty.Contents (Elt F)) (g0 : main_v31_0.ty.Contents (Elt F)) (g1 : main_v31_1.ty.Contents (Elt F))

set_option backward.isDefEq.respectTransparency.types false in
/-- The pipeline's arrays at their entry contents are the seven buffers held whole. -/
theorem arrays7 (c : Dev nD) :
    ((rdats (mkArr f1 f2 f11 f20 f29 g0 g1) 0 c).arrays (rdats (mkArr f1 f2 f11 f20 f29 g0 g1) 0 c).A : sProp 𝕄)
      = iprop(((T c : Thread nD τ).loc main_v30_1 ↦{fullShare} f1) ∗ ((T c : Thread nD τ).loc main_v30_2 ↦{fullShare} f2)
          ∗ ((T c : Thread nD τ).loc main_v11 ↦{fullShare} f11) ∗ ((T c : Thread nD τ).loc main_v20 ↦{fullShare} f20)
          ∗ ((T c : Thread nD τ).loc main_v29 ↦{fullShare} f29) ∗ ((T c : Thread nD τ).loc main_v31_0 ↦{fullShare} g0)
          ∗ ((T c : Thread nD τ).loc main_v31_1 ↦{fullShare} g1)) := by
  rw [Pipeline.RDat.arrays_eq (pcfgs (F := F)) adm (rdats (mkArr f1 f2 f11 f20 f29 g0 g1)) 0 c launch1.arr_whole (share_eq _ c), bigSep_W1]
  rfl

set_option backward.isDefEq.respectTransparency.types false in
/-- After the region the five inputs hold what they held, the two outputs something. -/
theorem arraysAt7 (c : Dev nD) :
    ((rdats (mkArr f1 f2 f11 f20 f29 g0 g1) 0 c).arraysAt cfg1.N : sProp 𝕄)
      ⊢ iprop(((T c : Thread nD τ).loc main_v30_1 ↦{fullShare} f1) ∗ ((T c : Thread nD τ).loc main_v30_2 ↦{fullShare} f2)
          ∗ ((T c : Thread nD τ).loc main_v11 ↦{fullShare} f11) ∗ ((T c : Thread nD τ).loc main_v20 ↦{fullShare} f20)
          ∗ ((T c : Thread nD τ).loc main_v29 ↦{fullShare} f29) ∗ (∃ g, (T c : Thread nD τ).loc main_v31_0 ↦{fullShare} g)
          ∗ (∃ g, (T c : Thread nD τ).loc main_v31_1 ↦{fullShare} g)) := by
  have e : ((rdats (mkArr f1 f2 f11 f20 f29 g0 g1) 0 c).arraysAt cfg1.N : sProp 𝕄)
      = bigSep Finset.univ fun w : Fin 7 => iprop(∃ G, ⌜(rdats (mkArr f1 f2 f11 f20 f29 g0 g1) 0 c).ArrAt w cfg1.N G⌝
          ∗ (((T c : Thread nD τ).loc (Pipeline.arrRef spec1 w)) ↦{fullShare} G)) := by
    unfold RDat.arraysAt
    exact bigSep_congr fun w _ => by rw [(launch1.arr_whole w).set_eq_univ, share_eq]
  rw [e, bigSep_W1]
  iintro ⟨⟨%G0, %h0, H0⟩, ⟨%G1, %h1, H1⟩, ⟨%G2, %h2, H2⟩, ⟨%G3, %h3, H3⟩, ⟨%G4, %h4, H4⟩, ⟨%G5, -, H5⟩, ⟨%G6, -, H6⟩⟩
  have h0 := Eq.mp (congrFun ((rdats (mkArr f1 f2 f11 f20 f29 g0 g1) 0 c).ArrAt_in 0 rfl cfg1.N) G0) h0
  have h1 := Eq.mp (congrFun ((rdats (mkArr f1 f2 f11 f20 f29 g0 g1) 0 c).ArrAt_in 1 rfl cfg1.N) G1) h1
  have h2 := Eq.mp (congrFun ((rdats (mkArr f1 f2 f11 f20 f29 g0 g1) 0 c).ArrAt_in 2 rfl cfg1.N) G2) h2
  have h3 := Eq.mp (congrFun ((rdats (mkArr f1 f2 f11 f20 f29 g0 g1) 0 c).ArrAt_in 3 rfl cfg1.N) G3) h3
  have h4 := Eq.mp (congrFun ((rdats (mkArr f1 f2 f11 f20 f29 g0 g1) 0 c).ArrAt_in 4 rfl cfg1.N) G4) h4
  subst h0 h1 h2 h3 h4
  isplitl [H0]; · iexact H0
  isplitl [H1]; · iexact H1
  isplitl [H2]; · iexact H2
  isplitl [H3]; · iexact H3
  isplitl [H4]; · iexact H4
  isplitl [H5]; · iexists G5; iexact H5
  iexists G6; iexact H6

/-- The TensorCore's handshake state between the calls opens with what it owes. -/
theorem tcSt_owes (d : Dev nD) : ∃ R : sProp 𝕄, (K (F := F)).tcSt (EH (F := F)) d 1 = iprop(owesB (F := F) d ∗ R) :=
  ⟨_, by unfold SparseCore.Cfg.tcSt owesB; rfl⟩

set_option maxRecDepth 8192 in
set_option backward.isDefEq.respectTransparency.types false in
/-- The region inside @main on the TensorCore: from the region boundary, the TensorCore's handshake state between the two
    calls, the region's ghost state and the seven arrays held whole, the pipeline runs and hands all of it back — the five
    inputs as they were, the two outputs at something. -/
theorem wp_region {P' : (K (F := F)).Pay (nD := nD) (Val := Elt F) (Name := ℕ) (U := UU)} (κ : GSem nD τ sig → ℕ) (d : Dev nD) (Φ : PUnit → sProp 𝕄) :
    iprop((K (F := F)).ctx (EH (F := F)) P' κ ∗ boundary (T d : Thread nD τ) ∗ (K (F := F)).tcSt (EH (F := F)) d 1 ∗ G_region (F := F) d
        ∗ ((T d : Thread nD τ).loc main_v30_1 ↦{fullShare} f1) ∗ ((T d : Thread nD τ).loc main_v30_2 ↦{fullShare} f2)
        ∗ ((T d : Thread nD τ).loc main_v11 ↦{fullShare} f11) ∗ ((T d : Thread nD τ).loc main_v20 ↦{fullShare} f20)
        ∗ ((T d : Thread nD τ).loc main_v29 ↦{fullShare} f29) ∗ ((T d : Thread nD τ).loc main_v31_0 ↦{fullShare} g0)
        ∗ ((T d : Thread nD τ).loc main_v31_1 ↦{fullShare} g1)
        ∗ (iprop(boundary (T d : Thread nD τ) ∗ (K (F := F)).tcSt (EH (F := F)) d 1
            ∗ ((T d : Thread nD τ).loc main_v30_1 ↦{fullShare} f1) ∗ ((T d : Thread nD τ).loc main_v30_2 ↦{fullShare} f2)
            ∗ ((T d : Thread nD τ).loc main_v11 ↦{fullShare} f11) ∗ ((T d : Thread nD τ).loc main_v20 ↦{fullShare} f20)
            ∗ ((T d : Thread nD τ).loc main_v29 ↦{fullShare} f29) ∗ (∃ g, (T d : Thread nD τ).loc main_v31_0 ↦{fullShare} g)
            ∗ (∃ g, (T d : Thread nD τ).loc main_v31_1 ↦{fullShare} g)) -∗ Φ ⟨⟩))
      ⊢ wp frame (wpE ((K (F := F)).defs (D (F := F))) 𝒱 (T d) none) Set.univ
          (Prog.lift (.customCall (SparseCore.inner (Pipeline.entry 0)) ())) Φ := by
  obtain ⟨R, hR⟩ := tcSt_owes (F := F) d
  have hpre : ((reg (mkArr f1 f2 f11 f20 f29 g0 g1)).pre d : sProp 𝕄)
      = iprop((rdats (mkArr f1 f2 f11 f20 f29 g0 g1) 0 d).arrays (rdats (mkArr f1 f2 f11 f20 f29 g0 g1) 0 d).A ∗ owesB (F := F) d) := rfl
  have hpost : ((reg (mkArr f1 f2 f11 f20 f29 g0 g1)).post d : sProp 𝕄)
      = iprop((rdats (mkArr f1 f2 f11 f20 f29 g0 g1) 0 d).arraysAt cfg1.N ∗ owesB (F := F) d) := rfl
  rw [hR]
  unfold G_region
  show _ ⊢ wp frame (wpE ((K (F := F)).defs (D (F := F))) 𝒱 (T d) none) Set.univ
      (SparseCore.liftProg (Prog.op (.customCall (Pipeline.entry 0) ()) Prog.ret)) Φ
  iintro ⟨#Hctx, Hbd, ⟨HO, HR⟩, ⟨Hg, Ht⟩, H1, H2, H11, H20, H29, G0, G1, Hk⟩
  ihave Hla := (SparseCore.Cfg.ctx_levAts κ) $$ Hctx
  iapply (SparseCore.Cfg.wp_liftProg (K (F := F)) (D (F := F)) 𝒱 (T d) Set.univ none _ Φ)
  ihave Harr := (Entails.of_eq (arrays7 f1 f2 f11 f20 f29 g0 g1 d).symm) $$ [H1 H2 H11 H20 H29 G0 G1]
  · isplitl [H1]; · iexact H1
    isplitl [H2]; · iexact H2
    isplitl [H11]; · iexact H11
    isplitl [H20]; · iexact H20
    isplitl [H29]; · iexact H29
    isplitl [G0]; · iexact G0
    iexact G1
  iapply (Pipeline.RDat.RegionSeg.wp (pcfgs (F := F)) adm (rdats (mkArr f1 f2 f11 f20 f29 g0 g1)) none cellOf_inj (EP (F := F)) defs₀ 𝒱₀
      (K (F := F)).L (K (F := F)).lev (reg (mkArr f1 f2 f11 f20 f29 g0 g1)) d none (fun u h => nomatch h) (fun x => Prog.ret x) Φ)
  isplitl [Hk HR]
  · iintro ⟨Hbd, Hpost⟩
    ihave Hpost' := (Entails.of_eq hpost) $$ Hpost
    icases Hpost' with ⟨Ha, HO⟩
    ihave Ha' := (arraysAt7 f1 f2 f11 f20 f29 g0 g1 d) $$ Ha
    icases Ha' with ⟨H1, H2, H11, H20, H29, G0, G1⟩
    sl_step
    iapply Hk
    isplitl [Hbd]; · iexact Hbd
    isplitl [HO HR]; · isplitl [HO] <;> iassumption
    isplitl [H1]; · iexact H1
    isplitl [H2]; · iexact H2
    isplitl [H11]; · iexact H11
    isplitl [H20]; · iexact H20
    isplitl [H29]; · iexact H29
    isplitl [G0]; · iexact G0
    iexact G1
  isplitl [Hbd]; · iexact Hbd
  isplitl [Harr HO]
  · iapply (Entails.of_eq hpre.symm)
    isplitl [Harr] <;> iassumption
  isplitl [Hla]; · iexact Hla
  isplitl [Hg] <;> iassumption

end Arrays

end Cert.Proof.KW

end
-- ==== Proof.MainW.lean ====
/-
  @main on the TensorCore, as the launch theorem's obligation: the forty host operations run over all the unscoped
  arrays; of those the rest of the program needs seventeen, held one by one from then on. The first call takes the
  regrouped input, the pair-product array and the two partial-sum arrays and brings the three written ones back whole;
  the region takes the partial sums and the three per-slot vectors and brings the scale and offset vectors; two
  reshapes; the second call takes the pair-product array, the scale and the offset and the result array and brings the
  result back whole; the last reshape. The four argument arrays are written by nothing and are what the run leaves the
  claim.
-/
import proofs.«210137_g30502857736458_cont_9to1_2222_4_alg».proof.Proof.CommonW
import proofs.«210137_g30502857736458_cont_9to1_2222_4_alg».proof.Proof.DealW
import proofs.«210137_g30502857736458_cont_9to1_2222_4_alg».proof.Proof.OpsW
import proofs.«210137_g30502857736458_cont_9to1_2222_4_alg».proof.Proof.RegionW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
open Idealize.ShloMosaic.StableHlo (held held_split held_sub_split held_congr held_sdiff_result wp_hlo_within wp_seq after launchContents)

variable [FloatOps F] [∀ e, Nonempty (Elt F e)]
variable (m : (ℓ : Loc nD τ sig) → Buf (Elt F) ℓ) (ρ : Dev nD → PrngReg)

abbrev r (b : Ref sig .tc) : DevRef τ sig := Proc.devRef .tc b

/-- The TensorCore's unscoped arrays. -/
def HB : Finset (DevRef τ sig) :=
  (Finset.univ.filter fun b : Ref sig .tc => ¬ b.isScoped).map ⟨Proc.devRef (sig := sig) (.tc : Proc τ), Proc.devRef_injective _⟩

omit [FloatOps F] [∀ e, Nonempty (Elt F e)] in
theorem unscoped_held (d : Dev nD) :
    (unscopedBufs d (fun b => m ((SparseCore.T d).loc b)) : sProp 𝕄) = held (T d) HB (launchContents m d) := by
  unfold unscopedBufs held HB; rw [bigSep_map]; rfl

/-- The arrays the rest of the program uses after the host operations. -/
def NEED : Finset (DevRef τ sig) :=
  {r main_arg0, r main_arg1, r main_arg2, r main_arg3, r main_v2, r main_v30_0, r main_v30_1, r main_v30_2, r main_v11, r main_v20, r main_v29,
    r main_v31_0, r main_v31_1, r main_v32, r main_v33, r main_v34, r main_v35}

theorem NEED_sub : NEED ⊆ HB := by decide
theorem ops0_sub : ∀ op ∈ ops0 (F := F), op.bufs ⊆ HB := by
  intro _ h; (repeat (cases h with | head => (first | (rw [StableHlo.nullary_bufs]; decide) | (rw [StableHlo.unary_bufs]; decide) | (rw [StableHlo.binary_bufs]; decide) | (rw [StableHlo.ternary_bufs]; decide) | (rw [StableHlo.reshape_bufs]; decide)) | tail _ h => ?_)); exact nomatch h
theorem ops0_fresh : ∀ op ∈ ops0 (F := F), op.fresh = ∅ := by
  intro _ h; (repeat (cases h with | head => rfl | tail _ h => ?_)); exact nomatch h

theorem held_NEED (d : Dev nD) (V : Valuation τ sig (Elt F)) :
    (held (T d) NEED V : sProp 𝕄) = iprop(((SparseCore.T d).loc main_arg0 ↦{fullShare} V (r main_arg0))
      ∗ ((SparseCore.T d).loc main_arg1 ↦{fullShare} V (r main_arg1))
      ∗ ((SparseCore.T d).loc main_arg2 ↦{fullShare} V (r main_arg2))
      ∗ ((SparseCore.T d).loc main_arg3 ↦{fullShare} V (r main_arg3))
      ∗ ((SparseCore.T d).loc main_v2 ↦{fullShare} V (r main_v2))
      ∗ ((SparseCore.T d).loc main_v30_0 ↦{fullShare} V (r main_v30_0))
      ∗ ((SparseCore.T d).loc main_v30_1 ↦{fullShare} V (r main_v30_1))
      ∗ ((SparseCore.T d).loc main_v30_2 ↦{fullShare} V (r main_v30_2))
      ∗ ((SparseCore.T d).loc main_v11 ↦{fullShare} V (r main_v11))
      ∗ ((SparseCore.T d).loc main_v20 ↦{fullShare} V (r main_v20))
      ∗ ((SparseCore.T d).loc main_v29 ↦{fullShare} V (r main_v29))
      ∗ ((SparseCore.T d).loc main_v31_0 ↦{fullShare} V (r main_v31_0))
      ∗ ((SparseCore.T d).loc main_v31_1 ↦{fullShare} V (r main_v31_1))
      ∗ ((SparseCore.T d).loc main_v32 ↦{fullShare} V (r main_v32))
      ∗ ((SparseCore.T d).loc main_v33 ↦{fullShare} V (r main_v33))
      ∗ ((SparseCore.T d).loc main_v34 ↦{fullShare} V (r main_v34))
      ∗ ((SparseCore.T d).loc main_v35 ↦{fullShare} V (r main_v35))) := by
  unfold held NEED
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The buffers' contents when the first call is reached. -/
abbrev V1 (d : Dev nD) : Valuation τ sig (Elt F) := after (ops0 (F := F)) (launchContents m d)

theorem V1_arg0 (d : Dev nD) : after (ops0 (F := F)) (launchContents m d) (r main_arg0) = m ((SparseCore.T d).loc main_arg0) := StableHlo.after_of_forall_not_mem _ _ (by
  intro _ h; (repeat (cases h with | head => (first | (rw [StableHlo.nullary_writes]; decide) | (rw [StableHlo.unary_writes]; decide) | (rw [StableHlo.binary_writes]; decide) | (rw [StableHlo.ternary_writes]; decide) | (rw [StableHlo.reshape_writes]; decide)) | tail _ h => ?_)); exact nomatch h)
theorem V1_arg1 (d : Dev nD) : after (ops0 (F := F)) (launchContents m d) (r main_arg1) = m ((SparseCore.T d).loc main_arg1) := StableHlo.after_of_forall_not_mem _ _ (by
  intro _ h; (repeat (cases h with | head => (first | (rw [StableHlo.nullary_writes]; decide) | (rw [StableHlo.unary_writes]; decide) | (rw [StableHlo.binary_writes]; decide) | (rw [StableHlo.ternary_writes]; decide) | (rw [StableHlo.reshape_writes]; decide)) | tail _ h => ?_)); exact nomatch h)
theorem V1_arg2 (d : Dev nD) : after (ops0 (F := F)) (launchContents m d) (r main_arg2) = m ((SparseCore.T d).loc main_arg2) := StableHlo.after_of_forall_not_mem _ _ (by
  intro _ h; (repeat (cases h with | head => (first | (rw [StableHlo.nullary_writes]; decide) | (rw [StableHlo.unary_writes]; decide) | (rw [StableHlo.binary_writes]; decide) | (rw [StableHlo.ternary_writes]; decide) | (rw [StableHlo.reshape_writes]; decide)) | tail _ h => ?_)); exact nomatch h)
theorem V1_arg3 (d : Dev nD) : after (ops0 (F := F)) (launchContents m d) (r main_arg3) = m ((SparseCore.T d).loc main_arg3) := StableHlo.after_of_forall_not_mem _ _ (by
  intro _ h; (repeat (cases h with | head => (first | (rw [StableHlo.nullary_writes]; decide) | (rw [StableHlo.unary_writes]; decide) | (rw [StableHlo.binary_writes]; decide) | (rw [StableHlo.ternary_writes]; decide) | (rw [StableHlo.reshape_writes]; decide)) | tail _ h => ?_)); exact nomatch h)

/-- What @main leaves the claim: the four argument arrays at their launch contents. -/
abbrev FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3)))

/-- A stretch of host operations over two arrays, held whole: afterwards both are held whole again, at whatever they hold. -/
theorem wp_seq_two {Λ : Labels} {defs : Defs nD τ sig (Elt F) Λ} (d : Dev nD) (x y : Ref sig .tc) (hxy : r x ≠ r y) (ops : List (HloOp τ sig (Elt F)))
    (hS : ∀ op ∈ ops, op.bufs ⊆ {r x, r y}) (hf : ∀ op ∈ ops, op.fresh = ∅)
    (fx : x.ty.Contents (Elt F)) (fy : y.ty.Contents (Elt F)) {β : Type} (k : PUnit → Prog (TpuEff nD τ sig (Elt F) Λ .tc) β) (Q : β → sProp 𝕄) :
    iprop(boundary (T d) ∗ ((SparseCore.T d).loc x ↦{fullShare} fx) ∗ ((SparseCore.T d).loc y ↦{fullShare} fy)
        ∗ ((boundary (T d) ∗ (∃ f, (SparseCore.T d).loc x ↦{fullShare} f) ∗ (∃ f, (SparseCore.T d).loc y ↦{fullShare} f))
            -∗ wp frame (wpE defs 𝒱 (SparseCore.T d) none) Set.univ (k ⟨⟩) Q))
      ⊢ wp frame (wpE defs 𝒱 (SparseCore.T d) none) Set.univ (StableHlo.seq ops >>= k) Q := by
  let V : Valuation τ sig (Elt F) := Function.update (Function.update (fun _ => Classical.choice inferInstance) (r x) fx) (r y) fy
  have hVy : V (r y) = fy := Function.update_self _ _ _
  have hVx : V (r x) = fx := (Function.update_of_ne hxy _ _).trans (Function.update_self _ _ _)
  have hh : ∀ W : Valuation τ sig (Elt F), (held (T d) {r x, r y} W : sProp 𝕄)
      = iprop(((SparseCore.T d).loc x ↦{fullShare} W (r x)) ∗ ((SparseCore.T d).loc y ↦{fullShare} W (r y))) := by
    intro W; unfold held
    rw [SparseCore.bigSep_insert' (by simpa using hxy), bigSep_singleton]
  iintro ⟨Hb, Hx, Hy, Hk⟩
  iapply (wp_seq 𝒱 none Set.univ d {r x, r y} k ops hS hf V) $$ [Hb Hx Hy]
  · isplitl [Hb]; · iexact Hb
    rw [hh, hVx, hVy]
    isplitl [Hx]; · iexact Hx
    iexact Hy
  iintro ⟨Hb, Hh⟩
  ihave Hh' := (Entails.of_eq (hh _)) $$ Hh
  icases Hh' with ⟨Hx, Hy⟩
  iapply Hk
  isplitl [Hb]; · iexact Hb
  isplitl [Hx]; · iexists _; iexact Hx
  iexists _; iexact Hy

set_option maxHeartbeats 4000000 in
/-- @main on the TensorCore: the host operations, the first call (the regrouped input as read shares, the three arrays it
    writes row by row), the region, the two reshapes, the second call, the last reshape; the four arguments are kept. -/
theorem hmain (κ : GSem nD τ sig → ℕ) (d : Dev nD) :
    iprop((K (F := F)).ctx EH (P (F := F)) κ ∗ (K (F := F)).tcSt EH d 0 ∗ (K (F := F)).tcRes m ρ d ∗ G_region (F := F) d)
      ⊢ wp frame (wpE ((K (F := F)).defs (D (F := F))) 𝒱 (SparseCore.T d) none) Set.univ (main d)
          fun _ => iprop((K (F := F)).tcSt EH d 2 ∗ FIN m d) := by
  have e1 : (held (SparseCore.T d) HB (after (ops0 (F := F)) (launchContents m d)) : sProp 𝕄)
      = iprop((((SparseCore.T d).loc main_arg0 ↦{fullShare} m ((SparseCore.T d).loc main_arg0))
        ∗ ((SparseCore.T d).loc main_arg1 ↦{fullShare} m ((SparseCore.T d).loc main_arg1))
        ∗ ((SparseCore.T d).loc main_arg2 ↦{fullShare} m ((SparseCore.T d).loc main_arg2))
        ∗ ((SparseCore.T d).loc main_arg3 ↦{fullShare} m ((SparseCore.T d).loc main_arg3))
        ∗ ((SparseCore.T d).loc main_v2 ↦{fullShare} after (ops0 (F := F)) (launchContents m d) (r main_v2))
        ∗ ((SparseCore.T d).loc main_v30_0 ↦{fullShare} after (ops0 (F := F)) (launchContents m d) (r main_v30_0))
        ∗ ((SparseCore.T d).loc main_v30_1 ↦{fullShare} after (ops0 (F := F)) (launchContents m d) (r main_v30_1))
        ∗ ((SparseCore.T d).loc main_v30_2 ↦{fullShare} after (ops0 (F := F)) (launchContents m d) (r main_v30_2))
        ∗ ((SparseCore.T d).loc main_v11 ↦{fullShare} after (ops0 (F := F)) (launchContents m d) (r main_v11))
        ∗ ((SparseCore.T d).loc main_v20 ↦{fullShare} after (ops0 (F := F)) (launchContents m d) (r main_v20))
        ∗ ((SparseCore.T d).loc main_v29 ↦{fullShare} after (ops0 (F := F)) (launchContents m d) (r main_v29))
        ∗ ((SparseCore.T d).loc main_v31_0 ↦{fullShare} after (ops0 (F := F)) (launchContents m d) (r main_v31_0))
        ∗ ((SparseCore.T d).loc main_v31_1 ↦{fullShare} after (ops0 (F := F)) (launchContents m d) (r main_v31_1))
        ∗ ((SparseCore.T d).loc main_v32 ↦{fullShare} after (ops0 (F := F)) (launchContents m d) (r main_v32))
        ∗ ((SparseCore.T d).loc main_v33 ↦{fullShare} after (ops0 (F := F)) (launchContents m d) (r main_v33))
        ∗ ((SparseCore.T d).loc main_v34 ↦{fullShare} after (ops0 (F := F)) (launchContents m d) (r main_v34))
        ∗ ((SparseCore.T d).loc main_v35 ↦{fullShare} after (ops0 (F := F)) (launchContents m d) (r main_v35)))
        ∗ held (SparseCore.T d) (HB \ NEED) (after (ops0 (F := F)) (launchContents m d))) := by
    rw [held_sub_split (T d) NEED_sub, held_NEED, V1_arg0, V1_arg1, V1_arg2, V1_arg3]
  unfold SparseCore.Cfg.tcRes
  rw [unscoped_held, main_eq]
  iintro ⟨#Hctx, Hst, ⟨Hb, Hheld, Hsems, -⟩, HG⟩
  iapply (wp_seq 𝒱 none Set.univ d HB _ (ops0 (F := F)) ops0_sub ops0_fresh (launchContents m d)) $$ [Hb Hheld]
  · isplitl [Hb]; · iexact Hb
    iexact Hheld
  iintro ⟨Hb, Hheld⟩
  ihave Hheld' := (Entails.of_eq e1) $$ Hheld
  icases Hheld' with ⟨⟨Ha0, Ha1, Ha2, Ha3, Hxg, Hit, Hs1, Hs2, H11, H20, H29, H310, H311, H32, H33, H34, H35⟩, -⟩
  rw [wp_bind]
  iapply ((K (F := F)).wp_run (D (F := F)) 𝒱 (EH := EH) (P := P (F := F)) κ d 0) $$ [Hst Hxg Hit Hs1 Hs2 Hb Ha0 Ha1 Ha2 Ha3 H11 H20 H29 H310 H311 H32 H33 H34 H35 HG]
  isplitr; · iexact Hctx
  isplitl [Hst]; · iexact Hst
  isplitl [Hxg Hit Hs1 Hs2]
  · iapply (st0_intro d _ _ _ _)
    isplitl [Hxg]; · iexact Hxg
    isplitl [Hit]; · iexact Hit
    isplitl [Hs1]; · iexact Hs1
    iexact Hs2
  iintro ⟨Hst, Hdn⟩
  ihave Hdn' := (dn0_elim d) $$ Hdn
  icases Hdn' with ⟨⟨%fi, Hit⟩, ⟨%f1, Hs1⟩, ⟨%f2, Hs2⟩⟩

  -- the TensorCore region: the two partial-sum arrays and the three per-slot vectors in, the scale and offset vectors out
  rw [wp_bind]
  iapply (wp_region f1 f2 _ _ _ _ _ κ d _) $$ [Hb Hst HG Hs1 Hs2 H11 H20 H29 H310 H311 Hit Ha0 Ha1 Ha2 Ha3 H32 H33 H34 H35]
  isplitr; · iexact Hctx
  isplitl [Hb]; · iexact Hb
  isplitl [Hst]; · iexact Hst
  isplitl [HG]; · iexact HG
  isplitl [Hs1]; · iexact Hs1
  isplitl [Hs2]; · iexact Hs2
  isplitl [H11]; · iexact H11
  isplitl [H20]; · iexact H20
  isplitl [H29]; · iexact H29
  isplitl [H310]; · iexact H310
  isplitl [H311]; · iexact H311
  iintro ⟨Hb, Hst, -, -, -, -, -, ⟨%g0, H310⟩, ⟨%g1, H311⟩⟩
  -- the two reshapes
  rw [show (StableHlo.seq (ops1 (F := F)) >>= fun _ => (K (F := F)).run d 1 >>= fun _ => StableHlo.seq (ops2 (F := F)))
      = (StableHlo.seq [(ops1 (F := F))[0]] >>= fun _ => StableHlo.seq [(ops1 (F := F))[1]] >>= fun _ => (K (F := F)).run d 1 >>= fun _ => StableHlo.seq (ops2 (F := F))) from rfl]
  iapply (wp_seq_two d main_v31_0 main_v32 (by decide) _ (by intro _ h; cases h with | head => exact fun _ hh => hh | tail _ h => exact nomatch h)
      (by intro _ h; cases h with | head => rfl | tail _ h => exact nomatch h) g0 _) $$ [Hb H310 H32 Hst H311 H33 Hit H34 H35 Ha0 Ha1 Ha2 Ha3]
  isplitl [Hb]; · iexact Hb
  isplitl [H310]; · iexact H310
  isplitl [H32]; · iexact H32
  iintro ⟨Hb, -, ⟨%fa, H32⟩⟩
  iapply (wp_seq_two d main_v31_1 main_v33 (by decide) _ (by intro _ h; cases h with | head => exact fun _ hh => hh | tail _ h => exact nomatch h)
      (by intro _ h; cases h with | head => rfl | tail _ h => exact nomatch h) g1 _) $$ [Hb H311 H33 Hst H32 Hit H34 H35 Ha0 Ha1 Ha2 Ha3]
  isplitl [Hb]; · iexact Hb
  isplitl [H311]; · iexact H311
  isplitl [H33]; · iexact H33
  iintro ⟨Hb, -, ⟨%fc, H33⟩⟩
  -- the second call
  rw [wp_bind]
  iapply ((K (F := F)).wp_run (D (F := F)) 𝒱 (EH := EH) (P := P (F := F)) κ d 1) $$ [Hst Hit H32 H33 H34 Hb H35 Ha0 Ha1 Ha2 Ha3]
  isplitr; · iexact Hctx
  isplitl [Hst]; · iexact Hst
  isplitl [Hit H32 H33 H34]
  · iapply (st1_intro d _ _ _ _)
    isplitl [Hit]; · iexact Hit
    isplitl [H32]; · iexact H32
    isplitl [H33]; · iexact H33
    iexact H34
  iintro ⟨Hst, Hdn⟩
  ihave Hdn' := (dn1_elim d) $$ Hdn
  icases Hdn' with ⟨%fo, H34⟩
  -- the last reshape
  rw [show StableHlo.seq (ops2 (F := F)) = (StableHlo.seq (ops2 (F := F)) >>= fun u => Pure.pure u) from (bind_pure _).symm]
  iapply (wp_seq_two d main_v34 main_v35 (by decide) _ (by intro _ h; cases h with | head => exact fun _ hh => hh | tail _ h => exact nomatch h)
      (by intro _ h; cases h with | head => rfl | tail _ h => exact nomatch h) fo _) $$ [Hb H34 H35 Hst Ha0 Ha1 Ha2 Ha3]
  isplitl [Hb]; · iexact Hb
  isplitl [H34]; · iexact H34
  isplitl [H35]; · iexact H35
  iintro -
  rw [wp_pure]; imodintro
  isplitl [Hst]; · iexact Hst
  isplitl [Ha0]; · iexact Ha0
  isplitl [Ha1]; · iexact Ha1
  isplitl [Ha2]; · iexact Ha2
  iexact Ha3

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
  ∧ s'.mem.mem ((SparseCore.T d).loc main_arg2) = m ((SparseCore.T d).loc main_arg2) ∧ s'.mem.mem ((SparseCore.T d).loc main_arg3) = m ((SparseCore.T d).loc main_arg3)

set_option maxRecDepth 16384 in
theorem hfin (d : Dev nD) (s' : Phys nD τ sig (Elt F)) : iprop(FIN m d ∗ SI s') ⊢ (⌜fq m d s'⌝ : sProp 𝕄) := by
  iintro ⟨⟨H0, H1, H2, H3⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (SI_pointsTo_agree (st := s') (ℓ := (SparseCore.T d).loc main_arg3) (I := Finset.univ) (q := fullShare) (f := m ((SparseCore.T d).loc main_arg3))) $$ [HSI H3]
  · isplitl [HSI] <;> iassumption
  icases H with %h3
  ipureintro
  exact ⟨funext fun i => h0 i (Finset.mem_univ i), funext fun i => h1 i (Finset.mem_univ i), funext fun i => h2 i (Finset.mem_univ i), funext fun i => h3 i (Finset.mem_univ i)⟩

end Cert.Proof.KW

end
-- ==== Proof.Body0aW.lean ====
import proofs.«210137_g30502857736458_cont_9to1_2222_4_alg».proof.Proof.CommonW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The subcore's thread, its scratch buffers -/

/-- Vector subcore `(L 0, L 1)` of device `d`. -/
abbrev thr0 (d : Dev nD) (L : grid0.Coords) : Thread nD τ := V d ((L 0).castLE hcore0) ((L 1).castLE hsub0)

/-- The five scratch buffers: a staged input row, a staged row of pair products, the two running sums, one pair
    block's accumulators. -/
abbrev sc0 : Memref sig .scVector .vmem S26624 .f32 := Memref.whole cc0_scratch0
abbrev sc1 : Memref sig .scVector .vmem S13312 .f32 := Memref.whole cc0_scratch1
abbrev sc2 : Memref sig .scVector .vmem S13312 .f32 := Memref.whole cc0_scratch2
abbrev sc3 : Memref sig .scVector .vmem S13312 .f32 := Memref.whole cc0_scratch3
abbrev sc4 : Memref sig .scVector .vmem S512 .f32 := Memref.whole cc0_scratch4

variable [FloatOps F]

/-- A scratch buffer whole, at whatever it holds. -/
abbrev any0 (d : Dev nD) (L : grid0.Coords) : sProp 𝕄 := iprop(∃ f, (sc0).view.loc (thr0 d L) ↦{fullShare} f)
abbrev any1 (d : Dev nD) (L : grid0.Coords) : sProp 𝕄 := iprop(∃ f, (sc1).view.loc (thr0 d L) ↦{fullShare} f)
abbrev any2 (d : Dev nD) (L : grid0.Coords) : sProp 𝕄 := iprop(∃ f, (sc2).view.loc (thr0 d L) ↦{fullShare} f)
abbrev any3 (d : Dev nD) (L : grid0.Coords) : sProp 𝕄 := iprop(∃ f, (sc3).view.loc (thr0 d L) ↦{fullShare} f)
abbrev any4 (d : Dev nD) (L : grid0.Coords) : sProp 𝕄 := iprop(∃ f, (sc4).view.loc (thr0 d L) ↦{fullShare} f)

/-- What the zeroing loop touches: the two running sums. -/
def I23 (d : Dev nD) (L : grid0.Coords) : sProp 𝕄 := iprop(any2 (F := F) d L ∗ any3 (F := F) d L)
/-- What a pair block's accumulation loops touch: the staged input row (read) and the block's accumulators. -/
def I04 (d : Dev nD) (L : grid0.Coords) : sProp 𝕄 := iprop(any0 (F := F) d L ∗ any4 (F := F) d L)
/-- What a pair block's write-back loops touch: the accumulators (read), the staged row and the two running sums. -/
def I1234 (d : Dev nD) (L : grid0.Coords) : sProp 𝕄 :=
  iprop(any1 (F := F) d L ∗ any2 (F := F) d L ∗ any3 (F := F) d L ∗ any4 (F := F) d L)
/-- All five scratch buffers, whole, each at whatever it holds. -/
def I5 (d : Dev nD) (L : grid0.Coords) : sProp 𝕄 :=
  iprop(any0 (F := F) d L ∗ any1 (F := F) d L ∗ any2 (F := F) d L ∗ any3 (F := F) d L ∗ any4 (F := F) d L)

/-! ## One trip of each innermost loop -/

/-- One trip of the zeroing loop: a load and a store of sixteen words on each running sum. -/
theorem step_t1 (d : Dev nD) (L : grid0.Coords)  (k : Fin k0_t1_loop.trips) (acc : BitVec 32) :
    I23 (F := F) d L ⊢ wp frame (wpE (defs₀ (F := F)) 𝒱₀ (thr0 d L) none) Set.univ
      (k0_t1_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3  k acc)
      fun _ => I23 (F := F) d L := by
  unfold I23 k0_t1_body
  iintro ⟨⟨%f2, H2⟩, ⟨%f3, H3⟩⟩
  sl_exec
  sl_step
  isplitl [H2]
  · iexists _; iexact H2
  · iexists _; iexact H3

/-- One trip of the first sixteen-field block's main accumulation loop: sixteen loads of the staged row, a load and a store of the accumulators. -/
theorem step_t4 (d : Dev nD) (L : grid0.Coords) (k0_t3 : Fin k0_t3_loop.trips) (arg13 : BitVec 32) (v17 : FVec F S16 .f32) (v24 : FVec F S16 .f32) (v31 : FVec F S16 .f32) (v38 : FVec F S16 .f32) (v45 : FVec F S16 .f32) (v52 : FVec F S16 .f32) (v59 : FVec F S16 .f32) (v66 : FVec F S16 .f32) (v73 : FVec F S16 .f32) (v80 : FVec F S16 .f32) (v87 : FVec F S16 .f32) (v94 : FVec F S16 .f32) (v101 : FVec F S16 .f32) (v108 : FVec F S16 .f32) (v115 : FVec F S16 .f32) (v122 : FVec F S16 .f32) (c0_i32_62 : BitVec 32) (c0_i32_63 : BitVec 32) (v123 : BitVec 32) (k : Fin (k0_t4_loop k0_t3).trips) (acc : BitVec 32) :
    I04 (F := F) d L ⊢ wp frame (wpE (defs₀ (F := F)) 𝒱₀ (thr0 d L) none) Set.univ
      (k0_t4_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 arg13 v17 v24 v31 v38 v45 v52 v59 v66 v73 v80 v87 v94 v101 v108 v115 v122 c0_i32_62 c0_i32_63 v123 k acc)
      fun _ => I04 (F := F) d L := by
  unfold I04 k0_t4_body
  iintro ⟨⟨%f0, H0⟩, ⟨%f4, H4⟩⟩
  sl_exec
  sl_step
  isplitl [H0]
  · iexists _; iexact H0
  · iexists _; iexact H4

/-- One trip of its remainder loop. -/
theorem step_t5 (d : Dev nD) (L : grid0.Coords) (k0_t3 : Fin k0_t3_loop.trips) (arg13 : BitVec 32) (v17 : FVec F S16 .f32) (v24 : FVec F S16 .f32) (v31 : FVec F S16 .f32) (v38 : FVec F S16 .f32) (v45 : FVec F S16 .f32) (v52 : FVec F S16 .f32) (v59 : FVec F S16 .f32) (v66 : FVec F S16 .f32) (v73 : FVec F S16 .f32) (v80 : FVec F S16 .f32) (v87 : FVec F S16 .f32) (v94 : FVec F S16 .f32) (v101 : FVec F S16 .f32) (v108 : FVec F S16 .f32) (v115 : FVec F S16 .f32) (v122 : FVec F S16 .f32) (c0_i32_62 : BitVec 32) (c0_i32_63 : BitVec 32) (v123 : BitVec 32) (v127 : BitVec 32) (k : Fin (k0_t5_loop k0_t3).trips) (acc : BitVec 32) :
    I04 (F := F) d L ⊢ wp frame (wpE (defs₀ (F := F)) 𝒱₀ (thr0 d L) none) Set.univ
      (k0_t5_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 arg13 v17 v24 v31 v38 v45 v52 v59 v66 v73 v80 v87 v94 v101 v108 v115 v122 c0_i32_62 c0_i32_63 v123 v127 k acc)
      fun _ => I04 (F := F) d L := by
  unfold I04 k0_t5_body
  iintro ⟨⟨%f0, H0⟩, ⟨%f4, H4⟩⟩
  sl_exec
  sl_step
  isplitl [H0]
  · iexists _; iexact H0
  · iexists _; iexact H4

/-- One trip of the second block's main accumulation loop. -/
theorem step_t6 (d : Dev nD) (L : grid0.Coords) (k0_t3 : Fin k0_t3_loop.trips) (arg13 : BitVec 32) (v136 : FVec F S16 .f32) (v143 : FVec F S16 .f32) (v150 : FVec F S16 .f32) (v157 : FVec F S16 .f32) (v164 : FVec F S16 .f32) (v171 : FVec F S16 .f32) (v178 : FVec F S16 .f32) (v185 : FVec F S16 .f32) (v192 : FVec F S16 .f32) (v199 : FVec F S16 .f32) (v206 : FVec F S16 .f32) (v213 : FVec F S16 .f32) (v220 : FVec F S16 .f32) (v227 : FVec F S16 .f32) (v234 : FVec F S16 .f32) (v237 : BitVec 32) (v240 : Vec F S16 .f32) (k : Fin (k0_t6_loop k0_t3).trips) (acc : BitVec 32) :
    I04 (F := F) d L ⊢ wp frame (wpE (defs₀ (F := F)) 𝒱₀ (thr0 d L) none) Set.univ
      (k0_t6_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 arg13 v136 v143 v150 v157 v164 v171 v178 v185 v192 v199 v206 v213 v220 v227 v234 v237 v240 k acc)
      fun _ => I04 (F := F) d L := by
  unfold I04 k0_t6_body
  iintro ⟨⟨%f0, H0⟩, ⟨%f4, H4⟩⟩
  sl_exec
  sl_step
  isplitl [H0]
  · iexists _; iexact H0
  · iexists _; iexact H4

/-- One trip of its remainder loop. -/
theorem step_t7 (d : Dev nD) (L : grid0.Coords) (k0_t3 : Fin k0_t3_loop.trips) (arg13 : BitVec 32) (v136 : FVec F S16 .f32) (v143 : FVec F S16 .f32) (v150 : FVec F S16 .f32) (v157 : FVec F S16 .f32) (v164 : FVec F S16 .f32) (v171 : FVec F S16 .f32) (v178 : FVec F S16 .f32) (v185 : FVec F S16 .f32) (v192 : FVec F S16 .f32) (v199 : FVec F S16 .f32) (v206 : FVec F S16 .f32) (v213 : FVec F S16 .f32) (v220 : FVec F S16 .f32) (v227 : FVec F S16 .f32) (v234 : FVec F S16 .f32) (v237 : BitVec 32) (v240 : Vec F S16 .f32) (v246 : BitVec 32) (k : Fin (k0_t7_loop k0_t3).trips) (acc : BitVec 32) :
    I04 (F := F) d L ⊢ wp frame (wpE (defs₀ (F := F)) 𝒱₀ (thr0 d L) none) Set.univ
      (k0_t7_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 arg13 v136 v143 v150 v157 v164 v171 v178 v185 v192 v199 v206 v213 v220 v227 v234 v237 v240 v246 k acc)
      fun _ => I04 (F := F) d L := by
  unfold I04 k0_t7_body
  iintro ⟨⟨%f0, H0⟩, ⟨%f4, H4⟩⟩
  sl_exec
  sl_step
  isplitl [H0]
  · iexists _; iexact H0
  · iexists _; iexact H4

/-- One trip of the third block's main accumulation loop. -/
theorem step_t8 (d : Dev nD) (L : grid0.Coords) (k0_t3 : Fin k0_t3_loop.trips) (arg13 : BitVec 32) (v255 : FVec F S16 .f32) (v262 : FVec F S16 .f32) (v269 : FVec F S16 .f32) (v276 : FVec F S16 .f32) (v283 : FVec F S16 .f32) (v290 : FVec F S16 .f32) (v297 : FVec F S16 .f32) (v304 : FVec F S16 .f32) (v311 : FVec F S16 .f32) (v318 : FVec F S16 .f32) (v325 : FVec F S16 .f32) (v332 : FVec F S16 .f32) (v339 : FVec F S16 .f32) (v346 : FVec F S16 .f32) (v352 : Vec F S16 .f32) (v359 : Vec F S16 .f32) (k : Fin (k0_t8_loop k0_t3).trips) (acc : BitVec 32) :
    I04 (F := F) d L ⊢ wp frame (wpE (defs₀ (F := F)) 𝒱₀ (thr0 d L) none) Set.univ
      (k0_t8_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 arg13 v255 v262 v269 v276 v283 v290 v297 v304 v311 v318 v325 v332 v339 v346 v352 v359 k acc)
      fun _ => I04 (F := F) d L := by
  unfold I04 k0_t8_body
  iintro ⟨⟨%f0, H0⟩, ⟨%f4, H4⟩⟩
  sl_exec
  sl_step
  isplitl [H0]
  · iexists _; iexact H0
  · iexists _; iexact H4

/-- One trip of its remainder loop. -/
theorem step_t9 (d : Dev nD) (L : grid0.Coords) (k0_t3 : Fin k0_t3_loop.trips) (arg13 : BitVec 32) (v255 : FVec F S16 .f32) (v262 : FVec F S16 .f32) (v269 : FVec F S16 .f32) (v276 : FVec F S16 .f32) (v283 : FVec F S16 .f32) (v290 : FVec F S16 .f32) (v297 : FVec F S16 .f32) (v304 : FVec F S16 .f32) (v311 : FVec F S16 .f32) (v318 : FVec F S16 .f32) (v325 : FVec F S16 .f32) (v332 : FVec F S16 .f32) (v339 : FVec F S16 .f32) (v346 : FVec F S16 .f32) (v352 : Vec F S16 .f32) (v359 : Vec F S16 .f32) (v365 : BitVec 32) (k : Fin (k0_t9_loop k0_t3).trips) (acc : BitVec 32) :
    I04 (F := F) d L ⊢ wp frame (wpE (defs₀ (F := F)) 𝒱₀ (thr0 d L) none) Set.univ
      (k0_t9_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 arg13 v255 v262 v269 v276 v283 v290 v297 v304 v311 v318 v325 v332 v339 v346 v352 v359 v365 k acc)
      fun _ => I04 (F := F) d L := by
  unfold I04 k0_t9_body
  iintro ⟨⟨%f0, H0⟩, ⟨%f4, H4⟩⟩
  sl_exec
  sl_step
  isplitl [H0]
  · iexists _; iexact H0
  · iexists _; iexact H4

/-- One trip of the fourth block's main accumulation loop. -/
theorem step_t10 (d : Dev nD) (L : grid0.Coords) (k0_t3 : Fin k0_t3_loop.trips) (v374 : FVec F S16 .f32) (v381 : FVec F S16 .f32) (v388 : FVec F S16 .f32) (v395 : FVec F S16 .f32) (v402 : FVec F S16 .f32) (v409 : FVec F S16 .f32) (v416 : FVec F S16 .f32) (v423 : FVec F S16 .f32) (v430 : FVec F S16 .f32) (v437 : FVec F S16 .f32) (v444 : FVec F S16 .f32) (v451 : FVec F S16 .f32) (v458 : FVec F S16 .f32) (v465 : FVec F S16 .f32) (v471 : Vec F S16 .f32) (v478 : Vec F S16 .f32) (k : Fin (k0_t10_loop k0_t3).trips) (acc : BitVec 32) :
    I04 (F := F) d L ⊢ wp frame (wpE (defs₀ (F := F)) 𝒱₀ (thr0 d L) none) Set.univ
      (k0_t10_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 v374 v381 v388 v395 v402 v409 v416 v423 v430 v437 v444 v451 v458 v465 v471 v478 k acc)
      fun _ => I04 (F := F) d L := by
  unfold I04 k0_t10_body
  iintro ⟨⟨%f0, H0⟩, ⟨%f4, H4⟩⟩
  sl_exec
  sl_step
  isplitl [H0]
  · iexists _; iexact H0
  · iexists _; iexact H4

/-- One trip of its remainder loop. -/
theorem step_t11 (d : Dev nD) (L : grid0.Coords) (k0_t3 : Fin k0_t3_loop.trips) (v374 : FVec F S16 .f32) (v381 : FVec F S16 .f32) (v388 : FVec F S16 .f32) (v395 : FVec F S16 .f32) (v402 : FVec F S16 .f32) (v409 : FVec F S16 .f32) (v416 : FVec F S16 .f32) (v423 : FVec F S16 .f32) (v430 : FVec F S16 .f32) (v437 : FVec F S16 .f32) (v444 : FVec F S16 .f32) (v451 : FVec F S16 .f32) (v458 : FVec F S16 .f32) (v465 : FVec F S16 .f32) (v471 : Vec F S16 .f32) (v478 : Vec F S16 .f32) (v484 : BitVec 32) (k : Fin (k0_t11_loop k0_t3).trips) (acc : BitVec 32) :
    I04 (F := F) d L ⊢ wp frame (wpE (defs₀ (F := F)) 𝒱₀ (thr0 d L) none) Set.univ
      (k0_t11_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 v374 v381 v388 v395 v402 v409 v416 v423 v430 v437 v444 v451 v458 v465 v471 v478 v484 k acc)
      fun _ => I04 (F := F) d L := by
  unfold I04 k0_t11_body
  iintro ⟨⟨%f0, H0⟩, ⟨%f4, H4⟩⟩
  sl_exec
  sl_step
  isplitl [H0]
  · iexists _; iexact H0
  · iexists _; iexact H4

/-- One trip of the write-back's main loop: the accumulators read, the staged row and the two running sums loaded and stored. -/
theorem step_t12 (d : Dev nD) (L : grid0.Coords) (k0_t3 : Fin k0_t3_loop.trips) (k : Fin (k0_t12_loop k0_t3).trips) (acc : BitVec 32) :
    I1234 (F := F) d L ⊢ wp frame (wpE (defs₀ (F := F)) 𝒱₀ (thr0 d L) none) Set.univ
      (k0_t12_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 k acc)
      fun _ => I1234 (F := F) d L := by
  unfold I1234 k0_t12_body
  iintro ⟨⟨%f1, H1⟩, ⟨%f2, H2⟩, ⟨%f3, H3⟩, ⟨%f4, H4⟩⟩
  sl_exec
  sl_step
  isplitl [H1]; · iexists _; iexact H1
  isplitl [H2]; · iexists _; iexact H2
  isplitl [H3]; · iexists _; iexact H3
  iexists _; iexact H4

/-- One trip of its remainder loop. -/
theorem step_t13 (d : Dev nD) (L : grid0.Coords) (k0_t3 : Fin k0_t3_loop.trips) (k : Fin (k0_t13_loop k0_t3).trips) (acc : BitVec 32) :
    I1234 (F := F) d L ⊢ wp frame (wpE (defs₀ (F := F)) 𝒱₀ (thr0 d L) none) Set.univ
      (k0_t13_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 k acc)
      fun _ => I1234 (F := F) d L := by
  unfold I1234 k0_t13_body
  iintro ⟨⟨%f1, H1⟩, ⟨%f2, H2⟩, ⟨%f3, H3⟩, ⟨%f4, H4⟩⟩
  sl_exec
  sl_step
  isplitl [H1]; · iexists _; iexact H1
  isplitl [H2]; · iexists _; iexact H2
  isplitl [H3]; · iexists _; iexact H3
  iexists _; iexact H4

end Cert.Proof.KW

end
-- ==== Proof.Body0bW.lean ====
import proofs.«210137_g30502857736458_cont_9to1_2222_4_alg».proof.Proof.Body0aW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

set_option maxHeartbeats 4000000 in
/-- One trip of the pair-block loop: the staged row's loads, four pairs of accumulation loops, the write-back's pair. -/
theorem step_t3 (d : Dev nD) (L : grid0.Coords) (k : Fin k0_t3_loop.trips) (acc : BitVec 32) :
    I5 (F := F) d L ⊢ wp frame (wpE (defs₀ (F := F)) 𝒱₀ (thr0 d L) none) Set.univ
      (k0_t3_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k acc)
      fun _ => I5 (F := F) d L := by
  unfold I5 k0_t3_body
  iintro ⟨⟨%f0, H0⟩, ⟨%f1, H1⟩, ⟨%f2, H2⟩, ⟨%f3, H3⟩, ⟨%f4, H4⟩⟩
  sl_exec
  sl_for (fun _ _ => I04 (F := F) d L) $$ [H0 H4]
  case region => intro k' acc'; exact step_t4 (F := F) d L _ _ _ _ _ _ _ _ _ _ _ _ _ _ _ _ _ _ _ _ _ k' acc'
  · unfold I04
    isplitl [H0]
    · iexists _; iexact H0
    · iexists _; iexact H4
  iintro %a4 HI
  unfold I04
  icases HI with ⟨⟨%g0_4, H0⟩, ⟨%g4_4, H4⟩⟩
  sl_exec
  sl_for (fun _ _ => I04 (F := F) d L) $$ [H0 H4]
  case region => intro k' acc'; exact step_t5 (F := F) d L _ _ _ _ _ _ _ _ _ _ _ _ _ _ _ _ _ _ _ _ _ _ k' acc'
  · unfold I04
    isplitl [H0]
    · iexists _; iexact H0
    · iexists _; iexact H4
  iintro %a5 HI
  unfold I04
  icases HI with ⟨⟨%g0_5, H0⟩, ⟨%g4_5, H4⟩⟩
  sl_exec
  sl_for (fun _ _ => I04 (F := F) d L) $$ [H0 H4]
  case region => intro k' acc'; exact step_t6 (F := F) d L _ _ _ _ _ _ _ _ _ _ _ _ _ _ _ _ _ _ _ k' acc'
  · unfold I04
    isplitl [H0]
    · iexists _; iexact H0
    · iexists _; iexact H4
  iintro %a6 HI
  unfold I04
  icases HI with ⟨⟨%g0_6, H0⟩, ⟨%g4_6, H4⟩⟩
  sl_exec
  sl_for (fun _ _ => I04 (F := F) d L) $$ [H0 H4]
  case region => intro k' acc'; exact step_t7 (F := F) d L _ _ _ _ _ _ _ _ _ _ _ _ _ _ _ _ _ _ _ _ k' acc'
  · unfold I04
    isplitl [H0]
    · iexists _; iexact H0
    · iexists _; iexact H4
  iintro %a7 HI
  unfold I04
  icases HI with ⟨⟨%g0_7, H0⟩, ⟨%g4_7, H4⟩⟩
  sl_exec
  sl_for (fun _ _ => I04 (F := F) d L) $$ [H0 H4]
  case region => intro k' acc'; exact step_t8 (F := F) d L _ _ _ _ _ _ _ _ _ _ _ _ _ _ _ _ _ _ k' acc'
  · unfold I04
    isplitl [H0]
    · iexists _; iexact H0
    · iexists _; iexact H4
  iintro %a8 HI
  unfold I04
  icases HI with ⟨⟨%g0_8, H0⟩, ⟨%g4_8, H4⟩⟩
  sl_exec
  sl_for (fun _ _ => I04 (F := F) d L) $$ [H0 H4]
  case region => intro k' acc'; exact step_t9 (F := F) d L _ _ _ _ _ _ _ _ _ _ _ _ _ _ _ _ _ _ _ k' acc'
  · unfold I04
    isplitl [H0]
    · iexists _; iexact H0
    · iexists _; iexact H4
  iintro %a9 HI
  unfold I04
  icases HI with ⟨⟨%g0_9, H0⟩, ⟨%g4_9, H4⟩⟩
  sl_exec
  sl_for (fun _ _ => I04 (F := F) d L) $$ [H0 H4]
  case region => intro k' acc'; exact step_t10 (F := F) d L _ _ _ _ _ _ _ _ _ _ _ _ _ _ _ _ _ k' acc'
  · unfold I04
    isplitl [H0]
    · iexists _; iexact H0
    · iexists _; iexact H4
  iintro %a10 HI
  unfold I04
  icases HI with ⟨⟨%g0_10, H0⟩, ⟨%g4_10, H4⟩⟩
  sl_exec
  sl_for (fun _ _ => I04 (F := F) d L) $$ [H0 H4]
  case region => intro k' acc'; exact step_t11 (F := F) d L _ _ _ _ _ _ _ _ _ _ _ _ _ _ _ _ _ _ k' acc'
  · unfold I04
    isplitl [H0]
    · iexists _; iexact H0
    · iexists _; iexact H4
  iintro %a11 HI
  unfold I04
  icases HI with ⟨⟨%g0_11, H0⟩, ⟨%g4_11, H4⟩⟩
  sl_exec
  sl_for (fun _ _ => I1234 (F := F) d L) $$ [H1 H2 H3 H4]
  case region => intro k' acc'; exact step_t12 (F := F) d L _ k' acc'
  · unfold I1234
    isplitl [H1]; · iexists _; iexact H1
    isplitl [H2]; · iexists _; iexact H2
    isplitl [H3]; · iexists _; iexact H3
    iexists _; iexact H4
  iintro %a12 HI
  unfold I1234
  icases HI with ⟨⟨%g1_12, H1⟩, ⟨%g2_12, H2⟩, ⟨%g3_12, H3⟩, ⟨%g4_12, H4⟩⟩
  sl_exec
  sl_for (fun _ _ => I1234 (F := F) d L) $$ [H1 H2 H3 H4]
  case region => intro k' acc'; exact step_t13 (F := F) d L _ k' acc'
  · unfold I1234
    isplitl [H1]; · iexists _; iexact H1
    isplitl [H2]; · iexists _; iexact H2
    isplitl [H3]; · iexists _; iexact H3
    iexists _; iexact H4
  iintro %a13 HI
  unfold I1234
  icases HI with ⟨⟨%g1_13, H1⟩, ⟨%g2_13, H2⟩, ⟨%g3_13, H3⟩, ⟨%g4_13, H4⟩⟩
  sl_exec
  sl_step
  isplitl [H0]; · iexists _; iexact H0
  isplitl [H1]; · iexists _; iexact H1
  isplitl [H2]; · iexists _; iexact H2
  isplitl [H3]; · iexists _; iexact H3
  iexists _; iexact H4

end Cert.Proof.KW

end
-- ==== Proof.Body0cW.lean ====
import proofs.«210137_g30502857736458_cont_9to1_2222_4_alg».proof.Proof.Body0bW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## The subcore's own semaphores and buffers, the four transfers' cells and the five scratch buffers set apart -/

abbrev cell0 (d : Dev nD) (L : grid0.Coords) : GSem nD τ sig := (thr0 d L, .dma cc0_scoped0.sem)
abbrev cell1 (d : Dev nD) (L : grid0.Coords) : GSem nD τ sig := (thr0 d L, .dma cc0_scoped1.sem)
abbrev cell2 (d : Dev nD) (L : grid0.Coords) : GSem nD τ sig := (thr0 d L, .dma cc0_scoped2.sem)
abbrev cell3 (d : Dev nD) (L : grid0.Coords) : GSem nD τ sig := (thr0 d L, .dma cc0_scoped3.sem)

omit [FloatOps F] in
theorem cell_ne (d : Dev nD) (L : grid0.Coords) {a b : SemLoc sig} (h : a ≠ b) :
    ((thr0 d L, a) : GSem nD τ sig) ≠ (thr0 d L, b) := fun e => h (Prod.ext_iff.mp e).2

omit [FloatOps F] in
theorem ownSems0_V0 (d : Dev nD) (L : grid0.Coords) :
    (ownSems0 (thr0 d L) : sProp 𝕄)
      = iprop(semVal (cell0 d L) 0 ∗ semVal (cell1 d L) 0 ∗ semVal (cell2 d L) 0 ∗ semVal (cell3 d L) 0
          ∗ bigSep (((((ownCells (thr0 d L)).erase (cell0 d L)).erase (cell1 d L)).erase (cell2 d L)).erase (cell3 d L)) fun g => semVal g 0) := by
  unfold SparseCore.Cfg.ownSems0
  rw [SparseCore.bigSep_erase' ((mem_ownCells (g := cell0 d L)).mpr ⟨rfl, by show (SemLoc.dma cc0_scoped0.sem : SemLoc sig).isScoped .scVector = true; decide⟩),
    SparseCore.bigSep_erase' (Finset.mem_erase.mpr ⟨cell_ne d L (show (SemLoc.dma cc0_scoped1.sem : SemLoc sig) ≠ SemLoc.dma cc0_scoped0.sem by decide), (mem_ownCells (g := cell1 d L)).mpr ⟨rfl, by show (SemLoc.dma cc0_scoped1.sem : SemLoc sig).isScoped .scVector = true; decide⟩⟩),
    SparseCore.bigSep_erase' (Finset.mem_erase.mpr ⟨cell_ne d L (show (SemLoc.dma cc0_scoped2.sem : SemLoc sig) ≠ SemLoc.dma cc0_scoped1.sem by decide), Finset.mem_erase.mpr ⟨cell_ne d L (show (SemLoc.dma cc0_scoped2.sem : SemLoc sig) ≠ SemLoc.dma cc0_scoped0.sem by decide), (mem_ownCells (g := cell2 d L)).mpr ⟨rfl, by show (SemLoc.dma cc0_scoped2.sem : SemLoc sig).isScoped .scVector = true; decide⟩⟩⟩),
    SparseCore.bigSep_erase' (Finset.mem_erase.mpr ⟨cell_ne d L (show (SemLoc.dma cc0_scoped3.sem : SemLoc sig) ≠ SemLoc.dma cc0_scoped2.sem by decide), Finset.mem_erase.mpr ⟨cell_ne d L (show (SemLoc.dma cc0_scoped3.sem : SemLoc sig) ≠ SemLoc.dma cc0_scoped1.sem by decide), Finset.mem_erase.mpr ⟨cell_ne d L (show (SemLoc.dma cc0_scoped3.sem : SemLoc sig) ≠ SemLoc.dma cc0_scoped0.sem by decide), (mem_ownCells (g := cell3 d L)).mpr ⟨rfl, by show (SemLoc.dma cc0_scoped3.sem : SemLoc sig).isScoped .scVector = true; decide⟩⟩⟩⟩)]

omit [FloatOps F] in
/-- The five scratch buffers are among the subcore's own: they are them, each at some contents, and the rest. -/
theorem ownBufs_V0 (d : Dev nD) (L : grid0.Coords) :
    (ownBufs (thr0 d L) : sProp 𝕄)
      = iprop(any0 (F := F) d L ∗ any1 (F := F) d L ∗ any2 (F := F) d L ∗ any3 (F := F) d L ∗ any4 (F := F) d L
          ∗ bigSep ((((((ownRefs (τ := τ) (.scVector ((L 0).castLE hcore0) ((L 1).castLE hsub0))).erase ((Proc.scVector ((L 0).castLE hcore0) ((L 1).castLE hsub0)).devRef cc0_scratch0)).erase ((Proc.scVector ((L 0).castLE hcore0) ((L 1).castLE hsub0)).devRef cc0_scratch1)).erase ((Proc.scVector ((L 0).castLE hcore0) ((L 1).castLE hsub0)).devRef cc0_scratch2)).erase ((Proc.scVector ((L 0).castLE hcore0) ((L 1).castLE hsub0)).devRef cc0_scratch3)).erase ((Proc.scVector ((L 0).castLE hcore0) ((L 1).castLE hsub0)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := (Proc.scVector ((L 0).castLE hcore0) ((L 1).castLE hsub0))) (b := ((Proc.scVector ((L 0).castLE hcore0) ((L 1).castLE hsub0)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector ((L 0).castLE hcore0) ((L 1).castLE hsub0))) (b := ((Proc.scVector ((L 0).castLE hcore0) ((L 1).castLE hsub0)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector ((L 0).castLE hcore0) ((L 1).castLE hsub0))) (b := ((Proc.scVector ((L 0).castLE hcore0) ((L 1).castLE hsub0)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector ((L 0).castLE hcore0) ((L 1).castLE hsub0))) (b := ((Proc.scVector ((L 0).castLE hcore0) ((L 1).castLE hsub0)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector ((L 0).castLE hcore0) ((L 1).castLE hsub0))) (b := ((Proc.scVector ((L 0).castLE hcore0) ((L 1).castLE hsub0)).devRef cc0_scratch4)) rfl⟩⟩⟩⟩)]

/-! ## The group loop -/

omit [FloatOps F] in
/-- Row `8 w + g` of the pair-product array as the subcore addresses it. -/
theorem pts_itRow (d : Dev nD) (L : grid0.Coords) (g : Fin k0_t2_loop.trips) (f : Buf (Elt F) (itLoc d)) :
    ((itRowM L g).view.loc (thr0 d L) ↦[(itRowM L g).view.set]{fullShare} f : sProp 𝕄)
      = itLoc d ↦[(itRowM L g).view.set]{fullShare} f := rfl
omit [FloatOps F] in
theorem pts_s1Row (d : Dev nD) (L : grid0.Coords) (f : Buf (Elt F) (s1Loc d)) :
    ((s1RowM L).view.loc (thr0 d L) ↦[(s1RowM L).view.set]{fullShare} f : sProp 𝕄)
      = s1Loc d ↦[(s1RowM L).view.set]{fullShare} f := rfl
omit [FloatOps F] in
theorem pts_s2Row (d : Dev nD) (L : grid0.Coords) (f : Buf (Elt F) (s2Loc d)) :
    ((s2RowM L).view.loc (thr0 d L) ↦[(s2RowM L).view.set]{fullShare} f : sProp 𝕄)
      = s2Loc d ↦[(s2RowM L).view.set]{fullShare} f := rfl
omit [FloatOps F] in
theorem pts_xg (d : Dev nD) (L : grid0.Coords) (q : PosShare TreeShare) (f : Buf (Elt F) (xgLoc d)) :
    ((xgV).view.loc (thr0 d L) ↦{q} f : sProp 𝕄) = xgLoc d ↦{q} f := rfl

/-- The group loop's invariant: the waits' evidence, the five scratch buffers, the two cells its transfers use at
    zero, the read share of the regrouped input, the subcore's eight rows of the pair-product array, the waits
    recorded so far. -/
def IG (d : Dev nD) (L : grid0.Coords) (O : CellTallies nD τ sig (HIx 2)) (W : Waits sig (HIx 2)) : sProp 𝕄 :=
  iprop(Transfers.MayWaits (thr0 d L) (default : HIx 2) O
    ∗ I5 (F := F) d L
    ∗ semVal (cell0 d L) 0 ∗ semVal (cell1 d L) 0
    ∗ (∃ f, (xgV).view.loc (thr0 d L) ↦{rq (wid L)} f)
    ∗ (bigSep Finset.univ fun g : Fin k0_t2_loop.trips => itRowPts (F := F) d L g)
    ∗ ∃ W', ⌜∀ p ∈ W', p ∈ W ∨ p.2 = none⌝ ∗ owes (thr0 d L) O W')

set_option maxHeartbeats 4000000 in
/-- One trip of the group loop: the group's input row staged, the pair-block loop, the staged row of pair products
    written out to the group's row of the pair-product array (borrowed from the eight for the trip). -/
theorem step_t2 (d : Dev nD) (L : grid0.Coords) (O : CellTallies nD τ sig (HIx 2)) (W : Waits sig (HIx 2))
    (g : Fin k0_t2_loop.trips) (acc : BitVec 32) :
    IG (F := F) d L O W ⊢ wp frame (wpE (defs₀ (F := F)) 𝒱₀ (thr0 d L) none) Set.univ
      (k0_t2_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 g acc)
      fun _ => IG (F := F) d L O W := by
  unfold IG I5 k0_t2_body
  rw [SparseCore.bigSep_erase' (Finset.mem_univ g) (Φ := fun g : Fin k0_t2_loop.trips => itRowPts (F := F) d L g)]
  iintro ⟨Hmw, ⟨⟨%f0, H0⟩, ⟨%f1, H1⟩, ⟨%f2, H2⟩, ⟨%f3, H3⟩, ⟨%f4, H4⟩⟩, Hsem0, Hsem1, ⟨%fx, Hx⟩, ⟨Hr, Hrows⟩, %W', %hW', HO⟩
  unfold itRowPts
  icases Hr with ⟨%fr, Hr⟩
  ihave Hr' := (Entails.of_eq (pts_itRow (F := F) d L g _).symm) $$ Hr
  sl_exec
  sl_for (fun _ _ => I5 (F := F) d L) $$ [H0 H1 H2 H3 H4]
  case region => intro k' acc'; exact step_t3 (F := F) d L k' acc'
  · unfold I5
    isplitl [H0]; · iexists _; iexact H0
    isplitl [H1]; · iexists _; iexact H1
    isplitl [H2]; · iexists _; iexact H2
    isplitl [H3]; · iexists _; iexact H3
    iexists _; iexact H4
  iintro %a3 HI
  unfold I5
  icases HI with ⟨⟨%g0, H0⟩, ⟨%g1, H1⟩, ⟨%g2, H2⟩, ⟨%g3, H3⟩, ⟨%g4, H4⟩⟩
  sl_exec
  sl_step
  isplitl [Hmw]; · iexact Hmw
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  isplitl [Hsem0]; · iexact Hsem0
  isplitl [Hsem1]; · iexact Hsem1
  isplitl [Hx]; · iexists _; iexact Hx
  isplitl [Hr' Hrows]
  · isplitl [Hr']
    · iexists _; iapply (Entails.of_eq (pts_itRow (F := F) d L g _)); iexact Hr'
    · iexact Hrows
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Cert.Proof.KW

end
-- ==== Proof.Body0W.lean ====
import proofs.«210137_g30502857736458_cont_9to1_2222_4_alg».proof.Proof.Body0cW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## The task -/

set_option maxHeartbeats 4000000 in
/-- The first call's task on vector subcore `(L 0, L 1)` of device `d`: the two running sums zeroed, the eight groups,
    the running sums written out to the subcore's row of each partial-sum array. Ownership only: what it was handed it
    hands back, each piece at whatever it then holds. -/
theorem tile_body0 (d : Dev nD) (L : grid0.Coords) (hF : (K (F := F)).Facts) (O : CellTallies nD τ sig (HIx 2)) (W : Waits sig (HIx 2)) (hO : ∀ g, O g none = 0) :
    iprop(levAts (K (F := F)).L (K (F := F)).lev ∗ emp ∗ G0 d L
        ∗ scopedBufs (V d ((L 0).castLE hcore0) ((L 1).castLE hsub0)) ∗ scopedSems0 (V d ((L 0).castLE hcore0) ((L 1).castLE hsub0)) ∗ owes (V d ((L 0).castLE hcore0) ((L 1).castLE hsub0)) O W)
      ⊢ wp frame (wpE (defs₀ (F := F)) 𝒱₀ (V d ((L 0).castLE hcore0) ((L 1).castLE hsub0)) none) Set.univ
          (cc0__sc_moments_body L xgV (Memref.isWhole_whole _) itV (Memref.isWhole_whole _) s1V (Memref.isWhole_whole _) s2V (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scoped0 cc0_scoped1 cc0_scoped2 cc0_scoped3)
          fun _ => iprop(G0 d L ∗ scopedBufs (V d ((L 0).castLE hcore0) ((L 1).castLE hsub0)) ∗ scopedSems0 (V d ((L 0).castLE hcore0) ((L 1).castLE hsub0))
            ∗ ∃ W', ⌜∀ p ∈ W', p ∈ W ∨ p.2 = none⌝ ∗ owes (V d ((L 0).castLE hcore0) ((L 1).castLE hsub0)) O W') := by
  simp only [cc0__sc_moments_body_eq_skeleton]; unfold cc0__sc_moments_body_skel
  rw [(K (F := F)).scopedBufs_V hF d _ _, SparseCore.Cfg.scopedSems0_V (Val := Elt F) d _ _, ownSems0_V0, ownBufs_V0]
  unfold G0 xgSh s1RowPts s2RowPts
  iintro ⟨#Hlv, -, ⟨⟨%fx, Hx⟩, Hrows, ⟨%fs1, Hs1⟩, ⟨%fs2, Hs2⟩⟩, ⟨⟨%f0, H0⟩, ⟨%f1, H1⟩, ⟨%f2, H2⟩, ⟨%f3, H3⟩, ⟨%f4, H4⟩, Hbufs⟩, ⟨Hsem0, Hsem1, Hsem2, Hsem3, Hsems⟩, HO⟩
  ihave Hmw := (show levAts (K (F := F)).L (K (F := F)).lev ⊢ Transfers.MayWaits (thr0 d L) (default : HIx 2) O from
    (K (F := F)).mayWaits_none (thr := thr0 d L) hO) $$ Hlv
  ihave Hx' := (Entails.of_eq (pts_xg (F := F) d L _ _).symm) $$ Hx
  ihave Hs1' := (Entails.of_eq (pts_s1Row (F := F) d L _).symm) $$ Hs1
  ihave Hs2' := (Entails.of_eq (pts_s2Row (F := F) d L _).symm) $$ Hs2
  -- the zeroing loop
  sl_for (fun _ _ => I23 (F := F) d L) $$ [H2 H3]
  case region => intro k' acc'; exact step_t1 (F := F) d L k' acc'
  · unfold I23
    isplitl [H2]
    · iexists _; iexact H2
    · iexists _; iexact H3
  iintro %a1 HI
  unfold I23
  icases HI with ⟨⟨%g2, H2⟩, ⟨%g3, H3⟩⟩
  -- the group loop
  sl_for (fun _ _ => IG (F := F) d L O W) $$ [Hmw H0 H1 H2 H3 H4 Hsem0 Hsem1 Hx' Hrows HO]
  case region => intro k' acc'; exact step_t2 (F := F) d L O W k' acc'
  · unfold IG I5
    isplitl [Hmw]; · iexact Hmw
    isplitl [H0 H1 H2 H3 H4]
    · isplitl [H0]; · iexists _; iexact H0
      isplitl [H1]; · iexists _; iexact H1
      isplitl [H2]; · iexists _; iexact H2
      isplitl [H3]; · iexists _; iexact H3
      iexists _; iexact H4
    isplitl [Hsem0]; · iexact Hsem0
    isplitl [Hsem1]; · iexact Hsem1
    isplitl [Hx']; · iexists _; iexact Hx'
    isplitl [Hrows]; · iexact Hrows
    iexists W; isplitr
    · ipureintro; exact fun p hp => .inl hp
    · iexact HO
  iintro %a2 HI
  unfold IG I5
  icases HI with ⟨Hmw, ⟨⟨%h0, H0⟩, ⟨%h1, H1⟩, ⟨%h2, H2⟩, ⟨%h3, H3⟩, ⟨%h4, H4⟩⟩, Hsem0, Hsem1, ⟨%fx', Hx'⟩, Hrows, %W', %hW', HO⟩
  -- the two running sums written out
  sl_exec
  sl_step
  isplitl [Hx' Hrows Hs1' Hs2']
  · isplitl [Hx']; · iexists _; iapply (Entails.of_eq (pts_xg (F := F) d L _ _)); iexact Hx'
    isplitl [Hrows]; · iexact Hrows
    isplitl [Hs1']; · iexists _; iapply (Entails.of_eq (pts_s1Row (F := F) d L _)); iexact Hs1'
    iexists _; iapply (Entails.of_eq (pts_s2Row (F := F) d L _)); iexact Hs2'
  isplitl [H0 H1 H2 H3 H4 Hbufs]
  · isplitl [H0]; · iexists _; iexact H0
    isplitl [H1]; · iexists _; iexact H1
    isplitl [H2]; · iexists _; iexact H2
    isplitl [H3]; · iexists _; iexact H3
    isplitl [H4]; · iexists _; iexact H4
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-! ## The obligation -/

theorem defs₀_vector0 (c : Fin τ.nSC) (s : Fin τ.nSub) :
    defs₀ (F := F) (.scVector c s) 0 ()
      = SparseCore.onTile hcore0 hsub0 (fun c s => cc0__sc_moments_body (coordsV c s)
          xgV (Memref.isWhole_whole _) itV (Memref.isWhole_whole _) s1V (Memref.isWhole_whole _) s2V (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) cc0_scoped0 cc0_scoped1 cc0_scoped2 cc0_scoped3) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch theorem's obligation for the first call: every vector subcore's task, at its coordinates. -/
theorem tileObl0 (hF : (K (F := F)).Facts) : (K (F := F)).TileObl (D (F := F)) 𝒱 (P (F := F)) v₀ 0 := by
  intro d c i O W hO _ _
  simp only [show (P (F := F)).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 d (coordsV ⟨_, hci.1⟩ ⟨_, hci.2⟩) hF O W hO).trans (wp_mono frame _ _ fun _ => obl_post)

end Cert.Proof.KW

end
-- ==== Proof.Body2W.lean ====
/-
  The second vector-subcore call's task on one subcore, as ownership only.

  Subcore (c, s) of a device, worker w = 2 s + c, copies the whole scale vector and the whole offset vector into
  two of its scratch buffers, then for each of its eight groups g copies row 8 w + g of the pair-product array into a
  third scratch buffer, accumulates over it into a fourth (sixteen words), and copies those sixteen words out to
  segment 8 w + g of the result. Every copy is waited for before the next memory operation, on a semaphore of the
  subcore's own. What the subcore is handed (read shares of the three arrays it reads, its eight segments of the
  result) it hands back, the segments at whatever the copies left in them; its scratch buffers and semaphores
  likewise, the semaphores back at zero.
-/
import proofs.«210137_g30502857736458_cont_9to1_2222_4_alg».proof.Proof.CommonW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

namespace B2

/-! ## The subcore's thread, scratch buffers and semaphores -/

/-- The SparseCore and the vector subcore the coordinates name. -/
abbrev cW (L : grid2.Coords) : Fin τ.nSC := (L 0).castLE hcore2
abbrev jW (L : grid2.Coords) : Fin τ.nSub := (L 1).castLE hsub2

/-- The four scratch buffers as the task addresses them: the row of the pair-product array, the scale vector, the
    offset vector, the accumulator. -/
abbrev z0 : Memref sig .scVector .vmem S13312 .f32 := Memref.whole cc2_scratch0
abbrev z1 : Memref sig .scVector .vmem S13312 .f32 := Memref.whole cc2_scratch1
abbrev z2 : Memref sig .scVector .vmem S16 .f32 := Memref.whole cc2_scratch2
abbrev z3 : Memref sig .scVector .vmem S16 .f32 := Memref.whole cc2_scratch3

abbrev cell0 (d : Dev nD) (L : grid2.Coords) : GSem nD τ sig := (V d (cW L) (jW L), .dma cc2_scoped0.sem)
abbrev cell1 (d : Dev nD) (L : grid2.Coords) : GSem nD τ sig := (V d (cW L) (jW L), .dma cc2_scoped1.sem)
abbrev cell2 (d : Dev nD) (L : grid2.Coords) : GSem nD τ sig := (V d (cW L) (jW L), .dma cc2_scoped2.sem)
abbrev cell3 (d : Dev nD) (L : grid2.Coords) : GSem nD τ sig := (V d (cW L) (jW L), .dma cc2_scoped3.sem)

variable (d : Dev nD) (L : grid2.Coords)

local notation "𝕋" => V d (cW L) (jW L)

omit [FloatOps F] in
/-- The subcore's four copy semaphores are among its own cells: they are them, at zero, and the rest. -/
theorem ownSems0_V2 :
    (ownSems0 𝕋 : sProp 𝕄)
      = iprop(semVal (cell0 d L) 0 ∗ semVal (cell1 d L) 0 ∗ semVal (cell2 d L) 0 ∗ semVal (cell3 d L) 0
          ∗ bigSep (((((ownCells 𝕋).erase (cell0 d L)).erase (cell1 d L)).erase (cell2 d L)).erase (cell3 d L)) fun g => semVal g 0) := by
  unfold SparseCore.Cfg.ownSems0
  have h0 : cell0 d L ∈ ownCells 𝕋 := (mem_ownCells (g := cell0 d L)).mpr ⟨rfl, by
    show (SemLoc.dma cc2_scoped0.sem : SemLoc sig).isScoped .scVector = true; decide⟩
  have h1 : cell1 d L ∈ ownCells 𝕋 := (mem_ownCells (g := cell1 d L)).mpr ⟨rfl, by
    show (SemLoc.dma cc2_scoped1.sem : SemLoc sig).isScoped .scVector = true; decide⟩
  have h2 : cell2 d L ∈ ownCells 𝕋 := (mem_ownCells (g := cell2 d L)).mpr ⟨rfl, by
    show (SemLoc.dma cc2_scoped2.sem : SemLoc sig).isScoped .scVector = true; decide⟩
  have h3 : cell3 d L ∈ ownCells 𝕋 := (mem_ownCells (g := cell3 d L)).mpr ⟨rfl, by
    show (SemLoc.dma cc2_scoped3.sem : SemLoc sig).isScoped .scVector = true; decide⟩
  have n10 : cell1 d L ≠ cell0 d L := fun e => absurd (congrArg Prod.snd e) (show (SemLoc.dma cc2_scoped1.sem : SemLoc sig) ≠ .dma cc2_scoped0.sem by decide)
  have n20 : cell2 d L ≠ cell0 d L := fun e => absurd (congrArg Prod.snd e) (show (SemLoc.dma cc2_scoped2.sem : SemLoc sig) ≠ .dma cc2_scoped0.sem by decide)
  have n21 : cell2 d L ≠ cell1 d L := fun e => absurd (congrArg Prod.snd e) (show (SemLoc.dma cc2_scoped2.sem : SemLoc sig) ≠ .dma cc2_scoped1.sem by decide)
  have n30 : cell3 d L ≠ cell0 d L := fun e => absurd (congrArg Prod.snd e) (show (SemLoc.dma cc2_scoped3.sem : SemLoc sig) ≠ .dma cc2_scoped0.sem by decide)
  have n31 : cell3 d L ≠ cell1 d L := fun e => absurd (congrArg Prod.snd e) (show (SemLoc.dma cc2_scoped3.sem : SemLoc sig) ≠ .dma cc2_scoped1.sem by decide)
  have n32 : cell3 d L ≠ cell2 d L := fun e => absurd (congrArg Prod.snd e) (show (SemLoc.dma cc2_scoped3.sem : SemLoc sig) ≠ .dma cc2_scoped2.sem by decide)
  rw [SparseCore.bigSep_erase' h0,
    SparseCore.bigSep_erase' (Finset.mem_erase.mpr ⟨n10, h1⟩),
    SparseCore.bigSep_erase' (Finset.mem_erase.mpr ⟨n21, Finset.mem_erase.mpr ⟨n20, h2⟩⟩),
    SparseCore.bigSep_erase' (Finset.mem_erase.mpr ⟨n32, Finset.mem_erase.mpr ⟨n31, Finset.mem_erase.mpr ⟨n30, h3⟩⟩⟩)]

omit [FloatOps F] in
/-- The four scratch buffers are among the subcore's own: they are them, each at some contents, and the rest. -/
theorem ownBufs_V2 :
    (ownBufs 𝕋 : sProp 𝕄)
      = iprop((∃ f, (V d (cW L) (jW L)).loc cc2_scratch0 ↦{fullShare} f) ∗ (∃ f, (V d (cW L) (jW L)).loc cc2_scratch1 ↦{fullShare} f)
          ∗ (∃ f, (V d (cW L) (jW L)).loc cc2_scratch2 ↦{fullShare} f) ∗ (∃ f, (V d (cW L) (jW L)).loc cc2_scratch3 ↦{fullShare} f)
          ∗ bigSep (((((ownRefs (τ := τ) (.scVector (cW L) (jW L))).erase ((Proc.scVector (cW L) (jW L)).devRef cc2_scratch0)).erase
              ((Proc.scVector (cW L) (jW L)).devRef cc2_scratch1)).erase ((Proc.scVector (cW L) (jW L)).devRef cc2_scratch2)).erase
              ((Proc.scVector (cW L) (jW L)).devRef cc2_scratch3))
              fun b => iprop(∃ f, ((d, b) : Loc nD τ sig) ↦{fullShare} f)) := by
  unfold SparseCore.Cfg.ownBufs
  have h0 := SparseCore.Cfg.mem_ownRefs_of_owner (p := Proc.scVector (cW L) (jW L)) (b := (Proc.scVector (cW L) (jW L)).devRef cc2_scratch0) rfl
  have h1 := SparseCore.Cfg.mem_ownRefs_of_owner (p := Proc.scVector (cW L) (jW L)) (b := (Proc.scVector (cW L) (jW L)).devRef cc2_scratch1) rfl
  have h2 := SparseCore.Cfg.mem_ownRefs_of_owner (p := Proc.scVector (cW L) (jW L)) (b := (Proc.scVector (cW L) (jW L)).devRef cc2_scratch2) rfl
  have h3 := SparseCore.Cfg.mem_ownRefs_of_owner (p := Proc.scVector (cW L) (jW L)) (b := (Proc.scVector (cW L) (jW L)).devRef cc2_scratch3) rfl
  have n10 : (Proc.scVector (cW L) (jW L)).devRef cc2_scratch1 ≠ (Proc.scVector (cW L) (jW L)).devRef cc2_scratch0 :=
    fun e => absurd (Proc.devRef_injective _ e) (show (cc2_scratch1 : Ref sig .scVector) ≠ cc2_scratch0 by decide)
  have n20 : (Proc.scVector (cW L) (jW L)).devRef cc2_scratch2 ≠ (Proc.scVector (cW L) (jW L)).devRef cc2_scratch0 :=
    fun e => absurd (Proc.devRef_injective _ e) (show (cc2_scratch2 : Ref sig .scVector) ≠ cc2_scratch0 by decide)
  have n21 : (Proc.scVector (cW L) (jW L)).devRef cc2_scratch2 ≠ (Proc.scVector (cW L) (jW L)).devRef cc2_scratch1 :=
    fun e => absurd (Proc.devRef_injective _ e) (show (cc2_scratch2 : Ref sig .scVector) ≠ cc2_scratch1 by decide)
  have n30 : (Proc.scVector (cW L) (jW L)).devRef cc2_scratch3 ≠ (Proc.scVector (cW L) (jW L)).devRef cc2_scratch0 :=
    fun e => absurd (Proc.devRef_injective _ e) (show (cc2_scratch3 : Ref sig .scVector) ≠ cc2_scratch0 by decide)
  have n31 : (Proc.scVector (cW L) (jW L)).devRef cc2_scratch3 ≠ (Proc.scVector (cW L) (jW L)).devRef cc2_scratch1 :=
    fun e => absurd (Proc.devRef_injective _ e) (show (cc2_scratch3 : Ref sig .scVector) ≠ cc2_scratch1 by decide)
  have n32 : (Proc.scVector (cW L) (jW L)).devRef cc2_scratch3 ≠ (Proc.scVector (cW L) (jW L)).devRef cc2_scratch2 :=
    fun e => absurd (Proc.devRef_injective _ e) (show (cc2_scratch3 : Ref sig .scVector) ≠ cc2_scratch2 by decide)
  refine (SparseCore.bigSep_erase' h0).trans ?_
  rw [SparseCore.bigSep_erase' (Finset.mem_erase.mpr ⟨n10, h1⟩),
    SparseCore.bigSep_erase' (Finset.mem_erase.mpr ⟨n21, Finset.mem_erase.mpr ⟨n20, h2⟩⟩),
    SparseCore.bigSep_erase' (Finset.mem_erase.mpr ⟨n32, Finset.mem_erase.mpr ⟨n31, Finset.mem_erase.mpr ⟨n30, h3⟩⟩⟩)]

/-! ## The arrays as the subcore's memrefs address them -/

omit [FloatOps F] in
theorem pts_itV (q : PosShare TreeShare) (f : Buf (Elt F) (itLoc d)) :
    ((itV).view.loc 𝕋 ↦{q} f : sProp 𝕄) = itLoc d ↦{q} f := rfl
omit [FloatOps F] in
theorem pts_alV (q : PosShare TreeShare) (f : Buf (Elt F) (alLoc d)) :
    ((alV).view.loc 𝕋 ↦{q} f : sProp 𝕄) = alLoc d ↦{q} f := rfl
omit [FloatOps F] in
theorem pts_cvV (q : PosShare TreeShare) (f : Buf (Elt F) (cvLoc d)) :
    ((cvV).view.loc 𝕋 ↦{q} f : sProp 𝕄) = cvLoc d ↦{q} f := rfl
omit [FloatOps F] in
theorem pts_otSeg (g : Fin k2_t1_loop.trips) (f : Buf (Elt F) (otLoc d)) :
    ((otSegM L g).view.loc 𝕋 ↦[(otSegM L g).view.set]{fullShare} f : sProp 𝕄) = otLoc d ↦[(otSegM L g).view.set]{fullShare} f := rfl
omit [FloatOps F] in
theorem pts_z0 (f : Buf (Elt F) ((V d (cW L) (jW L)).loc cc2_scratch0)) :
    ((z0).view.loc 𝕋 ↦{fullShare} f : sProp 𝕄) = (V d (cW L) (jW L)).loc cc2_scratch0 ↦{fullShare} f := rfl
omit [FloatOps F] in
theorem pts_z1 (f : Buf (Elt F) ((V d (cW L) (jW L)).loc cc2_scratch1)) :
    ((z1).view.loc 𝕋 ↦{fullShare} f : sProp 𝕄) = (V d (cW L) (jW L)).loc cc2_scratch1 ↦{fullShare} f := rfl
omit [FloatOps F] in
theorem pts_z2 (f : Buf (Elt F) ((V d (cW L) (jW L)).loc cc2_scratch2)) :
    ((z2).view.loc 𝕋 ↦{fullShare} f : sProp 𝕄) = (V d (cW L) (jW L)).loc cc2_scratch2 ↦{fullShare} f := rfl
omit [FloatOps F] in
theorem pts_z3 (f : Buf (Elt F) ((V d (cW L) (jW L)).loc cc2_scratch3)) :
    ((z3).view.loc 𝕋 ↦{fullShare} f : sProp 𝕄) = (V d (cW L) (jW L)).loc cc2_scratch3 ↦{fullShare} f := rfl

/-! ## The loops' invariants -/

/-- What the accumulation loops hold, before every trip: the row buffer, the scale buffer and the accumulator, each
    at some contents. -/
def invA (_ : Nat) (_ : BitVec 32) : sProp 𝕄 :=
  iprop((∃ f, (z0).view.loc 𝕋 ↦{fullShare} f) ∗ (∃ f, (z1).view.loc 𝕋 ↦{fullShare} f) ∗ (∃ f, (z3).view.loc 𝕋 ↦{fullShare} f))

/-- What the group loop holds before every trip: the read share of the pair-product array, the four scratch buffers
    at some contents, the two semaphores its copies use at zero, the eight segments of the result at some contents,
    what the subcore owes with the waits made so far recorded, and the evidence that such waits are admissible. -/
def invG (O : CellTallies nD τ sig (HIx 2)) (W : Waits sig (HIx 2)) (_ : Nat) (_ : BitVec 32) : sProp 𝕄 :=
  iprop(Transfers.MayWaits 𝕋 (none : HIx 2) O
    ∗ (∃ f, (itV).view.loc 𝕋 ↦{rq (wid L)} f)
    ∗ (∃ f, (z0).view.loc 𝕋 ↦{fullShare} f) ∗ (∃ f, (z1).view.loc 𝕋 ↦{fullShare} f)
    ∗ (∃ f, (z2).view.loc 𝕋 ↦{fullShare} f) ∗ (∃ f, (z3).view.loc 𝕋 ↦{fullShare} f)
    ∗ semVal (cell2 d L) 0 ∗ semVal (cell3 d L) 0
    ∗ (bigSep Finset.univ fun g : Fin k2_t1_loop.trips => otSegPts d L g)
    ∗ ∃ W', ⌜∀ p ∈ W', p ∈ W ∨ p.2 = none⌝ ∗ owes 𝕋 O W')

set_option maxHeartbeats 4000000 in
/-- The task on vector subcore (L 0, L 1) of device d: the scale and offset vectors in, then per group the row in, the
    accumulation and the segment out, every copy waited for before the next memory operation; the loops by their
    invariants. -/
theorem _root_.Cert.Proof.KW.tile_body2 (hF : (K (F := F)).Facts) (O : CellTallies nD τ sig (HIx 2)) (W : Waits sig (HIx 2)) (hO : ∀ g, O g none = 0) :
    iprop(levAts (K (F := F)).L (K (F := F)).lev ∗ emp ∗ G1 d L
        ∗ scopedBufs (V d ((L 0).castLE hcore2) ((L 1).castLE hsub2)) ∗ scopedSems0 (V d ((L 0).castLE hcore2) ((L 1).castLE hsub2)) ∗ owes (V d ((L 0).castLE hcore2) ((L 1).castLE hsub2)) O W)
      ⊢ wp frame (wpE (defs₀ (F := F)) 𝒱₀ (V d ((L 0).castLE hcore2) ((L 1).castLE hsub2)) none) Set.univ
          (cc2__sc_out_body L itV (Memref.isWhole_whole _) alV (Memref.isWhole_whole _) cvV (Memref.isWhole_whole _) otV (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) cc2_scoped0 cc2_scoped1 cc2_scoped2 cc2_scoped3)
          fun _ => iprop(G1 d L ∗ scopedBufs (V d ((L 0).castLE hcore2) ((L 1).castLE hsub2)) ∗ scopedSems0 (V d ((L 0).castLE hcore2) ((L 1).castLE hsub2))
            ∗ ∃ W', ⌜∀ p ∈ W', p ∈ W ∨ p.2 = none⌝ ∗ owes (V d ((L 0).castLE hcore2) ((L 1).castLE hsub2)) O W') := by
  simp only [cc2__sc_out_body_eq_skeleton]; unfold cc2__sc_out_body_skel
  rw [(K (F := F)).scopedBufs_V hF d (cW L) (jW L), SparseCore.Cfg.scopedSems0_V (Val := Elt F) d (cW L) (jW L), ownSems0_V2, ownBufs_V2]
  unfold G1 itSh alSh cvSh
  iintro ⟨#Hlv, -, ⟨⟨%fi, Hi⟩, ⟨%fa, Ha⟩, ⟨%fc, Hc⟩, Hot⟩, ⟨⟨%f0, H0⟩, ⟨%f1, H1⟩, ⟨%f2, H2⟩, ⟨%f3, H3⟩, Hbufs⟩, ⟨Hs0, Hs1, Hs2, Hs3, Hsems⟩, HO⟩
  ihave Hmw := (show levAts (K (F := F)).L (K (F := F)).lev ⊢ Transfers.MayWaits (V d (cW L) (jW L)) (none : HIx 2) O from
    (K (F := F)).mayWaits_none (thr := V d (cW L) (jW L)) hO) $$ Hlv
  ihave Hi' := (Entails.of_eq (pts_itV (F := F) d L _ _).symm) $$ Hi
  ihave Ha' := (Entails.of_eq (pts_alV (F := F) d L _ _).symm) $$ Ha
  ihave Hc' := (Entails.of_eq (pts_cvV (F := F) d L _ _).symm) $$ Hc
  ihave H0' := (Entails.of_eq (pts_z0 (F := F) d L _).symm) $$ H0
  ihave H1' := (Entails.of_eq (pts_z1 (F := F) d L _).symm) $$ H1
  ihave H2' := (Entails.of_eq (pts_z2 (F := F) d L _).symm) $$ H2
  ihave H3' := (Entails.of_eq (pts_z3 (F := F) d L _).symm) $$ H3
  -- the scale vector and the offset vector land in their scratch buffers
  sl_exec

  sl_for (invG d L O W) $$ [Hmw Hi' H0' H1' H2' H3' Hs2 Hs3 Hot HO]
  case region =>
    -- one group: its row of the pair-product array in, the accumulation, its segment of the result out
    intro k acc
    unfold invG
    rw [SparseCore.bigSep_erase' (Finset.mem_univ k) (Φ := fun g : Fin k2_t1_loop.trips => otSegPts (F := F) d L g)]
    unfold otSegPts
    iintro ⟨#Hmw, ⟨%fi, Hi⟩, ⟨%f0, H0⟩, ⟨%f1, H1⟩, ⟨%f2, H2⟩, ⟨%f3, H3⟩, Hs2, Hs3, ⟨⟨%fo, Ho⟩, Hot⟩, %W', %hW', HO⟩
    ihave Ho' := (Entails.of_eq (pts_otSeg (F := F) d L k _).symm) $$ Ho
    sl_exec
    sl_for (invA d L) $$ [H0 H1 H3]
    case region =>
      intro k2 acc2
      unfold invA
      iintro ⟨⟨%g0, H0⟩, ⟨%g1, H1⟩, ⟨%g3, H3⟩⟩
      sl_exec
      sl_for (invA d L) $$ [H0 H1 H3]
      case region =>
        intro k3 acc3
        unfold invA
        iintro ⟨⟨%h0, H0⟩, ⟨%h1, H1⟩, ⟨%h3, H3⟩⟩
        sl_exec
        sl_step
        isplitl [H0]; · iexists _; iexact H0
        isplitl [H1]; · iexists _; iexact H1
        iexists _; iexact H3
      · unfold invA
        isplitl [H0]; · iexists _; iexact H0
        isplitl [H1]; · iexists _; iexact H1
        iexists _; iexact H3
      iintro %acc3 HI
      unfold invA
      icases HI with ⟨⟨%h0, H0⟩, ⟨%h1, H1⟩, ⟨%h3, H3⟩⟩
      sl_for (invA d L) $$ [H0 H1 H3]
      case region =>
        intro k4 acc4
        unfold invA
        iintro ⟨⟨%h0, H0⟩, ⟨%h1, H1⟩, ⟨%h3, H3⟩⟩
        sl_exec
        sl_step
        isplitl [H0]; · iexists _; iexact H0
        isplitl [H1]; · iexists _; iexact H1
        iexists _; iexact H3
      · unfold invA
        isplitl [H0]; · iexists _; iexact H0
        isplitl [H1]; · iexists _; iexact H1
        iexists _; iexact H3
      iintro %acc4 HI
      unfold invA
      icases HI with ⟨⟨%h0, H0⟩, ⟨%h1, H1⟩, ⟨%h3, H3⟩⟩
      sl_exec
      sl_step
      isplitl [H0]; · iexists _; iexact H0
      isplitl [H1]; · iexists _; iexact H1
      iexists _; iexact H3
    · unfold invA
      isplitl [H0]; · iexists _; iexact H0
      isplitl [H1]; · iexists _; iexact H1
      iexists _; iexact H3
    iintro %acc2 HI
    unfold invA
    icases HI with ⟨⟨%g0, H0⟩, ⟨%g1, H1⟩, ⟨%g3, H3⟩⟩
    sl_exec
    sl_step
    isplitl [Hmw]; · iexact Hmw
    isplitl [Hi]; · iexists _; iexact Hi
    isplitl [H0]; · iexists _; iexact H0
    isplitl [H1]; · iexists _; iexact H1
    isplitl [H2]; · iexists _; iexact H2
    isplitl [H3]; · iexists _; iexact H3
    isplitl [Hs2]; · iexact Hs2
    isplitl [Hs3]; · iexact Hs3
    isplitl [Ho' Hot]
    · isplitl [Ho']; · iexists _; iapply (Entails.of_eq (pts_otSeg (F := F) d L k _)); iexact Ho'
      iexact Hot
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · unfold invG
    isplitl [Hmw]; · iexact Hmw
    isplitl [Hi']; · iexists _; iexact Hi'
    isplitl [H0']; · iexists _; iexact H0'
    isplitl [H1']; · iexists _; iexact H1'
    isplitl [H2']; · iexists _; iexact H2'
    isplitl [H3']; · iexists _; iexact H3'
    isplitl [Hs2]; · iexact Hs2
    isplitl [Hs3]; · iexact Hs3
    isplitl [Hot]; · iexact Hot
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  iintro %acc HI
  unfold invG
  icases HI with ⟨-, ⟨%fi', Hi⟩, ⟨%g0, H0⟩, ⟨%g1, H1⟩, ⟨%g2, H2⟩, ⟨%g3, H3⟩, Hs2, Hs3, Hot, %W', %hW', HO⟩
  sl_exec
  sl_step
  isplitl [Hi Ha' Hc' Hot]
  · isplitl [Hi]; · iexists _; iapply (Entails.of_eq (pts_itV (F := F) d L _ _)); iexact Hi
    isplitl [Ha']; · iexists _; iapply (Entails.of_eq (pts_alV (F := F) d L _ _)); iexact Ha'
    isplitl [Hc']; · iexists _; iapply (Entails.of_eq (pts_cvV (F := F) d L _ _)); iexact Hc'
    iexact Hot
  isplitl [H0 H1 H2 H3 Hbufs]
  · isplitl [H0]; · iexists _; iapply (Entails.of_eq (pts_z0 (F := F) d L _)); iexact H0
    isplitl [H1]; · iexists _; iapply (Entails.of_eq (pts_z1 (F := F) d L _)); iexact H1
    isplitl [H2]; · iexists _; iapply (Entails.of_eq (pts_z2 (F := F) d L _)); iexact H2
    isplitl [H3]; · iexists _; iapply (Entails.of_eq (pts_z3 (F := F) d L _)); iexact H3
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists W'; isplitr
  · ipureintro; exact hW'
  · iexact HO

/-! ## The obligation -/

theorem defs₀_vector2 (c : Fin τ.nSC) (s : Fin τ.nSub) :
    defs₀ (F := F) (.scVector c s) 2 ()
      = SparseCore.onTile hcore2 hsub2 (fun c s => cc2__sc_out_body (coordsV c s)
          itV (Memref.isWhole_whole _) alV (Memref.isWhole_whole _) cvV (Memref.isWhole_whole _) otV (Memref.isWhole_whole _)
          (Memref.whole cc2_scratch0) (Memref.isWhole_whole _) (Memref.whole cc2_scratch1) (Memref.isWhole_whole _)
          (Memref.whole cc2_scratch2) (Memref.isWhole_whole _) (Memref.whole cc2_scratch3) (Memref.isWhole_whole _)
          cc2_scoped0 cc2_scoped1 cc2_scoped2 cc2_scoped3) ⟨⟩ c s := rfl

omit [FloatOps F] in
/-- The body's post is the obligation's: a wait recorded at no call is one recorded at no call or at this one. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end B2

open B2 in
set_option maxRecDepth 16384 in
/-- The launch theorem's obligation for the second vector-subcore call: the task on every subcore of its grid. -/
theorem tileObl1 (hF : (K (F := F)).Facts) : (K (F := F)).TileObl (D (F := F)) 𝒱 (P (F := F)) v₀ 1 := by
  intro d c i O W hO _ _
  simp only [show (P (F := F)).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector2]; simp only [SparseCore.onTile, hci, and_self, ↓reduceDIte]
  exact (tile_body2 d (coordsV ⟨_, hci.1⟩ ⟨_, hci.2⟩) hF O W hO).trans (wp_mono frame _ _ fun _ => obl_post)

end Cert.Proof.KW

end
-- ==== Proof.RegionFundW.lean ====
import proofs.«210137_g30502857736458_cont_9to1_2222_4_alg».proof.Proof.RegionW
import proofs.«210137_g30502857736458_cont_9to1_2222_4_alg».proof.Proof.Gen.Kernel.Launch
import proofs.«210137_g30502857736458_cont_9to1_2222_4_alg».proof.Proof.Gen.Kernel.Points
import Idealize.ShloMosaic.Lib.Pipeline.Regions

noncomputable section

namespace Cert.Proof.KW

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The launch element split among its three components: the handshakes' rounds, the staging cells' rounds, the
    transfers' counters. -/
theorem ownU_split (uH : UH) (uP : UP) (uC : Counters) :
    (ownU (uH, (uP, uC)) : sProp 𝕄) ⊢ iprop(BI.own ((EH (F := F)) uH) ∗ BI.own ((EP (F := F)) uP)
        ∗ BI.own (((Emb.inr : Emb Counters (UP × Counters)).trans
            (embR (nD := nD) (τ := τ) (sig := sig) (Ix := HIx 2) (Val := Elt F) (Name := ℕ) (Lvl := ℕ) (A := UH) (B := UP × Counters))) uC)) := by
  iintro H
  ihave H' := (ownU_pair uH (uP, uC)) $$ H
  icases H' with ⟨HH, HR⟩
  ihave HR' := (own_pair_emb (embR (nD := nD) (τ := τ) (sig := sig) (Ix := HIx 2) (Val := Elt F) (Name := ℕ) (Lvl := ℕ) (A := UH) (B := UP × Counters)) uP uC) $$ HR
  icases HR' with ⟨HP, HC⟩
  isplitl [HH]; · iexact HH
  isplitl [HP]; · iexact HP
  iexact HC

end Cert.Proof.KW

end
-- ==== Proof.LaunchW.lean ====
/-
  The kernel program's run: the launch element (the handshakes' rounds, the region's staging cells, the transfers'
  counters), the launch theorem at the two calls' obligations, and the frame read off it.
-/
import proofs.«210137_g30502857736458_cont_9to1_2222_4_alg».proof.Proof.CommonW
import proofs.«210137_g30502857736458_cont_9to1_2222_4_alg».proof.Proof.MainW
import proofs.«210137_g30502857736458_cont_9to1_2222_4_alg».proof.Proof.Body0W
import proofs.«210137_g30502857736458_cont_9to1_2222_4_alg».proof.Proof.Body2W
import proofs.«210137_g30502857736458_cont_9to1_2222_4_alg».proof.Proof.RegionFundW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] [∀ e, Nonempty (Elt F e)]
variable (m : (ℓ : Loc nD τ sig) → Buf (Elt F) ℓ) (ρ : Dev nD → PrngReg)

/-! ## The launch element -/

def u₀ : UU := (initOf (K (F := F)).hsCells (K (F := F)).hsToks, (u₀P, 1))

omit [FloatOps F] [∀ e, Nonempty (Elt F e)] in
theorem bigSep_emp' {I : Type} (s : Finset I) : (bigSep s fun _ => iprop(emp)) = (iprop(emp) : sProp 𝕄) := bigSep_emp_const s

/-- The launch element deals the handshakes' rounds, and the region's staging cells per device; the calls' kernels
    consume nothing of the launch's. -/
theorem hu₀ (Pp : (K (F := F)).Pay (nD := nD) (Val := Elt F) (Name := ℕ) (U := UU)) (hx : ∀ q thr, Pp.x q thr = iprop(emp)) :
    (ownU (u₀ (F := F)) : sProp 𝕄)
      ⊢ |={Set.univ}=> iprop(BI.own (EH (initOf (K (F := F)).hsCells (K (F := F)).hsToks)) ∗ (bigSep Finset.univ fun d : Dev nD => G_region (F := F) d)
        ∗ bigSep Finset.univ fun thr : Thread nD τ => bigSep Finset.univ fun q : Fin 2 => Pp.x q thr) := by
  unfold u₀
  iintro Hu
  ihave H := (ownU_split (F := F) _ _ _) $$ Hu
  icases H with ⟨HH, HP, -⟩
  imod (fund_region (F := F)) $$ HP with HG
  imodintro
  isplitl [HH]; · iexact HH
  isplitl [HG]; · iexact HG
  rw [show (bigSep Finset.univ fun thr : Thread nD τ => bigSep Finset.univ fun q : Fin 2 => Pp.x q thr) = bigSep Finset.univ fun _ : Thread nD τ => (iprop(emp) : sProp 𝕄) from
    bigSep_congr fun thr _ => (bigSep_congr fun q _ => hx q thr).trans (bigSep_emp' _), bigSep_emp']
  iempintro

/-! ## The program's run -/

def QC : PUnit × MemSt nD τ sig (Elt F) → Prop := fun r => ∀ c : Dev nD,
  r.2.mem ((SparseCore.T c).loc main_arg0) = m ((SparseCore.T c).loc main_arg0) ∧ r.2.mem ((SparseCore.T c).loc main_arg1) = m ((SparseCore.T c).loc main_arg1)
  ∧ r.2.mem ((SparseCore.T c).loc main_arg2) = m ((SparseCore.T c).loc main_arg2) ∧ r.2.mem ((SparseCore.T c).loc main_arg3) = m ((SparseCore.T c).loc main_arg3)

/-- Every weakly fair execution of the device's threads terminates, nothing faulting, the four arguments unchanged. -/
theorem run_main : θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (F := F)) facts v₀
    (fun q hq => match q with | 0 => nomatch hq | 1 => nomatch hq)
    (fun q _ => match q with | 0 => tileObl0 facts | 1 => tileObl1 facts)
    (fun q _ => match q with | 0 => SparseCore.Cfg.VecSplit.of_plain vecSplit0 | 1 => SparseCore.Cfg.VecSplit.of_plain vecSplit1)
    m ρ main (fun d => G_region (F := F) d) (FIN m) (u₀ (F := F)) (sep_elim_left.trans (hu₀ (P (F := F)) (fun _ _ => rfl))) (hmain m ρ) (fq m) (hfin m) (QC m) (fun _ h => h)

end Cert.Proof.KW

end
-- ==== Proof.FrameW.lean ====
/-
  The word-level kernel program's frame: its run with the values dropped.
-/
import proofs.«210137_g30502857736458_cont_9to1_2222_4_alg».proof.Proof.LaunchW
import proofs.«210137_g30502857736458_cont_9to1_2222_4_alg».proof.Proof.Gen.Pre_finite_inputs

noncomputable section

namespace Cert.Proof.KW

open Idealize.ShloMosaic Idealize.SL.Sem

theorem frame_k : Cert.frame_Kernel := fun m ρ _ =>
  (θ_run Cert.Kernel.defs _ _).mono (fun _ h c => h c) (run_main (F := Bits) m ρ)

end Cert.Proof.KW

end
-- ==== Proof.Common.lean ====
/-
  Shared vocabulary for the kernel program's frame: the program as the SparseCore launch theorem sees it (two
  vector-subcore calls around one TensorCore region), the resource algebra (the handshakes' rounds, the region's
  staging cells' rounds, the transfers' counters), the arrays the calls move, and what each vector subcore is handed
  at a call and hands back.

  Call 0 (the moments): subcore (c, s), worker w = 2 s + c, reads rows 8 w .. 8 w + 7 of the regrouped input
  (26624 words each: field, feature, lane), writes the same rows of the pair-product array (13312 words each: pair
  slot q = 32 j + i, lane) and row w of each of the two partial-sum arrays.
  Call 1 (the output): the same worker reads its eight rows of the pair-product array, the whole scale vector and the
  whole offset vector, and writes the eight 16-word segments 16 (8 w + g) .. of the result.
  Every word a subcore writes lies in a row or segment that is its own; what it only reads it holds a read share of.
-/
import proofs.«210137_g30502857736458_cont_9to1_2222_4_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic
import proofs.«210137_g30502857736458_cont_9to1_2222_4_alg».proof.Proof.Gen.KernelIdeal
import proofs.«210137_g30502857736458_cont_9to1_2222_4_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 2 := sc (F := F)
theorem nSub_eq (q : Fin 2) : (K (F := F)).nSub q = 16 := by
  match q with
  | 0 => rfl
  | 1 => rfl
theorem nCore_eq (q : Fin 2) : (K (F := F)).nCore q = 2 := by
  match q with
  | 0 => rfl
  | 1 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb
instance EP_landsIn : (EP : Emb UP 𝕄).LandsIn (upEmb : UEmb _ 𝕄) := by unfold EP; infer_instance

/-! ## The arrays -/

abbrev xgLoc (d : Dev nD) : Loc nD τ sig := (SparseCore.T d).loc main_v2
abbrev itLoc (d : Dev nD) : Loc nD τ sig := (SparseCore.T d).loc main_v30_0
abbrev s1Loc (d : Dev nD) : Loc nD τ sig := (SparseCore.T d).loc main_v30_1
abbrev s2Loc (d : Dev nD) : Loc nD τ sig := (SparseCore.T d).loc main_v30_2
abbrev alLoc (d : Dev nD) : Loc nD τ sig := (SparseCore.T d).loc main_v32
abbrev cvLoc (d : Dev nD) : Loc nD τ sig := (SparseCore.T d).loc main_v33
abbrev otLoc (d : Dev nD) : Loc nD τ sig := (SparseCore.T d).loc main_v34

abbrev xgV : Memref sig .scVector .hbm S256x26624 .f32 := Memref.whole main_v2_scv
abbrev itV : Memref sig .scVector .hbm S256x13312 .f32 := Memref.whole main_v30_0_scv
abbrev s1V : Memref sig .scVector .hbm S32x13312 .f32 := Memref.whole main_v30_1_scv
abbrev s2V : Memref sig .scVector .hbm S32x13312 .f32 := Memref.whole main_v30_2_scv
abbrev alV : Memref sig .scVector .hbm S13312 .f32 := Memref.whole main_v32_scv
abbrev cvV : Memref sig .scVector .hbm S16 .f32 := Memref.whole main_v33_scv
abbrev otV : Memref sig .scVector .hbm S4096 .f32 := Memref.whole main_v34_scv

/-- Subcore L's worker number 2 s + c, below 32. -/
def wid (L : grid0.Coords) : Fin 32 := ⟨2 * (L 1).val + (L 0).val, by
  have h0 : (L 0).val < 2 := (L 0).isLt
  have h1 : (L 1).val < 16 := (L 1).isLt
  omega⟩

/-- Row 8 w + g of the pair-product array, as call 0's task slices it for its write-out of group g. -/
abbrev itRowM (L : grid0.Coords) (g : Fin k0_t2_loop.trips) : Memref sig .scVector .hbm S13312 .f32 :=
  ((itV).slice (Rect.unit (s := S256x13312) (k0_off32 L g) S1x13312.size (k0_off32_inb L g)) (fun _ => rfl)).squeeze S13312 squeezes_S1x13312_S13312
/-- Row w of each partial-sum array, as call 0's task slices it. -/
abbrev s1RowM (L : grid0.Coords) : Memref sig .scVector .hbm S13312 .f32 :=
  ((s1V).slice (Rect.unit (s := S32x13312) (k0_off33 L) S1x13312.size (k0_off33_inb L)) (fun _ => rfl)).squeeze S13312 squeezes_S1x13312_S13312
abbrev s2RowM (L : grid0.Coords) : Memref sig .scVector .hbm S13312 .f32 :=
  ((s2V).slice (Rect.unit (s := S32x13312) (k0_off33 L) S1x13312.size (k0_off33_inb L)) (fun _ => rfl)).squeeze S13312 squeezes_S1x13312_S13312
/-- Segment 8 w + g (16 words) of the result, as call 1's task slices it for group g. -/
abbrev otSegM (L : grid2.Coords) (g : Fin k2_t1_loop.trips) : Memref sig .scVector .hbm S16 .f32 :=
  (otV).slice (Rect.unit (s := S4096) (k2_off4 L g) S16.size (k2_off4_inb L g)) (fun _ => rfl)

/-- The read share of a whole array that worker w of 32 holds. -/
abbrev rq (w : Fin 32) : PosShare TreeShare := Transfers.shareTok fullShare 32 w

variable [FloatOps F]

/-- The pieces a subcore holds, each at whatever it holds: a read share of a whole array; a row or segment of its own. -/
def xgSh (d : Dev nD) (w : Fin 32) : sProp 𝕄 := iprop(∃ f, xgLoc d ↦{rq w} f)
def itSh (d : Dev nD) (w : Fin 32) : sProp 𝕄 := iprop(∃ f, itLoc d ↦{rq w} f)
def alSh (d : Dev nD) (w : Fin 32) : sProp 𝕄 := iprop(∃ f, alLoc d ↦{rq w} f)
def cvSh (d : Dev nD) (w : Fin 32) : sProp 𝕄 := iprop(∃ f, cvLoc d ↦{rq w} f)
def itRowPts (d : Dev nD) (L : grid0.Coords) (g : Fin k0_t2_loop.trips) : sProp 𝕄 := iprop(∃ f, itLoc d ↦[(itRowM L g).view.set]{fullShare} f)
def s1RowPts (d : Dev nD) (L : grid0.Coords) : sProp 𝕄 := iprop(∃ f, s1Loc d ↦[(s1RowM L).view.set]{fullShare} f)
def s2RowPts (d : Dev nD) (L : grid0.Coords) : sProp 𝕄 := iprop(∃ f, s2Loc d ↦[(s2RowM L).view.set]{fullShare} f)
def otSegPts (d : Dev nD) (L : grid2.Coords) (g : Fin k2_t1_loop.trips) : sProp 𝕄 := iprop(∃ f, otLoc d ↦[(otSegM L g).view.set]{fullShare} f)

instance xgSh_storable (d : Dev nD) (w : Fin 32) : BI.Storable (upEmb : UEmb _ 𝕄) (xgSh (F := F) d w) := by unfold xgSh; infer_instance
instance itSh_storable (d : Dev nD) (w : Fin 32) : BI.Storable (upEmb : UEmb _ 𝕄) (itSh (F := F) d w) := by unfold itSh; infer_instance
instance alSh_storable (d : Dev nD) (w : Fin 32) : BI.Storable (upEmb : UEmb _ 𝕄) (alSh (F := F) d w) := by unfold alSh; infer_instance
instance cvSh_storable (d : Dev nD) (w : Fin 32) : BI.Storable (upEmb : UEmb _ 𝕄) (cvSh (F := F) d w) := by unfold cvSh; infer_instance
instance itRowPts_storable (d : Dev nD) (L : grid0.Coords) (g : Fin k0_t2_loop.trips) : BI.Storable (upEmb : UEmb _ 𝕄) (itRowPts (F := F) d L g) := by unfold itRowPts; infer_instance
instance s1RowPts_storable (d : Dev nD) (L : grid0.Coords) : BI.Storable (upEmb : UEmb _ 𝕄) (s1RowPts (F := F) d L) := by unfold s1RowPts; infer_instance
instance s2RowPts_storable (d : Dev nD) (L : grid0.Coords) : BI.Storable (upEmb : UEmb _ 𝕄) (s2RowPts (F := F) d L) := by unfold s2RowPts; infer_instance
instance otSegPts_storable (d : Dev nD) (L : grid2.Coords) (g : Fin k2_t1_loop.trips) : BI.Storable (upEmb : UEmb _ 𝕄) (otSegPts (F := F) d L g) := by unfold otSegPts; infer_instance

/-- What call 0 hands subcore L and takes back: a read share of the regrouped input, its eight rows of the
    pair-product array and its row of each partial-sum array. -/
def G0 (d : Dev nD) (L : grid0.Coords) : sProp 𝕄 :=
  iprop(xgSh d (wid L) ∗ (bigSep Finset.univ fun g : Fin k0_t2_loop.trips => itRowPts d L g) ∗ s1RowPts d L ∗ s2RowPts d L)

/-- What call 1 hands subcore L and takes back: read shares of the pair-product array, the scale vector and the
    offset vector, and its eight segments of the result. -/
def G1 (d : Dev nD) (L : grid2.Coords) : sProp 𝕄 :=
  iprop(itSh d (wid L) ∗ alSh d (wid L) ∗ cvSh d (wid L) ∗ (bigSep Finset.univ fun g : Fin k2_t1_loop.trips => otSegPts d L g))

def coordsV (c : Fin 2) (s : Fin 16) : grid0.Coords :=
  fun | 0 => c | 1 => s | ⟨_ + 2, h⟩ => absurd h (Nat.not_lt.2 (Nat.le_add_left _ _))

/-- The calls' payloads: a SparseCore's share is its sixteen subcores' shares side by side; nothing changes shape
    between the way in and the way out. -/
def P : (K (F := F)).Pay (nD := nD) (Val := Elt F) (Name := ℕ) (U := UU) where
  st := fun q d c => match q with
    | 0 => bigSep Finset.univ fun s : Fin 16 => G0 d (coordsV (Fin.cast (nCore_eq 0) c) s)
    | 1 => bigSep Finset.univ fun s : Fin 16 => G1 d (coordsV (Fin.cast (nCore_eq 1) c) s)
  dn := fun q d c => match q with
    | 0 => bigSep Finset.univ fun s : Fin 16 => G0 d (coordsV (Fin.cast (nCore_eq 0) c) s)
    | 1 => bigSep Finset.univ fun s : Fin 16 => G1 d (coordsV (Fin.cast (nCore_eq 1) c) s)
  go := fun q d c i => match q with
    | 0 => G0 d (coordsV (Fin.cast (nCore_eq 0) c) (Fin.cast (nSub_eq 0) i))
    | 1 => G1 d (coordsV (Fin.cast (nCore_eq 1) c) (Fin.cast (nSub_eq 1) i))
  td := fun q d c i => match q with
    | 0 => G0 d (coordsV (Fin.cast (nCore_eq 0) c) (Fin.cast (nSub_eq 0) i))
    | 1 => G1 d (coordsV (Fin.cast (nCore_eq 1) c) (Fin.cast (nSub_eq 1) i))
  x := fun _ _ => iprop(emp)

instance G0_storable (d : Dev nD) (L : grid0.Coords) : BI.Storable (upEmb : UEmb _ 𝕄) (G0 (F := F) d L) := by
  unfold G0; infer_instance
instance G1_storable (d : Dev nD) (L : grid2.Coords) : BI.Storable (upEmb : UEmb _ 𝕄) (G1 (F := F) d L) := by
  unfold G1; infer_instance

instance P_storable : (P (F := F)).IsStorable where
  st q d c := by
    match q with
    | 0 => unfold P; infer_instance
    | 1 => unfold P; infer_instance
  dn q d c := by
    match q with
    | 0 => unfold P; infer_instance
    | 1 => unfold P; infer_instance
  go q d c i := by
    match q with
    | 0 => unfold P; infer_instance
    | 1 => unfold P; infer_instance
  td q d c i := by
    match q with
    | 0 => unfold P; infer_instance
    | 1 => unfold P; infer_instance

end Cert.Proof.KI

end
-- ==== Proof.Split.lean ====
/-
  An array held whole is its pieces held side by side, and back: over any family of pairwise disjoint index sets that
  cover the array (each piece at whatever it holds), and as thirty-two read shares. The families used are the rows
  8 w + g of the pair-product array, the rows w of the partial-sum arrays and the 16-word segments 8 w + g of the
  result, w = 2 s + c running over the thirty-two subcores (c, s) and g over the eight groups: row r belongs to
  exactly one (c, s, g), namely s = r / 16, c = (r / 8) mod 2, g = r mod 8.
-/
import proofs.«210137_g30502857736458_cont_9to1_2222_4_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## Pieces, in general -/

section Generic

variable {ℓ : Loc nD τ sig} {I : Type} [Fintype I] [DecidableEq I] (A : I → Finset (Idx ℓ))

theorem whole_pieces (hd : ∀ t t', t ≠ t' → Disjoint (A t) (A t')) (hc : Finset.univ.biUnion A = Finset.univ) (f : Buf (Elt F) ℓ) :
    (ℓ ↦{fullShare} f : sProp 𝕄) ⊢ bigSep Finset.univ fun t => iprop(∃ g, ℓ ↦[A t]{fullShare} g) := by
  have e : (ℓ ↦{fullShare} f : sProp 𝕄) = bigSep Finset.univ fun t => ℓ ↦[A t]{fullShare} f := by
    rw [← pointsTo_biUnion Finset.univ A (fun t _ t' _ h => hd t t' h), hc]
  rw [e]
  exact bigSep_mono fun t _ => exists_intro (Φ := fun g : Buf (Elt F) ℓ => (ℓ ↦[A t]{fullShare} g : sProp 𝕄)) f

theorem pieces_whole (hd : ∀ t t', t ≠ t' → Disjoint (A t) (A t')) (hc : Finset.univ.biUnion A = Finset.univ) [Nonempty (Buf (Elt F) ℓ)] :
    (bigSep Finset.univ fun t => iprop(∃ g, ℓ ↦[A t]{fullShare} g)) ⊢ (iprop(∃ g, ℓ ↦{fullShare} g) : sProp 𝕄) := by
  refine (bigSep_exists_pi Finset.univ (fun t (g : Buf (Elt F) ℓ) => (ℓ ↦[A t]{fullShare} g : sProp 𝕄))).trans ?_
  iintro ⟨%fs, H⟩
  ihave H' := (pointsTo_biUnion_join (ℓ := ℓ) (q := fullShare) (Val := Elt F) Finset.univ A fs (Classical.choice inferInstance) (fun t _ t' _ h => hd t t' h)) $$ H
  icases H' with ⟨%g, -, Hg⟩
  rw [hc]
  iexists g; iexact Hg

theorem whole_shares (f : Buf (Elt F) ℓ) :
    (ℓ ↦{fullShare} f : sProp 𝕄) ⊢ bigSep Finset.univ fun w : Fin 32 => iprop(∃ g, ℓ ↦{rq w} g) := by
  refine (Transfers.pointsTo_toks_split (S := Finset.univ) (f := f) fullShare 32).trans (sep_elim_right.trans (bigSep_mono fun w _ => ?_))
  exact exists_intro (Φ := fun g : Buf (Elt F) ℓ => (ℓ ↦{rq w} g : sProp 𝕄)) f

end Generic

/-! ## The thirty-two subcores and their eight groups -/

theorem trips0 : k0_t2_loop.trips = 8 := by decide
theorem trips2 : k2_t1_loop.trips = 8 := by decide

/-- Subcore (c, s) is worker 2 s + c. -/
def widE : Fin 2 × Fin 16 ≃ Fin 32 where
  toFun p := wid (coordsV p.1 p.2)
  invFun w := (⟨w.val % 2, Nat.mod_lt _ (by decide)⟩, ⟨w.val / 2, by have := w.isLt; omega⟩)
  left_inv := by
    rintro ⟨c, s⟩
    have hc := c.isLt; have hs := s.isLt
    ext <;> simp [wid, coordsV] <;> omega
  right_inv := by
    intro w
    have hw := w.isLt
    ext; simp [wid, coordsV]; omega

theorem bigSep_workers (Φ : Fin 32 → sProp 𝕄) :
    bigSep Finset.univ Φ = bigSep Finset.univ fun c : Fin 2 => bigSep Finset.univ fun s : Fin 16 => Φ (wid (coordsV c s)) := by
  rw [bigSep_univ_equiv widE Φ, bigSep_univ_prod]; rfl

end Cert.Proof.KI

end
-- ==== Proof.Rows.lean ====
/-
  Which words of an array a subcore's row or segment holds, and that the rows (segments) of the thirty-two subcores
  and eight groups are pairwise disjoint and cover the array: word (r, k) of the pair-product array lies in the row of
  (c, s, g) exactly when r = 16 s + 8 c + g; word (r, k) of a partial-sum array in the row of (c, s) exactly when
  r = 2 s + c; word n of the result in the segment of (c, s, g) exactly when n / 16 = 16 s + 8 c + g.
-/
import proofs.«210137_g30502857736458_cont_9to1_2222_4_alg».proof.Proof.Common
import proofs.«210137_g30502857736458_cont_9to1_2222_4_alg».proof.Proof.Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

theorem set_itRowM (L : grid0.Coords) (g : Fin k0_t2_loop.trips) :
    (itRowM L g).view.set = (Rect.unit (s := S256x13312) (k0_off32 L g) S1x13312.size (k0_off32_inb L g)).set := by
  show (((itV).view.slice (Rect.unit (s := S256x13312) (k0_off32 L g) S1x13312.size (k0_off32_inb L g))).reshape S13312 squeezes_S1x13312_S13312.numel_eq).set = _
  rw [View.set_reshape, View.set_slice]; exact Finset.map_refl

theorem mem_itRowM (L : grid0.Coords) (g : Fin k0_t2_loop.trips) (i : S256x13312.Idx) :
    i ∈ (itRowM L g).view.set ↔ (i 0).val = 16 * (L 1).val + 8 * (L 0).val + g.val := by
  rw [set_itRowM, Rect.mem_set_unit, k0_off32_eq]
  constructor
  · intro h; have h0 := h 0; simp at h0; omega
  · intro h a
    match a with
    | 0 => simp; omega
    | 1 => simp; exact (i 1).isLt

theorem set_s1RowM (L : grid0.Coords) :
    (s1RowM L).view.set = (Rect.unit (s := S32x13312) (k0_off33 L) S1x13312.size (k0_off33_inb L)).set := by
  show (((s1V).view.slice (Rect.unit (s := S32x13312) (k0_off33 L) S1x13312.size (k0_off33_inb L))).reshape S13312 squeezes_S1x13312_S13312.numel_eq).set = _
  rw [View.set_reshape, View.set_slice]; exact Finset.map_refl
theorem set_s2RowM (L : grid0.Coords) :
    (s2RowM L).view.set = (Rect.unit (s := S32x13312) (k0_off33 L) S1x13312.size (k0_off33_inb L)).set := by
  show (((s2V).view.slice (Rect.unit (s := S32x13312) (k0_off33 L) S1x13312.size (k0_off33_inb L))).reshape S13312 squeezes_S1x13312_S13312.numel_eq).set = _
  rw [View.set_reshape, View.set_slice]; exact Finset.map_refl

theorem mem_sRow (L : grid0.Coords) (i : S32x13312.Idx) :
    i ∈ (Rect.unit (s := S32x13312) (k0_off33 L) S1x13312.size (k0_off33_inb L)).set ↔ (i 0).val = 2 * (L 1).val + (L 0).val := by
  rw [Rect.mem_set_unit, k0_off33_eq]
  constructor
  · intro h; have h0 := h 0; simp at h0; omega
  · intro h a
    match a with
    | 0 => simp; omega
    | 1 => simp; exact (i 1).isLt

theorem set_otSegM (L : grid2.Coords) (g : Fin k2_t1_loop.trips) :
    (otSegM L g).view.set = (Rect.unit (s := S4096) (k2_off4 L g) S16.size (k2_off4_inb L g)).set := by
  show ((otV).view.slice (Rect.unit (s := S4096) (k2_off4 L g) S16.size (k2_off4_inb L g))).set = _
  rw [View.set_slice]; exact Finset.map_refl

theorem mem_otSegM (L : grid2.Coords) (g : Fin k2_t1_loop.trips) (i : S4096.Idx) :
    i ∈ (otSegM L g).view.set ↔ (i 0).val / 16 = 16 * (L 1).val + 8 * (L 0).val + g.val := by
  rw [set_otSegM, Rect.mem_set_unit, k2_off4_eq]
  constructor
  · intro h; have h0 := h 0; simp at h0; omega
  · intro h a
    match a with
    | 0 => simp; omega

/-! ## The families -/

abbrev T3 : Type := Fin 2 × Fin 16 × Fin 8
abbrev T2 : Type := Fin 2 × Fin 16

def g0 (g : Fin 8) : Fin k0_t2_loop.trips := Fin.cast trips0.symm g
def g2 (g : Fin 8) : Fin k2_t1_loop.trips := Fin.cast trips2.symm g

def itA (p : T3) : Finset S256x13312.Idx := (itRowM (coordsV p.1 p.2.1) (g0 p.2.2)).view.set
def s1A (p : T2) : Finset S32x13312.Idx := (s1RowM (coordsV p.1 p.2)).view.set
def s2A (p : T2) : Finset S32x13312.Idx := (s2RowM (coordsV p.1 p.2)).view.set
def otA (p : T3) : Finset S4096.Idx := (otSegM (coordsV p.1 p.2.1) (g2 p.2.2)).view.set

theorem coordsV_0 (c : Fin 2) (s : Fin 16) : ((coordsV c s) 0).val = c.val := rfl
theorem coordsV_1 (c : Fin 2) (s : Fin 16) : ((coordsV c s) 1).val = s.val := rfl

theorem itA_disj (p p' : T3) (h : p ≠ p') : Disjoint (itA p) (itA p') := by
  rw [Finset.disjoint_left]
  intro i h1 h2
  unfold itA at h1 h2
  rw [mem_itRowM, coordsV_0, coordsV_1] at h1 h2
  obtain ⟨c, s, g⟩ := p; obtain ⟨c', s', g'⟩ := p'
  have := c.isLt; have := c'.isLt; have := g.isLt; have := g'.isLt; have := s.isLt; have := s'.isLt
  simp only [g0, Fin.val_cast] at h1 h2
  apply h
  have e1 : s.val = s'.val := by omega
  have e2 : c.val = c'.val := by omega
  have e3 : g.val = g'.val := by omega
  rw [Fin.ext e1, Fin.ext e2, Fin.ext e3]

theorem itA_cover : (Finset.univ : Finset T3).biUnion itA = Finset.univ := by
  ext i
  simp only [Finset.mem_biUnion, Finset.mem_univ, true_and, iff_true]
  have hi : (i 0).val < 256 := (i 0).isLt
  refine ⟨(⟨((i 0).val / 8) % 2, Nat.mod_lt _ (by decide)⟩, ⟨(i 0).val / 16, by omega⟩, ⟨(i 0).val % 8, Nat.mod_lt _ (by decide)⟩), ?_⟩
  unfold itA
  rw [mem_itRowM, coordsV_0, coordsV_1]
  simp only [g0, Fin.val_cast]
  omega

theorem otA_disj (p p' : T3) (h : p ≠ p') : Disjoint (otA p) (otA p') := by
  rw [Finset.disjoint_left]
  intro i h1 h2
  unfold otA at h1 h2
  rw [mem_otSegM, coordsV_0, coordsV_1] at h1 h2
  obtain ⟨c, s, g⟩ := p; obtain ⟨c', s', g'⟩ := p'
  have := c.isLt; have := c'.isLt; have := g.isLt; have := g'.isLt; have := s.isLt; have := s'.isLt
  simp only [g2, Fin.val_cast] at h1 h2
  apply h
  have e1 : s.val = s'.val := by omega
  have e2 : c.val = c'.val := by omega
  have e3 : g.val = g'.val := by omega
  rw [Fin.ext e1, Fin.ext e2, Fin.ext e3]

theorem otA_cover : (Finset.univ : Finset T3).biUnion otA = Finset.univ := by
  ext i
  simp only [Finset.mem_biUnion, Finset.mem_univ, true_and, iff_true]
  have hi : (i 0).val < 4096 := (i 0).isLt
  refine ⟨(⟨((i 0).val / 128) % 2, Nat.mod_lt _ (by decide)⟩, ⟨(i 0).val / 256, by omega⟩, ⟨((i 0).val / 16) % 8, Nat.mod_lt _ (by decide)⟩), ?_⟩
  unfold otA
  rw [mem_otSegM, coordsV_0, coordsV_1]
  simp only [g2, Fin.val_cast]
  omega

theorem s1A_disj (p p' : T2) (h : p ≠ p') : Disjoint (s1A p) (s1A p') := by
  rw [Finset.disjoint_left]
  intro i h1 h2
  unfold s1A at h1 h2
  rw [set_s1RowM, mem_sRow, coordsV_0, coordsV_1] at h1 h2
  obtain ⟨c, s⟩ := p; obtain ⟨c', s'⟩ := p'
  have := c.isLt; have := c'.isLt; have := s.isLt; have := s'.isLt
  dsimp only at h1 h2
  apply h
  have e1 : s.val = s'.val := by omega
  have e2 : c.val = c'.val := by omega
  rw [Fin.ext e1, Fin.ext e2]
theorem s2A_disj (p p' : T2) (h : p ≠ p') : Disjoint (s2A p) (s2A p') := by
  rw [Finset.disjoint_left]
  intro i h1 h2
  unfold s2A at h1 h2
  rw [set_s2RowM, mem_sRow, coordsV_0, coordsV_1] at h1 h2
  obtain ⟨c, s⟩ := p; obtain ⟨c', s'⟩ := p'
  have := c.isLt; have := c'.isLt; have := s.isLt; have := s'.isLt
  dsimp only at h1 h2
  apply h
  have e1 : s.val = s'.val := by omega
  have e2 : c.val = c'.val := by omega
  rw [Fin.ext e1, Fin.ext e2]

theorem s1A_cover : (Finset.univ : Finset T2).biUnion s1A = Finset.univ := by
  ext i
  simp only [Finset.mem_biUnion, Finset.mem_univ, true_and, iff_true]
  have hi : (i 0).val < 32 := (i 0).isLt
  refine ⟨(⟨(i 0).val % 2, Nat.mod_lt _ (by decide)⟩, ⟨(i 0).val / 2, by omega⟩), ?_⟩
  unfold s1A
  rw [set_s1RowM, mem_sRow, coordsV_0, coordsV_1]
  simp only []
  omega
theorem s2A_cover : (Finset.univ : Finset T2).biUnion s2A = Finset.univ := by
  ext i
  simp only [Finset.mem_biUnion, Finset.mem_univ, true_and, iff_true]
  have hi : (i 0).val < 32 := (i 0).isLt
  refine ⟨(⟨(i 0).val % 2, Nat.mod_lt _ (by decide)⟩, ⟨(i 0).val / 2, by omega⟩), ?_⟩
  unfold s2A
  rw [set_s2RowM, mem_sRow, coordsV_0, coordsV_1]
  simp only []
  omega

end Cert.Proof.KI

end
-- ==== Proof.Deal.lean ====
/-
  What the TensorCore hands the SparseCores at each call and gets back, from and to whole arrays: at call 0 the
  regrouped input as thirty-two read shares and the pair-product and partial-sum arrays row by row; back come the three
  written arrays whole (at whatever they hold). At call 1 the pair-product array, the scale vector and the offset
  vector as read shares and the result segment by segment; back comes the result whole.
-/
import proofs.«210137_g30502857736458_cont_9to1_2222_4_alg».proof.Proof.Common
import proofs.«210137_g30502857736458_cont_9to1_2222_4_alg».proof.Proof.Rows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] [∀ e, Nonempty (Elt F e)]

instance (ℓ : Loc nD τ sig) : Nonempty (Buf (Elt F) ℓ) := ⟨fun _ => Classical.choice inferInstance⟩

theorem bigSep_g0 (Φ : Fin k0_t2_loop.trips → sProp 𝕄) : bigSep Finset.univ Φ = bigSep Finset.univ fun g : Fin 8 => Φ (g0 g) :=
  bigSep_univ_equiv (finCongr trips0.symm) Φ
theorem bigSep_g2 (Φ : Fin k2_t1_loop.trips → sProp 𝕄) : bigSep Finset.univ Φ = bigSep Finset.univ fun g : Fin 8 => Φ (g2 g) :=
  bigSep_univ_equiv (finCongr trips2.symm) Φ

theorem bigSep_T3 (Φ : T3 → sProp 𝕄) :
    bigSep Finset.univ Φ = bigSep Finset.univ fun c : Fin 2 => bigSep Finset.univ fun s : Fin 16 => bigSep Finset.univ fun g : Fin 8 => Φ (c, s, g) := by
  rw [bigSep_univ_prod]
  exact bigSep_congr fun c _ => bigSep_univ_prod (fun p : Fin 16 × Fin 8 => Φ (c, p))
theorem bigSep_T2 (Φ : T2 → sProp 𝕄) :
    bigSep Finset.univ Φ = bigSep Finset.univ fun c : Fin 2 => bigSep Finset.univ fun s : Fin 16 => Φ (c, s) := bigSep_univ_prod Φ

/-! ## Call 0 -/

theorem xg_deal (d : Dev nD) (f : Buf (Elt F) (xgLoc d)) :
    (xgLoc d ↦{fullShare} f : sProp 𝕄) ⊢ bigSep Finset.univ fun c : Fin 2 => bigSep Finset.univ fun s : Fin 16 => xgSh d (wid (coordsV c s)) :=
  (whole_shares f).trans (Entails.of_eq (bigSep_workers (fun w => xgSh (F := F) d w)))

theorem it_deal (d : Dev nD) (f : Buf (Elt F) (itLoc d)) :
    (itLoc d ↦{fullShare} f : sProp 𝕄) ⊢ bigSep Finset.univ fun c : Fin 2 => bigSep Finset.univ fun s : Fin 16 =>
      bigSep Finset.univ fun g : Fin k0_t2_loop.trips => itRowPts d (coordsV c s) g := by
  refine (whole_pieces (ℓ := itLoc d) itA itA_disj itA_cover f).trans (Entails.of_eq ?_)
  rw [bigSep_T3]
  exact bigSep_congr fun c _ => bigSep_congr fun s _ => (bigSep_g0 (fun g => itRowPts (F := F) d (coordsV c s) g)).symm

theorem it_back (d : Dev nD) :
    (bigSep Finset.univ fun c : Fin 2 => bigSep Finset.univ fun s : Fin 16 =>
      bigSep Finset.univ fun g : Fin k0_t2_loop.trips => itRowPts d (coordsV c s) g) ⊢ (iprop(∃ f, itLoc d ↦{fullShare} f) : sProp 𝕄) := by
  refine (Entails.of_eq ?_).trans (pieces_whole (ℓ := itLoc d) itA itA_disj itA_cover)
  rw [bigSep_T3]
  exact bigSep_congr fun c _ => bigSep_congr fun s _ => bigSep_g0 (fun g => itRowPts (F := F) d (coordsV c s) g)

theorem s1_deal (d : Dev nD) (f : Buf (Elt F) (s1Loc d)) :
    (s1Loc d ↦{fullShare} f : sProp 𝕄) ⊢ bigSep Finset.univ fun c : Fin 2 => bigSep Finset.univ fun s : Fin 16 => s1RowPts d (coordsV c s) :=
  (whole_pieces (ℓ := s1Loc d) s1A s1A_disj s1A_cover f).trans (Entails.of_eq (bigSep_T2 _))
theorem s2_deal (d : Dev nD) (f : Buf (Elt F) (s2Loc d)) :
    (s2Loc d ↦{fullShare} f : sProp 𝕄) ⊢ bigSep Finset.univ fun c : Fin 2 => bigSep Finset.univ fun s : Fin 16 => s2RowPts d (coordsV c s) :=
  (whole_pieces (ℓ := s2Loc d) s2A s2A_disj s2A_cover f).trans (Entails.of_eq (bigSep_T2 _))
theorem s1_back (d : Dev nD) :
    (bigSep Finset.univ fun c : Fin 2 => bigSep Finset.univ fun s : Fin 16 => s1RowPts d (coordsV c s)) ⊢ (iprop(∃ f, s1Loc d ↦{fullShare} f) : sProp 𝕄) :=
  (Entails.of_eq (bigSep_T2 _).symm).trans (pieces_whole (ℓ := s1Loc d) s1A s1A_disj s1A_cover)
theorem s2_back (d : Dev nD) :
    (bigSep Finset.univ fun c : Fin 2 => bigSep Finset.univ fun s : Fin 16 => s2RowPts d (coordsV c s)) ⊢ (iprop(∃ f, s2Loc d ↦{fullShare} f) : sProp 𝕄) :=
  (Entails.of_eq (bigSep_T2 _).symm).trans (pieces_whole (ℓ := s2Loc d) s2A s2A_disj s2A_cover)

theorem st0_eq (d : Dev nD) :
    (bigSep Finset.univ fun c : Fin ((K (F := F)).nCore 0) => (P (F := F)).st 0 d c)
      = iprop((bigSep Finset.univ fun c : Fin 2 => bigSep Finset.univ fun s : Fin 16 => xgSh d (wid (coordsV c s)))
        ∗ (bigSep Finset.univ fun c : Fin 2 => bigSep Finset.univ fun s : Fin 16 => bigSep Finset.univ fun g : Fin k0_t2_loop.trips => itRowPts d (coordsV c s) g)
        ∗ (bigSep Finset.univ fun c : Fin 2 => bigSep Finset.univ fun s : Fin 16 => s1RowPts d (coordsV c s))
        ∗ (bigSep Finset.univ fun c : Fin 2 => bigSep Finset.univ fun s : Fin 16 => s2RowPts d (coordsV c s))) := by
  show (bigSep (Finset.univ : Finset (Fin 2)) fun c => bigSep Finset.univ fun s : Fin 16 => G0 d (coordsV c s)) = _
  unfold G0
  simp only [bigSep_sep']

theorem st0_intro (d : Dev nD) (fx : Buf (Elt F) (xgLoc d)) (fi : Buf (Elt F) (itLoc d)) (f1 : Buf (Elt F) (s1Loc d)) (f2 : Buf (Elt F) (s2Loc d)) :
    iprop((xgLoc d ↦{fullShare} fx) ∗ (itLoc d ↦{fullShare} fi) ∗ (s1Loc d ↦{fullShare} f1) ∗ (s2Loc d ↦{fullShare} f2))
      ⊢ (bigSep Finset.univ fun c : Fin ((K (F := F)).nCore 0) => (P (F := F)).st 0 d c : sProp 𝕄) := by
  rw [st0_eq]
  exact BIClass.sep_mono (xg_deal d fx) (BIClass.sep_mono (it_deal d fi) (BIClass.sep_mono (s1_deal d f1) (s2_deal d f2)))

theorem dn0_elim (d : Dev nD) :
    (bigSep Finset.univ fun c : Fin ((K (F := F)).nCore 0) => (P (F := F)).dn 0 d c)
      ⊢ (iprop((∃ f, itLoc d ↦{fullShare} f) ∗ (∃ f, s1Loc d ↦{fullShare} f) ∗ (∃ f, s2Loc d ↦{fullShare} f)) : sProp 𝕄) := by
  rw [show (bigSep Finset.univ fun c : Fin ((K (F := F)).nCore 0) => (P (F := F)).dn 0 d c) = (bigSep Finset.univ fun c : Fin ((K (F := F)).nCore 0) => (P (F := F)).st 0 d c) from rfl, st0_eq]
  exact sep_elim_right.trans (BIClass.sep_mono (it_back d) (BIClass.sep_mono (s1_back d) (s2_back d)))

/-! ## Call 1 -/

theorem sh_deal {ℓ : Loc nD τ sig} (f : Buf (Elt F) ℓ) :
    (ℓ ↦{fullShare} f : sProp 𝕄) ⊢ bigSep Finset.univ fun c : Fin 2 => bigSep Finset.univ fun s : Fin 16 => iprop(∃ g, ℓ ↦{rq (wid (coordsV c s))} g) :=
  (whole_shares f).trans (Entails.of_eq (bigSep_workers (fun w => (iprop(∃ g, ℓ ↦{rq w} g) : sProp 𝕄))))

theorem ot_deal (d : Dev nD) (f : Buf (Elt F) (otLoc d)) :
    (otLoc d ↦{fullShare} f : sProp 𝕄) ⊢ bigSep Finset.univ fun c : Fin 2 => bigSep Finset.univ fun s : Fin 16 =>
      bigSep Finset.univ fun g : Fin k2_t1_loop.trips => otSegPts d (coordsV c s) g := by
  refine (whole_pieces (ℓ := otLoc d) otA otA_disj otA_cover f).trans (Entails.of_eq ?_)
  rw [bigSep_T3]
  exact bigSep_congr fun c _ => bigSep_congr fun s _ => (bigSep_g2 (fun g => otSegPts (F := F) d (coordsV c s) g)).symm

theorem ot_back (d : Dev nD) :
    (bigSep Finset.univ fun c : Fin 2 => bigSep Finset.univ fun s : Fin 16 =>
      bigSep Finset.univ fun g : Fin k2_t1_loop.trips => otSegPts d (coordsV c s) g) ⊢ (iprop(∃ f, otLoc d ↦{fullShare} f) : sProp 𝕄) := by
  refine (Entails.of_eq ?_).trans (pieces_whole (ℓ := otLoc d) otA otA_disj otA_cover)
  rw [bigSep_T3]
  exact bigSep_congr fun c _ => bigSep_congr fun s _ => bigSep_g2 (fun g => otSegPts (F := F) d (coordsV c s) g)

theorem st1_eq (d : Dev nD) :
    (bigSep Finset.univ fun c : Fin ((K (F := F)).nCore 1) => (P (F := F)).st 1 d c)
      = iprop((bigSep Finset.univ fun c : Fin 2 => bigSep Finset.univ fun s : Fin 16 => itSh d (wid (coordsV c s)))
        ∗ (bigSep Finset.univ fun c : Fin 2 => bigSep Finset.univ fun s : Fin 16 => alSh d (wid (coordsV c s)))
        ∗ (bigSep Finset.univ fun c : Fin 2 => bigSep Finset.univ fun s : Fin 16 => cvSh d (wid (coordsV c s)))
        ∗ (bigSep Finset.univ fun c : Fin 2 => bigSep Finset.univ fun s : Fin 16 => bigSep Finset.univ fun g : Fin k2_t1_loop.trips => otSegPts d (coordsV c s) g)) := by
  show (bigSep (Finset.univ : Finset (Fin 2)) fun c => bigSep Finset.univ fun s : Fin 16 => G1 d (coordsV c s)) = _
  unfold G1
  simp only [bigSep_sep']

theorem st1_intro (d : Dev nD) (fi : Buf (Elt F) (itLoc d)) (fa : Buf (Elt F) (alLoc d)) (fc : Buf (Elt F) (cvLoc d)) (fo : Buf (Elt F) (otLoc d)) :
    iprop((itLoc d ↦{fullShare} fi) ∗ (alLoc d ↦{fullShare} fa) ∗ (cvLoc d ↦{fullShare} fc) ∗ (otLoc d ↦{fullShare} fo))
      ⊢ (bigSep Finset.univ fun c : Fin ((K (F := F)).nCore 1) => (P (F := F)).st 1 d c : sProp 𝕄) := by
  rw [st1_eq]
  exact BIClass.sep_mono (sh_deal fi) (BIClass.sep_mono (sh_deal fa) (BIClass.sep_mono (sh_deal fc) (ot_deal d fo)))

theorem dn1_elim (d : Dev nD) :
    (bigSep Finset.univ fun c : Fin ((K (F := F)).nCore 1) => (P (F := F)).dn 1 d c) ⊢ (iprop(∃ f, otLoc d ↦{fullShare} f) : sProp 𝕄) := by
  rw [show (bigSep Finset.univ fun c : Fin ((K (F := F)).nCore 1) => (P (F := F)).dn 1 d c) = (bigSep Finset.univ fun c : Fin ((K (F := F)).nCore 1) => (P (F := F)).st 1 d c) from rfl, st1_eq]
  exact sep_elim_right.trans (sep_elim_right.trans (sep_elim_right.trans (ot_back d)))

/-! ## A SparseCore's share among its subcores -/

theorem vecSplit0 : (K (F := F)).VecSplit' (P (F := F)) 0 := by
  intro d c
  show (bigSep Finset.univ fun s : Fin 16 => G0 d (coordsV (Fin.cast (nCore_eq 0) c) s)) ⊢ |={Set.univ}=> iprop(
      (bigSep Finset.univ fun i : Fin ((K (F := F)).nSub 0) => G0 d (coordsV (Fin.cast (nCore_eq 0) c) (Fin.cast (nSub_eq 0) i)))
      ∗ ((bigSep Finset.univ fun i : Fin ((K (F := F)).nSub 0) => G0 d (coordsV (Fin.cast (nCore_eq 0) c) (Fin.cast (nSub_eq 0) i)))
          -∗ (bigSep Finset.univ fun s : Fin 16 => G0 d (coordsV (Fin.cast (nCore_eq 0) c) s))))
  iintro H; imodintro
  isplitl [H]; · iexact H
  iintro H; iexact H

theorem vecSplit1 : (K (F := F)).VecSplit' (P (F := F)) 1 := by
  intro d c
  show (bigSep Finset.univ fun s : Fin 16 => G1 d (coordsV (Fin.cast (nCore_eq 1) c) s)) ⊢ |={Set.univ}=> iprop(
      (bigSep Finset.univ fun i : Fin ((K (F := F)).nSub 1) => G1 d (coordsV (Fin.cast (nCore_eq 1) c) (Fin.cast (nSub_eq 1) i)))
      ∗ ((bigSep Finset.univ fun i : Fin ((K (F := F)).nSub 1) => G1 d (coordsV (Fin.cast (nCore_eq 1) c) (Fin.cast (nSub_eq 1) i)))
          -∗ (bigSep Finset.univ fun s : Fin 16 => G1 d (coordsV (Fin.cast (nCore_eq 1) c) s))))
  iintro H; imodintro
  isplitl [H]; · iexact H
  iintro H; iexact H

end Cert.Proof.KI

end
-- ==== Proof.Ops.lean ====
/-
  The TensorCore's program as five stretches: forty host operations (the regrouping of the input and the three
  scatters of the per-pair vectors into the 832 pair slots, each broadcast over sixteen lanes), the first SparseCore
  call, the TensorCore region, two reshapes, the second SparseCore call, one reshape.
-/
import proofs.«210137_g30502857736458_cont_9to1_2222_4_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

abbrev ops0 : List (HloOp τ sig (Elt F)) := [
  StableHlo.nullary main_c (fun i => lit0 (S325.rowMajor i)),
  StableHlo.nullary main_c_0 (constantI S325 1 0#1),
  StableHlo.nullary main_c_1 (constantI S325 1 0#1),
  StableHlo.nullary main_c_2 (constantI S325 1 0#1),
  StableHlo.reshape main_arg0 main_v0 rfl shapeCasts_S4096x26x64_S256x16x26x64,
  StableHlo.unary main_v0 main_v1 ((transpose S256x26x64x16 [0, 2, 3, 1] · transposes_S256x16x26x64_S256x26x64x16_0_2_3_1) : (⟨S256x16x26x64, .f32⟩ : BufTy).Contents (Elt F) → (⟨S256x26x64x16, .f32⟩ : BufTy).Contents (Elt F)),
  StableHlo.reshape main_v1 main_v2 rfl shapeCasts_S256x26x64x16_S256x26624,
  StableHlo.nullary main_cst (constant S_ .f32 0x00000000#32),
  StableHlo.unary main_cst main_v3 (broadcastInDim S832 ![] bcast_S_S832 : (⟨S_, .f32⟩ : BufTy).Contents (Elt F) → (⟨S832, .f32⟩ : BufTy).Contents (Elt F)),
  StableHlo.nullary main_c_3 (constantI S_ 32 832#32),
  StableHlo.unary main_c_3 main_v4 (broadcastInDim S325 ![] bcast_S_S325 : (⟨S_, .i32⟩ : BufTy).Contents (Elt F) → (⟨S325, .i32⟩ : BufTy).Contents (Elt F)),
  StableHlo.binary main_c main_v4 main_v5 (addi : (⟨S325, .i32⟩ : BufTy).Contents (Elt F) → (⟨S325, .i32⟩ : BufTy).Contents (Elt F) → (⟨S325, .i32⟩ : BufTy).Contents (Elt F)),
  StableHlo.ternary main_c_0 main_v5 main_c main_v6 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
  StableHlo.unary main_v6 main_v7 (broadcastInDim S325x1 ![0] bcast_S325_S325x1_0 : (⟨S325, .i32⟩ : BufTy).Contents (Elt F) → (⟨S325x1, .i32⟩ : BufTy).Contents (Elt F)),
  StableHlo.ternary main_v3 main_v7 main_arg3 main_v8 ((fun x i u => Host.scatter scatter_S832_S325x1_S325_n_0_0_1 (fun _ b => b) x i u) : (⟨S832, .f32⟩ : BufTy).Contents (Elt F) → (⟨S325x1, .i32⟩ : BufTy).Contents (Elt F) → (⟨S325, .f32⟩ : BufTy).Contents (Elt F) → (⟨S832, .f32⟩ : BufTy).Contents (Elt F)),
  StableHlo.reshape main_v8 main_v9 rfl shapeCasts_S832_S832x1,
  StableHlo.unary main_v9 main_v10 (broadcastInDim S832x16 ![0, 1] bcast_S832x1_S832x16_0_1 : (⟨S832x1, .f32⟩ : BufTy).Contents (Elt F) → (⟨S832x16, .f32⟩ : BufTy).Contents (Elt F)),
  StableHlo.reshape main_v10 main_v11 rfl shapeCasts_S832x16_S1x13312,
  StableHlo.nullary main_cst_4 (constant S_ .f32 0x00000000#32),
  StableHlo.unary main_cst_4 main_v12 (broadcastInDim S832 ![] bcast_S_S832 : (⟨S_, .f32⟩ : BufTy).Contents (Elt F) → (⟨S832, .f32⟩ : BufTy).Contents (Elt F)),
  StableHlo.nullary main_c_5 (constantI S_ 32 832#32),
  StableHlo.unary main_c_5 main_v13 (broadcastInDim S325 ![] bcast_S_S325 : (⟨S_, .i32⟩ : BufTy).Contents (Elt F) → (⟨S325, .i32⟩ : BufTy).Contents (Elt F)),
  StableHlo.binary main_c main_v13 main_v14 (addi : (⟨S325, .i32⟩ : BufTy).Contents (Elt F) → (⟨S325, .i32⟩ : BufTy).Contents (Elt F) → (⟨S325, .i32⟩ : BufTy).Contents (Elt F)),
  StableHlo.ternary main_c_1 main_v14 main_c main_v15 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
  StableHlo.unary main_v15 main_v16 (broadcastInDim S325x1 ![0] bcast_S325_S325x1_0 : (⟨S325, .i32⟩ : BufTy).Contents (Elt F) → (⟨S325x1, .i32⟩ : BufTy).Contents (Elt F)),
  StableHlo.ternary main_v12 main_v16 main_arg1 main_v17 ((fun x i u => Host.scatter scatter_S832_S325x1_S325_n_0_0_1 (fun _ b => b) x i u) : (⟨S832, .f32⟩ : BufTy).Contents (Elt F) → (⟨S325x1, .i32⟩ : BufTy).Contents (Elt F) → (⟨S325, .f32⟩ : BufTy).Contents (Elt F) → (⟨S832, .f32⟩ : BufTy).Contents (Elt F)),
  StableHlo.reshape main_v17 main_v18 rfl shapeCasts_S832_S832x1,
  StableHlo.unary main_v18 main_v19 (broadcastInDim S832x16 ![0, 1] bcast_S832x1_S832x16_0_1 : (⟨S832x1, .f32⟩ : BufTy).Contents (Elt F) → (⟨S832x16, .f32⟩ : BufTy).Contents (Elt F)),
  StableHlo.reshape main_v19 main_v20 rfl shapeCasts_S832x16_S1x13312,
  StableHlo.nullary main_cst_6 (constant S_ .f32 0x00000000#32),
  StableHlo.unary main_cst_6 main_v21 (broadcastInDim S832 ![] bcast_S_S832 : (⟨S_, .f32⟩ : BufTy).Contents (Elt F) → (⟨S832, .f32⟩ : BufTy).Contents (Elt F)),
  StableHlo.nullary main_c_7 (constantI S_ 32 832#32),
  StableHlo.unary main_c_7 main_v22 (broadcastInDim S325 ![] bcast_S_S325 : (⟨S_, .i32⟩ : BufTy).Contents (Elt F) → (⟨S325, .i32⟩ : BufTy).Contents (Elt F)),
  StableHlo.binary main_c main_v22 main_v23 (addi : (⟨S325, .i32⟩ : BufTy).Contents (Elt F) → (⟨S325, .i32⟩ : BufTy).Contents (Elt F) → (⟨S325, .i32⟩ : BufTy).Contents (Elt F)),
  StableHlo.ternary main_c_2 main_v23 main_c main_v24 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
  StableHlo.unary main_v24 main_v25 (broadcastInDim S325x1 ![0] bcast_S325_S325x1_0 : (⟨S325, .i32⟩ : BufTy).Contents (Elt F) → (⟨S325x1, .i32⟩ : BufTy).Contents (Elt F)),
  StableHlo.ternary main_v21 main_v25 main_arg2 main_v26 ((fun x i u => Host.scatter scatter_S832_S325x1_S325_n_0_0_1 (fun _ b => b) x i u) : (⟨S832, .f32⟩ : BufTy).Contents (Elt F) → (⟨S325x1, .i32⟩ : BufTy).Contents (Elt F) → (⟨S325, .f32⟩ : BufTy).Contents (Elt F) → (⟨S832, .f32⟩ : BufTy).Contents (Elt F)),
  StableHlo.reshape main_v26 main_v27 rfl shapeCasts_S832_S832x1,
  StableHlo.unary main_v27 main_v28 (broadcastInDim S832x16 ![0, 1] bcast_S832x1_S832x16_0_1 : (⟨S832x1, .f32⟩ : BufTy).Contents (Elt F) → (⟨S832x16, .f32⟩ : BufTy).Contents (Elt F)),
  StableHlo.reshape main_v28 main_v29 rfl shapeCasts_S832x16_S1x13312]

abbrev ops1 : List (HloOp τ sig (Elt F)) := [
  StableHlo.reshape main_v31_0 main_v32 rfl shapeCasts_S1x13312_S13312,
  StableHlo.reshape main_v31_1 main_v33 rfl shapeCasts_S1x16_S16]

abbrev ops2 : List (HloOp τ sig (Elt F)) := [
  StableHlo.reshape main_v34 main_v35 rfl shapeCasts_S4096_S4096x1]

set_option maxRecDepth 8192 in
theorem main_eq (d : Dev nD) :
    main (F := F) d = (StableHlo.seq (ops0 (F := F)) >>= fun _ => (K (F := F)).run d 0 >>= fun _ =>
      Prog.lift (.customCall (SparseCore.inner (Pipeline.entry 0)) ()) >>= fun _ => StableHlo.seq (ops1 (F := F)) >>= fun _ =>
      (K (F := F)).run d 1 >>= fun _ => StableHlo.seq (ops2 (F := F))) := rfl

end Cert.Proof.KI

end
-- ==== Proof.RegionBody.lean ====
import proofs.«210137_g30502857736458_cont_9to1_2222_4_alg».proof.Proof.Common
import proofs.«210137_g30502857736458_cont_9to1_2222_4_alg».proof.Proof.Gen.KernelIdeal.Launch
import proofs.«210137_g30502857736458_cont_9to1_2222_4_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- A TensorCore memref's buffer on device `c`: its contents type, and the memref's own elements held at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The finalize kernel's body on seven whole staging buffers: it loads the five inputs (and the two outputs'
    buffers), stores once into each output buffer, and returns; the inputs come back as they were, the outputs at
    something. -/
theorem kernelRun (c : Dev nD)
    (M0 : Memref sig .tc .vmem S32x13312 .f32) (h0 : M0.IsWhole) (M1 : Memref sig .tc .vmem S32x13312 .f32) (h1 : M1.IsWhole)
    (M2 : Memref sig .tc .vmem S1x13312 .f32) (h2 : M2.IsWhole) (M3 : Memref sig .tc .vmem S1x13312 .f32) (h3 : M3.IsWhole)
    (M4 : Memref sig .tc .vmem S1x13312 .f32) (h4 : M4.IsWhole) (M5 : Memref sig .tc .vmem S1x13312 .f32) (h5 : M5.IsWhole)
    (M6 : Memref sig .tc .vmem S1x16 .f32) (h6 : M6.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (Q : PUnit → sProp 𝕄) :
    iprop(pt c M0 f0 ∗ pt c M1 f1 ∗ pt c M2 f2 ∗ pt c M3 f3 ∗ pt c M4 f4 ∗ pt c M5 f5 ∗ pt c M6 f6
      ∗ (iprop(pt c M0 f0 ∗ pt c M1 f1 ∗ pt c M2 f2 ∗ pt c M3 f3 ∗ pt c M4 f4 ∗ (∃ f, pt c M5 f) ∗ (∃ f, pt c M6 f)) -∗ Q ⟨⟩))
    ⊢ wp frame (wpE (defs₀ (F := F)) Variants.none c none) Set.univ
        (cc1__finalize_kernel M0 h0 M1 h1 M2 h2 M3 h3 M4 h4 M5 h5 M6 h6) Q := by
  iintro ⟨H0, H1, H2, H3, H4, H5, H6, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexists _; iexact H5
  iexists _; iexact H6

end Cert.Proof.KI

end
-- ==== Proof.RegionData.lean ====
import proofs.«210137_g30502857736458_cont_9to1_2222_4_alg».proof.Proof.RegionBody
import proofs.«210137_g30502857736458_cont_9to1_2222_4_alg».proof.Proof.Gen.KernelIdeal.Launch
import proofs.«210137_g30502857736458_cont_9to1_2222_4_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.Pipeline (RDat)

/-- The pipeline has no prefetched table: the one admissible contents. -/
abbrev adm : (p : Fin 1) → (pcfgs (F := F) p).Adm := fun p => (cfgs p).toPCfg_adm

/-- The seven windows' arrays' contents when the region is entered, per device. -/
abbrev Arr (F : FTy → Type) : Type := (c : Dev nD) → (w : Fin 7) → Buf (Elt F) ((cfg1.win w).arr.view.loc (c : Thread nD τ))

/-- The (semaphore, index) pairs a TensorCore's waits may have recorded by the region's end: those at or below
    the level of the second call's band. -/
def recd (c : Dev nD) : Set (SemLoc sig × HIx 2) := {p | (K (F := F)).lev ((T c : Thread nD τ), p.1) p.2 ≤ 8 * 1}

/-- During the region the TensorCore owes nothing at a kernel's own index. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- The region's relational proof data: the arrays at their entry contents; nothing said of what the body leaves
    in a staging buffer; no invariant; full shares; the TensorCore owing throughout what it owes before the second
    SparseCore call. -/
def rdats (A : Arr F) (_ : Fin 1) (c : Dev nD) : RDat τ (Elt F) (HIx 2) ℕ UU ℕ cfg1 c where
  A w := A c w
  after _ _ _ _ := True
  Φ _ := iprop(emp)
  q _ := fullShare
  owed _ := (K (F := F)).Otc c 1
  recorded _ := recd (F := F) c

theorem share_eq (A : Arr F) (c : Dev nD) (w : Fin 7) : (rdats A 0 c).share w = fullShare := by
  unfold RDat.share; split <;> rfl

/-- The pipeline's waits on its staging cells sit at a kernel's own index, below everything the TensorCore owes. -/
theorem hwaits (A : Arr F) (c : Dev nD) :
    (levAts (K (F := F)).L (K (F := F)).lev : sProp 𝕄) ⊢ Pipeline.RDat.cellsWaits cfgs (rdats A) none 0 c :=
  Pipeline.RDat.cellsWaits_intro cfgs (rdats A) none 0 c fun w s t =>
    SparseCore.Cfg.mayWait_none (K := K (F := F)) _ (fun g => Otc_none c 1 g)

set_option maxRecDepth 8192 in
/-- The body obligation: the staging buffers taken apart, the body run, each handed back at what it holds. -/
theorem body_obligation (A : Arr F) (c : Dev nD) : (rdats A 0 c).BodyObligation (defs₀ (F := F)) 𝒱₀ none Set.univ := fun t Y _ => by
  obtain rfl := fin_N1 t
  rw [bigSep_W1, bigSep_W1]
  unfold owns
  iintro ⟨-, HO, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩
  iapply (kernelRun c _ (hstage1_0 0) _ (hstage1_1 0) _ (hstage1_2 0) _ (hstage1_3 0) _ (hstage1_4 0) _ (hstage1_5 0) _ (hstage1_6 0) f0 f1 f2 f3 f4 f5 f6)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, ⟨%g5, H5⟩, ⟨%g6, H6⟩⟩
  isplitr; · iempintro
  isplitl [HO]; · iexact HO
  isplitl [H0]; · iexists (Y 0); isplitr; · ipureintro; trivial
                  iexists f0; isplitr; · ipureintro; exact e0
                  iexact H0
  isplitl [H1]; · iexists (Y 1); isplitr; · ipureintro; trivial
                  iexists f1; isplitr; · ipureintro; exact e1
                  iexact H1
  isplitl [H2]; · iexists (Y 2); isplitr; · ipureintro; trivial
                  iexists f2; isplitr; · ipureintro; exact e2
                  iexact H2
  isplitl [H3]; · iexists (Y 3); isplitr; · ipureintro; trivial
                  iexists f3; isplitr; · ipureintro; exact e3
                  iexact H3
  isplitl [H4]; · iexists (Y 4); isplitr; · ipureintro; trivial
                  iexists f4; isplitr; · ipureintro; exact e4
                  iexact H4
  isplitl [H5]; · iexists (View.read (Elt F) ((cfg1.win 5).stage (cfg1.slots t1_0 5)).view g5); isplitr; · ipureintro; trivial
                  iexists g5; isplitr; · ipureintro; rfl
                  iexact H5
  iexists (View.read (Elt F) ((cfg1.win 6).stage (cfg1.slots t1_0 6)).view g6); isplitr; · ipureintro; trivial
  iexists g6; isplitr; · ipureintro; rfl
  iexact H6

end Cert.Proof.KI

end
-- ==== Proof.RegionSeg.lean ====
import proofs.«210137_g30502857736458_cont_9to1_2222_4_alg».proof.Proof.RegionData
import proofs.«210137_g30502857736458_cont_9to1_2222_4_alg».proof.Proof.Gen.KernelIdeal.Launch
import proofs.«210137_g30502857736458_cont_9to1_2222_4_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.Pipeline (RDat)

/-- What the TensorCore owes between the two SparseCore calls, its recorded pairs at or below the second call's band:
    the first component of its handshake state there. -/
def owesB (c : Dev nD) : sProp 𝕄 :=
  iprop(∃ W, ⌜(K (F := F)).WBelow (T c) W (8 * 1)⌝ ∗ owes (T c : Thread nD τ) ((K (F := F)).Otc c 1) W)

-- the region record is stated over the pinned configuration `pin pcfgs adm 0`, which is `cfg1` by unfolding
set_option backward.isDefEq.respectTransparency.types false in
/-- The region: the generated layout, no semaphore of the kernel's own, the body obligation; entered with the seven
    arrays at their entry contents and the TensorCore's debt, left with the arrays at what they may then hold and the
    same debt. -/
def reg (A : Arr F) : Pipeline.RDat.RegionSeg (pcfgs (F := F)) adm (rdats A) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := body_obligation A c
  hwaits c := hwaits A c
  pre c := iprop((rdats A 0 c).arrays (rdats A 0 c).A ∗ owesB (F := F) c)
  post c := iprop((rdats A 0 c).arraysAt cfg1.N ∗ owesB (F := F) c)
  X _ := iprop(emp)
  Y _ := iprop(emp)
  Z _ := iprop(emp)
  hentry c := by
    unfold owesB
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists W; isplitr
      · ipureintro; exact fun p hp => Or.inl (hW p (Finset.mem_coe.mp hp))
      iexact HO
    isplitr <;> iempintro
  hin c := by
    iintro -; iempintro
  hout c := by
    iintro -
    isplitr; · iempintro
    isplitr
    · unfold Pipeline.ownSems0; rw [Finset.univ_eq_empty, BI.bigSep_empty]; iempintro
    · iapply (Entails.of_eq (scopedRest1_eq (Ix := HIx 2) (Val := Elt F) (Name := ℕ) (U := UU) (Lvl := ℕ) c).symm); iempintro
  hexit c := by
    unfold owesB
    iintro ⟨Ha, HO, -, -⟩
    imodintro
    isplitl [Ha]; · iexact Ha
    unfold Pipeline.RDat.owesAt Pipeline.owesWithin
    icases HO with ⟨%W, %hW, HO⟩
    iexists W; isplitr
    · ipureintro
      intro p hp
      rcases hW (Finset.mem_coe.mpr hp) with h | ⟨w, s, h⟩
      · exact h
      · rw [h]; show (K (F := F)).lev _ none ≤ 8 * 1; rw [SparseCore.Cfg.lev_none]; exact Nat.zero_le _
    iexact HO

end Cert.Proof.KI

end
-- ==== Proof.Region.lean ====
import proofs.«210137_g30502857736458_cont_9to1_2222_4_alg».proof.Proof.RegionSeg
import proofs.«210137_g30502857736458_cont_9to1_2222_4_alg».proof.Proof.Gen.KernelIdeal.Launch
import proofs.«210137_g30502857736458_cont_9to1_2222_4_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.Pipeline (RDat)

/-- The region's ghost state on device `d`: its staging cells' launch state and the duty tokens of its transfers. -/
def G_region (d : Dev nD) : sProp 𝕄 :=
  iprop(Pipeline.cellsGhost cfgs (EP (F := F)) 0 d ∗ Pipeline.toksInit cfgs (EP (F := F)) 0 d)

/-- The element of the staging cells' algebra the launch funds: every staging cell at its launch state, every transfer's
    duty token. -/
def u₀P : UP := initOf (Pipeline.cells (nD := nD) (τ := τ) cfgs cellOf_inj) (Pipeline.launchToks (nD := nD) (τ := τ) cfgs cellOf_inj)

/-- Funding: from the launch element of the staging cells' algebra, every device's region ghost state. -/
theorem fund_region : (BI.own ((EP (F := F)) u₀P) : sProp 𝕄) ⊢ iprop(|==> bigSep Finset.univ fun d : Dev nD => G_region (F := F) d) := by
  have e1 : ∀ c : Dev nD, (bigSep Finset.univ fun p : Fin 1 => (Pipeline.cellsGhost cfgs (EP (F := F)) p c : sProp 𝕄))
      = Pipeline.cellsGhost cfgs (EP (F := F)) 0 c := fun c => bigSep_univ_of_subsingleton (0 : Fin 1)
  have e2 : ∀ c : Dev nD, (bigSep Finset.univ fun p : Fin 1 => (Pipeline.toksInit cfgs (EP (F := F)) p c : sProp 𝕄))
      = Pipeline.toksInit cfgs (EP (F := F)) 0 c := fun c => bigSep_univ_of_subsingleton (0 : Fin 1)
  have h := Pipeline.fund_ghost (nD := nD) (τ := τ) cfgs (EP (F := F)) cellOf_inj
  simp only [e1, e2] at h
  unfold u₀P G_region
  rw [bigSep_sep']
  exact h

/-- The seven windows' contents, the same on every device, from one buffer's contents each. -/
def mkArr (f1 : main_v30_1.ty.Contents (Elt F)) (f2 : main_v30_2.ty.Contents (Elt F)) (f11 : main_v11.ty.Contents (Elt F))
    (f20 : main_v20.ty.Contents (Elt F)) (f29 : main_v29.ty.Contents (Elt F)) (g0 : main_v31_0.ty.Contents (Elt F)) (g1 : main_v31_1.ty.Contents (Elt F)) : Arr F :=
  fun _ w => match w with
    | 0 => f1 | 1 => f2 | 2 => f11 | 3 => f20 | 4 => f29 | 5 => g0 | 6 => g1
    | ⟨_ + 7, h⟩ => absurd h (Nat.not_lt.2 (Nat.le_add_left _ _))

section Arrays

variable (f1 : main_v30_1.ty.Contents (Elt F)) (f2 : main_v30_2.ty.Contents (Elt F)) (f11 : main_v11.ty.Contents (Elt F))
  (f20 : main_v20.ty.Contents (Elt F)) (f29 : main_v29.ty.Contents (Elt F)) (g0 : main_v31_0.ty.Contents (Elt F)) (g1 : main_v31_1.ty.Contents (Elt F))

set_option backward.isDefEq.respectTransparency.types false in
/-- The pipeline's arrays at their entry contents are the seven buffers held whole. -/
theorem arrays7 (c : Dev nD) :
    ((rdats (mkArr f1 f2 f11 f20 f29 g0 g1) 0 c).arrays (rdats (mkArr f1 f2 f11 f20 f29 g0 g1) 0 c).A : sProp 𝕄)
      = iprop(((T c : Thread nD τ).loc main_v30_1 ↦{fullShare} f1) ∗ ((T c : Thread nD τ).loc main_v30_2 ↦{fullShare} f2)
          ∗ ((T c : Thread nD τ).loc main_v11 ↦{fullShare} f11) ∗ ((T c : Thread nD τ).loc main_v20 ↦{fullShare} f20)
          ∗ ((T c : Thread nD τ).loc main_v29 ↦{fullShare} f29) ∗ ((T c : Thread nD τ).loc main_v31_0 ↦{fullShare} g0)
          ∗ ((T c : Thread nD τ).loc main_v31_1 ↦{fullShare} g1)) := by
  rw [Pipeline.RDat.arrays_eq (pcfgs (F := F)) adm (rdats (mkArr f1 f2 f11 f20 f29 g0 g1)) 0 c launch1.arr_whole (share_eq _ c), bigSep_W1]
  rfl

set_option backward.isDefEq.respectTransparency.types false in
/-- After the region the five inputs hold what they held, the two outputs something. -/
theorem arraysAt7 (c : Dev nD) :
    ((rdats (mkArr f1 f2 f11 f20 f29 g0 g1) 0 c).arraysAt cfg1.N : sProp 𝕄)
      ⊢ iprop(((T c : Thread nD τ).loc main_v30_1 ↦{fullShare} f1) ∗ ((T c : Thread nD τ).loc main_v30_2 ↦{fullShare} f2)
          ∗ ((T c : Thread nD τ).loc main_v11 ↦{fullShare} f11) ∗ ((T c : Thread nD τ).loc main_v20 ↦{fullShare} f20)
          ∗ ((T c : Thread nD τ).loc main_v29 ↦{fullShare} f29) ∗ (∃ g, (T c : Thread nD τ).loc main_v31_0 ↦{fullShare} g)
          ∗ (∃ g, (T c : Thread nD τ).loc main_v31_1 ↦{fullShare} g)) := by
  have e : ((rdats (mkArr f1 f2 f11 f20 f29 g0 g1) 0 c).arraysAt cfg1.N : sProp 𝕄)
      = bigSep Finset.univ fun w : Fin 7 => iprop(∃ G, ⌜(rdats (mkArr f1 f2 f11 f20 f29 g0 g1) 0 c).ArrAt w cfg1.N G⌝
          ∗ (((T c : Thread nD τ).loc (Pipeline.arrRef spec1 w)) ↦{fullShare} G)) := by
    unfold RDat.arraysAt
    exact bigSep_congr fun w _ => by rw [(launch1.arr_whole w).set_eq_univ, share_eq]
  rw [e, bigSep_W1]
  iintro ⟨⟨%G0, %h0, H0⟩, ⟨%G1, %h1, H1⟩, ⟨%G2, %h2, H2⟩, ⟨%G3, %h3, H3⟩, ⟨%G4, %h4, H4⟩, ⟨%G5, -, H5⟩, ⟨%G6, -, H6⟩⟩
  have h0 := Eq.mp (congrFun ((rdats (mkArr f1 f2 f11 f20 f29 g0 g1) 0 c).ArrAt_in 0 rfl cfg1.N) G0) h0
  have h1 := Eq.mp (congrFun ((rdats (mkArr f1 f2 f11 f20 f29 g0 g1) 0 c).ArrAt_in 1 rfl cfg1.N) G1) h1
  have h2 := Eq.mp (congrFun ((rdats (mkArr f1 f2 f11 f20 f29 g0 g1) 0 c).ArrAt_in 2 rfl cfg1.N) G2) h2
  have h3 := Eq.mp (congrFun ((rdats (mkArr f1 f2 f11 f20 f29 g0 g1) 0 c).ArrAt_in 3 rfl cfg1.N) G3) h3
  have h4 := Eq.mp (congrFun ((rdats (mkArr f1 f2 f11 f20 f29 g0 g1) 0 c).ArrAt_in 4 rfl cfg1.N) G4) h4
  subst h0 h1 h2 h3 h4
  isplitl [H0]; · iexact H0
  isplitl [H1]; · iexact H1
  isplitl [H2]; · iexact H2
  isplitl [H3]; · iexact H3
  isplitl [H4]; · iexact H4
  isplitl [H5]; · iexists G5; iexact H5
  iexists G6; iexact H6

/-- The TensorCore's handshake state between the calls opens with what it owes. -/
theorem tcSt_owes (d : Dev nD) : ∃ R : sProp 𝕄, (K (F := F)).tcSt (EH (F := F)) d 1 = iprop(owesB (F := F) d ∗ R) :=
  ⟨_, by unfold SparseCore.Cfg.tcSt owesB; rfl⟩

set_option maxRecDepth 8192 in
set_option backward.isDefEq.respectTransparency.types false in
/-- The region inside @main on the TensorCore: from the region boundary, the TensorCore's handshake state between the two
    calls, the region's ghost state and the seven arrays held whole, the pipeline runs and hands all of it back — the five
    inputs as they were, the two outputs at something. -/
theorem wp_region {P' : (K (F := F)).Pay (nD := nD) (Val := Elt F) (Name := ℕ) (U := UU)} (κ : GSem nD τ sig → ℕ) (d : Dev nD) (Φ : PUnit → sProp 𝕄) :
    iprop((K (F := F)).ctx (EH (F := F)) P' κ ∗ boundary (T d : Thread nD τ) ∗ (K (F := F)).tcSt (EH (F := F)) d 1 ∗ G_region (F := F) d
        ∗ ((T d : Thread nD τ).loc main_v30_1 ↦{fullShare} f1) ∗ ((T d : Thread nD τ).loc main_v30_2 ↦{fullShare} f2)
        ∗ ((T d : Thread nD τ).loc main_v11 ↦{fullShare} f11) ∗ ((T d : Thread nD τ).loc main_v20 ↦{fullShare} f20)
        ∗ ((T d : Thread nD τ).loc main_v29 ↦{fullShare} f29) ∗ ((T d : Thread nD τ).loc main_v31_0 ↦{fullShare} g0)
        ∗ ((T d : Thread nD τ).loc main_v31_1 ↦{fullShare} g1)
        ∗ (iprop(boundary (T d : Thread nD τ) ∗ (K (F := F)).tcSt (EH (F := F)) d 1
            ∗ ((T d : Thread nD τ).loc main_v30_1 ↦{fullShare} f1) ∗ ((T d : Thread nD τ).loc main_v30_2 ↦{fullShare} f2)
            ∗ ((T d : Thread nD τ).loc main_v11 ↦{fullShare} f11) ∗ ((T d : Thread nD τ).loc main_v20 ↦{fullShare} f20)
            ∗ ((T d : Thread nD τ).loc main_v29 ↦{fullShare} f29) ∗ (∃ g, (T d : Thread nD τ).loc main_v31_0 ↦{fullShare} g)
            ∗ (∃ g, (T d : Thread nD τ).loc main_v31_1 ↦{fullShare} g)) -∗ Φ ⟨⟩))
      ⊢ wp frame (wpE ((K (F := F)).defs (D (F := F))) 𝒱 (T d) none) Set.univ
          (Prog.lift (.customCall (SparseCore.inner (Pipeline.entry 0)) ())) Φ := by
  obtain ⟨R, hR⟩ := tcSt_owes (F := F) d
  have hpre : ((reg (mkArr f1 f2 f11 f20 f29 g0 g1)).pre d : sProp 𝕄)
      = iprop((rdats (mkArr f1 f2 f11 f20 f29 g0 g1) 0 d).arrays (rdats (mkArr f1 f2 f11 f20 f29 g0 g1) 0 d).A ∗ owesB (F := F) d) := rfl
  have hpost : ((reg (mkArr f1 f2 f11 f20 f29 g0 g1)).post d : sProp 𝕄)
      = iprop((rdats (mkArr f1 f2 f11 f20 f29 g0 g1) 0 d).arraysAt cfg1.N ∗ owesB (F := F) d) := rfl
  rw [hR]
  unfold G_region
  show _ ⊢ wp frame (wpE ((K (F := F)).defs (D (F := F))) 𝒱 (T d) none) Set.univ
      (SparseCore.liftProg (Prog.op (.customCall (Pipeline.entry 0) ()) Prog.ret)) Φ
  iintro ⟨#Hctx, Hbd, ⟨HO, HR⟩, ⟨Hg, Ht⟩, H1, H2, H11, H20, H29, G0, G1, Hk⟩
  ihave Hla := (SparseCore.Cfg.ctx_levAts κ) $$ Hctx
  iapply (SparseCore.Cfg.wp_liftProg (K (F := F)) (D (F := F)) 𝒱 (T d) Set.univ none _ Φ)
  ihave Harr := (Entails.of_eq (arrays7 f1 f2 f11 f20 f29 g0 g1 d).symm) $$ [H1 H2 H11 H20 H29 G0 G1]
  · isplitl [H1]; · iexact H1
    isplitl [H2]; · iexact H2
    isplitl [H11]; · iexact H11
    isplitl [H20]; · iexact H20
    isplitl [H29]; · iexact H29
    isplitl [G0]; · iexact G0
    iexact G1
  iapply (Pipeline.RDat.RegionSeg.wp (pcfgs (F := F)) adm (rdats (mkArr f1 f2 f11 f20 f29 g0 g1)) none cellOf_inj (EP (F := F)) defs₀ 𝒱₀
      (K (F := F)).L (K (F := F)).lev (reg (mkArr f1 f2 f11 f20 f29 g0 g1)) d none (fun u h => nomatch h) (fun x => Prog.ret x) Φ)
  isplitl [Hk HR]
  · iintro ⟨Hbd, Hpost⟩
    ihave Hpost' := (Entails.of_eq hpost) $$ Hpost
    icases Hpost' with ⟨Ha, HO⟩
    ihave Ha' := (arraysAt7 f1 f2 f11 f20 f29 g0 g1 d) $$ Ha
    icases Ha' with ⟨H1, H2, H11, H20, H29, G0, G1⟩
    sl_step
    iapply Hk
    isplitl [Hbd]; · iexact Hbd
    isplitl [HO HR]; · isplitl [HO] <;> iassumption
    isplitl [H1]; · iexact H1
    isplitl [H2]; · iexact H2
    isplitl [H11]; · iexact H11
    isplitl [H20]; · iexact H20
    isplitl [H29]; · iexact H29
    isplitl [G0]; · iexact G0
    iexact G1
  isplitl [Hbd]; · iexact Hbd
  isplitl [Harr HO]
  · iapply (Entails.of_eq hpre.symm)
    isplitl [Harr] <;> iassumption
  isplitl [Hla]; · iexact Hla
  isplitl [Hg] <;> iassumption

end Arrays

end Cert.Proof.KI

end
-- ==== Proof.Main.lean ====
/-
  @main on the TensorCore, as the launch theorem's obligation: the forty host operations run over all the unscoped
  arrays; of those the rest of the program needs seventeen, held one by one from then on. The first call takes the
  regrouped input, the pair-product array and the two partial-sum arrays and brings the three written ones back whole;
  the region takes the partial sums and the three per-slot vectors and brings the scale and offset vectors; two
  reshapes; the second call takes the pair-product array, the scale and the offset and the result array and brings the
  result back whole; the last reshape. The four argument arrays are written by nothing and are what the run leaves the
  claim.
-/
import proofs.«210137_g30502857736458_cont_9to1_2222_4_alg».proof.Proof.Common
import proofs.«210137_g30502857736458_cont_9to1_2222_4_alg».proof.Proof.Deal
import proofs.«210137_g30502857736458_cont_9to1_2222_4_alg».proof.Proof.Ops
import proofs.«210137_g30502857736458_cont_9to1_2222_4_alg».proof.Proof.Region

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
open Idealize.ShloMosaic.StableHlo (held held_split held_sub_split held_congr held_sdiff_result wp_hlo_within wp_seq after launchContents)

variable [FloatOps F] [∀ e, Nonempty (Elt F e)]
variable (m : (ℓ : Loc nD τ sig) → Buf (Elt F) ℓ) (ρ : Dev nD → PrngReg)

abbrev r (b : Ref sig .tc) : DevRef τ sig := Proc.devRef .tc b

/-- The TensorCore's unscoped arrays. -/
def HB : Finset (DevRef τ sig) :=
  (Finset.univ.filter fun b : Ref sig .tc => ¬ b.isScoped).map ⟨Proc.devRef (sig := sig) (.tc : Proc τ), Proc.devRef_injective _⟩

omit [FloatOps F] [∀ e, Nonempty (Elt F e)] in
theorem unscoped_held (d : Dev nD) :
    (unscopedBufs d (fun b => m ((SparseCore.T d).loc b)) : sProp 𝕄) = held (T d) HB (launchContents m d) := by
  unfold unscopedBufs held HB; rw [bigSep_map]; rfl

/-- The arrays the rest of the program uses after the host operations. -/
def NEED : Finset (DevRef τ sig) :=
  {r main_arg0, r main_arg1, r main_arg2, r main_arg3, r main_v2, r main_v30_0, r main_v30_1, r main_v30_2, r main_v11, r main_v20, r main_v29,
    r main_v31_0, r main_v31_1, r main_v32, r main_v33, r main_v34, r main_v35}

theorem NEED_sub : NEED ⊆ HB := by decide
theorem ops0_sub : ∀ op ∈ ops0 (F := F), op.bufs ⊆ HB := by
  intro _ h; (repeat (cases h with | head => (first | (rw [StableHlo.nullary_bufs]; decide) | (rw [StableHlo.unary_bufs]; decide) | (rw [StableHlo.binary_bufs]; decide) | (rw [StableHlo.ternary_bufs]; decide) | (rw [StableHlo.reshape_bufs]; decide)) | tail _ h => ?_)); exact nomatch h
theorem ops0_fresh : ∀ op ∈ ops0 (F := F), op.fresh = ∅ := by
  intro _ h; (repeat (cases h with | head => rfl | tail _ h => ?_)); exact nomatch h

theorem held_NEED (d : Dev nD) (V : Valuation τ sig (Elt F)) :
    (held (T d) NEED V : sProp 𝕄) = iprop(((SparseCore.T d).loc main_arg0 ↦{fullShare} V (r main_arg0))
      ∗ ((SparseCore.T d).loc main_arg1 ↦{fullShare} V (r main_arg1))
      ∗ ((SparseCore.T d).loc main_arg2 ↦{fullShare} V (r main_arg2))
      ∗ ((SparseCore.T d).loc main_arg3 ↦{fullShare} V (r main_arg3))
      ∗ ((SparseCore.T d).loc main_v2 ↦{fullShare} V (r main_v2))
      ∗ ((SparseCore.T d).loc main_v30_0 ↦{fullShare} V (r main_v30_0))
      ∗ ((SparseCore.T d).loc main_v30_1 ↦{fullShare} V (r main_v30_1))
      ∗ ((SparseCore.T d).loc main_v30_2 ↦{fullShare} V (r main_v30_2))
      ∗ ((SparseCore.T d).loc main_v11 ↦{fullShare} V (r main_v11))
      ∗ ((SparseCore.T d).loc main_v20 ↦{fullShare} V (r main_v20))
      ∗ ((SparseCore.T d).loc main_v29 ↦{fullShare} V (r main_v29))
      ∗ ((SparseCore.T d).loc main_v31_0 ↦{fullShare} V (r main_v31_0))
      ∗ ((SparseCore.T d).loc main_v31_1 ↦{fullShare} V (r main_v31_1))
      ∗ ((SparseCore.T d).loc main_v32 ↦{fullShare} V (r main_v32))
      ∗ ((SparseCore.T d).loc main_v33 ↦{fullShare} V (r main_v33))
      ∗ ((SparseCore.T d).loc main_v34 ↦{fullShare} V (r main_v34))
      ∗ ((SparseCore.T d).loc main_v35 ↦{fullShare} V (r main_v35))) := by
  unfold held NEED
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The buffers' contents when the first call is reached. -/
abbrev V1 (d : Dev nD) : Valuation τ sig (Elt F) := after (ops0 (F := F)) (launchContents m d)

theorem V1_arg0 (d : Dev nD) : after (ops0 (F := F)) (launchContents m d) (r main_arg0) = m ((SparseCore.T d).loc main_arg0) := StableHlo.after_of_forall_not_mem _ _ (by
  intro _ h; (repeat (cases h with | head => (first | (rw [StableHlo.nullary_writes]; decide) | (rw [StableHlo.unary_writes]; decide) | (rw [StableHlo.binary_writes]; decide) | (rw [StableHlo.ternary_writes]; decide) | (rw [StableHlo.reshape_writes]; decide)) | tail _ h => ?_)); exact nomatch h)
theorem V1_arg1 (d : Dev nD) : after (ops0 (F := F)) (launchContents m d) (r main_arg1) = m ((SparseCore.T d).loc main_arg1) := StableHlo.after_of_forall_not_mem _ _ (by
  intro _ h; (repeat (cases h with | head => (first | (rw [StableHlo.nullary_writes]; decide) | (rw [StableHlo.unary_writes]; decide) | (rw [StableHlo.binary_writes]; decide) | (rw [StableHlo.ternary_writes]; decide) | (rw [StableHlo.reshape_writes]; decide)) | tail _ h => ?_)); exact nomatch h)
theorem V1_arg2 (d : Dev nD) : after (ops0 (F := F)) (launchContents m d) (r main_arg2) = m ((SparseCore.T d).loc main_arg2) := StableHlo.after_of_forall_not_mem _ _ (by
  intro _ h; (repeat (cases h with | head => (first | (rw [StableHlo.nullary_writes]; decide) | (rw [StableHlo.unary_writes]; decide) | (rw [StableHlo.binary_writes]; decide) | (rw [StableHlo.ternary_writes]; decide) | (rw [StableHlo.reshape_writes]; decide)) | tail _ h => ?_)); exact nomatch h)
theorem V1_arg3 (d : Dev nD) : after (ops0 (F := F)) (launchContents m d) (r main_arg3) = m ((SparseCore.T d).loc main_arg3) := StableHlo.after_of_forall_not_mem _ _ (by
  intro _ h; (repeat (cases h with | head => (first | (rw [StableHlo.nullary_writes]; decide) | (rw [StableHlo.unary_writes]; decide) | (rw [StableHlo.binary_writes]; decide) | (rw [StableHlo.ternary_writes]; decide) | (rw [StableHlo.reshape_writes]; decide)) | tail _ h => ?_)); exact nomatch h)

/-- What @main leaves the claim: the four argument arrays at their launch contents. -/
abbrev FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3)))

/-- A stretch of host operations over two arrays, held whole: afterwards both are held whole again, at whatever they hold. -/
theorem wp_seq_two {Λ : Labels} {defs : Defs nD τ sig (Elt F) Λ} (d : Dev nD) (x y : Ref sig .tc) (hxy : r x ≠ r y) (ops : List (HloOp τ sig (Elt F)))
    (hS : ∀ op ∈ ops, op.bufs ⊆ {r x, r y}) (hf : ∀ op ∈ ops, op.fresh = ∅)
    (fx : x.ty.Contents (Elt F)) (fy : y.ty.Contents (Elt F)) {β : Type} (k : PUnit → Prog (TpuEff nD τ sig (Elt F) Λ .tc) β) (Q : β → sProp 𝕄) :
    iprop(boundary (T d) ∗ ((SparseCore.T d).loc x ↦{fullShare} fx) ∗ ((SparseCore.T d).loc y ↦{fullShare} fy)
        ∗ ((boundary (T d) ∗ (∃ f, (SparseCore.T d).loc x ↦{fullShare} f) ∗ (∃ f, (SparseCore.T d).loc y ↦{fullShare} f))
            -∗ wp frame (wpE defs 𝒱 (SparseCore.T d) none) Set.univ (k ⟨⟩) Q))
      ⊢ wp frame (wpE defs 𝒱 (SparseCore.T d) none) Set.univ (StableHlo.seq ops >>= k) Q := by
  let V : Valuation τ sig (Elt F) := Function.update (Function.update (fun _ => Classical.choice inferInstance) (r x) fx) (r y) fy
  have hVy : V (r y) = fy := Function.update_self _ _ _
  have hVx : V (r x) = fx := (Function.update_of_ne hxy _ _).trans (Function.update_self _ _ _)
  have hh : ∀ W : Valuation τ sig (Elt F), (held (T d) {r x, r y} W : sProp 𝕄)
      = iprop(((SparseCore.T d).loc x ↦{fullShare} W (r x)) ∗ ((SparseCore.T d).loc y ↦{fullShare} W (r y))) := by
    intro W; unfold held
    rw [SparseCore.bigSep_insert' (by simpa using hxy), bigSep_singleton]
  iintro ⟨Hb, Hx, Hy, Hk⟩
  iapply (wp_seq 𝒱 none Set.univ d {r x, r y} k ops hS hf V) $$ [Hb Hx Hy]
  · isplitl [Hb]; · iexact Hb
    rw [hh, hVx, hVy]
    isplitl [Hx]; · iexact Hx
    iexact Hy
  iintro ⟨Hb, Hh⟩
  ihave Hh' := (Entails.of_eq (hh _)) $$ Hh
  icases Hh' with ⟨Hx, Hy⟩
  iapply Hk
  isplitl [Hb]; · iexact Hb
  isplitl [Hx]; · iexists _; iexact Hx
  iexists _; iexact Hy

set_option maxHeartbeats 4000000 in
/-- @main on the TensorCore: the host operations, the first call (the regrouped input as read shares, the three arrays it
    writes row by row), the region, the two reshapes, the second call, the last reshape; the four arguments are kept. -/
theorem hmain (κ : GSem nD τ sig → ℕ) (d : Dev nD) :
    iprop((K (F := F)).ctx EH (P (F := F)) κ ∗ (K (F := F)).tcSt EH d 0 ∗ (K (F := F)).tcRes m ρ d ∗ G_region (F := F) d)
      ⊢ wp frame (wpE ((K (F := F)).defs (D (F := F))) 𝒱 (SparseCore.T d) none) Set.univ (main d)
          fun _ => iprop((K (F := F)).tcSt EH d 2 ∗ FIN m d) := by
  have e1 : (held (SparseCore.T d) HB (after (ops0 (F := F)) (launchContents m d)) : sProp 𝕄)
      = iprop((((SparseCore.T d).loc main_arg0 ↦{fullShare} m ((SparseCore.T d).loc main_arg0))
        ∗ ((SparseCore.T d).loc main_arg1 ↦{fullShare} m ((SparseCore.T d).loc main_arg1))
        ∗ ((SparseCore.T d).loc main_arg2 ↦{fullShare} m ((SparseCore.T d).loc main_arg2))
        ∗ ((SparseCore.T d).loc main_arg3 ↦{fullShare} m ((SparseCore.T d).loc main_arg3))
        ∗ ((SparseCore.T d).loc main_v2 ↦{fullShare} after (ops0 (F := F)) (launchContents m d) (r main_v2))
        ∗ ((SparseCore.T d).loc main_v30_0 ↦{fullShare} after (ops0 (F := F)) (launchContents m d) (r main_v30_0))
        ∗ ((SparseCore.T d).loc main_v30_1 ↦{fullShare} after (ops0 (F := F)) (launchContents m d) (r main_v30_1))
        ∗ ((SparseCore.T d).loc main_v30_2 ↦{fullShare} after (ops0 (F := F)) (launchContents m d) (r main_v30_2))
        ∗ ((SparseCore.T d).loc main_v11 ↦{fullShare} after (ops0 (F := F)) (launchContents m d) (r main_v11))
        ∗ ((SparseCore.T d).loc main_v20 ↦{fullShare} after (ops0 (F := F)) (launchContents m d) (r main_v20))
        ∗ ((SparseCore.T d).loc main_v29 ↦{fullShare} after (ops0 (F := F)) (launchContents m d) (r main_v29))
        ∗ ((SparseCore.T d).loc main_v31_0 ↦{fullShare} after (ops0 (F := F)) (launchContents m d) (r main_v31_0))
        ∗ ((SparseCore.T d).loc main_v31_1 ↦{fullShare} after (ops0 (F := F)) (launchContents m d) (r main_v31_1))
        ∗ ((SparseCore.T d).loc main_v32 ↦{fullShare} after (ops0 (F := F)) (launchContents m d) (r main_v32))
        ∗ ((SparseCore.T d).loc main_v33 ↦{fullShare} after (ops0 (F := F)) (launchContents m d) (r main_v33))
        ∗ ((SparseCore.T d).loc main_v34 ↦{fullShare} after (ops0 (F := F)) (launchContents m d) (r main_v34))
        ∗ ((SparseCore.T d).loc main_v35 ↦{fullShare} after (ops0 (F := F)) (launchContents m d) (r main_v35)))
        ∗ held (SparseCore.T d) (HB \ NEED) (after (ops0 (F := F)) (launchContents m d))) := by
    rw [held_sub_split (T d) NEED_sub, held_NEED, V1_arg0, V1_arg1, V1_arg2, V1_arg3]
  unfold SparseCore.Cfg.tcRes
  rw [unscoped_held, main_eq]
  iintro ⟨#Hctx, Hst, ⟨Hb, Hheld, Hsems, -⟩, HG⟩
  iapply (wp_seq 𝒱 none Set.univ d HB _ (ops0 (F := F)) ops0_sub ops0_fresh (launchContents m d)) $$ [Hb Hheld]
  · isplitl [Hb]; · iexact Hb
    iexact Hheld
  iintro ⟨Hb, Hheld⟩
  ihave Hheld' := (Entails.of_eq e1) $$ Hheld
  icases Hheld' with ⟨⟨Ha0, Ha1, Ha2, Ha3, Hxg, Hit, Hs1, Hs2, H11, H20, H29, H310, H311, H32, H33, H34, H35⟩, -⟩
  rw [wp_bind]
  iapply ((K (F := F)).wp_run (D (F := F)) 𝒱 (EH := EH) (P := P (F := F)) κ d 0) $$ [Hst Hxg Hit Hs1 Hs2 Hb Ha0 Ha1 Ha2 Ha3 H11 H20 H29 H310 H311 H32 H33 H34 H35 HG]
  isplitr; · iexact Hctx
  isplitl [Hst]; · iexact Hst
  isplitl [Hxg Hit Hs1 Hs2]
  · iapply (st0_intro d _ _ _ _)
    isplitl [Hxg]; · iexact Hxg
    isplitl [Hit]; · iexact Hit
    isplitl [Hs1]; · iexact Hs1
    iexact Hs2
  iintro ⟨Hst, Hdn⟩
  ihave Hdn' := (dn0_elim d) $$ Hdn
  icases Hdn' with ⟨⟨%fi, Hit⟩, ⟨%f1, Hs1⟩, ⟨%f2, Hs2⟩⟩

  -- the TensorCore region: the two partial-sum arrays and the three per-slot vectors in, the scale and offset vectors out
  rw [wp_bind]
  iapply (wp_region f1 f2 _ _ _ _ _ κ d _) $$ [Hb Hst HG Hs1 Hs2 H11 H20 H29 H310 H311 Hit Ha0 Ha1 Ha2 Ha3 H32 H33 H34 H35]
  isplitr; · iexact Hctx
  isplitl [Hb]; · iexact Hb
  isplitl [Hst]; · iexact Hst
  isplitl [HG]; · iexact HG
  isplitl [Hs1]; · iexact Hs1
  isplitl [Hs2]; · iexact Hs2
  isplitl [H11]; · iexact H11
  isplitl [H20]; · iexact H20
  isplitl [H29]; · iexact H29
  isplitl [H310]; · iexact H310
  isplitl [H311]; · iexact H311
  iintro ⟨Hb, Hst, -, -, -, -, -, ⟨%g0, H310⟩, ⟨%g1, H311⟩⟩
  -- the two reshapes
  rw [show (StableHlo.seq (ops1 (F := F)) >>= fun _ => (K (F := F)).run d 1 >>= fun _ => StableHlo.seq (ops2 (F := F)))
      = (StableHlo.seq [(ops1 (F := F))[0]] >>= fun _ => StableHlo.seq [(ops1 (F := F))[1]] >>= fun _ => (K (F := F)).run d 1 >>= fun _ => StableHlo.seq (ops2 (F := F))) from rfl]
  iapply (wp_seq_two d main_v31_0 main_v32 (by decide) _ (by intro _ h; cases h with | head => exact fun _ hh => hh | tail _ h => exact nomatch h)
      (by intro _ h; cases h with | head => rfl | tail _ h => exact nomatch h) g0 _) $$ [Hb H310 H32 Hst H311 H33 Hit H34 H35 Ha0 Ha1 Ha2 Ha3]
  isplitl [Hb]; · iexact Hb
  isplitl [H310]; · iexact H310
  isplitl [H32]; · iexact H32
  iintro ⟨Hb, -, ⟨%fa, H32⟩⟩
  iapply (wp_seq_two d main_v31_1 main_v33 (by decide) _ (by intro _ h; cases h with | head => exact fun _ hh => hh | tail _ h => exact nomatch h)
      (by intro _ h; cases h with | head => rfl | tail _ h => exact nomatch h) g1 _) $$ [Hb H311 H33 Hst H32 Hit H34 H35 Ha0 Ha1 Ha2 Ha3]
  isplitl [Hb]; · iexact Hb
  isplitl [H311]; · iexact H311
  isplitl [H33]; · iexact H33
  iintro ⟨Hb, -, ⟨%fc, H33⟩⟩
  -- the second call
  rw [wp_bind]
  iapply ((K (F := F)).wp_run (D (F := F)) 𝒱 (EH := EH) (P := P (F := F)) κ d 1) $$ [Hst Hit H32 H33 H34 Hb H35 Ha0 Ha1 Ha2 Ha3]
  isplitr; · iexact Hctx
  isplitl [Hst]; · iexact Hst
  isplitl [Hit H32 H33 H34]
  · iapply (st1_intro d _ _ _ _)
    isplitl [Hit]; · iexact Hit
    isplitl [H32]; · iexact H32
    isplitl [H33]; · iexact H33
    iexact H34
  iintro ⟨Hst, Hdn⟩
  ihave Hdn' := (dn1_elim d) $$ Hdn
  icases Hdn' with ⟨%fo, H34⟩
  -- the last reshape
  rw [show StableHlo.seq (ops2 (F := F)) = (StableHlo.seq (ops2 (F := F)) >>= fun u => Pure.pure u) from (bind_pure _).symm]
  iapply (wp_seq_two d main_v34 main_v35 (by decide) _ (by intro _ h; cases h with | head => exact fun _ hh => hh | tail _ h => exact nomatch h)
      (by intro _ h; cases h with | head => rfl | tail _ h => exact nomatch h) fo _) $$ [Hb H34 H35 Hst Ha0 Ha1 Ha2 Ha3]
  isplitl [Hb]; · iexact Hb
  isplitl [H34]; · iexact H34
  isplitl [H35]; · iexact H35
  iintro -
  rw [wp_pure]; imodintro
  isplitl [Hst]; · iexact Hst
  isplitl [Ha0]; · iexact Ha0
  isplitl [Ha1]; · iexact Ha1
  isplitl [Ha2]; · iexact Ha2
  iexact Ha3

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
  ∧ s'.mem.mem ((SparseCore.T d).loc main_arg2) = m ((SparseCore.T d).loc main_arg2) ∧ s'.mem.mem ((SparseCore.T d).loc main_arg3) = m ((SparseCore.T d).loc main_arg3)

set_option maxRecDepth 16384 in
theorem hfin (d : Dev nD) (s' : Phys nD τ sig (Elt F)) : iprop(FIN m d ∗ SI s') ⊢ (⌜fq m d s'⌝ : sProp 𝕄) := by
  iintro ⟨⟨H0, H1, H2, H3⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (SI_pointsTo_agree (st := s') (ℓ := (SparseCore.T d).loc main_arg3) (I := Finset.univ) (q := fullShare) (f := m ((SparseCore.T d).loc main_arg3))) $$ [HSI H3]
  · isplitl [HSI] <;> iassumption
  icases H with %h3
  ipureintro
  exact ⟨funext fun i => h0 i (Finset.mem_univ i), funext fun i => h1 i (Finset.mem_univ i), funext fun i => h2 i (Finset.mem_univ i), funext fun i => h3 i (Finset.mem_univ i)⟩

end Cert.Proof.KI

end
-- ==== Proof.Body0a.lean ====
import proofs.«210137_g30502857736458_cont_9to1_2222_4_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The subcore's thread, its scratch buffers -/

/-- Vector subcore `(L 0, L 1)` of device `d`. -/
abbrev thr0 (d : Dev nD) (L : grid0.Coords) : Thread nD τ := V d ((L 0).castLE hcore0) ((L 1).castLE hsub0)

/-- The five scratch buffers: a staged input row, a staged row of pair products, the two running sums, one pair
    block's accumulators. -/
abbrev sc0 : Memref sig .scVector .vmem S26624 .f32 := Memref.whole cc0_scratch0
abbrev sc1 : Memref sig .scVector .vmem S13312 .f32 := Memref.whole cc0_scratch1
abbrev sc2 : Memref sig .scVector .vmem S13312 .f32 := Memref.whole cc0_scratch2
abbrev sc3 : Memref sig .scVector .vmem S13312 .f32 := Memref.whole cc0_scratch3
abbrev sc4 : Memref sig .scVector .vmem S512 .f32 := Memref.whole cc0_scratch4

variable [FloatOps F]

/-- A scratch buffer whole, at whatever it holds. -/
abbrev any0 (d : Dev nD) (L : grid0.Coords) : sProp 𝕄 := iprop(∃ f, (sc0).view.loc (thr0 d L) ↦{fullShare} f)
abbrev any1 (d : Dev nD) (L : grid0.Coords) : sProp 𝕄 := iprop(∃ f, (sc1).view.loc (thr0 d L) ↦{fullShare} f)
abbrev any2 (d : Dev nD) (L : grid0.Coords) : sProp 𝕄 := iprop(∃ f, (sc2).view.loc (thr0 d L) ↦{fullShare} f)
abbrev any3 (d : Dev nD) (L : grid0.Coords) : sProp 𝕄 := iprop(∃ f, (sc3).view.loc (thr0 d L) ↦{fullShare} f)
abbrev any4 (d : Dev nD) (L : grid0.Coords) : sProp 𝕄 := iprop(∃ f, (sc4).view.loc (thr0 d L) ↦{fullShare} f)

/-- What the zeroing loop touches: the two running sums. -/
def I23 (d : Dev nD) (L : grid0.Coords) : sProp 𝕄 := iprop(any2 (F := F) d L ∗ any3 (F := F) d L)
/-- What a pair block's accumulation loops touch: the staged input row (read) and the block's accumulators. -/
def I04 (d : Dev nD) (L : grid0.Coords) : sProp 𝕄 := iprop(any0 (F := F) d L ∗ any4 (F := F) d L)
/-- What a pair block's write-back loops touch: the accumulators (read), the staged row and the two running sums. -/
def I1234 (d : Dev nD) (L : grid0.Coords) : sProp 𝕄 :=
  iprop(any1 (F := F) d L ∗ any2 (F := F) d L ∗ any3 (F := F) d L ∗ any4 (F := F) d L)
/-- All five scratch buffers, whole, each at whatever it holds. -/
def I5 (d : Dev nD) (L : grid0.Coords) : sProp 𝕄 :=
  iprop(any0 (F := F) d L ∗ any1 (F := F) d L ∗ any2 (F := F) d L ∗ any3 (F := F) d L ∗ any4 (F := F) d L)

/-! ## One trip of each innermost loop -/

/-- One trip of the zeroing loop: a load and a store of sixteen words on each running sum. -/
theorem step_t1 (d : Dev nD) (L : grid0.Coords)  (k : Fin k0_t1_loop.trips) (acc : BitVec 32) :
    I23 (F := F) d L ⊢ wp frame (wpE (defs₀ (F := F)) 𝒱₀ (thr0 d L) none) Set.univ
      (k0_t1_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3  k acc)
      fun _ => I23 (F := F) d L := by
  unfold I23 k0_t1_body
  iintro ⟨⟨%f2, H2⟩, ⟨%f3, H3⟩⟩
  sl_exec
  sl_step
  isplitl [H2]
  · iexists _; iexact H2
  · iexists _; iexact H3

/-- One trip of the first sixteen-field block's main accumulation loop: sixteen loads of the staged row, a load and a store of the accumulators. -/
theorem step_t4 (d : Dev nD) (L : grid0.Coords) (k0_t3 : Fin k0_t3_loop.trips) (arg13 : BitVec 32) (v17 : FVec F S16 .f32) (v24 : FVec F S16 .f32) (v31 : FVec F S16 .f32) (v38 : FVec F S16 .f32) (v45 : FVec F S16 .f32) (v52 : FVec F S16 .f32) (v59 : FVec F S16 .f32) (v66 : FVec F S16 .f32) (v73 : FVec F S16 .f32) (v80 : FVec F S16 .f32) (v87 : FVec F S16 .f32) (v94 : FVec F S16 .f32) (v101 : FVec F S16 .f32) (v108 : FVec F S16 .f32) (v115 : FVec F S16 .f32) (v122 : FVec F S16 .f32) (c0_i32_62 : BitVec 32) (c0_i32_63 : BitVec 32) (v123 : BitVec 32) (k : Fin (k0_t4_loop k0_t3).trips) (acc : BitVec 32) :
    I04 (F := F) d L ⊢ wp frame (wpE (defs₀ (F := F)) 𝒱₀ (thr0 d L) none) Set.univ
      (k0_t4_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 arg13 v17 v24 v31 v38 v45 v52 v59 v66 v73 v80 v87 v94 v101 v108 v115 v122 c0_i32_62 c0_i32_63 v123 k acc)
      fun _ => I04 (F := F) d L := by
  unfold I04 k0_t4_body
  iintro ⟨⟨%f0, H0⟩, ⟨%f4, H4⟩⟩
  sl_exec
  sl_step
  isplitl [H0]
  · iexists _; iexact H0
  · iexists _; iexact H4

/-- One trip of its remainder loop. -/
theorem step_t5 (d : Dev nD) (L : grid0.Coords) (k0_t3 : Fin k0_t3_loop.trips) (arg13 : BitVec 32) (v17 : FVec F S16 .f32) (v24 : FVec F S16 .f32) (v31 : FVec F S16 .f32) (v38 : FVec F S16 .f32) (v45 : FVec F S16 .f32) (v52 : FVec F S16 .f32) (v59 : FVec F S16 .f32) (v66 : FVec F S16 .f32) (v73 : FVec F S16 .f32) (v80 : FVec F S16 .f32) (v87 : FVec F S16 .f32) (v94 : FVec F S16 .f32) (v101 : FVec F S16 .f32) (v108 : FVec F S16 .f32) (v115 : FVec F S16 .f32) (v122 : FVec F S16 .f32) (c0_i32_62 : BitVec 32) (c0_i32_63 : BitVec 32) (v123 : BitVec 32) (v127 : BitVec 32) (k : Fin (k0_t5_loop k0_t3).trips) (acc : BitVec 32) :
    I04 (F := F) d L ⊢ wp frame (wpE (defs₀ (F := F)) 𝒱₀ (thr0 d L) none) Set.univ
      (k0_t5_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 arg13 v17 v24 v31 v38 v45 v52 v59 v66 v73 v80 v87 v94 v101 v108 v115 v122 c0_i32_62 c0_i32_63 v123 v127 k acc)
      fun _ => I04 (F := F) d L := by
  unfold I04 k0_t5_body
  iintro ⟨⟨%f0, H0⟩, ⟨%f4, H4⟩⟩
  sl_exec
  sl_step
  isplitl [H0]
  · iexists _; iexact H0
  · iexists _; iexact H4

/-- One trip of the second block's main accumulation loop. -/
theorem step_t6 (d : Dev nD) (L : grid0.Coords) (k0_t3 : Fin k0_t3_loop.trips) (arg13 : BitVec 32) (v136 : FVec F S16 .f32) (v143 : FVec F S16 .f32) (v150 : FVec F S16 .f32) (v157 : FVec F S16 .f32) (v164 : FVec F S16 .f32) (v171 : FVec F S16 .f32) (v178 : FVec F S16 .f32) (v185 : FVec F S16 .f32) (v192 : FVec F S16 .f32) (v199 : FVec F S16 .f32) (v206 : FVec F S16 .f32) (v213 : FVec F S16 .f32) (v220 : FVec F S16 .f32) (v227 : FVec F S16 .f32) (v234 : FVec F S16 .f32) (v237 : BitVec 32) (v240 : Vec F S16 .f32) (k : Fin (k0_t6_loop k0_t3).trips) (acc : BitVec 32) :
    I04 (F := F) d L ⊢ wp frame (wpE (defs₀ (F := F)) 𝒱₀ (thr0 d L) none) Set.univ
      (k0_t6_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 arg13 v136 v143 v150 v157 v164 v171 v178 v185 v192 v199 v206 v213 v220 v227 v234 v237 v240 k acc)
      fun _ => I04 (F := F) d L := by
  unfold I04 k0_t6_body
  iintro ⟨⟨%f0, H0⟩, ⟨%f4, H4⟩⟩
  sl_exec
  sl_step
  isplitl [H0]
  · iexists _; iexact H0
  · iexists _; iexact H4

/-- One trip of its remainder loop. -/
theorem step_t7 (d : Dev nD) (L : grid0.Coords) (k0_t3 : Fin k0_t3_loop.trips) (arg13 : BitVec 32) (v136 : FVec F S16 .f32) (v143 : FVec F S16 .f32) (v150 : FVec F S16 .f32) (v157 : FVec F S16 .f32) (v164 : FVec F S16 .f32) (v171 : FVec F S16 .f32) (v178 : FVec F S16 .f32) (v185 : FVec F S16 .f32) (v192 : FVec F S16 .f32) (v199 : FVec F S16 .f32) (v206 : FVec F S16 .f32) (v213 : FVec F S16 .f32) (v220 : FVec F S16 .f32) (v227 : FVec F S16 .f32) (v234 : FVec F S16 .f32) (v237 : BitVec 32) (v240 : Vec F S16 .f32) (v246 : BitVec 32) (k : Fin (k0_t7_loop k0_t3).trips) (acc : BitVec 32) :
    I04 (F := F) d L ⊢ wp frame (wpE (defs₀ (F := F)) 𝒱₀ (thr0 d L) none) Set.univ
      (k0_t7_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 arg13 v136 v143 v150 v157 v164 v171 v178 v185 v192 v199 v206 v213 v220 v227 v234 v237 v240 v246 k acc)
      fun _ => I04 (F := F) d L := by
  unfold I04 k0_t7_body
  iintro ⟨⟨%f0, H0⟩, ⟨%f4, H4⟩⟩
  sl_exec
  sl_step
  isplitl [H0]
  · iexists _; iexact H0
  · iexists _; iexact H4

/-- One trip of the third block's main accumulation loop. -/
theorem step_t8 (d : Dev nD) (L : grid0.Coords) (k0_t3 : Fin k0_t3_loop.trips) (arg13 : BitVec 32) (v255 : FVec F S16 .f32) (v262 : FVec F S16 .f32) (v269 : FVec F S16 .f32) (v276 : FVec F S16 .f32) (v283 : FVec F S16 .f32) (v290 : FVec F S16 .f32) (v297 : FVec F S16 .f32) (v304 : FVec F S16 .f32) (v311 : FVec F S16 .f32) (v318 : FVec F S16 .f32) (v325 : FVec F S16 .f32) (v332 : FVec F S16 .f32) (v339 : FVec F S16 .f32) (v346 : FVec F S16 .f32) (v352 : Vec F S16 .f32) (v359 : Vec F S16 .f32) (k : Fin (k0_t8_loop k0_t3).trips) (acc : BitVec 32) :
    I04 (F := F) d L ⊢ wp frame (wpE (defs₀ (F := F)) 𝒱₀ (thr0 d L) none) Set.univ
      (k0_t8_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 arg13 v255 v262 v269 v276 v283 v290 v297 v304 v311 v318 v325 v332 v339 v346 v352 v359 k acc)
      fun _ => I04 (F := F) d L := by
  unfold I04 k0_t8_body
  iintro ⟨⟨%f0, H0⟩, ⟨%f4, H4⟩⟩
  sl_exec
  sl_step
  isplitl [H0]
  · iexists _; iexact H0
  · iexists _; iexact H4

/-- One trip of its remainder loop. -/
theorem step_t9 (d : Dev nD) (L : grid0.Coords) (k0_t3 : Fin k0_t3_loop.trips) (arg13 : BitVec 32) (v255 : FVec F S16 .f32) (v262 : FVec F S16 .f32) (v269 : FVec F S16 .f32) (v276 : FVec F S16 .f32) (v283 : FVec F S16 .f32) (v290 : FVec F S16 .f32) (v297 : FVec F S16 .f32) (v304 : FVec F S16 .f32) (v311 : FVec F S16 .f32) (v318 : FVec F S16 .f32) (v325 : FVec F S16 .f32) (v332 : FVec F S16 .f32) (v339 : FVec F S16 .f32) (v346 : FVec F S16 .f32) (v352 : Vec F S16 .f32) (v359 : Vec F S16 .f32) (v365 : BitVec 32) (k : Fin (k0_t9_loop k0_t3).trips) (acc : BitVec 32) :
    I04 (F := F) d L ⊢ wp frame (wpE (defs₀ (F := F)) 𝒱₀ (thr0 d L) none) Set.univ
      (k0_t9_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 arg13 v255 v262 v269 v276 v283 v290 v297 v304 v311 v318 v325 v332 v339 v346 v352 v359 v365 k acc)
      fun _ => I04 (F := F) d L := by
  unfold I04 k0_t9_body
  iintro ⟨⟨%f0, H0⟩, ⟨%f4, H4⟩⟩
  sl_exec
  sl_step
  isplitl [H0]
  · iexists _; iexact H0
  · iexists _; iexact H4

/-- One trip of the fourth block's main accumulation loop. -/
theorem step_t10 (d : Dev nD) (L : grid0.Coords) (k0_t3 : Fin k0_t3_loop.trips) (v374 : FVec F S16 .f32) (v381 : FVec F S16 .f32) (v388 : FVec F S16 .f32) (v395 : FVec F S16 .f32) (v402 : FVec F S16 .f32) (v409 : FVec F S16 .f32) (v416 : FVec F S16 .f32) (v423 : FVec F S16 .f32) (v430 : FVec F S16 .f32) (v437 : FVec F S16 .f32) (v444 : FVec F S16 .f32) (v451 : FVec F S16 .f32) (v458 : FVec F S16 .f32) (v465 : FVec F S16 .f32) (v471 : Vec F S16 .f32) (v478 : Vec F S16 .f32) (k : Fin (k0_t10_loop k0_t3).trips) (acc : BitVec 32) :
    I04 (F := F) d L ⊢ wp frame (wpE (defs₀ (F := F)) 𝒱₀ (thr0 d L) none) Set.univ
      (k0_t10_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 v374 v381 v388 v395 v402 v409 v416 v423 v430 v437 v444 v451 v458 v465 v471 v478 k acc)
      fun _ => I04 (F := F) d L := by
  unfold I04 k0_t10_body
  iintro ⟨⟨%f0, H0⟩, ⟨%f4, H4⟩⟩
  sl_exec
  sl_step
  isplitl [H0]
  · iexists _; iexact H0
  · iexists _; iexact H4

/-- One trip of its remainder loop. -/
theorem step_t11 (d : Dev nD) (L : grid0.Coords) (k0_t3 : Fin k0_t3_loop.trips) (v374 : FVec F S16 .f32) (v381 : FVec F S16 .f32) (v388 : FVec F S16 .f32) (v395 : FVec F S16 .f32) (v402 : FVec F S16 .f32) (v409 : FVec F S16 .f32) (v416 : FVec F S16 .f32) (v423 : FVec F S16 .f32) (v430 : FVec F S16 .f32) (v437 : FVec F S16 .f32) (v444 : FVec F S16 .f32) (v451 : FVec F S16 .f32) (v458 : FVec F S16 .f32) (v465 : FVec F S16 .f32) (v471 : Vec F S16 .f32) (v478 : Vec F S16 .f32) (v484 : BitVec 32) (k : Fin (k0_t11_loop k0_t3).trips) (acc : BitVec 32) :
    I04 (F := F) d L ⊢ wp frame (wpE (defs₀ (F := F)) 𝒱₀ (thr0 d L) none) Set.univ
      (k0_t11_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 v374 v381 v388 v395 v402 v409 v416 v423 v430 v437 v444 v451 v458 v465 v471 v478 v484 k acc)
      fun _ => I04 (F := F) d L := by
  unfold I04 k0_t11_body
  iintro ⟨⟨%f0, H0⟩, ⟨%f4, H4⟩⟩
  sl_exec
  sl_step
  isplitl [H0]
  · iexists _; iexact H0
  · iexists _; iexact H4

/-- One trip of the write-back's main loop: the accumulators read, the staged row and the two running sums loaded and stored. -/
theorem step_t12 (d : Dev nD) (L : grid0.Coords) (k0_t3 : Fin k0_t3_loop.trips) (k : Fin (k0_t12_loop k0_t3).trips) (acc : BitVec 32) :
    I1234 (F := F) d L ⊢ wp frame (wpE (defs₀ (F := F)) 𝒱₀ (thr0 d L) none) Set.univ
      (k0_t12_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 k acc)
      fun _ => I1234 (F := F) d L := by
  unfold I1234 k0_t12_body
  iintro ⟨⟨%f1, H1⟩, ⟨%f2, H2⟩, ⟨%f3, H3⟩, ⟨%f4, H4⟩⟩
  sl_exec
  sl_step
  isplitl [H1]; · iexists _; iexact H1
  isplitl [H2]; · iexists _; iexact H2
  isplitl [H3]; · iexists _; iexact H3
  iexists _; iexact H4

/-- One trip of its remainder loop. -/
theorem step_t13 (d : Dev nD) (L : grid0.Coords) (k0_t3 : Fin k0_t3_loop.trips) (k : Fin (k0_t13_loop k0_t3).trips) (acc : BitVec 32) :
    I1234 (F := F) d L ⊢ wp frame (wpE (defs₀ (F := F)) 𝒱₀ (thr0 d L) none) Set.univ
      (k0_t13_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 k acc)
      fun _ => I1234 (F := F) d L := by
  unfold I1234 k0_t13_body
  iintro ⟨⟨%f1, H1⟩, ⟨%f2, H2⟩, ⟨%f3, H3⟩, ⟨%f4, H4⟩⟩
  sl_exec
  sl_step
  isplitl [H1]; · iexists _; iexact H1
  isplitl [H2]; · iexists _; iexact H2
  isplitl [H3]; · iexists _; iexact H3
  iexists _; iexact H4

end Cert.Proof.KI

end
-- ==== Proof.Body0b.lean ====
import proofs.«210137_g30502857736458_cont_9to1_2222_4_alg».proof.Proof.Body0a

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

set_option maxHeartbeats 4000000 in
/-- One trip of the pair-block loop: the staged row's loads, four pairs of accumulation loops, the write-back's pair. -/
theorem step_t3 (d : Dev nD) (L : grid0.Coords) (k : Fin k0_t3_loop.trips) (acc : BitVec 32) :
    I5 (F := F) d L ⊢ wp frame (wpE (defs₀ (F := F)) 𝒱₀ (thr0 d L) none) Set.univ
      (k0_t3_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k acc)
      fun _ => I5 (F := F) d L := by
  unfold I5 k0_t3_body
  iintro ⟨⟨%f0, H0⟩, ⟨%f1, H1⟩, ⟨%f2, H2⟩, ⟨%f3, H3⟩, ⟨%f4, H4⟩⟩
  sl_exec
  sl_for (fun _ _ => I04 (F := F) d L) $$ [H0 H4]
  case region => intro k' acc'; exact step_t4 (F := F) d L _ _ _ _ _ _ _ _ _ _ _ _ _ _ _ _ _ _ _ _ _ k' acc'
  · unfold I04
    isplitl [H0]
    · iexists _; iexact H0
    · iexists _; iexact H4
  iintro %a4 HI
  unfold I04
  icases HI with ⟨⟨%g0_4, H0⟩, ⟨%g4_4, H4⟩⟩
  sl_exec
  sl_for (fun _ _ => I04 (F := F) d L) $$ [H0 H4]
  case region => intro k' acc'; exact step_t5 (F := F) d L _ _ _ _ _ _ _ _ _ _ _ _ _ _ _ _ _ _ _ _ _ _ k' acc'
  · unfold I04
    isplitl [H0]
    · iexists _; iexact H0
    · iexists _; iexact H4
  iintro %a5 HI
  unfold I04
  icases HI with ⟨⟨%g0_5, H0⟩, ⟨%g4_5, H4⟩⟩
  sl_exec
  sl_for (fun _ _ => I04 (F := F) d L) $$ [H0 H4]
  case region => intro k' acc'; exact step_t6 (F := F) d L _ _ _ _ _ _ _ _ _ _ _ _ _ _ _ _ _ _ _ k' acc'
  · unfold I04
    isplitl [H0]
    · iexists _; iexact H0
    · iexists _; iexact H4
  iintro %a6 HI
  unfold I04
  icases HI with ⟨⟨%g0_6, H0⟩, ⟨%g4_6, H4⟩⟩
  sl_exec
  sl_for (fun _ _ => I04 (F := F) d L) $$ [H0 H4]
  case region => intro k' acc'; exact step_t7 (F := F) d L _ _ _ _ _ _ _ _ _ _ _ _ _ _ _ _ _ _ _ _ k' acc'
  · unfold I04
    isplitl [H0]
    · iexists _; iexact H0
    · iexists _; iexact H4
  iintro %a7 HI
  unfold I04
  icases HI with ⟨⟨%g0_7, H0⟩, ⟨%g4_7, H4⟩⟩
  sl_exec
  sl_for (fun _ _ => I04 (F := F) d L) $$ [H0 H4]
  case region => intro k' acc'; exact step_t8 (F := F) d L _ _ _ _ _ _ _ _ _ _ _ _ _ _ _ _ _ _ k' acc'
  · unfold I04
    isplitl [H0]
    · iexists _; iexact H0
    · iexists _; iexact H4
  iintro %a8 HI
  unfold I04
  icases HI with ⟨⟨%g0_8, H0⟩, ⟨%g4_8, H4⟩⟩
  sl_exec
  sl_for (fun _ _ => I04 (F := F) d L) $$ [H0 H4]
  case region => intro k' acc'; exact step_t9 (F := F) d L _ _ _ _ _ _ _ _ _ _ _ _ _ _ _ _ _ _ _ k' acc'
  · unfold I04
    isplitl [H0]
    · iexists _; iexact H0
    · iexists _; iexact H4
  iintro %a9 HI
  unfold I04
  icases HI with ⟨⟨%g0_9, H0⟩, ⟨%g4_9, H4⟩⟩
  sl_exec
  sl_for (fun _ _ => I04 (F := F) d L) $$ [H0 H4]
  case region => intro k' acc'; exact step_t10 (F := F) d L _ _ _ _ _ _ _ _ _ _ _ _ _ _ _ _ _ k' acc'
  · unfold I04
    isplitl [H0]
    · iexists _; iexact H0
    · iexists _; iexact H4
  iintro %a10 HI
  unfold I04
  icases HI with ⟨⟨%g0_10, H0⟩, ⟨%g4_10, H4⟩⟩
  sl_exec
  sl_for (fun _ _ => I04 (F := F) d L) $$ [H0 H4]
  case region => intro k' acc'; exact step_t11 (F := F) d L _ _ _ _ _ _ _ _ _ _ _ _ _ _ _ _ _ _ k' acc'
  · unfold I04
    isplitl [H0]
    · iexists _; iexact H0
    · iexists _; iexact H4
  iintro %a11 HI
  unfold I04
  icases HI with ⟨⟨%g0_11, H0⟩, ⟨%g4_11, H4⟩⟩
  sl_exec
  sl_for (fun _ _ => I1234 (F := F) d L) $$ [H1 H2 H3 H4]
  case region => intro k' acc'; exact step_t12 (F := F) d L _ k' acc'
  · unfold I1234
    isplitl [H1]; · iexists _; iexact H1
    isplitl [H2]; · iexists _; iexact H2
    isplitl [H3]; · iexists _; iexact H3
    iexists _; iexact H4
  iintro %a12 HI
  unfold I1234
  icases HI with ⟨⟨%g1_12, H1⟩, ⟨%g2_12, H2⟩, ⟨%g3_12, H3⟩, ⟨%g4_12, H4⟩⟩
  sl_exec
  sl_for (fun _ _ => I1234 (F := F) d L) $$ [H1 H2 H3 H4]
  case region => intro k' acc'; exact step_t13 (F := F) d L _ k' acc'
  · unfold I1234
    isplitl [H1]; · iexists _; iexact H1
    isplitl [H2]; · iexists _; iexact H2
    isplitl [H3]; · iexists _; iexact H3
    iexists _; iexact H4
  iintro %a13 HI
  unfold I1234
  icases HI with ⟨⟨%g1_13, H1⟩, ⟨%g2_13, H2⟩, ⟨%g3_13, H3⟩, ⟨%g4_13, H4⟩⟩
  sl_exec
  sl_step
  isplitl [H0]; · iexists _; iexact H0
  isplitl [H1]; · iexists _; iexact H1
  isplitl [H2]; · iexists _; iexact H2
  isplitl [H3]; · iexists _; iexact H3
  iexists _; iexact H4

end Cert.Proof.KI

end
-- ==== Proof.Body0c.lean ====
import proofs.«210137_g30502857736458_cont_9to1_2222_4_alg».proof.Proof.Body0b

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## The subcore's own semaphores and buffers, the four transfers' cells and the five scratch buffers set apart -/

abbrev cell0 (d : Dev nD) (L : grid0.Coords) : GSem nD τ sig := (thr0 d L, .dma cc0_scoped0.sem)
abbrev cell1 (d : Dev nD) (L : grid0.Coords) : GSem nD τ sig := (thr0 d L, .dma cc0_scoped1.sem)
abbrev cell2 (d : Dev nD) (L : grid0.Coords) : GSem nD τ sig := (thr0 d L, .dma cc0_scoped2.sem)
abbrev cell3 (d : Dev nD) (L : grid0.Coords) : GSem nD τ sig := (thr0 d L, .dma cc0_scoped3.sem)

omit [FloatOps F] in
theorem cell_ne (d : Dev nD) (L : grid0.Coords) {a b : SemLoc sig} (h : a ≠ b) :
    ((thr0 d L, a) : GSem nD τ sig) ≠ (thr0 d L, b) := fun e => h (Prod.ext_iff.mp e).2

omit [FloatOps F] in
theorem ownSems0_V0 (d : Dev nD) (L : grid0.Coords) :
    (ownSems0 (thr0 d L) : sProp 𝕄)
      = iprop(semVal (cell0 d L) 0 ∗ semVal (cell1 d L) 0 ∗ semVal (cell2 d L) 0 ∗ semVal (cell3 d L) 0
          ∗ bigSep (((((ownCells (thr0 d L)).erase (cell0 d L)).erase (cell1 d L)).erase (cell2 d L)).erase (cell3 d L)) fun g => semVal g 0) := by
  unfold SparseCore.Cfg.ownSems0
  rw [SparseCore.bigSep_erase' ((mem_ownCells (g := cell0 d L)).mpr ⟨rfl, by show (SemLoc.dma cc0_scoped0.sem : SemLoc sig).isScoped .scVector = true; decide⟩),
    SparseCore.bigSep_erase' (Finset.mem_erase.mpr ⟨cell_ne d L (show (SemLoc.dma cc0_scoped1.sem : SemLoc sig) ≠ SemLoc.dma cc0_scoped0.sem by decide), (mem_ownCells (g := cell1 d L)).mpr ⟨rfl, by show (SemLoc.dma cc0_scoped1.sem : SemLoc sig).isScoped .scVector = true; decide⟩⟩),
    SparseCore.bigSep_erase' (Finset.mem_erase.mpr ⟨cell_ne d L (show (SemLoc.dma cc0_scoped2.sem : SemLoc sig) ≠ SemLoc.dma cc0_scoped1.sem by decide), Finset.mem_erase.mpr ⟨cell_ne d L (show (SemLoc.dma cc0_scoped2.sem : SemLoc sig) ≠ SemLoc.dma cc0_scoped0.sem by decide), (mem_ownCells (g := cell2 d L)).mpr ⟨rfl, by show (SemLoc.dma cc0_scoped2.sem : SemLoc sig).isScoped .scVector = true; decide⟩⟩⟩),
    SparseCore.bigSep_erase' (Finset.mem_erase.mpr ⟨cell_ne d L (show (SemLoc.dma cc0_scoped3.sem : SemLoc sig) ≠ SemLoc.dma cc0_scoped2.sem by decide), Finset.mem_erase.mpr ⟨cell_ne d L (show (SemLoc.dma cc0_scoped3.sem : SemLoc sig) ≠ SemLoc.dma cc0_scoped1.sem by decide), Finset.mem_erase.mpr ⟨cell_ne d L (show (SemLoc.dma cc0_scoped3.sem : SemLoc sig) ≠ SemLoc.dma cc0_scoped0.sem by decide), (mem_ownCells (g := cell3 d L)).mpr ⟨rfl, by show (SemLoc.dma cc0_scoped3.sem : SemLoc sig).isScoped .scVector = true; decide⟩⟩⟩⟩)]

omit [FloatOps F] in
/-- The five scratch buffers are among the subcore's own: they are them, each at some contents, and the rest. -/
theorem ownBufs_V0 (d : Dev nD) (L : grid0.Coords) :
    (ownBufs (thr0 d L) : sProp 𝕄)
      = iprop(any0 (F := F) d L ∗ any1 (F := F) d L ∗ any2 (F := F) d L ∗ any3 (F := F) d L ∗ any4 (F := F) d L
          ∗ bigSep ((((((ownRefs (τ := τ) (.scVector ((L 0).castLE hcore0) ((L 1).castLE hsub0))).erase ((Proc.scVector ((L 0).castLE hcore0) ((L 1).castLE hsub0)).devRef cc0_scratch0)).erase ((Proc.scVector ((L 0).castLE hcore0) ((L 1).castLE hsub0)).devRef cc0_scratch1)).erase ((Proc.scVector ((L 0).castLE hcore0) ((L 1).castLE hsub0)).devRef cc0_scratch2)).erase ((Proc.scVector ((L 0).castLE hcore0) ((L 1).castLE hsub0)).devRef cc0_scratch3)).erase ((Proc.scVector ((L 0).castLE hcore0) ((L 1).castLE hsub0)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := (Proc.scVector ((L 0).castLE hcore0) ((L 1).castLE hsub0))) (b := ((Proc.scVector ((L 0).castLE hcore0) ((L 1).castLE hsub0)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector ((L 0).castLE hcore0) ((L 1).castLE hsub0))) (b := ((Proc.scVector ((L 0).castLE hcore0) ((L 1).castLE hsub0)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector ((L 0).castLE hcore0) ((L 1).castLE hsub0))) (b := ((Proc.scVector ((L 0).castLE hcore0) ((L 1).castLE hsub0)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector ((L 0).castLE hcore0) ((L 1).castLE hsub0))) (b := ((Proc.scVector ((L 0).castLE hcore0) ((L 1).castLE hsub0)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector ((L 0).castLE hcore0) ((L 1).castLE hsub0))) (b := ((Proc.scVector ((L 0).castLE hcore0) ((L 1).castLE hsub0)).devRef cc0_scratch4)) rfl⟩⟩⟩⟩)]

/-! ## The group loop -/

omit [FloatOps F] in
/-- Row `8 w + g` of the pair-product array as the subcore addresses it. -/
theorem pts_itRow (d : Dev nD) (L : grid0.Coords) (g : Fin k0_t2_loop.trips) (f : Buf (Elt F) (itLoc d)) :
    ((itRowM L g).view.loc (thr0 d L) ↦[(itRowM L g).view.set]{fullShare} f : sProp 𝕄)
      = itLoc d ↦[(itRowM L g).view.set]{fullShare} f := rfl
omit [FloatOps F] in
theorem pts_s1Row (d : Dev nD) (L : grid0.Coords) (f : Buf (Elt F) (s1Loc d)) :
    ((s1RowM L).view.loc (thr0 d L) ↦[(s1RowM L).view.set]{fullShare} f : sProp 𝕄)
      = s1Loc d ↦[(s1RowM L).view.set]{fullShare} f := rfl
omit [FloatOps F] in
theorem pts_s2Row (d : Dev nD) (L : grid0.Coords) (f : Buf (Elt F) (s2Loc d)) :
    ((s2RowM L).view.loc (thr0 d L) ↦[(s2RowM L).view.set]{fullShare} f : sProp 𝕄)
      = s2Loc d ↦[(s2RowM L).view.set]{fullShare} f := rfl
omit [FloatOps F] in
theorem pts_xg (d : Dev nD) (L : grid0.Coords) (q : PosShare TreeShare) (f : Buf (Elt F) (xgLoc d)) :
    ((xgV).view.loc (thr0 d L) ↦{q} f : sProp 𝕄) = xgLoc d ↦{q} f := rfl

/-- The group loop's invariant: the waits' evidence, the five scratch buffers, the two cells its transfers use at
    zero, the read share of the regrouped input, the subcore's eight rows of the pair-product array, the waits
    recorded so far. -/
def IG (d : Dev nD) (L : grid0.Coords) (O : CellTallies nD τ sig (HIx 2)) (W : Waits sig (HIx 2)) : sProp 𝕄 :=
  iprop(Transfers.MayWaits (thr0 d L) (default : HIx 2) O
    ∗ I5 (F := F) d L
    ∗ semVal (cell0 d L) 0 ∗ semVal (cell1 d L) 0
    ∗ (∃ f, (xgV).view.loc (thr0 d L) ↦{rq (wid L)} f)
    ∗ (bigSep Finset.univ fun g : Fin k0_t2_loop.trips => itRowPts (F := F) d L g)
    ∗ ∃ W', ⌜∀ p ∈ W', p ∈ W ∨ p.2 = none⌝ ∗ owes (thr0 d L) O W')

set_option maxHeartbeats 4000000 in
/-- One trip of the group loop: the group's input row staged, the pair-block loop, the staged row of pair products
    written out to the group's row of the pair-product array (borrowed from the eight for the trip). -/
theorem step_t2 (d : Dev nD) (L : grid0.Coords) (O : CellTallies nD τ sig (HIx 2)) (W : Waits sig (HIx 2))
    (g : Fin k0_t2_loop.trips) (acc : BitVec 32) :
    IG (F := F) d L O W ⊢ wp frame (wpE (defs₀ (F := F)) 𝒱₀ (thr0 d L) none) Set.univ
      (k0_t2_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 g acc)
      fun _ => IG (F := F) d L O W := by
  unfold IG I5 k0_t2_body
  rw [SparseCore.bigSep_erase' (Finset.mem_univ g) (Φ := fun g : Fin k0_t2_loop.trips => itRowPts (F := F) d L g)]
  iintro ⟨Hmw, ⟨⟨%f0, H0⟩, ⟨%f1, H1⟩, ⟨%f2, H2⟩, ⟨%f3, H3⟩, ⟨%f4, H4⟩⟩, Hsem0, Hsem1, ⟨%fx, Hx⟩, ⟨Hr, Hrows⟩, %W', %hW', HO⟩
  unfold itRowPts
  icases Hr with ⟨%fr, Hr⟩
  ihave Hr' := (Entails.of_eq (pts_itRow (F := F) d L g _).symm) $$ Hr
  sl_exec
  sl_for (fun _ _ => I5 (F := F) d L) $$ [H0 H1 H2 H3 H4]
  case region => intro k' acc'; exact step_t3 (F := F) d L k' acc'
  · unfold I5
    isplitl [H0]; · iexists _; iexact H0
    isplitl [H1]; · iexists _; iexact H1
    isplitl [H2]; · iexists _; iexact H2
    isplitl [H3]; · iexists _; iexact H3
    iexists _; iexact H4
  iintro %a3 HI
  unfold I5
  icases HI with ⟨⟨%g0, H0⟩, ⟨%g1, H1⟩, ⟨%g2, H2⟩, ⟨%g3, H3⟩, ⟨%g4, H4⟩⟩
  sl_exec
  sl_step
  isplitl [Hmw]; · iexact Hmw
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  isplitl [Hsem0]; · iexact Hsem0
  isplitl [Hsem1]; · iexact Hsem1
  isplitl [Hx]; · iexists _; iexact Hx
  isplitl [Hr' Hrows]
  · isplitl [Hr']
    · iexists _; iapply (Entails.of_eq (pts_itRow (F := F) d L g _)); iexact Hr'
    · iexact Hrows
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Cert.Proof.KI

end
-- ==== Proof.Body0.lean ====
import proofs.«210137_g30502857736458_cont_9to1_2222_4_alg».proof.Proof.Body0c

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## The task -/

set_option maxHeartbeats 4000000 in
/-- The first call's task on vector subcore `(L 0, L 1)` of device `d`: the two running sums zeroed, the eight groups,
    the running sums written out to the subcore's row of each partial-sum array. Ownership only: what it was handed it
    hands back, each piece at whatever it then holds. -/
theorem tile_body0 (d : Dev nD) (L : grid0.Coords) (hF : (K (F := F)).Facts) (O : CellTallies nD τ sig (HIx 2)) (W : Waits sig (HIx 2)) (hO : ∀ g, O g none = 0) :
    iprop(levAts (K (F := F)).L (K (F := F)).lev ∗ emp ∗ G0 d L
        ∗ scopedBufs (V d ((L 0).castLE hcore0) ((L 1).castLE hsub0)) ∗ scopedSems0 (V d ((L 0).castLE hcore0) ((L 1).castLE hsub0)) ∗ owes (V d ((L 0).castLE hcore0) ((L 1).castLE hsub0)) O W)
      ⊢ wp frame (wpE (defs₀ (F := F)) 𝒱₀ (V d ((L 0).castLE hcore0) ((L 1).castLE hsub0)) none) Set.univ
          (cc0__sc_moments_body L xgV (Memref.isWhole_whole _) itV (Memref.isWhole_whole _) s1V (Memref.isWhole_whole _) s2V (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scoped0 cc0_scoped1 cc0_scoped2 cc0_scoped3)
          fun _ => iprop(G0 d L ∗ scopedBufs (V d ((L 0).castLE hcore0) ((L 1).castLE hsub0)) ∗ scopedSems0 (V d ((L 0).castLE hcore0) ((L 1).castLE hsub0))
            ∗ ∃ W', ⌜∀ p ∈ W', p ∈ W ∨ p.2 = none⌝ ∗ owes (V d ((L 0).castLE hcore0) ((L 1).castLE hsub0)) O W') := by
  simp only [cc0__sc_moments_body_eq_skeleton]; unfold cc0__sc_moments_body_skel
  rw [(K (F := F)).scopedBufs_V hF d _ _, SparseCore.Cfg.scopedSems0_V (Val := Elt F) d _ _, ownSems0_V0, ownBufs_V0]
  unfold G0 xgSh s1RowPts s2RowPts
  iintro ⟨#Hlv, -, ⟨⟨%fx, Hx⟩, Hrows, ⟨%fs1, Hs1⟩, ⟨%fs2, Hs2⟩⟩, ⟨⟨%f0, H0⟩, ⟨%f1, H1⟩, ⟨%f2, H2⟩, ⟨%f3, H3⟩, ⟨%f4, H4⟩, Hbufs⟩, ⟨Hsem0, Hsem1, Hsem2, Hsem3, Hsems⟩, HO⟩
  ihave Hmw := (show levAts (K (F := F)).L (K (F := F)).lev ⊢ Transfers.MayWaits (thr0 d L) (default : HIx 2) O from
    (K (F := F)).mayWaits_none (thr := thr0 d L) hO) $$ Hlv
  ihave Hx' := (Entails.of_eq (pts_xg (F := F) d L _ _).symm) $$ Hx
  ihave Hs1' := (Entails.of_eq (pts_s1Row (F := F) d L _).symm) $$ Hs1
  ihave Hs2' := (Entails.of_eq (pts_s2Row (F := F) d L _).symm) $$ Hs2
  -- the zeroing loop
  sl_for (fun _ _ => I23 (F := F) d L) $$ [H2 H3]
  case region => intro k' acc'; exact step_t1 (F := F) d L k' acc'
  · unfold I23
    isplitl [H2]
    · iexists _; iexact H2
    · iexists _; iexact H3
  iintro %a1 HI
  unfold I23
  icases HI with ⟨⟨%g2, H2⟩, ⟨%g3, H3⟩⟩
  -- the group loop
  sl_for (fun _ _ => IG (F := F) d L O W) $$ [Hmw H0 H1 H2 H3 H4 Hsem0 Hsem1 Hx' Hrows HO]
  case region => intro k' acc'; exact step_t2 (F := F) d L O W k' acc'
  · unfold IG I5
    isplitl [Hmw]; · iexact Hmw
    isplitl [H0 H1 H2 H3 H4]
    · isplitl [H0]; · iexists _; iexact H0
      isplitl [H1]; · iexists _; iexact H1
      isplitl [H2]; · iexists _; iexact H2
      isplitl [H3]; · iexists _; iexact H3
      iexists _; iexact H4
    isplitl [Hsem0]; · iexact Hsem0
    isplitl [Hsem1]; · iexact Hsem1
    isplitl [Hx']; · iexists _; iexact Hx'
    isplitl [Hrows]; · iexact Hrows
    iexists W; isplitr
    · ipureintro; exact fun p hp => .inl hp
    · iexact HO
  iintro %a2 HI
  unfold IG I5
  icases HI with ⟨Hmw, ⟨⟨%h0, H0⟩, ⟨%h1, H1⟩, ⟨%h2, H2⟩, ⟨%h3, H3⟩, ⟨%h4, H4⟩⟩, Hsem0, Hsem1, ⟨%fx', Hx'⟩, Hrows, %W', %hW', HO⟩
  -- the two running sums written out
  sl_exec
  sl_step
  isplitl [Hx' Hrows Hs1' Hs2']
  · isplitl [Hx']; · iexists _; iapply (Entails.of_eq (pts_xg (F := F) d L _ _)); iexact Hx'
    isplitl [Hrows]; · iexact Hrows
    isplitl [Hs1']; · iexists _; iapply (Entails.of_eq (pts_s1Row (F := F) d L _)); iexact Hs1'
    iexists _; iapply (Entails.of_eq (pts_s2Row (F := F) d L _)); iexact Hs2'
  isplitl [H0 H1 H2 H3 H4 Hbufs]
  · isplitl [H0]; · iexists _; iexact H0
    isplitl [H1]; · iexists _; iexact H1
    isplitl [H2]; · iexists _; iexact H2
    isplitl [H3]; · iexists _; iexact H3
    isplitl [H4]; · iexists _; iexact H4
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-! ## The obligation -/

theorem defs₀_vector0 (c : Fin τ.nSC) (s : Fin τ.nSub) :
    defs₀ (F := F) (.scVector c s) 0 ()
      = SparseCore.onTile hcore0 hsub0 (fun c s => cc0__sc_moments_body (coordsV c s)
          xgV (Memref.isWhole_whole _) itV (Memref.isWhole_whole _) s1V (Memref.isWhole_whole _) s2V (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) cc0_scoped0 cc0_scoped1 cc0_scoped2 cc0_scoped3) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch theorem's obligation for the first call: every vector subcore's task, at its coordinates. -/
theorem tileObl0 (hF : (K (F := F)).Facts) : (K (F := F)).TileObl (D (F := F)) 𝒱 (P (F := F)) v₀ 0 := by
  intro d c i O W hO _ _
  simp only [show (P (F := F)).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 d (coordsV ⟨_, hci.1⟩ ⟨_, hci.2⟩) hF O W hO).trans (wp_mono frame _ _ fun _ => obl_post)

end Cert.Proof.KI

end
-- ==== Proof.Body2.lean ====
/-
  The second vector-subcore call's task on one subcore, as ownership only.

  Subcore (c, s) of a device, worker w = 2 s + c, copies the whole scale vector and the whole offset vector into
  two of its scratch buffers, then for each of its eight groups g copies row 8 w + g of the pair-product array into a
  third scratch buffer, accumulates over it into a fourth (sixteen words), and copies those sixteen words out to
  segment 8 w + g of the result. Every copy is waited for before the next memory operation, on a semaphore of the
  subcore's own. What the subcore is handed (read shares of the three arrays it reads, its eight segments of the
  result) it hands back, the segments at whatever the copies left in them; its scratch buffers and semaphores
  likewise, the semaphores back at zero.
-/
import proofs.«210137_g30502857736458_cont_9to1_2222_4_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

namespace B2

/-! ## The subcore's thread, scratch buffers and semaphores -/

/-- The SparseCore and the vector subcore the coordinates name. -/
abbrev cW (L : grid2.Coords) : Fin τ.nSC := (L 0).castLE hcore2
abbrev jW (L : grid2.Coords) : Fin τ.nSub := (L 1).castLE hsub2

/-- The four scratch buffers as the task addresses them: the row of the pair-product array, the scale vector, the
    offset vector, the accumulator. -/
abbrev z0 : Memref sig .scVector .vmem S13312 .f32 := Memref.whole cc2_scratch0
abbrev z1 : Memref sig .scVector .vmem S13312 .f32 := Memref.whole cc2_scratch1
abbrev z2 : Memref sig .scVector .vmem S16 .f32 := Memref.whole cc2_scratch2
abbrev z3 : Memref sig .scVector .vmem S16 .f32 := Memref.whole cc2_scratch3

abbrev cell0 (d : Dev nD) (L : grid2.Coords) : GSem nD τ sig := (V d (cW L) (jW L), .dma cc2_scoped0.sem)
abbrev cell1 (d : Dev nD) (L : grid2.Coords) : GSem nD τ sig := (V d (cW L) (jW L), .dma cc2_scoped1.sem)
abbrev cell2 (d : Dev nD) (L : grid2.Coords) : GSem nD τ sig := (V d (cW L) (jW L), .dma cc2_scoped2.sem)
abbrev cell3 (d : Dev nD) (L : grid2.Coords) : GSem nD τ sig := (V d (cW L) (jW L), .dma cc2_scoped3.sem)

variable (d : Dev nD) (L : grid2.Coords)

local notation "𝕋" => V d (cW L) (jW L)

omit [FloatOps F] in
/-- The subcore's four copy semaphores are among its own cells: they are them, at zero, and the rest. -/
theorem ownSems0_V2 :
    (ownSems0 𝕋 : sProp 𝕄)
      = iprop(semVal (cell0 d L) 0 ∗ semVal (cell1 d L) 0 ∗ semVal (cell2 d L) 0 ∗ semVal (cell3 d L) 0
          ∗ bigSep (((((ownCells 𝕋).erase (cell0 d L)).erase (cell1 d L)).erase (cell2 d L)).erase (cell3 d L)) fun g => semVal g 0) := by
  unfold SparseCore.Cfg.ownSems0
  have h0 : cell0 d L ∈ ownCells 𝕋 := (mem_ownCells (g := cell0 d L)).mpr ⟨rfl, by
    show (SemLoc.dma cc2_scoped0.sem : SemLoc sig).isScoped .scVector = true; decide⟩
  have h1 : cell1 d L ∈ ownCells 𝕋 := (mem_ownCells (g := cell1 d L)).mpr ⟨rfl, by
    show (SemLoc.dma cc2_scoped1.sem : SemLoc sig).isScoped .scVector = true; decide⟩
  have h2 : cell2 d L ∈ ownCells 𝕋 := (mem_ownCells (g := cell2 d L)).mpr ⟨rfl, by
    show (SemLoc.dma cc2_scoped2.sem : SemLoc sig).isScoped .scVector = true; decide⟩
  have h3 : cell3 d L ∈ ownCells 𝕋 := (mem_ownCells (g := cell3 d L)).mpr ⟨rfl, by
    show (SemLoc.dma cc2_scoped3.sem : SemLoc sig).isScoped .scVector = true; decide⟩
  have n10 : cell1 d L ≠ cell0 d L := fun e => absurd (congrArg Prod.snd e) (show (SemLoc.dma cc2_scoped1.sem : SemLoc sig) ≠ .dma cc2_scoped0.sem by decide)
  have n20 : cell2 d L ≠ cell0 d L := fun e => absurd (congrArg Prod.snd e) (show (SemLoc.dma cc2_scoped2.sem : SemLoc sig) ≠ .dma cc2_scoped0.sem by decide)
  have n21 : cell2 d L ≠ cell1 d L := fun e => absurd (congrArg Prod.snd e) (show (SemLoc.dma cc2_scoped2.sem : SemLoc sig) ≠ .dma cc2_scoped1.sem by decide)
  have n30 : cell3 d L ≠ cell0 d L := fun e => absurd (congrArg Prod.snd e) (show (SemLoc.dma cc2_scoped3.sem : SemLoc sig) ≠ .dma cc2_scoped0.sem by decide)
  have n31 : cell3 d L ≠ cell1 d L := fun e => absurd (congrArg Prod.snd e) (show (SemLoc.dma cc2_scoped3.sem : SemLoc sig) ≠ .dma cc2_scoped1.sem by decide)
  have n32 : cell3 d L ≠ cell2 d L := fun e => absurd (congrArg Prod.snd e) (show (SemLoc.dma cc2_scoped3.sem : SemLoc sig) ≠ .dma cc2_scoped2.sem by decide)
  rw [SparseCore.bigSep_erase' h0,
    SparseCore.bigSep_erase' (Finset.mem_erase.mpr ⟨n10, h1⟩),
    SparseCore.bigSep_erase' (Finset.mem_erase.mpr ⟨n21, Finset.mem_erase.mpr ⟨n20, h2⟩⟩),
    SparseCore.bigSep_erase' (Finset.mem_erase.mpr ⟨n32, Finset.mem_erase.mpr ⟨n31, Finset.mem_erase.mpr ⟨n30, h3⟩⟩⟩)]

omit [FloatOps F] in
/-- The four scratch buffers are among the subcore's own: they are them, each at some contents, and the rest. -/
theorem ownBufs_V2 :
    (ownBufs 𝕋 : sProp 𝕄)
      = iprop((∃ f, (V d (cW L) (jW L)).loc cc2_scratch0 ↦{fullShare} f) ∗ (∃ f, (V d (cW L) (jW L)).loc cc2_scratch1 ↦{fullShare} f)
          ∗ (∃ f, (V d (cW L) (jW L)).loc cc2_scratch2 ↦{fullShare} f) ∗ (∃ f, (V d (cW L) (jW L)).loc cc2_scratch3 ↦{fullShare} f)
          ∗ bigSep (((((ownRefs (τ := τ) (.scVector (cW L) (jW L))).erase ((Proc.scVector (cW L) (jW L)).devRef cc2_scratch0)).erase
              ((Proc.scVector (cW L) (jW L)).devRef cc2_scratch1)).erase ((Proc.scVector (cW L) (jW L)).devRef cc2_scratch2)).erase
              ((Proc.scVector (cW L) (jW L)).devRef cc2_scratch3))
              fun b => iprop(∃ f, ((d, b) : Loc nD τ sig) ↦{fullShare} f)) := by
  unfold SparseCore.Cfg.ownBufs
  have h0 := SparseCore.Cfg.mem_ownRefs_of_owner (p := Proc.scVector (cW L) (jW L)) (b := (Proc.scVector (cW L) (jW L)).devRef cc2_scratch0) rfl
  have h1 := SparseCore.Cfg.mem_ownRefs_of_owner (p := Proc.scVector (cW L) (jW L)) (b := (Proc.scVector (cW L) (jW L)).devRef cc2_scratch1) rfl
  have h2 := SparseCore.Cfg.mem_ownRefs_of_owner (p := Proc.scVector (cW L) (jW L)) (b := (Proc.scVector (cW L) (jW L)).devRef cc2_scratch2) rfl
  have h3 := SparseCore.Cfg.mem_ownRefs_of_owner (p := Proc.scVector (cW L) (jW L)) (b := (Proc.scVector (cW L) (jW L)).devRef cc2_scratch3) rfl
  have n10 : (Proc.scVector (cW L) (jW L)).devRef cc2_scratch1 ≠ (Proc.scVector (cW L) (jW L)).devRef cc2_scratch0 :=
    fun e => absurd (Proc.devRef_injective _ e) (show (cc2_scratch1 : Ref sig .scVector) ≠ cc2_scratch0 by decide)
  have n20 : (Proc.scVector (cW L) (jW L)).devRef cc2_scratch2 ≠ (Proc.scVector (cW L) (jW L)).devRef cc2_scratch0 :=
    fun e => absurd (Proc.devRef_injective _ e) (show (cc2_scratch2 : Ref sig .scVector) ≠ cc2_scratch0 by decide)
  have n21 : (Proc.scVector (cW L) (jW L)).devRef cc2_scratch2 ≠ (Proc.scVector (cW L) (jW L)).devRef cc2_scratch1 :=
    fun e => absurd (Proc.devRef_injective _ e) (show (cc2_scratch2 : Ref sig .scVector) ≠ cc2_scratch1 by decide)
  have n30 : (Proc.scVector (cW L) (jW L)).devRef cc2_scratch3 ≠ (Proc.scVector (cW L) (jW L)).devRef cc2_scratch0 :=
    fun e => absurd (Proc.devRef_injective _ e) (show (cc2_scratch3 : Ref sig .scVector) ≠ cc2_scratch0 by decide)
  have n31 : (Proc.scVector (cW L) (jW L)).devRef cc2_scratch3 ≠ (Proc.scVector (cW L) (jW L)).devRef cc2_scratch1 :=
    fun e => absurd (Proc.devRef_injective _ e) (show (cc2_scratch3 : Ref sig .scVector) ≠ cc2_scratch1 by decide)
  have n32 : (Proc.scVector (cW L) (jW L)).devRef cc2_scratch3 ≠ (Proc.scVector (cW L) (jW L)).devRef cc2_scratch2 :=
    fun e => absurd (Proc.devRef_injective _ e) (show (cc2_scratch3 : Ref sig .scVector) ≠ cc2_scratch2 by decide)
  refine (SparseCore.bigSep_erase' h0).trans ?_
  rw [SparseCore.bigSep_erase' (Finset.mem_erase.mpr ⟨n10, h1⟩),
    SparseCore.bigSep_erase' (Finset.mem_erase.mpr ⟨n21, Finset.mem_erase.mpr ⟨n20, h2⟩⟩),
    SparseCore.bigSep_erase' (Finset.mem_erase.mpr ⟨n32, Finset.mem_erase.mpr ⟨n31, Finset.mem_erase.mpr ⟨n30, h3⟩⟩⟩)]

/-! ## The arrays as the subcore's memrefs address them -/

omit [FloatOps F] in
theorem pts_itV (q : PosShare TreeShare) (f : Buf (Elt F) (itLoc d)) :
    ((itV).view.loc 𝕋 ↦{q} f : sProp 𝕄) = itLoc d ↦{q} f := rfl
omit [FloatOps F] in
theorem pts_alV (q : PosShare TreeShare) (f : Buf (Elt F) (alLoc d)) :
    ((alV).view.loc 𝕋 ↦{q} f : sProp 𝕄) = alLoc d ↦{q} f := rfl
omit [FloatOps F] in
theorem pts_cvV (q : PosShare TreeShare) (f : Buf (Elt F) (cvLoc d)) :
    ((cvV).view.loc 𝕋 ↦{q} f : sProp 𝕄) = cvLoc d ↦{q} f := rfl
omit [FloatOps F] in
theorem pts_otSeg (g : Fin k2_t1_loop.trips) (f : Buf (Elt F) (otLoc d)) :
    ((otSegM L g).view.loc 𝕋 ↦[(otSegM L g).view.set]{fullShare} f : sProp 𝕄) = otLoc d ↦[(otSegM L g).view.set]{fullShare} f := rfl
omit [FloatOps F] in
theorem pts_z0 (f : Buf (Elt F) ((V d (cW L) (jW L)).loc cc2_scratch0)) :
    ((z0).view.loc 𝕋 ↦{fullShare} f : sProp 𝕄) = (V d (cW L) (jW L)).loc cc2_scratch0 ↦{fullShare} f := rfl
omit [FloatOps F] in
theorem pts_z1 (f : Buf (Elt F) ((V d (cW L) (jW L)).loc cc2_scratch1)) :
    ((z1).view.loc 𝕋 ↦{fullShare} f : sProp 𝕄) = (V d (cW L) (jW L)).loc cc2_scratch1 ↦{fullShare} f := rfl
omit [FloatOps F] in
theorem pts_z2 (f : Buf (Elt F) ((V d (cW L) (jW L)).loc cc2_scratch2)) :
    ((z2).view.loc 𝕋 ↦{fullShare} f : sProp 𝕄) = (V d (cW L) (jW L)).loc cc2_scratch2 ↦{fullShare} f := rfl
omit [FloatOps F] in
theorem pts_z3 (f : Buf (Elt F) ((V d (cW L) (jW L)).loc cc2_scratch3)) :
    ((z3).view.loc 𝕋 ↦{fullShare} f : sProp 𝕄) = (V d (cW L) (jW L)).loc cc2_scratch3 ↦{fullShare} f := rfl

/-! ## The loops' invariants -/

/-- What the accumulation loops hold, before every trip: the row buffer, the scale buffer and the accumulator, each
    at some contents. -/
def invA (_ : Nat) (_ : BitVec 32) : sProp 𝕄 :=
  iprop((∃ f, (z0).view.loc 𝕋 ↦{fullShare} f) ∗ (∃ f, (z1).view.loc 𝕋 ↦{fullShare} f) ∗ (∃ f, (z3).view.loc 𝕋 ↦{fullShare} f))

/-- What the group loop holds before every trip: the read share of the pair-product array, the four scratch buffers
    at some contents, the two semaphores its copies use at zero, the eight segments of the result at some contents,
    what the subcore owes with the waits made so far recorded, and the evidence that such waits are admissible. -/
def invG (O : CellTallies nD τ sig (HIx 2)) (W : Waits sig (HIx 2)) (_ : Nat) (_ : BitVec 32) : sProp 𝕄 :=
  iprop(Transfers.MayWaits 𝕋 (none : HIx 2) O
    ∗ (∃ f, (itV).view.loc 𝕋 ↦{rq (wid L)} f)
    ∗ (∃ f, (z0).view.loc 𝕋 ↦{fullShare} f) ∗ (∃ f, (z1).view.loc 𝕋 ↦{fullShare} f)
    ∗ (∃ f, (z2).view.loc 𝕋 ↦{fullShare} f) ∗ (∃ f, (z3).view.loc 𝕋 ↦{fullShare} f)
    ∗ semVal (cell2 d L) 0 ∗ semVal (cell3 d L) 0
    ∗ (bigSep Finset.univ fun g : Fin k2_t1_loop.trips => otSegPts d L g)
    ∗ ∃ W', ⌜∀ p ∈ W', p ∈ W ∨ p.2 = none⌝ ∗ owes 𝕋 O W')

set_option maxHeartbeats 4000000 in
/-- The task on vector subcore (L 0, L 1) of device d: the scale and offset vectors in, then per group the row in, the
    accumulation and the segment out, every copy waited for before the next memory operation; the loops by their
    invariants. -/
theorem _root_.Cert.Proof.KI.tile_body2 (hF : (K (F := F)).Facts) (O : CellTallies nD τ sig (HIx 2)) (W : Waits sig (HIx 2)) (hO : ∀ g, O g none = 0) :
    iprop(levAts (K (F := F)).L (K (F := F)).lev ∗ emp ∗ G1 d L
        ∗ scopedBufs (V d ((L 0).castLE hcore2) ((L 1).castLE hsub2)) ∗ scopedSems0 (V d ((L 0).castLE hcore2) ((L 1).castLE hsub2)) ∗ owes (V d ((L 0).castLE hcore2) ((L 1).castLE hsub2)) O W)
      ⊢ wp frame (wpE (defs₀ (F := F)) 𝒱₀ (V d ((L 0).castLE hcore2) ((L 1).castLE hsub2)) none) Set.univ
          (cc2__sc_out_body L itV (Memref.isWhole_whole _) alV (Memref.isWhole_whole _) cvV (Memref.isWhole_whole _) otV (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) cc2_scoped0 cc2_scoped1 cc2_scoped2 cc2_scoped3)
          fun _ => iprop(G1 d L ∗ scopedBufs (V d ((L 0).castLE hcore2) ((L 1).castLE hsub2)) ∗ scopedSems0 (V d ((L 0).castLE hcore2) ((L 1).castLE hsub2))
            ∗ ∃ W', ⌜∀ p ∈ W', p ∈ W ∨ p.2 = none⌝ ∗ owes (V d ((L 0).castLE hcore2) ((L 1).castLE hsub2)) O W') := by
  simp only [cc2__sc_out_body_eq_skeleton]; unfold cc2__sc_out_body_skel
  rw [(K (F := F)).scopedBufs_V hF d (cW L) (jW L), SparseCore.Cfg.scopedSems0_V (Val := Elt F) d (cW L) (jW L), ownSems0_V2, ownBufs_V2]
  unfold G1 itSh alSh cvSh
  iintro ⟨#Hlv, -, ⟨⟨%fi, Hi⟩, ⟨%fa, Ha⟩, ⟨%fc, Hc⟩, Hot⟩, ⟨⟨%f0, H0⟩, ⟨%f1, H1⟩, ⟨%f2, H2⟩, ⟨%f3, H3⟩, Hbufs⟩, ⟨Hs0, Hs1, Hs2, Hs3, Hsems⟩, HO⟩
  ihave Hmw := (show levAts (K (F := F)).L (K (F := F)).lev ⊢ Transfers.MayWaits (V d (cW L) (jW L)) (none : HIx 2) O from
    (K (F := F)).mayWaits_none (thr := V d (cW L) (jW L)) hO) $$ Hlv
  ihave Hi' := (Entails.of_eq (pts_itV (F := F) d L _ _).symm) $$ Hi
  ihave Ha' := (Entails.of_eq (pts_alV (F := F) d L _ _).symm) $$ Ha
  ihave Hc' := (Entails.of_eq (pts_cvV (F := F) d L _ _).symm) $$ Hc
  ihave H0' := (Entails.of_eq (pts_z0 (F := F) d L _).symm) $$ H0
  ihave H1' := (Entails.of_eq (pts_z1 (F := F) d L _).symm) $$ H1
  ihave H2' := (Entails.of_eq (pts_z2 (F := F) d L _).symm) $$ H2
  ihave H3' := (Entails.of_eq (pts_z3 (F := F) d L _).symm) $$ H3
  -- the scale vector and the offset vector land in their scratch buffers
  sl_exec

  sl_for (invG d L O W) $$ [Hmw Hi' H0' H1' H2' H3' Hs2 Hs3 Hot HO]
  case region =>
    -- one group: its row of the pair-product array in, the accumulation, its segment of the result out
    intro k acc
    unfold invG
    rw [SparseCore.bigSep_erase' (Finset.mem_univ k) (Φ := fun g : Fin k2_t1_loop.trips => otSegPts (F := F) d L g)]
    unfold otSegPts
    iintro ⟨#Hmw, ⟨%fi, Hi⟩, ⟨%f0, H0⟩, ⟨%f1, H1⟩, ⟨%f2, H2⟩, ⟨%f3, H3⟩, Hs2, Hs3, ⟨⟨%fo, Ho⟩, Hot⟩, %W', %hW', HO⟩
    ihave Ho' := (Entails.of_eq (pts_otSeg (F := F) d L k _).symm) $$ Ho
    sl_exec
    sl_for (invA d L) $$ [H0 H1 H3]
    case region =>
      intro k2 acc2
      unfold invA
      iintro ⟨⟨%g0, H0⟩, ⟨%g1, H1⟩, ⟨%g3, H3⟩⟩
      sl_exec
      sl_for (invA d L) $$ [H0 H1 H3]
      case region =>
        intro k3 acc3
        unfold invA
        iintro ⟨⟨%h0, H0⟩, ⟨%h1, H1⟩, ⟨%h3, H3⟩⟩
        sl_exec
        sl_step
        isplitl [H0]; · iexists _; iexact H0
        isplitl [H1]; · iexists _; iexact H1
        iexists _; iexact H3
      · unfold invA
        isplitl [H0]; · iexists _; iexact H0
        isplitl [H1]; · iexists _; iexact H1
        iexists _; iexact H3
      iintro %acc3 HI
      unfold invA
      icases HI with ⟨⟨%h0, H0⟩, ⟨%h1, H1⟩, ⟨%h3, H3⟩⟩
      sl_for (invA d L) $$ [H0 H1 H3]
      case region =>
        intro k4 acc4
        unfold invA
        iintro ⟨⟨%h0, H0⟩, ⟨%h1, H1⟩, ⟨%h3, H3⟩⟩
        sl_exec
        sl_step
        isplitl [H0]; · iexists _; iexact H0
        isplitl [H1]; · iexists _; iexact H1
        iexists _; iexact H3
      · unfold invA
        isplitl [H0]; · iexists _; iexact H0
        isplitl [H1]; · iexists _; iexact H1
        iexists _; iexact H3
      iintro %acc4 HI
      unfold invA
      icases HI with ⟨⟨%h0, H0⟩, ⟨%h1, H1⟩, ⟨%h3, H3⟩⟩
      sl_exec
      sl_step
      isplitl [H0]; · iexists _; iexact H0
      isplitl [H1]; · iexists _; iexact H1
      iexists _; iexact H3
    · unfold invA
      isplitl [H0]; · iexists _; iexact H0
      isplitl [H1]; · iexists _; iexact H1
      iexists _; iexact H3
    iintro %acc2 HI
    unfold invA
    icases HI with ⟨⟨%g0, H0⟩, ⟨%g1, H1⟩, ⟨%g3, H3⟩⟩
    sl_exec
    sl_step
    isplitl [Hmw]; · iexact Hmw
    isplitl [Hi]; · iexists _; iexact Hi
    isplitl [H0]; · iexists _; iexact H0
    isplitl [H1]; · iexists _; iexact H1
    isplitl [H2]; · iexists _; iexact H2
    isplitl [H3]; · iexists _; iexact H3
    isplitl [Hs2]; · iexact Hs2
    isplitl [Hs3]; · iexact Hs3
    isplitl [Ho' Hot]
    · isplitl [Ho']; · iexists _; iapply (Entails.of_eq (pts_otSeg (F := F) d L k _)); iexact Ho'
      iexact Hot
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · unfold invG
    isplitl [Hmw]; · iexact Hmw
    isplitl [Hi']; · iexists _; iexact Hi'
    isplitl [H0']; · iexists _; iexact H0'
    isplitl [H1']; · iexists _; iexact H1'
    isplitl [H2']; · iexists _; iexact H2'
    isplitl [H3']; · iexists _; iexact H3'
    isplitl [Hs2]; · iexact Hs2
    isplitl [Hs3]; · iexact Hs3
    isplitl [Hot]; · iexact Hot
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  iintro %acc HI
  unfold invG
  icases HI with ⟨-, ⟨%fi', Hi⟩, ⟨%g0, H0⟩, ⟨%g1, H1⟩, ⟨%g2, H2⟩, ⟨%g3, H3⟩, Hs2, Hs3, Hot, %W', %hW', HO⟩
  sl_exec
  sl_step
  isplitl [Hi Ha' Hc' Hot]
  · isplitl [Hi]; · iexists _; iapply (Entails.of_eq (pts_itV (F := F) d L _ _)); iexact Hi
    isplitl [Ha']; · iexists _; iapply (Entails.of_eq (pts_alV (F := F) d L _ _)); iexact Ha'
    isplitl [Hc']; · iexists _; iapply (Entails.of_eq (pts_cvV (F := F) d L _ _)); iexact Hc'
    iexact Hot
  isplitl [H0 H1 H2 H3 Hbufs]
  · isplitl [H0]; · iexists _; iapply (Entails.of_eq (pts_z0 (F := F) d L _)); iexact H0
    isplitl [H1]; · iexists _; iapply (Entails.of_eq (pts_z1 (F := F) d L _)); iexact H1
    isplitl [H2]; · iexists _; iapply (Entails.of_eq (pts_z2 (F := F) d L _)); iexact H2
    isplitl [H3]; · iexists _; iapply (Entails.of_eq (pts_z3 (F := F) d L _)); iexact H3
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists W'; isplitr
  · ipureintro; exact hW'
  · iexact HO

/-! ## The obligation -/

theorem defs₀_vector2 (c : Fin τ.nSC) (s : Fin τ.nSub) :
    defs₀ (F := F) (.scVector c s) 2 ()
      = SparseCore.onTile hcore2 hsub2 (fun c s => cc2__sc_out_body (coordsV c s)
          itV (Memref.isWhole_whole _) alV (Memref.isWhole_whole _) cvV (Memref.isWhole_whole _) otV (Memref.isWhole_whole _)
          (Memref.whole cc2_scratch0) (Memref.isWhole_whole _) (Memref.whole cc2_scratch1) (Memref.isWhole_whole _)
          (Memref.whole cc2_scratch2) (Memref.isWhole_whole _) (Memref.whole cc2_scratch3) (Memref.isWhole_whole _)
          cc2_scoped0 cc2_scoped1 cc2_scoped2 cc2_scoped3) ⟨⟩ c s := rfl

omit [FloatOps F] in
/-- The body's post is the obligation's: a wait recorded at no call is one recorded at no call or at this one. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end B2

open B2 in
set_option maxRecDepth 16384 in
/-- The launch theorem's obligation for the second vector-subcore call: the task on every subcore of its grid. -/
theorem tileObl1 (hF : (K (F := F)).Facts) : (K (F := F)).TileObl (D (F := F)) 𝒱 (P (F := F)) v₀ 1 := by
  intro d c i O W hO _ _
  simp only [show (P (F := F)).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector2]; simp only [SparseCore.onTile, hci, and_self, ↓reduceDIte]
  exact (tile_body2 d (coordsV ⟨_, hci.1⟩ ⟨_, hci.2⟩) hF O W hO).trans (wp_mono frame _ _ fun _ => obl_post)

end Cert.Proof.KI

end
-- ==== Proof.RegionFund.lean ====
import proofs.«210137_g30502857736458_cont_9to1_2222_4_alg».proof.Proof.Region
import proofs.«210137_g30502857736458_cont_9to1_2222_4_alg».proof.Proof.Gen.KernelIdeal.Launch
import proofs.«210137_g30502857736458_cont_9to1_2222_4_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The launch element split among its three components: the handshakes' rounds, the staging cells' rounds, the
    transfers' counters. -/
theorem ownU_split (uH : UH) (uP : UP) (uC : Counters) :
    (ownU (uH, (uP, uC)) : sProp 𝕄) ⊢ iprop(BI.own ((EH (F := F)) uH) ∗ BI.own ((EP (F := F)) uP)
        ∗ BI.own (((Emb.inr : Emb Counters (UP × Counters)).trans
            (embR (nD := nD) (τ := τ) (sig := sig) (Ix := HIx 2) (Val := Elt F) (Name := ℕ) (Lvl := ℕ) (A := UH) (B := UP × Counters))) uC)) := by
  iintro H
  ihave H' := (ownU_pair uH (uP, uC)) $$ H
  icases H' with ⟨HH, HR⟩
  ihave HR' := (own_pair_emb (embR (nD := nD) (τ := τ) (sig := sig) (Ix := HIx 2) (Val := Elt F) (Name := ℕ) (Lvl := ℕ) (A := UH) (B := UP × Counters)) uP uC) $$ HR
  icases HR' with ⟨HP, HC⟩
  isplitl [HH]; · iexact HH
  isplitl [HP]; · iexact HP
  iexact HC

end Cert.Proof.KI

end
-- ==== Proof.Launch.lean ====
/-
  The kernel program's run: the launch element (the handshakes' rounds, the region's staging cells, the transfers'
  counters), the launch theorem at the two calls' obligations, and the frame read off it.
-/
import proofs.«210137_g30502857736458_cont_9to1_2222_4_alg».proof.Proof.Common
import proofs.«210137_g30502857736458_cont_9to1_2222_4_alg».proof.Proof.Main
import proofs.«210137_g30502857736458_cont_9to1_2222_4_alg».proof.Proof.Body0
import proofs.«210137_g30502857736458_cont_9to1_2222_4_alg».proof.Proof.Body2
import proofs.«210137_g30502857736458_cont_9to1_2222_4_alg».proof.Proof.RegionFund

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] [∀ e, Nonempty (Elt F e)]
variable (m : (ℓ : Loc nD τ sig) → Buf (Elt F) ℓ) (ρ : Dev nD → PrngReg)

/-! ## The launch element -/

def u₀ : UU := (initOf (K (F := F)).hsCells (K (F := F)).hsToks, (u₀P, 1))

omit [FloatOps F] [∀ e, Nonempty (Elt F e)] in
theorem bigSep_emp' {I : Type} (s : Finset I) : (bigSep s fun _ => iprop(emp)) = (iprop(emp) : sProp 𝕄) := bigSep_emp_const s

/-- The launch element deals the handshakes' rounds, and the region's staging cells per device; the calls' kernels
    consume nothing of the launch's. -/
theorem hu₀ (Pp : (K (F := F)).Pay (nD := nD) (Val := Elt F) (Name := ℕ) (U := UU)) (hx : ∀ q thr, Pp.x q thr = iprop(emp)) :
    (ownU (u₀ (F := F)) : sProp 𝕄)
      ⊢ |={Set.univ}=> iprop(BI.own (EH (initOf (K (F := F)).hsCells (K (F := F)).hsToks)) ∗ (bigSep Finset.univ fun d : Dev nD => G_region (F := F) d)
        ∗ bigSep Finset.univ fun thr : Thread nD τ => bigSep Finset.univ fun q : Fin 2 => Pp.x q thr) := by
  unfold u₀
  iintro Hu
  ihave H := (ownU_split (F := F) _ _ _) $$ Hu
  icases H with ⟨HH, HP, -⟩
  imod (fund_region (F := F)) $$ HP with HG
  imodintro
  isplitl [HH]; · iexact HH
  isplitl [HG]; · iexact HG
  rw [show (bigSep Finset.univ fun thr : Thread nD τ => bigSep Finset.univ fun q : Fin 2 => Pp.x q thr) = bigSep Finset.univ fun _ : Thread nD τ => (iprop(emp) : sProp 𝕄) from
    bigSep_congr fun thr _ => (bigSep_congr fun q _ => hx q thr).trans (bigSep_emp' _), bigSep_emp']
  iempintro

/-! ## The program's run -/

def QC : PUnit × MemSt nD τ sig (Elt F) → Prop := fun r => ∀ c : Dev nD,
  r.2.mem ((SparseCore.T c).loc main_arg0) = m ((SparseCore.T c).loc main_arg0) ∧ r.2.mem ((SparseCore.T c).loc main_arg1) = m ((SparseCore.T c).loc main_arg1)
  ∧ r.2.mem ((SparseCore.T c).loc main_arg2) = m ((SparseCore.T c).loc main_arg2) ∧ r.2.mem ((SparseCore.T c).loc main_arg3) = m ((SparseCore.T c).loc main_arg3)

/-- Every weakly fair execution of the device's threads terminates, nothing faulting, the four arguments unchanged. -/
theorem run_main : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (F := F)) facts v₀
    (fun q hq => match q with | 0 => nomatch hq | 1 => nomatch hq)
    (fun q _ => match q with | 0 => tileObl0 facts | 1 => tileObl1 facts)
    (fun q _ => match q with | 0 => SparseCore.Cfg.VecSplit.of_plain vecSplit0 | 1 => SparseCore.Cfg.VecSplit.of_plain vecSplit1)
    m ρ main (fun d => G_region (F := F) d) (FIN m) (u₀ (F := F)) (sep_elim_left.trans (hu₀ (P (F := F)) (fun _ _ => rfl))) (hmain m ρ) (fq m) (hfin m) (QC m) (fun _ h => h)

end Cert.Proof.KI

end
-- ==== Proof.FrameI.lean ====
/-
  The idealized kernel program's frame: its run with the values dropped.
-/
import proofs.«210137_g30502857736458_cont_9to1_2222_4_alg».proof.Proof.Launch
import proofs.«210137_g30502857736458_cont_9to1_2222_4_alg».proof.Proof.Gen.Pre_finite_inputs

noncomputable section

namespace Cert.Proof.KI

open Idealize.ShloMosaic Idealize.SL.Sem

theorem frame_ki : Cert.frame_KernelIdeal := fun m ρ _ =>
  (θ_run Cert.KernelIdeal.defs _ _).mono (fun _ h c => h c) (run_main (F := Ideal) m ρ)

end Cert.Proof.KI

end
-- ==== Proof.RefOps.lean ====
/-
  The reference program's @main as one straight line of host operations. Its three calls (two of the gather helper
  and one of the variance helper, each with a nested select helper) are read as StableHLO reads a call: the callee's
  operations stand in the call's place over that call's buffers. The line has 101 operations; the library's run of
  a straight line then gives every buffer at the fold of the operations over the launch contents.
-/
import proofs.«210137_g30502857736458_cont_9to1_2222_4_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- @main's 101 operations in order, each call replaced by its callee's operations over the call's buffers. -/
abbrev ops : List (HloOp τ sig (Elt F)) :=
  [ nullary main_c (fun i => lit0 (S325.rowMajor i)),
    nullary main_c_0 (fun i => lit1 (S325.rowMajor i)),
    TRef.nullary main_call0.c (constantI S_ 32 0#32),
    TRef.unary main_call0.c main_call0.v0 (broadcastInDim S325 ![] bcast_S_S325),
    TRef.binary (TRef.of (T := ⟨S325, .i32⟩) main_c) main_call0.v0 main_call0.v1 (cmpi .slt),
    TRef.nullary main_call0.c_0 (constantI S_ 32 26#32),
    TRef.unary main_call0.c_0 main_call0.v2 (broadcastInDim S325 ![] bcast_S_S325),
    TRef.binary (TRef.of (T := ⟨S325, .i32⟩) main_c) main_call0.v2 main_call0.v3 addi,
    TRef.ternary main_call0.v1 main_call0.v3 (TRef.of (T := ⟨S325, .i32⟩) main_c) main_call0.call0.v0 select,
    TRef.unary main_call0.call0.v0 main_call0.v5 (broadcastInDim S325x1 ![0] bcast_S325_S325x1_0),
    TRef.nullary main_call0.c_1 (constantI S1 32 25#32),
    TRef.nullary main_call0.c_2 (constantI S_ 32 0#32),
    TRef.unary main_call0.c_2 main_call0.v6 (broadcastInDim S325x1 ![] bcast_S_S325x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S325x1 ![0, 1] bcast_S1x1_S325x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S325x1_S325_d1 h_S_),
    TRef.binary (TRef.of (T := ⟨S4096x26x64, .f32⟩) main_arg0) main_call0.v5 main_call0.v13 (fun x i => Host.gather gather_S4096x26x64_S325x1_S4096x325x64_02_1_n_n_1_1_4096164 x i),
    TRef.unary main_call0.v12 main_call0.v14 (broadcastInDim S4096x325x64 ![1] bcast_S325_S4096x325x64_1),
    TRef.nullary main_call0.cst (constant S_ .f32 0x7FC00000#32),
    TRef.unary main_call0.cst main_call0.v15 (broadcastInDim S4096x325x64 ![] bcast_S_S4096x325x64),
    TRef.ternary main_call0.v14 main_call0.v13 main_call0.v15 main_call0.v16 select,
    TRef.nullary main_call1.c (constantI S_ 32 0#32),
    TRef.unary main_call1.c main_call1.v0 (broadcastInDim S325 ![] bcast_S_S325),
    TRef.binary (TRef.of (T := ⟨S325, .i32⟩) main_c_0) main_call1.v0 main_call1.v1 (cmpi .slt),
    TRef.nullary main_call1.c_0 (constantI S_ 32 26#32),
    TRef.unary main_call1.c_0 main_call1.v2 (broadcastInDim S325 ![] bcast_S_S325),
    TRef.binary (TRef.of (T := ⟨S325, .i32⟩) main_c_0) main_call1.v2 main_call1.v3 addi,
    TRef.ternary main_call1.v1 main_call1.v3 (TRef.of (T := ⟨S325, .i32⟩) main_c_0) main_call1.call0.v0 select,
    TRef.unary main_call1.call0.v0 main_call1.v5 (broadcastInDim S325x1 ![0] bcast_S325_S325x1_0),
    TRef.nullary main_call1.c_1 (constantI S1 32 25#32),
    TRef.nullary main_call1.c_2 (constantI S_ 32 0#32),
    TRef.unary main_call1.c_2 main_call1.v6 (broadcastInDim S325x1 ![] bcast_S_S325x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S325x1 ![0, 1] bcast_S1x1_S325x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S325x1_S325_d1 h_S_),
    TRef.binary (TRef.of (T := ⟨S4096x26x64, .f32⟩) main_arg0) main_call1.v5 main_call1.v13 (fun x i => Host.gather gather_S4096x26x64_S325x1_S4096x325x64_02_1_n_n_1_1_4096164 x i),
    TRef.unary main_call1.v12 main_call1.v14 (broadcastInDim S4096x325x64 ![1] bcast_S325_S4096x325x64_1),
    TRef.nullary main_call1.cst (constant S_ .f32 0x7FC00000#32),
    TRef.unary main_call1.cst main_call1.v15 (broadcastInDim S4096x325x64 ![] bcast_S_S4096x325x64),
    TRef.ternary main_call1.v14 main_call1.v13 main_call1.v15 main_call1.v16 select,
    binary main_v0 main_v1 main_v2 (mulf : (⟨S4096x325x64, .f32⟩ : BufTy).Contents (Elt F) → (⟨S4096x325x64, .f32⟩ : BufTy).Contents (Elt F) → (⟨S4096x325x64, .f32⟩ : BufTy).Contents (Elt F)),
    nullary main_cst (constant S_ .f32 0x00000000#32),
    binary main_v2 main_cst main_v3 ((fun x v => Host.reduceAdd x v reducesTo_S4096x325x64_S4096x325_d2 h_S_) : (⟨S4096x325x64, .f32⟩ : BufTy).Contents (Elt F) → (⟨S_, .f32⟩ : BufTy).Contents (Elt F) → (⟨S4096x325, .f32⟩ : BufTy).Contents (Elt F)),
    nullary main_cst_1 (constant S_ .f32 0x00000000#32),
    binary main_v3 main_cst_1 main_v4 ((fun x v => Host.reduceAdd x v reducesTo_S4096x325_S325_d0 h_S_) : (⟨S4096x325, .f32⟩ : BufTy).Contents (Elt F) → (⟨S_, .f32⟩ : BufTy).Contents (Elt F) → (⟨S325, .f32⟩ : BufTy).Contents (Elt F)),
    unary main_v4 main_v5 (broadcastInDim S1x325 ![1] bcast_S325_S1x325_1 : (⟨S325, .f32⟩ : BufTy).Contents (Elt F) → (⟨S1x325, .f32⟩ : BufTy).Contents (Elt F)),
    nullary main_cst_2 (constant S_ .f32 0x45800000#32),
    unary main_cst_2 main_v6 (broadcastInDim S1x325 ![] bcast_S_S1x325 : (⟨S_, .f32⟩ : BufTy).Contents (Elt F) → (⟨S1x325, .f32⟩ : BufTy).Contents (Elt F)),
    binary main_v5 main_v6 main_v7 (Host.divf : (⟨S1x325, .f32⟩ : BufTy).Contents (Elt F) → (⟨S1x325, .f32⟩ : BufTy).Contents (Elt F) → (⟨S1x325, .f32⟩ : BufTy).Contents (Elt F)),
    nullary main_c_3 (constantI S_ 32 0#32),
    TRef.nullary main_call2.cst (constant S_ .f32 0x00000000#32),
    TRef.binary (TRef.of (T := ⟨S4096x325, .f32⟩) main_v3) main_call2.cst main_call2.v0 (fun x v => Host.reduceAdd x v reducesTo_S4096x325_S325_d0 h_S_),
    TRef.unary main_call2.v0 main_call2.v1 (broadcastInDim S1x325 ![1] bcast_S325_S1x325_1),
    TRef.nullary main_call2.cst_0 (constant S_ .f32 0x45800000#32),
    TRef.unary main_call2.cst_0 main_call2.v2 (broadcastInDim S1x325 ![] bcast_S_S1x325),
    TRef.binary main_call2.v1 main_call2.v2 main_call2.v3 Host.divf,
    TRef.unary main_call2.v3 main_call2.v4 (broadcastInDim S4096x325 ![0, 1] bcast_S1x325_S4096x325_0_1),
    TRef.binary (TRef.of (T := ⟨S4096x325, .f32⟩) main_v3) main_call2.v4 main_call2.v5 subf,
    TRef.binary main_call2.v5 main_call2.v5 main_call2.v6 mulf,
    TRef.unary (TRef.of (T := ⟨S_, .i32⟩) main_c_3) main_call2.v7 (sitofp .f32),
    TRef.nullary main_call2.cst_1 (constant S_ .f32 0x45800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S4096x325_S325_d0 h_S_),
    TRef.unary main_call2.v9 main_call2.v10 (broadcastInDim S1x325 ![1] bcast_S325_S1x325_1),
    TRef.unary main_call2.v8 main_call2.v11 (broadcastInDim S1x325 ![] bcast_S_S1x325),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S1x325 ![] bcast_S_S1x325),
    TRef.ternary main_call2.v13 main_call2.v12 main_call2.call0.v1 main_call2.call0.v2 (fun p a b => select (broadcastInDim S1x325 ![] bcast_S_S1x325 p) a b),
    unary main_v7 main_v9 (broadcastInDim S4096x325 ![0, 1] bcast_S1x325_S4096x325_0_1 : (⟨S1x325, .f32⟩ : BufTy).Contents (Elt F) → (⟨S4096x325, .f32⟩ : BufTy).Contents (Elt F)),
    binary main_v3 main_v9 main_v10 (subf : (⟨S4096x325, .f32⟩ : BufTy).Contents (Elt F) → (⟨S4096x325, .f32⟩ : BufTy).Contents (Elt F) → (⟨S4096x325, .f32⟩ : BufTy).Contents (Elt F)),
    nullary main_cst_4 (constant S_ .f32 0x3727C5AC#32),
    unary main_cst_4 main_v11 (broadcastInDim S1x325 ![] bcast_S_S1x325 : (⟨S_, .f32⟩ : BufTy).Contents (Elt F) → (⟨S1x325, .f32⟩ : BufTy).Contents (Elt F)),
    binary main_v8 main_v11 main_v12 (addf : (⟨S1x325, .f32⟩ : BufTy).Contents (Elt F) → (⟨S1x325, .f32⟩ : BufTy).Contents (Elt F) → (⟨S1x325, .f32⟩ : BufTy).Contents (Elt F)),
    unary main_v12 main_v13 (Host.sqrt : (⟨S1x325, .f32⟩ : BufTy).Contents (Elt F) → (⟨S1x325, .f32⟩ : BufTy).Contents (Elt F)),
    unary main_v13 main_v14 (broadcastInDim S4096x325 ![0, 1] bcast_S1x325_S4096x325_0_1 : (⟨S1x325, .f32⟩ : BufTy).Contents (Elt F) → (⟨S4096x325, .f32⟩ : BufTy).Contents (Elt F)),
    binary main_v10 main_v14 main_v15 (Host.divf : (⟨S4096x325, .f32⟩ : BufTy).Contents (Elt F) → (⟨S4096x325, .f32⟩ : BufTy).Contents (Elt F) → (⟨S4096x325, .f32⟩ : BufTy).Contents (Elt F)),
    unary main_arg1 main_v16 (broadcastInDim S1x325 ![1] bcast_S325_S1x325_1 : (⟨S325, .f32⟩ : BufTy).Contents (Elt F) → (⟨S1x325, .f32⟩ : BufTy).Contents (Elt F)),
    unary main_v16 main_v17 (broadcastInDim S4096x325 ![0, 1] bcast_S1x325_S4096x325_0_1 : (⟨S1x325, .f32⟩ : BufTy).Contents (Elt F) → (⟨S4096x325, .f32⟩ : BufTy).Contents (Elt F)),
    binary main_v15 main_v17 main_v18 (mulf : (⟨S4096x325, .f32⟩ : BufTy).Contents (Elt F) → (⟨S4096x325, .f32⟩ : BufTy).Contents (Elt F) → (⟨S4096x325, .f32⟩ : BufTy).Contents (Elt F)),
    unary main_arg2 main_v19 (broadcastInDim S1x325 ![1] bcast_S325_S1x325_1 : (⟨S325, .f32⟩ : BufTy).Contents (Elt F) → (⟨S1x325, .f32⟩ : BufTy).Contents (Elt F)),
    unary main_v19 main_v20 (broadcastInDim S4096x325 ![0, 1] bcast_S1x325_S4096x325_0_1 : (⟨S1x325, .f32⟩ : BufTy).Contents (Elt F) → (⟨S4096x325, .f32⟩ : BufTy).Contents (Elt F)),
    binary main_v18 main_v20 main_v21 (addf : (⟨S4096x325, .f32⟩ : BufTy).Contents (Elt F) → (⟨S4096x325, .f32⟩ : BufTy).Contents (Elt F) → (⟨S4096x325, .f32⟩ : BufTy).Contents (Elt F)),
    unary main_arg3 main_v22 (broadcastInDim S1x325 ![1] bcast_S325_S1x325_1 : (⟨S325, .f32⟩ : BufTy).Contents (Elt F) → (⟨S1x325, .f32⟩ : BufTy).Contents (Elt F)),
    unary main_v22 main_v23 (broadcastInDim S4096x325 ![0, 1] bcast_S1x325_S4096x325_0_1 : (⟨S1x325, .f32⟩ : BufTy).Contents (Elt F) → (⟨S4096x325, .f32⟩ : BufTy).Contents (Elt F)),
    binary main_v21 main_v23 main_v24 (mulf : (⟨S4096x325, .f32⟩ : BufTy).Contents (Elt F) → (⟨S4096x325, .f32⟩ : BufTy).Contents (Elt F) → (⟨S4096x325, .f32⟩ : BufTy).Contents (Elt F)),
    nullary main_cst_5 (constant S_ .f32 0x00000000#32),
    binary main_v24 main_cst_5 main_v25 ((fun x v => Host.reduceAdd x v reducesTo_S4096x325_S4096_d1 h_S_) : (⟨S4096x325, .f32⟩ : BufTy).Contents (Elt F) → (⟨S_, .f32⟩ : BufTy).Contents (Elt F) → (⟨S4096, .f32⟩ : BufTy).Contents (Elt F)),
    unary main_v25 main_v26 (broadcastInDim S4096x1 ![0] bcast_S4096_S4096x1_0 : (⟨S4096, .f32⟩ : BufTy).Contents (Elt F) → (⟨S4096x1, .f32⟩ : BufTy).Contents (Elt F)) ]

set_option maxRecDepth 8192 in
set_option maxHeartbeats 4000000 in
/-- @main is that line: the helpers' bodies unfolded at their calls, sequencing reassociated. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub ..⟩

set_option maxRecDepth 8192 in
/-- Every weakly fair execution of @main terminates, and every buffer of the device ends at the fold of the
    101 operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.RefTerm.lean ====
/-
  The reference's result as ONE pure term of the four argument arrays.

  The term follows the program: the two index tables, each turned by the gather helper into an index column (a negative
  index wrapped by 26), a validity mask (the index between 0 and 25) and the gathered rows (junk where the mask fails);
  the interactions (the product of the two gathers summed over the embedding axis); their mean over the batch; the
  variance helper's mean squared deviation; and the normalized, scaled, shifted, weighted sum over the pairs, laid out
  as a column.
-/
import proofs.«210137_g30502857736458_cont_9to1_2222_4_alg».proof.Proof.Gen.ReferenceIdeal
import Idealize.ShloMosaic.PureOps

noncomputable section

namespace Cert.Proof.Ref

open Cert.ReferenceIdeal Cert.ReferenceIdeal.Gen Idealize.ShloMosaic

variable {F : FTy → Type} [FloatOps F]

/-- The first index table (the pairs' larger field), as the program's constant holds it. -/
def rowC : IVec S325 32 := fun i => lit0 (S325.rowMajor i)
/-- The second index table (the pairs' smaller field). -/
def colC : IVec S325 32 := fun i => lit1 (S325.rowMajor i)

/-- The gather helper's index column: a negative index has 26 added, and the vector becomes a 325 × 1 column. -/
def takeIdx (c : IVec S325 32) : IVec S325x1 32 :=
  broadcastInDim S325x1 ![0] bcast_S325_S325x1_0
    (select (cmpi .slt c (broadcastInDim S325 ![] bcast_S_S325 (constantI S_ 32 0#32)))
      (addi c (broadcastInDim S325 ![] bcast_S_S325 (constantI S_ 32 26#32))) c)

/-- The gather helper's validity mask: the index is at least 0 and at most 25. -/
def takeMask (c : IVec S325 32) : IVec S325 1 :=
  Host.reduce IntOp.andi
    (andi (cmpi .sge (takeIdx c) (broadcastInDim S325x1 ![] bcast_S_S325x1 (constantI S_ 32 0#32)))
      (cmpi .sle (takeIdx c)
        (broadcastInDim S325x1 ![0, 1] bcast_S1x1_S325x1_0_1 (broadcastInDim S1x1 ![1] bcast_S1_S1x1_1 (constantI S1 32 25#32)))))
    (constantI S_ 1 1#1) reducesTo_S325x1_S325_d1 h_S_

/-- The gather helper: the fields the index column names, gathered along the field axis; junk where the mask fails. -/
def take (x : FVec F S4096x26x64 .f32) (c : IVec S325 32) : FVec F S4096x325x64 .f32 :=
  select (broadcastInDim S4096x325x64 ![1] bcast_S325_S4096x325x64_1 (takeMask c))
    (Host.gather gather_S4096x26x64_S325x1_S4096x325x64_02_1_n_n_1_1_4096164 x (takeIdx c))
    (broadcastInDim S4096x325x64 ![] bcast_S_S4096x325x64 (constant S_ .f32 0x7FC00000#32))

/-- The interactions: the two gathers multiplied and summed over the embedding axis. -/
def interV (x : FVec F S4096x26x64 .f32) : FVec F S4096x325 .f32 :=
  Host.reduceAdd (mulf (take x rowC) (take x colC)) (constant S_ .f32 0x00000000#32) reducesTo_S4096x325x64_S4096x325_d2 h_S_

/-- The mean over the batch axis, as a row. -/
def meanV (v : FVec F S4096x325 .f32) : FVec F S1x325 .f32 :=
  Host.divf
    (broadcastInDim S1x325 ![1] bcast_S325_S1x325_1
      (Host.reduceAdd v (constant S_ .f32 0x00000000#32) reducesTo_S4096x325_S325_d0 h_S_))
    (broadcastInDim S1x325 ![] bcast_S_S1x325 (constant S_ .f32 0x45800000#32))

/-- The variance helper's divisor: the batch count minus the correction, which is the integer zero converted. -/
def cnt : FVec F S_ .f32 := subf (constant S_ .f32 0x45800000#32) (sitofp .f32 (constantI S_ 32 0#32))

/-- The deviations from the mean. -/
def devV (v : FVec F S4096x325 .f32) : FVec F S4096x325 .f32 :=
  subf v (broadcastInDim S4096x325 ![0, 1] bcast_S1x325_S4096x325_0_1 (meanV v))

/-- The variance helper: the squared deviations summed over the batch and divided by the divisor where that is
    positive, junk elsewhere. -/
def varV (v : FVec F S4096x325 .f32) : FVec F S1x325 .f32 :=
  select (broadcastInDim S1x325 ![] bcast_S_S1x325 (cmpf .ogt (cnt (F := F)) (constant S_ .f32 0x00000000#32)))
    (Host.divf
      (broadcastInDim S1x325 ![1] bcast_S325_S1x325_1
        (Host.reduceAdd (mulf (devV v) (devV v)) (constant S_ .f32 0x00000000#32) reducesTo_S4096x325_S325_d0 h_S_))
      (broadcastInDim S1x325 ![] bcast_S_S1x325 (cnt (F := F))))
    (broadcastInDim S1x325 ![] bcast_S_S1x325 (id (constant S_ .f32 0x7FC00000#32)))

/-- A per-pair parameter laid along every batch row. -/
def rowsOf (g : FVec F S325 .f32) : FVec F S4096x325 .f32 :=
  broadcastInDim S4096x325 ![0, 1] bcast_S1x325_S4096x325_0_1 (broadcastInDim S1x325 ![1] bcast_S325_S1x325_1 g)

/-- The weighted terms before the sum over the pairs. -/
def termV (x : FVec F S4096x26x64 .f32) (g be w : FVec F S325 .f32) : FVec F S4096x325 .f32 :=
  mulf
    (addf
      (mulf
        (Host.divf
          (subf (interV x) (broadcastInDim S4096x325 ![0, 1] bcast_S1x325_S4096x325_0_1 (meanV (interV x))))
          (broadcastInDim S4096x325 ![0, 1] bcast_S1x325_S4096x325_0_1
            (Host.sqrt (addf (varV (interV x)) (broadcastInDim S1x325 ![] bcast_S_S1x325 (constant S_ .f32 0x3727C5AC#32))))))
        (rowsOf g))
      (rowsOf be))
    (rowsOf w)

/-- THE REFERENCE'S RESULT as a pure term of the four arguments. -/
def refTerm (x : FVec F S4096x26x64 .f32) (g be w : FVec F S325 .f32) : FVec F S4096x1 .f32 :=
  broadcastInDim S4096x1 ![0] bcast_S4096_S4096x1_0
    (Host.reduceAdd (termV x g be w) (constant S_ .f32 0x00000000#32) reducesTo_S4096x325_S4096_d1 h_S_)

end Cert.Proof.Ref

end
-- ==== Proof.RefStages.lean ====
/-
  The reference's straight line read back in six stretches: the two index tables; the first gather helper; the second;
  the interactions and their mean; the variance helper; the normalization and the final sum. For each stretch: the
  buffers it writes (so every other buffer keeps its contents through it), and what it leaves in the buffers read
  later, as a pure term of the contents before it. Composed, the result buffer ends at the reference's term of the four
  arguments, and the arguments keep their contents.
-/
import proofs.«210137_g30502857736458_cont_9to1_2222_4_alg».proof.Proof.RefOps
import proofs.«210137_g30502857736458_cont_9to1_2222_4_alg».proof.Proof.RefTerm
import Idealize.ShloMosaic.Lib.Pipeline.Frame

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## The six stretches -/

/-- The two index tables. -/
abbrev segA : List (HloOp τ sig (Elt F)) :=
  [ nullary main_c (fun i => lit0 (S325.rowMajor i)),
    nullary main_c_0 (fun i => lit1 (S325.rowMajor i)) ]
/-- The buffers that stretch writes. -/
abbrev segA_W : List (Ref sig .tc) := [main_c, main_c_0]
set_option maxRecDepth 4096 in
theorem segA_writes : (segA : List (HloOp τ sig (Elt F))).Forall fun op =>
    op.writes ⊆ (segA_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch does not write keeps its contents through it. -/
theorem segA_keep (W : Valuation τ sig (Elt F)) (r : Ref sig .tc) (h : r ∉ segA_W) :
    after segA W (no_index (Proc.devRef .tc r)) = W (Proc.devRef .tc r) :=
  after_of_writes_sub segA W segA_writes h

/-- The first call of the gather helper (23 operations). -/
abbrev segT0 : List (HloOp τ sig (Elt F)) :=
  [ TRef.nullary main_call0.c (constantI S_ 32 0#32),
    TRef.unary main_call0.c main_call0.v0 (broadcastInDim S325 ![] bcast_S_S325),
    TRef.binary (TRef.of (T := ⟨S325, .i32⟩) main_c) main_call0.v0 main_call0.v1 (cmpi .slt),
    TRef.nullary main_call0.c_0 (constantI S_ 32 26#32),
    TRef.unary main_call0.c_0 main_call0.v2 (broadcastInDim S325 ![] bcast_S_S325),
    TRef.binary (TRef.of (T := ⟨S325, .i32⟩) main_c) main_call0.v2 main_call0.v3 addi,
    TRef.ternary main_call0.v1 main_call0.v3 (TRef.of (T := ⟨S325, .i32⟩) main_c) main_call0.call0.v0 select,
    TRef.unary main_call0.call0.v0 main_call0.v5 (broadcastInDim S325x1 ![0] bcast_S325_S325x1_0),
    TRef.nullary main_call0.c_1 (constantI S1 32 25#32),
    TRef.nullary main_call0.c_2 (constantI S_ 32 0#32),
    TRef.unary main_call0.c_2 main_call0.v6 (broadcastInDim S325x1 ![] bcast_S_S325x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S325x1 ![0, 1] bcast_S1x1_S325x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S325x1_S325_d1 h_S_),
    TRef.binary (TRef.of (T := ⟨S4096x26x64, .f32⟩) main_arg0) main_call0.v5 main_call0.v13 (fun x i => Host.gather gather_S4096x26x64_S325x1_S4096x325x64_02_1_n_n_1_1_4096164 x i),
    TRef.unary main_call0.v12 main_call0.v14 (broadcastInDim S4096x325x64 ![1] bcast_S325_S4096x325x64_1),
    TRef.nullary main_call0.cst (constant S_ .f32 0x7FC00000#32),
    TRef.unary main_call0.cst main_call0.v15 (broadcastInDim S4096x325x64 ![] bcast_S_S4096x325x64),
    TRef.ternary main_call0.v14 main_call0.v13 main_call0.v15 main_call0.v16 select ]
/-- The buffers that stretch writes. -/
abbrev segT0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
set_option maxRecDepth 4096 in
theorem segT0_writes : (segT0 : List (HloOp τ sig (Elt F))).Forall fun op =>
    op.writes ⊆ (segT0_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch does not write keeps its contents through it. -/
theorem segT0_keep (W : Valuation τ sig (Elt F)) (r : Ref sig .tc) (h : r ∉ segT0_W) :
    after segT0 W (no_index (Proc.devRef .tc r)) = W (Proc.devRef .tc r) :=
  after_of_writes_sub segT0 W segT0_writes h

/-- The second call of the gather helper. -/
abbrev segT1 : List (HloOp τ sig (Elt F)) :=
  [ TRef.nullary main_call1.c (constantI S_ 32 0#32),
    TRef.unary main_call1.c main_call1.v0 (broadcastInDim S325 ![] bcast_S_S325),
    TRef.binary (TRef.of (T := ⟨S325, .i32⟩) main_c_0) main_call1.v0 main_call1.v1 (cmpi .slt),
    TRef.nullary main_call1.c_0 (constantI S_ 32 26#32),
    TRef.unary main_call1.c_0 main_call1.v2 (broadcastInDim S325 ![] bcast_S_S325),
    TRef.binary (TRef.of (T := ⟨S325, .i32⟩) main_c_0) main_call1.v2 main_call1.v3 addi,
    TRef.ternary main_call1.v1 main_call1.v3 (TRef.of (T := ⟨S325, .i32⟩) main_c_0) main_call1.call0.v0 select,
    TRef.unary main_call1.call0.v0 main_call1.v5 (broadcastInDim S325x1 ![0] bcast_S325_S325x1_0),
    TRef.nullary main_call1.c_1 (constantI S1 32 25#32),
    TRef.nullary main_call1.c_2 (constantI S_ 32 0#32),
    TRef.unary main_call1.c_2 main_call1.v6 (broadcastInDim S325x1 ![] bcast_S_S325x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S325x1 ![0, 1] bcast_S1x1_S325x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S325x1_S325_d1 h_S_),
    TRef.binary (TRef.of (T := ⟨S4096x26x64, .f32⟩) main_arg0) main_call1.v5 main_call1.v13 (fun x i => Host.gather gather_S4096x26x64_S325x1_S4096x325x64_02_1_n_n_1_1_4096164 x i),
    TRef.unary main_call1.v12 main_call1.v14 (broadcastInDim S4096x325x64 ![1] bcast_S325_S4096x325x64_1),
    TRef.nullary main_call1.cst (constant S_ .f32 0x7FC00000#32),
    TRef.unary main_call1.cst main_call1.v15 (broadcastInDim S4096x325x64 ![] bcast_S_S4096x325x64),
    TRef.ternary main_call1.v14 main_call1.v13 main_call1.v15 main_call1.v16 select ]
/-- The buffers that stretch writes. -/
abbrev segT1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1]
set_option maxRecDepth 4096 in
theorem segT1_writes : (segT1 : List (HloOp τ sig (Elt F))).Forall fun op =>
    op.writes ⊆ (segT1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch does not write keeps its contents through it. -/
theorem segT1_keep (W : Valuation τ sig (Elt F)) (r : Ref sig .tc) (h : r ∉ segT1_W) :
    after segT1 W (no_index (Proc.devRef .tc r)) = W (Proc.devRef .tc r) :=
  after_of_writes_sub segT1 W segT1_writes h

/-- The product, the sum over the embedding axis, and the mean over the batch. -/
abbrev segB : List (HloOp τ sig (Elt F)) :=
  [ binary main_v0 main_v1 main_v2 (mulf : (⟨S4096x325x64, .f32⟩ : BufTy).Contents (Elt F) → (⟨S4096x325x64, .f32⟩ : BufTy).Contents (Elt F) → (⟨S4096x325x64, .f32⟩ : BufTy).Contents (Elt F)),
    nullary main_cst (constant S_ .f32 0x00000000#32),
    binary main_v2 main_cst main_v3 ((fun x v => Host.reduceAdd x v reducesTo_S4096x325x64_S4096x325_d2 h_S_) : (⟨S4096x325x64, .f32⟩ : BufTy).Contents (Elt F) → (⟨S_, .f32⟩ : BufTy).Contents (Elt F) → (⟨S4096x325, .f32⟩ : BufTy).Contents (Elt F)),
    nullary main_cst_1 (constant S_ .f32 0x00000000#32),
    binary main_v3 main_cst_1 main_v4 ((fun x v => Host.reduceAdd x v reducesTo_S4096x325_S325_d0 h_S_) : (⟨S4096x325, .f32⟩ : BufTy).Contents (Elt F) → (⟨S_, .f32⟩ : BufTy).Contents (Elt F) → (⟨S325, .f32⟩ : BufTy).Contents (Elt F)),
    unary main_v4 main_v5 (broadcastInDim S1x325 ![1] bcast_S325_S1x325_1 : (⟨S325, .f32⟩ : BufTy).Contents (Elt F) → (⟨S1x325, .f32⟩ : BufTy).Contents (Elt F)),
    nullary main_cst_2 (constant S_ .f32 0x45800000#32),
    unary main_cst_2 main_v6 (broadcastInDim S1x325 ![] bcast_S_S1x325 : (⟨S_, .f32⟩ : BufTy).Contents (Elt F) → (⟨S1x325, .f32⟩ : BufTy).Contents (Elt F)),
    binary main_v5 main_v6 main_v7 (Host.divf : (⟨S1x325, .f32⟩ : BufTy).Contents (Elt F) → (⟨S1x325, .f32⟩ : BufTy).Contents (Elt F) → (⟨S1x325, .f32⟩ : BufTy).Contents (Elt F)) ]
/-- The buffers that stretch writes. -/
abbrev segB_W : List (Ref sig .tc) := [main_v2, main_cst, main_v3, main_cst_1, main_v4, main_v5, main_cst_2, main_v6, main_v7]
set_option maxRecDepth 4096 in
theorem segB_writes : (segB : List (HloOp τ sig (Elt F))).Forall fun op =>
    op.writes ⊆ (segB_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch does not write keeps its contents through it. -/
theorem segB_keep (W : Valuation τ sig (Elt F)) (r : Ref sig .tc) (h : r ∉ segB_W) :
    after segB W (no_index (Proc.devRef .tc r)) = W (Proc.devRef .tc r) :=
  after_of_writes_sub segB W segB_writes h

/-- The correction constant and the variance helper (24 operations). -/
abbrev segV : List (HloOp τ sig (Elt F)) :=
  [ nullary main_c_3 (constantI S_ 32 0#32),
    TRef.nullary main_call2.cst (constant S_ .f32 0x00000000#32),
    TRef.binary (TRef.of (T := ⟨S4096x325, .f32⟩) main_v3) main_call2.cst main_call2.v0 (fun x v => Host.reduceAdd x v reducesTo_S4096x325_S325_d0 h_S_),
    TRef.unary main_call2.v0 main_call2.v1 (broadcastInDim S1x325 ![1] bcast_S325_S1x325_1),
    TRef.nullary main_call2.cst_0 (constant S_ .f32 0x45800000#32),
    TRef.unary main_call2.cst_0 main_call2.v2 (broadcastInDim S1x325 ![] bcast_S_S1x325),
    TRef.binary main_call2.v1 main_call2.v2 main_call2.v3 Host.divf,
    TRef.unary main_call2.v3 main_call2.v4 (broadcastInDim S4096x325 ![0, 1] bcast_S1x325_S4096x325_0_1),
    TRef.binary (TRef.of (T := ⟨S4096x325, .f32⟩) main_v3) main_call2.v4 main_call2.v5 subf,
    TRef.binary main_call2.v5 main_call2.v5 main_call2.v6 mulf,
    TRef.unary (TRef.of (T := ⟨S_, .i32⟩) main_c_3) main_call2.v7 (sitofp .f32),
    TRef.nullary main_call2.cst_1 (constant S_ .f32 0x45800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S4096x325_S325_d0 h_S_),
    TRef.unary main_call2.v9 main_call2.v10 (broadcastInDim S1x325 ![1] bcast_S325_S1x325_1),
    TRef.unary main_call2.v8 main_call2.v11 (broadcastInDim S1x325 ![] bcast_S_S1x325),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S1x325 ![] bcast_S_S1x325),
    TRef.ternary main_call2.v13 main_call2.v12 main_call2.call0.v1 main_call2.call0.v2 (fun p a b => select (broadcastInDim S1x325 ![] bcast_S_S1x325 p) a b) ]
/-- The buffers that stretch writes. -/
abbrev segV_W : List (Ref sig .tc) := [main_c_3, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v8]
set_option maxRecDepth 4096 in
theorem segV_writes : (segV : List (HloOp τ sig (Elt F))).Forall fun op =>
    op.writes ⊆ (segV_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch does not write keeps its contents through it. -/
theorem segV_keep (W : Valuation τ sig (Elt F)) (r : Ref sig .tc) (h : r ∉ segV_W) :
    after segV W (no_index (Proc.devRef .tc r)) = W (Proc.devRef .tc r) :=
  after_of_writes_sub segV W segV_writes h

/-- The normalization, scale, shift, weight, and the sum over the pairs. -/
abbrev segC : List (HloOp τ sig (Elt F)) :=
  [ unary main_v7 main_v9 (broadcastInDim S4096x325 ![0, 1] bcast_S1x325_S4096x325_0_1 : (⟨S1x325, .f32⟩ : BufTy).Contents (Elt F) → (⟨S4096x325, .f32⟩ : BufTy).Contents (Elt F)),
    binary main_v3 main_v9 main_v10 (subf : (⟨S4096x325, .f32⟩ : BufTy).Contents (Elt F) → (⟨S4096x325, .f32⟩ : BufTy).Contents (Elt F) → (⟨S4096x325, .f32⟩ : BufTy).Contents (Elt F)),
    nullary main_cst_4 (constant S_ .f32 0x3727C5AC#32),
    unary main_cst_4 main_v11 (broadcastInDim S1x325 ![] bcast_S_S1x325 : (⟨S_, .f32⟩ : BufTy).Contents (Elt F) → (⟨S1x325, .f32⟩ : BufTy).Contents (Elt F)),
    binary main_v8 main_v11 main_v12 (addf : (⟨S1x325, .f32⟩ : BufTy).Contents (Elt F) → (⟨S1x325, .f32⟩ : BufTy).Contents (Elt F) → (⟨S1x325, .f32⟩ : BufTy).Contents (Elt F)),
    unary main_v12 main_v13 (Host.sqrt : (⟨S1x325, .f32⟩ : BufTy).Contents (Elt F) → (⟨S1x325, .f32⟩ : BufTy).Contents (Elt F)),
    unary main_v13 main_v14 (broadcastInDim S4096x325 ![0, 1] bcast_S1x325_S4096x325_0_1 : (⟨S1x325, .f32⟩ : BufTy).Contents (Elt F) → (⟨S4096x325, .f32⟩ : BufTy).Contents (Elt F)),
    binary main_v10 main_v14 main_v15 (Host.divf : (⟨S4096x325, .f32⟩ : BufTy).Contents (Elt F) → (⟨S4096x325, .f32⟩ : BufTy).Contents (Elt F) → (⟨S4096x325, .f32⟩ : BufTy).Contents (Elt F)),
    unary main_arg1 main_v16 (broadcastInDim S1x325 ![1] bcast_S325_S1x325_1 : (⟨S325, .f32⟩ : BufTy).Contents (Elt F) → (⟨S1x325, .f32⟩ : BufTy).Contents (Elt F)),
    unary main_v16 main_v17 (broadcastInDim S4096x325 ![0, 1] bcast_S1x325_S4096x325_0_1 : (⟨S1x325, .f32⟩ : BufTy).Contents (Elt F) → (⟨S4096x325, .f32⟩ : BufTy).Contents (Elt F)),
    binary main_v15 main_v17 main_v18 (mulf : (⟨S4096x325, .f32⟩ : BufTy).Contents (Elt F) → (⟨S4096x325, .f32⟩ : BufTy).Contents (Elt F) → (⟨S4096x325, .f32⟩ : BufTy).Contents (Elt F)),
    unary main_arg2 main_v19 (broadcastInDim S1x325 ![1] bcast_S325_S1x325_1 : (⟨S325, .f32⟩ : BufTy).Contents (Elt F) → (⟨S1x325, .f32⟩ : BufTy).Contents (Elt F)),
    unary main_v19 main_v20 (broadcastInDim S4096x325 ![0, 1] bcast_S1x325_S4096x325_0_1 : (⟨S1x325, .f32⟩ : BufTy).Contents (Elt F) → (⟨S4096x325, .f32⟩ : BufTy).Contents (Elt F)),
    binary main_v18 main_v20 main_v21 (addf : (⟨S4096x325, .f32⟩ : BufTy).Contents (Elt F) → (⟨S4096x325, .f32⟩ : BufTy).Contents (Elt F) → (⟨S4096x325, .f32⟩ : BufTy).Contents (Elt F)),
    unary main_arg3 main_v22 (broadcastInDim S1x325 ![1] bcast_S325_S1x325_1 : (⟨S325, .f32⟩ : BufTy).Contents (Elt F) → (⟨S1x325, .f32⟩ : BufTy).Contents (Elt F)),
    unary main_v22 main_v23 (broadcastInDim S4096x325 ![0, 1] bcast_S1x325_S4096x325_0_1 : (⟨S1x325, .f32⟩ : BufTy).Contents (Elt F) → (⟨S4096x325, .f32⟩ : BufTy).Contents (Elt F)),
    binary main_v21 main_v23 main_v24 (mulf : (⟨S4096x325, .f32⟩ : BufTy).Contents (Elt F) → (⟨S4096x325, .f32⟩ : BufTy).Contents (Elt F) → (⟨S4096x325, .f32⟩ : BufTy).Contents (Elt F)),
    nullary main_cst_5 (constant S_ .f32 0x00000000#32),
    binary main_v24 main_cst_5 main_v25 ((fun x v => Host.reduceAdd x v reducesTo_S4096x325_S4096_d1 h_S_) : (⟨S4096x325, .f32⟩ : BufTy).Contents (Elt F) → (⟨S_, .f32⟩ : BufTy).Contents (Elt F) → (⟨S4096, .f32⟩ : BufTy).Contents (Elt F)),
    unary main_v25 main_v26 (broadcastInDim S4096x1 ![0] bcast_S4096_S4096x1_0 : (⟨S4096, .f32⟩ : BufTy).Contents (Elt F) → (⟨S4096x1, .f32⟩ : BufTy).Contents (Elt F)) ]
/-- The buffers that stretch writes. -/
abbrev segC_W : List (Ref sig .tc) := [main_v9, main_v10, main_cst_4, main_v11, main_v12, main_v13, main_v14, main_v15, main_v16, main_v17, main_v18, main_v19, main_v20, main_v21, main_v22, main_v23, main_v24, main_cst_5, main_v25, main_v26]
set_option maxRecDepth 4096 in
theorem segC_writes : (segC : List (HloOp τ sig (Elt F))).Forall fun op =>
    op.writes ⊆ (segC_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch does not write keeps its contents through it. -/
theorem segC_keep (W : Valuation τ sig (Elt F)) (r : Ref sig .tc) (h : r ∉ segC_W) :
    after segC W (no_index (Proc.devRef .tc r)) = W (Proc.devRef .tc r) :=
  after_of_writes_sub segC W segC_writes h

set_option maxRecDepth 8192 in
/-- The line is the six stretches in order. -/
theorem ops_split : (ops : List (HloOp τ sig (Elt F))) = segA ++ (segT0 ++ (segT1 ++ (segB ++ (segV ++ segC)))) := rfl

end Cert.Proof.Ref

end
-- ==== Proof.RefRead.lean ====
/-
  What each of the six stretches leaves in the buffers read later, as a pure term of the contents before the stretch.
-/
import proofs.«210137_g30502857736458_cont_9to1_2222_4_alg».proof.Proof.RefStages

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The weighted terms from the interactions, their mean row and their variance row. -/
def termOf (v : FVec F S4096x325 .f32) (mu va : FVec F S1x325 .f32) (g be w : FVec F S325 .f32) : FVec F S4096x325 .f32 :=
  mulf
    (addf
      (mulf
        (Host.divf
          (subf v (broadcastInDim S4096x325 ![0, 1] bcast_S1x325_S4096x325_0_1 mu))
          (broadcastInDim S4096x325 ![0, 1] bcast_S1x325_S4096x325_0_1
            (Host.sqrt (addf va (broadcastInDim S1x325 ![] bcast_S_S1x325 (constant S_ .f32 0x3727C5AC#32))))))
        (rowsOf g))
      (rowsOf be))
    (rowsOf w)

/-- The sum over the pairs, laid out as a column. -/
def colOf (t : FVec F S4096x325 .f32) : FVec F S4096x1 .f32 :=
  broadcastInDim S4096x1 ![0] bcast_S4096_S4096x1_0
    (Host.reduceAdd t (constant S_ .f32 0x00000000#32) reducesTo_S4096x325_S4096_d1 h_S_)

/-- The reference's term is those two over the interactions of the input. -/
theorem refTerm_eq (x : FVec F S4096x26x64 .f32) (g be w : FVec F S325 .f32) :
    refTerm x g be w = colOf (termOf (interV x) (meanV (interV x)) (varV (interV x)) g be w) := rfl

section Results
variable (W : Valuation τ sig (Elt F))

theorem segA_c : after segA W (no_index (Proc.devRef .tc main_c)) = (rowC : IVec S325 32) := by
  after_results_simp
  rfl

theorem segA_c0 : after segA W (no_index (Proc.devRef .tc main_c_0)) = (colC : IVec S325 32) := by
  after_results_simp
  rfl

attribute [local irreducible] Host.reduce Host.gather in
set_option maxRecDepth 8192 in
set_option maxHeartbeats 2000000 in
theorem segT0_v0 : after segT0 W (no_index (Proc.devRef .tc main_v0)) = take (W (Proc.devRef .tc main_arg0)) (W (Proc.devRef .tc main_c)) := by
  after_results_simp
  rfl

attribute [local irreducible] Host.reduce Host.gather in
set_option maxRecDepth 8192 in
set_option maxHeartbeats 2000000 in
theorem segT1_v1 : after segT1 W (no_index (Proc.devRef .tc main_v1)) = take (W (Proc.devRef .tc main_arg0)) (W (Proc.devRef .tc main_c_0)) := by
  after_results_simp
  rfl

set_option maxRecDepth 8192 in
theorem segB_v3 : after segB W (no_index (Proc.devRef .tc main_v3)) = (Host.reduceAdd (mulf (W (Proc.devRef .tc main_v0)) (W (Proc.devRef .tc main_v1))) (constant S_ .f32 0x00000000#32) reducesTo_S4096x325x64_S4096x325_d2 h_S_) := by
  after_results_simp

set_option maxRecDepth 8192 in
theorem segB_v7 : after segB W (no_index (Proc.devRef .tc main_v7)) = meanV (Host.reduceAdd (mulf (W (Proc.devRef .tc main_v0)) (W (Proc.devRef .tc main_v1))) (constant S_ .f32 0x00000000#32) reducesTo_S4096x325x64_S4096x325_d2 h_S_) := by
  after_results_simp
  rfl

set_option maxRecDepth 8192 in
set_option maxHeartbeats 2000000 in
theorem segV_v8 : after segV W (no_index (Proc.devRef .tc main_v8)) = varV (W (Proc.devRef .tc main_v3)) := by
  after_results_simp
  rfl

set_option maxRecDepth 8192 in
set_option maxHeartbeats 2000000 in
theorem segC_v26 : after segC W (no_index (Proc.devRef .tc main_v26))
    = colOf (termOf (W (Proc.devRef .tc main_v3)) (W (Proc.devRef .tc main_v7)) (W (Proc.devRef .tc main_v8)) (W (Proc.devRef .tc main_arg1)) (W (Proc.devRef .tc main_arg2)) (W (Proc.devRef .tc main_arg3))) := by
  after_results_simp
  rfl

end Results

end Cert.Proof.Ref

end
-- ==== Proof.RefRun.lean ====
/-
  THE REFERENCE'S RUN. Every weakly fair execution of the reference's @main terminates; the result buffer ends at the
  reference's term of the four argument arrays' launch contents, and the four arguments keep their contents. The frame
  claim is that run with the value dropped.
-/
import proofs.«210137_g30502857736458_cont_9to1_2222_4_alg».proof.Defs
import proofs.«210137_g30502857736458_cont_9to1_2222_4_alg».proof.Proof.RefRead
import proofs.«210137_g30502857736458_cont_9to1_2222_4_alg».proof.Proof.Gen.Pre_finite_inputs

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 1000000 in
/-- The fold of the 101 operations at the result buffer is the reference's term of the arguments. -/
theorem out_eq (V : Valuation τ sig (Elt F)) :
    after ops V (Proc.devRef .tc main_v26)
      = refTerm (V (Proc.devRef .tc main_arg0)) (V (Proc.devRef .tc main_arg1)) (V (Proc.devRef .tc main_arg2))
          (V (Proc.devRef .tc main_arg3)) := by
  rw [ops_split, refTerm_eq]
  simp (disch := decide) only [StableHlo.after_append, segC_v26, segV_v8, segB_v3, segB_v7, segT1_v1, segT0_v0, segA_c, segA_c0,
    segA_keep, segT0_keep, segT1_keep, segB_keep, segV_keep, segC_keep]
  rfl

set_option maxRecDepth 8192 in
/-- No operation writes argument 0. -/
theorem arg0_eq (V : Valuation τ sig (Elt F)) :
    after ops V (Proc.devRef .tc main_arg0) = V (Proc.devRef .tc main_arg0) := by
  rw [ops_split]
  simp (disch := decide) only [StableHlo.after_append, segA_keep, segT0_keep, segT1_keep, segB_keep, segV_keep, segC_keep]

set_option maxRecDepth 8192 in
/-- No operation writes argument 1. -/
theorem arg1_eq (V : Valuation τ sig (Elt F)) :
    after ops V (Proc.devRef .tc main_arg1) = V (Proc.devRef .tc main_arg1) := by
  rw [ops_split]
  simp (disch := decide) only [StableHlo.after_append, segA_keep, segT0_keep, segT1_keep, segB_keep, segV_keep, segC_keep]

set_option maxRecDepth 8192 in
/-- No operation writes argument 2. -/
theorem arg2_eq (V : Valuation τ sig (Elt F)) :
    after ops V (Proc.devRef .tc main_arg2) = V (Proc.devRef .tc main_arg2) := by
  rw [ops_split]
  simp (disch := decide) only [StableHlo.after_append, segA_keep, segT0_keep, segT1_keep, segB_keep, segV_keep, segC_keep]

set_option maxRecDepth 8192 in
/-- No operation writes argument 3. -/
theorem arg3_eq (V : Valuation τ sig (Elt F)) :
    after ops V (Proc.devRef .tc main_arg3) = V (Proc.devRef .tc main_arg3) := by
  rw [ops_split]
  simp (disch := decide) only [StableHlo.after_append, segA_keep, segT0_keep, segT1_keep, segB_keep, segV_keep, segC_keep]

/-- THE RUN, with the strongest post: on every device the result is the reference's term of the launch contents of the
    four arguments, and the arguments are unchanged. -/
theorem run (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v26)
            = refTerm (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run defs _ _).mono (fun _ h c => ⟨(h c main_v26).trans (out_eq _), (h c main_arg0).trans (arg0_eq _),
      (h c main_arg1).trans (arg1_eq _), (h c main_arg2).trans (arg2_eq _), (h c main_arg3).trans (arg3_eq _)⟩)
    (run_after m ρ)

/-- The frame claim: the run at the ideal values with the value dropped. -/
theorem frame_ri : Cert.frame_ReferenceIdeal := fun m g _ =>
  (θ_run _ _ _).mono (fun _ h c => (h c).2) (run (F := Ideal) m g)

end Cert.Proof.Ref

end
-- ==== Proof.KSpec.lean ====
/-
  The kernel program's mathematics, stage by stage, over extended reals, as functions of natural-number indices
  (an index out of range reads 0). x is the input f32[4096, 26, 64]; a pair slot is q = 32 j + i with fields i < j < 26;
  column n = 16 q + l of a 13312-wide row is slot q, lane l; batch element b = 16 grp + l is lane l of group grp, and
  worker w owns groups 8 w .. 8 w + 7.

  regrouped input   XG x grp n     = x[16 grp + n mod 16, n / 1024, (n / 16) mod 64]
  pair product      inter x b i j  = sum over e < 64 of x[b, i, e] * x[b, j, e]
  pair-product row  IT x grp n     = inter x (16 grp + n mod 16) ((n / 16) mod 32) (n / 512)        (at pair columns)
  partial sums      S1P x w n      = sum over g < 8 of IT x (8 w + g) n,  S2P the same of squares      (0 off the pair columns)
  chunk total       tot s n        = sum over l < 16, w < 32 of s[w, 16 (n / 16) + l]
  mean, var, rstd   tot s1 / 4096,  tot s2 / 4096 - mean^2,  (var + eps)^(-1/2)    (1/4096 the exact literal 0x39800000)
  scale             ALPHA n        = (wm n * gm n) * rstd n
  offset            CVAL           = (sum over n < 13312 of wm n * (bm n - (gm n * mean n) * rstd n)) * (1/16)
  result            OUT b          = CVAL + sum over pair slots q of ALPHA (16 q + b mod 16) * IT (b / 16) (16 q + b mod 16)
-/
import Idealize.ShloMosaic.PureOps.Ideal
import Idealize.ShloMosaic.Lib.ValueIdx

noncomputable section

namespace Cert.Proof.KSpec

open Idealize.ShloMosaic Idealize.ShloMosaic.ValueIdx

abbrev X := (⟨3, ![4096, 26, 64]⟩ : Shape).Idx → EReal
abbrev V325 := (⟨1, ![325]⟩ : Shape).Idx → EReal
abbrev Row := ℕ → EReal

/-- x[b, f, e], 0 out of range. -/
def xN (x : X) (b f e : ℕ) : EReal :=
  if h : b < 4096 ∧ f < 26 ∧ e < 64 then x (ix3 (⟨b, h.1⟩ : Fin 4096) (⟨f, h.2.1⟩ : Fin 26) (⟨e, h.2.2⟩ : Fin 64)) else 0

/-- v[p], 0 out of range. -/
def vN (v : V325) (p : ℕ) : EReal := if h : p < 325 then v (ix1 (⟨p, h⟩ : Fin 325)) else 0

def XG (x : X) (grp n : ℕ) : EReal := xN x (16 * grp + n % 16) (n / 1024) ((n / 16) % 64)

def inter (x : X) (b i j : ℕ) : EReal := ∑ e ∈ Finset.range 64, xN x b i e * xN x b j e

/-- Column n is a pair column: its slot's fields satisfy i < j. -/
def pairCol (n : ℕ) : Prop := (n / 16) % 32 < n / 512
instance (n : ℕ) : Decidable (pairCol n) := by unfold pairCol; infer_instance

def IT (x : X) (grp n : ℕ) : EReal := inter x (16 * grp + n % 16) ((n / 16) % 32) (n / 512)

def S1P (x : X) (w n : ℕ) : EReal := if pairCol n then ∑ g ∈ Finset.range 8, IT x (8 * w + g) n else 0
def S2P (x : X) (w n : ℕ) : EReal := if pairCol n then ∑ g ∈ Finset.range 8, IT x (8 * w + g) n * IT x (8 * w + g) n else 0

/-- The scatter of a per-pair vector into the slots, each slot's value on its sixteen lanes: slot 32 j + i holds v[p] for
    the p-th pair (i, j) in the table's order (slotOf p its slot, the slots distinct), every other slot 0: as a sum with
    at most one term. -/
def scat (slotOf : ℕ → ℕ) (v : V325) (n : ℕ) : EReal :=
  ∑ p ∈ Finset.range 325, if slotOf p = n / 16 then vN v p else 0

def inv4096 : EReal := Ideal.ofBits .f32 0x39800000#32
def inv16 : EReal := Ideal.ofBits .f32 0x3D800000#32
def eps : EReal := Ideal.ofBits .f32 0x3727C5AC#32

/-- The total over a slot's sixteen lanes and the thirty-two workers' rows. -/
def tot (s : ℕ → ℕ → EReal) (n : ℕ) : EReal := ∑ l ∈ Finset.range 16, ∑ w ∈ Finset.range 32, s w (16 * (n / 16) + l)

def MEAN (s1 : ℕ → ℕ → EReal) (n : ℕ) : EReal := tot s1 n * inv4096
def VAR (s1 s2 : ℕ → ℕ → EReal) (n : ℕ) : EReal := tot s2 n * inv4096 - MEAN s1 n * MEAN s1 n
def RSTD (s1 s2 : ℕ → ℕ → EReal) (n : ℕ) : EReal := Ideal.rsqrt (VAR s1 s2 n + eps)
def ALPHA (s1 s2 : ℕ → ℕ → EReal) (wm gm : Row) (n : ℕ) : EReal := (wm n * gm n) * RSTD s1 s2 n
def CVAL (s1 s2 : ℕ → ℕ → EReal) (wm gm bm : Row) : EReal :=
  (∑ n ∈ Finset.range 13312, wm n * (bm n - (gm n * MEAN s1 n) * RSTD s1 s2 n)) * inv16

/-- The second call's accumulation for batch element 16 grp + l: the offset plus, over the pair slots in the order
    j = 1 .. 25, i = 0 .. j - 1, the scale times the pair product. -/
def OUTrow (it : ℕ → ℕ → EReal) (al cv : Row) (grp l : ℕ) : EReal :=
  cv l + ∑ j ∈ Finset.range 25, ∑ i ∈ Finset.range (j + 1), al (16 * (32 * (j + 1) + i) + l) * it grp (16 * (32 * (j + 1) + i) + l)

/-- The whole kernel program's result at batch element b, from the arguments. -/
def OUT (slotOf : ℕ → ℕ) (x : X) (gamma beta w : V325) (b : ℕ) : EReal :=
  OUTrow (IT x) (ALPHA (S1P x) (S2P x) (scat slotOf w) (scat slotOf gamma))
    (fun _ => CVAL (S1P x) (S2P x) (scat slotOf w) (scat slotOf gamma) (scat slotOf beta)) (b / 16) (b % 16)

end Cert.Proof.KSpec

end
-- ==== Proof.CommonV.lean ====
/-
  The value-carrying payloads of the two SparseCore calls, at the ideal instance: what a subcore is handed and what it
  hands back, with what each array holds stated against the stage-by-stage mathematics (KSpec): a subcore is handed
  its read share of the regrouped input at XG x and hands back its eight pair-product rows holding IT x at every pair
  column and its partial-sum rows holding S1P x w, S2P x w; at the second call it is handed read shares of arrays
  holding IT x at pair columns, the scale ALPHA and the offset CVAL, and hands back its eight result segments
  holding OUT.
-/
import proofs.«210137_g30502857736458_cont_9to1_2222_4_alg».proof.Proof.Common
import proofs.«210137_g30502857736458_cont_9to1_2222_4_alg».proof.Proof.KSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Cert.Proof.KSpec

local notation "𝕀" => MT nD τ sig (HIx 2) (Elt Ideal) ℕ UU ℕ

/-- The arguments as the mathematics reads them. -/
abbrev argX (m : (ℓ : Loc nD τ sig) → Buf (Elt Ideal) ℓ) (d : Dev nD) : KSpec.X := m ((SparseCore.T d).loc main_arg0)
abbrev argG (m : (ℓ : Loc nD τ sig) → Buf (Elt Ideal) ℓ) (d : Dev nD) : KSpec.V325 := m ((SparseCore.T d).loc main_arg1)
abbrev argB (m : (ℓ : Loc nD τ sig) → Buf (Elt Ideal) ℓ) (d : Dev nD) : KSpec.V325 := m ((SparseCore.T d).loc main_arg2)
abbrev argW (m : (ℓ : Loc nD τ sig) → Buf (Elt Ideal) ℓ) (d : Dev nD) : KSpec.V325 := m ((SparseCore.T d).loc main_arg3)

/-- The slot 32 j + i of the p-th pair, read off the program's own table (0 out of range). -/
def slotOf (p : ℕ) : ℕ := if h : p < 325 then (lit0 (⟨p, h⟩ : Fin 325)).toNat else 0

/-- The regrouped input as an array. -/
def XGa (x : KSpec.X) : S256x26624.Idx → EReal := fun idx => XG x (idx 0).val (idx 1).val

abbrev wmR (m : (ℓ : Loc nD τ sig) → Buf (Elt Ideal) ℓ) (d : Dev nD) : KSpec.Row := scat slotOf (argW m d)
abbrev gmR (m : (ℓ : Loc nD τ sig) → Buf (Elt Ideal) ℓ) (d : Dev nD) : KSpec.Row := scat slotOf (argG m d)
abbrev bmR (m : (ℓ : Loc nD τ sig) → Buf (Elt Ideal) ℓ) (d : Dev nD) : KSpec.Row := scat slotOf (argB m d)

/-- What the arrays hold, as facts about their contents. -/
def ItOK (x : KSpec.X) (f : S256x13312.Idx → EReal) : Prop := ∀ idx : S256x13312.Idx, pairCol (idx 1).val → f idx = IT x (idx 0).val (idx 1).val
def ItRowOK (x : KSpec.X) (A : Finset S256x13312.Idx) (f : S256x13312.Idx → EReal) : Prop :=
  ∀ idx ∈ A, pairCol (idx 1).val → f idx = IT x (idx 0).val (idx 1).val
def S1RowOK (x : KSpec.X) (A : Finset S32x13312.Idx) (f : S32x13312.Idx → EReal) : Prop := ∀ idx ∈ A, f idx = S1P x (idx 0).val (idx 1).val
def S2RowOK (x : KSpec.X) (A : Finset S32x13312.Idx) (f : S32x13312.Idx → EReal) : Prop := ∀ idx ∈ A, f idx = S2P x (idx 0).val (idx 1).val
def AlOK (m : (ℓ : Loc nD τ sig) → Buf (Elt Ideal) ℓ) (d : Dev nD) (f : S13312.Idx → EReal) : Prop :=
  ∀ idx : S13312.Idx, f idx = ALPHA (S1P (argX m d)) (S2P (argX m d)) (wmR m d) (gmR m d) (idx 0).val
def CvOK (m : (ℓ : Loc nD τ sig) → Buf (Elt Ideal) ℓ) (d : Dev nD) (f : S16.Idx → EReal) : Prop :=
  ∀ idx : S16.Idx, f idx = CVAL (S1P (argX m d)) (S2P (argX m d)) (wmR m d) (gmR m d) (bmR m d)
def OtSegOK (m : (ℓ : Loc nD τ sig) → Buf (Elt Ideal) ℓ) (d : Dev nD) (A : Finset S4096.Idx) (f : S4096.Idx → EReal) : Prop :=
  ∀ idx ∈ A, f idx = OUT slotOf (argX m d) (argG m d) (argB m d) (argW m d) (idx 0).val

variable (m : (ℓ : Loc nD τ sig) → Buf (Elt Ideal) ℓ)

/-- Call 0, in: the read share of the regrouped input at XG x; the rows to be written at whatever they hold. -/
def G0in (d : Dev nD) (L : grid0.Coords) : sProp 𝕀 :=
  iprop((xgLoc d ↦{rq (wid L)} XGa (argX m d)) ∗ (bigSep Finset.univ fun g : Fin k0_t2_loop.trips => itRowPts d L g) ∗ s1RowPts d L ∗ s2RowPts d L)

def itRowV (d : Dev nD) (L : grid0.Coords) (g : Fin k0_t2_loop.trips) : sProp 𝕀 :=
  iprop(∃ f, ⌜ItRowOK (argX m d) (itRowM L g).view.set f⌝ ∗ itLoc d ↦[(itRowM L g).view.set]{fullShare} f)
def s1RowV (d : Dev nD) (L : grid0.Coords) : sProp 𝕀 :=
  iprop(∃ f, ⌜S1RowOK (argX m d) (s1RowM L).view.set f⌝ ∗ s1Loc d ↦[(s1RowM L).view.set]{fullShare} f)
def s2RowV (d : Dev nD) (L : grid0.Coords) : sProp 𝕀 :=
  iprop(∃ f, ⌜S2RowOK (argX m d) (s2RowM L).view.set f⌝ ∗ s2Loc d ↦[(s2RowM L).view.set]{fullShare} f)

/-- Call 0, out: the share back; each row written, holding the pair products (at pair columns) and the partial sums. -/
def G0out (d : Dev nD) (L : grid0.Coords) : sProp 𝕀 :=
  iprop((xgLoc d ↦{rq (wid L)} XGa (argX m d)) ∗ (bigSep Finset.univ fun g : Fin k0_t2_loop.trips => itRowV m d L g) ∗ s1RowV m d L ∗ s2RowV m d L)

def itShV (d : Dev nD) (w : Fin 32) : sProp 𝕀 := iprop(∃ f, ⌜ItOK (argX m d) f⌝ ∗ itLoc d ↦{rq w} f)
def alShV (d : Dev nD) (w : Fin 32) : sProp 𝕀 := iprop(∃ f, ⌜AlOK m d f⌝ ∗ alLoc d ↦{rq w} f)
def cvShV (d : Dev nD) (w : Fin 32) : sProp 𝕀 := iprop(∃ f, ⌜CvOK m d f⌝ ∗ cvLoc d ↦{rq w} f)
def otSegV (d : Dev nD) (L : grid2.Coords) (g : Fin k2_t1_loop.trips) : sProp 𝕀 :=
  iprop(∃ f, ⌜OtSegOK m d (otSegM L g).view.set f⌝ ∗ otLoc d ↦[(otSegM L g).view.set]{fullShare} f)

/-- Call 1, in: read shares of arrays holding the pair products, the scale, the offset; the segments to be written. -/
def G1in (d : Dev nD) (L : grid2.Coords) : sProp 𝕀 :=
  iprop(itShV m d (wid L) ∗ alShV m d (wid L) ∗ cvShV m d (wid L) ∗ (bigSep Finset.univ fun g : Fin k2_t1_loop.trips => otSegPts d L g))
/-- Call 1, out: the shares back; each segment written, holding the result. -/
def G1out (d : Dev nD) (L : grid2.Coords) : sProp 𝕀 :=
  iprop(itShV m d (wid L) ∗ alShV m d (wid L) ∗ cvShV m d (wid L) ∗ (bigSep Finset.univ fun g : Fin k2_t1_loop.trips => otSegV m d L g))

instance itRowV_storable (d : Dev nD) (L : grid0.Coords) (g : Fin k0_t2_loop.trips) : BI.Storable (upEmb : UEmb _ 𝕀) (itRowV m d L g) := by unfold itRowV; infer_instance
instance s1RowV_storable (d : Dev nD) (L : grid0.Coords) : BI.Storable (upEmb : UEmb _ 𝕀) (s1RowV m d L) := by unfold s1RowV; infer_instance
instance s2RowV_storable (d : Dev nD) (L : grid0.Coords) : BI.Storable (upEmb : UEmb _ 𝕀) (s2RowV m d L) := by unfold s2RowV; infer_instance
instance itShV_storable (d : Dev nD) (w : Fin 32) : BI.Storable (upEmb : UEmb _ 𝕀) (itShV m d w) := by unfold itShV; infer_instance
instance alShV_storable (d : Dev nD) (w : Fin 32) : BI.Storable (upEmb : UEmb _ 𝕀) (alShV m d w) := by unfold alShV; infer_instance
instance cvShV_storable (d : Dev nD) (w : Fin 32) : BI.Storable (upEmb : UEmb _ 𝕀) (cvShV m d w) := by unfold cvShV; infer_instance
instance otSegV_storable (d : Dev nD) (L : grid2.Coords) (g : Fin k2_t1_loop.trips) : BI.Storable (upEmb : UEmb _ 𝕀) (otSegV m d L g) := by unfold otSegV; infer_instance
instance G0in_storable (d : Dev nD) (L : grid0.Coords) : BI.Storable (upEmb : UEmb _ 𝕀) (G0in m d L) := by unfold G0in; infer_instance
instance G0out_storable (d : Dev nD) (L : grid0.Coords) : BI.Storable (upEmb : UEmb _ 𝕀) (G0out m d L) := by unfold G0out; infer_instance
instance G1in_storable (d : Dev nD) (L : grid2.Coords) : BI.Storable (upEmb : UEmb _ 𝕀) (G1in m d L) := by unfold G1in; infer_instance
instance G1out_storable (d : Dev nD) (L : grid2.Coords) : BI.Storable (upEmb : UEmb _ 𝕀) (G1out m d L) := by unfold G1out; infer_instance

/-- The value-carrying payloads. -/
def Pv : (K (F := Ideal)).Pay (nD := nD) (Val := Elt Ideal) (Name := ℕ) (U := UU) where
  st := fun q d c => match q with
    | 0 => bigSep Finset.univ fun s : Fin 16 => G0in m d (coordsV (Fin.cast (nCore_eq 0) c) s)
    | 1 => bigSep Finset.univ fun s : Fin 16 => G1in m d (coordsV (Fin.cast (nCore_eq 1) c) s)
  dn := fun q d c => match q with
    | 0 => bigSep Finset.univ fun s : Fin 16 => G0out m d (coordsV (Fin.cast (nCore_eq 0) c) s)
    | 1 => bigSep Finset.univ fun s : Fin 16 => G1out m d (coordsV (Fin.cast (nCore_eq 1) c) s)
  go := fun q d c i => match q with
    | 0 => G0in m d (coordsV (Fin.cast (nCore_eq 0) c) (Fin.cast (nSub_eq 0) i))
    | 1 => G1in m d (coordsV (Fin.cast (nCore_eq 1) c) (Fin.cast (nSub_eq 1) i))
  td := fun q d c i => match q with
    | 0 => G0out m d (coordsV (Fin.cast (nCore_eq 0) c) (Fin.cast (nSub_eq 0) i))
    | 1 => G1out m d (coordsV (Fin.cast (nCore_eq 1) c) (Fin.cast (nSub_eq 1) i))
  x := fun _ _ => iprop(emp)

instance Pv_storable : (Pv m).IsStorable where
  st q d c := by
    match q with
    | 0 => unfold Pv; infer_instance
    | 1 => unfold Pv; infer_instance
  dn q d c := by
    match q with
    | 0 => unfold Pv; infer_instance
    | 1 => unfold Pv; infer_instance
  go q d c i := by
    match q with
    | 0 => unfold Pv; infer_instance
    | 1 => unfold Pv; infer_instance
  td q d c i := by
    match q with
    | 0 => unfold Pv; infer_instance
    | 1 => unfold Pv; infer_instance

end Cert.Proof.KI

end
-- ==== Proof.RefTake.lean ====
/-
  The gather helper read at an index. Where the index table's entry for pair `p` is a word below 26, the helper's index
  column holds that word (no wrap: it is not negative), its validity mask holds there (the word is between 0 and 25),
  and the gathered element at (b, p, d) is the input at (b, that field, d): the start index is read signed, which for a
  word below 26 is the word itself, and the clamp to the last field changes nothing.
-/
import proofs.«210137_g30502857736458_cont_9to1_2222_4_alg».proof.Proof.RefTerm
import Idealize.ShloMosaic.Lib.IdealHost
import Idealize.ShloMosaic.Lib.Pipeline.Value
import Idealize.ShloMosaic.PureOps.Reduce

noncomputable section

namespace Cert.Proof.Ref

open Cert.ReferenceIdeal Cert.ReferenceIdeal.Gen Idealize.ShloMosaic Idealize.ShloMosaic.ValueIdx

variable {F : FTy → Type} [FloatOps F]

/-- A word below 26 is one of the 26 literals. -/
theorem word_cases {a : BitVec 32} (h : a.toNat < 26) : ∃ k : Fin 26, a = BitVec.ofNat 32 k.val :=
  ⟨⟨a.toNat, h⟩, BitVec.eq_of_toNat_eq (by rw [BitVec.toNat_ofNat]; exact (Nat.mod_eq_of_lt a.isLt).symm)⟩

/-- A fold over an index set of one element is the operation at that element and the initial value. -/
theorem fold_fin_one {α : Type} (op : α → α → α) [Std.Commutative op] [Std.Associative op] (init : α) {n : Nat} (hn : n = 1)
    (f : Fin n → α) : (Finset.univ : Finset (Fin n)).fold op init f = op (f ⟨0, by omega⟩) init := by
  subst hn
  rw [show (Finset.univ : Finset (Fin 1)) = {0} from rfl, Finset.fold_singleton]
  rfl

/-- The index column at row `p` is the table's word, when that word is below 26. -/
theorem takeIdx_apply (c : IVec S325 32) (p : Fin 325) (h : (c (ix1 p)).toNat < 26) :
    takeIdx c (ix2 p (0 : Fin 1)) = c (ix1 p) := by
  have e : takeIdx c (ix2 p (0 : Fin 1))
      = Scalar.select (IntOp.cmpi .slt (c (ix1 p)) 0#32) (IntOp.addi (c (ix1 p)) 26#32) (c (ix1 p)) := by
    unfold takeIdx
    rw [broadcastInDim_apply ![0] bcast_S325_S325x1_0 _ (ix2 p (0 : Fin 1)) (ix1 p) (by
      intro a; match a with | ⟨0, _⟩ => rfl)]
    rfl
  rw [e]
  obtain ⟨k, hk⟩ := word_cases h
  rw [hk]
  fin_cases k <;> rfl

/-- The one-axis reduction's inserted index: row `p` with the column coordinate put back. -/
theorem lift_col (hr : S325x1.Reduces [1] S325) (p : Fin 325) (k : Fin (S325x1.size 1)) :
    hr.lift (ix1 p) k = ix2 p (0 : Fin 1) := by
  funext a
  refine Fin.ext ?_
  match a with
  | ⟨0, _⟩ => rfl
  | ⟨1, _⟩ => exact Nat.lt_one_iff.mp k.isLt

/-- The validity mask holds at `p`, when the table's word is below 26. -/
theorem takeMask_apply (c : IVec S325 32) (p : Fin 325) (h : (c (ix1 p)).toNat < 26) :
    takeMask c (ix1 p) = 1#1 := by
  have hr : S325x1.Reduces [1] S325 := by decide
  unfold takeMask
  rw [Host.reduce_eq_fold_single IntOp.andi _ _ reducesTo_S325x1_S325_d1 hr h_S_ (ix1 p)]
  rw [fold_fin_one IntOp.andi _ (rfl : S325x1.size 1 = 1), Function.comp_apply, lift_col hr p]
  show IntOp.andi (IntOp.andi (IntOp.cmpi .sge (takeIdx c (ix2 p (0 : Fin 1))) 0#32)
      (IntOp.cmpi .sle (takeIdx c (ix2 p (0 : Fin 1))) 25#32)) 1#1 = 1#1
  rw [takeIdx_apply c p h]
  obtain ⟨k, hk⟩ := word_cases h
  rw [hk]
  fin_cases k <;> rfl

/-- The start-indices index the gather reads for result index (b, p, d): row `p` of the index column. -/
theorem gather_siIdx (b : Fin 4096) (p : Fin 325) (d : Fin 64) (k : Fin (gather_S4096x26x64_S325x1_S4096x325x64_02_1_n_n_1_1_4096164).startIndexMap.length) :
    (gather_S4096x26x64_S325x1_S4096x325x64_02_1_n_n_1_1_4096164).siIdx (ix3 b p d) k = ix2 p (0 : Fin 1) := by
  funext a
  refine Fin.ext ?_
  match a with
  | ⟨0, _⟩ => rfl
  | ⟨1, _⟩ =>
    have := k.isLt
    show k.val = 0
    have hl : (gather_S4096x26x64_S325x1_S4096x325x64_02_1_n_n_1_1_4096164).startIndexMap.length = 1 := rfl
    omega

/-- THE GATHER READ AT (b, p, d): the input at (b, f, d), `f` the start index at row `p` read signed and clamped to the
    last field. -/
theorem gather_apply {α : Type} (x : S4096x26x64.Idx → α) (idx : IVec S325x1 32) (b : Fin 4096) (p : Fin 325) (d : Fin 64) :
    Host.gather gather_S4096x26x64_S325x1_S4096x325x64_02_1_n_n_1_1_4096164 x idx (ix3 b p d)
      = x (ix3 b ⟨min (idx (ix2 p (0 : Fin 1))).toInt.toNat 25, by omega⟩ d) := by
  unfold Host.gather
  congr 1
  funext a
  refine Fin.ext ?_
  show (gather_S4096x26x64_S325x1_S4096x325x64_02_1_n_n_1_1_4096164).start (ix3 b p d) idx a + (gather_S4096x26x64_S325x1_S4096x325x64_02_1_n_n_1_1_4096164).batchCoord (ix3 b p d) a + (gather_S4096x26x64_S325x1_S4096x325x64_02_1_n_n_1_1_4096164).offCoord (ix3 b p d) a = _
  match a with
  | ⟨0, _⟩ =>
    have e1 : (gather_S4096x26x64_S325x1_S4096x325x64_02_1_n_n_1_1_4096164).start (ix3 b p d) idx ⟨0, by decide⟩ = 0 := rfl
    have e2 : (gather_S4096x26x64_S325x1_S4096x325x64_02_1_n_n_1_1_4096164).batchCoord (ix3 b p d) ⟨0, by decide⟩ = 0 := rfl
    have e3 : (gather_S4096x26x64_S325x1_S4096x325x64_02_1_n_n_1_1_4096164).offCoord (ix3 b p d) ⟨0, by decide⟩ = b.val := rfl
    rw [e1, e2, e3]
    show 0 + 0 + b.val = b.val
    omega
  | ⟨1, h1⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    have hm : (⟨1, h1⟩ : Fin S4096x26x64.rank) ∈ (gather_S4096x26x64_S325x1_S4096x325x64_02_1_n_n_1_1_4096164).startIndexMap := List.mem_singleton.mpr rfl
    rw [dif_pos hm, gather_siIdx]
    rfl
  | ⟨2, _⟩ =>
    have e1 : (gather_S4096x26x64_S325x1_S4096x325x64_02_1_n_n_1_1_4096164).start (ix3 b p d) idx ⟨2, by decide⟩ = 0 := rfl
    have e2 : (gather_S4096x26x64_S325x1_S4096x325x64_02_1_n_n_1_1_4096164).batchCoord (ix3 b p d) ⟨2, by decide⟩ = 0 := rfl
    have e3 : (gather_S4096x26x64_S325x1_S4096x325x64_02_1_n_n_1_1_4096164).offCoord (ix3 b p d) ⟨2, by decide⟩ = d.val := rfl
    rw [e1, e2, e3]
    show 0 + 0 + d.val = d.val
    omega

/-- THE GATHER HELPER READ AT (b, p, d): the input at (b, the table's field for `p`, d), when the table's word is below 26. -/
theorem take_apply (x : FVec F S4096x26x64 .f32) (c : IVec S325 32) (b : Fin 4096) (p : Fin 325) (d : Fin 64)
    (h : (c (ix1 p)).toNat < 26) :
    take x c (ix3 b p d) = x (ix3 b ⟨(c (ix1 p)).toNat, h⟩ d) := by
  unfold take
  rw [select_apply, broadcastInDim_apply ![1] bcast_S325_S4096x325x64_1 (takeMask c) (ix3 b p d) (ix1 p) (by
      intro a; match a with | ⟨0, _⟩ => rfl),
    takeMask_apply c p h, select_one, gather_apply]
  congr 1
  funext a
  refine Fin.ext ?_
  match a with
  | ⟨0, _⟩ => rfl
  | ⟨1, _⟩ =>
    show min (takeIdx c (ix2 p (0 : Fin 1))).toInt.toNat 25 = (c (ix1 p)).toNat
    rw [takeIdx_apply c p h]
    obtain ⟨k, hk⟩ := word_cases h
    rw [hk]
    fin_cases k <;> rfl
  | ⟨2, _⟩ => rfl

end Cert.Proof.Ref

end
-- ==== Proof.RefSpec.lean ====
/-
  The reference's mathematics, index by index over the extended reals, with no program in sight.

  The input `x` has a batch axis (4096), a field axis (26) and an embedding axis (64). A pair table lists 325 pairs of
  fields, `rowT p` and `colT p`. For batch element `b` and pair `p` the interaction is the inner product, over the
  embedding axis, of field `rowT p` with field `colT p`. Each pair's interactions are normalized over the batch — the
  mean and the biased variance are taken over the 4096 batch elements, and the deviation from the mean is divided by the
  square root of the variance plus a small constant — then scaled and shifted per pair (`gamma`, `beta`), weighted per
  pair (`w`), and summed over the pairs: one number per batch element.

  The batch count and the small constant are kept as the f32 words the reference states them with; division and square
  root are the ideal instance's (total on the extended reals: division by zero and the root of a negative number are
  junk values, as there).
-/
import Idealize.ShloMosaic.PureOps.Ideal
import Idealize.ShloMosaic.Lib.ValueIdx

noncomputable section

open scoped BigOperators

namespace Cert.Proof.Spec

open Idealize.ShloMosaic Idealize.ShloMosaic.ValueIdx

/-- The batch count, 4096, as the f32 word the reference divides by. -/
def nB : EReal := Ideal.ofBits .f32 0x45800000#32

/-- The constant added to the variance under the square root: the f32 word nearest to one hundred-thousandth. -/
def eps : EReal := Ideal.ofBits .f32 0x3727C5AC#32

/-- The batch count's word is the real number 4096. -/
theorem nB_eq : nB = ((4096 : ℝ) : EReal) := by
  unfold nB
  simp [Ideal.ofBits, Ideal.ieee, -EReal.coe_mul]; norm_num

/-- The batch count is positive. -/
theorem nB_pos : 0 < nB := by
  rw [nB_eq]; exact EReal.coe_pos.mpr (by norm_num)

/-- An input array `[4096, 26, 64]` of extended reals. -/
abbrev X : Type := (⟨3, ![4096, 26, 64]⟩ : Shape).Idx → EReal
/-- A per-pair parameter array `[325]` of extended reals. -/
abbrev V : Type := (⟨1, ![325]⟩ : Shape).Idx → EReal

section
variable (rowT colT : Fin 325 → Fin 26)

/-- The interaction of pair `p` at batch element `b`: the inner product of the two fields' embeddings. -/
def inter (x : X) (b : Fin 4096) (p : Fin 325) : EReal :=
  ∑ d : Fin 64, x (ix3 b (rowT p) d) * x (ix3 b (colT p) d)

/-- Pair `p`'s mean interaction over the batch. -/
def mean (x : X) (p : Fin 325) : EReal :=
  Ideal.div (∑ b : Fin 4096, inter rowT colT x b p) nB

/-- Pair `p`'s biased variance over the batch: the mean squared deviation from the mean. -/
def var (x : X) (p : Fin 325) : EReal :=
  Ideal.div (∑ b : Fin 4096, (inter rowT colT x b p - mean rowT colT x p) * (inter rowT colT x b p - mean rowT colT x p)) nB

/-- The normalized, scaled, shifted and weighted interaction of pair `p` at batch element `b`. -/
def term (x : X) (gamma beta w : V) (b : Fin 4096) (p : Fin 325) : EReal :=
  (Ideal.div (inter rowT colT x b p - mean rowT colT x p) (Ideal.sqrt (var rowT colT x p + eps)) * gamma (ix1 p)
      + beta (ix1 p)) * w (ix1 p)

/-- The result at batch element `b`: the sum over the 325 pairs. -/
def out (x : X) (gamma beta w : V) (b : Fin 4096) : EReal :=
  ∑ p : Fin 325, term rowT colT x gamma beta w b p

end

end Cert.Proof.Spec

end
-- ==== Proof.RefValue.lean ====
/-
  THE VALUE: the reference's result term, read at (b, 0) of its column at the ideal values, is the specification's
  result at batch element `b`, with the pair tables read off the program's two constant tables.

  Step by step: the index tables' words are below 26, so each gather reads the input at the table's field; the sum over
  the embedding axis is the interaction; the sums over the batch axis give the mean and the variance (the variance
  helper's divisor is the batch count minus the integer zero converted, which is the batch count, and it is positive,
  so the helper's guard holds); the elementwise operations read through at each index; the last sum is over the pairs.
-/
import proofs.«210137_g30502857736458_cont_9to1_2222_4_alg».proof.Proof.RefTake
import proofs.«210137_g30502857736458_cont_9to1_2222_4_alg».proof.Proof.RefSpec
import Idealize.ShloMosaic.Lib.KernelVsHost

noncomputable section

namespace Cert.Proof.Ref

open Cert.ReferenceIdeal Cert.ReferenceIdeal.Gen Idealize.ShloMosaic Idealize.ShloMosaic.ValueIdx
open scoped BigOperators

/-! ## The pair tables -/

/-- Every word of the first table is below 26. -/
theorem lit0_lt : ∀ p : Fin 325, (lit0 p).toNat < 26 := by decide
/-- Every word of the second table is below 26. -/
theorem lit1_lt : ∀ p : Fin 325, (lit1 p).toNat < 26 := by decide

/-- The first field of pair `p`, read off the first constant table. -/
def rowT (p : Fin 325) : Fin 26 := ⟨(lit0 p).toNat, lit0_lt p⟩
/-- The second field of pair `p`, read off the second constant table. -/
def colT (p : Fin 325) : Fin 26 := ⟨(lit1 p).toNat, lit1_lt p⟩

theorem rowC_apply (p : Fin 325) : rowC (ix1 p) = lit0 p := by
  unfold rowC
  exact congrArg lit0 (Fin.ext ((Shape.rowMajor_val_one (ix1 p)).trans rfl))

theorem colC_apply (p : Fin 325) : colC (ix1 p) = lit1 p := by
  unfold colC
  exact congrArg lit1 (Fin.ext ((Shape.rowMajor_val_one (ix1 p)).trans rfl))

section Take
variable {F : FTy → Type} [FloatOps F]

/-- The first gather at (b, p, d) is the input at (b, first field of p, d). -/
theorem take_row (x : FVec F S4096x26x64 .f32) (b : Fin 4096) (p : Fin 325) (d : Fin 64) :
    take x rowC (ix3 b p d) = x (ix3 b (rowT p) d) := by
  have h : (rowC (ix1 p)).toNat < 26 := by rw [rowC_apply]; exact lit0_lt p
  have e : (⟨(rowC (ix1 p)).toNat, h⟩ : Fin 26) = rowT p := Fin.ext (show (rowC (ix1 p)).toNat = (lit0 p).toNat from congrArg BitVec.toNat (rowC_apply p))
  rw [take_apply x rowC b p d h, e]

/-- The second gather at (b, p, d) is the input at (b, second field of p, d). -/
theorem take_col (x : FVec F S4096x26x64 .f32) (b : Fin 4096) (p : Fin 325) (d : Fin 64) :
    take x colC (ix3 b p d) = x (ix3 b (colT p) d) := by
  have h : (colC (ix1 p)).toNat < 26 := by rw [colC_apply]; exact lit1_lt p
  have e : (⟨(colC (ix1 p)).toNat, h⟩ : Fin 26) = colT p := Fin.ext (show (colC (ix1 p)).toNat = (lit1 p).toNat from congrArg BitVec.toNat (colC_apply p))
  rw [take_apply x colC b p d h, e]

end Take

/-! ## The stages at an index, at the ideal values -/

/-- The interactions at (b, p). -/
theorem interV_apply (x : FVec Ideal S4096x26x64 .f32) (b : Fin 4096) (p : Fin 325) :
    interV x (ix2 b p) = Spec.inter rowT colT x b p := by
  have hr : S4096x325x64.Reduces [2] S4096x325 := by decide
  unfold interV Spec.inter
  rw [hostReduceAdd_apply, Ideal.hostReduceAdd_single _ hr]
  show Ideal.ofBits .f32 0x00000000#32 + ∑ d : Fin 64, _ = ∑ d : Fin 64, _
  rw [Ideal.ofBits_zero_f32, zero_add]
  refine Finset.sum_congr rfl fun d _ => ?_
  have hl : hr.lift (ix2 b p) d = ix3 b p d := by
    funext a; refine Fin.ext ?_
    match a with
    | ⟨0, _⟩ => rfl
    | ⟨1, _⟩ => rfl
    | ⟨2, _⟩ => rfl
  rw [hl, mulf_apply, take_row, take_col]

/-- The batch-axis reduction's inserted index. -/
theorem lift_batch (hr : S4096x325.Reduces [0] S325) (p : Fin 325) (b : Fin 4096) : hr.lift (ix1 p) b = ix2 b p := by
  funext a; refine Fin.ext ?_
  match a with
  | ⟨0, _⟩ => rfl
  | ⟨1, _⟩ => rfl

/-- A row laid along every batch row, read at (b, p), is the row at (0, p). -/
theorem rows_apply {α : Type} (y : S1x325.Idx → α) (b : Fin 4096) (p : Fin 325) :
    broadcastInDim S4096x325 ![0, 1] bcast_S1x325_S4096x325_0_1 y (ix2 b p) = y (ix2 (0 : Fin 1) p) :=
  broadcastInDim_oneRow_apply bcast_S1x325_S4096x325_0_1 y b p

/-- A vector as a one-row matrix, read at (0, p). -/
theorem row_apply {α : Type} (y : S325.Idx → α) (p : Fin 325) :
    broadcastInDim S1x325 ![1] bcast_S325_S1x325_1 y (ix2 (0 : Fin 1) p) = y (ix1 p) :=
  broadcastInDim_apply ![1] bcast_S325_S1x325_1 y (ix2 (0 : Fin 1) p) (ix1 p) (by
    intro a; match a with | ⟨0, _⟩ => rfl)

/-- The mean row at (0, p). -/
theorem meanV_apply (v : FVec Ideal S4096x325 .f32) (p : Fin 325) :
    meanV v (ix2 (0 : Fin 1) p) = Ideal.div (∑ b : Fin 4096, v (ix2 b p)) Spec.nB := by
  have hr : S4096x325.Reduces [0] S325 := by decide
  unfold meanV
  rw [hostDivf_apply, row_apply, broadcastInDim_scalar_apply, hostReduceAdd_apply, Ideal.hostReduceAdd_single _ hr]
  show Ideal.div (Ideal.ofBits .f32 0x00000000#32 + ∑ b : Fin 4096, v (hr.lift (ix1 p) b)) Spec.nB = _
  rw [Ideal.ofBits_zero_f32, zero_add]
  simp only [lift_batch]

/-- The variance helper's divisor is the batch count. -/
theorem cnt_apply : cnt (F := Ideal) ix0 = Spec.nB := by
  show Ideal.ofBits .f32 0x45800000#32 - (((0#32 : BitVec 32).toInt : ℝ) : EReal) = Spec.nB
  simp [Spec.nB]

/-- The variance row at (0, p). -/
theorem varV_apply (v : FVec Ideal S4096x325 .f32) (p : Fin 325) :
    varV v (ix2 (0 : Fin 1) p)
      = Ideal.div (∑ b : Fin 4096, (v (ix2 b p) - meanV v (ix2 (0 : Fin 1) p)) * (v (ix2 b p) - meanV v (ix2 (0 : Fin 1) p)))
          Spec.nB := by
  have hr : S4096x325.Reduces [0] S325 := by decide
  have hc : broadcastInDim S1x325 ![] bcast_S_S1x325 (cmpf .ogt (cnt (F := Ideal)) (constant S_ .f32 0x00000000#32))
      (ix2 (0 : Fin 1) p) = 1#1 := by
    rw [broadcastInDim_scalar_apply]
    show Ideal.cmp .ogt (cnt (F := Ideal) ix0) (Ideal.ofBits .f32 0x00000000#32) = 1#1
    rw [cnt_apply, Ideal.ofBits_zero_f32]
    unfold Ideal.cmp
    simp [Spec.nB_pos]
  unfold varV
  rw [select_apply, hc, select_one, hostDivf_apply, row_apply, broadcastInDim_scalar_apply, cnt_apply, hostReduceAdd_apply,
    Ideal.hostReduceAdd_single _ hr]
  show Ideal.div (Ideal.ofBits .f32 0x00000000#32 + ∑ b : Fin 4096, mulf (devV v) (devV v) (hr.lift (ix1 p) b)) Spec.nB = _
  rw [Ideal.ofBits_zero_f32, zero_add]
  congr 1
  refine Finset.sum_congr rfl fun b _ => ?_
  rw [lift_batch, mulf_apply]
  unfold devV
  rw [subf_apply, rows_apply]

/-- The host's square root at an index is the ideal instance's of the element. -/
theorem hostSqrt_apply {s : Shape} {φ : FTy} (a : FVec Ideal s φ) (i : s.Idx) : Host.sqrt a i = Ideal.sqrt (a i) := rfl

/-- A per-pair parameter laid along every batch row, at (b, p). -/
theorem rowsOf_apply (g : FVec Ideal S325 .f32) (b : Fin 4096) (p : Fin 325) : rowsOf g (ix2 b p) = g (ix1 p) := by
  unfold rowsOf
  rw [rows_apply, row_apply]

/-- The weighted term at (b, p) is the specification's. -/
theorem termV_apply (x : FVec Ideal S4096x26x64 .f32) (g be w : FVec Ideal S325 .f32) (b : Fin 4096) (p : Fin 325) :
    termV x g be w (ix2 b p) = Spec.term rowT colT x g be w b p := by
  unfold termV
  rw [mulf_apply, addf_apply, mulf_apply, hostDivf_apply, subf_apply, rowsOf_apply, rowsOf_apply, rowsOf_apply,
    rows_apply, rows_apply, hostSqrt_apply, addf_apply, broadcastInDim_scalar_apply, constant_apply, varV_apply, meanV_apply]
  simp only [interV_apply, Spec.term, Spec.var, Spec.mean, Spec.eps]

/-- THE VALUE: the reference's result at (b, 0) is the specification's at `b`. -/
theorem refTerm_apply (x : FVec Ideal S4096x26x64 .f32) (g be w : FVec Ideal S325 .f32) (b : Fin 4096) :
    refTerm x g be w (ix2 b (0 : Fin 1)) = Spec.out rowT colT x g be w b := by
  have hr : S4096x325.Reduces [1] S4096 := by decide
  unfold refTerm Spec.out
  rw [broadcastInDim_apply ![0] bcast_S4096_S4096x1_0 _ (ix2 b (0 : Fin 1)) (ix1 b) (by
      intro a; match a with | ⟨0, _⟩ => rfl),
    hostReduceAdd_apply, Ideal.hostReduceAdd_single _ hr]
  show Ideal.ofBits .f32 0x00000000#32 + ∑ p : Fin 325, termV x g be w (hr.lift (ix1 b) p) = _
  rw [Ideal.ofBits_zero_f32, zero_add]
  refine Finset.sum_congr rfl fun p _ => ?_
  have hl : hr.lift (ix1 b) p = ix2 b p := by
    funext a; refine Fin.ext ?_
    match a with
    | ⟨0, _⟩ => rfl
    | ⟨1, _⟩ => rfl
  rw [hl, termV_apply]

/-- The same at every index of the column: its second coordinate is 0. -/
theorem refTerm_at (x : FVec Ideal S4096x26x64 .f32) (g be w : FVec Ideal S325 .f32) (j : S4096x1.Idx) :
    refTerm x g be w j = Spec.out rowT colT x g be w (j 0) := by
  have h1 : j 1 = (0 : Fin 1) := Fin.ext (Nat.lt_one_iff.mp (show (j 1).val < 1 from (j 1).isLt))
  have hj : j = ix2 (j 0) (0 : Fin 1) := (eq_ix2 j).trans (congrArg (ix2 (j 0)) h1)
  calc refTerm x g be w j = refTerm x g be w (ix2 (j 0) (0 : Fin 1)) := congrArg (refTerm x g be w) hj
    _ = Spec.out rowT colT x g be w (j 0) := refTerm_apply x g be w (j 0)

end Cert.Proof.Ref

end
-- ==== Proof.BridgeBasic.lean ====
/-
  Tools for comparing the two specifications: a sum of real numbers read as extended reals; a sum over a product range
  split into a double sum, and the triple split of 4096 batch elements into 16 lanes, 32 workers and 8 groups; the
  literal words 1/4096, 1/16 and the small positive constant as real numbers; the ideal instance's division, square
  root and reciprocal square root at real arguments; and the variance identity: the mean of the squares minus the
  square of the mean is the mean squared deviation, which is not negative.
-/
import proofs.«210137_g30502857736458_cont_9to1_2222_4_alg».proof.Proof.KSpec
import proofs.«210137_g30502857736458_cont_9to1_2222_4_alg».proof.Proof.RefSpec
import Mathlib.Tactic.Ring
import Mathlib.Tactic.Linarith
import Mathlib.Tactic.FieldSimp
import Mathlib.Tactic.Positivity

noncomputable section

open scoped BigOperators

namespace Cert.Proof.Bridge

open Idealize.ShloMosaic Finset

/-! ## Sums -/

/-- A finite sum of real numbers, read in the extended reals, is the sum of the readings. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum over m n consecutive numbers is the double sum over the quotient and the remainder. -/
theorem sum_range_mul {M : Type*} [AddCommMonoid M] (f : ℕ → M) (m n : ℕ) :
    ∑ b ∈ range (m * n), f b = ∑ i ∈ range m, ∑ j ∈ range n, f (n * i + j) := by
  induction m with
  | zero => simp
  | succ m ih =>
    rw [Nat.succ_mul, Finset.sum_range_add, ih, Finset.sum_range_succ]
    congr 1
    refine Finset.sum_congr rfl fun j _ => ?_
    rw [Nat.mul_comm m n]

/-- The 4096 batch elements as lane l of group 8 w + g: b = 16 (8 w + g) + l. -/
theorem sum_lanes {M : Type*} [AddCommMonoid M] (F : ℕ → M) :
    ∑ l ∈ range 16, ∑ w ∈ range 32, ∑ g ∈ range 8, F (16 * (8 * w + g) + l) = ∑ b ∈ range 4096, F b := by
  rw [show (4096 : ℕ) = 256 * 16 from rfl, sum_range_mul F 256 16, show (256 : ℕ) = 32 * 8 from rfl,
    sum_range_mul (fun grp => ∑ l ∈ range 16, F (16 * grp + l)) 32 8]
  rw [Finset.sum_comm]
  refine Finset.sum_congr rfl fun w _ => ?_
  rw [Finset.sum_comm]

/-! ## The literal words -/

/-- The word 0x39800000 is 1/4096. -/
theorem inv4096_eq : KSpec.inv4096 = (((1 : ℝ) / 4096 : ℝ) : EReal) := by
  unfold KSpec.inv4096
  simp [Ideal.ofBits, Ideal.ieee, -EReal.coe_mul]; norm_num

/-- The word 0x3D800000 is 1/16. -/
theorem inv16_eq : KSpec.inv16 = (((1 : ℝ) / 16 : ℝ) : EReal) := by
  unfold KSpec.inv16
  simp [Ideal.ofBits, Ideal.ieee, -EReal.coe_mul]; norm_num

/-- The small constant as a real number. -/
def epsR : ℝ := 10995116 / 1099511627776

theorem epsR_pos : 0 < epsR := by unfold epsR; norm_num

/-- The word 0x3727C5AC is that number. -/
theorem eps_eq : Spec.eps = ((epsR : ℝ) : EReal) := by
  unfold Spec.eps epsR
  simp [Ideal.ofBits, Ideal.ieee, -EReal.coe_mul]; norm_num

theorem keps_eq : KSpec.eps = ((epsR : ℝ) : EReal) := eps_eq

/-! ## The ideal instance's corner operations at real arguments -/

/-- Division of real numbers, the divisor not zero. -/
theorem div_coe_coe (a r : ℝ) (h : r ≠ 0) : Ideal.div (a : EReal) (r : EReal) = ((a * (1 / r) : ℝ) : EReal) := by
  rw [Ideal.div_coe h, ← EReal.coe_mul]

/-- The square root of a real number that is not negative. -/
theorem sqrt_coe_nonneg (r : ℝ) (h : 0 ≤ r) : Ideal.sqrt (r : EReal) = ((Real.sqrt r : ℝ) : EReal) := by
  rw [Ideal.sqrt_coe, if_neg (not_lt.mpr h)]

/-- The reciprocal square root of a positive real number. -/
theorem rsqrt_coe_pos (r : ℝ) (h : 0 < r) : Ideal.rsqrt (r : EReal) = (((Real.sqrt r)⁻¹ : ℝ) : EReal) := by
  rw [Ideal.rsqrt_coe, if_neg (not_lt.mpr h.le), if_neg h.ne']

/-! ## The variance identity -/

section Variance
variable (a : Fin 4096 → ℝ)

/-- The mean. -/
def mu : ℝ := (∑ b, a b) * (1 / 4096)
/-- The mean of the squares minus the square of the mean. -/
def vk : ℝ := (∑ b, a b * a b) * (1 / 4096) - mu a * mu a
/-- The mean squared deviation. -/
def vs : ℝ := (∑ b, (a b - mu a) * (a b - mu a)) * (1 / 4096)

theorem vs_nonneg : 0 ≤ vs a := by
  unfold vs
  exact mul_nonneg (Finset.sum_nonneg fun b _ => mul_self_nonneg _) (by norm_num)

theorem vk_eq_vs : vk a = vs a := by
  unfold vk vs
  have h1 : ∑ b, (a b - mu a) * (a b - mu a)
      = (∑ b, a b * a b) - 2 * mu a * (∑ b, a b) + 4096 * (mu a * mu a) := by
    have : ∀ b, (a b - mu a) * (a b - mu a) = a b * a b - 2 * mu a * a b + mu a * mu a := fun b => by ring
    simp only [this, Finset.sum_add_distrib, Finset.sum_sub_distrib, ← Finset.mul_sum, Finset.sum_const, Finset.card_univ,
      Fintype.card_fin, nsmul_eq_mul]
    push_cast
    ring
  have h2 : (∑ b, a b) = 4096 * mu a := by unfold mu; ring
  rw [h1, h2]
  ring

theorem vk_add_eps_pos : 0 < vk a + epsR := by
  rw [vk_eq_vs]; exact add_pos_of_nonneg_of_pos (vs_nonneg a) epsR_pos

end Variance

end Cert.Proof.Bridge

end
-- ==== Proof.BridgePairs.lean ====
/-
  Consequences of the pair tables: distinct pairs have distinct slots, every slot is below 832, the fields of a pair
  column are the pair's, a per-pair vector scattered into the slots reads the pair's entry at the pair's columns and 0 at
  a slot no pair names, the double sum over the fields i < j is the sum over the pairs, and a sum over the slots of a
  quantity carried by the pairs is the sum over the pairs.
-/
import proofs.«210137_g30502857736458_cont_9to1_2222_4_alg».proof.Proof.BridgeBasic

noncomputable section

open scoped BigOperators

namespace Cert.Proof.Bridge

open Idealize.ShloMosaic Idealize.ShloMosaic.ValueIdx Finset

section Tables
variable {slotOf : ℕ → ℕ} {rowT colT : Fin 325 → Fin 26}
  (hslot : ∀ p : Fin 325, slotOf p.val = 32 * (rowT p).val + (colT p).val)
  (hlt : ∀ p : Fin 325, (colT p).val < (rowT p).val)
  (hbij : ∀ i j : Fin 26, i.val < j.val → ∃! p : Fin 325, colT p = i ∧ rowT p = j)
include hslot

/-- Every slot is below 832. -/
theorem slot_lt (p : Fin 325) : slotOf p.val < 832 := by
  rw [hslot]; have := (rowT p).isLt; have := (colT p).isLt; omega

theorem col_div16 (q l : ℕ) (hl : l < 16) : (16 * q + l) / 16 = q := by omega
theorem col_mod16 (q l : ℕ) (hl : l < 16) : (16 * q + l) % 16 = l := by omega

/-- The smaller field of a pair column. -/
theorem col_lo (p : Fin 325) (l : ℕ) (hl : l < 16) : ((16 * slotOf p.val + l) / 16) % 32 = (colT p).val := by
  rw [hslot]; have := (colT p).isLt; omega
/-- The larger field of a pair column. -/
theorem col_hi (p : Fin 325) (l : ℕ) (hl : l < 16) : (16 * slotOf p.val + l) / 512 = (rowT p).val := by
  rw [hslot]; have := (colT p).isLt; omega

include hlt
/-- A pair's columns are pair columns. -/
theorem col_pair (p : Fin 325) (l : ℕ) (hl : l < 16) : KSpec.pairCol (16 * slotOf p.val + l) := by
  unfold KSpec.pairCol
  rw [col_lo hslot p l hl, col_hi hslot p l hl]; exact hlt p

include hbij
/-- Distinct pairs have distinct slots. -/
theorem slot_inj (p p' : Fin 325) (h : slotOf p.val = slotOf p'.val) : p = p' := by
  rw [hslot, hslot] at h
  have hc := (colT p).isLt; have hc' := (colT p').isLt
  have h1 : (rowT p').val = (rowT p).val := by omega
  have h2 : (colT p').val = (colT p).val := by omega
  obtain ⟨q, _, hq⟩ := hbij (colT p) (rowT p) (hlt p)
  rw [hq p ⟨rfl, rfl⟩, hq p' ⟨Fin.ext h2, Fin.ext h1⟩]

/-- A scattered vector at a pair's column is the pair's entry. -/
theorem scat_pair (v : KSpec.V325) (p : Fin 325) (l : ℕ) (hl : l < 16) :
    KSpec.scat slotOf v (16 * slotOf p.val + l) = v (ix1 p) := by
  unfold KSpec.scat
  rw [col_div16 hslot _ l hl, Finset.sum_eq_single p.val]
  · rw [if_pos rfl]; unfold KSpec.vN; rw [dif_pos p.isLt]
  · intro p' hp' hne
    rw [if_neg]
    intro h
    exact hne (congrArg Fin.val (slot_inj hslot hlt hbij ⟨p', mem_range.mp hp'⟩ p h))
  · intro h; exact absurd (mem_range.mpr p.isLt) h

omit hlt hbij in
/-- A scattered vector at a slot no pair names is 0. -/
theorem scat_none (v : KSpec.V325) (n : ℕ) (h : ∀ p : Fin 325, slotOf p.val ≠ n / 16) : KSpec.scat slotOf v n = 0 := by
  unfold KSpec.scat
  refine Finset.sum_eq_zero fun p' hp' => ?_
  rw [if_neg (h ⟨p', mem_range.mp hp'⟩)]

/-- A quantity carried by the pairs, placed at the pairs' slots: at a pair's slot it is the pair's. -/
theorem tau_pair (T : Fin 325 → ℝ) (p : Fin 325) :
    (∑ p' : Fin 325, if slotOf p'.val = slotOf p.val then T p' else 0) = T p := by
  rw [Finset.sum_eq_single p]
  · rw [if_pos rfl]
  · intro p' _ hne
    rw [if_neg]
    intro h
    exact hne (slot_inj hslot hlt hbij p' p h)
  · intro h; exact absurd (Finset.mem_univ p) h

omit hslot hlt hbij in
/-- … and at a slot no pair names it is 0. -/
theorem tau_none (T : Fin 325 → ℝ) (q : ℕ) (h : ∀ p : Fin 325, slotOf p.val ≠ q) :
    (∑ p' : Fin 325, if slotOf p'.val = q then T p' else 0) = 0 :=
  Finset.sum_eq_zero fun p' _ => if_neg (h p')

omit hlt hbij in
/-- Summed over the slots, it is the sum over the pairs. -/
theorem sum_slots (T : Fin 325 → ℝ) :
    ∑ q ∈ range 832, (∑ p : Fin 325, if slotOf p.val = q then T p else 0) = ∑ p, T p := by
  rw [Finset.sum_comm]
  refine Finset.sum_congr rfl fun p _ => ?_
  rw [Finset.sum_ite_eq, if_pos (mem_range.mpr (slot_lt hslot p))]

omit hslot in
/-- The double sum over the fields i < j, j from 1 to 25, is the sum over the pairs. -/
theorem sum_pairs {M : Type*} [AddCommMonoid M] (G : ℕ → ℕ → M) :
    ∑ j ∈ range 25, ∑ i ∈ range (j + 1), G (j + 1) i = ∑ p : Fin 325, G (rowT p).val (colT p).val := by
  rw [Finset.sum_sigma']
  symm
  refine Finset.sum_bij (fun p _ => (⟨(rowT p).val - 1, (colT p).val⟩ : (_ : ℕ) × ℕ)) ?_ ?_ ?_ ?_
  · intro p _
    have := hlt p; have := (rowT p).isLt
    simp only [Finset.mem_sigma, mem_range]
    omega
  · intro p _ p' _ h
    have h1 : (rowT p).val - 1 = (rowT p').val - 1 := congrArg Sigma.fst h
    have h2 : (colT p).val = (colT p').val := by
      have := congrArg (fun s : (_ : ℕ) × ℕ => s.2) h
      exact this
    have := hlt p; have := hlt p'
    have h3 : (rowT p').val = (rowT p).val := by omega
    obtain ⟨q, _, hq⟩ := hbij (colT p) (rowT p) (hlt p)
    rw [hq p ⟨rfl, rfl⟩, hq p' ⟨Fin.ext h2.symm, Fin.ext h3⟩]
  · rintro ⟨j, i⟩ hji
    simp only [Finset.mem_sigma, mem_range] at hji
    obtain ⟨p, ⟨hc, hr⟩, _⟩ := hbij ⟨i, by omega⟩ ⟨j + 1, by omega⟩ (by show i < j + 1; omega)
    refine ⟨p, Finset.mem_univ p, ?_⟩
    rw [hc, hr]
    rfl
  · intro p _
    have := hlt p
    show G (rowT p).val (colT p).val = G ((rowT p).val - 1 + 1) (colT p).val
    rw [Nat.sub_add_cancel (by omega)]

end Tables

end Cert.Proof.Bridge

end
-- ==== Proof.BridgeKernel.lean ====
/-
  The kernel program's specification equals the reference's, for real inputs.

  Fix real arrays behind the four arguments. For pair p write a_b for the inner product of its two fields at batch
  element b. At a pair's columns the kernel's stages are real numbers: the chunk totals are the sums of a_b and of a_b²
  over the 4096 batch elements (lane, worker and group together run over them once), the mean is their 1/4096, the
  variance the mean of the squares minus the square of the mean, the scale the weight times gamma over the root of
  variance plus the constant. The offset sums, over the slots, weight times (beta minus gamma mean over root): a slot no
  pair names contributes 0 (its weight is 0), a pair's slot its sixteen equal lanes, and the sixteenth restores one.
  The reference normalizes the deviation from the mean by the root of the mean squared deviation plus the constant; the
  variance identity makes the two variances equal, and then the two results differ by rearrangement only.
-/
import proofs.«210137_g30502857736458_cont_9to1_2222_4_alg».proof.Proof.BridgePairs

noncomputable section

open scoped BigOperators

namespace Cert.Proof.Bridge

open Idealize.ShloMosaic Idealize.ShloMosaic.ValueIdx Finset

section Real
variable (xr : (⟨3, ![4096, 26, 64]⟩ : Shape).Idx → ℝ)

/-- The input read as extended reals. -/
abbrev xE : KSpec.X := fun i => (xr i : EReal)

/-- x[b, f, e] as a real number, 0 out of range. -/
def xNr (b f e : ℕ) : ℝ :=
  if h : b < 4096 ∧ f < 26 ∧ e < 64 then xr (ix3 (⟨b, h.1⟩ : Fin 4096) (⟨f, h.2.1⟩ : Fin 26) (⟨e, h.2.2⟩ : Fin 64)) else 0

theorem xN_coe (b f e : ℕ) : KSpec.xN (xE xr) b f e = ((xNr xr b f e : ℝ) : EReal) := by
  unfold KSpec.xN xNr
  split <;> rfl

/-- The pair product as a real number. -/
def interR (b i j : ℕ) : ℝ := ∑ e ∈ range 64, xNr xr b i e * xNr xr b j e

theorem inter_coe (b i j : ℕ) : KSpec.inter (xE xr) b i j = ((interR xr b i j : ℝ) : EReal) := by
  unfold KSpec.inter interR
  rw [← coe_sum]
  refine Finset.sum_congr rfl fun e _ => ?_
  rw [xN_coe, xN_coe, EReal.coe_mul]

variable {rowT colT : Fin 325 → Fin 26}

/-- Pair p's product at batch element b, as the reference writes it. -/
def ar (rowT colT : Fin 325 → Fin 26) (p : Fin 325) (b : Fin 4096) : ℝ :=
  ∑ d : Fin 64, xr (ix3 b (rowT p) d) * xr (ix3 b (colT p) d)

theorem specInter_coe (p : Fin 325) (b : Fin 4096) :
    Spec.inter rowT colT (xE xr) b p = ((ar xr rowT colT p b : ℝ) : EReal) := by
  unfold Spec.inter ar
  rw [← coe_sum]
  refine Finset.sum_congr rfl fun d _ => ?_
  rw [EReal.coe_mul]

/-- The kernel's pair product at a batch element in range is the reference's. -/
theorem interR_eq (p : Fin 325) (b : Fin 4096) :
    interR xr b.val (colT p).val (rowT p).val = ar xr rowT colT p b := by
  unfold interR ar
  rw [Finset.sum_range]
  refine Finset.sum_congr rfl fun d _ => ?_
  unfold xNr
  rw [dif_pos ⟨b.isLt, (colT p).isLt, d.isLt⟩, dif_pos ⟨b.isLt, (rowT p).isLt, d.isLt⟩]
  exact mul_comm _ _

end Real

section Pair
variable (xr : (⟨3, ![4096, 26, 64]⟩ : Shape).Idx → ℝ) (gr br wr : (⟨1, ![325]⟩ : Shape).Idx → ℝ)
variable {slotOf : ℕ → ℕ} {rowT colT : Fin 325 → Fin 26}
  (hslot : ∀ p : Fin 325, slotOf p.val = 32 * (rowT p).val + (colT p).val)
  (hlt : ∀ p : Fin 325, (colT p).val < (rowT p).val)
  (hbij : ∀ i j : Fin 26, i.val < j.val → ∃! p : Fin 325, colT p = i ∧ rowT p = j)

/-- A per-pair real vector read as extended reals. -/
abbrev vE (v : (⟨1, ![325]⟩ : Shape).Idx → ℝ) : KSpec.V325 := fun i => (v i : EReal)

include hslot

/-- The pair-product row at a pair's column. -/
theorem IT_pair (p : Fin 325) (grp l : ℕ) (hl : l < 16) :
    KSpec.IT (xE xr) grp (16 * slotOf p.val + l)
      = ((interR xr (16 * grp + l) (colT p).val (rowT p).val : ℝ) : EReal) := by
  unfold KSpec.IT
  rw [col_mod16 hslot _ l hl, col_lo hslot p l hl, col_hi hslot p l hl, inter_coe]

omit hslot in
theorem sum_aN (p : Fin 325) :
    ∑ b' ∈ range 4096, interR xr b' (colT p).val (rowT p).val = ∑ b : Fin 4096, ar xr rowT colT p b := by
  rw [Finset.sum_range]; exact Finset.sum_congr rfl fun b _ => interR_eq xr p b

omit hslot in
theorem sum_aN2 (p : Fin 325) :
    ∑ b' ∈ range 4096, interR xr b' (colT p).val (rowT p).val * interR xr b' (colT p).val (rowT p).val
      = ∑ b : Fin 4096, ar xr rowT colT p b * ar xr rowT colT p b := by
  rw [Finset.sum_range]; exact Finset.sum_congr rfl fun b _ => by rw [interR_eq xr p b]

include hlt

/-- The chunk total of the partial sums at a pair's column: the sum of the pair's products over the batch. -/
theorem tot_S1P (p : Fin 325) (l : ℕ) (hl : l < 16) :
    KSpec.tot (KSpec.S1P (xE xr)) (16 * slotOf p.val + l) = ((∑ b : Fin 4096, ar xr rowT colT p b : ℝ) : EReal) := by
  unfold KSpec.tot
  rw [col_div16 hslot _ l hl, ← sum_aN xr p, ← coe_sum,
    ← sum_lanes (fun b' => ((interR xr b' (colT p).val (rowT p).val : ℝ) : EReal))]
  refine Finset.sum_congr rfl fun l' hl' => Finset.sum_congr rfl fun w _ => ?_
  have hl'' := mem_range.mp hl'
  unfold KSpec.S1P
  rw [if_pos (col_pair hslot hlt p l' hl'')]
  exact Finset.sum_congr rfl fun g _ => IT_pair xr hslot p (8 * w + g) l' hl''

/-- … and of the partial sums of squares. -/
theorem tot_S2P (p : Fin 325) (l : ℕ) (hl : l < 16) :
    KSpec.tot (KSpec.S2P (xE xr)) (16 * slotOf p.val + l)
      = ((∑ b : Fin 4096, ar xr rowT colT p b * ar xr rowT colT p b : ℝ) : EReal) := by
  unfold KSpec.tot
  rw [col_div16 hslot _ l hl, ← sum_aN2 xr p, ← coe_sum,
    ← sum_lanes (fun b' => ((interR xr b' (colT p).val (rowT p).val * interR xr b' (colT p).val (rowT p).val : ℝ) : EReal))]
  refine Finset.sum_congr rfl fun l' hl' => Finset.sum_congr rfl fun w _ => ?_
  have hl'' := mem_range.mp hl'
  unfold KSpec.S2P
  rw [if_pos (col_pair hslot hlt p l' hl'')]
  refine Finset.sum_congr rfl fun g _ => ?_
  rw [IT_pair xr hslot p (8 * w + g) l' hl'', EReal.coe_mul]

/-- The mean at a pair's column. -/
theorem MEAN_pair (p : Fin 325) (l : ℕ) (hl : l < 16) :
    KSpec.MEAN (KSpec.S1P (xE xr)) (16 * slotOf p.val + l) = ((mu (ar xr rowT colT p) : ℝ) : EReal) := by
  unfold KSpec.MEAN mu
  rw [tot_S1P xr hslot hlt p l hl, inv4096_eq, ← EReal.coe_mul]

/-- The variance at a pair's column. -/
theorem VAR_pair (p : Fin 325) (l : ℕ) (hl : l < 16) :
    KSpec.VAR (KSpec.S1P (xE xr)) (KSpec.S2P (xE xr)) (16 * slotOf p.val + l) = ((vk (ar xr rowT colT p) : ℝ) : EReal) := by
  unfold KSpec.VAR vk
  rw [tot_S2P xr hslot hlt p l hl, MEAN_pair xr hslot hlt p l hl, inv4096_eq, ← EReal.coe_mul, ← EReal.coe_mul,
    ← EReal.coe_sub]

/-- One over the root of the variance plus the constant. -/
def rho (rowT colT : Fin 325 → Fin 26) (p : Fin 325) : ℝ := (Real.sqrt (vk (ar xr rowT colT p) + epsR))⁻¹

theorem RSTD_pair (p : Fin 325) (l : ℕ) (hl : l < 16) :
    KSpec.RSTD (KSpec.S1P (xE xr)) (KSpec.S2P (xE xr)) (16 * slotOf p.val + l) = ((rho xr rowT colT p : ℝ) : EReal) := by
  unfold KSpec.RSTD rho
  rw [VAR_pair xr hslot hlt p l hl, keps_eq, ← EReal.coe_add, rsqrt_coe_pos _ (vk_add_eps_pos _)]

/-- The offset's term carried by pair p. -/
def Tk (rowT colT : Fin 325 → Fin 26) (p : Fin 325) : ℝ :=
  wr (ix1 p) * (br (ix1 p) - (gr (ix1 p) * mu (ar xr rowT colT p)) * rho xr rowT colT p)

include hbij

/-- The scale at a pair's column. -/
theorem ALPHA_pair (p : Fin 325) (l : ℕ) (hl : l < 16) :
    KSpec.ALPHA (KSpec.S1P (xE xr)) (KSpec.S2P (xE xr)) (KSpec.scat slotOf (vE wr)) (KSpec.scat slotOf (vE gr))
        (16 * slotOf p.val + l)
      = ((wr (ix1 p) * gr (ix1 p) * rho xr rowT colT p : ℝ) : EReal) := by
  unfold KSpec.ALPHA
  rw [scat_pair hslot hlt hbij _ p l hl, scat_pair hslot hlt hbij _ p l hl, RSTD_pair xr hslot hlt p l hl,
    ← EReal.coe_mul, ← EReal.coe_mul]

/-- The offset's summand at column 16 q + l is the quantity the pairs carry, placed at the slots. -/
theorem cterm (q l : ℕ) (hl : l < 16) :
    KSpec.scat slotOf (vE wr) (16 * q + l)
        * (KSpec.scat slotOf (vE br) (16 * q + l)
          - (KSpec.scat slotOf (vE gr) (16 * q + l) * KSpec.MEAN (KSpec.S1P (xE xr)) (16 * q + l))
            * KSpec.RSTD (KSpec.S1P (xE xr)) (KSpec.S2P (xE xr)) (16 * q + l))
      = ((∑ p' : Fin 325, if slotOf p'.val = q then Tk xr gr br wr rowT colT p' else 0 : ℝ) : EReal) := by
  by_cases h : ∃ p : Fin 325, slotOf p.val = q
  · obtain ⟨p, rfl⟩ := h
    rw [tau_pair hslot hlt hbij, scat_pair hslot hlt hbij _ p l hl, scat_pair hslot hlt hbij _ p l hl,
      scat_pair hslot hlt hbij _ p l hl, MEAN_pair xr hslot hlt p l hl, RSTD_pair xr hslot hlt p l hl,
      ← EReal.coe_mul, ← EReal.coe_mul, ← EReal.coe_sub, ← EReal.coe_mul]
    rfl
  · have h' : ∀ p : Fin 325, slotOf p.val ≠ (16 * q + l) / 16 := by
      intro p hp; exact h ⟨p, by rw [hp]; omega⟩
    rw [scat_none hslot _ _ h', zero_mul, tau_none _ _ (fun p hp => h ⟨p, hp⟩), EReal.coe_zero]

/-- THE OFFSET: the sum over the pairs of weight times (beta minus gamma mean over root). -/
theorem CVAL_eq :
    KSpec.CVAL (KSpec.S1P (xE xr)) (KSpec.S2P (xE xr)) (KSpec.scat slotOf (vE wr)) (KSpec.scat slotOf (vE gr))
        (KSpec.scat slotOf (vE br))
      = ((∑ p : Fin 325, Tk xr gr br wr rowT colT p : ℝ) : EReal) := by
  unfold KSpec.CVAL
  rw [show (13312 : ℕ) = 832 * 16 from rfl, sum_range_mul,
    Finset.sum_congr rfl fun q _ => Finset.sum_congr rfl fun l hl =>
      cterm xr gr br wr hslot hlt hbij q l (mem_range.mp hl)]
  simp only [coe_sum]
  rw [inv16_eq, ← EReal.coe_mul]
  congr 1
  simp only [Finset.sum_const, card_range, nsmul_eq_mul]
  rw [← Finset.mul_sum, sum_slots hslot]
  push_cast
  ring

end Pair

end Cert.Proof.Bridge

end
-- ==== Proof.BridgeOut.lean ====
/-
  THE BRIDGE: for real inputs, the kernel program's specification and the reference's agree at every batch element.
  The reference's stages are read as real numbers (its mean and variance by division by 4096, its normalization by
  division by the root of the variance plus the constant, which is positive); the kernel's result is its offset plus the
  sum over the pairs of scale times product; pair by pair the two differ by the variance identity and a rearrangement.
-/
import proofs.«210137_g30502857736458_cont_9to1_2222_4_alg».proof.Proof.BridgeKernel

noncomputable section

open scoped BigOperators

namespace Cert.Proof.Bridge

open Idealize.ShloMosaic Idealize.ShloMosaic.ValueIdx Finset

section Out
variable (xr : (⟨3, ![4096, 26, 64]⟩ : Shape).Idx → ℝ) (gr br wr : (⟨1, ![325]⟩ : Shape).Idx → ℝ)
variable {slotOf : ℕ → ℕ} {rowT colT : Fin 325 → Fin 26}

/-- The reference's mean of pair p. -/
theorem specMean_coe (p : Fin 325) : Spec.mean rowT colT (xE xr) p = ((mu (ar xr rowT colT p) : ℝ) : EReal) := by
  unfold Spec.mean mu
  rw [Finset.sum_congr rfl fun b _ => specInter_coe xr p b, coe_sum, Spec.nB_eq, div_coe_coe _ _ (by norm_num)]

/-- The reference's variance of pair p. -/
theorem specVar_coe (p : Fin 325) : Spec.var rowT colT (xE xr) p = ((vs (ar xr rowT colT p) : ℝ) : EReal) := by
  unfold Spec.var vs
  rw [specMean_coe]
  have e : ∀ b : Fin 4096,
      (Spec.inter rowT colT (xE xr) b p - ((mu (ar xr rowT colT p) : ℝ) : EReal))
          * (Spec.inter rowT colT (xE xr) b p - ((mu (ar xr rowT colT p) : ℝ) : EReal))
        = (((ar xr rowT colT p b - mu (ar xr rowT colT p)) * (ar xr rowT colT p b - mu (ar xr rowT colT p)) : ℝ) : EReal) :=
    fun b => by rw [specInter_coe, ← EReal.coe_sub, ← EReal.coe_mul]
  rw [Finset.sum_congr rfl fun b _ => e b, coe_sum, Spec.nB_eq, div_coe_coe _ _ (by norm_num)]

/-- The reference's term of pair p at batch element b, as a real number. -/
def Ts (rowT colT : Fin 325 → Fin 26) (p : Fin 325) (b : Fin 4096) : ℝ :=
  ((ar xr rowT colT p b - mu (ar xr rowT colT p)) * (1 / Real.sqrt (vs (ar xr rowT colT p) + epsR)) * gr (ix1 p)
      + br (ix1 p)) * wr (ix1 p)

theorem specTerm_coe (p : Fin 325) (b : Fin 4096) :
    Spec.term rowT colT (xE xr) (vE gr) (vE br) (vE wr) b p = ((Ts xr gr br wr rowT colT p b : ℝ) : EReal) := by
  have hpos : 0 < vs (ar xr rowT colT p) + epsR := add_pos_of_nonneg_of_pos (vs_nonneg _) epsR_pos
  unfold Spec.term Ts
  rw [specInter_coe, specMean_coe, specVar_coe, eps_eq, ← EReal.coe_sub, ← EReal.coe_add, sqrt_coe_nonneg _ hpos.le,
    div_coe_coe _ _ (Real.sqrt_pos.mpr hpos).ne', ← EReal.coe_mul, ← EReal.coe_add, ← EReal.coe_mul]

variable (hslot : ∀ p : Fin 325, slotOf p.val = 32 * (rowT p).val + (colT p).val)
  (hlt : ∀ p : Fin 325, (colT p).val < (rowT p).val)
  (hbij : ∀ i j : Fin 26, i.val < j.val → ∃! p : Fin 325, colT p = i ∧ rowT p = j)
include hslot hlt hbij

/-- The two specifications agree, the inputs given as real arrays. -/
theorem OUT_eq_coe (b : Fin 4096) :
    KSpec.OUT slotOf (xE xr) (vE gr) (vE br) (vE wr) b.val = Spec.out rowT colT (xE xr) (vE gr) (vE br) (vE wr) b := by
  have hl : b.val % 16 < 16 := Nat.mod_lt _ (by norm_num)
  have hb : 16 * (b.val / 16) + b.val % 16 = b.val := Nat.div_add_mod _ _
  unfold KSpec.OUT KSpec.OUTrow Spec.out
  rw [CVAL_eq xr gr br wr hslot hlt hbij]
  rw [sum_pairs hlt hbij (fun J i =>
    KSpec.ALPHA (KSpec.S1P (xE xr)) (KSpec.S2P (xE xr)) (KSpec.scat slotOf (vE wr)) (KSpec.scat slotOf (vE gr))
        (16 * (32 * J + i) + b.val % 16)
      * KSpec.IT (xE xr) (b.val / 16) (16 * (32 * J + i) + b.val % 16))]
  have e : ∀ p : Fin 325,
      KSpec.ALPHA (KSpec.S1P (xE xr)) (KSpec.S2P (xE xr)) (KSpec.scat slotOf (vE wr)) (KSpec.scat slotOf (vE gr))
          (16 * (32 * (rowT p).val + (colT p).val) + b.val % 16)
        * KSpec.IT (xE xr) (b.val / 16) (16 * (32 * (rowT p).val + (colT p).val) + b.val % 16)
      = ((wr (ix1 p) * gr (ix1 p) * rho xr rowT colT p * ar xr rowT colT p b : ℝ) : EReal) := by
    intro p
    rw [← hslot p, ALPHA_pair xr gr wr hslot hlt hbij p _ hl, IT_pair xr hslot p _ _ hl, hb, interR_eq xr p b,
      ← EReal.coe_mul]
  rw [Finset.sum_congr rfl fun p _ => e p, coe_sum, ← EReal.coe_add, ← Finset.sum_add_distrib,
    Finset.sum_congr rfl fun p _ => specTerm_coe xr gr br wr p b, coe_sum]
  congr 1
  refine Finset.sum_congr rfl fun p _ => ?_
  unfold Tk Ts rho
  rw [vk_eq_vs]
  ring

end Out

/-- THE BRIDGE. For pair tables that agree (pair p's slot is 32 times its larger field plus its smaller, the smaller
    below the larger, every pair of fields occurring exactly once) and arguments every element of which is a real
    number, the kernel program's result at batch element b is the reference's. -/
theorem OUT_eq (slotOf : ℕ → ℕ) (rowT colT : Fin 325 → Fin 26)
    (hslot : ∀ p : Fin 325, slotOf p.val = 32 * (rowT p).val + (colT p).val)
    (hlt : ∀ p : Fin 325, (colT p).val < (rowT p).val)
    (hbij : ∀ i j : Fin 26, i.val < j.val → ∃! p : Fin 325, colT p = i ∧ rowT p = j)
    (x : KSpec.X) (gamma beta w : KSpec.V325)
    (hx : ∀ i, ∃ r : ℝ, x i = (r : EReal)) (hg : ∀ i, ∃ r : ℝ, gamma i = (r : EReal))
    (hb : ∀ i, ∃ r : ℝ, beta i = (r : EReal)) (hw : ∀ i, ∃ r : ℝ, w i = (r : EReal)) (b : Fin 4096) :
    KSpec.OUT slotOf x gamma beta w b.val = Spec.out rowT colT x gamma beta w b := by
  choose xr hxr using hx
  choose gr hgr using hg
  choose br hbr using hb
  choose wr hwr using hw
  obtain rfl : x = xE xr := funext hxr
  obtain rfl : gamma = vE gr := funext hgr
  obtain rfl : beta = vE br := funext hbr
  obtain rfl : w = vE wr := funext hwr
  exact OUT_eq_coe xr gr br wr hslot hlt hbij b

end Cert.Proof.Bridge

end
-- ==== Proof.BridgeFinite.lean ====
/-
  From the precondition to real inputs. The precondition says that "all elements have absolute value below plus
  infinity" holds of each of the four arguments, the four conjoined. An extended real whose absolute value is below
  plus infinity is neither infinity, so it is a real number.
-/
import proofs.«210137_g30502857736458_cont_9to1_2222_4_alg».proof.Defs
import proofs.«210137_g30502857736458_cont_9to1_2222_4_alg».proof.Proof.Gen.Pre_finite_inputs
import Idealize.ShloMosaic.Lib.ReduceAll
import Idealize.ShloMosaic.Lib.ValueIdx

noncomputable section

namespace Cert.Proof.Bridge

open Idealize.ShloMosaic Idealize.ShloMosaic.ValueIdx Idealize.SL.Sem

instance : Subsingleton Cert.Pre_finite_inputs.S_.Idx := ⟨fun _ _ => funext fun d => d.elim0⟩

/-- An extended real whose absolute value is below plus infinity is a real number. -/
theorem real_of_abs_lt (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- "All elements have absolute value below plus infinity", read back. -/
theorem all_real {s : Shape} {axes : List (Fin s.rank)} (a : FVec Ideal s .f32)
    (bc : Cert.Pre_finite_inputs.S_.BroadcastsInDim s ![]) (hr : s.ReducesTo axes Cert.Pre_finite_inputs.S_)
    (hu : 0 < Cert.Pre_finite_inputs.S_.numel)
    (h : Host.reduce IntOp.andi
        (cmpf .olt (Host.absf a) (broadcastInDim s ![] bc (constant Cert.Pre_finite_inputs.S_ .f32 0x7F800000#32)))
        (constantI Cert.Pre_finite_inputs.S_ 1 1#1) hr hu ix0 = 1#1) :
    ∀ i, ∃ r : ℝ, a i = (r : EReal) := by
  intro i
  exact real_of_abs_lt (a i) (Host.reduce_andi_all _ _ hr hu ix0 h i)

/-- The precondition's function being all ones makes every element of the four arguments a real number. -/
theorem finite_of_fn (a0 : FVec Ideal Cert.Pre_finite_inputs.S4096x26x64 .f32)
    (a1 a2 a3 : FVec Ideal Cert.Pre_finite_inputs.S325 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ix0
  dsimp only [Cert.Pre_finite_inputs.fn, Cert.Pre_finite_inputs.fn_part1] at h0
  obtain ⟨h13, h17⟩ := IntOp.andi_eq_one.1 h0
  obtain ⟨h8, h12⟩ := IntOp.andi_eq_one.1 h13
  obtain ⟨h3, h7⟩ := IntOp.andi_eq_one.1 h8
  exact ⟨all_real _ _ _ _ h3, all_real _ _ _ _ h7, all_real _ _ _ _ h12, all_real _ _ _ _ h17⟩

/-- Under the kernel program's precondition every element of its four arguments is a real number. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal)) :=
  finite_of_fn _ _ _ _ (h c)

end Cert.Proof.Bridge

end
-- ==== Proof.BridgeTables.lean ====
/-
  The pair tables of the two programs agree. One program lists, for each of the 325 pairs, the slot 32 j + i of its
  fields i < j; the other lists the two fields. Pair p's slot is 32 times its larger field plus its smaller one, the
  smaller field is below the larger, and every pair of fields i < j below 26 occurs exactly once: the pair at position
  i (51 - i) / 2 + (j - i - 1), the pairs being listed in lexicographic order.
-/
import proofs.«210137_g30502857736458_cont_9to1_2222_4_alg».proof.Proof.CommonV
import proofs.«210137_g30502857736458_cont_9to1_2222_4_alg».proof.Proof.RefValue

namespace Cert.Proof.Bridge

open Cert.Proof.KI (slotOf)
open Cert.Proof.Ref (rowT colT)

/-- Pair p's slot is 32 times its larger field plus its smaller field. -/
theorem hslot : ∀ p : Fin 325, slotOf p.val = 32 * (rowT p).val + (colT p).val := by decide

/-- The smaller field is below the larger. -/
theorem hlt : ∀ p : Fin 325, (colT p).val < (rowT p).val := by decide

/-- The position of the pair (i, j), i < j, in the lexicographic list of the pairs of 26 fields. -/
def pairIdx (i j : ℕ) : ℕ := i * (51 - i) / 2 + (j - i - 1)

theorem pairIdx_of_pair : ∀ p : Fin 325, pairIdx (colT p).val (rowT p).val = p.val := by decide

theorem pair_of_pairIdx : ∀ i j : Fin 26, i.val < j.val →
    ∃ h : pairIdx i.val j.val < 325, colT ⟨pairIdx i.val j.val, h⟩ = i ∧ rowT ⟨pairIdx i.val j.val, h⟩ = j := by decide

/-- Every pair of fields i < j occurs exactly once. -/
theorem hbij : ∀ i j : Fin 26, i.val < j.val → ∃! p : Fin 325, colT p = i ∧ rowT p = j := by
  intro i j hij
  obtain ⟨h, hc, hr⟩ := pair_of_pairIdx i j hij
  refine ⟨⟨pairIdx i.val j.val, h⟩, ⟨hc, hr⟩, ?_⟩
  rintro p ⟨hpc, hpr⟩
  refine Fin.ext ?_
  rw [← pairIdx_of_pair p, hpc, hpr]

end Cert.Proof.Bridge
-- ==== Proof.Algebraic.lean ====
/-
  THE ALGEBRAIC CLAIM from the kernel program's run. Given that run — every weakly fair execution terminates with the
  result array holding the kernel's specification at every batch element and the arguments unchanged — the two programs,
  from memories that agree on the arguments, both run and end with equal results: the shared value is the reference's
  term of the arguments. On the kernel's side the precondition makes every input element a real number, the bridge
  between the two specifications applies, and the reference's term read at an index is the reference's specification.
  On the reference's side its run ends at that term of its own arguments, which are the kernel's by hypothesis.
-/
import proofs.«210137_g30502857736458_cont_9to1_2222_4_alg».proof.Defs
import proofs.«210137_g30502857736458_cont_9to1_2222_4_alg».proof.Proof.CommonV
import proofs.«210137_g30502857736458_cont_9to1_2222_4_alg».proof.Proof.RefRun
import proofs.«210137_g30502857736458_cont_9to1_2222_4_alg».proof.Proof.RefValue
import proofs.«210137_g30502857736458_cont_9to1_2222_4_alg».proof.Proof.BridgeOut
import proofs.«210137_g30502857736458_cont_9to1_2222_4_alg».proof.Proof.BridgeFinite
import proofs.«210137_g30502857736458_cont_9to1_2222_4_alg».proof.Proof.BridgeTables

noncomputable section

namespace Cert.Proof.Alg

open Idealize.ShloMosaic Idealize.SL.Sem

/-- The algebraic claim, from the kernel program's run with its value. -/
theorem algebraic_of_run
    (hrun : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (Cert.KernelIdeal.threads (F := Ideal)) ⟨m, fun _ => 0, ρ⟩
        (fun r => ∀ c : Dev Cert.KernelIdeal.nD,
          (∀ idx : Cert.KernelIdeal.S4096x1.Idx,
            r.2.mem ((SparseCore.T c).loc Cert.KernelIdeal.main_v35) idx
              = KSpec.OUT Cert.Proof.KI.slotOf (Cert.Proof.KI.argX m c) (Cert.Proof.KI.argG m c) (Cert.Proof.KI.argB m c)
                  (Cert.Proof.KI.argW m c) (idx 0).val)
          ∧ r.2.mem ((SparseCore.T c).loc Cert.KernelIdeal.main_arg0) = m ((SparseCore.T c).loc Cert.KernelIdeal.main_arg0)
          ∧ r.2.mem ((SparseCore.T c).loc Cert.KernelIdeal.main_arg1) = m ((SparseCore.T c).loc Cert.KernelIdeal.main_arg1)
          ∧ r.2.mem ((SparseCore.T c).loc Cert.KernelIdeal.main_arg2) = m ((SparseCore.T c).loc Cert.KernelIdeal.main_arg2)
          ∧ r.2.mem ((SparseCore.T c).loc Cert.KernelIdeal.main_arg3) = m ((SparseCore.T c).loc Cert.KernelIdeal.main_arg3))) :
    Cert.algebraic_KernelIdeal_ReferenceIdeal := by
  intro m g m' g' hpre hagree
  refine ⟨fun c => Ref.refTerm (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run _ _ _).mono (fun r h c => ?_) (hrun m g)
    obtain ⟨hv, h0, h1, h2, h3⟩ := h c
    obtain ⟨hx, hg, hb, hw⟩ := Bridge.finite_of_pre m hpre c
    refine ⟨funext fun idx => ?_, h0, h1, h2, h3⟩
    exact (hv idx).trans
      ((Bridge.OUT_eq Cert.Proof.KI.slotOf Ref.rowT Ref.colT Bridge.hslot Bridge.hlt Bridge.hbij _ _ _ _ hx hg hb hw (idx 0)).trans
        (Ref.refTerm_at _ _ _ _ idx).symm)
  · refine (θ_run _ _ _).mono (fun r h c => ?_) (Ref.run (F := Ideal) m' g')
    obtain ⟨hv, hrest⟩ := h c
    refine ⟨?_, hrest⟩
    rw [hv, (hagree c).1, (hagree c).2.1, (hagree c).2.2.1, (hagree c).2.2.2]

end Cert.Proof.Alg

end
-- ==== Proof.DealV.lean ====
/-
  The value-carrying hand-over at the two calls, from and to whole arrays: what each written array holds after a
  call is read off its rows' (segments') facts, a word lying in exactly one row.
-/
import proofs.«210137_g30502857736458_cont_9to1_2222_4_alg».proof.Proof.Common
import proofs.«210137_g30502857736458_cont_9to1_2222_4_alg».proof.Proof.Deal
import proofs.«210137_g30502857736458_cont_9to1_2222_4_alg».proof.Proof.CommonV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Cert.Proof.KSpec

local notation "𝕀" => MT nD τ sig (HIx 2) (Elt Ideal) ℕ UU ℕ

variable [∀ e, Nonempty (Elt Ideal e)]

theorem ex_fact_intro {α : Type} (Ψ : α → sProp 𝕀) (φ : α → Prop) (a : α) (h : φ a) : Ψ a ⊢ (iprop(∃ g, ⌜φ g⌝ ∗ Ψ g) : sProp 𝕀) := by
  iintro H; iexists a; isplitr
  · ipureintro; exact h
  · iexact H

/-! ## Pieces with facts, in general -/

section Generic

variable {ℓ : Loc nD τ sig} {I : Type} [Fintype I] [DecidableEq I] (A : I → Finset (Idx ℓ))

theorem pieces_whole_fact (hd : ∀ t t', t ≠ t' → Disjoint (A t) (A t')) (hc : Finset.univ.biUnion A = Finset.univ)
    (Φ : I → Buf (Elt Ideal) ℓ → Prop) :
    (bigSep Finset.univ fun t => iprop(∃ g, ⌜Φ t g⌝ ∗ ℓ ↦[A t]{fullShare} g))
      ⊢ (iprop(∃ g, ⌜∃ fs : I → Buf (Elt Ideal) ℓ, (∀ t, Φ t (fs t)) ∧ ∀ t, ∀ i ∈ A t, g i = fs t i⌝ ∗ ℓ ↦{fullShare} g) : sProp 𝕀) := by
  refine (bigSep_exists_pi Finset.univ (fun t (g : Buf (Elt Ideal) ℓ) => (iprop(⌜Φ t g⌝ ∗ ℓ ↦[A t]{fullShare} g) : sProp 𝕀))).trans ?_
  iintro ⟨%fs, H⟩
  ihave H1 := (bigSep_pure_sep Finset.univ (fun t => Φ t (fs t)) (fun t => (ℓ ↦[A t]{fullShare} fs t : sProp 𝕀))) $$ H
  icases H1 with ⟨%hΦ, H⟩
  ihave H' := (pointsTo_biUnion_join (ℓ := ℓ) (q := fullShare) (Val := Elt Ideal) Finset.univ A fs (Classical.choice inferInstance) (fun t _ t' _ h => hd t t' h)) $$ H
  icases H' with ⟨%g, %hg, Hg⟩
  rw [hc]
  iexists g
  isplitr
  · ipureintro; exact ⟨fs, fun t => hΦ t (Finset.mem_univ t), fun t i hi => hg t (Finset.mem_univ t) i hi⟩
  · iexact Hg

theorem whole_shares_fix (f : Buf (Elt Ideal) ℓ) :
    (ℓ ↦{fullShare} f : sProp 𝕀) ⊢ bigSep Finset.univ fun c : Fin 2 => bigSep Finset.univ fun s : Fin 16 => ℓ ↦{rq (wid (coordsV c s))} f :=
  ((Transfers.pointsTo_toks_split (S := Finset.univ) (f := f) fullShare 32).trans sep_elim_right).trans
    (Entails.of_eq (bigSep_workers (F := Ideal) (fun w => (ℓ ↦{rq w} f : sProp 𝕀))))

theorem whole_shares_fact (f : Buf (Elt Ideal) ℓ) (φ : Prop) (h : φ) :
    (ℓ ↦{fullShare} f : sProp 𝕀) ⊢ bigSep Finset.univ fun c : Fin 2 => bigSep Finset.univ fun s : Fin 16 =>
      iprop(∃ g, ⌜φ⌝ ∗ ℓ ↦{rq (wid (coordsV c s))} g) := by
  exact (whole_shares_fix f).trans (bigSep_mono fun c _ => bigSep_mono fun s _ =>
    ex_fact_intro (fun g => (ℓ ↦{rq (wid (coordsV c s))} g : sProp 𝕀)) (fun _ => φ) f h)

end Generic

variable (m : (ℓ : Loc nD τ sig) → Buf (Elt Ideal) ℓ)

/-! ## Call 0 -/

def S1OK (x : KSpec.X) (f : S32x13312.Idx → EReal) : Prop := ∀ idx : S32x13312.Idx, f idx = S1P x (idx 0).val (idx 1).val
def S2OK (x : KSpec.X) (f : S32x13312.Idx → EReal) : Prop := ∀ idx : S32x13312.Idx, f idx = S2P x (idx 0).val (idx 1).val
def OtOK (d : Dev nD) (f : S4096.Idx → EReal) : Prop := ∀ idx : S4096.Idx, f idx = OUT slotOf (argX m d) (argG m d) (argB m d) (argW m d) (idx 0).val

theorem st0v_eq (d : Dev nD) :
    (bigSep Finset.univ fun c : Fin ((K (F := Ideal)).nCore 0) => (Pv m).st 0 d c)
      = iprop((bigSep Finset.univ fun c : Fin 2 => bigSep Finset.univ fun s : Fin 16 => xgLoc d ↦{rq (wid (coordsV c s))} XGa (argX m d))
        ∗ (bigSep Finset.univ fun c : Fin 2 => bigSep Finset.univ fun s : Fin 16 => bigSep Finset.univ fun g : Fin k0_t2_loop.trips => itRowPts d (coordsV c s) g)
        ∗ (bigSep Finset.univ fun c : Fin 2 => bigSep Finset.univ fun s : Fin 16 => s1RowPts d (coordsV c s))
        ∗ (bigSep Finset.univ fun c : Fin 2 => bigSep Finset.univ fun s : Fin 16 => s2RowPts d (coordsV c s))) := by
  show (bigSep (Finset.univ : Finset (Fin 2)) fun c => bigSep Finset.univ fun s : Fin 16 => G0in m d (coordsV c s)) = _
  unfold G0in
  simp only [bigSep_sep']

theorem st0v_intro (d : Dev nD) (fi : Buf (Elt Ideal) (itLoc d)) (f1 : Buf (Elt Ideal) (s1Loc d)) (f2 : Buf (Elt Ideal) (s2Loc d)) :
    iprop((xgLoc d ↦{fullShare} XGa (argX m d)) ∗ (itLoc d ↦{fullShare} fi) ∗ (s1Loc d ↦{fullShare} f1) ∗ (s2Loc d ↦{fullShare} f2))
      ⊢ (bigSep Finset.univ fun c : Fin ((K (F := Ideal)).nCore 0) => (Pv m).st 0 d c : sProp 𝕀) := by
  rw [st0v_eq]
  exact BIClass.sep_mono (whole_shares_fix _) (BIClass.sep_mono (it_deal d fi) (BIClass.sep_mono (s1_deal d f1) (s2_deal d f2)))

theorem dn0v_eq (d : Dev nD) :
    (bigSep Finset.univ fun c : Fin ((K (F := Ideal)).nCore 0) => (Pv m).dn 0 d c)
      = iprop((bigSep Finset.univ fun c : Fin 2 => bigSep Finset.univ fun s : Fin 16 => xgLoc d ↦{rq (wid (coordsV c s))} XGa (argX m d))
        ∗ (bigSep Finset.univ fun c : Fin 2 => bigSep Finset.univ fun s : Fin 16 => bigSep Finset.univ fun g : Fin k0_t2_loop.trips => itRowV m d (coordsV c s) g)
        ∗ (bigSep Finset.univ fun c : Fin 2 => bigSep Finset.univ fun s : Fin 16 => s1RowV m d (coordsV c s))
        ∗ (bigSep Finset.univ fun c : Fin 2 => bigSep Finset.univ fun s : Fin 16 => s2RowV m d (coordsV c s))) := by
  show (bigSep (Finset.univ : Finset (Fin 2)) fun c => bigSep Finset.univ fun s : Fin 16 => G0out m d (coordsV c s)) = _
  unfold G0out
  simp only [bigSep_sep']

theorem it_backV (d : Dev nD) :
    (bigSep Finset.univ fun c : Fin 2 => bigSep Finset.univ fun s : Fin 16 => bigSep Finset.univ fun g : Fin k0_t2_loop.trips => itRowV m d (coordsV c s) g)
      ⊢ (iprop(∃ f, ⌜ItOK (argX m d) f⌝ ∗ itLoc d ↦{fullShare} f) : sProp 𝕀) := by
  have e : (bigSep Finset.univ fun c : Fin 2 => bigSep Finset.univ fun s : Fin 16 => bigSep Finset.univ fun g : Fin k0_t2_loop.trips => itRowV m d (coordsV c s) g)
      = bigSep Finset.univ fun p : T3 => (iprop(∃ f, ⌜ItRowOK (argX m d) (itA p) f⌝ ∗ itLoc d ↦[itA p]{fullShare} f) : sProp 𝕀) := by
    rw [bigSep_T3]
    exact bigSep_congr fun c _ => bigSep_congr fun s _ => bigSep_g0 (F := Ideal) (fun g => itRowV m d (coordsV c s) g)
  rw [e]
  refine (pieces_whole_fact (ℓ := itLoc d) itA itA_disj itA_cover (fun p f => ItRowOK (argX m d) (itA p) f)).trans ?_
  iintro ⟨%g, %hg, H⟩
  iexists g; isplitr
  · ipureintro
    obtain ⟨fs, hfs, hag⟩ := hg
    intro idx hp
    have hcov : idx ∈ (Finset.univ : Finset T3).biUnion itA := by rw [itA_cover]; exact Finset.mem_univ _
    obtain ⟨p, -, hp'⟩ := Finset.mem_biUnion.mp hcov
    rw [hag p idx hp']
    exact hfs p idx hp' hp
  · iexact H

theorem s1_backV (d : Dev nD) :
    (bigSep Finset.univ fun c : Fin 2 => bigSep Finset.univ fun s : Fin 16 => s1RowV m d (coordsV c s))
      ⊢ (iprop(∃ f, ⌜S1OK (argX m d) f⌝ ∗ s1Loc d ↦{fullShare} f) : sProp 𝕀) := by
  have e : (bigSep Finset.univ fun c : Fin 2 => bigSep Finset.univ fun s : Fin 16 => s1RowV m d (coordsV c s))
      = bigSep Finset.univ fun p : T2 => (iprop(∃ f, ⌜S1RowOK (argX m d) (s1A p) f⌝ ∗ s1Loc d ↦[s1A p]{fullShare} f) : sProp 𝕀) :=
    (bigSep_T2 (F := Ideal) (fun p : T2 => s1RowV m d (coordsV p.1 p.2))).symm.trans (bigSep_congr fun p _ => by unfold s1RowV s1A; rfl)
  rw [e]
  refine (pieces_whole_fact (ℓ := s1Loc d) s1A s1A_disj s1A_cover (fun p f => S1RowOK (argX m d) (s1A p) f)).trans ?_
  iintro ⟨%g, %hg, H⟩
  iexists g; isplitr
  · ipureintro
    obtain ⟨fs, hfs, hag⟩ := hg
    intro idx
    have hcov : idx ∈ (Finset.univ : Finset T2).biUnion s1A := by rw [s1A_cover]; exact Finset.mem_univ _
    obtain ⟨p, -, hp'⟩ := Finset.mem_biUnion.mp hcov
    rw [hag p idx hp']
    exact hfs p idx hp'
  · iexact H

theorem s2_backV (d : Dev nD) :
    (bigSep Finset.univ fun c : Fin 2 => bigSep Finset.univ fun s : Fin 16 => s2RowV m d (coordsV c s))
      ⊢ (iprop(∃ f, ⌜S2OK (argX m d) f⌝ ∗ s2Loc d ↦{fullShare} f) : sProp 𝕀) := by
  have e : (bigSep Finset.univ fun c : Fin 2 => bigSep Finset.univ fun s : Fin 16 => s2RowV m d (coordsV c s))
      = bigSep Finset.univ fun p : T2 => (iprop(∃ f, ⌜S2RowOK (argX m d) (s2A p) f⌝ ∗ s2Loc d ↦[s2A p]{fullShare} f) : sProp 𝕀) :=
    (bigSep_T2 (F := Ideal) (fun p : T2 => s2RowV m d (coordsV p.1 p.2))).symm.trans (bigSep_congr fun p _ => by unfold s2RowV s2A; rfl)
  rw [e]
  refine (pieces_whole_fact (ℓ := s2Loc d) s2A s2A_disj s2A_cover (fun p f => S2RowOK (argX m d) (s2A p) f)).trans ?_
  iintro ⟨%g, %hg, H⟩
  iexists g; isplitr
  · ipureintro
    obtain ⟨fs, hfs, hag⟩ := hg
    intro idx
    have hcov : idx ∈ (Finset.univ : Finset T2).biUnion s2A := by rw [s2A_cover]; exact Finset.mem_univ _
    obtain ⟨p, -, hp'⟩ := Finset.mem_biUnion.mp hcov
    rw [hag p idx hp']
    exact hfs p idx hp'
  · iexact H

theorem dn0v_elim (d : Dev nD) :
    (bigSep Finset.univ fun c : Fin ((K (F := Ideal)).nCore 0) => (Pv m).dn 0 d c)
      ⊢ (iprop((∃ f, ⌜ItOK (argX m d) f⌝ ∗ itLoc d ↦{fullShare} f) ∗ (∃ f, ⌜S1OK (argX m d) f⌝ ∗ s1Loc d ↦{fullShare} f)
          ∗ (∃ f, ⌜S2OK (argX m d) f⌝ ∗ s2Loc d ↦{fullShare} f)) : sProp 𝕀) := by
  rw [dn0v_eq]
  exact sep_elim_right.trans (BIClass.sep_mono (it_backV m d) (BIClass.sep_mono (s1_backV m d) (s2_backV m d)))

/-! ## Call 1 -/

theorem st1v_eq (d : Dev nD) :
    (bigSep Finset.univ fun c : Fin ((K (F := Ideal)).nCore 1) => (Pv m).st 1 d c)
      = iprop((bigSep Finset.univ fun c : Fin 2 => bigSep Finset.univ fun s : Fin 16 => itShV m d (wid (coordsV c s)))
        ∗ (bigSep Finset.univ fun c : Fin 2 => bigSep Finset.univ fun s : Fin 16 => alShV m d (wid (coordsV c s)))
        ∗ (bigSep Finset.univ fun c : Fin 2 => bigSep Finset.univ fun s : Fin 16 => cvShV m d (wid (coordsV c s)))
        ∗ (bigSep Finset.univ fun c : Fin 2 => bigSep Finset.univ fun s : Fin 16 => bigSep Finset.univ fun g : Fin k2_t1_loop.trips => otSegPts d (coordsV c s) g)) := by
  show (bigSep (Finset.univ : Finset (Fin 2)) fun c => bigSep Finset.univ fun s : Fin 16 => G1in m d (coordsV c s)) = _
  unfold G1in
  simp only [bigSep_sep']

theorem st1v_intro (d : Dev nD) (fi : Buf (Elt Ideal) (itLoc d)) (fa : Buf (Elt Ideal) (alLoc d)) (fc : Buf (Elt Ideal) (cvLoc d)) (fo : Buf (Elt Ideal) (otLoc d))
    (hi : ItOK (argX m d) fi) (ha : AlOK m d fa) (hcv : CvOK m d fc) :
    iprop((itLoc d ↦{fullShare} fi) ∗ (alLoc d ↦{fullShare} fa) ∗ (cvLoc d ↦{fullShare} fc) ∗ (otLoc d ↦{fullShare} fo))
      ⊢ (bigSep Finset.univ fun c : Fin ((K (F := Ideal)).nCore 1) => (Pv m).st 1 d c : sProp 𝕀) := by
  rw [st1v_eq]
  unfold itShV alShV cvShV
  refine BIClass.sep_mono ?_ (BIClass.sep_mono ?_ (BIClass.sep_mono ?_ (ot_deal d fo)))
  · exact (whole_shares_fix fi).trans (bigSep_mono fun c _ => bigSep_mono fun s _ =>
      ex_fact_intro (fun g => (itLoc d ↦{rq (wid (coordsV c s))} g : sProp 𝕀)) (fun g => ItOK (argX m d) g) fi hi)
  · exact (whole_shares_fix fa).trans (bigSep_mono fun c _ => bigSep_mono fun s _ =>
      ex_fact_intro (fun g => (alLoc d ↦{rq (wid (coordsV c s))} g : sProp 𝕀)) (fun g => AlOK m d g) fa ha)
  · exact (whole_shares_fix fc).trans (bigSep_mono fun c _ => bigSep_mono fun s _ =>
      ex_fact_intro (fun g => (cvLoc d ↦{rq (wid (coordsV c s))} g : sProp 𝕀)) (fun g => CvOK m d g) fc hcv)

theorem dn1v_eq (d : Dev nD) :
    (bigSep Finset.univ fun c : Fin ((K (F := Ideal)).nCore 1) => (Pv m).dn 1 d c)
      = iprop((bigSep Finset.univ fun c : Fin 2 => bigSep Finset.univ fun s : Fin 16 => itShV m d (wid (coordsV c s)))
        ∗ (bigSep Finset.univ fun c : Fin 2 => bigSep Finset.univ fun s : Fin 16 => alShV m d (wid (coordsV c s)))
        ∗ (bigSep Finset.univ fun c : Fin 2 => bigSep Finset.univ fun s : Fin 16 => cvShV m d (wid (coordsV c s)))
        ∗ (bigSep Finset.univ fun c : Fin 2 => bigSep Finset.univ fun s : Fin 16 => bigSep Finset.univ fun g : Fin k2_t1_loop.trips => otSegV m d (coordsV c s) g)) := by
  show (bigSep (Finset.univ : Finset (Fin 2)) fun c => bigSep Finset.univ fun s : Fin 16 => G1out m d (coordsV c s)) = _
  unfold G1out
  simp only [bigSep_sep']

theorem ot_backV (d : Dev nD) :
    (bigSep Finset.univ fun c : Fin 2 => bigSep Finset.univ fun s : Fin 16 => bigSep Finset.univ fun g : Fin k2_t1_loop.trips => otSegV m d (coordsV c s) g)
      ⊢ (iprop(∃ f, ⌜OtOK m d f⌝ ∗ otLoc d ↦{fullShare} f) : sProp 𝕀) := by
  have e : (bigSep Finset.univ fun c : Fin 2 => bigSep Finset.univ fun s : Fin 16 => bigSep Finset.univ fun g : Fin k2_t1_loop.trips => otSegV m d (coordsV c s) g)
      = bigSep Finset.univ fun p : T3 => (iprop(∃ f, ⌜OtSegOK m d (otA p) f⌝ ∗ otLoc d ↦[otA p]{fullShare} f) : sProp 𝕀) := by
    rw [bigSep_T3]
    exact bigSep_congr fun c _ => bigSep_congr fun s _ => bigSep_g2 (F := Ideal) (fun g => otSegV m d (coordsV c s) g)
  rw [e]
  refine (pieces_whole_fact (ℓ := otLoc d) otA otA_disj otA_cover (fun p f => OtSegOK m d (otA p) f)).trans ?_
  iintro ⟨%g, %hg, H⟩
  iexists g; isplitr
  · ipureintro
    obtain ⟨fs, hfs, hag⟩ := hg
    intro idx
    have hcov : idx ∈ (Finset.univ : Finset T3).biUnion otA := by rw [otA_cover]; exact Finset.mem_univ _
    obtain ⟨p, -, hp'⟩ := Finset.mem_biUnion.mp hcov
    rw [hag p idx hp']
    exact hfs p idx hp'
  · iexact H

theorem dn1v_elim (d : Dev nD) :
    (bigSep Finset.univ fun c : Fin ((K (F := Ideal)).nCore 1) => (Pv m).dn 1 d c) ⊢ (iprop(∃ f, ⌜OtOK m d f⌝ ∗ otLoc d ↦{fullShare} f) : sProp 𝕀) := by
  rw [dn1v_eq]
  exact sep_elim_right.trans (sep_elim_right.trans (sep_elim_right.trans (ot_backV m d)))

/-! ## A SparseCore's share among its subcores -/

theorem vecSplit0v : (K (F := Ideal)).VecSplit' (Pv m) 0 := by
  intro d c
  show (bigSep Finset.univ fun s : Fin 16 => G0in m d (coordsV (Fin.cast (nCore_eq 0) c) s)) ⊢ |={Set.univ}=> iprop(
      (bigSep Finset.univ fun i : Fin ((K (F := Ideal)).nSub 0) => G0in m d (coordsV (Fin.cast (nCore_eq 0) c) (Fin.cast (nSub_eq 0) i)))
      ∗ ((bigSep Finset.univ fun i : Fin ((K (F := Ideal)).nSub 0) => G0out m d (coordsV (Fin.cast (nCore_eq 0) c) (Fin.cast (nSub_eq 0) i)))
          -∗ (bigSep Finset.univ fun s : Fin 16 => G0out m d (coordsV (Fin.cast (nCore_eq 0) c) s))))
  iintro H; imodintro
  isplitl [H]; · iexact H
  iintro H; iexact H

theorem vecSplit1v : (K (F := Ideal)).VecSplit' (Pv m) 1 := by
  intro d c
  show (bigSep Finset.univ fun s : Fin 16 => G1in m d (coordsV (Fin.cast (nCore_eq 1) c) s)) ⊢ |={Set.univ}=> iprop(
      (bigSep Finset.univ fun i : Fin ((K (F := Ideal)).nSub 1) => G1in m d (coordsV (Fin.cast (nCore_eq 1) c) (Fin.cast (nSub_eq 1) i)))
      ∗ ((bigSep Finset.univ fun i : Fin ((K (F := Ideal)).nSub 1) => G1out m d (coordsV (Fin.cast (nCore_eq 1) c) (Fin.cast (nSub_eq 1) i)))
          -∗ (bigSep Finset.univ fun s : Fin 16 => G1out m d (coordsV (Fin.cast (nCore_eq 1) c) s))))
  iintro H; imodintro
  isplitl [H]; · iexact H
  iintro H; iexact H

end Cert.Proof.KI

end
-- ==== Proof.RegionAcc.lean ====
/-
  Reading a staged array's contents by natural-number coordinates (0 out of range), and the facts that the region's
  scale and offset read the partial sums and the three parameter rows only inside their extents.
-/
import proofs.«210137_g30502857736458_cont_9to1_2222_4_alg».proof.Proof.KSpec
import proofs.«210137_g30502857736458_cont_9to1_2222_4_alg».proof.KernelIdeal

noncomputable section

namespace Cert.Proof.KI

open Cert.KernelIdeal
open Idealize.ShloMosaic Idealize.ShloMosaic.ValueIdx
open Cert.Proof.KSpec

/-- A 32 × 13312 array by row and column, 0 out of range. -/
def rows2 (f : S32x13312.Idx → EReal) : ℕ → ℕ → EReal :=
  fun w n => if h : w < 32 ∧ n < 13312 then f (ix2 (⟨w, h.1⟩ : Fin 32) (⟨n, h.2⟩ : Fin 13312)) else 0

/-- A 1 × 13312 array by column, 0 out of range. -/
def row1 (f : S1x13312.Idx → EReal) : ℕ → EReal :=
  fun n => if h : n < 13312 then f (ix2 (0 : Fin 1) (⟨n, h⟩ : Fin 13312)) else 0

theorem rows2_of_lt (f : S32x13312.Idx → EReal) {w n : ℕ} (hw : w < 32) (hn : n < 13312) :
    rows2 f w n = f (ix2 (⟨w, hw⟩ : Fin 32) (⟨n, hn⟩ : Fin 13312)) := by
  unfold rows2; rw [dif_pos ⟨hw, hn⟩]

theorem row1_of_lt (f : S1x13312.Idx → EReal) {n : ℕ} (hn : n < 13312) :
    row1 f n = f (ix2 (0 : Fin 1) (⟨n, hn⟩ : Fin 13312)) := by
  unfold row1; rw [dif_pos hn]

section Congr

variable {s1 s1' s2 s2' : ℕ → ℕ → EReal} {wm wm' gm gm' bm bm' : ℕ → EReal}

/-- A chunk total reads rows below 32 and the chunk's sixteen columns, all below 13312. -/
theorem tot_congr {s s' : ℕ → ℕ → EReal} (h : ∀ w < 32, ∀ c < 13312, s w c = s' w c) (n : ℕ) (hn : n < 13312) : tot s n = tot s' n := by
  unfold tot
  refine Finset.sum_congr rfl fun l hl => Finset.sum_congr rfl fun w hw => h w (Finset.mem_range.mp hw) _ ?_
  have := Finset.mem_range.mp hl
  omega

theorem MEAN_congr (h1 : ∀ w < 32, ∀ c < 13312, s1 w c = s1' w c) (n : ℕ) (hn : n < 13312) : MEAN s1 n = MEAN s1' n := by
  unfold MEAN; rw [tot_congr h1 n hn]

theorem RSTD_congr (h1 : ∀ w < 32, ∀ c < 13312, s1 w c = s1' w c) (h2 : ∀ w < 32, ∀ c < 13312, s2 w c = s2' w c) (n : ℕ) (hn : n < 13312) :
    RSTD s1 s2 n = RSTD s1' s2' n := by
  unfold RSTD VAR; rw [tot_congr h2 n hn, MEAN_congr h1 n hn]

theorem ALPHA_congr (h1 : ∀ w < 32, ∀ c < 13312, s1 w c = s1' w c) (h2 : ∀ w < 32, ∀ c < 13312, s2 w c = s2' w c)
    (hw : ∀ c < 13312, wm c = wm' c) (hg : ∀ c < 13312, gm c = gm' c) (n : ℕ) (hn : n < 13312) :
    ALPHA s1 s2 wm gm n = ALPHA s1' s2' wm' gm' n := by
  unfold ALPHA; rw [RSTD_congr h1 h2 n hn, hw n hn, hg n hn]

theorem CVAL_congr (h1 : ∀ w < 32, ∀ c < 13312, s1 w c = s1' w c) (h2 : ∀ w < 32, ∀ c < 13312, s2 w c = s2' w c)
    (hw : ∀ c < 13312, wm c = wm' c) (hg : ∀ c < 13312, gm c = gm' c) (hb : ∀ c < 13312, bm c = bm' c) :
    CVAL s1 s2 wm gm bm = CVAL s1' s2' wm' gm' bm' := by
  unfold CVAL
  congr 1
  refine Finset.sum_congr rfl fun n hn => ?_
  have hn' := Finset.mem_range.mp hn
  rw [RSTD_congr h1 h2 n hn', MEAN_congr h1 n hn', hw n hn', hg n hn', hb n hn']

end Congr

end Cert.Proof.KI

end
-- ==== Proof.HostVa.lean ====
/-
  Three reshapes of the later stretches, read at an index, as facts about the shape cast alone: dropping the leading
  unit axis of a [1, 13312] row and of a [1, 16] row, and adding a trailing unit axis to a vector of 4096 elements.
  Each reads the element with the same row-major position.
-/
import proofs.«210137_g30502857736458_cont_9to1_2222_4_alg».proof.Proof.Gen.KernelIdeal
import Idealize.ShloMosaic.Lib.Pipeline.Value
import Idealize.ShloMosaic.Lib.ValueIdx

noncomputable section

namespace Cert.Proof.KI

open Cert.KernelIdeal Cert.KernelIdeal.Gen
open Idealize.ShloMosaic Idealize.ShloMosaic.ValueIdx

variable {α : Type}

/-- A [1, 13312] row viewed as a vector of 13312 elements: element n is the row's element (0, n). -/
theorem shapeCast_row13312 (f : S1x13312.Idx → α) (idx : S13312.Idx) :
    shapeCast S13312 f shapeCasts_S1x13312_S13312 idx = f (ix2 (0 : Fin 1) (idx 0)) := by
  refine shapeCast_apply f shapeCasts_S1x13312_S13312 idx (ix2 (0 : Fin 1) (idx 0)) ?_
  rw [Shape.rowMajor_val_two, Shape.rowMajor_val_one]
  show (0 : ℕ) * 13312 + (idx 0).val = (idx 0).val
  omega

/-- A [1, 16] row viewed as a vector of 16 elements: element l is the row's element (0, l). -/
theorem shapeCast_row16 (f : S1x16.Idx → α) (idx : S16.Idx) :
    shapeCast S16 f shapeCasts_S1x16_S16 idx = f (ix2 (0 : Fin 1) (idx 0)) := by
  refine shapeCast_apply f shapeCasts_S1x16_S16 idx (ix2 (0 : Fin 1) (idx 0)) ?_
  rw [Shape.rowMajor_val_two, Shape.rowMajor_val_one]
  show (0 : ℕ) * 16 + (idx 0).val = (idx 0).val
  omega

/-- A vector of 4096 elements viewed as a [4096, 1] column: element (b, 0) is the vector's element b. -/
theorem shapeCast_col4096 (f : S4096.Idx → α) (idx : S4096x1.Idx) :
    shapeCast S4096x1 f shapeCasts_S4096_S4096x1 idx = f (ix1 (idx 0)) := by
  refine shapeCast_apply f shapeCasts_S4096_S4096x1 idx (ix1 (idx 0)) ?_
  rw [Shape.rowMajor_val_two, Shape.rowMajor_val_one]
  have h1 : (idx 1).val < 1 := (idx 1).isLt
  show (idx 0).val = (idx 0).val * 1 + (idx 1).val
  omega

end Cert.Proof.KI

end
-- ==== Proof.MainVa.lean ====
/-
  Pure steps of the value run of @main: a reshape's result as a function of its operand, and how the facts about the
  arrays compose — the scale and offset vectors the region leaves, read through the reshape, are the mathematics'
  ALPHA and CVAL once the partial sums hold S1P, S2P and the per-slot vectors hold the scatters of the arguments.
-/
import proofs.«210137_g30502857736458_cont_9to1_2222_4_alg».proof.Proof.Common
import proofs.«210137_g30502857736458_cont_9to1_2222_4_alg».proof.Proof.Main
import proofs.«210137_g30502857736458_cont_9to1_2222_4_alg».proof.Proof.DealV
import proofs.«210137_g30502857736458_cont_9to1_2222_4_alg».proof.Proof.RegionAcc
import proofs.«210137_g30502857736458_cont_9to1_2222_4_alg».proof.Proof.HostVa

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.StableHlo (held held_split held_sub_split held_congr held_sdiff_result wp_hlo_within wp_seq after launchContents)
open Cert.Proof.KSpec Idealize.ShloMosaic.ValueIdx

local notation "𝕀" => MT nD τ sig (HIx 2) (Elt Ideal) ℕ UU ℕ

variable [∀ e, Nonempty (Elt Ideal e)]

/-- A reshape over two arrays held whole: the operand is kept, the result holds the operand's words in row-major order. -/
theorem wp_reshape_val {Λ : Labels} {defs : Defs nD τ sig (Elt Ideal) Λ} (d : Dev nD) (x y : Ref sig .tc) (hxy : r x ≠ r y)
    (he : x.ty.elt = y.ty.elt) (hn : x.ty.shape.ShapeCasts y.ty.shape)
    (hx : x.space ≠ .host ∧ (r x).isScoped = false) (hy : y.space ≠ .host ∧ (r y).isScoped = false)
    (fx : x.ty.Contents (Elt Ideal)) (fy : y.ty.Contents (Elt Ideal)) {β : Type} (k : PUnit → Prog (TpuEff nD τ sig (Elt Ideal) Λ .tc) β) (Q : β → sProp 𝕀) :
    iprop(boundary (T d) ∗ ((SparseCore.T d).loc x ↦{fullShare} fx) ∗ ((SparseCore.T d).loc y ↦{fullShare} fy)
        ∗ ((boundary (T d) ∗ ((SparseCore.T d).loc x ↦{fullShare} fx) ∗ ((SparseCore.T d).loc y ↦{fullShare} (fun i => he ▸ shapeCast y.ty.shape fx hn i)))
            -∗ wp frame (wpE defs 𝒱 (SparseCore.T d) none) Set.univ (k ⟨⟩) Q))
      ⊢ wp frame (wpE defs 𝒱 (SparseCore.T d) none) Set.univ (StableHlo.seq [StableHlo.reshape x y he hn hx hy] >>= k) Q := by
  let V : Valuation τ sig (Elt Ideal) := Function.update (Function.update (fun _ => Classical.choice inferInstance) (r x) fx) (r y) fy
  have hVy : V (r y) = fy := Function.update_self _ _ _
  have hVx : V (r x) = fx := (Function.update_of_ne hxy _ _).trans (Function.update_self _ _ _)
  have hh : ∀ W : Valuation τ sig (Elt Ideal), (held (T d) {r x, r y} W : sProp 𝕀)
      = iprop(((SparseCore.T d).loc x ↦{fullShare} W (r x)) ∗ ((SparseCore.T d).loc y ↦{fullShare} W (r y))) := by
    intro W; unfold held
    rw [SparseCore.bigSep_insert' (by simpa using hxy), bigSep_singleton]
  have hry : after [StableHlo.reshape (τ := τ) (Val := Elt Ideal) x y he hn hx hy] V (r y) = fun i => he ▸ shapeCast y.ty.shape fx hn i := by
    rw [StableHlo.after_cons, StableHlo.after_nil, StableHlo.reshape_result, hVx]
  have hrx : after [StableHlo.reshape (τ := τ) (Val := Elt Ideal) x y he hn hx hy] V (r x) = fx := by
    rw [StableHlo.after_cons, StableHlo.after_nil]
    exact ((StableHlo.reshape (τ := τ) (Val := Elt Ideal) x y he hn hx hy).result_of_not_mem V (by
      rw [StableHlo.reshape_writes]; simpa using hxy)).trans hVx
  iintro ⟨Hb, Hx, Hy, Hk⟩
  iapply (wp_seq 𝒱 none Set.univ d {r x, r y} k [StableHlo.reshape x y he hn hx hy]
      (by intro _ h; cases h with | head => exact fun _ hh => hh | tail _ h => exact nomatch h)
      (by intro _ h; cases h with | head => rfl | tail _ h => exact nomatch h) V) $$ [Hb Hx Hy]
  · isplitl [Hb]; · iexact Hb
    rw [hh, hVx, hVy]
    isplitl [Hx]; · iexact Hx
    iexact Hy
  iintro ⟨Hb, Hh⟩
  ihave Hh' := (Entails.of_eq ((hh _).trans (by rw [hrx, hry]))) $$ Hh
  icases Hh' with ⟨Hx, Hy⟩
  iapply Hk
  isplitl [Hb]; · iexact Hb
  isplitl [Hx]; · iexact Hx
  iexact Hy

variable (m : (ℓ : Loc nD τ sig) → Buf (Elt Ideal) ℓ)

theorem rows2_S1 (d : Dev nD) (f1 : S32x13312.Idx → EReal) (h1 : S1OK (argX m d) f1) : ∀ w < 32, ∀ c < 13312, rows2 f1 w c = S1P (argX m d) w c := by
  intro w hw c hc; rw [rows2_of_lt f1 hw hc, h1]
theorem rows2_S2 (d : Dev nD) (f2 : S32x13312.Idx → EReal) (h2 : S2OK (argX m d) f2) : ∀ w < 32, ∀ c < 13312, rows2 f2 w c = S2P (argX m d) w c := by
  intro w hw c hc; rw [rows2_of_lt f2 hw hc, h2]
theorem row1_of (v : KSpec.V325) (f : S1x13312.Idx → EReal) (h : ∀ idx : S1x13312.Idx, f idx = scat slotOf v (idx 1).val) : ∀ c < 13312, row1 f c = scat slotOf v c := by
  intro c hc; rw [row1_of_lt f hc, h]

/-- The scale vector, read through the reshape to one axis. -/
theorem alOK_of (d : Dev nD) (f1 f2 : S32x13312.Idx → EReal) (f11 f20 g0 : S1x13312.Idx → EReal)
    (h1 : S1OK (argX m d) f1) (h2 : S2OK (argX m d) f2)
    (hw : ∀ idx : S1x13312.Idx, f11 idx = scat slotOf (argW m d) (idx 1).val) (hg : ∀ idx : S1x13312.Idx, f20 idx = scat slotOf (argG m d) (idx 1).val)
    (h0 : ∀ idx : S1x13312.Idx, g0 idx = ALPHA (rows2 f1) (rows2 f2) (row1 f11) (row1 f20) (idx 1).val) :
    AlOK m d (fun i => shapeCast S13312 g0 shapeCasts_S1x13312_S13312 i) := by
  intro idx
  show shapeCast S13312 g0 shapeCasts_S1x13312_S13312 idx = _
  rw [shapeCast_row13312, h0]
  exact ALPHA_congr (rows2_S1 m d f1 h1) (rows2_S2 m d f2 h2) (row1_of _ f11 hw) (row1_of _ f20 hg) _ (idx 0).isLt

/-- The offset vector, read through the reshape to one axis. -/
theorem cvOK_of (d : Dev nD) (f1 f2 : S32x13312.Idx → EReal) (f11 f20 f29 : S1x13312.Idx → EReal) (g1 : S1x16.Idx → EReal)
    (h1 : S1OK (argX m d) f1) (h2 : S2OK (argX m d) f2)
    (hw : ∀ idx : S1x13312.Idx, f11 idx = scat slotOf (argW m d) (idx 1).val) (hg : ∀ idx : S1x13312.Idx, f20 idx = scat slotOf (argG m d) (idx 1).val)
    (hb : ∀ idx : S1x13312.Idx, f29 idx = scat slotOf (argB m d) (idx 1).val)
    (h0 : ∀ idx : S1x16.Idx, g1 idx = CVAL (rows2 f1) (rows2 f2) (row1 f11) (row1 f20) (row1 f29)) :
    CvOK m d (fun i => shapeCast S16 g1 shapeCasts_S1x16_S16 i) := by
  intro idx
  show shapeCast S16 g1 shapeCasts_S1x16_S16 idx = _
  rw [shapeCast_row16, h0]
  exact CVAL_congr (rows2_S1 m d f1 h1) (rows2_S2 m d f2 h2) (row1_of _ f11 hw) (row1_of _ f20 hg) (row1_of _ f29 hb)

/-- The result, read through the reshape to a column. -/
theorem otOK_col (d : Dev nD) (fo : S4096.Idx → EReal) (ho : OtOK m d fo) (idx : S4096x1.Idx) :
    shapeCast S4096x1 fo shapeCasts_S4096_S4096x1 idx = OUT slotOf (argX m d) (argG m d) (argB m d) (argW m d) (idx 0).val := by
  rw [shapeCast_col4096, ho]

end Cert.Proof.KI

end
-- ==== Proof.HostVb.lean ====
/-
  A scatter whose update function keeps the update ("set"), read at an index. The fold over the update indices writes,
  at each result index an update lands on, that update's value; when no two updates land on one index, the result at an
  index is the value of the one update that lands there, and the operand where none does.
-/
import Idealize.ShloMosaic.Lib.ValueIdx

noncomputable section

namespace Cert.Proof.KI

open Idealize.ShloMosaic Idealize.ShloMosaic.ValueIdx

section Fold
variable {ι β κ : Type} [DecidableEq κ]

/-- One update of a "set" scatter: update n, landing at tgt n (nowhere when that is none), writes its value there. -/
def setStep (tgt : ι → Option κ) (val : ι → β) (r : κ → β) (n : ι) : κ → β :=
  match tgt n with
  | some i => fun i' => if i' = i then val n else r i'
  | none => r

/-- An index no update of the list lands on keeps what it held. -/
theorem foldl_setStep_miss (tgt : ι → Option κ) (val : ι → β) (l : List ι) (x : κ → β) (i : κ)
    (h : ∀ n ∈ l, tgt n ≠ some i) : l.foldl (setStep tgt val) x i = x i := by
  induction l generalizing x with
  | nil => rfl
  | cons n l ih =>
    rw [List.foldl_cons, ih _ (fun m hm => h m (List.mem_cons_of_mem _ hm))]
    have hn := h n List.mem_cons_self
    have key : ∀ o : Option κ, o ≠ some i →
        (match o with | some k => fun i' => if i' = k then val n else x i' | none => x) i = x i := by
      intro o ho
      cases o with
      | none => rfl
      | some k => exact if_neg (fun e => ho (by rw [e]))
    exact key _ hn

/-- With no two updates of the list landing on one index, the index update n lands on ends at n's value. -/
theorem foldl_setStep_hit (tgt : ι → Option κ) (val : ι → β) (l : List ι) (hl : l.Pairwise (fun a b => tgt a ≠ tgt b))
    (x : κ → β) (i : κ) (n : ι) (hn : n ∈ l) (hi : tgt n = some i) : l.foldl (setStep tgt val) x i = val n := by
  induction l generalizing x with
  | nil => cases hn
  | cons m l ih =>
    rw [List.foldl_cons]
    rw [List.pairwise_cons] at hl
    rcases List.mem_cons.1 hn with rfl | hn'
    · rw [foldl_setStep_miss tgt val l _ i (fun k hk e => hl.1 k hk (hi.trans e.symm))]
      show (match tgt n with | some k => fun i' => if i' = k then val n else x i' | none => x) i = val n
      rw [hi]
      exact if_pos rfl
    · exact ih hl.2 _ hn'

end Fold

section Scatter
variable {s si u : Shape} {w : ℕ} {α : Type}

/-- A "set" scatter is the fold of the updates' steps in row-major order of the update indices. -/
theorem scatter_set_eq_foldl (d : ScatterDims s si u) (x : s.Idx → α) (idx : IVec si w) (upd : u.Idx → α) :
    Host.scatter d (fun _ b => b) x idx upd
      = (List.finRange u.numel).foldl
          (setStep (fun n => d.resultIdx? (u.rowMajor.symm n) idx) (fun n => upd (u.rowMajor.symm n))) x := by
  unfold Host.scatter
  refine congrArg (fun g => List.foldl g x (List.finRange u.numel)) ?_
  funext r n
  unfold setStep
  beta_reduce
  generalize d.resultIdx? (u.rowMajor.symm n) idx = o
  cases o with
  | none => rfl
  | some i =>
    funext i'
    show (if i' = i then upd (u.rowMajor.symm n) else r i') = (if i' = i then upd (u.rowMajor.symm n) else r i')
    congr

/-- No update lands on i: the scatter leaves the operand's element. -/
theorem scatter_set_miss (d : ScatterDims s si u) (x : s.Idx → α) (idx : IVec si w) (upd : u.Idx → α) (i : s.Idx)
    (h : ∀ j : u.Idx, d.resultIdx? j idx ≠ some i) : Host.scatter d (fun _ b => b) x idx upd i = x i := by
  rw [scatter_set_eq_foldl]
  exact foldl_setStep_miss _ _ _ x i (fun n _ => h _)

/-- The updates land on pairwise different indices and update j lands on i: the scatter writes j's value there. -/
theorem scatter_set_hit (d : ScatterDims s si u) (x : s.Idx → α) (idx : IVec si w) (upd : u.Idx → α) (i : s.Idx)
    (hinj : ∀ j j' : u.Idx, d.resultIdx? j idx = d.resultIdx? j' idx → j = j') (j : u.Idx)
    (hj : d.resultIdx? j idx = some i) : Host.scatter d (fun _ b => b) x idx upd i = upd j := by
  rw [scatter_set_eq_foldl]
  have hl : (List.finRange u.numel).Pairwise
      (fun a b => d.resultIdx? (u.rowMajor.symm a) idx ≠ d.resultIdx? (u.rowMajor.symm b) idx) :=
    (List.nodup_finRange u.numel).imp (fun hne e => hne (u.rowMajor.symm.injective (hinj _ _ e)))
  have := foldl_setStep_hit (fun n => d.resultIdx? (u.rowMajor.symm n) idx) (fun n => upd (u.rowMajor.symm n))
    (List.finRange u.numel) hl x i (u.rowMajor j) (List.mem_finRange _) (by simpa using hj)
  simpa using this

end Scatter

end Cert.Proof.KI

end
-- ==== Proof.HostVc.lean ====
/-
  The program's three scatters read at a slot. Each scatters a vector of 325 per-pair values into 832 slots at the
  indices of the literal table: update p lands at the slot the table's word p names. The table's words are below 832
  and pairwise different (a slot 32 j + i determines its pair (i, j), hence its place in the table), so slot q ends at
  the value of the one pair whose word is q, and at the operand's element where there is none.
-/
import proofs.«210137_g30502857736458_cont_9to1_2222_4_alg».proof.Proof.HostVb
import proofs.«210137_g30502857736458_cont_9to1_2222_4_alg».proof.Proof.Gen.KernelIdeal

noncomputable section

namespace Cert.Proof.KI

open Cert.KernelIdeal Cert.KernelIdeal.Gen
open Idealize.ShloMosaic Idealize.ShloMosaic.ValueIdx

/-- The scatters' dimension numbers: one index per update, naming the slot. -/
abbrev scD : ScatterDims S832 S325x1 S325 := scatter_S832_S325x1_S325_n_0_0_1

/-- Update j's start on the one operand axis is the word the index array holds at (j, 0), read signed. -/
theorem scD_start (j : S325.Idx) (idx : IVec S325x1 32) (a : Fin 1) :
    scD.start j idx a = (idx (ix2 (j 0) (0 : Fin 1))).toInt := by
  obtain rfl : a = 0 := Subsingleton.elim _ _
  unfold ScatterDims.start
  rw [dif_pos (show (0 : Fin 1) ∈ scD.scatterDimsToOperandDims from List.mem_singleton.mpr rfl)]
  refine congrArg (fun k => (idx k).toInt) ?_
  funext b
  refine Fin.ext ?_
  match b with
  | ⟨0, _⟩ => rfl
  | ⟨1, _⟩ => rfl

/-- The operand's one axis is inserted: no window coordinate. -/
theorem scD_window (j : S325.Idx) (a : Fin 1) : scD.window j a = 0 := by
  obtain rfl : a = 0 := Subsingleton.elim _ _
  unfold ScatterDims.window
  rw [dif_neg (by decide)]

/-- Where update j lands: at the slot its word names, when that is one of the 832 slots. -/
theorem scD_resultIdx (j : S325.Idx) (idx : IVec S325x1 32) (q : ℕ) (hq : q < 832)
    (h : (idx (ix2 (j 0) (0 : Fin 1))).toInt = (q : ℤ)) :
    scD.resultIdx? j idx = some (ix1 (⟨q, hq⟩ : Fin 832)) := by
  have h' : ∀ a, 0 ≤ scD.start j idx a + scD.window j a ∧ scD.start j idx a + scD.window j a < S832.size a := by
    intro a
    rw [scD_start, scD_window, h]
    obtain rfl : a = 0 := Subsingleton.elim _ _
    show (0 : ℤ) ≤ (q : ℤ) + ((0 : ℕ) : ℤ) ∧ (q : ℤ) + ((0 : ℕ) : ℤ) < ((832 : ℕ) : ℤ)
    omega
  unfold ScatterDims.resultIdx?
  rw [dif_pos h']
  refine congrArg some (funext fun a => Fin.ext ?_)
  obtain rfl : a = 0 := Subsingleton.elim _ _
  show (scD.start j idx 0 + ((scD.window j 0 : ℕ) : ℤ)).toNat = q
  rw [scD_start, scD_window, h]
  omega

/-- The place in the table of the pair whose slot is q = 32 j + i: the pairs run over i, then over j from i + 1. -/
def pairIx (q : ℕ) : ℕ := (q % 32) * 25 - (q % 32) * (q % 32 - 1) / 2 + (q / 32 - q % 32 - 1)

/-- A slot of the table determines its place in the table. -/
theorem lit0_pairIx : ∀ p : Fin 325, pairIx (lit0 p).toNat = p.val := by decide

/-- The table's words are below 832. -/
theorem lit0_lt : ∀ p : Fin 325, (lit0 p).toNat < 832 := by decide

/-- The table's words are pairwise different. -/
theorem lit0_inj {p p' : Fin 325} (h : (lit0 p).toNat = (lit0 p').toNat) : p = p' :=
  Fin.ext (by rw [← lit0_pairIx p, ← lit0_pairIx p', h])

/-- Read signed, a word of the table is its natural number. -/
theorem lit0_toInt (p : Fin 325) : (lit0 p).toInt = ((lit0 p).toNat : ℤ) := by
  have := lit0_lt p
  rw [BitVec.toInt_eq_toNat_of_lt (by omega)]

end Cert.Proof.KI

end
-- ==== Proof.HostVd.lean ====
/-
  The regrouping of the input and the three scattered rows as the forty host operations compute them: each result
  buffer after the operations is one composed term of an argument, and that term read at an index is the stage's
  mathematics: the regrouped input at (grp, n) is x[16 grp + n mod 16, n / 1024, (n / 16) mod 64], and a scattered row
  at column n is the per-pair value of the pair whose slot is n / 16, zero where no pair has that slot.
-/
import proofs.«210137_g30502857736458_cont_9to1_2222_4_alg».proof.Proof.Ops
import proofs.«210137_g30502857736458_cont_9to1_2222_4_alg».proof.Proof.CommonV
import proofs.«210137_g30502857736458_cont_9to1_2222_4_alg».proof.Proof.HostVc
import Idealize.ShloMosaic.Lib.Pipeline.Value
import Idealize.ShloMosaic.Lib.IdealHost
import Idealize.ShloMosaic.PureOps.Ideal.Laws

noncomputable section

namespace Cert.Proof.KI

open Cert.KernelIdeal Cert.KernelIdeal.Gen
open Idealize.ShloMosaic Idealize.ShloMosaic.ValueIdx Idealize.ShloMosaic.StableHlo
open Cert.Proof.KSpec

section Terms
variable {F : FTy → Type} [FloatOps F]

/-- The regrouping: [4096, 26, 64] viewed [256, 16, 26, 64], the lane axis moved last, viewed [256, 26624]. -/
def xgOf (x : FVec F S4096x26x64 .f32) : FVec F S256x26624 .f32 :=
  shapeCast S256x26624
    (transpose S256x26x64x16 [0, 2, 3, 1] (shapeCast S256x16x26x64 x shapeCasts_S4096x26x64_S256x16x26x64)
      transposes_S256x16x26x64_S256x26x64x16_0_2_3_1)
    shapeCasts_S256x26x64x16_S256x26624

/-- The scatters' index array: the table's words as a column (the select against the all-false mask keeps them). -/
def idxW : IVec S325x1 32 :=
  broadcastInDim S325x1 ![0] bcast_S325_S325x1_0
    (select (constantI S325 1 0#1)
      (addi (fun i => lit0 (S325.rowMajor i)) (broadcastInDim S325 ![] bcast_S_S325 (constantI S_ 32 832#32)))
      (fun i => lit0 (S325.rowMajor i)))

/-- A per-pair vector scattered into the 832 slots of a zero vector. -/
def slotsOf (v : FVec F S325 .f32) : FVec F S832 .f32 :=
  Host.scatter scatter_S832_S325x1_S325_n_0_0_1 (fun _ b => b)
    (broadcastInDim S832 ![] bcast_S_S832 (constant S_ .f32 0x00000000#32)) idxW v

/-- The scattered row: each slot's value on its sixteen lanes, as one row of 13312 columns. -/
def rowOf (v : FVec F S325 .f32) : FVec F S1x13312 .f32 :=
  shapeCast S1x13312
    (broadcastInDim S832x16 ![0, 1] bcast_S832x1_S832x16_0_1 (shapeCast S832x1 (slotsOf v) shapeCasts_S832_S832x1))
    shapeCasts_S832x16_S1x13312

variable (V0 : Valuation τ sig (Elt F))

set_option maxRecDepth 16384 in
set_option maxHeartbeats 1000000 in
theorem ops0_v2 : after (ops0 (F := F)) V0 (Proc.devRef .tc main_v2) = xgOf (V0 (Proc.devRef .tc main_arg0)) := by
  after_results_simp
  rfl

set_option maxRecDepth 16384 in
set_option maxHeartbeats 1000000 in
theorem ops0_v11 : after (ops0 (F := F)) V0 (Proc.devRef .tc main_v11) = rowOf (V0 (Proc.devRef .tc main_arg3)) := by
  after_results_simp
  rfl

set_option maxRecDepth 16384 in
set_option maxHeartbeats 1000000 in
theorem ops0_v20 : after (ops0 (F := F)) V0 (Proc.devRef .tc main_v20) = rowOf (V0 (Proc.devRef .tc main_arg1)) := by
  after_results_simp
  rfl

set_option maxRecDepth 16384 in
set_option maxHeartbeats 1000000 in
theorem ops0_v29 : after (ops0 (F := F)) V0 (Proc.devRef .tc main_v29) = rowOf (V0 (Proc.devRef .tc main_arg2)) := by
  after_results_simp
  rfl

end Terms

end Cert.Proof.KI

end
-- ==== Proof.HostVe.lean ====
/-
  The host stretch's values at the ideal instance, read at an index against the stage-by-stage mathematics.
-/
import proofs.«210137_g30502857736458_cont_9to1_2222_4_alg».proof.Proof.HostVd

noncomputable section

namespace Cert.Proof.KI

open Cert.KernelIdeal Cert.KernelIdeal.Gen
open Idealize.ShloMosaic Idealize.ShloMosaic.ValueIdx Idealize.ShloMosaic.StableHlo
open Cert.Proof.KSpec

/-! ## The regrouped input -/

/-- The regrouping read at (grp, n): lane n mod 16 of group grp is batch element 16 grp + n mod 16; the field is
    n / 1024 and the feature (n / 16) mod 64. -/
theorem xgOf_eq (x : KSpec.X) : xgOf (F := Ideal) x = XGa x := by
  funext idx
  have h0 : (idx 0).val < 256 := (idx 0).isLt
  have h1 : (idx 1).val < 26624 := (idx 1).isLt
  let g : Fin 256 := ⟨(idx 0).val, h0⟩
  let f : Fin 26 := ⟨(idx 1).val / 1024, by omega⟩
  let e : Fin 64 := ⟨((idx 1).val / 16) % 64, by omega⟩
  let l : Fin 16 := ⟨(idx 1).val % 16, by omega⟩
  let b : Fin 4096 := ⟨16 * (idx 0).val + (idx 1).val % 16, by omega⟩
  unfold xgOf
  rw [shapeCast_apply _ shapeCasts_S256x26x64x16_S256x26624 idx (ix4 g f e l) (by
    rw [Shape.rowMajor_val_four, Shape.rowMajor_val_two]
    show (((idx 0).val * 26 + (idx 1).val / 1024) * 64 + ((idx 1).val / 16) % 64) * 16 + (idx 1).val % 16
      = (idx 0).val * 26624 + (idx 1).val
    omega)]
  rw [transpose_apply [0, 2, 3, 1] _ transposes_S256x16x26x64_S256x26x64x16_0_2_3_1 (ix4 g f e l) (ix4 g l f e) (by
    intro a
    match a with
    | ⟨0, _⟩ => rfl
    | ⟨1, _⟩ => rfl
    | ⟨2, _⟩ => rfl
    | ⟨3, _⟩ => rfl)]
  rw [shapeCast_apply _ shapeCasts_S4096x26x64_S256x16x26x64 (ix4 g l f e) (ix3 b f e) (by
    rw [Shape.rowMajor_val_three, Shape.rowMajor_val_four]
    show ((16 * (idx 0).val + (idx 1).val % 16) * 26 + (idx 1).val / 1024) * 64 + ((idx 1).val / 16) % 64
      = ((((idx 0).val * 16 + (idx 1).val % 16) * 26 + (idx 1).val / 1024) * 64 + ((idx 1).val / 16) % 64)
    omega)]
  show x (ix3 b f e) = XG x (idx 0).val (idx 1).val
  unfold XG xN
  rw [dif_pos ⟨b.isLt, f.isLt, e.isLt⟩]

/-! ## The scattered rows -/

/-- The index array at (p, 0) is the table's word p. -/
theorem idxW_apply (p : Fin 325) : idxW (ix2 p (0 : Fin 1)) = lit0 p := by
  unfold idxW
  rw [broadcastInDim_apply ![0] bcast_S325_S325x1_0 _ (ix2 p (0 : Fin 1)) (ix1 p) (by
    intro a
    match a with
    | ⟨0, _⟩ => rfl)]
  rw [select_apply]
  show Scalar.select 0#1 _ (lit0 (S325.rowMajor (ix1 p))) = lit0 p
  rw [select_zero]
  exact congrArg lit0 (Fin.ext (Shape.rowMajor_val_one (ix1 p)))

/-- Update j lands at the slot the table's word j names. -/
theorem scD_land (j : S325.Idx) :
    scD.resultIdx? j idxW = some (ix1 (⟨(lit0 (j 0)).toNat, lit0_lt (j 0)⟩ : Fin 832)) :=
  scD_resultIdx j idxW _ (lit0_lt (j 0)) ((congrArg BitVec.toInt (idxW_apply (j 0))).trans (lit0_toInt (j 0)))

/-- No two updates land on one slot. -/
theorem scD_land_inj (j j' : S325.Idx) (h : scD.resultIdx? j idxW = scD.resultIdx? j' idxW) : j = j' := by
  rw [scD_land, scD_land] at h
  have h1 : (⟨(lit0 (j 0)).toNat, lit0_lt (j 0)⟩ : Fin 832) = ⟨(lit0 (j' 0)).toNat, lit0_lt (j' 0)⟩ :=
    congrFun (Option.some.inj h) 0
  have h2 : (lit0 (j 0)).toNat = (lit0 (j' 0)).toNat := Fin.mk.inj h1
  have h3 : (j 0 : Fin 325) = j' 0 := lit0_inj h2
  rw [eq_ix1 j, eq_ix1 j']
  exact congrArg ix1 h3

/-- slotOf at a place of the table is the table's word. -/
theorem slotOf_fin (p : Fin 325) : slotOf p.val = (lit0 p).toNat := by
  unfold slotOf
  rw [dif_pos p.isLt]

/-- The mathematics' scattered row at a slot some pair has: that pair's value. -/
theorem scat_hit (v : KSpec.V325) (n : ℕ) (p : Fin 325) (hp : (lit0 p).toNat = n / 16) :
    scat slotOf v n = v (ix1 p) := by
  unfold scat
  rw [Finset.sum_eq_single_of_mem p.val (Finset.mem_range.2 p.isLt)]
  · rw [slotOf_fin, if_pos hp]
    unfold vN
    rw [dif_pos p.isLt]
  · intro p' hp' hne
    have hlt : p' < 325 := Finset.mem_range.1 hp'
    rw [if_neg]
    intro h
    apply hne
    have : (lit0 ⟨p', hlt⟩).toNat = (lit0 p).toNat := by rw [← slotOf_fin ⟨p', hlt⟩, hp]; exact h
    exact congrArg Fin.val (lit0_inj this)

/-- The mathematics' scattered row at a slot no pair has: zero. -/
theorem scat_miss (v : KSpec.V325) (n : ℕ) (h : ∀ p : Fin 325, (lit0 p).toNat ≠ n / 16) : scat slotOf v n = 0 := by
  unfold scat
  refine Finset.sum_eq_zero fun p' hp' => ?_
  have hlt : p' < 325 := Finset.mem_range.1 hp'
  rw [if_neg]
  intro h'
  exact h ⟨p', hlt⟩ (by rw [← slotOf_fin ⟨p', hlt⟩]; exact h')

/-- The scatter read at slot q. -/
theorem slotsOf_apply (v : KSpec.V325) (q : Fin 832) (n : ℕ) (hn : n / 16 = q.val) :
    slotsOf (F := Ideal) v (ix1 q) = scat slotOf v n := by
  unfold slotsOf
  by_cases hex : ∃ p : Fin 325, (lit0 p).toNat = q.val
  · obtain ⟨p, hp⟩ := hex
    have hl : scD.resultIdx? (ix1 p) idxW = some (ix1 q) := by
      rw [scD_land]
      exact congrArg some (congrArg ix1 (Fin.ext hp))
    rw [scatter_set_hit scD _ idxW v (ix1 q) scD_land_inj (ix1 p) hl, scat_hit v n p (by rw [hp, hn])]
  · have hm : ∀ j : S325.Idx, scD.resultIdx? j idxW ≠ some (ix1 q) := by
      intro j h
      rw [scD_land] at h
      have h1 : (⟨(lit0 (j 0)).toNat, lit0_lt (j 0)⟩ : Fin 832) = q := congrFun (Option.some.inj h) 0
      exact hex ⟨j 0, by rw [← h1]⟩
    rw [scatter_set_miss scD _ idxW v (ix1 q) hm, scat_miss v n (fun p hp => hex ⟨p, by rw [hp, hn]⟩)]
    rw [broadcastInDim_scalar_apply]
    exact Ideal.ofBits_zero_f32

/-- The scattered row read at column n: slot n / 16. -/
theorem rowOf_apply (v : KSpec.V325) (idx : S1x13312.Idx) : rowOf (F := Ideal) v idx = scat slotOf v (idx 1).val := by
  have h0 : (idx 0).val < 1 := (idx 0).isLt
  have h1 : (idx 1).val < 13312 := (idx 1).isLt
  let q : Fin 832 := ⟨(idx 1).val / 16, by omega⟩
  let l : Fin 16 := ⟨(idx 1).val % 16, by omega⟩
  unfold rowOf
  rw [shapeCast_apply _ shapeCasts_S832x16_S1x13312 idx (ix2 q l) (by
    rw [Shape.rowMajor_val_two, Shape.rowMajor_val_two]
    show (idx 1).val / 16 * 16 + (idx 1).val % 16 = (idx 0).val * 13312 + (idx 1).val
    omega)]
  rw [broadcastInDim_apply ![0, 1] bcast_S832x1_S832x16_0_1 _ (ix2 q l) (ix2 q (0 : Fin 1)) (by
    intro a
    match a with
    | ⟨0, _⟩ => rfl
    | ⟨1, _⟩ => rfl)]
  rw [shapeCast_apply _ shapeCasts_S832_S832x1 (ix2 q (0 : Fin 1)) (ix1 q) (by
    rw [Shape.rowMajor_val_one, Shape.rowMajor_val_two]
    show (idx 1).val / 16 = (idx 1).val / 16 * 1 + 0
    omega)]
  exact slotsOf_apply v q (idx 1).val rfl

/-! ## The forty host operations' values -/

section Values
variable (V0 : Valuation τ sig (Elt Ideal))

/-- The regrouped input after the host operations. -/
theorem V1_xg : after (ops0 (F := Ideal)) V0 (Proc.devRef .tc main_v2) = XGa (V0 (Proc.devRef .tc main_arg0)) :=
  (ops0_v2 V0).trans (xgOf_eq _)

/-- The scattered edge-weight row. -/
theorem V1_wm (idx : S1x13312.Idx) :
    after (ops0 (F := Ideal)) V0 (Proc.devRef .tc main_v11) idx = scat slotOf (V0 (Proc.devRef .tc main_arg3)) (idx 1).val := by
  rw [ops0_v11]
  exact rowOf_apply _ idx

/-- The scattered scale row. -/
theorem V1_gm (idx : S1x13312.Idx) :
    after (ops0 (F := Ideal)) V0 (Proc.devRef .tc main_v20) idx = scat slotOf (V0 (Proc.devRef .tc main_arg1)) (idx 1).val := by
  rw [ops0_v20]
  exact rowOf_apply _ idx

/-- The scattered offset row. -/
theorem V1_bm (idx : S1x13312.Idx) :
    after (ops0 (F := Ideal)) V0 (Proc.devRef .tc main_v29) idx = scat slotOf (V0 (Proc.devRef .tc main_arg2)) (idx 1).val := by
  rw [ops0_v29]
  exact rowOf_apply _ idx

end Values

end Cert.Proof.KI

end
-- ==== Proof.RegionVDefs.lean ====
import proofs.«210137_g30502857736458_cont_9to1_2222_4_alg».proof.Proof.RegionBody
import proofs.«210137_g30502857736458_cont_9to1_2222_4_alg».proof.Proof.Gen.KernelIdeal.Launch
import proofs.«210137_g30502857736458_cont_9to1_2222_4_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The finalize kernel's pure dataflow, as its body wires its payloads: from what the five input buffers hold, what it
    stores into the two output buffers. -/
def outsV (a0 a1 : Vec F S32x13312 .f32) (a2 a3 a4 : Vec F S1x13312 .f32) : FVec F S1x13312 .f32 × FVec F S1x16 .f32 :=
  have v20 : IVec S1x13312 32 := iota .tc S1x13312 32 [1] iota_S1x13312_d1_w32
  let v43 : BitVec 1 := Scalar.cmpi .eq 4#32 0#32
  let v44 : BitVec 32 := Scalar.select v43 1#32 4#32
  have v42 : FVec F S1x13312 .f32 := k1_pay3 a0
  have v46 : IVec S1x13312 32 := k1_pay4
  let v87 : BitVec 1 := Scalar.cmpi .eq 16#32 0#32
  let v88 : BitVec 32 := Scalar.select v87 1#32 16#32
  have v86 : FVec F S1x13312 .f32 := k1_pay5 v20 v42 v44 v46
  have v90 : IVec S1x13312 32 := k1_pay6 v20
  have v91 : IVec S1x13312 32 := k1_pay7
  have v129 : IVec S1x13312 32 := iota .tc S1x13312 32 [1] iota_S1x13312_d1_w32
  let v130 : BitVec 1 := Scalar.cmpi .eq 2#32 0#32
  let v131 : BitVec 32 := Scalar.select v130 1#32 2#32
  have v108 : FVec F S1x13312 .f32 := k1_pay8 v86 v88 v90 v91
  have v128 : FVec F S1x13312 .f32 := k1_pay9 a1
  let v174 : BitVec 1 := Scalar.cmpi .eq 8#32 0#32
  let v175 : BitVec 32 := Scalar.select v174 1#32 8#32
  have v173 : FVec F S1x13312 .f32 := k1_pay14 v128 v129 v131 k1_pay10 k1_pay11 k1_pay12 k1_pay13
  have v219 : FVec F S1x13312 .f32 := k1_pay18 v108
  have v226 : FVec F S1x13312 .f32 := k1_pay19 v108 v129 v173 v175 (k1_pay15 v129) (k1_pay16 v129) (k1_pay17 v129)
  have v228 : FVec F S1x13312 .f32 := k1_pay20 a2
  have v230 : FVec F S1x13312 .f32 := k1_pay21 a3
  (k1_pay1 v226 v228 v230, k1_pay2 v219 v226 v228 v230 a4)

end Cert.Proof.KI

end
-- ==== Proof.RegionVRun.lean ====
import proofs.«210137_g30502857736458_cont_9to1_2222_4_alg».proof.Proof.RegionVDefs
import proofs.«210137_g30502857736458_cont_9to1_2222_4_alg».proof.Proof.Gen.KernelIdeal.Launch
import proofs.«210137_g30502857736458_cont_9to1_2222_4_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The unit-stride rectangle of a rank-2 shape's own sizes at zero offsets places an index at itself. -/
theorem unit00_emb {n0 n1 : ℕ} (inb : ∀ a, (![0, 0] : Fin 2 → ℕ) a + (⟨2, ![n0, n1]⟩ : Shape).size a ≤ (⟨2, ![n0, n1]⟩ : Shape).size a)
    (x : (Rect.unit (s := ⟨2, ![n0, n1]⟩) ![0, 0] (⟨2, ![n0, n1]⟩ : Shape).size inb).shape.Idx) :
    (Rect.unit (s := ⟨2, ![n0, n1]⟩) ![0, 0] (⟨2, ![n0, n1]⟩ : Shape).size inb).emb x = x := by
  funext a; apply Fin.ext; rw [Rect.emb_apply]
  match a with
  | ⟨0, _⟩ => show 0 + 1 * (x _ : ℕ) = _; omega
  | ⟨1, _⟩ => show 0 + 1 * (x _ : ℕ) = _; omega

section Run

variable (c : Dev nD)

/-- What the body's load of a whole 32 × 13312 buffer reads; -/
abbrev ldA (M : Memref sig .tc .vmem S32x13312 .f32) (f : Bf (F := F) c M) : Vec F S32x13312 .f32 :=
  View.readAt (Elt F) M.view (Rect.unit ![0, 0] S32x13312.size inb_S32x13312_S32x13312_0_0).toLoadRect f
/-- of a whole 1 × 13312 buffer. -/
abbrev ldB (M : Memref sig .tc .vmem S1x13312 .f32) (f : Bf (F := F) c M) : Vec F S1x13312 .f32 :=
  View.readAt (Elt F) M.view (Rect.unit ![0, 0] S1x13312.size inb_S1x13312_S1x13312_0_0).toLoadRect f

set_option maxHeartbeats 1000000 in
/-- The body on seven whole staging buffers, with what it leaves: the inputs as they were; each output buffer at
    contents that read as the dataflow's result of what the loads read. -/
theorem kernelRunV
    (M0 : Memref sig .tc .vmem S32x13312 .f32) (h0 : M0.IsWhole) (M1 : Memref sig .tc .vmem S32x13312 .f32) (h1 : M1.IsWhole)
    (M2 : Memref sig .tc .vmem S1x13312 .f32) (h2 : M2.IsWhole) (M3 : Memref sig .tc .vmem S1x13312 .f32) (h3 : M3.IsWhole)
    (M4 : Memref sig .tc .vmem S1x13312 .f32) (h4 : M4.IsWhole) (M5 : Memref sig .tc .vmem S1x13312 .f32) (h5 : M5.IsWhole)
    (M6 : Memref sig .tc .vmem S1x16 .f32) (h6 : M6.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (Q : PUnit → sProp 𝕄) :
    iprop(pt c M0 f0 ∗ pt c M1 f1 ∗ pt c M2 f2 ∗ pt c M3 f3 ∗ pt c M4 f4 ∗ pt c M5 f5 ∗ pt c M6 f6
      ∗ (iprop(pt c M0 f0 ∗ pt c M1 f1 ∗ pt c M2 f2 ∗ pt c M3 f3 ∗ pt c M4 f4
          ∗ (∃ g, ⌜M5.view.read (Elt F) g = (outsV (ldA c M0 f0) (ldA c M1 f1) (ldB c M2 f2) (ldB c M3 f3) (ldB c M4 f4)).1⌝ ∗ pt c M5 g)
          ∗ (∃ g, ⌜M6.view.read (Elt F) g = (outsV (ldA c M0 f0) (ldA c M1 f1) (ldB c M2 f2) (ldB c M3 f3) (ldB c M4 f4)).2⌝ ∗ pt c M6 g)) -∗ Q ⟨⟩))
    ⊢ wp frame (wpE (defs₀ (F := F)) Variants.none c none) Set.univ
        (cc1__finalize_kernel M0 h0 M1 h1 M2 h2 M3 h3 M4 h4 M5 h5 M6 h6) Q := by
  iintro ⟨H0, H1, H2, H3, H4, H5, H6, Hk⟩
  sl_exec!
  sl_step
  iapply Hk
  isplitl [H0]; · iexact H0
  isplitl [H1]; · iexact H1
  isplitl [H2]; · iexact H2
  isplitl [H3]; · iexact H3
  isplitl [H4]; · iexact H4
  isplitl [H5]
  · iexists _; isplitr; swap; (· iexact H5)
    ipureintro
    funext y
    have h := View.read_writes_cons_emb (v := M5.view) (Val := Elt F) (f := M5.view.junk) (Rect.unit ![0, 0] S1x13312.size inb_S1x13312_S1x13312_0_0)
      (outsV (ldA c M0 f0) (ldA c M1 f1) (ldB c M2 f2) (ldB c M3 f3) (ldB c M4 f4)).1 [] y
    rw [unit00_emb] at h
    exact h
  · iexists _; isplitr; swap; (· iexact H6)
    ipureintro
    funext y
    have h := View.read_writes_cons_emb (v := M6.view) (Val := Elt F) (f := M6.view.junk) (Rect.unit ![0, 0] S1x16.size inb_S1x16_S1x16_0_0)
      (outsV (ldA c M0 f0) (ldA c M1 f1) (ldB c M2 f2) (ldB c M3 f3) (ldB c M4 f4)).2 [] y
    rw [unit00_emb] at h
    exact h

end Run

end Cert.Proof.KI

end
-- ==== Proof.RegionVData.lean ====
import proofs.«210137_g30502857736458_cont_9to1_2222_4_alg».proof.Proof.RegionData
import proofs.«210137_g30502857736458_cont_9to1_2222_4_alg».proof.Proof.RegionVRun
import Idealize.ShloMosaic.Lib.Pipeline.FrameBody
import proofs.«210137_g30502857736458_cont_9to1_2222_4_alg».proof.Proof.Gen.KernelIdeal.Launch
import proofs.«210137_g30502857736458_cont_9to1_2222_4_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.Pipeline (RDat)

/-- What the body may leave in window `w`'s staging buffer: in an output's, the dataflow's result of the five input
    arrays' entry contents; of an input's, nothing is said. -/
def afterV (A : Arr F) (c : Dev nD) : (w : Fin 7) → (Y X : (cfg1.win w).block.Idx → Elt F (cfg1.win w).elt) → Prop
  | ⟨5, _⟩ => fun _ X => X = (outsV (A c 0) (A c 1) (A c 2) (A c 3) (A c 4)).1
  | ⟨6, _⟩ => fun _ X => X = (outsV (A c 0) (A c 1) (A c 2) (A c 3) (A c 4)).2
  | _ => fun _ _ => True

/-- The region's relational proof data with the outputs' values: as `rdats`, the relation of each output window naming
    what the body leaves there. -/
def rdatsV (A : Arr F) (_ : Fin 1) (c : Dev nD) : RDat τ (Elt F) (HIx 2) ℕ UU ℕ cfg1 c where
  A w := A c w
  after w _ := afterV A c w
  Φ _ := iprop(emp)
  q _ := fullShare
  owed _ := (K (F := F)).Otc c 1
  recorded _ := recd (F := F) c

theorem shareV_eq (A : Arr F) (c : Dev nD) (w : Fin 7) : (rdatsV A 0 c).share w = fullShare := by
  unfold RDat.share; split <;> rfl

theorem hwaitsV (A : Arr F) (c : Dev nD) :
    (levAts (K (F := F)).L (K (F := F)).lev : sProp 𝕄) ⊢ Pipeline.RDat.cellsWaits cfgs (rdatsV A) none 0 c :=
  Pipeline.RDat.cellsWaits_intro cfgs (rdatsV A) none 0 c fun w s t =>
    SparseCore.Cfg.mayWait_none (K := K (F := F)) _ (fun g => Otc_none c 1 g)

theorem unit00_idx {n0 n1 : ℕ} (inb : ∀ a, (![0, 0] : Fin 2 → ℕ) a + (⟨2, ![n0, n1]⟩ : Shape).size a ≤ (⟨2, ![n0, n1]⟩ : Shape).size a)
    (x : (Rect.unit (s := ⟨2, ![n0, n1]⟩) ![0, 0] (⟨2, ![n0, n1]⟩ : Shape).size inb).toLoadRect.shape.Idx) :
    (Rect.unit (s := ⟨2, ![n0, n1]⟩) ![0, 0] (⟨2, ![n0, n1]⟩ : Shape).size inb).toLoadRect.idx x = x := by
  funext a; apply Fin.ext; rw [LoadRect.idx_apply]
  match a with
  | ⟨0, _⟩ => show 0 + 1 * (x _ : ℕ) = _; omega
  | ⟨1, _⟩ => show 0 + 1 * (x _ : ℕ) = _; omega

/-- The body's whole-buffer loads read what the buffer's view reads. -/
theorem ldA_eq (c : Dev nD) (M : Memref sig .tc .vmem S32x13312 .f32) (f : Bf (F := F) c M) : ldA c M f = M.view.read (Elt F) f := by
  funext x
  show M.view.read (Elt F) f ((Rect.unit ![0, 0] S32x13312.size inb_S32x13312_S32x13312_0_0).toLoadRect.idx x) = _
  rw [unit00_idx]
theorem ldB_eq (c : Dev nD) (M : Memref sig .tc .vmem S1x13312 .f32) (f : Bf (F := F) c M) : ldB c M f = M.view.read (Elt F) f := by
  funext x
  show M.view.read (Elt F) f ((Rect.unit ![0, 0] S1x13312.size inb_S1x13312_S1x13312_0_0).toLoadRect.idx x) = _
  rw [unit00_idx]

/-- A whole-array window's fetch stages the array's contents. -/
theorem fetched0 (A : Arr F) (c : Dev nD) (d : (cfg1.win 0).block.Idx → Elt F (cfg1.win 0).elt) : (rdatsV A 0 c).fetched 0 t1_0 d = A c 0 := by
  have hb : View.read (Elt F) ((cfg1.win 0).blk t1_0).view (A c 0) = A c 0 :=
    Memref.read_access_unit_zero (Elt F) main_v30_1 (off := fun a => (cfg1.win 0).index t1_0 a * (cfg1.win 0).size a) (funext fun a => Nat.zero_mul _) _ (A c 0)
  show (cfg1.win 0).fill _ d (View.read (Elt F) ((cfg1.win 0).blk t1_0).view (A c 0)) = A c 0
  rw [hb]
  rfl
theorem fetched1 (A : Arr F) (c : Dev nD) (d : (cfg1.win 1).block.Idx → Elt F (cfg1.win 1).elt) : (rdatsV A 0 c).fetched 1 t1_0 d = A c 1 := by
  have hb : View.read (Elt F) ((cfg1.win 1).blk t1_0).view (A c 1) = A c 1 :=
    Memref.read_access_unit_zero (Elt F) main_v30_2 (off := fun a => (cfg1.win 1).index t1_0 a * (cfg1.win 1).size a) (funext fun a => Nat.zero_mul _) _ (A c 1)
  show (cfg1.win 1).fill _ d (View.read (Elt F) ((cfg1.win 1).blk t1_0).view (A c 1)) = A c 1
  rw [hb]
  rfl
theorem fetched2 (A : Arr F) (c : Dev nD) (d : (cfg1.win 2).block.Idx → Elt F (cfg1.win 2).elt) : (rdatsV A 0 c).fetched 2 t1_0 d = A c 2 := by
  have hb : View.read (Elt F) ((cfg1.win 2).blk t1_0).view (A c 2) = A c 2 :=
    Memref.read_access_unit_zero (Elt F) main_v11 (off := fun a => (cfg1.win 2).index t1_0 a * (cfg1.win 2).size a) (funext fun a => Nat.zero_mul _) _ (A c 2)
  show (cfg1.win 2).fill _ d (View.read (Elt F) ((cfg1.win 2).blk t1_0).view (A c 2)) = A c 2
  rw [hb]
  rfl
theorem fetched3 (A : Arr F) (c : Dev nD) (d : (cfg1.win 3).block.Idx → Elt F (cfg1.win 3).elt) : (rdatsV A 0 c).fetched 3 t1_0 d = A c 3 := by
  have hb : View.read (Elt F) ((cfg1.win 3).blk t1_0).view (A c 3) = A c 3 :=
    Memref.read_access_unit_zero (Elt F) main_v20 (off := fun a => (cfg1.win 3).index t1_0 a * (cfg1.win 3).size a) (funext fun a => Nat.zero_mul _) _ (A c 3)
  show (cfg1.win 3).fill _ d (View.read (Elt F) ((cfg1.win 3).blk t1_0).view (A c 3)) = A c 3
  rw [hb]
  rfl
theorem fetched4 (A : Arr F) (c : Dev nD) (d : (cfg1.win 4).block.Idx → Elt F (cfg1.win 4).elt) : (rdatsV A 0 c).fetched 4 t1_0 d = A c 4 := by
  have hb : View.read (Elt F) ((cfg1.win 4).blk t1_0).view (A c 4) = A c 4 :=
    Memref.read_access_unit_zero (Elt F) main_v29 (off := fun a => (cfg1.win 4).index t1_0 a * (cfg1.win 4).size a) (funext fun a => Nat.zero_mul _) _ (A c 4)
  show (cfg1.win 4).fill _ d (View.read (Elt F) ((cfg1.win 4).blk t1_0).view (A c 4)) = A c 4
  rw [hb]
  rfl

set_option maxHeartbeats 1600000 in
set_option maxRecDepth 8192 in
/-- The body obligation with the outputs' values: each input buffer is found at its array's contents (fetched at the one
    point), the body is run, and each output buffer comes back reading as the dataflow's result of those contents. -/
theorem body_obligationV (A : Arr F) (c : Dev nD) : (rdatsV A 0 c).BodyObligation (defs₀ (F := F)) 𝒱₀ none Set.univ := fun t Y hY => by
  obtain rfl := fin_N1 t
  obtain ⟨d0, e0⟩ := ((rdatsV A 0 c).finds_of_fetch (fetch1_0 t1_0) (Y 0)).mp (hY 0)
  obtain ⟨d1, e1⟩ := ((rdatsV A 0 c).finds_of_fetch (fetch1_1 t1_0) (Y 1)).mp (hY 1)
  obtain ⟨d2, e2⟩ := ((rdatsV A 0 c).finds_of_fetch (fetch1_2 t1_0) (Y 2)).mp (hY 2)
  obtain ⟨d3, e3⟩ := ((rdatsV A 0 c).finds_of_fetch (fetch1_3 t1_0) (Y 3)).mp (hY 3)
  obtain ⟨d4, e4⟩ := ((rdatsV A 0 c).finds_of_fetch (fetch1_4 t1_0) (Y 4)).mp (hY 4)
  rw [fetched0] at e0; rw [fetched1] at e1; rw [fetched2] at e2; rw [fetched3] at e3; rw [fetched4] at e4
  rw [bigSep_W1, bigSep_W1]
  unfold owns
  iintro ⟨-, HO, ⟨%f0, %r0, H0⟩, ⟨%f1, %r1, H1⟩, ⟨%f2, %r2, H2⟩, ⟨%f3, %r3, H3⟩, ⟨%f4, %r4, H4⟩, ⟨%f5, -, H5⟩, ⟨%f6, -, H6⟩⟩
  have k0 : ldA c (stage1_0 0) f0 = A c 0 := (ldA_eq c (stage1_0 0) f0).trans (r0.trans e0)
  have k1 : ldA c (stage1_1 0) f1 = A c 1 := (ldA_eq c (stage1_1 0) f1).trans (r1.trans e1)
  have k2 : ldB c (stage1_2 0) f2 = A c 2 := (ldB_eq c (stage1_2 0) f2).trans (r2.trans e2)
  have k3 : ldB c (stage1_3 0) f3 = A c 3 := (ldB_eq c (stage1_3 0) f3).trans (r3.trans e3)
  have k4 : ldB c (stage1_4 0) f4 = A c 4 := (ldB_eq c (stage1_4 0) f4).trans (r4.trans e4)
  iapply (kernelRunV c (stage1_0 0) (hstage1_0 0) (stage1_1 0) (hstage1_1 0) (stage1_2 0) (hstage1_2 0) (stage1_3 0) (hstage1_3 0) (stage1_4 0) (hstage1_4 0)
    (stage1_5 0) (hstage1_5 0) (stage1_6 0) (hstage1_6 0) f0 f1 f2 f3 f4 f5 f6)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, ⟨%g5, %hg5, H5⟩, ⟨%g6, %hg6, H6⟩⟩
  rw [k0, k1, k2, k3, k4] at hg5 hg6
  isplitr; · iempintro
  isplitl [HO]; · iexact HO
  isplitl [H0]; · iexists (Y 0); isplitr; · ipureintro; trivial
                  iexists f0; isplitr; · ipureintro; exact r0
                  iexact H0
  isplitl [H1]; · iexists (Y 1); isplitr; · ipureintro; trivial
                  iexists f1; isplitr; · ipureintro; exact r1
                  iexact H1
  isplitl [H2]; · iexists (Y 2); isplitr; · ipureintro; trivial
                  iexists f2; isplitr; · ipureintro; exact r2
                  iexact H2
  isplitl [H3]; · iexists (Y 3); isplitr; · ipureintro; trivial
                  iexists f3; isplitr; · ipureintro; exact r3
                  iexact H3
  isplitl [H4]; · iexists (Y 4); isplitr; · ipureintro; trivial
                  iexists f4; isplitr; · ipureintro; exact r4
                  iexact H4
  isplitl [H5]
  · iexists (View.read (Elt F) (stage1_5 0).view g5); isplitr
    · ipureintro; exact hg5
    iexists g5; isplitr; · ipureintro; rfl
    iexact H5
  iexists (View.read (Elt F) (stage1_6 0).view g6); isplitr
  · ipureintro; exact hg6
  iexists g6; isplitr; · ipureintro; rfl
  iexact H6

end Cert.Proof.KI

end
-- ==== Proof.RegionVSeg.lean ====
import proofs.«210137_g30502857736458_cont_9to1_2222_4_alg».proof.Proof.RegionVData
import proofs.«210137_g30502857736458_cont_9to1_2222_4_alg».proof.Proof.RegionSeg
import proofs.«210137_g30502857736458_cont_9to1_2222_4_alg».proof.Proof.Gen.KernelIdeal.Launch
import proofs.«210137_g30502857736458_cont_9to1_2222_4_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.Pipeline (RDat)

-- the region record is stated over the pinned configuration `pin pcfgs adm 0`, which is `cfg1` by unfolding
set_option backward.isDefEq.respectTransparency.types false in
/-- The region with the outputs' values: the generated layout, no semaphore of the kernel's own, the body obligation; entered with the seven
    arrays at their entry contents and the TensorCore's debt, left with the arrays at what they may then hold and the
    same debt. -/
def regV (A : Arr F) : Pipeline.RDat.RegionSeg (pcfgs (F := F)) adm (rdatsV A) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := body_obligationV A c
  hwaits c := hwaitsV A c
  pre c := iprop((rdatsV A 0 c).arrays (rdatsV A 0 c).A ∗ owesB (F := F) c)
  post c := iprop((rdatsV A 0 c).arraysAt cfg1.N ∗ owesB (F := F) c)
  X _ := iprop(emp)
  Y _ := iprop(emp)
  Z _ := iprop(emp)
  hentry c := by
    unfold owesB
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists W; isplitr
      · ipureintro; exact fun p hp => Or.inl (hW p (Finset.mem_coe.mp hp))
      iexact HO
    isplitr <;> iempintro
  hin c := by
    iintro -; iempintro
  hout c := by
    iintro -
    isplitr; · iempintro
    isplitr
    · unfold Pipeline.ownSems0; rw [Finset.univ_eq_empty, BI.bigSep_empty]; iempintro
    · iapply (Entails.of_eq (scopedRest1_eq (Ix := HIx 2) (Val := Elt F) (Name := ℕ) (U := UU) (Lvl := ℕ) c).symm); iempintro
  hexit c := by
    unfold owesB
    iintro ⟨Ha, HO, -, -⟩
    imodintro
    isplitl [Ha]; · iexact Ha
    unfold Pipeline.RDat.owesAt Pipeline.owesWithin
    icases HO with ⟨%W, %hW, HO⟩
    iexists W; isplitr
    · ipureintro
      intro p hp
      rcases hW (Finset.mem_coe.mpr hp) with h | ⟨w, s, h⟩
      · exact h
      · rw [h]; show (K (F := F)).lev _ none ≤ 8 * 1; rw [SparseCore.Cfg.lev_none]; exact Nat.zero_le _
    iexact HO

end Cert.Proof.KI

end
-- ==== Proof.RegionV.lean ====
import proofs.«210137_g30502857736458_cont_9to1_2222_4_alg».proof.Proof.RegionVSeg
import proofs.«210137_g30502857736458_cont_9to1_2222_4_alg».proof.Proof.Region
import proofs.«210137_g30502857736458_cont_9to1_2222_4_alg».proof.Proof.Gen.KernelIdeal.Launch
import proofs.«210137_g30502857736458_cont_9to1_2222_4_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.Pipeline (RDat)

section Arrays

variable (f1 : main_v30_1.ty.Contents (Elt F)) (f2 : main_v30_2.ty.Contents (Elt F)) (f11 : main_v11.ty.Contents (Elt F))
  (f20 : main_v20.ty.Contents (Elt F)) (f29 : main_v29.ty.Contents (Elt F)) (g0 : main_v31_0.ty.Contents (Elt F)) (g1 : main_v31_1.ty.Contents (Elt F))

set_option backward.isDefEq.respectTransparency.types false in
/-- The pipeline's arrays at their entry contents are the seven buffers held whole. -/
theorem arrays7V (c : Dev nD) :
    ((rdatsV (mkArr f1 f2 f11 f20 f29 g0 g1) 0 c).arrays (rdatsV (mkArr f1 f2 f11 f20 f29 g0 g1) 0 c).A : sProp 𝕄)
      = iprop(((T c : Thread nD τ).loc main_v30_1 ↦{fullShare} f1) ∗ ((T c : Thread nD τ).loc main_v30_2 ↦{fullShare} f2)
          ∗ ((T c : Thread nD τ).loc main_v11 ↦{fullShare} f11) ∗ ((T c : Thread nD τ).loc main_v20 ↦{fullShare} f20)
          ∗ ((T c : Thread nD τ).loc main_v29 ↦{fullShare} f29) ∗ ((T c : Thread nD τ).loc main_v31_0 ↦{fullShare} g0)
          ∗ ((T c : Thread nD τ).loc main_v31_1 ↦{fullShare} g1)) := by
  rw [Pipeline.RDat.arrays_eq (pcfgs (F := F)) adm (rdatsV (mkArr f1 f2 f11 f20 f29 g0 g1)) 0 c launch1.arr_whole (shareV_eq _ c), bigSep_W1]
  rfl

/-- What the first output array may hold after the region: the dataflow's first result of the inputs' entry contents; -/
theorem arrAt5 (A : Arr F) (c : Dev nD) (G : Buf (Elt F) ((cfg1.win 5).arr.view.loc (c : Thread nD τ))) (h : (rdatsV A 0 c).ArrAt 5 cfg1.N G) :
    G = (outsV (A c 0) (A c 1) (A c 2) (A c 3) (A c 4)).1 := by
  have h' : (rdatsV A 0 c).ArrAt 5 (t1_0.val + 1) G := h
  rw [RDat.ArrAt_succ, if_pos (flush1_5 t1_0)] at h'
  obtain ⟨G₀, X, -, ⟨Y, -, hX⟩, hG⟩ := h'
  have hX' : X = (outsV (A c 0) (A c 1) (A c 2) (A c 3) (A c 4)).1 := hX
  rw [hG]
  exact (Memref.write_access_unit_zero_univ (Elt F) main_v31_0 (off := fun a => (cfg1.win 5).index t1_0 a * (cfg1.win 5).size a)
    (funext fun a => Nat.zero_mul _) _ G₀ X).trans hX'

/-- the second, its second result. -/
theorem arrAt6 (A : Arr F) (c : Dev nD) (G : Buf (Elt F) ((cfg1.win 6).arr.view.loc (c : Thread nD τ))) (h : (rdatsV A 0 c).ArrAt 6 cfg1.N G) :
    G = (outsV (A c 0) (A c 1) (A c 2) (A c 3) (A c 4)).2 := by
  have h' : (rdatsV A 0 c).ArrAt 6 (t1_0.val + 1) G := h
  rw [RDat.ArrAt_succ, if_pos (flush1_6 t1_0)] at h'
  obtain ⟨G₀, X, -, ⟨Y, -, hX⟩, hG⟩ := h'
  have hX' : X = (outsV (A c 0) (A c 1) (A c 2) (A c 3) (A c 4)).2 := hX
  rw [hG]
  exact (Memref.write_access_unit_zero_univ (Elt F) main_v31_1 (off := fun a => (cfg1.win 6).index t1_0 a * (cfg1.win 6).size a)
    (funext fun a => Nat.zero_mul _) _ G₀ X).trans hX'

/-- The contents the seven windows enter at, read back window by window. -/
theorem outsV_mkArr (c : Dev nD) : outsV (mkArr f1 f2 f11 f20 f29 g0 g1 c 0) (mkArr f1 f2 f11 f20 f29 g0 g1 c 1) (mkArr f1 f2 f11 f20 f29 g0 g1 c 2) (mkArr f1 f2 f11 f20 f29 g0 g1 c 3) (mkArr f1 f2 f11 f20 f29 g0 g1 c 4) = outsV f1 f2 f11 f20 f29 := rfl

set_option backward.isDefEq.respectTransparency.types false in
/-- After the region the five inputs hold what they held, the two outputs the dataflow's results of them. -/
theorem arraysAt7V (c : Dev nD) :
    ((rdatsV (mkArr f1 f2 f11 f20 f29 g0 g1) 0 c).arraysAt cfg1.N : sProp 𝕄)
      ⊢ iprop(((T c : Thread nD τ).loc main_v30_1 ↦{fullShare} f1) ∗ ((T c : Thread nD τ).loc main_v30_2 ↦{fullShare} f2)
          ∗ ((T c : Thread nD τ).loc main_v11 ↦{fullShare} f11) ∗ ((T c : Thread nD τ).loc main_v20 ↦{fullShare} f20)
          ∗ ((T c : Thread nD τ).loc main_v29 ↦{fullShare} f29)
          ∗ (∃ g : main_v31_0.ty.Contents (Elt F), ⌜g = (outsV f1 f2 f11 f20 f29).1⌝ ∗ (T c : Thread nD τ).loc main_v31_0 ↦{fullShare} g)
          ∗ (∃ g : main_v31_1.ty.Contents (Elt F), ⌜g = (outsV f1 f2 f11 f20 f29).2⌝ ∗ (T c : Thread nD τ).loc main_v31_1 ↦{fullShare} g)) := by
  have e : ((rdatsV (mkArr f1 f2 f11 f20 f29 g0 g1) 0 c).arraysAt cfg1.N : sProp 𝕄)
      = bigSep Finset.univ fun w : Fin 7 => iprop(∃ G, ⌜(rdatsV (mkArr f1 f2 f11 f20 f29 g0 g1) 0 c).ArrAt w cfg1.N G⌝
          ∗ (((T c : Thread nD τ).loc (Pipeline.arrRef spec1 w)) ↦{fullShare} G)) := by
    unfold RDat.arraysAt
    exact bigSep_congr fun w _ => by rw [(launch1.arr_whole w).set_eq_univ, shareV_eq]
  rw [e, bigSep_W1]
  iintro ⟨⟨%G0, %h0, H0⟩, ⟨%G1, %h1, H1⟩, ⟨%G2, %h2, H2⟩, ⟨%G3, %h3, H3⟩, ⟨%G4, %h4, H4⟩, ⟨%G5, %h5, H5⟩, ⟨%G6, %h6, H6⟩⟩
  have h0 := Eq.mp (congrFun ((rdatsV (mkArr f1 f2 f11 f20 f29 g0 g1) 0 c).ArrAt_in 0 rfl cfg1.N) G0) h0
  have h1 := Eq.mp (congrFun ((rdatsV (mkArr f1 f2 f11 f20 f29 g0 g1) 0 c).ArrAt_in 1 rfl cfg1.N) G1) h1
  have h2 := Eq.mp (congrFun ((rdatsV (mkArr f1 f2 f11 f20 f29 g0 g1) 0 c).ArrAt_in 2 rfl cfg1.N) G2) h2
  have h3 := Eq.mp (congrFun ((rdatsV (mkArr f1 f2 f11 f20 f29 g0 g1) 0 c).ArrAt_in 3 rfl cfg1.N) G3) h3
  have h4 := Eq.mp (congrFun ((rdatsV (mkArr f1 f2 f11 f20 f29 g0 g1) 0 c).ArrAt_in 4 rfl cfg1.N) G4) h4
  have h5 := arrAt5 (mkArr f1 f2 f11 f20 f29 g0 g1) c G5 h5
  have h6 := arrAt6 (mkArr f1 f2 f11 f20 f29 g0 g1) c G6 h6
  have h5 := h5.trans (congrArg Prod.fst (outsV_mkArr f1 f2 f11 f20 f29 g0 g1 c))
  have h6 := h6.trans (congrArg Prod.snd (outsV_mkArr f1 f2 f11 f20 f29 g0 g1 c))
  subst h0 h1 h2 h3 h4
  isplitl [H0]; · iexact H0
  isplitl [H1]; · iexact H1
  isplitl [H2]; · iexact H2
  isplitl [H3]; · iexact H3
  isplitl [H4]; · iexact H4
  isplitl [H5]; · iexists G5; isplitr; · ipureintro; exact h5
                  iexact H5
  iexists G6; isplitr; · ipureintro; exact h6
  iexact H6

set_option maxRecDepth 8192 in
set_option backward.isDefEq.respectTransparency.types false in
/-- The region inside @main on the TensorCore, with the outputs' values: from the region boundary, the TensorCore's handshake state between the two
    calls, the region's ghost state and the seven arrays held whole, the pipeline runs and hands all of it back — the five
    inputs as they were, the two outputs at the dataflow's results of them. -/
theorem wp_regionG {P' : (K (F := F)).Pay (nD := nD) (Val := Elt F) (Name := ℕ) (U := UU)} (κ : GSem nD τ sig → ℕ) (d : Dev nD) (Φ : PUnit → sProp 𝕄) :
    iprop((K (F := F)).ctx (EH (F := F)) P' κ ∗ boundary (T d : Thread nD τ) ∗ (K (F := F)).tcSt (EH (F := F)) d 1 ∗ G_region (F := F) d
        ∗ ((T d : Thread nD τ).loc main_v30_1 ↦{fullShare} f1) ∗ ((T d : Thread nD τ).loc main_v30_2 ↦{fullShare} f2)
        ∗ ((T d : Thread nD τ).loc main_v11 ↦{fullShare} f11) ∗ ((T d : Thread nD τ).loc main_v20 ↦{fullShare} f20)
        ∗ ((T d : Thread nD τ).loc main_v29 ↦{fullShare} f29) ∗ ((T d : Thread nD τ).loc main_v31_0 ↦{fullShare} g0)
        ∗ ((T d : Thread nD τ).loc main_v31_1 ↦{fullShare} g1)
        ∗ (iprop(boundary (T d : Thread nD τ) ∗ (K (F := F)).tcSt (EH (F := F)) d 1
            ∗ ((T d : Thread nD τ).loc main_v30_1 ↦{fullShare} f1) ∗ ((T d : Thread nD τ).loc main_v30_2 ↦{fullShare} f2)
            ∗ ((T d : Thread nD τ).loc main_v11 ↦{fullShare} f11) ∗ ((T d : Thread nD τ).loc main_v20 ↦{fullShare} f20)
            ∗ ((T d : Thread nD τ).loc main_v29 ↦{fullShare} f29) ∗ (∃ g : main_v31_0.ty.Contents (Elt F), ⌜g = (outsV f1 f2 f11 f20 f29).1⌝ ∗ (T d : Thread nD τ).loc main_v31_0 ↦{fullShare} g)
            ∗ (∃ g : main_v31_1.ty.Contents (Elt F), ⌜g = (outsV f1 f2 f11 f20 f29).2⌝ ∗ (T d : Thread nD τ).loc main_v31_1 ↦{fullShare} g)) -∗ Φ ⟨⟩))
      ⊢ wp frame (wpE ((K (F := F)).defs (D (F := F))) 𝒱 (T d) none) Set.univ
          (Prog.lift (.customCall (SparseCore.inner (Pipeline.entry 0)) ())) Φ := by
  obtain ⟨R, hR⟩ := tcSt_owes (F := F) d
  have hpre : ((regV (mkArr f1 f2 f11 f20 f29 g0 g1)).pre d : sProp 𝕄)
      = iprop((rdatsV (mkArr f1 f2 f11 f20 f29 g0 g1) 0 d).arrays (rdatsV (mkArr f1 f2 f11 f20 f29 g0 g1) 0 d).A ∗ owesB (F := F) d) := rfl
  have hpost : ((regV (mkArr f1 f2 f11 f20 f29 g0 g1)).post d : sProp 𝕄)
      = iprop((rdatsV (mkArr f1 f2 f11 f20 f29 g0 g1) 0 d).arraysAt cfg1.N ∗ owesB (F := F) d) := rfl
  rw [hR]
  unfold G_region
  show _ ⊢ wp frame (wpE ((K (F := F)).defs (D (F := F))) 𝒱 (T d) none) Set.univ
      (SparseCore.liftProg (Prog.op (.customCall (Pipeline.entry 0) ()) Prog.ret)) Φ
  iintro ⟨#Hctx, Hbd, ⟨HO, HR⟩, ⟨Hg, Ht⟩, H1, H2, H11, H20, H29, G0, G1, Hk⟩
  ihave Hla := (SparseCore.Cfg.ctx_levAts κ) $$ Hctx
  iapply (SparseCore.Cfg.wp_liftProg (K (F := F)) (D (F := F)) 𝒱 (T d) Set.univ none _ Φ)
  ihave Harr := (Entails.of_eq (arrays7V f1 f2 f11 f20 f29 g0 g1 d).symm) $$ [H1 H2 H11 H20 H29 G0 G1]
  · isplitl [H1]; · iexact H1
    isplitl [H2]; · iexact H2
    isplitl [H11]; · iexact H11
    isplitl [H20]; · iexact H20
    isplitl [H29]; · iexact H29
    isplitl [G0]; · iexact G0
    iexact G1
  iapply (Pipeline.RDat.RegionSeg.wp (pcfgs (F := F)) adm (rdatsV (mkArr f1 f2 f11 f20 f29 g0 g1)) none cellOf_inj (EP (F := F)) defs₀ 𝒱₀
      (K (F := F)).L (K (F := F)).lev (regV (mkArr f1 f2 f11 f20 f29 g0 g1)) d none (fun u h => nomatch h) (fun x => Prog.ret x) Φ)
  isplitl [Hk HR]
  · iintro ⟨Hbd, Hpost⟩
    ihave Hpost' := (Entails.of_eq hpost) $$ Hpost
    icases Hpost' with ⟨Ha, HO⟩
    ihave Ha' := (arraysAt7V f1 f2 f11 f20 f29 g0 g1 d) $$ Ha
    icases Ha' with ⟨H1, H2, H11, H20, H29, G0, G1⟩
    sl_step
    iapply Hk
    isplitl [Hbd]; · iexact Hbd
    isplitl [HO HR]; · isplitl [HO] <;> iassumption
    isplitl [H1]; · iexact H1
    isplitl [H2]; · iexact H2
    isplitl [H11]; · iexact H11
    isplitl [H20]; · iexact H20
    isplitl [H29]; · iexact H29
    isplitl [G0]; · iexact G0
    iexact G1
  isplitl [Hbd]; · iexact Hbd
  isplitl [Harr HO]
  · iapply (Entails.of_eq hpre.symm)
    isplitl [Harr] <;> iassumption
  isplitl [Hla]; · iexact Hla
  isplitl [Hg] <;> iassumption

end Arrays

end Cert.Proof.KI

end
-- ==== Proof.RegionVMathA.lean ====
/-
  Reading a 1 × 13312 row cyclically by column, and the two data movements of the chunk total read that way: a rotation
  of the row (two slices put back together in the other order) and the condition "the column's residue modulo 2 m is
  below m", which the program builds from a signed remainder and its sign correction.
-/
import proofs.«210137_g30502857736458_cont_9to1_2222_4_alg».proof.Proof.RegionVDefs
import proofs.«210137_g30502857736458_cont_9to1_2222_4_alg».proof.Proof.RegionAcc
import Idealize.ShloMosaic.Lib.Pipeline.Value
import Idealize.ShloMosaic.PureOps.Ideal.Laws
import Idealize.ShloMosaic.Lib.ValueIdx
import Idealize.ShloMosaic.Lib.Affine

noncomputable section

namespace Cert.Proof.KI

open Cert.KernelIdeal Cert.KernelIdeal.Gen
open Idealize.ShloMosaic Idealize.ShloMosaic.ValueIdx
open Cert.Proof.KSpec

/-- The index of column n (taken modulo 13312) of a 1 × 13312 row. -/
def cix (n : ℕ) : S1x13312.Idx := ix2 (0 : Fin 1) (⟨n % 13312, Nat.mod_lt _ (by norm_num)⟩ : Fin 13312)

/-- A 1 × 13312 row read at column n, cyclically. -/
def col {α : Type} (v : S1x13312.Idx → α) (n : ℕ) : α := v (cix n)

theorem cix_idx (j : S1x13312.Idx) : cix (j 1).val = j := by
  funext a
  match a with
  | ⟨0, _⟩ => exact Fin.ext (by show 0 = (j 0).val; have := idx2_lt0 j; omega)
  | ⟨1, _⟩ => exact Fin.ext (by show (j 1).val % 13312 = (j 1).val; have := idx2_lt1 j; omega)

theorem col_idx {α : Type} (v : S1x13312.Idx → α) (j : S1x13312.Idx) : v j = col v (j 1).val := by
  unfold col; rw [cix_idx]

theorem cix_congr {n n' : ℕ} (h : n % 13312 = n' % 13312) : cix n = cix n' := by
  unfold cix; congr 2

theorem col_congr {α : Type} (v : S1x13312.Idx → α) {n n' : ℕ} (h : n % 13312 = n' % 13312) : col v n = col v n' := by
  unfold col; rw [cix_congr h]

/-- THE ROTATION. The row's columns q … 13311 followed by its columns 0 … q − 1 read, at column n, the row at column
    n + q (cyclically). With q small this is a rotation to the left by q; with q = 13312 − m one to the right by m. -/
theorem rot_col {α : Type} {p q : ℕ} (hpq : p + q = 13312) (v : S1x13312.Idx → α)
    (h1 : S1x13312.Slices ![0, q] ⟨2, ![1, p]⟩) (h2 : S1x13312.Slices ![0, 0] ⟨2, ![1, q]⟩)
    (hc : Shape.Concatenates [(⟨2, ![1, p]⟩ : Shape), ⟨2, ![1, q]⟩] S1x13312 1) (n : ℕ) :
    col (concatenate S1x13312 1 [⟨⟨2, ![1, p]⟩, extractStridedSlice ⟨2, ![1, p]⟩ ![0, q] v h1⟩,
        ⟨⟨2, ![1, q]⟩, extractStridedSlice ⟨2, ![1, q]⟩ ![0, 0] v h2⟩] hc) n = col v (n + q) := by
  have hN : n % 13312 < 13312 := Nat.mod_lt _ (by norm_num)
  unfold col
  by_cases hlt : n % 13312 < p
  · refine (concatenate_pair_apply_left (t := S1x13312) (s₁ := ⟨2, ![1, p]⟩) (s₂ := ⟨2, ![1, q]⟩) (1 : Fin 2) _ _ hc (cix n) rfl (ix2 (0 : Fin 1) (⟨n % 13312, hlt⟩ : Fin p))
      (fun b => match b with | ⟨0, _⟩ => rfl | ⟨1, _⟩ => rfl)).trans ?_
    refine (extractStridedSlice_apply ![0, q] v h1 _ (cix (n + q)) (fun a => match a with
      | ⟨0, _⟩ => by show 0 = 0 + 0; rfl
      | ⟨1, _⟩ => by show (n + q) % 13312 = q + n % 13312; omega)).trans rfl
  · refine (concatenate_pair_apply_right (t := S1x13312) (s₁ := ⟨2, ![1, p]⟩) (s₂ := ⟨2, ![1, q]⟩) (1 : Fin 2) _ _ hc (cix n) rfl rfl (ix2 (0 : Fin 1) (⟨n % 13312 - p, by omega⟩ : Fin q))
      (fun b hb => match b, hb with | ⟨0, _⟩, _ => rfl | ⟨1, _⟩, hb => absurd rfl hb) (by show n % 13312 - p + p = n % 13312; omega)).trans ?_
    refine (extractStridedSlice_apply ![0, 0] v h2 _ (cix (n + q)) (fun a => match a with
      | ⟨0, _⟩ => by show 0 = 0 + 0; rfl
      | ⟨1, _⟩ => by show (n + q) % 13312 = 0 + (n % 13312 - p); omega)).trans rfl

/-! ## The condition of a select step -/

/-- The condition word of a select step at one column, as the program builds it from the column number x: the signed
    remainder r of x by M, corrected to the floor remainder (M is added when r is nonzero and its sign differs from M's),
    compared with m. -/
def maskBit (M m x : BitVec 32) : BitVec 1 :=
  IntOp.cmpi .slt (Scalar.select (IntOp.andi (IntOp.xori (IntOp.cmpi .slt (IntOp.remsi .vector x M) 0#32) (Scalar.cmpi .slt M 0#32))
    (IntOp.cmpi .ne (IntOp.remsi .vector x M) 0#32)) (IntOp.addi (IntOp.remsi .vector x M) M) (IntOp.remsi .vector x M)) m

theorem remsi_ofNat (x M : ℕ) (hx : x < 13312) (hM : 0 < M) (hM' : M ≤ 16) :
    IntOp.remsi .vector (BitVec.ofNat 32 x) (BitVec.ofNat 32 M) = BitVec.ofNat 32 (x % M) := by
  apply BitVec.eq_of_toNat_eq
  have hx' : (BitVec.ofNat 32 x).toNat = x := by rw [BitVec.toNat_ofNat]; omega
  rw [IntOp.toNat_remsi .vector (by rw [hx']; omega) M hM (by omega), hx', BitVec.toNat_ofNat]
  have : x % M < M := Nat.mod_lt _ hM
  omega

/-- At a column below 13312 the condition of modulus 2 is "the residue is below 1" … -/
theorem maskBit_2 (x : ℕ) (hx : x < 13312) : maskBit 2#32 1#32 (BitVec.ofNat 32 x) = if x % 2 < 1 then 1#1 else 0#1 := by
  unfold maskBit
  rw [show (2#32 : BitVec 32) = BitVec.ofNat 32 2 from rfl, remsi_ofNat x 2 hx (by norm_num) (by norm_num)]
  have h : x % 2 < 2 := Nat.mod_lt _ (by norm_num)
  generalize x % 2 = q at h
  interval_cases q <;> decide

/-- … of modulus 4 "below 2" … -/
theorem maskBit_4 (x : ℕ) (hx : x < 13312) : maskBit 4#32 2#32 (BitVec.ofNat 32 x) = if x % 4 < 2 then 1#1 else 0#1 := by
  unfold maskBit
  rw [show (4#32 : BitVec 32) = BitVec.ofNat 32 4 from rfl, remsi_ofNat x 4 hx (by norm_num) (by norm_num)]
  have h : x % 4 < 4 := Nat.mod_lt _ (by norm_num)
  generalize x % 4 = q at h
  interval_cases q <;> decide

/-- … of modulus 8 "below 4" … -/
theorem maskBit_8 (x : ℕ) (hx : x < 13312) : maskBit 8#32 4#32 (BitVec.ofNat 32 x) = if x % 8 < 4 then 1#1 else 0#1 := by
  unfold maskBit
  rw [show (8#32 : BitVec 32) = BitVec.ofNat 32 8 from rfl, remsi_ofNat x 8 hx (by norm_num) (by norm_num)]
  have h : x % 8 < 8 := Nat.mod_lt _ (by norm_num)
  generalize x % 8 = q at h
  interval_cases q <;> decide

/-- … and of modulus 16 "below 8". -/
theorem maskBit_16 (x : ℕ) (hx : x < 13312) : maskBit 16#32 8#32 (BitVec.ofNat 32 x) = if x % 16 < 8 then 1#1 else 0#1 := by
  unfold maskBit
  rw [show (16#32 : BitVec 32) = BitVec.ofNat 32 16 from rfl, remsi_ofNat x 16 hx (by norm_num) (by norm_num)]
  have h : x % 16 < 16 := Nat.mod_lt _ (by norm_num)
  generalize x % 16 = q at h
  interval_cases q <;> decide

/-- The column-number vector at column n. -/
theorem iota_cix (h : S1x13312.Iotas .tc 32 [1]) (n : ℕ) : iota .tc S1x13312 32 [1] h (cix n) = BitVec.ofNat 32 (n % 13312) :=
  iota_single_apply .tc S1x13312 32 1 h (cix n)

/-- A select on a decided condition is the `if`. -/
theorem select_ite {α : Type} (P : Prop) [Decidable P] (a b : α) : Scalar.select (if P then 1#1 else 0#1) a b = if P then a else b := by
  by_cases h : P
  · rw [if_pos h, if_pos h]; exact select_one a b
  · rw [if_neg h, if_neg h]; exact select_zero a b

/-- ONE SELECT STEP, by columns: where the column's residue modulo 2 m is below m the row keeps its value, elsewhere it
    takes the value m columns to the left (the row rotated right by m). Stated for any condition vector that is the
    program's condition word of the column number, and any "rotated" row that reads m columns to the left cyclically. -/
theorem select_col {α : Type} (M m : ℕ) (hm : 0 < m) (hM : M = 2 * m) (h16 : 16 % M = 0) (c : IVec S1x13312 1) (a b : S1x13312.Idx → α)
    (hc : ∀ n, c (cix n) = if (n % 13312) % M < m then 1#1 else 0#1) (hb : ∀ n, col b n = col a (n + (13312 - m))) (n : ℕ) :
    col (select c a b) n = if n % M < m then col a n else col a (n - m) := by
  show Scalar.select (c (cix n)) (col a n) (col b n) = _
  rw [hc n, select_ite, hb n]
  have e : (n % 13312) % M = n % M := by
    have : M ∣ 13312 := by
      have h1 : M ∣ 16 := Nat.dvd_of_mod_eq_zero h16
      exact h1.trans (by norm_num)
    exact Nat.mod_mod_of_dvd n this
  rw [e]
  by_cases hlt : n % M < m
  · rw [if_pos hlt, if_pos hlt]
  · rw [if_neg hlt, if_neg hlt]
    refine col_congr a ?_
    have hge : m ≤ n := by
      have := Nat.mod_le n M; omega
    have hm16 : m ≤ 13312 := by
      have : M ≤ 16 := Nat.le_of_dvd (by norm_num) (Nat.dvd_of_mod_eq_zero h16)
      omega
    have : n + (13312 - m) = (n - m) + 13312 := by omega
    rw [this, Nat.add_mod_right]

end Cert.Proof.KI

end
-- ==== Proof.RegionVMathB.lean ====
/-
  The chunk total as arithmetic on functions of a column number: four "add the value k columns to the right" steps
  (k = 8, 4, 2, 1) leave at column n the sum of columns n … n + 15; four "copy from m columns to the left unless the
  residue modulo 2 m is below m" steps (m = 1, 2, 4, 8) then leave at column n the value of column 16 (n / 16), the first
  of n's aligned chunk of sixteen. Together: the sum of the chunk's sixteen columns, on every column of the chunk.
-/
import Mathlib.Data.EReal.Basic
import Mathlib.Algebra.BigOperators.Fin

noncomputable section

namespace Cert.Proof.KI

/-- One rotate-and-add step: the value plus the value k columns to the right. -/
def ra (k : ℕ) (f : ℕ → EReal) : ℕ → EReal := fun n => f n + f (n + k)

/-- One select step: keep the value where the residue modulo 2 m is below m, else take the value m columns to the left. -/
def sl (m : ℕ) (f : ℕ → EReal) : ℕ → EReal := fun n => if n % (2 * m) < m then f n else f (n - m)

/-- After the four rotate-and-add steps column n holds the sum of columns n … n + 15. -/
theorem ra_chain (f : ℕ → EReal) (n : ℕ) : ra 1 (ra 2 (ra 4 (ra 8 f))) n = ∑ l ∈ Finset.range 16, f (n + l) := by
  simp only [ra, Nat.add_assoc, Nat.reduceAdd, Finset.sum_range_succ, Finset.sum_range_zero, zero_add, add_zero]
  ac_rfl

/-- After the four select steps column n holds what column n − n mod 16 held before them. -/
theorem sl_chain (g : ℕ → EReal) (n : ℕ) : sl 8 (sl 4 (sl 2 (sl 1 g))) n = g (n - n % 16) := by
  have h1 : ∀ x, sl 1 g x = g (x - x % 2) := fun x => by
    unfold sl; split_ifs <;> congr 1 <;> omega
  have h2 : ∀ x, sl 2 (sl 1 g) x = g (x - x % 4) := fun x => by
    show (if x % (2 * 2) < 2 then sl 1 g x else sl 1 g (x - 2)) = _
    rw [h1, h1]; split_ifs <;> congr 1 <;> omega
  have h3 : ∀ x, sl 4 (sl 2 (sl 1 g)) x = g (x - x % 8) := fun x => by
    show (if x % (2 * 4) < 4 then sl 2 (sl 1 g) x else sl 2 (sl 1 g) (x - 4)) = _
    rw [h2, h2]; split_ifs <;> congr 1 <;> omega
  show (if n % (2 * 8) < 8 then sl 4 (sl 2 (sl 1 g)) n else sl 4 (sl 2 (sl 1 g)) (n - 8)) = _
  rw [h3, h3]; split_ifs <;> congr 1 <;> omega

/-- THE CHUNK TOTAL: after all eight steps column n holds the sum of the sixteen columns of its aligned chunk. -/
theorem chunk_total (f : ℕ → EReal) (n : ℕ) :
    sl 8 (sl 4 (sl 2 (sl 1 (ra 1 (ra 2 (ra 4 (ra 8 f))))))) n = ∑ l ∈ Finset.range 16, f (16 * (n / 16) + l) := by
  rw [sl_chain, ra_chain]
  have : n - n % 16 = 16 * (n / 16) := by omega
  rw [this]

end Cert.Proof.KI

end
-- ==== Proof.RegionVMathC.lean ====
/-
  The region body's two chunk totals read by columns: the sum over the thirty-two rows, the four rotate-and-add steps and
  the four select steps, as the arithmetic of the column functions `ra` and `sl`.
-/
import proofs.«210137_g30502857736458_cont_9to1_2222_4_alg».proof.Proof.RegionVDefs
import proofs.«210137_g30502857736458_cont_9to1_2222_4_alg».proof.Proof.RegionAcc
import Idealize.ShloMosaic.Lib.Pipeline.Value
import Idealize.ShloMosaic.PureOps.Ideal.Laws
import Idealize.ShloMosaic.Lib.ValueIdx
import Idealize.ShloMosaic.Lib.Affine
import proofs.«210137_g30502857736458_cont_9to1_2222_4_alg».proof.Proof.RegionVMathA
import proofs.«210137_g30502857736458_cont_9to1_2222_4_alg».proof.Proof.RegionVMathB

noncomputable section

namespace Cert.Proof.KI

open Cert.KernelIdeal Cert.KernelIdeal.Gen
open Idealize.ShloMosaic Idealize.ShloMosaic.ValueIdx
open Cert.Proof.KSpec

/-- The sum over the thirty-two rows at column n (cyclically). -/
def rsum (a : S32x13312.Idx → EReal) : ℕ → EReal :=
  fun n => ∑ w : Fin 32, a (ix2 w (⟨n % 13312, Nat.mod_lt _ (by norm_num)⟩ : Fin 13312))

/-- The reduction over the rows, viewed as a 1 × 13312 row, reads the row sum. -/
theorem rsum_col (a : S32x13312.Idx → EReal) (hs : S32x13312.ShapeCasts S32x13312) (hr : S32x13312.Reduces [0] S13312)
    (hc : S13312.ShapeCasts S1x13312) :
    col (shapeCast S1x13312 (multiReduction (F := Ideal) (φ := .f32) .add [0] S13312 (shapeCast S32x13312 a hs) 0x00000000#32 hr (.inl rfl) rfl) hc)
      = rsum a := by
  funext n
  unfold col
  refine (shapeCast_apply _ hc (cix n) (ix1 (⟨n % 13312, Nat.mod_lt _ (by norm_num)⟩ : Fin 13312)) ?_).trans ?_
  · rw [Shape.rowMajor_val_one, Shape.rowMajor_val_two]
    show n % 13312 = 0 * 13312 + n % 13312
    omega
  rw [shapeCast_self]
  refine (Ideal.multiReduction_add_single (φ := .f32) a 0x00000000#32 hr (.inl rfl) rfl _).trans ?_
  exact Finset.sum_congr rfl fun k _ => congrArg a (funext fun d => match d with | ⟨0, _⟩ => rfl | ⟨1, _⟩ => rfl)

/-- One rotate-and-add step by columns. -/
theorem ra_col {p q : ℕ} (hpq : p + q = 13312) (v : FVec Ideal S1x13312 .f32)
    (h1 : S1x13312.Slices ![0, q] ⟨2, ![1, p]⟩) (h2 : S1x13312.Slices ![0, 0] ⟨2, ![1, q]⟩)
    (hc : Shape.Concatenates [(⟨2, ![1, p]⟩ : Shape), ⟨2, ![1, q]⟩] S1x13312 1) :
    col (addf v (concatenate S1x13312 1 [⟨⟨2, ![1, p]⟩, extractStridedSlice ⟨2, ![1, p]⟩ ![0, q] v h1⟩,
        ⟨⟨2, ![1, q]⟩, extractStridedSlice ⟨2, ![1, q]⟩ ![0, 0] v h2⟩] hc)) = ra q (col v) := by
  funext n
  exact congrArg (fun z => col v n + z) (rot_col hpq v h1 h2 hc n)

/-- The second operand's row sum after the four rotate-and-add steps. -/
theorem pay9_col (a1 : S32x13312.Idx → EReal) : col (k1_pay9 (F := Ideal) a1) = ra 1 (ra 2 (ra 4 (ra 8 (rsum a1)))) := by
  unfold k1_pay9
  dsimp only
  rw [ra_col (p := 13311) (q := 1) rfl, ra_col (p := 13310) (q := 2) rfl, ra_col (p := 13308) (q := 4) rfl,
    ra_col (p := 13304) (q := 8) rfl, rsum_col]

/-- One select step by columns: the condition is the program's condition word of the column number (`hcond`), the
    second operand the row rotated right by p. -/
theorem sl_col {p q : ℕ} (hp : 0 < p) (h16 : 16 % (2 * p) = 0) (hpq : p + q = 13312) (c : IVec S1x13312 1) (v : FVec Ideal S1x13312 .f32)
    (h1 : S1x13312.Slices ![0, q] ⟨2, ![1, p]⟩) (h2 : S1x13312.Slices ![0, 0] ⟨2, ![1, q]⟩)
    (hc : Shape.Concatenates [(⟨2, ![1, p]⟩ : Shape), ⟨2, ![1, q]⟩] S1x13312 1)
    (hcond : ∀ n, c (cix n) = if (n % 13312) % (2 * p) < p then 1#1 else 0#1) :
    col (select c v (concatenate S1x13312 1 [⟨⟨2, ![1, p]⟩, extractStridedSlice ⟨2, ![1, p]⟩ ![0, q] v h1⟩,
        ⟨⟨2, ![1, q]⟩, extractStridedSlice ⟨2, ![1, q]⟩ ![0, 0] v h2⟩] hc)) = sl p (col v) := by
  funext n
  refine (select_col (2 * p) p hp rfl h16 c v _ hcond (fun k => ?_) n).trans rfl
  rw [rot_col hpq]
  congr 1
  omega

/-- The condition vector of a select step at column n is the condition word of the column number. -/
macro "mask_tac" M:term:max m:term:max lem:ident : tactic => `(tactic| (intro n; show maskBit $M $m (iota .tc S1x13312 32 [1] _ (cix n)) = _; rw [iota_cix, $lem:ident _ (Nat.mod_lt _ (by norm_num))]))

/-- The first operand's row sum after the four rotate-and-add steps and the select step of modulus 2. -/
theorem pay3_col (a0 : S32x13312.Idx → EReal) :
    col (k1_pay3 (F := Ideal) a0) = sl 1 (ra 1 (ra 2 (ra 4 (ra 8 (rsum a0))))) := by
  unfold k1_pay3
  dsimp only
  rw [sl_col (p := 1) (q := 13311) (by norm_num) (by norm_num) rfl, ra_col (p := 13311) (q := 1) rfl,
    ra_col (p := 13310) (q := 2) rfl, ra_col (p := 13308) (q := 4) rfl, ra_col (p := 13304) (q := 8) rfl, rsum_col]
  mask_tac 2#32 1#32 maskBit_2

/-- The select steps of moduli 4 and 8 on the first operand. -/
theorem pay5_col (v42 : FVec Ideal S1x13312 .f32) :
    col (k1_pay5 (F := Ideal) (iota .tc S1x13312 32 [1] iota_S1x13312_d1_w32) v42 (Scalar.select (Scalar.cmpi .eq 4#32 0#32) 1#32 4#32) k1_pay4)
      = sl 4 (sl 2 (col v42)) := by
  unfold k1_pay5
  dsimp only
  rw [sl_col (p := 4) (q := 13308) (by norm_num) (by norm_num) rfl, sl_col (p := 2) (q := 13310) (by norm_num) (by norm_num) rfl]
  · mask_tac 4#32 2#32 maskBit_4
  · mask_tac 8#32 4#32 maskBit_8

/-- The select step of modulus 16 on the first operand. -/
theorem pay8_col (v86 : FVec Ideal S1x13312 .f32) :
    col (k1_pay8 (F := Ideal) v86 (Scalar.select (Scalar.cmpi .eq 16#32 0#32) 1#32 16#32)
      (k1_pay6 (iota .tc S1x13312 32 [1] iota_S1x13312_d1_w32)) k1_pay7) = sl 8 (col v86) := by
  unfold k1_pay8
  dsimp only
  rw [sl_col (p := 8) (q := 13304) (by norm_num) (by norm_num) rfl]
  mask_tac 16#32 8#32 maskBit_16

/-- The select steps of moduli 2 and 4 on the second operand. -/
theorem pay14_col (v128 : FVec Ideal S1x13312 .f32) :
    col (k1_pay14 (F := Ideal) v128 (iota .tc S1x13312 32 [1] iota_S1x13312_d1_w32) (Scalar.select (Scalar.cmpi .eq 2#32 0#32) 1#32 2#32)
      k1_pay10 k1_pay11 k1_pay12 k1_pay13) = sl 2 (sl 1 (col v128)) := by
  unfold k1_pay14
  dsimp only
  rw [sl_col (p := 2) (q := 13310) (by norm_num) (by norm_num) rfl, sl_col (p := 1) (q := 13311) (by norm_num) (by norm_num) rfl]
  · mask_tac 2#32 1#32 maskBit_2
  · mask_tac 4#32 2#32 maskBit_4

end Cert.Proof.KI

end
-- ==== Proof.RegionVMathD.lean ====
/-
  The region body's two results as the stated mathematics: the per-column scale is ALPHA, the broadcast offset is CVAL.
  The two chunk totals come from the column arithmetic (the row sums' sixteen-column sums, equal to the stated double sum
  over lanes and rows by reordering a finite sum of extended reals); mean, variance and reciprocal root are read
  element by element; the offset's sum over all 13312 columns is re-indexed from the reduction's index set to a range.
-/
import proofs.«210137_g30502857736458_cont_9to1_2222_4_alg».proof.Proof.RegionVDefs
import proofs.«210137_g30502857736458_cont_9to1_2222_4_alg».proof.Proof.RegionAcc
import Idealize.ShloMosaic.Lib.Pipeline.Value
import Idealize.ShloMosaic.PureOps.Ideal.Laws
import Idealize.ShloMosaic.Lib.ValueIdx
import Idealize.ShloMosaic.Lib.Affine
import proofs.«210137_g30502857736458_cont_9to1_2222_4_alg».proof.Proof.RegionVMathA
import proofs.«210137_g30502857736458_cont_9to1_2222_4_alg».proof.Proof.RegionVMathB
import proofs.«210137_g30502857736458_cont_9to1_2222_4_alg».proof.Proof.RegionVMathC

noncomputable section

namespace Cert.Proof.KI

open Cert.KernelIdeal Cert.KernelIdeal.Gen
open Idealize.ShloMosaic Idealize.ShloMosaic.ValueIdx
open Cert.Proof.KSpec

/-! ## Elementwise operations by columns -/

theorem col_mulf (a b : FVec Ideal S1x13312 .f32) (n : ℕ) : col (mulf a b) n = col a n * col b n := rfl
theorem col_subf (a b : FVec Ideal S1x13312 .f32) (n : ℕ) : col (subf a b) n = col a n - col b n := rfl
theorem col_addf (a b : FVec Ideal S1x13312 .f32) (n : ℕ) : col (addf a b) n = col a n + col b n := rfl
theorem col_rsqrt (a : FVec Ideal S1x13312 .f32) (n : ℕ) : col (rsqrt a) n = Ideal.rsqrt (col a n) := rfl
theorem col_broadcast (x : EReal) (n : ℕ) : col (broadcast S1x13312 x) n = x := rfl
theorem col_shapeCast_self (a : S1x13312.Idx → EReal) (h : S1x13312.ShapeCasts S1x13312) : col (shapeCast S1x13312 a h) = col a := by
  rw [shapeCast_self]

/-- Inside its extent the cyclic reading of a row is the reading by column, 0 out of range. -/
theorem col_row1 (a : S1x13312.Idx → EReal) {n : ℕ} (hn : n < 13312) : col a n = row1 a n := by
  rw [row1_of_lt a hn]
  unfold col cix
  simp only [Nat.mod_eq_of_lt hn]

/-- A chunk's sixteen row sums are the stated total over the chunk's sixteen lanes and the thirty-two rows. -/
theorem tot_eq (a : S32x13312.Idx → EReal) (n : ℕ) (hn : n < 13312) :
    ∑ l ∈ Finset.range 16, rsum a (16 * (n / 16) + l) = tot (rows2 a) n := by
  unfold tot
  refine Finset.sum_congr rfl fun l hl => ?_
  have hl' := Finset.mem_range.mp hl
  have hx : 16 * (n / 16) + l < 13312 := by omega
  unfold rsum
  rw [Finset.sum_range]
  refine Finset.sum_congr rfl fun w _ => ?_
  rw [rows2_of_lt a w.isLt hx]
  simp only [Nat.mod_eq_of_lt hx, Fin.eta]

/-! ## The body's named intermediate rows -/

/-- The first operand's chunk total, as the body computes it. -/
def tot0V (a0 : S32x13312.Idx → EReal) : FVec Ideal S1x13312 .f32 :=
  k1_pay8 (F := Ideal) (k1_pay5 (F := Ideal) (iota .tc S1x13312 32 [1] iota_S1x13312_d1_w32) (k1_pay3 (F := Ideal) a0)
    (Scalar.select (Scalar.cmpi .eq 4#32 0#32) 1#32 4#32) k1_pay4)
    (Scalar.select (Scalar.cmpi .eq 16#32 0#32) 1#32 16#32) (k1_pay6 (iota .tc S1x13312 32 [1] iota_S1x13312_d1_w32)) k1_pay7

/-- The second operand's row after the select steps of moduli 2 and 4. -/
def mid1V (a1 : S32x13312.Idx → EReal) : FVec Ideal S1x13312 .f32 :=
  k1_pay14 (F := Ideal) (k1_pay9 (F := Ideal) a1) (iota .tc S1x13312 32 [1] iota_S1x13312_d1_w32)
    (Scalar.select (Scalar.cmpi .eq 2#32 0#32) 1#32 2#32) k1_pay10 k1_pay11 k1_pay12 k1_pay13

/-- The reciprocal root, as the body computes it. -/
def rstdV (a0 a1 : S32x13312.Idx → EReal) : FVec Ideal S1x13312 .f32 :=
  k1_pay19 (F := Ideal) (tot0V a0) (iota .tc S1x13312 32 [1] iota_S1x13312_d1_w32) (mid1V a1)
    (Scalar.select (Scalar.cmpi .eq 8#32 0#32) 1#32 8#32)
    (k1_pay15 (iota .tc S1x13312 32 [1] iota_S1x13312_d1_w32)) (k1_pay16 (iota .tc S1x13312 32 [1] iota_S1x13312_d1_w32))
    (k1_pay17 (iota .tc S1x13312 32 [1] iota_S1x13312_d1_w32))

/-- The body's dataflow in those names. -/
theorem outsV_eq (a0 a1 : S32x13312.Idx → EReal) (a2 a3 a4 : S1x13312.Idx → EReal) :
    outsV (F := Ideal) a0 a1 a2 a3 a4
      = (k1_pay1 (F := Ideal) (rstdV a0 a1) (k1_pay20 (F := Ideal) a2) (k1_pay21 (F := Ideal) a3),
         k1_pay2 (F := Ideal) (k1_pay18 (F := Ideal) (tot0V a0)) (rstdV a0 a1) (k1_pay20 (F := Ideal) a2) (k1_pay21 (F := Ideal) a3) a4) := rfl

theorem tot0V_col (a0 : S32x13312.Idx → EReal) (n : ℕ) (hn : n < 13312) : col (tot0V a0) n = tot (rows2 a0) n := by
  unfold tot0V
  rw [pay8_col, pay5_col, pay3_col, chunk_total, tot_eq a0 n hn]

/-- The reciprocal root's payload by columns, from the two rows it reads. -/
theorem pay19_col (v108 v173 : FVec Ideal S1x13312 .f32) (n : ℕ) :
    col (k1_pay19 (F := Ideal) v108 (iota .tc S1x13312 32 [1] iota_S1x13312_d1_w32) v173 (Scalar.select (Scalar.cmpi .eq 8#32 0#32) 1#32 8#32)
      (k1_pay15 (iota .tc S1x13312 32 [1] iota_S1x13312_d1_w32)) (k1_pay16 (iota .tc S1x13312 32 [1] iota_S1x13312_d1_w32))
      (k1_pay17 (iota .tc S1x13312 32 [1] iota_S1x13312_d1_w32))) n
      = Ideal.rsqrt ((sl 8 (sl 4 (col v173)) n * inv4096 - (col v108 n * inv4096) * (col v108 n * inv4096)) + eps) := by
  unfold k1_pay19 k1_pay18
  dsimp only
  rw [col_rsqrt, col_addf, col_subf, col_mulf, col_mulf, col_mulf, col_broadcast, col_broadcast,
    sl_col (p := 8) (q := 13304) (by norm_num) (by norm_num) rfl, sl_col (p := 4) (q := 13308) (by norm_num) (by norm_num) rfl]
  · rfl
  · mask_tac 8#32 4#32 maskBit_8
  · mask_tac 16#32 8#32 maskBit_16

theorem rstdV_col (a0 a1 : S32x13312.Idx → EReal) (n : ℕ) (hn : n < 13312) : col (rstdV a0 a1) n = RSTD (rows2 a0) (rows2 a1) n := by
  unfold rstdV
  rw [pay19_col, tot0V_col a0 n hn]
  unfold mid1V
  rw [pay14_col, pay9_col, chunk_total, tot_eq a1 n hn]
  rfl

/-! ## The offset: the sum over all the columns -/

/-- The index set of a 1 × 1 × 13312 array, by column. -/
def colEquiv : Fin 13312 ≃ S1x1x13312.Idx where
  toFun c := ix3 (0 : Fin 1) (0 : Fin 1) c
  invFun i := (i 2 : Fin 13312)
  left_inv _ := rfl
  right_inv i := by
    funext a
    match a with
    | ⟨0, _⟩ => exact Fin.ext (by show 0 = (i 0).val; have h : (i 0).val < 1 := (i 0).isLt; omega)
    | ⟨1, _⟩ => exact Fin.ext (by show 0 = (i 1).val; have h : (i 1).val < 1 := (i 1).isLt; omega)
    | ⟨2, _⟩ => rfl

/-- The total over a row viewed as 1 × 1 × 13312 is the sum of its columns. -/
theorem sum_cols (g : S1x13312.Idx → EReal) (h : S1x13312.ShapeCasts S1x1x13312) :
    ∑ i : S1x1x13312.Idx, shapeCast S1x1x13312 g h i = ∑ n ∈ Finset.range 13312, col g n := by
  rw [Finset.sum_range]
  refine (Fintype.sum_equiv colEquiv (fun c : Fin 13312 => col g c.val) _ fun c => ?_).symm
  refine (shapeCast_apply g h (colEquiv c) (cix c.val) ?_).symm
  rw [Shape.rowMajor_val_two, Shape.rowMajor_val_three]
  show 0 * 13312 + c.val % 13312 = (0 * 1 + 0) * 13312 + c.val
  have := c.isLt
  omega

/-- The offset's payload at any of its sixteen lanes: the sum over the columns of its summand, times 1/16. -/
theorem pay2_apply (v219 v226 v228 v230 : FVec Ideal S1x13312 .f32) (v231 : S1x13312.Idx → EReal) (idx : S1x16.Idx) :
    k1_pay2 (F := Ideal) v219 v226 v228 v230 v231 idx
      = (∑ n ∈ Finset.range 13312, col v228 n * (col v231 n - (col v230 n * col v219 n) * col v226 n)) * inv16 := by
  unfold k1_pay2
  dsimp only
  show (multiReduction (F := Ideal) (φ := .f32) (s := S1x1x13312) .add [1, 2] S1 _ 0x00000000#32 _ (.inl rfl) rfl _ : EReal) * inv16 = _
  refine congrArg (· * inv16) ?_
  refine (Ideal.multiReduction_add_total (φ := .f32) _ _ _ (fun b => match b with | ⟨0, _⟩ => rfl) _ _ _).trans ?_
  rw [sum_cols]
  refine Finset.sum_congr rfl fun n _ => ?_
  rw [col_mulf, col_subf, col_mulf, col_mulf, col_shapeCast_self]

/-! ## The two results -/

/-- THE BODY'S VALUE: its first result is the scale ALPHA at each column, its second the offset CVAL on all sixteen
    lanes, as functions of what the five input buffers hold. -/
theorem outsV_spec (a0 a1 : S32x13312.Idx → EReal) (a2 a3 a4 : S1x13312.Idx → EReal) :
    (∀ idx : S1x13312.Idx, (outsV (F := Ideal) a0 a1 a2 a3 a4).1 idx = ALPHA (rows2 a0) (rows2 a1) (row1 a2) (row1 a3) (idx 1).val)
    ∧ (∀ idx : S1x16.Idx, (outsV (F := Ideal) a0 a1 a2 a3 a4).2 idx = CVAL (rows2 a0) (rows2 a1) (row1 a2) (row1 a3) (row1 a4)) := by
  rw [outsV_eq]
  constructor
  · intro idx
    have hn : (idx 1).val < 13312 := idx2_lt1 idx
    show k1_pay1 (F := Ideal) _ _ _ idx = _
    refine (col_idx _ idx).trans ?_
    unfold k1_pay1 k1_pay20 k1_pay21
    dsimp only
    rw [col_mulf, col_mulf, col_shapeCast_self, col_shapeCast_self, rstdV_col a0 a1 _ hn, col_row1 a2 hn, col_row1 a3 hn]
    rfl
  · intro idx
    show k1_pay2 (F := Ideal) _ _ _ _ _ idx = _
    rw [pay2_apply]
    unfold CVAL
    refine congrArg (· * inv16) (Finset.sum_congr rfl fun n hn => ?_)
    have hn' := Finset.mem_range.mp hn
    unfold k1_pay20 k1_pay21 k1_pay18
    dsimp only
    rw [col_shapeCast_self, col_shapeCast_self, col_mulf, col_broadcast, tot0V_col a0 n hn', rstdV_col a0 a1 n hn',
      col_row1 a2 hn', col_row1 a3 hn', col_row1 a4 hn']
    rfl

end Cert.Proof.KI

end
-- ==== Proof.RegionVI.lean ====
import proofs.«210137_g30502857736458_cont_9to1_2222_4_alg».proof.Proof.RegionV
import proofs.«210137_g30502857736458_cont_9to1_2222_4_alg».proof.Proof.RegionVMathD
import proofs.«210137_g30502857736458_cont_9to1_2222_4_alg».proof.Proof.Gen.KernelIdeal.Launch
import proofs.«210137_g30502857736458_cont_9to1_2222_4_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 2) (Elt Ideal) ℕ UU ℕ

open Cert.Proof.KSpec

section Values

variable (f1 : main_v30_1.ty.Contents (Elt Ideal)) (f2 : main_v30_2.ty.Contents (Elt Ideal)) (f11 : main_v11.ty.Contents (Elt Ideal))
  (f20 : main_v20.ty.Contents (Elt Ideal)) (f29 : main_v29.ty.Contents (Elt Ideal)) (g0 : main_v31_0.ty.Contents (Elt Ideal)) (g1 : main_v31_1.ty.Contents (Elt Ideal))

/-- The region inside @main on the TensorCore at the ideal values: as `wp_region`, and the two outputs come back at the
    stage mathematics' scale and offset of the inputs. -/
theorem wp_regionV {P' : (K (F := Ideal)).Pay (nD := nD) (Val := Elt Ideal) (Name := ℕ) (U := UU)} (κ : GSem nD τ sig → ℕ) (d : Dev nD) (Φ : PUnit → sProp 𝕄) :
    iprop((K (F := Ideal)).ctx (EH (F := Ideal)) P' κ ∗ boundary (T d : Thread nD τ) ∗ (K (F := Ideal)).tcSt (EH (F := Ideal)) d 1 ∗ G_region (F := Ideal) d
        ∗ ((T d : Thread nD τ).loc main_v30_1 ↦{fullShare} f1) ∗ ((T d : Thread nD τ).loc main_v30_2 ↦{fullShare} f2)
        ∗ ((T d : Thread nD τ).loc main_v11 ↦{fullShare} f11) ∗ ((T d : Thread nD τ).loc main_v20 ↦{fullShare} f20)
        ∗ ((T d : Thread nD τ).loc main_v29 ↦{fullShare} f29) ∗ ((T d : Thread nD τ).loc main_v31_0 ↦{fullShare} g0)
        ∗ ((T d : Thread nD τ).loc main_v31_1 ↦{fullShare} g1)
        ∗ (iprop(boundary (T d : Thread nD τ) ∗ (K (F := Ideal)).tcSt (EH (F := Ideal)) d 1
            ∗ ((T d : Thread nD τ).loc main_v30_1 ↦{fullShare} f1) ∗ ((T d : Thread nD τ).loc main_v30_2 ↦{fullShare} f2)
            ∗ ((T d : Thread nD τ).loc main_v11 ↦{fullShare} f11) ∗ ((T d : Thread nD τ).loc main_v20 ↦{fullShare} f20)
            ∗ ((T d : Thread nD τ).loc main_v29 ↦{fullShare} f29)
            ∗ (∃ g : main_v31_0.ty.Contents (Elt Ideal), ⌜∀ idx : S1x13312.Idx, g idx = ALPHA (rows2 f1) (rows2 f2) (row1 f11) (row1 f20) (idx 1).val⌝
                ∗ (T d : Thread nD τ).loc main_v31_0 ↦{fullShare} g)
            ∗ (∃ g : main_v31_1.ty.Contents (Elt Ideal), ⌜∀ idx : S1x16.Idx, g idx = CVAL (rows2 f1) (rows2 f2) (row1 f11) (row1 f20) (row1 f29)⌝
                ∗ (T d : Thread nD τ).loc main_v31_1 ↦{fullShare} g)) -∗ Φ ⟨⟩))
      ⊢ wp frame (wpE ((K (F := Ideal)).defs (D (F := Ideal))) 𝒱 (T d) none) Set.univ
          (Prog.lift (.customCall (SparseCore.inner (Pipeline.entry 0)) ())) Φ := by
  iintro ⟨#Hctx, Hbd, Hst, Hg, H1, H2, H11, H20, H29, G0, G1, Hk⟩
  iapply (wp_regionG (F := Ideal) f1 f2 f11 f20 f29 g0 g1 κ d Φ)
  isplitr; · iexact Hctx
  isplitl [Hbd]; · iexact Hbd
  isplitl [Hst]; · iexact Hst
  isplitl [Hg]; · iexact Hg
  isplitl [H1]; · iexact H1
  isplitl [H2]; · iexact H2
  isplitl [H11]; · iexact H11
  isplitl [H20]; · iexact H20
  isplitl [H29]; · iexact H29
  isplitl [G0]; · iexact G0
  isplitl [G1]; · iexact G1
  iintro ⟨Hbd, Hst, H1, H2, H11, H20, H29, ⟨%g, %hg, G0⟩, ⟨%g', %hg', G1⟩⟩
  iapply Hk
  isplitl [Hbd]; · iexact Hbd
  isplitl [Hst]; · iexact Hst
  isplitl [H1]; · iexact H1
  isplitl [H2]; · iexact H2
  isplitl [H11]; · iexact H11
  isplitl [H20]; · iexact H20
  isplitl [H29]; · iexact H29
  isplitl [G0]
  · iexists g; isplitr
    · ipureintro; intro idx; rw [hg]; exact (outsV_spec f1 f2 f11 f20 f29).1 idx
    iexact G0
  iexists g'; isplitr
  · ipureintro; intro idx; rw [hg']; exact (outsV_spec f1 f2 f11 f20 f29).2 idx
  iexact G1

end Values

end Cert.Proof.KI

end
-- ==== Proof.MainV.lean ====
/-
  @main on the TensorCore with the values carried: the regrouped input holds XG x when the first call is reached and
  the three per-slot vectors hold the scatters of the arguments; the first call brings the pair-product array holding
  IT x at every pair column and the partial sums S1P x, S2P x; the region brings the scale and offset vectors, which
  read through the reshapes are ALPHA and CVAL; the second call brings the result holding OUT; the last reshape makes
  it a column. The run leaves the claim the four arguments and the result column with its values.
-/
import proofs.«210137_g30502857736458_cont_9to1_2222_4_alg».proof.Proof.Common
import proofs.«210137_g30502857736458_cont_9to1_2222_4_alg».proof.Proof.MainVa
import proofs.«210137_g30502857736458_cont_9to1_2222_4_alg».proof.Proof.HostVe
import proofs.«210137_g30502857736458_cont_9to1_2222_4_alg».proof.Proof.RegionVI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.StableHlo (held held_split held_sub_split held_congr held_sdiff_result wp_hlo_within wp_seq after launchContents)
open Cert.Proof.KSpec Idealize.ShloMosaic.ValueIdx

local notation "𝕀" => MT nD τ sig (HIx 2) (Elt Ideal) ℕ UU ℕ

variable [∀ e, Nonempty (Elt Ideal e)]
variable (m : (ℓ : Loc nD τ sig) → Buf (Elt Ideal) ℓ) (ρ : Dev nD → PrngReg)

/-- The result column with its values. -/
def OutOK (d : Dev nD) (g : S4096x1.Idx → EReal) : Prop :=
  ∀ idx : S4096x1.Idx, g idx = OUT slotOf (argX m d) (argG m d) (argB m d) (argW m d) (idx 0).val

/-- What @main leaves the claim: the four argument arrays at their launch contents and the result column. -/
abbrev FINv (d : Dev nD) : sProp 𝕀 :=
  iprop(FIN m d ∗ ∃ g, ⌜OutOK m d g⌝ ∗ (SparseCore.T d).loc main_v35 ↦{fullShare} g)

set_option maxHeartbeats 4000000 in
theorem hmainV (κ : GSem nD τ sig → ℕ) (d : Dev nD) :
    iprop((K (F := Ideal)).ctx EH (Pv m) κ ∗ (K (F := Ideal)).tcSt EH d 0 ∗ (K (F := Ideal)).tcRes m ρ d ∗ G_region (F := Ideal) d)
      ⊢ wp frame (wpE ((K (F := Ideal)).defs (D (F := Ideal))) 𝒱 (SparseCore.T d) none) Set.univ (main d)
          fun _ => iprop((K (F := Ideal)).tcSt EH d 2 ∗ FINv m d) := by
  have e1 : (held (SparseCore.T d) HB (after (ops0 (F := Ideal)) (launchContents m d)) : sProp 𝕀)
      = iprop((((SparseCore.T d).loc main_arg0 ↦{fullShare} m ((SparseCore.T d).loc main_arg0))
        ∗ ((SparseCore.T d).loc main_arg1 ↦{fullShare} m ((SparseCore.T d).loc main_arg1))
        ∗ ((SparseCore.T d).loc main_arg2 ↦{fullShare} m ((SparseCore.T d).loc main_arg2))
        ∗ ((SparseCore.T d).loc main_arg3 ↦{fullShare} m ((SparseCore.T d).loc main_arg3))
        ∗ ((SparseCore.T d).loc main_v2 ↦{fullShare} XGa (argX m d))
        ∗ ((SparseCore.T d).loc main_v30_0 ↦{fullShare} after (ops0 (F := Ideal)) (launchContents m d) (r main_v30_0))
        ∗ ((SparseCore.T d).loc main_v30_1 ↦{fullShare} after (ops0 (F := Ideal)) (launchContents m d) (r main_v30_1))
        ∗ ((SparseCore.T d).loc main_v30_2 ↦{fullShare} after (ops0 (F := Ideal)) (launchContents m d) (r main_v30_2))
        ∗ ((SparseCore.T d).loc main_v11 ↦{fullShare} after (ops0 (F := Ideal)) (launchContents m d) (r main_v11))
        ∗ ((SparseCore.T d).loc main_v20 ↦{fullShare} after (ops0 (F := Ideal)) (launchContents m d) (r main_v20))
        ∗ ((SparseCore.T d).loc main_v29 ↦{fullShare} after (ops0 (F := Ideal)) (launchContents m d) (r main_v29))
        ∗ ((SparseCore.T d).loc main_v31_0 ↦{fullShare} after (ops0 (F := Ideal)) (launchContents m d) (r main_v31_0))
        ∗ ((SparseCore.T d).loc main_v31_1 ↦{fullShare} after (ops0 (F := Ideal)) (launchContents m d) (r main_v31_1))
        ∗ ((SparseCore.T d).loc main_v32 ↦{fullShare} after (ops0 (F := Ideal)) (launchContents m d) (r main_v32))
        ∗ ((SparseCore.T d).loc main_v33 ↦{fullShare} after (ops0 (F := Ideal)) (launchContents m d) (r main_v33))
        ∗ ((SparseCore.T d).loc main_v34 ↦{fullShare} after (ops0 (F := Ideal)) (launchContents m d) (r main_v34))
        ∗ ((SparseCore.T d).loc main_v35 ↦{fullShare} after (ops0 (F := Ideal)) (launchContents m d) (r main_v35)))
        ∗ held (SparseCore.T d) (HB \ NEED) (after (ops0 (F := Ideal)) (launchContents m d))) := by
    rw [held_sub_split (T d) NEED_sub, held_NEED, V1_arg0, V1_arg1, V1_arg2, V1_arg3, V1_xg]
  have hwm : ∀ idx : S1x13312.Idx, after (ops0 (F := Ideal)) (launchContents m d) (r main_v11) idx = scat slotOf (argW m d) (idx 1).val := fun idx => V1_wm (launchContents m d) idx
  have hgm : ∀ idx : S1x13312.Idx, after (ops0 (F := Ideal)) (launchContents m d) (r main_v20) idx = scat slotOf (argG m d) (idx 1).val := fun idx => V1_gm (launchContents m d) idx
  have hbm : ∀ idx : S1x13312.Idx, after (ops0 (F := Ideal)) (launchContents m d) (r main_v29) idx = scat slotOf (argB m d) (idx 1).val := fun idx => V1_bm (launchContents m d) idx
  unfold SparseCore.Cfg.tcRes
  rw [unscoped_held, main_eq]
  iintro ⟨#Hctx, Hst, ⟨Hb, Hheld, Hsems, -⟩, HG⟩
  iapply (wp_seq 𝒱 none Set.univ d HB _ (ops0 (F := Ideal)) ops0_sub ops0_fresh (launchContents m d)) $$ [Hb Hheld]
  · isplitl [Hb]; · iexact Hb
    iexact Hheld
  iintro ⟨Hb, Hheld⟩
  ihave Hheld' := (Entails.of_eq e1) $$ Hheld
  icases Hheld' with ⟨⟨Ha0, Ha1, Ha2, Ha3, Hxg, Hit, Hs1, Hs2, H11, H20, H29, H310, H311, H32, H33, H34, H35⟩, -⟩
  rw [wp_bind]
  iapply ((K (F := Ideal)).wp_run (D (F := Ideal)) 𝒱 (EH := EH) (P := Pv m) κ d 0) $$ [Hst Hxg Hit Hs1 Hs2 Hb Ha0 Ha1 Ha2 Ha3 H11 H20 H29 H310 H311 H32 H33 H34 H35 HG]
  isplitr; · iexact Hctx
  isplitl [Hst]; · iexact Hst
  isplitl [Hxg Hit Hs1 Hs2]
  · iapply (st0v_intro m d _ _ _)
    isplitl [Hxg]; · iexact Hxg
    isplitl [Hit]; · iexact Hit
    isplitl [Hs1]; · iexact Hs1
    iexact Hs2
  iintro ⟨Hst, Hdn⟩
  ihave Hdn' := (dn0v_elim m d) $$ Hdn
  icases Hdn' with ⟨⟨%fi, %hfi, Hit⟩, ⟨%f1, %hf1, Hs1⟩, ⟨%f2, %hf2, Hs2⟩⟩
  -- the region
  rw [wp_bind]
  iapply (wp_regionV f1 f2 _ _ _ _ _ κ d _) $$ [Hb Hst HG Hs1 Hs2 H11 H20 H29 H310 H311 Hit Ha0 Ha1 Ha2 Ha3 H32 H33 H34 H35]
  isplitr; · iexact Hctx
  isplitl [Hb]; · iexact Hb
  isplitl [Hst]; · iexact Hst
  isplitl [HG]; · iexact HG
  isplitl [Hs1]; · iexact Hs1
  isplitl [Hs2]; · iexact Hs2
  isplitl [H11]; · iexact H11
  isplitl [H20]; · iexact H20
  isplitl [H29]; · iexact H29
  isplitl [H310]; · iexact H310
  isplitl [H311]; · iexact H311
  iintro ⟨Hb, Hst, -, -, -, -, -, ⟨%g0, %hg0, H310⟩, ⟨%g1, %hg1, H311⟩⟩
  have hal := alOK_of m d f1 f2 _ _ g0 hf1 hf2 hwm hgm hg0
  have hcv := cvOK_of m d f1 f2 _ _ _ g1 hf1 hf2 hwm hgm hbm hg1
  -- the two reshapes
  rw [show (StableHlo.seq (ops1 (F := Ideal)) >>= fun _ => (K (F := Ideal)).run d 1 >>= fun _ => StableHlo.seq (ops2 (F := Ideal)))
      = (StableHlo.seq [(ops1 (F := Ideal))[0]] >>= fun _ => StableHlo.seq [(ops1 (F := Ideal))[1]] >>= fun _ => (K (F := Ideal)).run d 1 >>= fun _ => StableHlo.seq (ops2 (F := Ideal))) from rfl]
  iapply (wp_reshape_val d main_v31_0 main_v32 (by decide) rfl shapeCasts_S1x13312_S13312 ⟨by decide, rfl⟩ ⟨by decide, rfl⟩ g0 _) $$ [Hb H310 H32 Hst H311 H33 Hit H34 H35 Ha0 Ha1 Ha2 Ha3]
  isplitl [Hb]; · iexact Hb
  isplitl [H310]; · iexact H310
  isplitl [H32]; · iexact H32
  iintro ⟨Hb, -, H32⟩
  iapply (wp_reshape_val d main_v31_1 main_v33 (by decide) rfl shapeCasts_S1x16_S16 ⟨by decide, rfl⟩ ⟨by decide, rfl⟩ g1 _) $$ [Hb H311 H33 Hst H32 Hit H34 H35 Ha0 Ha1 Ha2 Ha3]
  isplitl [Hb]; · iexact Hb
  isplitl [H311]; · iexact H311
  isplitl [H33]; · iexact H33
  iintro ⟨Hb, -, H33⟩
  -- the second call
  rw [wp_bind]
  iapply ((K (F := Ideal)).wp_run (D (F := Ideal)) 𝒱 (EH := EH) (P := Pv m) κ d 1) $$ [Hst Hit H32 H33 H34 Hb H35 Ha0 Ha1 Ha2 Ha3]
  isplitr; · iexact Hctx
  isplitl [Hst]; · iexact Hst
  isplitl [Hit H32 H33 H34]
  · iapply (st1v_intro m d fi _ _ _ hfi hal hcv)
    isplitl [Hit]; · iexact Hit
    isplitl [H32]; · iexact H32
    isplitl [H33]; · iexact H33
    iexact H34
  iintro ⟨Hst, Hdn⟩
  ihave Hdn' := (dn1v_elim m d) $$ Hdn
  icases Hdn' with ⟨%fo, %hfo, H34⟩
  -- the last reshape
  rw [show StableHlo.seq (ops2 (F := Ideal)) = (StableHlo.seq (ops2 (F := Ideal)) >>= fun u => Pure.pure u) from (bind_pure _).symm]
  iapply (wp_reshape_val d main_v34 main_v35 (by decide) rfl shapeCasts_S4096_S4096x1 ⟨by decide, rfl⟩ ⟨by decide, rfl⟩ fo _) $$ [Hb H34 H35 Hst Ha0 Ha1 Ha2 Ha3]
  isplitl [Hb]; · iexact Hb
  isplitl [H34]; · iexact H34
  isplitl [H35]; · iexact H35
  iintro ⟨-, -, H35⟩
  rw [wp_pure]; imodintro
  isplitl [Hst]; · iexact Hst
  isplitl [Ha0 Ha1 Ha2 Ha3]
  · isplitl [Ha0]; · iexact Ha0
    isplitl [Ha1]; · iexact Ha1
    isplitl [Ha2]; · iexact Ha2
    iexact Ha3
  iexists _; isplitr
  · ipureintro; exact fun idx => otOK_col m d fo hfo idx
  · iexact H35

end Cert.Proof.KI

end
-- ==== Proof.Body0vA.lean ====
import proofs.«210137_g30502857736458_cont_9to1_2222_4_alg».proof.Proof.CommonV
import proofs.«210137_g30502857736458_cont_9to1_2222_4_alg».proof.Proof.Body0

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KSpec

local notation "𝕀" => MT nD τ sig (HIx 2) (Elt Ideal) ℕ UU ℕ

/-! ## Vectors and one-axis buffers as functions of a natural number (0 out of range) -/

/-- A one-axis array read at a natural number, 0 out of range. -/
def nat1 {N : ℕ} (g : (⟨1, ![N]⟩ : Shape).Idx → EReal) (n : ℕ) : EReal := if h : n < N then g (ix1 ⟨n, h⟩) else 0

theorem nat1_of_lt {N : ℕ} (g : (⟨1, ![N]⟩ : Shape).Idx → EReal) {n : ℕ} (h : n < N) : nat1 g n = g (ix1 ⟨n, h⟩) := dif_pos h
theorem nat1_of_ge {N : ℕ} (g : (⟨1, ![N]⟩ : Shape).Idx → EReal) {n : ℕ} (h : ¬ n < N) : nat1 g n = 0 := dif_neg h
theorem nat1_apply {N : ℕ} (g : (⟨1, ![N]⟩ : Shape).Idx → EReal) (y : (⟨1, ![N]⟩ : Shape).Idx) : g y = nat1 g (y 0).val := by
  rw [nat1_of_lt g (y 0).isLt]; exact congrArg g (eq_ix1 y)

theorem nat1_mulf (a b : FVec Ideal S16 .f32) (n : ℕ) : nat1 (mulf a b) n = nat1 a n * nat1 b n := by
  unfold nat1; split
  · rfl
  · simp
theorem nat1_addf (a b : FVec Ideal S16 .f32) (n : ℕ) : nat1 (addf a b) n = nat1 a n + nat1 b n := by
  unfold nat1; split
  · rfl
  · simp
theorem nat1_shapeCast (a : S16.Idx → EReal) (h : S16.ShapeCasts S16) (n : ℕ) : nat1 (shapeCast S16 a h) n = nat1 a n := by
  have e : shapeCast S16 a h = a := funext fun i => congrArg a (Shape.reshapeEquiv_self _ i)
  rw [e]

section View1
variable {sig' : RefSig} {κ : Kind} {sp : Space} {N : ℕ} (v : View sig' κ sp (⟨1, ![N]⟩ : Shape) EltTy.f32) (f : v.ty.Contents (Elt Ideal))

/-- A sixteen-word load at an offset reads the buffer's words from the offset on. -/
theorem nat1_readAt (off : Fin 1 → ℕ) (inb : ∀ a, off a + S16.size a ≤ (⟨1, ![N]⟩ : Shape).size a) {l : ℕ} (hl : l < 16) :
    nat1 (v.readAt (Elt Ideal) (Rect.unit (s := (⟨1, ![N]⟩ : Shape)) off S16.size inb).toLoadRect f) l = nat1 (v.read (Elt Ideal) f) (off 0 + l) := by
  have hN : off 0 + l < N := by have := inb 0; simp at this; omega
  rw [nat1_of_lt _ hl, nat1_of_lt _ hN, View.readAt_apply]
  congr 1
  funext a
  match a with
  | ⟨0, _⟩ => exact Fin.ext (by simp [LoadRect.idx])

/-- After one sixteen-word store at an offset, the buffer reads the payload on the sixteen words and what it held elsewhere. -/
theorem nat1_writes1 (off : Fin 1 → ℕ) (inb : ∀ a, off a + S16.size a ≤ (⟨1, ![N]⟩ : Shape).size a) (w : S16.Idx → EReal) (n : ℕ) :
    nat1 (v.read (Elt Ideal) (v.writes (Elt Ideal) f [⟨Rect.unit (s := (⟨1, ![N]⟩ : Shape)) off S16.size inb, w⟩])) n
      = if off 0 ≤ n ∧ n < off 0 + 16 then nat1 w (n - off 0) else nat1 (v.read (Elt Ideal) f) n := by
  have hb : off 0 + 16 ≤ N := by have := inb 0; simpa using this
  by_cases hn : n < N
  swap
  · rw [nat1_of_ge _ hn, nat1_of_ge _ hn, if_neg (by omega)]
  rw [nat1_of_lt _ hn]
  by_cases hin : off 0 ≤ n ∧ n < off 0 + 16
  · rw [if_pos hin, nat1_of_lt w (show n - off 0 < 16 by omega)]
    have e : (Rect.unit (s := (⟨1, ![N]⟩ : Shape)) off S16.size inb).emb (ix1 (⟨n - off 0, by omega⟩ : Fin 16)) = ix1 ⟨n, hn⟩ := by
      funext a
      match a with
      | ⟨0, _⟩ => exact Fin.ext (by simp [Rect.emb_apply]; omega)
    rw [← e]
    exact View.read_writes_cons_emb v f (Rect.unit (s := (⟨1, ![N]⟩ : Shape)) off S16.size inb) w [] _
  · rw [if_neg hin, nat1_of_lt _ hn]
    refine View.read_writes_apply_of_forall_not_mem v f _ _ fun p hp => ?_
    rw [List.mem_singleton.mp hp, Rect.mem_set_unit]
    intro h
    have := h 0
    have e0 : (ix1 (⟨n, hn⟩ : Fin N) 0).val = n := rfl
    simp only [e0] at this
    simp at this
    omega
end View1

end Cert.Proof.KI

end
-- ==== Proof.Body0vB.lean ====
import proofs.«210137_g30502857736458_cont_9to1_2222_4_alg».proof.Proof.Body0vA

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KSpec

local notation "𝕀" => MT nD τ sig (HIx 2) (Elt Ideal) ℕ UU ℕ

/-! ## The scratch buffers read at a natural number -/
abbrev r0 (d : Dev nD) (L : grid0.Coords) (f : Buf (Elt Ideal) ((sc0).view.loc (thr0 d L))) : ℕ → EReal := nat1 ((sc0).view.read (Elt Ideal) f)
abbrev r1 (d : Dev nD) (L : grid0.Coords) (f : Buf (Elt Ideal) ((sc1).view.loc (thr0 d L))) : ℕ → EReal := nat1 ((sc1).view.read (Elt Ideal) f)
abbrev r2 (d : Dev nD) (L : grid0.Coords) (f : Buf (Elt Ideal) ((sc2).view.loc (thr0 d L))) : ℕ → EReal := nat1 ((sc2).view.read (Elt Ideal) f)
abbrev r3 (d : Dev nD) (L : grid0.Coords) (f : Buf (Elt Ideal) ((sc3).view.loc (thr0 d L))) : ℕ → EReal := nat1 ((sc3).view.read (Elt Ideal) f)
abbrev r4 (d : Dev nD) (L : grid0.Coords) (f : Buf (Elt Ideal) ((sc4).view.loc (thr0 d L))) : ℕ → EReal := nat1 ((sc4).view.read (Elt Ideal) f)

/-! ## The loops' trip counts -/
theorem trips1 : k0_t1_loop.trips = 832 := by decide
theorem trips2g : k0_t2_loop.trips = 8 := by decide
theorem trips3 : k0_t3_loop.trips = 25 := by decide
theorem trips4 : ∀ k0_t3 : Fin k0_t3_loop.trips, (k0_t4_loop k0_t3).trips = k0_t3.val + 1 := by decide
theorem trips6 : ∀ k0_t3 : Fin k0_t3_loop.trips, (k0_t6_loop k0_t3).trips = k0_t3.val + 1 := by decide
theorem trips8 : ∀ k0_t3 : Fin k0_t3_loop.trips, (k0_t8_loop k0_t3).trips = k0_t3.val + 1 := by decide
theorem trips10 : ∀ k0_t3 : Fin k0_t3_loop.trips, (k0_t10_loop k0_t3).trips = k0_t3.val + 1 := by decide
theorem trips12 : ∀ k0_t3 : Fin k0_t3_loop.trips, (k0_t12_loop k0_t3).trips = k0_t3.val + 1 := by decide
theorem trips5 : ∀ k0_t3 : Fin k0_t3_loop.trips, (k0_t5_loop k0_t3).trips = 0 := by decide
theorem trips7 : ∀ k0_t3 : Fin k0_t3_loop.trips, (k0_t7_loop k0_t3).trips = 0 := by decide
theorem trips9 : ∀ k0_t3 : Fin k0_t3_loop.trips, (k0_t9_loop k0_t3).trips = 0 := by decide
theorem trips11 : ∀ k0_t3 : Fin k0_t3_loop.trips, (k0_t11_loop k0_t3).trips = 0 := by decide
theorem trips13 : ∀ k0_t3 : Fin k0_t3_loop.trips, (k0_t13_loop k0_t3).trips = 0 := by decide

/-! ## The accumulation loops -/

/-- Block 0's sixteen-term sum of products, as the loop's trip computes it: field `i`'s words against the sixteen vectors handed in, lane `l`. -/
def acc16_0 (g : ℕ → EReal) (u0 u1 u2 u3 u4 u5 u6 u7 u8 u9 u10 u11 u12 u13 u14 u15 : S16.Idx → EReal) (i l : ℕ) : EReal :=
  (((((((((((((((g (1024 * i + l) * nat1 u0 l + g (1024 * i + 16 * 0 + 16 + l) * nat1 u1 l) + g (1024 * i + 16 * 1 + 16 + l) * nat1 u2 l) + g (1024 * i + 16 * 2 + 16 + l) * nat1 u3 l) + g (1024 * i + 16 * 3 + 16 + l) * nat1 u4 l) + g (1024 * i + 16 * 4 + 16 + l) * nat1 u5 l) + g (1024 * i + 16 * 5 + 16 + l) * nat1 u6 l) + g (1024 * i + 16 * 6 + 16 + l) * nat1 u7 l) + g (1024 * i + 16 * 7 + 16 + l) * nat1 u8 l) + g (1024 * i + 16 * 8 + 16 + l) * nat1 u9 l) + g (1024 * i + 16 * 9 + 16 + l) * nat1 u10 l) + g (1024 * i + 16 * 10 + 16 + l) * nat1 u11 l) + g (1024 * i + 16 * 11 + 16 + l) * nat1 u12 l) + g (1024 * i + 16 * 12 + 16 + l) * nat1 u13 l) + g (1024 * i + 16 * 13 + 16 + l) * nat1 u14 l) + g (1024 * i + 16 * 14 + 16 + l) * nat1 u15 l)

/-- Block 1's sixteen-term sum of products, as the loop's trip computes it: field `i`'s words against the sixteen vectors handed in, lane `l`. -/
def acc16_1 (g : ℕ → EReal) (u0 u1 u2 u3 u4 u5 u6 u7 u8 u9 u10 u11 u12 u13 u14 u15 : S16.Idx → EReal) (i l : ℕ) : EReal :=
  (((((((((((((((g (1024 * i + 256 + l) * nat1 u0 l + g (1024 * i + 16 * 0 + 272 + l) * nat1 u1 l) + g (1024 * i + 16 * 1 + 272 + l) * nat1 u2 l) + g (1024 * i + 16 * 2 + 272 + l) * nat1 u3 l) + g (1024 * i + 16 * 3 + 272 + l) * nat1 u4 l) + g (1024 * i + 16 * 4 + 272 + l) * nat1 u5 l) + g (1024 * i + 16 * 5 + 272 + l) * nat1 u6 l) + g (1024 * i + 16 * 6 + 272 + l) * nat1 u7 l) + g (1024 * i + 16 * 7 + 272 + l) * nat1 u8 l) + g (1024 * i + 16 * 8 + 272 + l) * nat1 u9 l) + g (1024 * i + 16 * 9 + 272 + l) * nat1 u10 l) + g (1024 * i + 16 * 10 + 272 + l) * nat1 u11 l) + g (1024 * i + 16 * 11 + 272 + l) * nat1 u12 l) + g (1024 * i + 16 * 12 + 272 + l) * nat1 u13 l) + g (1024 * i + 16 * 13 + 272 + l) * nat1 u14 l) + g (1024 * i + 16 * 14 + 272 + l) * nat1 u15 l)

/-- Block 2's sixteen-term sum of products, as the loop's trip computes it: field `i`'s words against the sixteen vectors handed in, lane `l`. -/
def acc16_2 (g : ℕ → EReal) (u0 u1 u2 u3 u4 u5 u6 u7 u8 u9 u10 u11 u12 u13 u14 u15 : S16.Idx → EReal) (i l : ℕ) : EReal :=
  (((((((((((((((g (1024 * i + 512 + l) * nat1 u0 l + g (1024 * i + 16 * 0 + 528 + l) * nat1 u1 l) + g (1024 * i + 16 * 1 + 528 + l) * nat1 u2 l) + g (1024 * i + 16 * 2 + 528 + l) * nat1 u3 l) + g (1024 * i + 16 * 3 + 528 + l) * nat1 u4 l) + g (1024 * i + 16 * 4 + 528 + l) * nat1 u5 l) + g (1024 * i + 16 * 5 + 528 + l) * nat1 u6 l) + g (1024 * i + 16 * 6 + 528 + l) * nat1 u7 l) + g (1024 * i + 16 * 7 + 528 + l) * nat1 u8 l) + g (1024 * i + 16 * 8 + 528 + l) * nat1 u9 l) + g (1024 * i + 16 * 9 + 528 + l) * nat1 u10 l) + g (1024 * i + 16 * 10 + 528 + l) * nat1 u11 l) + g (1024 * i + 16 * 11 + 528 + l) * nat1 u12 l) + g (1024 * i + 16 * 12 + 528 + l) * nat1 u13 l) + g (1024 * i + 16 * 13 + 528 + l) * nat1 u14 l) + g (1024 * i + 16 * 14 + 528 + l) * nat1 u15 l)

/-- Block 3's sixteen-term sum of products, as the loop's trip computes it: field `i`'s words against the sixteen vectors handed in, lane `l`. -/
def acc16_3 (g : ℕ → EReal) (u0 u1 u2 u3 u4 u5 u6 u7 u8 u9 u10 u11 u12 u13 u14 u15 : S16.Idx → EReal) (i l : ℕ) : EReal :=
  (((((((((((((((g (1024 * i + 768 + l) * nat1 u0 l + g (1024 * i + 16 * 0 + 784 + l) * nat1 u1 l) + g (1024 * i + 16 * 1 + 784 + l) * nat1 u2 l) + g (1024 * i + 16 * 2 + 784 + l) * nat1 u3 l) + g (1024 * i + 16 * 3 + 784 + l) * nat1 u4 l) + g (1024 * i + 16 * 4 + 784 + l) * nat1 u5 l) + g (1024 * i + 16 * 5 + 784 + l) * nat1 u6 l) + g (1024 * i + 16 * 6 + 784 + l) * nat1 u7 l) + g (1024 * i + 16 * 7 + 784 + l) * nat1 u8 l) + g (1024 * i + 16 * 8 + 784 + l) * nat1 u9 l) + g (1024 * i + 16 * 9 + 784 + l) * nat1 u10 l) + g (1024 * i + 16 * 10 + 784 + l) * nat1 u11 l) + g (1024 * i + 16 * 11 + 784 + l) * nat1 u12 l) + g (1024 * i + 16 * 12 + 784 + l) * nat1 u13 l) + g (1024 * i + 16 * 13 + 784 + l) * nat1 u14 l) + g (1024 * i + 16 * 14 + 784 + l) * nat1 u15 l)

/-- Block 0's accumulation loop before trip `k`: the staged row as it is; the accumulators' words of fields below `k`
    hold the block's sum, the others are as at the loop's entry. -/
def IA4 (d : Dev nD) (L : grid0.Coords) (u0 u1 u2 u3 u4 u5 u6 u7 u8 u9 u10 u11 u12 u13 u14 u15 : S16.Idx → EReal)
    (f0 : Buf (Elt Ideal) ((sc0).view.loc (thr0 d L))) (g4 : ℕ → EReal) (k : ℕ) : sProp 𝕀 :=
  iprop(((sc0).view.loc (thr0 d L) ↦{fullShare} f0)
    ∗ ∃ f4, ⌜∀ m, r4 d L f4 m = if m < 16 * k then acc16_0 (r0 d L f0) u0 u1 u2 u3 u4 u5 u6 u7 u8 u9 u10 u11 u12 u13 u14 u15 (m / 16) (m % 16) else g4 m⌝ ∗ ((sc4).view.loc (thr0 d L) ↦{fullShare} f4))

/-- Block 1's accumulation loop before trip `k`: the staged row as it is; the accumulators' words of fields below `k`
    have gained the block's sum, the others are as at the loop's entry. -/
def IA6 (d : Dev nD) (L : grid0.Coords) (u0 u1 u2 u3 u4 u5 u6 u7 u8 u9 u10 u11 u12 u13 u14 u15 : S16.Idx → EReal)
    (f0 : Buf (Elt Ideal) ((sc0).view.loc (thr0 d L))) (g4 : ℕ → EReal) (k : ℕ) : sProp 𝕀 :=
  iprop(((sc0).view.loc (thr0 d L) ↦{fullShare} f0)
    ∗ ∃ f4, ⌜∀ m, r4 d L f4 m = if m < 16 * k then g4 m + acc16_1 (r0 d L f0) u0 u1 u2 u3 u4 u5 u6 u7 u8 u9 u10 u11 u12 u13 u14 u15 (m / 16) (m % 16) else g4 m⌝ ∗ ((sc4).view.loc (thr0 d L) ↦{fullShare} f4))

/-- Block 2's accumulation loop before trip `k`: the staged row as it is; the accumulators' words of fields below `k`
    have gained the block's sum, the others are as at the loop's entry. -/
def IA8 (d : Dev nD) (L : grid0.Coords) (u0 u1 u2 u3 u4 u5 u6 u7 u8 u9 u10 u11 u12 u13 u14 u15 : S16.Idx → EReal)
    (f0 : Buf (Elt Ideal) ((sc0).view.loc (thr0 d L))) (g4 : ℕ → EReal) (k : ℕ) : sProp 𝕀 :=
  iprop(((sc0).view.loc (thr0 d L) ↦{fullShare} f0)
    ∗ ∃ f4, ⌜∀ m, r4 d L f4 m = if m < 16 * k then g4 m + acc16_2 (r0 d L f0) u0 u1 u2 u3 u4 u5 u6 u7 u8 u9 u10 u11 u12 u13 u14 u15 (m / 16) (m % 16) else g4 m⌝ ∗ ((sc4).view.loc (thr0 d L) ↦{fullShare} f4))

/-- Block 3's accumulation loop before trip `k`: the staged row as it is; the accumulators' words of fields below `k`
    have gained the block's sum, the others are as at the loop's entry. -/
def IA10 (d : Dev nD) (L : grid0.Coords) (u0 u1 u2 u3 u4 u5 u6 u7 u8 u9 u10 u11 u12 u13 u14 u15 : S16.Idx → EReal)
    (f0 : Buf (Elt Ideal) ((sc0).view.loc (thr0 d L))) (g4 : ℕ → EReal) (k : ℕ) : sProp 𝕀 :=
  iprop(((sc0).view.loc (thr0 d L) ↦{fullShare} f0)
    ∗ ∃ f4, ⌜∀ m, r4 d L f4 m = if m < 16 * k then g4 m + acc16_3 (r0 d L f0) u0 u1 u2 u3 u4 u5 u6 u7 u8 u9 u10 u11 u12 u13 u14 u15 (m / 16) (m % 16) else g4 m⌝ ∗ ((sc4).view.loc (thr0 d L) ↦{fullShare} f4))

set_option maxHeartbeats 4000000 in
/-- One trip of block 0's accumulation loop carries its invariant on. -/
theorem vregion4 (d : Dev nD) (L : grid0.Coords) (k0_t3 : Fin k0_t3_loop.trips) (arg13 : BitVec 32) (v17 : FVec Ideal S16 .f32) (v24 : FVec Ideal S16 .f32) (v31 : FVec Ideal S16 .f32) (v38 : FVec Ideal S16 .f32) (v45 : FVec Ideal S16 .f32) (v52 : FVec Ideal S16 .f32) (v59 : FVec Ideal S16 .f32) (v66 : FVec Ideal S16 .f32) (v73 : FVec Ideal S16 .f32) (v80 : FVec Ideal S16 .f32) (v87 : FVec Ideal S16 .f32) (v94 : FVec Ideal S16 .f32) (v101 : FVec Ideal S16 .f32) (v108 : FVec Ideal S16 .f32) (v115 : FVec Ideal S16 .f32) (v122 : FVec Ideal S16 .f32) (c0_i32_62 : BitVec 32) (c0_i32_63 : BitVec 32) (v123 : BitVec 32) (f0 : Buf (Elt Ideal) ((sc0).view.loc (thr0 d L))) (g4 : ℕ → EReal)
    (k : Fin (k0_t4_loop k0_t3).trips) (acc : BitVec 32) :
    IA4 d L v17 v24 v31 v38 v45 v52 v59 v66 v73 v80 v87 v94 v101 v108 v115 v122 f0 g4 k.val
      ⊢ wp frame (wpE (defs₀ (F := Ideal)) 𝒱₀ (thr0 d L) none) Set.univ
        (k0_t4_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 arg13 v17 v24 v31 v38 v45 v52 v59 v66 v73 v80 v87 v94 v101 v108 v115 v122 c0_i32_62 c0_i32_63 v123 k acc)
        fun _ => IA4 d L v17 v24 v31 v38 v45 v52 v59 v66 v73 v80 v87 v94 v101 v108 v115 v122 f0 g4 (k.val + 1) := by
  unfold IA4 k0_t4_body
  iintro ⟨H0, %f4, %hf, H4⟩
  sl_exec
  sl_step
  isplitl [H0]; · iexact H0
  iexists _; isplitr; swap; · iexact H4
  ipureintro
  intro m
  unfold r4
  rw [nat1_writes1]
  simp only [k0_off6_eq, Matrix.cons_val_zero]
  by_cases h : 16 * k.val ≤ m ∧ m < 16 * k.val + 16
  · rw [if_pos h, if_pos (by omega)]
    have hl : m - 16 * k.val < 16 := by omega
    have hq : m / 16 = k.val := by omega
    have hr : m % 16 = m - 16 * k.val := by omega
    have e0 := k0_off4_eq k0_t3 k
    have e1 : k0_off5 k0_t3 k 1#32 = ![1024 * k.val + 16 * 0 + 16] := k0_off5_eq k0_t3 k ⟨0, by decide⟩
    have e2 : k0_off5 k0_t3 k 2#32 = ![1024 * k.val + 16 * 1 + 16] := k0_off5_eq k0_t3 k ⟨1, by decide⟩
    have e3 : k0_off5 k0_t3 k 3#32 = ![1024 * k.val + 16 * 2 + 16] := k0_off5_eq k0_t3 k ⟨2, by decide⟩
    have e4 : k0_off5 k0_t3 k 4#32 = ![1024 * k.val + 16 * 3 + 16] := k0_off5_eq k0_t3 k ⟨3, by decide⟩
    have e5 : k0_off5 k0_t3 k 5#32 = ![1024 * k.val + 16 * 4 + 16] := k0_off5_eq k0_t3 k ⟨4, by decide⟩
    have e6 : k0_off5 k0_t3 k 6#32 = ![1024 * k.val + 16 * 5 + 16] := k0_off5_eq k0_t3 k ⟨5, by decide⟩
    have e7 : k0_off5 k0_t3 k 7#32 = ![1024 * k.val + 16 * 6 + 16] := k0_off5_eq k0_t3 k ⟨6, by decide⟩
    have e8 : k0_off5 k0_t3 k 8#32 = ![1024 * k.val + 16 * 7 + 16] := k0_off5_eq k0_t3 k ⟨7, by decide⟩
    have e9 : k0_off5 k0_t3 k 9#32 = ![1024 * k.val + 16 * 8 + 16] := k0_off5_eq k0_t3 k ⟨8, by decide⟩
    have e10 : k0_off5 k0_t3 k 10#32 = ![1024 * k.val + 16 * 9 + 16] := k0_off5_eq k0_t3 k ⟨9, by decide⟩
    have e11 : k0_off5 k0_t3 k 11#32 = ![1024 * k.val + 16 * 10 + 16] := k0_off5_eq k0_t3 k ⟨10, by decide⟩
    have e12 : k0_off5 k0_t3 k 12#32 = ![1024 * k.val + 16 * 11 + 16] := k0_off5_eq k0_t3 k ⟨11, by decide⟩
    have e13 : k0_off5 k0_t3 k 13#32 = ![1024 * k.val + 16 * 12 + 16] := k0_off5_eq k0_t3 k ⟨12, by decide⟩
    have e14 : k0_off5 k0_t3 k 14#32 = ![1024 * k.val + 16 * 13 + 16] := k0_off5_eq k0_t3 k ⟨13, by decide⟩
    have e15 : k0_off5 k0_t3 k 15#32 = ![1024 * k.val + 16 * 14 + 16] := k0_off5_eq k0_t3 k ⟨14, by decide⟩
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, nat1_addf, nat1_mulf, nat1_shapeCast, nat1_readAt _ _ _ _ hl, e0, e1, e2, e3, e4, e5, e6, e7, e8, e9, e10, e11, e12, e13, e14, e15, k0_off6_eq, Matrix.cons_val_zero, hq, hr, acc16_0]
  · rw [if_neg h]
    have h1 := hf m
    by_cases h2 : m < 16 * k.val
    · rw [if_pos h2] at h1; rw [if_pos (by omega)]; exact h1
    · rw [if_neg h2] at h1; rw [if_neg (by omega)]; exact h1

set_option maxHeartbeats 4000000 in
/-- One trip of block 1's accumulation loop carries its invariant on. -/
theorem vregion6 (d : Dev nD) (L : grid0.Coords) (k0_t3 : Fin k0_t3_loop.trips) (arg13 : BitVec 32) (v136 : FVec Ideal S16 .f32) (v143 : FVec Ideal S16 .f32) (v150 : FVec Ideal S16 .f32) (v157 : FVec Ideal S16 .f32) (v164 : FVec Ideal S16 .f32) (v171 : FVec Ideal S16 .f32) (v178 : FVec Ideal S16 .f32) (v185 : FVec Ideal S16 .f32) (v192 : FVec Ideal S16 .f32) (v199 : FVec Ideal S16 .f32) (v206 : FVec Ideal S16 .f32) (v213 : FVec Ideal S16 .f32) (v220 : FVec Ideal S16 .f32) (v227 : FVec Ideal S16 .f32) (v234 : FVec Ideal S16 .f32) (v237 : BitVec 32) (v240 : Vec Ideal S16 .f32) (f0 : Buf (Elt Ideal) ((sc0).view.loc (thr0 d L))) (g4 : ℕ → EReal)
    (k : Fin (k0_t6_loop k0_t3).trips) (acc : BitVec 32) :
    IA6 d L v136 v143 v150 v157 v164 v171 v178 v185 v192 v199 v206 v213 v220 v227 v234 v240 f0 g4 k.val
      ⊢ wp frame (wpE (defs₀ (F := Ideal)) 𝒱₀ (thr0 d L) none) Set.univ
        (k0_t6_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 arg13 v136 v143 v150 v157 v164 v171 v178 v185 v192 v199 v206 v213 v220 v227 v234 v237 v240 k acc)
        fun _ => IA6 d L v136 v143 v150 v157 v164 v171 v178 v185 v192 v199 v206 v213 v220 v227 v234 v240 f0 g4 (k.val + 1) := by
  unfold IA6 k0_t6_body
  iintro ⟨H0, %f4, %hf, H4⟩
  sl_exec
  sl_step
  isplitl [H0]; · iexact H0
  iexists _; isplitr; swap; · iexact H4
  ipureintro
  intro m
  unfold r4
  rw [nat1_writes1]
  simp only [k0_off12_eq, Matrix.cons_val_zero]
  by_cases h : 16 * k.val ≤ m ∧ m < 16 * k.val + 16
  · rw [if_pos h, if_pos (by omega)]
    have hl : m - 16 * k.val < 16 := by omega
    have hq : m / 16 = k.val := by omega
    have hr : m % 16 = m - 16 * k.val := by omega
    have hg : nat1 ((sc4).view.read (Elt Ideal) f4) (16 * k.val + (m - 16 * k.val)) = g4 m := by
      have h1 := hf (16 * k.val + (m - 16 * k.val))
      rw [if_neg (by omega)] at h1
      exact h1.trans (congrArg g4 (by omega))
    have e0 := k0_off10_eq k0_t3 k
    have e1 : k0_off11 k0_t3 k 1#32 = ![1024 * k.val + 16 * 0 + 272] := k0_off11_eq k0_t3 k ⟨0, by decide⟩
    have e2 : k0_off11 k0_t3 k 2#32 = ![1024 * k.val + 16 * 1 + 272] := k0_off11_eq k0_t3 k ⟨1, by decide⟩
    have e3 : k0_off11 k0_t3 k 3#32 = ![1024 * k.val + 16 * 2 + 272] := k0_off11_eq k0_t3 k ⟨2, by decide⟩
    have e4 : k0_off11 k0_t3 k 4#32 = ![1024 * k.val + 16 * 3 + 272] := k0_off11_eq k0_t3 k ⟨3, by decide⟩
    have e5 : k0_off11 k0_t3 k 5#32 = ![1024 * k.val + 16 * 4 + 272] := k0_off11_eq k0_t3 k ⟨4, by decide⟩
    have e6 : k0_off11 k0_t3 k 6#32 = ![1024 * k.val + 16 * 5 + 272] := k0_off11_eq k0_t3 k ⟨5, by decide⟩
    have e7 : k0_off11 k0_t3 k 7#32 = ![1024 * k.val + 16 * 6 + 272] := k0_off11_eq k0_t3 k ⟨6, by decide⟩
    have e8 : k0_off11 k0_t3 k 8#32 = ![1024 * k.val + 16 * 7 + 272] := k0_off11_eq k0_t3 k ⟨7, by decide⟩
    have e9 : k0_off11 k0_t3 k 9#32 = ![1024 * k.val + 16 * 8 + 272] := k0_off11_eq k0_t3 k ⟨8, by decide⟩
    have e10 : k0_off11 k0_t3 k 10#32 = ![1024 * k.val + 16 * 9 + 272] := k0_off11_eq k0_t3 k ⟨9, by decide⟩
    have e11 : k0_off11 k0_t3 k 11#32 = ![1024 * k.val + 16 * 10 + 272] := k0_off11_eq k0_t3 k ⟨10, by decide⟩
    have e12 : k0_off11 k0_t3 k 12#32 = ![1024 * k.val + 16 * 11 + 272] := k0_off11_eq k0_t3 k ⟨11, by decide⟩
    have e13 : k0_off11 k0_t3 k 13#32 = ![1024 * k.val + 16 * 12 + 272] := k0_off11_eq k0_t3 k ⟨12, by decide⟩
    have e14 : k0_off11 k0_t3 k 14#32 = ![1024 * k.val + 16 * 13 + 272] := k0_off11_eq k0_t3 k ⟨13, by decide⟩
    have e15 : k0_off11 k0_t3 k 15#32 = ![1024 * k.val + 16 * 14 + 272] := k0_off11_eq k0_t3 k ⟨14, by decide⟩
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, nat1_addf, nat1_mulf, nat1_shapeCast, nat1_readAt _ _ _ _ hl, e0, e1, e2, e3, e4, e5, e6, e7, e8, e9, e10, e11, e12, e13, e14, e15, k0_off12_eq, Matrix.cons_val_zero, hq, hr, acc16_1, hg]
  · rw [if_neg h]
    have h1 := hf m
    by_cases h2 : m < 16 * k.val
    · rw [if_pos h2] at h1; rw [if_pos (by omega)]; exact h1
    · rw [if_neg h2] at h1; rw [if_neg (by omega)]; exact h1

set_option maxHeartbeats 4000000 in
/-- One trip of block 2's accumulation loop carries its invariant on. -/
theorem vregion8 (d : Dev nD) (L : grid0.Coords) (k0_t3 : Fin k0_t3_loop.trips) (arg13 : BitVec 32) (v255 : FVec Ideal S16 .f32) (v262 : FVec Ideal S16 .f32) (v269 : FVec Ideal S16 .f32) (v276 : FVec Ideal S16 .f32) (v283 : FVec Ideal S16 .f32) (v290 : FVec Ideal S16 .f32) (v297 : FVec Ideal S16 .f32) (v304 : FVec Ideal S16 .f32) (v311 : FVec Ideal S16 .f32) (v318 : FVec Ideal S16 .f32) (v325 : FVec Ideal S16 .f32) (v332 : FVec Ideal S16 .f32) (v339 : FVec Ideal S16 .f32) (v346 : FVec Ideal S16 .f32) (v352 : Vec Ideal S16 .f32) (v359 : Vec Ideal S16 .f32) (f0 : Buf (Elt Ideal) ((sc0).view.loc (thr0 d L))) (g4 : ℕ → EReal)
    (k : Fin (k0_t8_loop k0_t3).trips) (acc : BitVec 32) :
    IA8 d L v255 v262 v269 v276 v283 v290 v297 v304 v311 v318 v325 v332 v339 v346 v352 v359 f0 g4 k.val
      ⊢ wp frame (wpE (defs₀ (F := Ideal)) 𝒱₀ (thr0 d L) none) Set.univ
        (k0_t8_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 arg13 v255 v262 v269 v276 v283 v290 v297 v304 v311 v318 v325 v332 v339 v346 v352 v359 k acc)
        fun _ => IA8 d L v255 v262 v269 v276 v283 v290 v297 v304 v311 v318 v325 v332 v339 v346 v352 v359 f0 g4 (k.val + 1) := by
  unfold IA8 k0_t8_body
  iintro ⟨H0, %f4, %hf, H4⟩
  sl_exec
  sl_step
  isplitl [H0]; · iexact H0
  iexists _; isplitr; swap; · iexact H4
  ipureintro
  intro m
  unfold r4
  rw [nat1_writes1]
  simp only [k0_off18_eq, Matrix.cons_val_zero]
  by_cases h : 16 * k.val ≤ m ∧ m < 16 * k.val + 16
  · rw [if_pos h, if_pos (by omega)]
    have hl : m - 16 * k.val < 16 := by omega
    have hq : m / 16 = k.val := by omega
    have hr : m % 16 = m - 16 * k.val := by omega
    have hg : nat1 ((sc4).view.read (Elt Ideal) f4) (16 * k.val + (m - 16 * k.val)) = g4 m := by
      have h1 := hf (16 * k.val + (m - 16 * k.val))
      rw [if_neg (by omega)] at h1
      exact h1.trans (congrArg g4 (by omega))
    have e0 := k0_off16_eq k0_t3 k
    have e1 : k0_off17 k0_t3 k 1#32 = ![1024 * k.val + 16 * 0 + 528] := k0_off17_eq k0_t3 k ⟨0, by decide⟩
    have e2 : k0_off17 k0_t3 k 2#32 = ![1024 * k.val + 16 * 1 + 528] := k0_off17_eq k0_t3 k ⟨1, by decide⟩
    have e3 : k0_off17 k0_t3 k 3#32 = ![1024 * k.val + 16 * 2 + 528] := k0_off17_eq k0_t3 k ⟨2, by decide⟩
    have e4 : k0_off17 k0_t3 k 4#32 = ![1024 * k.val + 16 * 3 + 528] := k0_off17_eq k0_t3 k ⟨3, by decide⟩
    have e5 : k0_off17 k0_t3 k 5#32 = ![1024 * k.val + 16 * 4 + 528] := k0_off17_eq k0_t3 k ⟨4, by decide⟩
    have e6 : k0_off17 k0_t3 k 6#32 = ![1024 * k.val + 16 * 5 + 528] := k0_off17_eq k0_t3 k ⟨5, by decide⟩
    have e7 : k0_off17 k0_t3 k 7#32 = ![1024 * k.val + 16 * 6 + 528] := k0_off17_eq k0_t3 k ⟨6, by decide⟩
    have e8 : k0_off17 k0_t3 k 8#32 = ![1024 * k.val + 16 * 7 + 528] := k0_off17_eq k0_t3 k ⟨7, by decide⟩
    have e9 : k0_off17 k0_t3 k 9#32 = ![1024 * k.val + 16 * 8 + 528] := k0_off17_eq k0_t3 k ⟨8, by decide⟩
    have e10 : k0_off17 k0_t3 k 10#32 = ![1024 * k.val + 16 * 9 + 528] := k0_off17_eq k0_t3 k ⟨9, by decide⟩
    have e11 : k0_off17 k0_t3 k 11#32 = ![1024 * k.val + 16 * 10 + 528] := k0_off17_eq k0_t3 k ⟨10, by decide⟩
    have e12 : k0_off17 k0_t3 k 12#32 = ![1024 * k.val + 16 * 11 + 528] := k0_off17_eq k0_t3 k ⟨11, by decide⟩
    have e13 : k0_off17 k0_t3 k 13#32 = ![1024 * k.val + 16 * 12 + 528] := k0_off17_eq k0_t3 k ⟨12, by decide⟩
    have e14 : k0_off17 k0_t3 k 14#32 = ![1024 * k.val + 16 * 13 + 528] := k0_off17_eq k0_t3 k ⟨13, by decide⟩
    have e15 : k0_off17 k0_t3 k 15#32 = ![1024 * k.val + 16 * 14 + 528] := k0_off17_eq k0_t3 k ⟨14, by decide⟩
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, nat1_addf, nat1_mulf, nat1_shapeCast, nat1_readAt _ _ _ _ hl, e0, e1, e2, e3, e4, e5, e6, e7, e8, e9, e10, e11, e12, e13, e14, e15, k0_off18_eq, Matrix.cons_val_zero, hq, hr, acc16_2, hg]
  · rw [if_neg h]
    have h1 := hf m
    by_cases h2 : m < 16 * k.val
    · rw [if_pos h2] at h1; rw [if_pos (by omega)]; exact h1
    · rw [if_neg h2] at h1; rw [if_neg (by omega)]; exact h1

set_option maxHeartbeats 4000000 in
/-- One trip of block 3's accumulation loop carries its invariant on. -/
theorem vregion10 (d : Dev nD) (L : grid0.Coords) (k0_t3 : Fin k0_t3_loop.trips) (v374 : FVec Ideal S16 .f32) (v381 : FVec Ideal S16 .f32) (v388 : FVec Ideal S16 .f32) (v395 : FVec Ideal S16 .f32) (v402 : FVec Ideal S16 .f32) (v409 : FVec Ideal S16 .f32) (v416 : FVec Ideal S16 .f32) (v423 : FVec Ideal S16 .f32) (v430 : FVec Ideal S16 .f32) (v437 : FVec Ideal S16 .f32) (v444 : FVec Ideal S16 .f32) (v451 : FVec Ideal S16 .f32) (v458 : FVec Ideal S16 .f32) (v465 : FVec Ideal S16 .f32) (v471 : Vec Ideal S16 .f32) (v478 : Vec Ideal S16 .f32) (f0 : Buf (Elt Ideal) ((sc0).view.loc (thr0 d L))) (g4 : ℕ → EReal)
    (k : Fin (k0_t10_loop k0_t3).trips) (acc : BitVec 32) :
    IA10 d L v374 v381 v388 v395 v402 v409 v416 v423 v430 v437 v444 v451 v458 v465 v471 v478 f0 g4 k.val
      ⊢ wp frame (wpE (defs₀ (F := Ideal)) 𝒱₀ (thr0 d L) none) Set.univ
        (k0_t10_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 v374 v381 v388 v395 v402 v409 v416 v423 v430 v437 v444 v451 v458 v465 v471 v478 k acc)
        fun _ => IA10 d L v374 v381 v388 v395 v402 v409 v416 v423 v430 v437 v444 v451 v458 v465 v471 v478 f0 g4 (k.val + 1) := by
  unfold IA10 k0_t10_body
  iintro ⟨H0, %f4, %hf, H4⟩
  sl_exec
  sl_step
  isplitl [H0]; · iexact H0
  iexists _; isplitr; swap; · iexact H4
  ipureintro
  intro m
  unfold r4
  rw [nat1_writes1]
  simp only [k0_off24_eq, Matrix.cons_val_zero]
  by_cases h : 16 * k.val ≤ m ∧ m < 16 * k.val + 16
  · rw [if_pos h, if_pos (by omega)]
    have hl : m - 16 * k.val < 16 := by omega
    have hq : m / 16 = k.val := by omega
    have hr : m % 16 = m - 16 * k.val := by omega
    have hg : nat1 ((sc4).view.read (Elt Ideal) f4) (16 * k.val + (m - 16 * k.val)) = g4 m := by
      have h1 := hf (16 * k.val + (m - 16 * k.val))
      rw [if_neg (by omega)] at h1
      exact h1.trans (congrArg g4 (by omega))
    have e0 := k0_off22_eq k0_t3 k
    have e1 : k0_off23 k0_t3 k 1#32 = ![1024 * k.val + 16 * 0 + 784] := k0_off23_eq k0_t3 k ⟨0, by decide⟩
    have e2 : k0_off23 k0_t3 k 2#32 = ![1024 * k.val + 16 * 1 + 784] := k0_off23_eq k0_t3 k ⟨1, by decide⟩
    have e3 : k0_off23 k0_t3 k 3#32 = ![1024 * k.val + 16 * 2 + 784] := k0_off23_eq k0_t3 k ⟨2, by decide⟩
    have e4 : k0_off23 k0_t3 k 4#32 = ![1024 * k.val + 16 * 3 + 784] := k0_off23_eq k0_t3 k ⟨3, by decide⟩
    have e5 : k0_off23 k0_t3 k 5#32 = ![1024 * k.val + 16 * 4 + 784] := k0_off23_eq k0_t3 k ⟨4, by decide⟩
    have e6 : k0_off23 k0_t3 k 6#32 = ![1024 * k.val + 16 * 5 + 784] := k0_off23_eq k0_t3 k ⟨5, by decide⟩
    have e7 : k0_off23 k0_t3 k 7#32 = ![1024 * k.val + 16 * 6 + 784] := k0_off23_eq k0_t3 k ⟨6, by decide⟩
    have e8 : k0_off23 k0_t3 k 8#32 = ![1024 * k.val + 16 * 7 + 784] := k0_off23_eq k0_t3 k ⟨7, by decide⟩
    have e9 : k0_off23 k0_t3 k 9#32 = ![1024 * k.val + 16 * 8 + 784] := k0_off23_eq k0_t3 k ⟨8, by decide⟩
    have e10 : k0_off23 k0_t3 k 10#32 = ![1024 * k.val + 16 * 9 + 784] := k0_off23_eq k0_t3 k ⟨9, by decide⟩
    have e11 : k0_off23 k0_t3 k 11#32 = ![1024 * k.val + 16 * 10 + 784] := k0_off23_eq k0_t3 k ⟨10, by decide⟩
    have e12 : k0_off23 k0_t3 k 12#32 = ![1024 * k.val + 16 * 11 + 784] := k0_off23_eq k0_t3 k ⟨11, by decide⟩
    have e13 : k0_off23 k0_t3 k 13#32 = ![1024 * k.val + 16 * 12 + 784] := k0_off23_eq k0_t3 k ⟨12, by decide⟩
    have e14 : k0_off23 k0_t3 k 14#32 = ![1024 * k.val + 16 * 13 + 784] := k0_off23_eq k0_t3 k ⟨13, by decide⟩
    have e15 : k0_off23 k0_t3 k 15#32 = ![1024 * k.val + 16 * 14 + 784] := k0_off23_eq k0_t3 k ⟨14, by decide⟩
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, nat1_addf, nat1_mulf, nat1_shapeCast, nat1_readAt _ _ _ _ hl, e0, e1, e2, e3, e4, e5, e6, e7, e8, e9, e10, e11, e12, e13, e14, e15, k0_off24_eq, Matrix.cons_val_zero, hq, hr, acc16_3, hg]
  · rw [if_neg h]
    have h1 := hf m
    by_cases h2 : m < 16 * k.val
    · rw [if_pos h2] at h1; rw [if_pos (by omega)]; exact h1
    · rw [if_neg h2] at h1; rw [if_neg (by omega)]; exact h1

end Cert.Proof.KI

end
-- ==== Proof.Body0vC.lean ====
import proofs.«210137_g30502857736458_cont_9to1_2222_4_alg».proof.Proof.Body0vB

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KSpec

local notation "𝕀" => MT nD τ sig (HIx 2) (Elt Ideal) ℕ UU ℕ

/-! ## The write-back loops -/

/-- The write-back loop of trip `t` of the pair-block loop (field `j = t + 1`) before its trip `k`: the accumulators as they are;
    words `512 j .. 512 j + 16 k` of the staged row of pair products hold the accumulators' first `16 k` words, those of the
    two running sums have gained them and their squares; every other word is as at the loop's entry. -/
def IB (d : Dev nD) (L : grid0.Coords) (f4 : Buf (Elt Ideal) ((sc4).view.loc (thr0 d L))) (g1 g2 g3 : ℕ → EReal) (t k : ℕ) : sProp 𝕀 :=
  iprop((∃ f1, ⌜∀ m, r1 d L f1 m = if 512 * t + 512 ≤ m ∧ m < 512 * t + 512 + 16 * k then r4 d L f4 (m - (512 * t + 512)) else g1 m⌝
        ∗ ((sc1).view.loc (thr0 d L) ↦{fullShare} f1))
    ∗ (∃ f2, ⌜∀ m, r2 d L f2 m = if 512 * t + 512 ≤ m ∧ m < 512 * t + 512 + 16 * k then g2 m + r4 d L f4 (m - (512 * t + 512)) else g2 m⌝
        ∗ ((sc2).view.loc (thr0 d L) ↦{fullShare} f2))
    ∗ (∃ f3, ⌜∀ m, r3 d L f3 m = if 512 * t + 512 ≤ m ∧ m < 512 * t + 512 + 16 * k
          then g3 m + r4 d L f4 (m - (512 * t + 512)) * r4 d L f4 (m - (512 * t + 512)) else g3 m⌝
        ∗ ((sc3).view.loc (thr0 d L) ↦{fullShare} f3))
    ∗ ((sc4).view.loc (thr0 d L) ↦{fullShare} f4))

set_option maxHeartbeats 4000000 in
/-- One trip of the write-back loop carries its invariant on. -/
theorem vregion12 (d : Dev nD) (L : grid0.Coords) (k0_t3 : Fin k0_t3_loop.trips) (f4 : Buf (Elt Ideal) ((sc4).view.loc (thr0 d L))) (g1 g2 g3 : ℕ → EReal)
    (k : Fin (k0_t12_loop k0_t3).trips) (acc : BitVec 32) :
    IB d L f4 g1 g2 g3 k0_t3.val k.val
      ⊢ wp frame (wpE (defs₀ (F := Ideal)) 𝒱₀ (thr0 d L) none) Set.univ
        (k0_t12_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k0_t3 k acc)
        fun _ => IB d L f4 g1 g2 g3 k0_t3.val (k.val + 1) := by
  unfold IB k0_t12_body
  iintro ⟨⟨%f1, %hf1, H1⟩, ⟨%f2, %hf2, H2⟩, ⟨%f3, %hf3, H3⟩, H4⟩
  sl_exec
  sl_step
  have key : ∀ (m : ℕ), (512 * k0_t3.val + 16 * k.val + 512 ≤ m ∧ m < 512 * k0_t3.val + 16 * k.val + 512 + 16) →
      (512 * k0_t3.val + 512 ≤ m ∧ m < 512 * k0_t3.val + 512 + 16 * (k.val + 1)) ∧ m - (512 * k0_t3.val + 16 * k.val + 512) < 16
        ∧ 16 * k.val + (m - (512 * k0_t3.val + 16 * k.val + 512)) = m - (512 * k0_t3.val + 512)
        ∧ 512 * k0_t3.val + 16 * k.val + 512 + (m - (512 * k0_t3.val + 16 * k.val + 512)) = m
        ∧ ¬ (512 * k0_t3.val + 512 ≤ m ∧ m < 512 * k0_t3.val + 512 + 16 * k.val) := fun m h => by omega
  have key' : ∀ (m : ℕ), ¬ (512 * k0_t3.val + 16 * k.val + 512 ≤ m ∧ m < 512 * k0_t3.val + 16 * k.val + 512 + 16) →
      ((512 * k0_t3.val + 512 ≤ m ∧ m < 512 * k0_t3.val + 512 + 16 * (k.val + 1)) ↔ (512 * k0_t3.val + 512 ≤ m ∧ m < 512 * k0_t3.val + 512 + 16 * k.val)) := fun m h => by omega
  isplitl [H1]
  · iexists _; isplitr; swap; · iexact H1
    ipureintro
    intro m
    unfold r1
    rw [nat1_writes1]
    simp only [k0_off29_eq, k0_off28_eq, Matrix.cons_val_zero]
    by_cases h : 512 * k0_t3.val + 16 * k.val + 512 ≤ m ∧ m < 512 * k0_t3.val + 16 * k.val + 512 + 16
    · obtain ⟨c1, hl, c2, c3, c4⟩ := key m h
      rw [if_pos h, if_pos c1]
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, nat1_shapeCast, nat1_readAt _ _ _ _ hl, k0_off28_eq, Matrix.cons_val_zero, c2]
    · rw [if_neg h]
      have h1 := hf1 m
      by_cases h2 : 512 * k0_t3.val + 512 ≤ m ∧ m < 512 * k0_t3.val + 512 + 16 * k.val
      · rw [if_pos h2] at h1; rw [if_pos ((key' m h).mpr h2)]; exact h1
      · rw [if_neg h2] at h1; rw [if_neg (fun c => h2 ((key' m h).mp c))]; exact h1
  isplitl [H2]
  · iexists _; isplitr; swap; · iexact H2
    ipureintro
    intro m
    unfold r2
    rw [nat1_writes1]
    simp only [k0_off29_eq, k0_off28_eq, Matrix.cons_val_zero]
    by_cases h : 512 * k0_t3.val + 16 * k.val + 512 ≤ m ∧ m < 512 * k0_t3.val + 16 * k.val + 512 + 16
    · obtain ⟨c1, hl, c2, c3, c4⟩ := key m h
      rw [if_pos h, if_pos c1]
      have hg : nat1 ((sc2).view.read (Elt Ideal) f2) (512 * k0_t3.val + 16 * k.val + 512 + (m - (512 * k0_t3.val + 16 * k.val + 512))) = g2 m := by
        rw [c3]; have h1 := hf2 m; rw [if_neg c4] at h1; exact h1
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, nat1_addf, nat1_shapeCast, nat1_readAt _ _ _ _ hl, k0_off28_eq, k0_off29_eq, Matrix.cons_val_zero, c2, hg]
    · rw [if_neg h]
      have h1 := hf2 m
      by_cases h2 : 512 * k0_t3.val + 512 ≤ m ∧ m < 512 * k0_t3.val + 512 + 16 * k.val
      · rw [if_pos h2] at h1; rw [if_pos ((key' m h).mpr h2)]; exact h1
      · rw [if_neg h2] at h1; rw [if_neg (fun c => h2 ((key' m h).mp c))]; exact h1
  isplitl [H3]
  · iexists _; isplitr; swap; · iexact H3
    ipureintro
    intro m
    unfold r3
    rw [nat1_writes1]
    simp only [k0_off29_eq, k0_off28_eq, Matrix.cons_val_zero]
    by_cases h : 512 * k0_t3.val + 16 * k.val + 512 ≤ m ∧ m < 512 * k0_t3.val + 16 * k.val + 512 + 16
    · obtain ⟨c1, hl, c2, c3, c4⟩ := key m h
      rw [if_pos h, if_pos c1]
      have hg : nat1 ((sc3).view.read (Elt Ideal) f3) (512 * k0_t3.val + 16 * k.val + 512 + (m - (512 * k0_t3.val + 16 * k.val + 512))) = g3 m := by
        rw [c3]; have h1 := hf3 m; rw [if_neg c4] at h1; exact h1
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, nat1_addf, nat1_mulf, nat1_shapeCast, nat1_readAt _ _ _ _ hl, k0_off28_eq, k0_off29_eq, Matrix.cons_val_zero, c2, hg]
    · rw [if_neg h]
      have h1 := hf3 m
      by_cases h2 : 512 * k0_t3.val + 512 ≤ m ∧ m < 512 * k0_t3.val + 512 + 16 * k.val
      · rw [if_pos h2] at h1; rw [if_pos ((key' m h).mpr h2)]; exact h1
      · rw [if_neg h2] at h1; rw [if_neg (fun c => h2 ((key' m h).mp c))]; exact h1
  iexact H4

end Cert.Proof.KI

end
-- ==== Proof.Body0vM.lean ====
import proofs.«210137_g30502857736458_cont_9to1_2222_4_alg».proof.Proof.Body0vB

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KSpec

local notation "𝕀" => MT nD τ sig (HIx 2) (Elt Ideal) ℕ UU ℕ

/-! ## The pair products in the order the loops compute them, and the sums they are -/

/-- Block `dc`'s sixteen products of fields `i` and `j` of a staged row `g`, summed, lane `l`. -/
def S16s (g : ℕ → EReal) (dc i j l : ℕ) : EReal :=
  ∑ t ∈ Finset.range 16, g (1024 * i + 256 * dc + 16 * t + l) * g (1024 * j + 256 * dc + 16 * t + l)
/-- The four blocks' sums, added in the loops' order. -/
def QK (g : ℕ → EReal) (i j l : ℕ) : EReal := ((S16s g 0 i j l + S16s g 1 i j l) + S16s g 2 i j l) + S16s g 3 i j l
/-- The same at a column of a 13312-wide row: slot `32 j + i`, lane `l`. -/
def QKc (g : ℕ → EReal) (m : ℕ) : EReal := QK g ((m / 16) % 32) (m / 512) (m % 16)

theorem tcongr (g : ℕ → EReal) {a a' : ℕ} {b c : EReal} (ha : a = a') (hb : b = c) : g a * b = g a' * c := by rw [ha, hb]

theorem acc16_0_eq (g : ℕ → EReal) (u0 u1 u2 u3 u4 u5 u6 u7 u8 u9 u10 u11 u12 u13 u14 u15 : S16.Idx → EReal) (i j l : ℕ) (h0 : nat1 u0 l = g (1024 * j + 256 * 0 + 16 * 0 + l)) (h1 : nat1 u1 l = g (1024 * j + 256 * 0 + 16 * 1 + l)) (h2 : nat1 u2 l = g (1024 * j + 256 * 0 + 16 * 2 + l)) (h3 : nat1 u3 l = g (1024 * j + 256 * 0 + 16 * 3 + l)) (h4 : nat1 u4 l = g (1024 * j + 256 * 0 + 16 * 4 + l)) (h5 : nat1 u5 l = g (1024 * j + 256 * 0 + 16 * 5 + l)) (h6 : nat1 u6 l = g (1024 * j + 256 * 0 + 16 * 6 + l)) (h7 : nat1 u7 l = g (1024 * j + 256 * 0 + 16 * 7 + l)) (h8 : nat1 u8 l = g (1024 * j + 256 * 0 + 16 * 8 + l)) (h9 : nat1 u9 l = g (1024 * j + 256 * 0 + 16 * 9 + l)) (h10 : nat1 u10 l = g (1024 * j + 256 * 0 + 16 * 10 + l)) (h11 : nat1 u11 l = g (1024 * j + 256 * 0 + 16 * 11 + l)) (h12 : nat1 u12 l = g (1024 * j + 256 * 0 + 16 * 12 + l)) (h13 : nat1 u13 l = g (1024 * j + 256 * 0 + 16 * 13 + l)) (h14 : nat1 u14 l = g (1024 * j + 256 * 0 + 16 * 14 + l)) (h15 : nat1 u15 l = g (1024 * j + 256 * 0 + 16 * 15 + l)) :
    acc16_0 g u0 u1 u2 u3 u4 u5 u6 u7 u8 u9 u10 u11 u12 u13 u14 u15 i l = S16s g 0 i j l := by
  unfold acc16_0 S16s
  simp only [Finset.sum_range_succ, Finset.sum_range_zero, zero_add]
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (tcongr g (by omega) h0) (tcongr g (by omega) h1)) (tcongr g (by omega) h2)) (tcongr g (by omega) h3)) (tcongr g (by omega) h4)) (tcongr g (by omega) h5)) (tcongr g (by omega) h6)) (tcongr g (by omega) h7)) (tcongr g (by omega) h8)) (tcongr g (by omega) h9)) (tcongr g (by omega) h10)) (tcongr g (by omega) h11)) (tcongr g (by omega) h12)) (tcongr g (by omega) h13)) (tcongr g (by omega) h14)) (tcongr g (by omega) h15))

theorem acc16_1_eq (g : ℕ → EReal) (u0 u1 u2 u3 u4 u5 u6 u7 u8 u9 u10 u11 u12 u13 u14 u15 : S16.Idx → EReal) (i j l : ℕ) (h0 : nat1 u0 l = g (1024 * j + 256 * 1 + 16 * 0 + l)) (h1 : nat1 u1 l = g (1024 * j + 256 * 1 + 16 * 1 + l)) (h2 : nat1 u2 l = g (1024 * j + 256 * 1 + 16 * 2 + l)) (h3 : nat1 u3 l = g (1024 * j + 256 * 1 + 16 * 3 + l)) (h4 : nat1 u4 l = g (1024 * j + 256 * 1 + 16 * 4 + l)) (h5 : nat1 u5 l = g (1024 * j + 256 * 1 + 16 * 5 + l)) (h6 : nat1 u6 l = g (1024 * j + 256 * 1 + 16 * 6 + l)) (h7 : nat1 u7 l = g (1024 * j + 256 * 1 + 16 * 7 + l)) (h8 : nat1 u8 l = g (1024 * j + 256 * 1 + 16 * 8 + l)) (h9 : nat1 u9 l = g (1024 * j + 256 * 1 + 16 * 9 + l)) (h10 : nat1 u10 l = g (1024 * j + 256 * 1 + 16 * 10 + l)) (h11 : nat1 u11 l = g (1024 * j + 256 * 1 + 16 * 11 + l)) (h12 : nat1 u12 l = g (1024 * j + 256 * 1 + 16 * 12 + l)) (h13 : nat1 u13 l = g (1024 * j + 256 * 1 + 16 * 13 + l)) (h14 : nat1 u14 l = g (1024 * j + 256 * 1 + 16 * 14 + l)) (h15 : nat1 u15 l = g (1024 * j + 256 * 1 + 16 * 15 + l)) :
    acc16_1 g u0 u1 u2 u3 u4 u5 u6 u7 u8 u9 u10 u11 u12 u13 u14 u15 i l = S16s g 1 i j l := by
  unfold acc16_1 S16s
  simp only [Finset.sum_range_succ, Finset.sum_range_zero, zero_add]
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (tcongr g (by omega) h0) (tcongr g (by omega) h1)) (tcongr g (by omega) h2)) (tcongr g (by omega) h3)) (tcongr g (by omega) h4)) (tcongr g (by omega) h5)) (tcongr g (by omega) h6)) (tcongr g (by omega) h7)) (tcongr g (by omega) h8)) (tcongr g (by omega) h9)) (tcongr g (by omega) h10)) (tcongr g (by omega) h11)) (tcongr g (by omega) h12)) (tcongr g (by omega) h13)) (tcongr g (by omega) h14)) (tcongr g (by omega) h15))

theorem acc16_2_eq (g : ℕ → EReal) (u0 u1 u2 u3 u4 u5 u6 u7 u8 u9 u10 u11 u12 u13 u14 u15 : S16.Idx → EReal) (i j l : ℕ) (h0 : nat1 u0 l = g (1024 * j + 256 * 2 + 16 * 0 + l)) (h1 : nat1 u1 l = g (1024 * j + 256 * 2 + 16 * 1 + l)) (h2 : nat1 u2 l = g (1024 * j + 256 * 2 + 16 * 2 + l)) (h3 : nat1 u3 l = g (1024 * j + 256 * 2 + 16 * 3 + l)) (h4 : nat1 u4 l = g (1024 * j + 256 * 2 + 16 * 4 + l)) (h5 : nat1 u5 l = g (1024 * j + 256 * 2 + 16 * 5 + l)) (h6 : nat1 u6 l = g (1024 * j + 256 * 2 + 16 * 6 + l)) (h7 : nat1 u7 l = g (1024 * j + 256 * 2 + 16 * 7 + l)) (h8 : nat1 u8 l = g (1024 * j + 256 * 2 + 16 * 8 + l)) (h9 : nat1 u9 l = g (1024 * j + 256 * 2 + 16 * 9 + l)) (h10 : nat1 u10 l = g (1024 * j + 256 * 2 + 16 * 10 + l)) (h11 : nat1 u11 l = g (1024 * j + 256 * 2 + 16 * 11 + l)) (h12 : nat1 u12 l = g (1024 * j + 256 * 2 + 16 * 12 + l)) (h13 : nat1 u13 l = g (1024 * j + 256 * 2 + 16 * 13 + l)) (h14 : nat1 u14 l = g (1024 * j + 256 * 2 + 16 * 14 + l)) (h15 : nat1 u15 l = g (1024 * j + 256 * 2 + 16 * 15 + l)) :
    acc16_2 g u0 u1 u2 u3 u4 u5 u6 u7 u8 u9 u10 u11 u12 u13 u14 u15 i l = S16s g 2 i j l := by
  unfold acc16_2 S16s
  simp only [Finset.sum_range_succ, Finset.sum_range_zero, zero_add]
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (tcongr g (by omega) h0) (tcongr g (by omega) h1)) (tcongr g (by omega) h2)) (tcongr g (by omega) h3)) (tcongr g (by omega) h4)) (tcongr g (by omega) h5)) (tcongr g (by omega) h6)) (tcongr g (by omega) h7)) (tcongr g (by omega) h8)) (tcongr g (by omega) h9)) (tcongr g (by omega) h10)) (tcongr g (by omega) h11)) (tcongr g (by omega) h12)) (tcongr g (by omega) h13)) (tcongr g (by omega) h14)) (tcongr g (by omega) h15))

theorem acc16_3_eq (g : ℕ → EReal) (u0 u1 u2 u3 u4 u5 u6 u7 u8 u9 u10 u11 u12 u13 u14 u15 : S16.Idx → EReal) (i j l : ℕ) (h0 : nat1 u0 l = g (1024 * j + 256 * 3 + 16 * 0 + l)) (h1 : nat1 u1 l = g (1024 * j + 256 * 3 + 16 * 1 + l)) (h2 : nat1 u2 l = g (1024 * j + 256 * 3 + 16 * 2 + l)) (h3 : nat1 u3 l = g (1024 * j + 256 * 3 + 16 * 3 + l)) (h4 : nat1 u4 l = g (1024 * j + 256 * 3 + 16 * 4 + l)) (h5 : nat1 u5 l = g (1024 * j + 256 * 3 + 16 * 5 + l)) (h6 : nat1 u6 l = g (1024 * j + 256 * 3 + 16 * 6 + l)) (h7 : nat1 u7 l = g (1024 * j + 256 * 3 + 16 * 7 + l)) (h8 : nat1 u8 l = g (1024 * j + 256 * 3 + 16 * 8 + l)) (h9 : nat1 u9 l = g (1024 * j + 256 * 3 + 16 * 9 + l)) (h10 : nat1 u10 l = g (1024 * j + 256 * 3 + 16 * 10 + l)) (h11 : nat1 u11 l = g (1024 * j + 256 * 3 + 16 * 11 + l)) (h12 : nat1 u12 l = g (1024 * j + 256 * 3 + 16 * 12 + l)) (h13 : nat1 u13 l = g (1024 * j + 256 * 3 + 16 * 13 + l)) (h14 : nat1 u14 l = g (1024 * j + 256 * 3 + 16 * 14 + l)) (h15 : nat1 u15 l = g (1024 * j + 256 * 3 + 16 * 15 + l)) :
    acc16_3 g u0 u1 u2 u3 u4 u5 u6 u7 u8 u9 u10 u11 u12 u13 u14 u15 i l = S16s g 3 i j l := by
  unfold acc16_3 S16s
  simp only [Finset.sum_range_succ, Finset.sum_range_zero, zero_add]
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (tcongr g (by omega) h0) (tcongr g (by omega) h1)) (tcongr g (by omega) h2)) (tcongr g (by omega) h3)) (tcongr g (by omega) h4)) (tcongr g (by omega) h5)) (tcongr g (by omega) h6)) (tcongr g (by omega) h7)) (tcongr g (by omega) h8)) (tcongr g (by omega) h9)) (tcongr g (by omega) h10)) (tcongr g (by omega) h11)) (tcongr g (by omega) h12)) (tcongr g (by omega) h13)) (tcongr g (by omega) h14)) (tcongr g (by omega) h15))

theorem xN_congr (x : KSpec.X) {a a' b b' c c' : ℕ} (h1 : a = a') (h2 : b = b') (h3 : c = c') : xN x a b c = xN x a' b' c' := by rw [h1, h2, h3]

/-- On the regrouped input's row of group `grp` the four blocks' sums are the pair product over all sixty-four features. -/
theorem QK_XG (x : KSpec.X) (grp i j l : ℕ) (hl : l < 16) : QK (XG x grp) i j l = inter x (16 * grp + l) i j := by
  unfold QK inter
  rw [show (64 : ℕ) = 16 + 16 + 16 + 16 from rfl, Finset.sum_range_add, Finset.sum_range_add, Finset.sum_range_add]
  unfold S16s
  refine congrArg₂ (· + ·) (congrArg₂ (· + ·) (congrArg₂ (· + ·) ?_ ?_) ?_) ?_ <;>
  · refine Finset.sum_congr rfl fun t ht => ?_
    have ht' := Finset.mem_range.mp ht
    unfold XG
    exact congrArg₂ (· * ·) (xN_congr x (by omega) (by omega) (by omega)) (xN_congr x (by omega) (by omega) (by omega))

theorem QKc_XG (x : KSpec.X) (grp m : ℕ) : QKc (XG x grp) m = IT x grp m := by
  unfold QKc IT
  exact QK_XG x grp _ _ _ (Nat.mod_lt _ (by decide))

/-! ## The staged row's loads of field `j`: their offsets in closed form -/
theorem off3_0_0 (k : Fin k0_t3_loop.trips) : k0_off3 k 0#32 0#32 = ![1024 * k.val + 256 * 0 + 16 * 0 + 1024] := k0_off3_eq k ⟨0, by decide⟩ ⟨0, by decide⟩
theorem off3_0_1 (k : Fin k0_t3_loop.trips) : k0_off3 k 0#32 1#32 = ![1024 * k.val + 256 * 0 + 16 * 1 + 1024] := k0_off3_eq k ⟨0, by decide⟩ ⟨1, by decide⟩
theorem off3_0_2 (k : Fin k0_t3_loop.trips) : k0_off3 k 0#32 2#32 = ![1024 * k.val + 256 * 0 + 16 * 2 + 1024] := k0_off3_eq k ⟨0, by decide⟩ ⟨2, by decide⟩
theorem off3_0_3 (k : Fin k0_t3_loop.trips) : k0_off3 k 0#32 3#32 = ![1024 * k.val + 256 * 0 + 16 * 3 + 1024] := k0_off3_eq k ⟨0, by decide⟩ ⟨3, by decide⟩
theorem off3_0_4 (k : Fin k0_t3_loop.trips) : k0_off3 k 0#32 4#32 = ![1024 * k.val + 256 * 0 + 16 * 4 + 1024] := k0_off3_eq k ⟨0, by decide⟩ ⟨4, by decide⟩
theorem off3_0_5 (k : Fin k0_t3_loop.trips) : k0_off3 k 0#32 5#32 = ![1024 * k.val + 256 * 0 + 16 * 5 + 1024] := k0_off3_eq k ⟨0, by decide⟩ ⟨5, by decide⟩
theorem off3_0_6 (k : Fin k0_t3_loop.trips) : k0_off3 k 0#32 6#32 = ![1024 * k.val + 256 * 0 + 16 * 6 + 1024] := k0_off3_eq k ⟨0, by decide⟩ ⟨6, by decide⟩
theorem off3_0_7 (k : Fin k0_t3_loop.trips) : k0_off3 k 0#32 7#32 = ![1024 * k.val + 256 * 0 + 16 * 7 + 1024] := k0_off3_eq k ⟨0, by decide⟩ ⟨7, by decide⟩
theorem off3_0_8 (k : Fin k0_t3_loop.trips) : k0_off3 k 0#32 8#32 = ![1024 * k.val + 256 * 0 + 16 * 8 + 1024] := k0_off3_eq k ⟨0, by decide⟩ ⟨8, by decide⟩
theorem off3_0_9 (k : Fin k0_t3_loop.trips) : k0_off3 k 0#32 9#32 = ![1024 * k.val + 256 * 0 + 16 * 9 + 1024] := k0_off3_eq k ⟨0, by decide⟩ ⟨9, by decide⟩
theorem off3_0_10 (k : Fin k0_t3_loop.trips) : k0_off3 k 0#32 10#32 = ![1024 * k.val + 256 * 0 + 16 * 10 + 1024] := k0_off3_eq k ⟨0, by decide⟩ ⟨10, by decide⟩
theorem off3_0_11 (k : Fin k0_t3_loop.trips) : k0_off3 k 0#32 11#32 = ![1024 * k.val + 256 * 0 + 16 * 11 + 1024] := k0_off3_eq k ⟨0, by decide⟩ ⟨11, by decide⟩
theorem off3_0_12 (k : Fin k0_t3_loop.trips) : k0_off3 k 0#32 12#32 = ![1024 * k.val + 256 * 0 + 16 * 12 + 1024] := k0_off3_eq k ⟨0, by decide⟩ ⟨12, by decide⟩
theorem off3_0_13 (k : Fin k0_t3_loop.trips) : k0_off3 k 0#32 13#32 = ![1024 * k.val + 256 * 0 + 16 * 13 + 1024] := k0_off3_eq k ⟨0, by decide⟩ ⟨13, by decide⟩
theorem off3_0_14 (k : Fin k0_t3_loop.trips) : k0_off3 k 0#32 14#32 = ![1024 * k.val + 256 * 0 + 16 * 14 + 1024] := k0_off3_eq k ⟨0, by decide⟩ ⟨14, by decide⟩
theorem off3_0_15 (k : Fin k0_t3_loop.trips) : k0_off3 k 0#32 15#32 = ![1024 * k.val + 256 * 0 + 16 * 15 + 1024] := k0_off3_eq k ⟨0, by decide⟩ ⟨15, by decide⟩
theorem off3_1_0 (k : Fin k0_t3_loop.trips) : k0_off3 k 16#32 0#32 = ![1024 * k.val + 256 * 1 + 16 * 0 + 1024] := k0_off3_eq k ⟨1, by decide⟩ ⟨0, by decide⟩
theorem off3_1_1 (k : Fin k0_t3_loop.trips) : k0_off3 k 16#32 1#32 = ![1024 * k.val + 256 * 1 + 16 * 1 + 1024] := k0_off3_eq k ⟨1, by decide⟩ ⟨1, by decide⟩
theorem off3_1_2 (k : Fin k0_t3_loop.trips) : k0_off3 k 16#32 2#32 = ![1024 * k.val + 256 * 1 + 16 * 2 + 1024] := k0_off3_eq k ⟨1, by decide⟩ ⟨2, by decide⟩
theorem off3_1_3 (k : Fin k0_t3_loop.trips) : k0_off3 k 16#32 3#32 = ![1024 * k.val + 256 * 1 + 16 * 3 + 1024] := k0_off3_eq k ⟨1, by decide⟩ ⟨3, by decide⟩
theorem off3_1_4 (k : Fin k0_t3_loop.trips) : k0_off3 k 16#32 4#32 = ![1024 * k.val + 256 * 1 + 16 * 4 + 1024] := k0_off3_eq k ⟨1, by decide⟩ ⟨4, by decide⟩
theorem off3_1_5 (k : Fin k0_t3_loop.trips) : k0_off3 k 16#32 5#32 = ![1024 * k.val + 256 * 1 + 16 * 5 + 1024] := k0_off3_eq k ⟨1, by decide⟩ ⟨5, by decide⟩
theorem off3_1_6 (k : Fin k0_t3_loop.trips) : k0_off3 k 16#32 6#32 = ![1024 * k.val + 256 * 1 + 16 * 6 + 1024] := k0_off3_eq k ⟨1, by decide⟩ ⟨6, by decide⟩
theorem off3_1_7 (k : Fin k0_t3_loop.trips) : k0_off3 k 16#32 7#32 = ![1024 * k.val + 256 * 1 + 16 * 7 + 1024] := k0_off3_eq k ⟨1, by decide⟩ ⟨7, by decide⟩
theorem off3_1_8 (k : Fin k0_t3_loop.trips) : k0_off3 k 16#32 8#32 = ![1024 * k.val + 256 * 1 + 16 * 8 + 1024] := k0_off3_eq k ⟨1, by decide⟩ ⟨8, by decide⟩
theorem off3_1_9 (k : Fin k0_t3_loop.trips) : k0_off3 k 16#32 9#32 = ![1024 * k.val + 256 * 1 + 16 * 9 + 1024] := k0_off3_eq k ⟨1, by decide⟩ ⟨9, by decide⟩
theorem off3_1_10 (k : Fin k0_t3_loop.trips) : k0_off3 k 16#32 10#32 = ![1024 * k.val + 256 * 1 + 16 * 10 + 1024] := k0_off3_eq k ⟨1, by decide⟩ ⟨10, by decide⟩
theorem off3_1_11 (k : Fin k0_t3_loop.trips) : k0_off3 k 16#32 11#32 = ![1024 * k.val + 256 * 1 + 16 * 11 + 1024] := k0_off3_eq k ⟨1, by decide⟩ ⟨11, by decide⟩
theorem off3_1_12 (k : Fin k0_t3_loop.trips) : k0_off3 k 16#32 12#32 = ![1024 * k.val + 256 * 1 + 16 * 12 + 1024] := k0_off3_eq k ⟨1, by decide⟩ ⟨12, by decide⟩
theorem off3_1_13 (k : Fin k0_t3_loop.trips) : k0_off3 k 16#32 13#32 = ![1024 * k.val + 256 * 1 + 16 * 13 + 1024] := k0_off3_eq k ⟨1, by decide⟩ ⟨13, by decide⟩
theorem off3_1_14 (k : Fin k0_t3_loop.trips) : k0_off3 k 16#32 14#32 = ![1024 * k.val + 256 * 1 + 16 * 14 + 1024] := k0_off3_eq k ⟨1, by decide⟩ ⟨14, by decide⟩
theorem off3_1_15 (k : Fin k0_t3_loop.trips) : k0_off3 k 16#32 15#32 = ![1024 * k.val + 256 * 1 + 16 * 15 + 1024] := k0_off3_eq k ⟨1, by decide⟩ ⟨15, by decide⟩
theorem off3_2_0 (k : Fin k0_t3_loop.trips) : k0_off3 k 32#32 0#32 = ![1024 * k.val + 256 * 2 + 16 * 0 + 1024] := k0_off3_eq k ⟨2, by decide⟩ ⟨0, by decide⟩
theorem off3_2_1 (k : Fin k0_t3_loop.trips) : k0_off3 k 32#32 1#32 = ![1024 * k.val + 256 * 2 + 16 * 1 + 1024] := k0_off3_eq k ⟨2, by decide⟩ ⟨1, by decide⟩
theorem off3_2_2 (k : Fin k0_t3_loop.trips) : k0_off3 k 32#32 2#32 = ![1024 * k.val + 256 * 2 + 16 * 2 + 1024] := k0_off3_eq k ⟨2, by decide⟩ ⟨2, by decide⟩
theorem off3_2_3 (k : Fin k0_t3_loop.trips) : k0_off3 k 32#32 3#32 = ![1024 * k.val + 256 * 2 + 16 * 3 + 1024] := k0_off3_eq k ⟨2, by decide⟩ ⟨3, by decide⟩
theorem off3_2_4 (k : Fin k0_t3_loop.trips) : k0_off3 k 32#32 4#32 = ![1024 * k.val + 256 * 2 + 16 * 4 + 1024] := k0_off3_eq k ⟨2, by decide⟩ ⟨4, by decide⟩
theorem off3_2_5 (k : Fin k0_t3_loop.trips) : k0_off3 k 32#32 5#32 = ![1024 * k.val + 256 * 2 + 16 * 5 + 1024] := k0_off3_eq k ⟨2, by decide⟩ ⟨5, by decide⟩
theorem off3_2_6 (k : Fin k0_t3_loop.trips) : k0_off3 k 32#32 6#32 = ![1024 * k.val + 256 * 2 + 16 * 6 + 1024] := k0_off3_eq k ⟨2, by decide⟩ ⟨6, by decide⟩
theorem off3_2_7 (k : Fin k0_t3_loop.trips) : k0_off3 k 32#32 7#32 = ![1024 * k.val + 256 * 2 + 16 * 7 + 1024] := k0_off3_eq k ⟨2, by decide⟩ ⟨7, by decide⟩
theorem off3_2_8 (k : Fin k0_t3_loop.trips) : k0_off3 k 32#32 8#32 = ![1024 * k.val + 256 * 2 + 16 * 8 + 1024] := k0_off3_eq k ⟨2, by decide⟩ ⟨8, by decide⟩
theorem off3_2_9 (k : Fin k0_t3_loop.trips) : k0_off3 k 32#32 9#32 = ![1024 * k.val + 256 * 2 + 16 * 9 + 1024] := k0_off3_eq k ⟨2, by decide⟩ ⟨9, by decide⟩
theorem off3_2_10 (k : Fin k0_t3_loop.trips) : k0_off3 k 32#32 10#32 = ![1024 * k.val + 256 * 2 + 16 * 10 + 1024] := k0_off3_eq k ⟨2, by decide⟩ ⟨10, by decide⟩
theorem off3_2_11 (k : Fin k0_t3_loop.trips) : k0_off3 k 32#32 11#32 = ![1024 * k.val + 256 * 2 + 16 * 11 + 1024] := k0_off3_eq k ⟨2, by decide⟩ ⟨11, by decide⟩
theorem off3_2_12 (k : Fin k0_t3_loop.trips) : k0_off3 k 32#32 12#32 = ![1024 * k.val + 256 * 2 + 16 * 12 + 1024] := k0_off3_eq k ⟨2, by decide⟩ ⟨12, by decide⟩
theorem off3_2_13 (k : Fin k0_t3_loop.trips) : k0_off3 k 32#32 13#32 = ![1024 * k.val + 256 * 2 + 16 * 13 + 1024] := k0_off3_eq k ⟨2, by decide⟩ ⟨13, by decide⟩
theorem off3_2_14 (k : Fin k0_t3_loop.trips) : k0_off3 k 32#32 14#32 = ![1024 * k.val + 256 * 2 + 16 * 14 + 1024] := k0_off3_eq k ⟨2, by decide⟩ ⟨14, by decide⟩
theorem off3_2_15 (k : Fin k0_t3_loop.trips) : k0_off3 k 32#32 15#32 = ![1024 * k.val + 256 * 2 + 16 * 15 + 1024] := k0_off3_eq k ⟨2, by decide⟩ ⟨15, by decide⟩
theorem off3_3_0 (k : Fin k0_t3_loop.trips) : k0_off3 k 48#32 0#32 = ![1024 * k.val + 256 * 3 + 16 * 0 + 1024] := k0_off3_eq k ⟨3, by decide⟩ ⟨0, by decide⟩
theorem off3_3_1 (k : Fin k0_t3_loop.trips) : k0_off3 k 48#32 1#32 = ![1024 * k.val + 256 * 3 + 16 * 1 + 1024] := k0_off3_eq k ⟨3, by decide⟩ ⟨1, by decide⟩
theorem off3_3_2 (k : Fin k0_t3_loop.trips) : k0_off3 k 48#32 2#32 = ![1024 * k.val + 256 * 3 + 16 * 2 + 1024] := k0_off3_eq k ⟨3, by decide⟩ ⟨2, by decide⟩
theorem off3_3_3 (k : Fin k0_t3_loop.trips) : k0_off3 k 48#32 3#32 = ![1024 * k.val + 256 * 3 + 16 * 3 + 1024] := k0_off3_eq k ⟨3, by decide⟩ ⟨3, by decide⟩
theorem off3_3_4 (k : Fin k0_t3_loop.trips) : k0_off3 k 48#32 4#32 = ![1024 * k.val + 256 * 3 + 16 * 4 + 1024] := k0_off3_eq k ⟨3, by decide⟩ ⟨4, by decide⟩
theorem off3_3_5 (k : Fin k0_t3_loop.trips) : k0_off3 k 48#32 5#32 = ![1024 * k.val + 256 * 3 + 16 * 5 + 1024] := k0_off3_eq k ⟨3, by decide⟩ ⟨5, by decide⟩
theorem off3_3_6 (k : Fin k0_t3_loop.trips) : k0_off3 k 48#32 6#32 = ![1024 * k.val + 256 * 3 + 16 * 6 + 1024] := k0_off3_eq k ⟨3, by decide⟩ ⟨6, by decide⟩
theorem off3_3_7 (k : Fin k0_t3_loop.trips) : k0_off3 k 48#32 7#32 = ![1024 * k.val + 256 * 3 + 16 * 7 + 1024] := k0_off3_eq k ⟨3, by decide⟩ ⟨7, by decide⟩
theorem off3_3_8 (k : Fin k0_t3_loop.trips) : k0_off3 k 48#32 8#32 = ![1024 * k.val + 256 * 3 + 16 * 8 + 1024] := k0_off3_eq k ⟨3, by decide⟩ ⟨8, by decide⟩
theorem off3_3_9 (k : Fin k0_t3_loop.trips) : k0_off3 k 48#32 9#32 = ![1024 * k.val + 256 * 3 + 16 * 9 + 1024] := k0_off3_eq k ⟨3, by decide⟩ ⟨9, by decide⟩
theorem off3_3_10 (k : Fin k0_t3_loop.trips) : k0_off3 k 48#32 10#32 = ![1024 * k.val + 256 * 3 + 16 * 10 + 1024] := k0_off3_eq k ⟨3, by decide⟩ ⟨10, by decide⟩
theorem off3_3_11 (k : Fin k0_t3_loop.trips) : k0_off3 k 48#32 11#32 = ![1024 * k.val + 256 * 3 + 16 * 11 + 1024] := k0_off3_eq k ⟨3, by decide⟩ ⟨11, by decide⟩
theorem off3_3_12 (k : Fin k0_t3_loop.trips) : k0_off3 k 48#32 12#32 = ![1024 * k.val + 256 * 3 + 16 * 12 + 1024] := k0_off3_eq k ⟨3, by decide⟩ ⟨12, by decide⟩
theorem off3_3_13 (k : Fin k0_t3_loop.trips) : k0_off3 k 48#32 13#32 = ![1024 * k.val + 256 * 3 + 16 * 13 + 1024] := k0_off3_eq k ⟨3, by decide⟩ ⟨13, by decide⟩
theorem off3_3_14 (k : Fin k0_t3_loop.trips) : k0_off3 k 48#32 14#32 = ![1024 * k.val + 256 * 3 + 16 * 14 + 1024] := k0_off3_eq k ⟨3, by decide⟩ ⟨14, by decide⟩
theorem off3_3_15 (k : Fin k0_t3_loop.trips) : k0_off3 k 48#32 15#32 = ![1024 * k.val + 256 * 3 + 16 * 15 + 1024] := k0_off3_eq k ⟨3, by decide⟩ ⟨15, by decide⟩

end Cert.Proof.KI

end
-- ==== Proof.Body0vD.lean ====
import proofs.«210137_g30502857736458_cont_9to1_2222_4_alg».proof.Proof.Body0vC
import proofs.«210137_g30502857736458_cont_9to1_2222_4_alg».proof.Proof.Body0vM

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KSpec

local notation "𝕀" => MT nD τ sig (HIx 2) (Elt Ideal) ℕ UU ℕ

/-- A load of the staged row, read at a lane: the row's word at the load's offset plus the lane. -/
macro "vfact " h:term : tactic => `(tactic| (sl_unfold_run_names; simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, nat1_shapeCast, nat1_readAt _ _ _ _ $h, off3_0_0, off3_0_1, off3_0_2, off3_0_3, off3_0_4, off3_0_5, off3_0_6, off3_0_7, off3_0_8, off3_0_9, off3_0_10, off3_0_11, off3_0_12, off3_0_13, off3_0_14, off3_0_15, off3_1_0, off3_1_1, off3_1_2, off3_1_3, off3_1_4, off3_1_5, off3_1_6, off3_1_7, off3_1_8, off3_1_9, off3_1_10, off3_1_11, off3_1_12, off3_1_13, off3_1_14, off3_1_15, off3_2_0, off3_2_1, off3_2_2, off3_2_3, off3_2_4, off3_2_5, off3_2_6, off3_2_7, off3_2_8, off3_2_9, off3_2_10, off3_2_11, off3_2_12, off3_2_13, off3_2_14, off3_2_15, off3_3_0, off3_3_1, off3_3_2, off3_3_3, off3_3_4, off3_3_5, off3_3_6, off3_3_7, off3_3_8, off3_3_9, off3_3_10, off3_3_11, off3_3_12, off3_3_13, off3_3_14, off3_3_15, Matrix.cons_val_zero]; exact congrArg _ (by omega)))

/-! ## The pair-block loop -/

/-- The pair-block loop before its trip `t` (fields `j = 1 .. t` done), on a staged input row `f0`: the staged row of pair products
    holds the pair products at the pair columns of fields up to `t`, the two running sums have gained them and their squares
    there; every other word is as at the loop's entry; the accumulators hold whatever. -/
def IT3 (d : Dev nD) (L : grid0.Coords) (f0 : Buf (Elt Ideal) ((sc0).view.loc (thr0 d L))) (g1 g2 g3 : ℕ → EReal) (t : ℕ) : sProp 𝕀 :=
  iprop(((sc0).view.loc (thr0 d L) ↦{fullShare} f0)
    ∗ (∃ f1, ⌜∀ m, r1 d L f1 m = if pairCol m ∧ m / 512 ≤ t then QKc (r0 d L f0) m else g1 m⌝ ∗ ((sc1).view.loc (thr0 d L) ↦{fullShare} f1))
    ∗ (∃ f2, ⌜∀ m, r2 d L f2 m = if pairCol m ∧ m / 512 ≤ t then g2 m + QKc (r0 d L f0) m else g2 m⌝ ∗ ((sc2).view.loc (thr0 d L) ↦{fullShare} f2))
    ∗ (∃ f3, ⌜∀ m, r3 d L f3 m = if pairCol m ∧ m / 512 ≤ t then g3 m + QKc (r0 d L f0) m * QKc (r0 d L f0) m else g3 m⌝ ∗ ((sc3).view.loc (thr0 d L) ↦{fullShare} f3))
    ∗ any4 (F := Ideal) d L)

set_option maxHeartbeats 8000000 in
/-- One trip of the pair-block loop carries its invariant on. -/
theorem vregion3 (d : Dev nD) (L : grid0.Coords) (f0 : Buf (Elt Ideal) ((sc0).view.loc (thr0 d L))) (g1 g2 g3 : ℕ → EReal)
    (k : Fin k0_t3_loop.trips) (acc : BitVec 32) :
    IT3 d L f0 g1 g2 g3 k.val
      ⊢ wp frame (wpE (defs₀ (F := Ideal)) 𝒱₀ (thr0 d L) none) Set.univ
        (k0_t3_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k acc)
        fun _ => IT3 d L f0 g1 g2 g3 (k.val + 1) := by
  unfold IT3 k0_t3_body
  iintro ⟨H0, ⟨%f1, %hf1, H1⟩, ⟨%f2, %hf2, H2⟩, ⟨%f3, %hf3, H3⟩, ⟨%f4, H4⟩⟩
  sl_exec
  sl_for (fun n _ => IA4 d L _ _ _ _ _ _ _ _ _ _ _ _ _ _ _ _ f0 (r4 d L f4) n) $$ [H0 H4]
  case region => intro k' acc'; exact vregion4 d L k _ _ _ _ _ _ _ _ _ _ _ _ _ _ _ _ _ _ _ _ f0 _ k' acc'
  · unfold IA4
    isplitl [H0]; · iexact H0
    iexists f4; isplitr; swap; · iexact H4
    ipureintro; intro m; rw [if_neg (by omega)]
  iintro %a4 HI
  unfold IA4
  icases HI with ⟨H0, %f4_0, %hA0, H4⟩
  have ht4 : Scf.trips (k0_t4_loop k).lb (k0_t4_loop k).ub (k0_t4_loop k).st = k.val + 1 := trips4 k
  rw [ht4] at hA0
  sl_for0 (trips5 k)
  sl_exec
  sl_for (fun n _ => IA6 d L _ _ _ _ _ _ _ _ _ _ _ _ _ _ _ _ f0 (r4 d L f4_0) n) $$ [H0 H4]
  case region => intro k' acc'; exact vregion6 d L k _ _ _ _ _ _ _ _ _ _ _ _ _ _ _ _ _ _ f0 _ k' acc'
  · unfold IA6
    isplitl [H0]; · iexact H0
    iexists f4_0; isplitr; swap; · iexact H4
    ipureintro; intro m; rw [if_neg (by omega)]
  iintro %a6 HI
  unfold IA6
  icases HI with ⟨H0, %f4_1, %hA1, H4⟩
  have ht6 : Scf.trips (k0_t6_loop k).lb (k0_t6_loop k).ub (k0_t6_loop k).st = k.val + 1 := trips6 k
  rw [ht6] at hA1
  sl_for0 (trips7 k)
  sl_exec
  sl_for (fun n _ => IA8 d L _ _ _ _ _ _ _ _ _ _ _ _ _ _ _ _ f0 (r4 d L f4_1) n) $$ [H0 H4]
  case region => intro k' acc'; exact vregion8 d L k _ _ _ _ _ _ _ _ _ _ _ _ _ _ _ _ _ f0 _ k' acc'
  · unfold IA8
    isplitl [H0]; · iexact H0
    iexists f4_1; isplitr; swap; · iexact H4
    ipureintro; intro m; rw [if_neg (by omega)]
  iintro %a8 HI
  unfold IA8
  icases HI with ⟨H0, %f4_2, %hA2, H4⟩
  have ht8 : Scf.trips (k0_t8_loop k).lb (k0_t8_loop k).ub (k0_t8_loop k).st = k.val + 1 := trips8 k
  rw [ht8] at hA2
  sl_for0 (trips9 k)
  sl_exec
  sl_for (fun n _ => IA10 d L _ _ _ _ _ _ _ _ _ _ _ _ _ _ _ _ f0 (r4 d L f4_2) n) $$ [H0 H4]
  case region => intro k' acc'; exact vregion10 d L k _ _ _ _ _ _ _ _ _ _ _ _ _ _ _ _ f0 _ k' acc'
  · unfold IA10
    isplitl [H0]; · iexact H0
    iexists f4_2; isplitr; swap; · iexact H4
    ipureintro; intro m; rw [if_neg (by omega)]
  iintro %a10 HI
  unfold IA10
  icases HI with ⟨H0, %f4_3, %hA3, H4⟩
  have ht10 : Scf.trips (k0_t10_loop k).lb (k0_t10_loop k).ub (k0_t10_loop k).st = k.val + 1 := trips10 k
  rw [ht10] at hA3
  sl_for0 (trips11 k)
  sl_exec
  sl_for (fun n _ => IB d L f4_3 (r1 d L f1) (r2 d L f2) (r3 d L f3) k.val n) $$ [H1 H2 H3 H4]
  case region => intro k' acc'; exact vregion12 d L k f4_3 _ _ _ k' acc'
  · unfold IB
    isplitl [H1]
    · iexists f1; isplitr; swap; · iexact H1
      ipureintro; intro m; rw [if_neg (by omega)]
    isplitl [H2]
    · iexists f2; isplitr; swap; · iexact H2
      ipureintro; intro m; rw [if_neg (by omega)]
    isplitl [H3]
    · iexists f3; isplitr; swap; · iexact H3
      ipureintro; intro m; rw [if_neg (by omega)]
    iexact H4
  iintro %a12 HI
  unfold IB
  icases HI with ⟨⟨%f1', %hB1, H1⟩, ⟨%f2', %hB2, H2⟩, ⟨%f3', %hB3, H3⟩, H4⟩
  have ht12 : Scf.trips (k0_t12_loop k).lb (k0_t12_loop k).ub (k0_t12_loop k).st = k.val + 1 := trips12 k
  rw [ht12] at hB1 hB2 hB3
  sl_for0 (trips13 k)
  sl_exec
  sl_step
  have hk : k.val < 25 := lt_of_lt_of_eq k.isLt trips3
  have key : ∀ m, (512 * k.val + 512 ≤ m ∧ m < 512 * k.val + 512 + 16 * (k.val + 1)) →
      r4 d L f4_3 (m - (512 * k.val + 512)) = QKc (r0 d L f0) m := by
    intro m hw
    generalize hm' : m - (512 * k.val + 512) = m'
    have hlt : m' < 16 * (k.val + 1) := by omega
    have hl : m' % 16 < 16 := Nat.mod_lt _ (by decide)
    rw [hA3 m', if_pos hlt, hA2 m', if_pos hlt, hA1 m', if_pos hlt, hA0 m', if_pos hlt]
    rw [acc16_0_eq (r0 d L f0) _ _ _ _ _ _ _ _ _ _ _ _ _ _ _ _ (m' / 16) (k.val + 1) (m' % 16) (by vfact hl) (by vfact hl) (by vfact hl) (by vfact hl) (by vfact hl) (by vfact hl) (by vfact hl) (by vfact hl) (by vfact hl) (by vfact hl) (by vfact hl) (by vfact hl) (by vfact hl) (by vfact hl) (by vfact hl) (by vfact hl),
      acc16_1_eq (r0 d L f0) _ _ _ _ _ _ _ _ _ _ _ _ _ _ _ _ (m' / 16) (k.val + 1) (m' % 16) (by vfact hl) (by vfact hl) (by vfact hl) (by vfact hl) (by vfact hl) (by vfact hl) (by vfact hl) (by vfact hl) (by vfact hl) (by vfact hl) (by vfact hl) (by vfact hl) (by vfact hl) (by vfact hl) (by vfact hl) (by vfact hl),
      acc16_2_eq (r0 d L f0) _ _ _ _ _ _ _ _ _ _ _ _ _ _ _ _ (m' / 16) (k.val + 1) (m' % 16) (by vfact hl) (by vfact hl) (by vfact hl) (by vfact hl) (by vfact hl) (by vfact hl) (by vfact hl) (by vfact hl) (by vfact hl) (by vfact hl) (by vfact hl) (by vfact hl) (by vfact hl) (by vfact hl) (by vfact hl) (by vfact hl),
      acc16_3_eq (r0 d L f0) _ _ _ _ _ _ _ _ _ _ _ _ _ _ _ _ (m' / 16) (k.val + 1) (m' % 16) (by vfact hl) (by vfact hl) (by vfact hl) (by vfact hl) (by vfact hl) (by vfact hl) (by vfact hl) (by vfact hl) (by vfact hl) (by vfact hl) (by vfact hl) (by vfact hl) (by vfact hl) (by vfact hl) (by vfact hl) (by vfact hl)]
    unfold QKc QK
    rw [show (m / 16) % 32 = m' / 16 by omega, show m / 512 = k.val + 1 by omega, show m % 16 = m' % 16 by omega]
  have wnd : ∀ m, ¬ (512 * k.val + 512 ≤ m ∧ m < 512 * k.val + 512 + 16 * (k.val + 1)) →
      ((pairCol m ∧ m / 512 ≤ k.val + 1) ↔ (pairCol m ∧ m / 512 ≤ k.val)) := by
    intro m hw; unfold pairCol; omega
  have wnd' : ∀ m, (512 * k.val + 512 ≤ m ∧ m < 512 * k.val + 512 + 16 * (k.val + 1)) →
      (pairCol m ∧ m / 512 ≤ k.val + 1) ∧ ¬ (pairCol m ∧ m / 512 ≤ k.val) := by
    intro m hw; unfold pairCol; omega
  isplitl [H0]; · iexact H0
  isplitl [H1]
  · iexists _; isplitr; swap; · iexact H1
    ipureintro; intro m
    rw [hB1 m]
    by_cases hw : 512 * k.val + 512 ≤ m ∧ m < 512 * k.val + 512 + 16 * (k.val + 1)
    · rw [if_pos hw, if_pos (wnd' m hw).1]; exact key m hw
    · rw [if_neg hw, hf1 m]
      by_cases hc : pairCol m ∧ m / 512 ≤ k.val
      · rw [if_pos hc, if_pos ((wnd m hw).mpr hc)]
      · rw [if_neg hc, if_neg (fun c => hc ((wnd m hw).mp c))]
  isplitl [H2]
  · iexists _; isplitr; swap; · iexact H2
    ipureintro; intro m
    rw [hB2 m]
    by_cases hw : 512 * k.val + 512 ≤ m ∧ m < 512 * k.val + 512 + 16 * (k.val + 1)
    · rw [if_pos hw, if_pos (wnd' m hw).1, hf2 m, if_neg (wnd' m hw).2, key m hw]
    · rw [if_neg hw, hf2 m]
      by_cases hc : pairCol m ∧ m / 512 ≤ k.val
      · rw [if_pos hc, if_pos ((wnd m hw).mpr hc)]
      · rw [if_neg hc, if_neg (fun c => hc ((wnd m hw).mp c))]
  isplitl [H3]
  · iexists _; isplitr; swap; · iexact H3
    ipureintro; intro m
    rw [hB3 m]
    by_cases hw : 512 * k.val + 512 ≤ m ∧ m < 512 * k.val + 512 + 16 * (k.val + 1)
    · rw [if_pos hw, if_pos (wnd' m hw).1, hf3 m, if_neg (wnd' m hw).2, key m hw]
    · rw [if_neg hw, hf3 m]
      by_cases hc : pairCol m ∧ m / 512 ≤ k.val
      · rw [if_pos hc, if_pos ((wnd m hw).mpr hc)]
      · rw [if_neg hc, if_neg (fun c => hc ((wnd m hw).mp c))]
  iexists _; iexact H4

end Cert.Proof.KI

end
-- ==== Proof.Body0vE.lean ====
import proofs.«210137_g30502857736458_cont_9to1_2222_4_alg».proof.Proof.Body0vD

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KSpec

local notation "𝕀" => MT nD τ sig (HIx 2) (Elt Ideal) ℕ UU ℕ

/-! ## Rows of the arrays as the subcore slices them: where their words lie -/
theorem xgrow_emb (L : grid0.Coords) (g : Fin k0_t2_loop.trips) (y : S26624.Idx) :
    (((xgV.slice (Rect.unit (s := S256x26624) (k0_off2 L g) S1x26624.size (k0_off2_inb L g)) (fun _ => rfl)).squeeze S26624 squeezes_S1x26624_S26624).view.emb y 0).val = 16 * (L 1).val + 8 * (L 0).val + g.val ∧ (((xgV.slice (Rect.unit (s := S256x26624) (k0_off2 L g) S1x26624.size (k0_off2_inb L g)) (fun _ => rfl)).squeeze S26624 squeezes_S1x26624_S26624).view.emb y 1).val = (y 0).val := by
  have h1 : ((xgV.slice (Rect.unit (s := S256x26624) (k0_off2 L g) S1x26624.size (k0_off2_inb L g)) (fun _ => rfl)).squeeze S26624 squeezes_S1x26624_S26624).view.emb y = (xgV).view.emb ((Rect.unit (s := S256x26624) (k0_off2 L g) S1x26624.size (k0_off2_inb L g)).emb (Shape.reshapeEquiv squeezes_S1x26624_S26624.numel_eq y)) := rfl
  rw [h1, Shape.reshapeEquiv_cons_one]
  have h2 : ∀ x, (xgV).view.emb x = x := fun _ => rfl
  rw [h2]
  constructor
  · rw [Rect.emb_apply]; simp [k0_off2_eq]; rfl
  · rw [Rect.emb_apply]; simp [k0_off2_eq]; rfl

theorem itrow_emb (L : grid0.Coords) (g : Fin k0_t2_loop.trips) (y : S13312.Idx) :
    ((itRowM L g).view.emb y 0).val = 16 * (L 1).val + 8 * (L 0).val + g.val ∧ ((itRowM L g).view.emb y 1).val = (y 0).val := by
  have h1 : (itRowM L g).view.emb y = (itV).view.emb ((Rect.unit (s := S256x13312) (k0_off32 L g) S1x13312.size (k0_off32_inb L g)).emb (Shape.reshapeEquiv squeezes_S1x13312_S13312.numel_eq y)) := rfl
  rw [h1, Shape.reshapeEquiv_cons_one]
  have h2 : ∀ x, (itV).view.emb x = x := fun _ => rfl
  rw [h2]
  constructor
  · rw [Rect.emb_apply]; simp [k0_off32_eq]; rfl
  · rw [Rect.emb_apply]; simp [k0_off32_eq]; rfl

theorem s1row_emb (L : grid0.Coords) (y : S13312.Idx) :
    ((s1RowM L).view.emb y 0).val = 2 * (L 1).val + (L 0).val ∧ ((s1RowM L).view.emb y 1).val = (y 0).val := by
  have h1 : (s1RowM L).view.emb y = (s1V).view.emb ((Rect.unit (s := S32x13312) (k0_off33 L) S1x13312.size (k0_off33_inb L)).emb (Shape.reshapeEquiv squeezes_S1x13312_S13312.numel_eq y)) := rfl
  rw [h1, Shape.reshapeEquiv_cons_one]
  have h2 : ∀ x, (s1V).view.emb x = x := fun _ => rfl
  rw [h2]
  constructor
  · rw [Rect.emb_apply]; simp [k0_off33_eq]; rfl
  · rw [Rect.emb_apply]; simp [k0_off33_eq]; rfl

theorem s2row_emb (L : grid0.Coords) (y : S13312.Idx) :
    ((s2RowM L).view.emb y 0).val = 2 * (L 1).val + (L 0).val ∧ ((s2RowM L).view.emb y 1).val = (y 0).val := by
  have h1 : (s2RowM L).view.emb y = (s2V).view.emb ((Rect.unit (s := S32x13312) (k0_off33 L) S1x13312.size (k0_off33_inb L)).emb (Shape.reshapeEquiv squeezes_S1x13312_S13312.numel_eq y)) := rfl
  rw [h1, Shape.reshapeEquiv_cons_one]
  have h2 : ∀ x, (s2V).view.emb x = x := fun _ => rfl
  rw [h2]
  constructor
  · rw [Rect.emb_apply]; simp [k0_off33_eq]; rfl
  · rw [Rect.emb_apply]; simp [k0_off33_eq]; rfl

/-! ## The zeroing loop -/

theorem nat1_broadcast (c : EReal) {l : ℕ} (hl : l < 16) : nat1 (broadcast S16 c) l = c := by
  rw [nat1_of_lt _ hl]; rfl

/-- The zeroing loop before its trip `k`: the two running sums' first `16 k` words are zero. -/
def IZ (d : Dev nD) (L : grid0.Coords) (k : ℕ) : sProp 𝕀 :=
  iprop((∃ f2, ⌜∀ n, n < 16 * k → r2 d L f2 n = 0⌝ ∗ ((sc2).view.loc (thr0 d L) ↦{fullShare} f2))
    ∗ (∃ f3, ⌜∀ n, n < 16 * k → r3 d L f3 n = 0⌝ ∗ ((sc3).view.loc (thr0 d L) ↦{fullShare} f3)))

set_option maxHeartbeats 4000000 in
theorem vregion1 (d : Dev nD) (L : grid0.Coords) (k : Fin k0_t1_loop.trips) (acc : BitVec 32) :
    IZ d L k.val ⊢ wp frame (wpE (defs₀ (F := Ideal)) 𝒱₀ (thr0 d L) none) Set.univ
      (k0_t1_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k acc)
      fun _ => IZ d L (k.val + 1) := by
  unfold IZ k0_t1_body
  iintro ⟨⟨%f2, %hf2, H2⟩, ⟨%f3, %hf3, H3⟩⟩
  sl_exec
  sl_step
  have hz : (Scalar.ofBits .f32 0x00000000#32 : Ideal .f32) = 0 := by
    show Ideal.ofBits .f32 0x00000000#32 = 0
    simp [Ideal.ofBits, Ideal.ieee]
  isplitl [H2]
  · iexists _; isplitr; swap; · iexact H2
    ipureintro; intro n hn
    unfold r2
    rw [nat1_writes1]
    simp only [k0_off1_eq, Matrix.cons_val_zero]
    by_cases h : 16 * k.val ≤ n ∧ n < 16 * k.val + 16
    · rw [if_pos h]
      have hl : n - 16 * k.val < 16 := by omega
      simp only [k0_pay1, k0_pay2, nat1_shapeCast, nat1_broadcast _ hl, hz]
    · rw [if_neg h]; exact hf2 n (by omega)
  · iexists _; isplitr; swap; · iexact H3
    ipureintro; intro n hn
    unfold r3
    rw [nat1_writes1]
    simp only [k0_off1_eq, Matrix.cons_val_zero]
    by_cases h : 16 * k.val ≤ n ∧ n < 16 * k.val + 16
    · rw [if_pos h]
      have hl : n - 16 * k.val < 16 := by omega
      simp only [k0_pay1, k0_pay3, nat1_shapeCast, nat1_broadcast _ hl, hz]
    · rw [if_neg h]; exact hf3 n (by omega)

end Cert.Proof.KI

end
-- ==== Proof.Body0vF.lean ====
import proofs.«210137_g30502857736458_cont_9to1_2222_4_alg».proof.Proof.Body0vE

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KSpec

local notation "𝕀" => MT nD τ sig (HIx 2) (Elt Ideal) ℕ UU ℕ
theorem wid_val (L : grid0.Coords) : (wid L).val = 2 * (L 1).val + (L 0).val := rfl

/-! ## What a copy lands: the staged input row; a row written out -/

/-- The staged input row after the copy from row `8 w + g` of the regrouped input. -/
theorem dmaIn_read (x : KSpec.X) (d : Dev nD) (L : grid0.Coords) (g : Fin k0_t2_loop.trips) (f0 : Buf (Elt Ideal) ((sc0).view.loc (thr0 d L))) (n : ℕ) :
    r0 d L (View.write (Elt Ideal) (sc0).view f0
      (ReadAs.same.apply (View.read (Elt Ideal) ((xgV.slice (Rect.unit (s := S256x26624) (k0_off2 L g) S1x26624.size (k0_off2_inb L g)) (fun _ => rfl)).squeeze S26624 squeezes_S1x26624_S26624).view (XGa x))) Finset.univ) n
      = XG x (8 * (wid L).val + g.val) n := by
  have e : (sc0).view.read (Elt Ideal) (View.write (Elt Ideal) (sc0).view f0
      (ReadAs.same.apply (View.read (Elt Ideal) ((xgV.slice (Rect.unit (s := S256x26624) (k0_off2 L g) S1x26624.size (k0_off2_inb L g)) (fun _ => rfl)).squeeze S26624 squeezes_S1x26624_S26624).view (XGa x))) Finset.univ)
      = View.read (Elt Ideal) ((xgV.slice (Rect.unit (s := S256x26624) (k0_off2 L g) S1x26624.size (k0_off2_inb L g)) (fun _ => rfl)).squeeze S26624 squeezes_S1x26624_S26624).view (XGa x) := by
    show View.read (Elt Ideal) (View.whole cc0_scratch0) (View.write (Elt Ideal) (View.whole cc0_scratch0) f0
      (ReadAs.same.apply (View.read (Elt Ideal) ((xgV.slice (Rect.unit (s := S256x26624) (k0_off2 L g) S1x26624.size (k0_off2_inb L g)) (fun _ => rfl)).squeeze S26624 squeezes_S1x26624_S26624).view (XGa x))) Finset.univ) = _
    rw [View.write_whole_univ, View.read_whole]
  unfold r0
  rw [e]
  by_cases hn : n < 26624
  · rw [nat1_of_lt _ hn, View.read_apply, cast_eq]
    have he := xgrow_emb L g (ix1 ⟨n, hn⟩)
    unfold XGa
    rw [he.1, he.2, wid_val]
    exact congrArg (fun a => XG x a n) (by omega)
  · rw [nat1_of_ge _ hn]
    unfold XG xN
    rw [dif_neg (by omega)]

theorem itrow_ok (x : KSpec.X) (L : grid0.Coords) (g : Fin k0_t2_loop.trips) (fr : S256x13312.Idx → EReal) (p : S13312.Idx → EReal)
    (hp : ∀ n, n < 13312 → pairCol n → nat1 p n = IT x (8 * (wid L).val + g.val) n) :
    ItRowOK x (itRowM L g).view.set ((itRowM L g).view.writes (Elt Ideal) fr [⟨Rect.whole S13312, p⟩]) := by
  intro idx hidx hpc
  obtain ⟨y, -, rfl⟩ := Finset.mem_map.mp hidx
  have he := itrow_emb L g y
  rw [he.2] at hpc
  have hr : (itRowM L g).view.read (Elt Ideal) ((itRowM L g).view.writes (Elt Ideal) fr [⟨Rect.whole S13312, p⟩]) ((Rect.whole S13312).emb y) = p y :=
    View.read_writes_cons_emb (Val := Elt Ideal) (itRowM L g).view fr (Rect.whole S13312) p [] y
  rw [Rect.emb_whole_apply, View.read_apply, cast_eq] at hr
  rw [he.1, he.2, hr, nat1_apply p y, hp _ (y 0).isLt hpc, wid_val]
  exact congrArg (fun a => IT x a (y 0).val) (by omega)

theorem s1row_ok (x : KSpec.X) (L : grid0.Coords) (fr : S32x13312.Idx → EReal) (p : S13312.Idx → EReal)
    (hp : ∀ n, n < 13312 → nat1 p n = S1P x (wid L).val n) :
    S1RowOK x (s1RowM L).view.set ((s1RowM L).view.writes (Elt Ideal) fr [⟨Rect.whole S13312, p⟩]) := by
  intro idx hidx
  obtain ⟨y, -, rfl⟩ := Finset.mem_map.mp hidx
  have he := s1row_emb L y
  have hr : (s1RowM L).view.read (Elt Ideal) ((s1RowM L).view.writes (Elt Ideal) fr [⟨Rect.whole S13312, p⟩]) ((Rect.whole S13312).emb y) = p y :=
    View.read_writes_cons_emb (Val := Elt Ideal) (s1RowM L).view fr (Rect.whole S13312) p [] y
  rw [Rect.emb_whole_apply, View.read_apply, cast_eq] at hr
  rw [he.1, he.2, hr, nat1_apply p y, hp _ (y 0).isLt, wid_val]

theorem s2row_ok (x : KSpec.X) (L : grid0.Coords) (fr : S32x13312.Idx → EReal) (p : S13312.Idx → EReal)
    (hp : ∀ n, n < 13312 → nat1 p n = S2P x (wid L).val n) :
    S2RowOK x (s2RowM L).view.set ((s2RowM L).view.writes (Elt Ideal) fr [⟨Rect.whole S13312, p⟩]) := by
  intro idx hidx
  obtain ⟨y, -, rfl⟩ := Finset.mem_map.mp hidx
  have he := s2row_emb L y
  have hr : (s2RowM L).view.read (Elt Ideal) ((s2RowM L).view.writes (Elt Ideal) fr [⟨Rect.whole S13312, p⟩]) ((Rect.whole S13312).emb y) = p y :=
    View.read_writes_cons_emb (Val := Elt Ideal) (s2RowM L).view fr (Rect.whole S13312) p [] y
  rw [Rect.emb_whole_apply, View.read_apply, cast_eq] at hr
  rw [he.1, he.2, hr, nat1_apply p y, hp _ (y 0).isLt, wid_val]

/-- The pair-block loop's invariant on a staged row known only by what it reads as. -/
def IT3g (d : Dev nD) (L : grid0.Coords) (g : ℕ → EReal) (g1 g2 g3 : ℕ → EReal) (t : ℕ) : sProp 𝕀 :=
  iprop(∃ f0, ⌜r0 d L f0 = g⌝ ∗ IT3 d L f0 g1 g2 g3 t)

theorem vregion3g (d : Dev nD) (L : grid0.Coords) (g : ℕ → EReal) (g1 g2 g3 : ℕ → EReal) (k : Fin k0_t3_loop.trips) (acc : BitVec 32) :
    IT3g d L g g1 g2 g3 k.val
      ⊢ wp frame (wpE (defs₀ (F := Ideal)) 𝒱₀ (thr0 d L) none) Set.univ
        (k0_t3_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k acc)
        fun _ => IT3g d L g g1 g2 g3 (k.val + 1) := by
  unfold IT3g
  iintro ⟨%f0, %hg, HI⟩
  have hpost : ∀ (_ : BitVec 32), IT3 d L f0 g1 g2 g3 (k.val + 1) ⊢ iprop(∃ f0, ⌜r0 d L f0 = g⌝ ∗ IT3 d L f0 g1 g2 g3 (k.val + 1)) := fun _ => by
    iintro H
    iexists f0
    isplitr
    · ipureintro; exact hg
    · iexact H
  iapply ((vregion3 d L f0 g1 g2 g3 k acc).trans (wp_mono frame _ _ hpost))
  iexact HI

end Cert.Proof.KI

end
-- ==== Proof.Body0vG.lean ====
import proofs.«210137_g30502857736458_cont_9to1_2222_4_alg».proof.Proof.Body0vF

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KSpec

local notation "𝕀" => MT nD τ sig (HIx 2) (Elt Ideal) ℕ UU ℕ

/-! ## The group loop -/

/-- The group loop before its trip `g`: the two running sums hold, at every pair column, the sum (of the pair products, of
    their squares) over the groups done, and zero elsewhere; the rows of the groups done hold the pair products at the pair
    columns; the rows to come are at whatever they hold. -/
def IGv (m : (ℓ : Loc nD τ sig) → Buf (Elt Ideal) ℓ) (d : Dev nD) (L : grid0.Coords) (O : CellTallies nD τ sig (HIx 2)) (W : Waits sig (HIx 2)) (g : ℕ) : sProp 𝕀 :=
  iprop(Transfers.MayWaits (thr0 d L) (default : HIx 2) O
    ∗ any0 (F := Ideal) d L ∗ any1 (F := Ideal) d L ∗ any4 (F := Ideal) d L
    ∗ (∃ f2, ⌜∀ n, n < 13312 → r2 d L f2 n = if pairCol n then ∑ g' ∈ Finset.range g, IT (argX m d) (8 * (wid L).val + g') n else 0⌝
        ∗ ((sc2).view.loc (thr0 d L) ↦{fullShare} f2))
    ∗ (∃ f3, ⌜∀ n, n < 13312 → r3 d L f3 n = if pairCol n then ∑ g' ∈ Finset.range g, IT (argX m d) (8 * (wid L).val + g') n * IT (argX m d) (8 * (wid L).val + g') n else 0⌝
        ∗ ((sc3).view.loc (thr0 d L) ↦{fullShare} f3))
    ∗ semVal (cell0 d L) 0 ∗ semVal (cell1 d L) 0
    ∗ ((xgV).view.loc (thr0 d L) ↦{rq (wid L)} XGa (argX m d))
    ∗ (bigSep Finset.univ fun g' : Fin k0_t2_loop.trips => if g'.val < g then itRowV m d L g' else itRowPts (F := Ideal) d L g')
    ∗ ∃ W', ⌜∀ p ∈ W', p ∈ W ∨ p.2 = none⌝ ∗ owes (thr0 d L) O W')

set_option maxHeartbeats 8000000 in
/-- One trip of the group loop carries its invariant on. -/
theorem vregion2 (m : (ℓ : Loc nD τ sig) → Buf (Elt Ideal) ℓ) (d : Dev nD) (L : grid0.Coords) (O : CellTallies nD τ sig (HIx 2)) (W : Waits sig (HIx 2))
    (k : Fin k0_t2_loop.trips) (acc : BitVec 32) :
    IGv m d L O W k.val ⊢ wp frame (wpE (defs₀ (F := Ideal)) 𝒱₀ (thr0 d L) none) Set.univ
      (k0_t2_body L xgV (Memref.isWhole_whole _) itV (Memref.isWhole_whole _) s1V (Memref.isWhole_whole _) s2V (Memref.isWhole_whole _) sc0 (Memref.isWhole_whole _) sc1 (Memref.isWhole_whole _) sc2 (Memref.isWhole_whole _) sc3 (Memref.isWhole_whole _) sc4 (Memref.isWhole_whole _) cc0_scoped0 cc0_scoped1 cc0_scoped2 cc0_scoped3 k acc)
      fun _ => IGv m d L O W (k.val + 1) := by
  unfold IGv k0_t2_body
  rw [SparseCore.bigSep_erase' (Finset.mem_univ k) (Φ := fun g' : Fin k0_t2_loop.trips => if g'.val < k.val then itRowV m d L g' else itRowPts (F := Ideal) d L g'),
    SparseCore.bigSep_erase' (Finset.mem_univ k) (Φ := fun g' : Fin k0_t2_loop.trips => if g'.val < k.val + 1 then itRowV m d L g' else itRowPts (F := Ideal) d L g')]
  have hrest : (bigSep (Finset.univ.erase k) fun g' : Fin k0_t2_loop.trips => if g'.val < k.val + 1 then itRowV m d L g' else itRowPts (F := Ideal) d L g')
      = bigSep (Finset.univ.erase k) fun g' : Fin k0_t2_loop.trips => if g'.val < k.val then itRowV m d L g' else itRowPts (F := Ideal) d L g' := by
    refine bigSep_congr fun i hi => ?_
    have h1 : i.val ≠ k.val := fun e => (Finset.mem_erase.mp hi).1 (Fin.ext e)
    by_cases h : i.val < k.val
    · rw [if_pos h, if_pos (by omega)]
    · rw [if_neg h, if_neg (by omega)]
  rw [hrest]
  rw [if_neg (lt_irrefl k.val), if_pos (Nat.lt_succ_self k.val)]
  iintro ⟨Hmw, ⟨%f0, H0⟩, ⟨%f1, H1⟩, ⟨%f4, H4⟩, ⟨%f2, %hf2, H2⟩, ⟨%f3, %hf3, H3⟩, Hsem0, Hsem1, Hx, ⟨Hr, Hrows⟩, %W', %hW', HO⟩
  unfold itRowPts
  icases Hr with ⟨%fr, Hr⟩
  ihave Hr' := (Entails.of_eq (pts_itRow (F := Ideal) d L k _).symm) $$ Hr
  sl_exec
  sl_for (fun n _ => IT3g d L (XG (argX m d) (8 * (wid L).val + k.val)) (r1 d L f1) (r2 d L f2) (r3 d L f3) n) $$ [H0 H1 H2 H3 H4]
  case region => intro k' acc'; exact vregion3g d L _ _ _ _ k' acc'
  · unfold IT3g IT3
    iexists _
    isplitr
    swap
    · isplitl [H0]; · iexact H0
      isplitl [H1]
      · iexists f1; isplitr; swap; · iexact H1
        ipureintro; intro n; rw [if_neg (by unfold pairCol; omega)]
      isplitl [H2]
      · iexists f2; isplitr; swap; · iexact H2
        ipureintro; intro n; rw [if_neg (by unfold pairCol; omega)]
      isplitl [H3]
      · iexists f3; isplitr; swap; · iexact H3
        ipureintro; intro n; rw [if_neg (by unfold pairCol; omega)]
      iexists f4; iexact H4
    · ipureintro; exact funext (dmaIn_read (argX m d) d L k f0)
  iintro %a3 HI
  unfold IT3g IT3
  icases HI with ⟨%F0, %hg, H0, ⟨%f1', %hC1, H1⟩, ⟨%f2', %hC2, H2⟩, ⟨%f3', %hC3, H3⟩, ⟨%f4', H4⟩⟩
  have ht3 : Scf.trips k0_t3_loop.lb k0_t3_loop.ub k0_t3_loop.st = 25 := trips3
  rw [hg, ht3] at hC1 hC2 hC3
  sl_exec
  sl_step
  isplitl [Hmw]; · iexact Hmw
  isplitl [H0]; · iexists _; iexact H0
  isplitl [H1]; · iexists _; iexact H1
  isplitl [H4]; · iexists _; iexact H4
  isplitl [H2]
  · iexists f2'; isplitr; swap; · iexact H2
    ipureintro; intro n hn
    rw [hC2 n]
    by_cases hp : pairCol n
    · rw [if_pos ⟨hp, by omega⟩, if_pos hp, hf2 n hn, if_pos hp, Finset.sum_range_succ, QKc_XG]
    · rw [if_neg (fun c => hp c.1), if_neg hp, hf2 n hn, if_neg hp]
  isplitl [H3]
  · iexists f3'; isplitr; swap; · iexact H3
    ipureintro; intro n hn
    rw [hC3 n]
    by_cases hp : pairCol n
    · rw [if_pos ⟨hp, by omega⟩, if_pos hp, hf3 n hn, if_pos hp, Finset.sum_range_succ, QKc_XG]
    · rw [if_neg (fun c => hp c.1), if_neg hp, hf3 n hn, if_neg hp]
  isplitl [Hsem0]; · iexact Hsem0
  isplitl [Hsem1]; · iexact Hsem1
  isplitl [Hx]; · iexact Hx
  isplitl [Hr' Hrows]
  · isplitl [Hr']
    · unfold itRowV
      iexists _; isplitr; swap
      · iapply (Entails.of_eq (pts_itRow (F := Ideal) d L k _)); iexact Hr'
      · ipureintro
        refine itrow_ok (argX m d) L k fr _ fun n hn hp => ?_
        have h1 := hC1 n
        rw [if_pos ⟨hp, by omega⟩, QKc_XG] at h1
        exact h1
    · iexact Hrows
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Cert.Proof.KI

end
-- ==== Proof.Body0v.lean ====
import proofs.«210137_g30502857736458_cont_9to1_2222_4_alg».proof.Proof.Body0vG

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KSpec

local notation "𝕀" => MT nD τ sig (HIx 2) (Elt Ideal) ℕ UU ℕ

/-! ## The task, with what it computes -/

set_option maxHeartbeats 8000000 in
/-- The first call's task on vector subcore `(L 0, L 1)` of device `d`, with its values: handed the regrouped input, it leaves the
    pair products in its eight rows of the pair-product array (at the pair columns) and their sums and sums of squares over
    its eight groups in its row of each partial-sum array. -/
theorem tile_body0v (m : (ℓ : Loc nD τ sig) → Buf (Elt Ideal) ℓ) (d : Dev nD) (L : grid0.Coords) (hF : (K (F := Ideal)).Facts) (O : CellTallies nD τ sig (HIx 2)) (W : Waits sig (HIx 2)) (hO : ∀ g, O g none = 0) :
    iprop(levAts (K (F := Ideal)).L (K (F := Ideal)).lev ∗ emp ∗ G0in m d L
        ∗ scopedBufs (V d ((L 0).castLE hcore0) ((L 1).castLE hsub0)) ∗ scopedSems0 (V d ((L 0).castLE hcore0) ((L 1).castLE hsub0)) ∗ owes (V d ((L 0).castLE hcore0) ((L 1).castLE hsub0)) O W)
      ⊢ wp frame (wpE (defs₀ (F := Ideal)) 𝒱₀ (V d ((L 0).castLE hcore0) ((L 1).castLE hsub0)) none) Set.univ
          (cc0__sc_moments_body L xgV (Memref.isWhole_whole _) itV (Memref.isWhole_whole _) s1V (Memref.isWhole_whole _) s2V (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scoped0 cc0_scoped1 cc0_scoped2 cc0_scoped3)
          fun _ => iprop(G0out m d L ∗ scopedBufs (V d ((L 0).castLE hcore0) ((L 1).castLE hsub0)) ∗ scopedSems0 (V d ((L 0).castLE hcore0) ((L 1).castLE hsub0))
            ∗ ∃ W', ⌜∀ p ∈ W', p ∈ W ∨ p.2 = none⌝ ∗ owes (V d ((L 0).castLE hcore0) ((L 1).castLE hsub0)) O W') := by
  simp only [cc0__sc_moments_body_eq_skeleton]; unfold cc0__sc_moments_body_skel
  rw [(K (F := Ideal)).scopedBufs_V hF d _ _, SparseCore.Cfg.scopedSems0_V (Val := Elt Ideal) d _ _, ownSems0_V0, ownBufs_V0]
  unfold G0in G0out s1RowPts s2RowPts
  iintro ⟨#Hlv, -, ⟨Hx, Hrows, ⟨%fs1, Hs1⟩, ⟨%fs2, Hs2⟩⟩, ⟨⟨%f0, H0⟩, ⟨%f1, H1⟩, ⟨%f2, H2⟩, ⟨%f3, H3⟩, ⟨%f4, H4⟩, Hbufs⟩, ⟨Hsem0, Hsem1, Hsem2, Hsem3, Hsems⟩, HO⟩
  ihave Hmw := (show levAts (K (F := Ideal)).L (K (F := Ideal)).lev ⊢ Transfers.MayWaits (thr0 d L) (default : HIx 2) O from
    (K (F := Ideal)).mayWaits_none (thr := thr0 d L) hO) $$ Hlv
  ihave Hx' := (Entails.of_eq (pts_xg (F := Ideal) d L _ _).symm) $$ Hx
  ihave Hs1' := (Entails.of_eq (pts_s1Row (F := Ideal) d L _).symm) $$ Hs1
  ihave Hs2' := (Entails.of_eq (pts_s2Row (F := Ideal) d L _).symm) $$ Hs2
  -- the zeroing loop
  sl_for (fun n _ => IZ d L n) $$ [H2 H3]
  case region => intro k' acc'; exact vregion1 d L k' acc'
  · unfold IZ
    isplitl [H2]
    · iexists f2; isplitr; swap; · iexact H2
      ipureintro; intro n hn; omega
    · iexists f3; isplitr; swap; · iexact H3
      ipureintro; intro n hn; omega
  iintro %a1 HI
  unfold IZ
  icases HI with ⟨⟨%z2, %hz2, H2⟩, ⟨%z3, %hz3, H3⟩⟩
  have ht1 : Scf.trips k0_t1_loop.lb k0_t1_loop.ub k0_t1_loop.st = 832 := trips1
  rw [ht1] at hz2 hz3
  -- the group loop
  sl_for (fun n _ => IGv m d L O W n) $$ [Hmw H0 H1 H4 H2 H3 Hsem0 Hsem1 Hx' Hrows HO]
  case region => intro k' acc'; exact vregion2 m d L O W k' acc'
  · unfold IGv
    rw [show (bigSep Finset.univ fun g' : Fin k0_t2_loop.trips => if g'.val < 0 then itRowV m d L g' else itRowPts (F := Ideal) d L g')
        = bigSep Finset.univ fun g' : Fin k0_t2_loop.trips => itRowPts (F := Ideal) d L g' from bigSep_congr fun i _ => if_neg (Nat.not_lt_zero _)]
    isplitl [Hmw]; · iexact Hmw
    isplitl [H0]; · iexists _; iexact H0
    isplitl [H1]; · iexists _; iexact H1
    isplitl [H4]; · iexists _; iexact H4
    isplitl [H2]
    · iexists z2; isplitr; swap; · iexact H2
      ipureintro; intro n hn
      rw [hz2 n (by omega), Finset.range_zero, Finset.sum_empty, ite_self]
    isplitl [H3]
    · iexists z3; isplitr; swap; · iexact H3
      ipureintro; intro n hn
      rw [hz3 n (by omega), Finset.range_zero, Finset.sum_empty, ite_self]
    isplitl [Hsem0]; · iexact Hsem0
    isplitl [Hsem1]; · iexact Hsem1
    isplitl [Hx']; · iexact Hx'
    isplitl [Hrows]; · iexact Hrows
    iexists W; isplitr
    · ipureintro; exact fun p hp => .inl hp
    · iexact HO
  iintro %a2 HI
  unfold IGv
  icases HI with ⟨Hmw, ⟨%h0, H0⟩, ⟨%h1, H1⟩, ⟨%h4, H4⟩, ⟨%y2, %hy2, H2⟩, ⟨%y3, %hy3, H3⟩, Hsem0, Hsem1, Hx', Hrows, %W', %hW', HO⟩
  have ht2 : Scf.trips k0_t2_loop.lb k0_t2_loop.ub k0_t2_loop.st = 8 := trips2g
  rw [ht2] at hy2 hy3
  -- the two running sums written out
  sl_exec
  sl_step
  isplitl [Hx' Hrows Hs1' Hs2']
  · isplitl [Hx']; · iapply (Entails.of_eq (pts_xg (F := Ideal) d L _ _)); iexact Hx'
    isplitl [Hrows]
    · iapply (Entails.of_eq (bigSep_congr fun (i : Fin k0_t2_loop.trips) _ =>
        (if_pos (show i.val < Scf.trips k0_t2_loop.lb k0_t2_loop.ub k0_t2_loop.st from i.isLt) :
          (if i.val < Scf.trips k0_t2_loop.lb k0_t2_loop.ub k0_t2_loop.st then itRowV m d L i else itRowPts (F := Ideal) d L i) = itRowV m d L i)))
      iexact Hrows
    isplitl [Hs1']
    · unfold s1RowV
      iexists _; isplitr; swap
      · iapply (Entails.of_eq (pts_s1Row (F := Ideal) d L _)); iexact Hs1'
      · ipureintro
        refine s1row_ok (argX m d) L fs1 _ fun n hn => ?_
        unfold S1P
        exact hy2 n hn
    · unfold s2RowV
      iexists _; isplitr; swap
      · iapply (Entails.of_eq (pts_s2Row (F := Ideal) d L _)); iexact Hs2'
      · ipureintro
        refine s2row_ok (argX m d) L fs2 _ fun n hn => ?_
        unfold S2P
        exact hy3 n hn
  isplitl [H0 H1 H2 H3 H4 Hbufs]
  · isplitl [H0]; · iexists _; iexact H0
    isplitl [H1]; · iexists _; iexact H1
    isplitl [H2]; · iexists _; iexact H2
    isplitl [H3]; · iexists _; iexact H3
    isplitl [H4]; · iexists _; iexact H4
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxRecDepth 16384 in
/-- The launch theorem's obligation for the first call, with values. -/
theorem tileObl0v (m : (ℓ : Loc nD τ sig) → Buf (Elt Ideal) ℓ) (hF : (K (F := Ideal)).Facts) : (K (F := Ideal)).TileObl (D (F := Ideal)) 𝒱 (Pv m) v₀ 0 := by
  intro d c i O W hO _ _
  simp only [show (Pv m).ox = fun _ _ => 0 from rfl, add_zero]
  have hci : ((K (F := Ideal)).core 0 c).val < grid0.bound 0 ∧ ((K (F := Ideal)).sub 0 i).val < grid0.bound 1 := ⟨c.isLt, i.isLt⟩
  change _ ⊢ wp _ _ _ (Pipeline.liftProg (defs₀ (F := Ideal) (.scVector ((K (F := Ideal)).core 0 c) ((K (F := Ideal)).sub 0 i)) 0 ())) _
  refine BI.Entails.trans ?_ (Pipeline.wp_liftProg (D (F := Ideal)) (Pipeline.defs_kernel pcfgs defs₀) 𝒱₀ _ Set.univ none _ _)
  rw [defs₀_vector0]; simp only [SparseCore.onTile, hci, and_self, ↓reduceDIte]
  exact (tile_body0v m d (coordsV ⟨_, hci.1⟩ ⟨_, hci.2⟩) hF O W hO).trans (wp_mono frame _ _ fun _ => obl_post)

end Cert.Proof.KI

end
-- ==== Proof.Body2vSum.lean ====
/-
  The second call's accumulation as partial sums. For one group's pair-product row it, the scale al and the offset c,
  the accumulator's lane l after the outer trips j < t (each the pair slots 32 (j + 1) + i, i < j + 1) and the first k
  inner trips of outer trip t holds

      accOut it al c t l + accIn it al t k l
        = c + (sum over j < t, i < j + 1 of al n * it n) + (sum over i < k of al n * it n),   n = 16 (32 (j + 1) + i) + l.

  One inner trip adds one term, the end of an outer trip closes one inner sum, and twenty-five outer trips give the
  specification's row sum. Sums over extended reals reassociate freely (an additive commutative monoid).
-/
import proofs.«210137_g30502857736458_cont_9to1_2222_4_alg».proof.Proof.KSpec

noncomputable section

namespace Cert.Proof.KI

open Cert.Proof.KSpec

/-- The inner partial sum of outer trip t: slots 32 (t + 1) + i for i < k, lane l. -/
def accIn (it al : ℕ → EReal) (t k l : ℕ) : EReal :=
  ∑ i ∈ Finset.range k, al (16 * (32 * (t + 1) + i) + l) * it (16 * (32 * (t + 1) + i) + l)

/-- The offset plus the outer trips j < t, each complete. -/
def accOut (it al : ℕ → EReal) (c : EReal) (t l : ℕ) : EReal :=
  c + ∑ j ∈ Finset.range t, accIn it al j (j + 1) l

theorem accIn_zero (it al : ℕ → EReal) (t l : ℕ) : accIn it al t 0 l = 0 := by
  unfold accIn; rw [Finset.range_zero, Finset.sum_empty]

theorem accOut_zero (it al : ℕ → EReal) (c : EReal) (l : ℕ) : accOut it al c 0 l = c := by
  unfold accOut; rw [Finset.range_zero, Finset.sum_empty, add_zero]

/-- Before any trip the accumulator holds the offset. -/
theorem acc_first (it al : ℕ → EReal) (c : EReal) (l : ℕ) : accOut it al c 0 l + accIn it al 0 0 l = c := by
  rw [accOut_zero, accIn_zero, add_zero]

/-- One inner trip adds the term of slot 32 (t + 1) + k. -/
theorem acc_step (it al : ℕ → EReal) (c : EReal) (t k l : ℕ) :
    accOut it al c t l + accIn it al t k l + al (16 * (32 * (t + 1) + k) + l) * it (16 * (32 * (t + 1) + k) + l)
      = accOut it al c t l + accIn it al t (k + 1) l := by
  rw [add_assoc]; unfold accIn; rw [Finset.sum_range_succ]

/-- The end of outer trip t: its inner sum is complete. -/
theorem acc_close (it al : ℕ → EReal) (c : EReal) (t l : ℕ) :
    accOut it al c t l + accIn it al t (t + 1) l = accOut it al c (t + 1) l + accIn it al (t + 1) 0 l := by
  rw [accIn_zero, add_zero]; unfold accOut; rw [Finset.sum_range_succ, add_assoc]

/-- Twenty-five outer trips give the specification's row sum. -/
theorem OUTrow_eq_acc (it : ℕ → ℕ → EReal) (al cv : Row) (grp l : ℕ) :
    OUTrow it al cv grp l = accOut (it grp) al (cv l) 25 l + accIn (it grp) al 25 0 l := by
  rw [accIn_zero, add_zero]; rfl

/-- Every column the accumulation reads is a pair column. -/
theorem pairCol_slot {t i l : ℕ} (hi : i < t + 1) (ht : t < 25) (hl : l < 16) : pairCol (16 * (32 * (t + 1) + i) + l) := by
  unfold pairCol; omega

end Cert.Proof.KI

end
-- ==== Proof.Body2vFacts.lean ====
/-
  The second vector-subcore call, value side: what each scratch buffer holds after each step of the task, as facts
  about contents read at an index, at the ideal instance (every float operation the exact one over extended reals).

  For subcore L and its group k (row grp = 16 s + 8 c + k of the pair-product array):
    the scale buffer after its copy holds the scale vector, the offset buffer the offset vector (a copy of a whole
    array into a whole buffer leaves the array's contents);
    the row buffer after its copy holds row grp: element n is element (grp, n) of the array, so at every pair column
    it is the pair product IT x grp n;
    the accumulator, set to the offset vector, then after outer trips j < t and inner trips i < k of outer trip t holds
    at lane l the partial sum accOut + accIn of the accumulation (one inner trip loads sixteen words of the scale and of
    the row at offset 512 t + 16 i + 512 = 16 (32 (t + 1) + i) and adds their product lane by lane);
    the segment of the result after the accumulator's copy holds, at word 16 grp + l, the specification's result.
  The loops' trip counts are 25 for the outer accumulation loop and t + 1 for the inner loop of outer trip t.
-/
import proofs.«210137_g30502857736458_cont_9to1_2222_4_alg».proof.Proof.Body2
import proofs.«210137_g30502857736458_cont_9to1_2222_4_alg».proof.Proof.CommonV
import proofs.«210137_g30502857736458_cont_9to1_2222_4_alg».proof.Proof.Body2vSum
import Idealize.ShloMosaic.Lib.Writes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KSpec

local notation "𝕀" => MT nD τ sig (HIx 2) (Elt Ideal) ℕ UU ℕ

namespace B2

variable (m : (ℓ : Loc nD τ sig) → Buf (Elt Ideal) ℓ) (d : Dev nD) (L : grid2.Coords)

local notation "𝕋" => V d (cW L) (jW L)

/-- The row of the pair-product array that group k of subcore L reads: 8 w + k for worker w = 2 s + c. -/
def grpOf (L : grid2.Coords) (k : ℕ) : ℕ := 16 * (L 1).val + 8 * (L 0).val + k

/-- The scale and the offset of the specification, from the arguments. -/
abbrev alA : Row := ALPHA (S1P (argX m d)) (S2P (argX m d)) (wmR m d) (gmR m d)
abbrev cvA : EReal := CVAL (S1P (argX m d)) (S2P (argX m d)) (wmR m d) (gmR m d) (bmR m d)

/-- The row buffer holds group k's row of pair products at every pair column. -/
def RowOK (k : ℕ) (f : S13312.Idx → EReal) : Prop :=
  ∀ n : S13312.Idx, pairCol (n 0).val → f n = IT (argX m d) (grpOf L k) (n 0).val

/-- The accumulator after t outer trips and j inner trips of outer trip t, for group k. -/
def AccOK (k t j : ℕ) (f : S16.Idx → EReal) : Prop :=
  ∀ x : S16.Idx, f x = accOut (IT (argX m d) (grpOf L k)) (alA m d) (cvA m d) t (x 0).val
    + accIn (IT (argX m d) (grpOf L k)) (alA m d) t j (x 0).val

theorem al_landed (f1 : Buf (Elt Ideal) ((V d (cW L) (jW L)).loc cc2_scratch1)) (fa : Buf (Elt Ideal) (alLoc d)) (h : AlOK m d fa) :
    AlOK m d (View.write (Elt Ideal) (Memref.whole cc2_scratch1).view f1 (ReadAs.same.apply (View.read (Elt Ideal) alV.view fa)) Finset.univ) := by
  intro idx
  rw [View.write_whole_univ]
  exact h idx

theorem cv_landed (f2 : Buf (Elt Ideal) ((V d (cW L) (jW L)).loc cc2_scratch2)) (fc : Buf (Elt Ideal) (cvLoc d)) (h : CvOK m d fc) :
    CvOK m d (View.write (Elt Ideal) (Memref.whole cc2_scratch2).view f2 (ReadAs.same.apply (View.read (Elt Ideal) cvV.view fc)) Finset.univ) := by
  intro idx
  rw [View.write_whole_univ]
  exact h idx

/-! ## The trip counts -/

theorem trips_t2 : k2_t2_loop.trips = 25 := by decide

theorem toInt_of_isInt {x : BitVec 32} {e : Int} (h : Affine.IsInt x e) : x.toInt = e := by
  unfold Affine.IsInt at h; exact h

/-- The inner loop of outer trip t runs t + 1 times: its bounds are 0 and the outer induction variable t + 1. -/
theorem trips_t3 (t : Fin k2_t2_loop.trips) : (k2_t3_loop t).trips = t.val + 1 := by
  have h_c0_i32_9 : Affine.IsInt 0#32 (0) := Affine.ofNat _ (by omega)
  have h_c1_i32_5 : Affine.IsInt 1#32 (1) := Affine.ofNat _ (by omega)
  have h_c1_i32_6 : Affine.IsInt 1#32 (1) := Affine.ofNat _ (by omega)
  have r_k2_t2 : t.val < 25 := Nat.lt_of_lt_of_le t.isLt k2_t2_abs.2.1
  have h_arg12 : Affine.IsInt _ ((t.val : Int) + 1) := Affine.iv h_c1_i32_5 h_c1_i32_6 t.val (by omega)
  have h_v14 : Affine.IsInt _ ((t.val : Int) + 1) := Affine.subi h_arg12 h_c0_i32_9 (by omega)
  have h_c1_i32_11 : Affine.IsInt 1#32 (1) := Affine.ofNat _ (by omega)
  have h_v16 : Affine.IsInt _ ((t.val : Int) + 1) := Affine.divsi h_v14 h_c1_i32_11 (by omega)
  have h_v17 : Affine.IsInt _ ((t.val : Int) + 1) := Affine.muli h_v16 h_c1_i32_11 (by omega)
  have h_v18 : Affine.IsInt _ ((t.val : Int) + 1) := Affine.addi h_c0_i32_9 h_v17 (by omega)
  have hub : ((k2_t3_loop t).ub).toInt = (t.val : Int) + 1 := toInt_of_isInt h_v18
  have hlb : ((k2_t3_loop t).lb).toInt = 0 := by show (0#32 : BitVec 32).toInt = 0; decide
  have hst : ((k2_t3_loop t).st).toInt = 1 := by show (1#32 : BitVec 32).toInt = 1; decide
  show Scf.trips (k2_t3_loop t).lb (k2_t3_loop t).ub (k2_t3_loop t).st = _
  unfold Scf.trips
  rw [hub, hlb, hst]
  omega

theorem lt_t2 (t : Fin k2_t2_loop.trips) : t.val < 25 := Nat.lt_of_lt_of_le t.isLt k2_t2_abs.2.1
theorem lt_t3 (t : Fin k2_t2_loop.trips) (i : Fin (k2_t3_loop t).trips) : i.val < t.val + 1 :=
  Nat.lt_of_lt_of_le i.isLt (Nat.le_of_eq (trips_t3 t))

open Idealize.ShloMosaic.ValueIdx

/-- The row view of group k: element n of it is element (grp, n) of the pair-product array. -/
theorem row_emb (k : Fin k2_t1_loop.trips) (n : S13312.Idx) :
    (((itV.slice (Rect.unit (s := S256x13312) (k2_off1 L k) S1x13312.size (k2_off1_inb L k)) (fun _ => rfl)).squeeze S13312 squeezes_S1x13312_S13312).view.emb n 0).val = grpOf L k.val
    ∧ (((itV.slice (Rect.unit (s := S256x13312) (k2_off1 L k) S1x13312.size (k2_off1_inb L k)) (fun _ => rfl)).squeeze S13312 squeezes_S1x13312_S13312).view.emb n 1).val = (n 0).val := by
  have hre : Shape.reshapeEquiv squeezes_S1x13312_S13312.numel_eq n = (ix2 (0 : Fin 1) (show Fin 13312 from n 0) : S1x13312.Idx) := by
    refine Shape.reshapeEquiv_eq_of_rowMajor _ ?_
    rw [Shape.rowMajor_val_two, Shape.rowMajor_val_one]
    show (0 : ℕ) * 13312 + (n 0).val = (n 0).val
    omega
  constructor
  · show (k2_off1 L k) 0 + 1 * ((Shape.reshapeEquiv squeezes_S1x13312_S13312.numel_eq n) 0).val = _
    rw [hre, k2_off1_eq]; unfold grpOf
    show 16 * (L 1).val + 8 * (L 0).val + k.val + 1 * 0 = _
    omega
  · show (k2_off1 L k) 1 + 1 * ((Shape.reshapeEquiv squeezes_S1x13312_S13312.numel_eq n) 1).val = _
    rw [hre, k2_off1_eq]
    show 0 + 1 * (n 0).val = _
    omega

theorem row_landed (k : Fin k2_t1_loop.trips) (f0 : Buf (Elt Ideal) ((V d (cW L) (jW L)).loc cc2_scratch0)) (fi : Buf (Elt Ideal) (itLoc d)) (h : ItOK (argX m d) fi) :
    RowOK m d L k.val (View.write (Elt Ideal) (Memref.whole cc2_scratch0).view f0
      (ReadAs.same.apply (View.read (Elt Ideal) ((itV.slice (Rect.unit (s := S256x13312) (k2_off1 L k) S1x13312.size (k2_off1_inb L k)) (fun _ => rfl)).squeeze S13312 squeezes_S1x13312_S13312).view fi)) Finset.univ) := by
  intro n hp
  rw [View.write_whole_univ]
  obtain ⟨e0, e1⟩ := row_emb L k n
  have := h (((itV.slice (Rect.unit (s := S256x13312) (k2_off1 L k) S1x13312.size (k2_off1_inb L k)) (fun _ => rfl)).squeeze S13312 squeezes_S1x13312_S13312).view.emb n) (by rw [e1]; exact hp)
  rw [e0, e1] at this
  exact this

/-- A store of the accumulator's sixteen words reads back the payload. -/
theorem z3_store_apply (f : (z3).view.ty.Contents (Elt Ideal)) (w : S16.Idx → EReal) (x : S16.Idx) :
    (z3.view.writes (Elt Ideal) f [⟨Rect.unit (s := S16) ![0] S16.size inb_S16_S16_0, w⟩]) x = w x := by
  have h := View.read_writes_cons_emb (z3).view f (Rect.unit (s := S16) ![0] S16.size inb_S16_S16_0) w [] x
  have he : (Rect.unit (s := S16) ![0] S16.size inb_S16_S16_0).emb x = x := by
    funext a
    apply Fin.ext
    match a with
    | ⟨0, _⟩ => show (0 : ℕ) + 1 * (x 0).val = (x 0).val; omega
  rw [he] at h
  exact h

/-- The accumulation's payload at a lane, over extended reals. -/
theorem pay2_apply (a b c : Vec Ideal S16 .f32) (x : S16.Idx) : k2_pay2 (F := Ideal) a b c x = a x + b x * c x := by
  unfold k2_pay2
  simp only [shapeCast_self]
  rfl

theorem pay1_eq (a : Vec Ideal S16 .f32) : k2_pay1 (F := Ideal) a = a := by
  unfold k2_pay1
  simp only [shapeCast_self]

/-- The accumulator is set to the offset vector: no trip made yet. -/
theorem acc_init (k : ℕ) (f2 : Buf (Elt Ideal) ((V d (cW L) (jW L)).loc cc2_scratch2)) (h : CvOK m d f2) :
    AccOK m d L k 0 0 (z3.view.writes (Elt Ideal) z3.view.junk [⟨Rect.unit (s := S16) ![0] S16.size inb_S16_S16_0,
      k2_pay1 (View.readAt (Elt Ideal) z2.view (Rect.unit (s := S16) ![0] S16.size inb_S16_S16_0).toLoadRect f2)⟩]) := by
  intro x
  rw [z3_store_apply, pay1_eq, acc_first]
  exact h _

/-- One inner trip: the accumulator gains the scale times the pair product of slot 32 (t + 1) + i, lane by lane. -/
theorem acc_trip (k : ℕ) (t : Fin k2_t2_loop.trips) (i : Fin (k2_t3_loop t).trips)
    (h0 : Buf (Elt Ideal) ((V d (cW L) (jW L)).loc cc2_scratch0)) (h1 : Buf (Elt Ideal) ((V d (cW L) (jW L)).loc cc2_scratch1))
    (f3 : Buf (Elt Ideal) ((V d (cW L) (jW L)).loc cc2_scratch3))
    (hA : AlOK m d h1) (hR : RowOK m d L k h0) (hf : AccOK m d L k t.val i.val f3) (hti : i.val < t.val + 1) (ht : t.val < 25) :
    AccOK m d L k t.val (i.val + 1) (z3.view.writes (Elt Ideal) f3 [⟨Rect.unit (s := S16) ![0] S16.size inb_S16_S16_0,
      k2_pay2 (View.readAt (Elt Ideal) z3.view (Rect.unit (s := S16) ![0] S16.size inb_S16_S16_0).toLoadRect f3)
        (View.readAt (Elt Ideal) z1.view (Rect.unit (s := S13312) (k2_off2 t i) S16.size (k2_off2_inb t i)).toLoadRect h1)
        (View.readAt (Elt Ideal) z0.view (Rect.unit (s := S13312) (k2_off2 t i) S16.size (k2_off2_inb t i)).toLoadRect h0)⟩]) := by
  intro x
  have hx : (x 0).val < 16 := (x 0).isLt
  rw [z3_store_apply, pay2_apply]
  -- the three loads at lane x
  have e3 : View.readAt (Elt Ideal) z3.view (Rect.unit (s := S16) ![0] S16.size inb_S16_S16_0).toLoadRect f3 x = f3 x := by
    show f3 ((Rect.unit (s := S16) ![0] S16.size inb_S16_S16_0).toLoadRect.idx x) = f3 x
    congr 1
    funext a
    apply Fin.ext
    match a with
    | ⟨0, _⟩ => show (0 : ℕ) + 1 * (x 0).val = (x 0).val; omega
  have en : (((Rect.unit (s := S13312) (k2_off2 t i) S16.size (k2_off2_inb t i)).toLoadRect.idx x) 0).val = 16 * (32 * (t.val + 1) + i.val) + (x 0).val := by
    show (k2_off2 t i) 0 + 1 * (x 0).val = _
    rw [k2_off2_eq]
    show 512 * t.val + 16 * i.val + 512 + 1 * (x 0).val = _
    omega
  have e1 : View.readAt (Elt Ideal) z1.view (Rect.unit (s := S13312) (k2_off2 t i) S16.size (k2_off2_inb t i)).toLoadRect h1 x
      = alA m d (16 * (32 * (t.val + 1) + i.val) + (x 0).val) := by
    show h1 ((Rect.unit (s := S13312) (k2_off2 t i) S16.size (k2_off2_inb t i)).toLoadRect.idx x) = _
    rw [hA _, en]
  have e0 : View.readAt (Elt Ideal) z0.view (Rect.unit (s := S13312) (k2_off2 t i) S16.size (k2_off2_inb t i)).toLoadRect h0 x
      = IT (argX m d) (grpOf L k) (16 * (32 * (t.val + 1) + i.val) + (x 0).val) := by
    show h0 ((Rect.unit (s := S13312) (k2_off2 t i) S16.size (k2_off2_inb t i)).toLoadRect.idx x) = _
    rw [hR _ (by rw [en]; exact pairCol_slot hti ht hx), en]
  rw [e3, e1, e0, hf x]
  exact acc_step _ _ _ _ _ _

/-- The accumulator copied out: the segment's words hold the specification's result. -/
theorem seg_landed (k : Fin k2_t1_loop.trips) (fo : Buf (Elt Ideal) (otLoc d)) (g3 : Buf (Elt Ideal) ((V d (cW L) (jW L)).loc cc2_scratch3))
    (h : AccOK m d L k.val 25 0 g3) :
    OtSegOK m d (otSegM L k).view.set ((otSegM L k).view.writes (Elt Ideal) fo
      [⟨Rect.whole S16, ReadAs.same.apply (View.read (Elt Ideal) (Memref.whole cc2_scratch3).view g3)⟩]) := by
  intro idx hidx
  obtain ⟨y, -, rfl⟩ := Finset.mem_map.mp hidx
  have hy : (y 0).val < 16 := (y 0).isLt
  have hw := View.read_writes_cons_emb (otSegM L k).view fo (Rect.whole S16)
    (ReadAs.same.apply (View.read (Elt Ideal) (Memref.whole cc2_scratch3).view g3)) [] y
  have he : (Rect.whole S16).emb y = y := by
    funext a
    apply Fin.ext
    match a with
    | ⟨0, _⟩ => show (0 : ℕ) + 1 * (y 0).val = (y 0).val; omega
  rw [he, View.read_apply] at hw
  have hb : (((otSegM L k).view.emb y) 0).val = 16 * grpOf L k.val + (y 0).val := by
    show (k2_off4 L k) 0 + 1 * (y 0).val = _
    rw [k2_off4_eq]; unfold grpOf
    show 256 * (L 1).val + 128 * (L 0).val + 16 * k.val + 1 * (y 0).val = _
    omega
  refine Eq.trans hw ?_
  show g3 y = _
  rw [h y, ← OUTrow_eq_acc (IT (argX m d)) (alA m d) (fun _ => cvA m d) (grpOf L k.val) (y 0).val, hb]
  unfold OUT
  have e1 : (16 * grpOf L k.val + (y 0).val) / 16 = grpOf L k.val := by omega
  have e2 : (16 * grpOf L k.val + (y 0).val) % 16 = (y 0).val := by omega
  rw [e1, e2]

end B2

end Cert.Proof.KI

end
-- ==== Proof.Body2v.lean ====
/-
  The second vector-subcore call's task on one subcore, with what its copies and its accumulation leave, at the ideal
  instance.

  Subcore (c, s) of a device, worker w = 2 s + c, is handed read shares of the pair-product array (holding the pair
  products IT x at every pair column), of the scale vector (holding ALPHA) and of the offset vector (holding CVAL), and
  its eight segments of the result. It copies the scale and offset vectors into two scratch buffers; then for each
  group k it copies row grp = 8 w + k of the pair-product array into a third, sets the accumulator (a fourth, sixteen
  words) to the offset vector, adds to it, for j = 1 .. 25 and i < j, the scale times the row at the sixteen words of
  slot 32 j + i, lane by lane, and copies the accumulator to segment grp of the result, which then holds, at word
  16 grp + l, the specification's result OUT at batch element 16 grp + l. The loops carry these contents in their
  invariants: the group loop that the segments of the groups done hold the result; the outer accumulation loop the
  partial sum over the outer trips done; the inner loop that plus the inner trips done.
-/
import proofs.«210137_g30502857736458_cont_9to1_2222_4_alg».proof.Proof.Body2
import proofs.«210137_g30502857736458_cont_9to1_2222_4_alg».proof.Proof.CommonV
import proofs.«210137_g30502857736458_cont_9to1_2222_4_alg».proof.Proof.Body2vFacts
import Idealize.ShloMosaic.Lib.Writes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KSpec

local notation "𝕀" => MT nD τ sig (HIx 2) (Elt Ideal) ℕ UU ℕ

namespace B2

variable (m : (ℓ : Loc nD τ sig) → Buf (Elt Ideal) ℓ) (d : Dev nD) (L : grid2.Coords)

local notation "𝕋" => V d (cW L) (jW L)

/-! ## The segments of the result: those of the groups done hold the result, the others whatever they hold -/

def segs (k : ℕ) (g : Fin k2_t1_loop.trips) : sProp 𝕀 := if g.val < k then otSegV m d L g else otSegPts d L g

theorem segs_self (k : Fin k2_t1_loop.trips) : segs m d L k.val k = otSegPts d L k := by
  unfold segs; rw [if_neg (Nat.lt_irrefl _)]

theorem segs_zero : (bigSep Finset.univ fun g : Fin k2_t1_loop.trips => otSegPts (F := Ideal) d L g)
    = bigSep Finset.univ fun g : Fin k2_t1_loop.trips => segs m d L 0 g :=
  bigSep_congr fun g _ => by unfold segs; rw [if_neg (Nat.not_lt_zero _)]

theorem segs_all : (bigSep Finset.univ fun g : Fin k2_t1_loop.trips => segs m d L k2_t1_loop.trips g)
    = bigSep Finset.univ fun g : Fin k2_t1_loop.trips => otSegV m d L g :=
  bigSep_congr fun g _ => by unfold segs; rw [if_pos g.isLt]

theorem segs_step (k : Fin k2_t1_loop.trips) :
    iprop(otSegV m d L k ∗ bigSep (Finset.univ.erase k) fun g : Fin k2_t1_loop.trips => segs m d L k.val g)
      ⊢ bigSep Finset.univ fun g : Fin k2_t1_loop.trips => segs m d L (k.val + 1) g := by
  rw [SparseCore.bigSep_erase' (Finset.mem_univ k) (Φ := fun g : Fin k2_t1_loop.trips => segs m d L (k.val + 1) g)]
  have e1 : segs m d L (k.val + 1) k = otSegV m d L k := by unfold segs; rw [if_pos (Nat.lt_succ_self _)]
  have e2 : (bigSep (Finset.univ.erase k) fun g : Fin k2_t1_loop.trips => segs m d L (k.val + 1) g)
      = bigSep (Finset.univ.erase k) fun g : Fin k2_t1_loop.trips => segs m d L k.val g :=
    bigSep_congr fun g hg => by
      have hne : g ≠ k := (Finset.mem_erase.mp hg).1
      have hv : g.val ≠ k.val := fun h => hne (Fin.ext h)
      unfold segs
      by_cases hlt : g.val < k.val
      · rw [if_pos hlt, if_pos (by omega)]
      · rw [if_neg hlt, if_neg (by omega)]
  rw [e1, e2]

/-! ## The loops' invariants -/

/-- The inner accumulation loop of outer trip t of group k, before inner trip j: the row buffer holds the group's row,
    the scale buffer the scale, the accumulator the partial sum over the outer trips below t and the inner trips
    below j. -/
def invIv (k t : ℕ) (j : Nat) (_ : BitVec 32) : sProp 𝕀 :=
  iprop((∃ f, ⌜RowOK m d L k f⌝ ∗ (z0).view.loc 𝕋 ↦{fullShare} f) ∗ (∃ f, ⌜AlOK m d f⌝ ∗ (z1).view.loc 𝕋 ↦{fullShare} f)
    ∗ (∃ f, ⌜AccOK m d L k t j f⌝ ∗ (z3).view.loc 𝕋 ↦{fullShare} f))

/-- The outer accumulation loop of group k, before outer trip t. -/
def invJv (k : ℕ) (t : Nat) (a : BitVec 32) : sProp 𝕀 := invIv m d L k t 0 a

/-- The remainder loop of outer trip t (no trip): outer trip t is complete. -/
def invKv (k t : ℕ) (_ : Nat) (a : BitVec 32) : sProp 𝕀 := invIv m d L k (t + 1) 0 a

/-- The group loop, before group k: the shares and buffers at contents holding what they were handed at, the segments
    of the groups below k holding the result. -/
def invGv (O : CellTallies nD τ sig (HIx 2)) (W : Waits sig (HIx 2)) (k : Nat) (_ : BitVec 32) : sProp 𝕀 :=
  iprop(Transfers.MayWaits 𝕋 (none : HIx 2) O
    ∗ (∃ f, ⌜ItOK (argX m d) f⌝ ∗ (itV).view.loc 𝕋 ↦{rq (wid L)} f)
    ∗ (∃ f, (z0).view.loc 𝕋 ↦{fullShare} f) ∗ (∃ f, ⌜AlOK m d f⌝ ∗ (z1).view.loc 𝕋 ↦{fullShare} f)
    ∗ (∃ f, ⌜CvOK m d f⌝ ∗ (z2).view.loc 𝕋 ↦{fullShare} f) ∗ (∃ f, (z3).view.loc 𝕋 ↦{fullShare} f)
    ∗ semVal (cell2 d L) 0 ∗ semVal (cell3 d L) 0
    ∗ (bigSep Finset.univ fun g : Fin k2_t1_loop.trips => segs m d L k g)
    ∗ ∃ W', ⌜∀ p ∈ W', p ∈ W ∨ p.2 = none⌝ ∗ owes 𝕋 O W')

set_option maxHeartbeats 4000000 in
/-- The task on vector subcore (L 0, L 1) of device d, with its values: the loops by their invariants. -/
theorem _root_.Cert.Proof.KI.tile_body2v (hF : (K (F := Ideal)).Facts) (O : CellTallies nD τ sig (HIx 2)) (W : Waits sig (HIx 2)) (hO : ∀ g, O g none = 0) :
    iprop(levAts (K (F := Ideal)).L (K (F := Ideal)).lev ∗ emp ∗ G1in m d L
        ∗ scopedBufs (V d ((L 0).castLE hcore2) ((L 1).castLE hsub2)) ∗ scopedSems0 (V d ((L 0).castLE hcore2) ((L 1).castLE hsub2)) ∗ owes (V d ((L 0).castLE hcore2) ((L 1).castLE hsub2)) O W)
      ⊢ wp frame (wpE (defs₀ (F := Ideal)) 𝒱₀ (V d ((L 0).castLE hcore2) ((L 1).castLE hsub2)) none) Set.univ
          (cc2__sc_out_body L itV (Memref.isWhole_whole _) alV (Memref.isWhole_whole _) cvV (Memref.isWhole_whole _) otV (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) cc2_scoped0 cc2_scoped1 cc2_scoped2 cc2_scoped3)
          fun _ => iprop(G1out m d L ∗ scopedBufs (V d ((L 0).castLE hcore2) ((L 1).castLE hsub2)) ∗ scopedSems0 (V d ((L 0).castLE hcore2) ((L 1).castLE hsub2))
            ∗ ∃ W', ⌜∀ p ∈ W', p ∈ W ∨ p.2 = none⌝ ∗ owes (V d ((L 0).castLE hcore2) ((L 1).castLE hsub2)) O W') := by
  simp only [cc2__sc_out_body_eq_skeleton]; unfold cc2__sc_out_body_skel
  rw [(K (F := Ideal)).scopedBufs_V hF d (cW L) (jW L), SparseCore.Cfg.scopedSems0_V (Val := Elt Ideal) d (cW L) (jW L), ownSems0_V2, ownBufs_V2]
  unfold G1in G1out itShV alShV cvShV
  iintro ⟨#Hlv, -, ⟨⟨%fi, %hfi, Hi⟩, ⟨%fa, %hfa, Ha⟩, ⟨%fc, %hfc, Hc⟩, Hot⟩, ⟨⟨%f0, H0⟩, ⟨%f1, H1⟩, ⟨%f2, H2⟩, ⟨%f3, H3⟩, Hbufs⟩, ⟨Hs0, Hs1, Hs2, Hs3, Hsems⟩, HO⟩
  ihave Hmw := (show levAts (K (F := Ideal)).L (K (F := Ideal)).lev ⊢ Transfers.MayWaits (V d (cW L) (jW L)) (none : HIx 2) O from
    (K (F := Ideal)).mayWaits_none (thr := V d (cW L) (jW L)) hO) $$ Hlv
  ihave Hi' := (Entails.of_eq (pts_itV (F := Ideal) d L _ _).symm) $$ Hi
  ihave Ha' := (Entails.of_eq (pts_alV (F := Ideal) d L _ _).symm) $$ Ha
  ihave Hc' := (Entails.of_eq (pts_cvV (F := Ideal) d L _ _).symm) $$ Hc
  ihave H0' := (Entails.of_eq (pts_z0 (F := Ideal) d L _).symm) $$ H0
  ihave H1' := (Entails.of_eq (pts_z1 (F := Ideal) d L _).symm) $$ H1
  ihave H2' := (Entails.of_eq (pts_z2 (F := Ideal) d L _).symm) $$ H2
  ihave H3' := (Entails.of_eq (pts_z3 (F := Ideal) d L _).symm) $$ H3
  -- the scale vector and the offset vector land in their scratch buffers
  sl_exec
  ihave Hot0 := (Entails.of_eq (segs_zero m d L)) $$ Hot
  sl_for (invGv m d L O W) $$ [Hmw Hi' H0' H1' H2' H3' Hs2 Hs3 Hot0 HO]
  case region =>
    -- one group: its row of the pair-product array in, the accumulation, its segment of the result out
    intro k acc
    unfold invGv
    rw [SparseCore.bigSep_erase' (Finset.mem_univ k) (Φ := fun g : Fin k2_t1_loop.trips => segs m d L k.val g), segs_self m d L k]
    unfold otSegPts
    iintro ⟨#Hmw, ⟨%fi, %hfi, Hi⟩, ⟨%f0, H0⟩, ⟨%f1, %hf1, H1⟩, ⟨%f2, %hf2, H2⟩, ⟨%f3, H3⟩, Hs2, Hs3, ⟨⟨%fo, Ho⟩, Hot⟩, %W', %hW', HO⟩
    ihave Ho' := (Entails.of_eq (pts_otSeg (F := Ideal) d L k _).symm) $$ Ho
    sl_exec
    sl_for (invJv m d L k.val) $$ [H0 H1 H3]
    case region =>
      intro k2 acc2
      unfold invJv invIv
      iintro ⟨⟨%g0, %hg0, H0⟩, ⟨%g1, %hg1, H1⟩, ⟨%g3, %hg3, H3⟩⟩
      sl_exec
      sl_for (invIv m d L k.val k2.val) $$ [H0 H1 H3]
      case region =>
        intro k3 acc3
        unfold invIv
        iintro ⟨⟨%h0, %hh0, H0⟩, ⟨%h1, %hh1, H1⟩, ⟨%h3, %hh3, H3⟩⟩
        sl_exec
        sl_step
        isplitl [H0]
        · iexists _; isplitr; swap; · iexact H0
          ipureintro; exact hh0
        isplitl [H1]
        · iexists _; isplitr; swap; · iexact H1
          ipureintro; exact hh1
        iexists _; isplitr; swap; · iexact H3
        ipureintro
        exact acc_trip m d L k.val k2 k3 h0 h1 h3 hh1 hh0 hh3 (lt_t3 k2 k3) (lt_t2 k2)
      · unfold invIv
        isplitl [H0]
        · iexists _; isplitr; swap; · iexact H0
          ipureintro; exact hg0
        isplitl [H1]
        · iexists _; isplitr; swap; · iexact H1
          ipureintro; exact hg1
        iexists _; isplitr; swap; · iexact H3
        ipureintro; exact hg3
      iintro %acc3 HI
      unfold invIv
      icases HI with ⟨⟨%h0, %hh0, H0⟩, ⟨%h1, %hh1, H1⟩, ⟨%h3, %hh3, H3⟩⟩
      have hh3' : AccOK m d L k.val (k2.val + 1) 0 h3 := fun x => by
        have e := hh3 x
        rw [show Scf.trips (k2_t3_loop k2).lb (k2_t3_loop k2).ub (k2_t3_loop k2).st = k2.val + 1 from trips_t3 k2] at e
        exact e.trans (acc_close _ _ _ _ _)
      sl_for (invKv m d L k.val k2.val) $$ [H0 H1 H3]
      case region =>
        intro k4 acc4
        exact absurd (Nat.lt_of_lt_of_le k4.isLt (k2_t4_abs k2).2.1) (Nat.not_lt_zero _)
      · unfold invKv invIv
        isplitl [H0]
        · iexists _; isplitr; swap; · iexact H0
          ipureintro; exact hh0
        isplitl [H1]
        · iexists _; isplitr; swap; · iexact H1
          ipureintro; exact hh1
        iexists _; isplitr; swap; · iexact H3
        ipureintro; exact hh3'
      iintro %acc4 HI
      unfold invKv invIv
      icases HI with ⟨⟨%h0, %hh0, H0⟩, ⟨%h1, %hh1, H1⟩, ⟨%h3, %hh3, H3⟩⟩
      sl_exec
      sl_step
      isplitl [H0]
      · iexists _; isplitr; swap; · iexact H0
        ipureintro; exact hh0
      isplitl [H1]
      · iexists _; isplitr; swap; · iexact H1
        ipureintro; exact hh1
      iexists _; isplitr; swap; · iexact H3
      ipureintro; exact hh3
    · unfold invJv invIv
      isplitl [H0]
      · iexists _; isplitr; swap; · iexact H0
        ipureintro; sl_unfold_run_names; exact row_landed m d L k _ _ hfi
      isplitl [H1]
      · iexists _; isplitr; swap; · iexact H1
        ipureintro; exact hf1
      iexists _; isplitr; swap; · iexact H3
      ipureintro; sl_unfold_run_names; exact acc_init m d L k.val _ hf2
    iintro %acc2 HI
    unfold invJv invIv
    icases HI with ⟨⟨%g0, %hg0, H0⟩, ⟨%g1, %hg1, H1⟩, ⟨%g3, %hg3, H3⟩⟩
    have hg3' : AccOK m d L k.val 25 0 g3 := by
      have e := hg3
      rw [show Scf.trips k2_t2_loop.lb k2_t2_loop.ub k2_t2_loop.st = 25 from trips_t2] at e
      exact e
    sl_exec
    sl_step
    isplitl [Hmw]; · iexact Hmw
    isplitl [Hi]
    · iexists _; isplitr; swap; · iexact Hi
      ipureintro; exact hfi
    isplitl [H0]; · iexists _; iexact H0
    isplitl [H1]
    · iexists _; isplitr; swap; · iexact H1
      ipureintro; exact hg1
    isplitl [H2]
    · iexists _; isplitr; swap; · iexact H2
      ipureintro; exact hf2
    isplitl [H3]; · iexists _; iexact H3
    isplitl [Hs2]; · iexact Hs2
    isplitl [Hs3]; · iexact Hs3
    isplitl [Ho' Hot]
    · iapply (segs_step m d L k)
      isplitl [Ho']
      · unfold otSegV
        iexists _; isplitr; swap
        · iapply (Entails.of_eq (pts_otSeg (F := Ideal) d L k _)); iexact Ho'
        ipureintro; sl_unfold_run_names; exact seg_landed m d L k _ _ hg3'
      iexact Hot
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · unfold invGv
    isplitl [Hmw]; · iexact Hmw
    isplitl [Hi']
    · iexists _; isplitr; swap; · iexact Hi'
      ipureintro; exact hfi
    isplitl [H0']; · iexists _; iexact H0'
    isplitl [H1']
    · iexists _; isplitr; swap; · iexact H1'
      ipureintro; sl_unfold_run_names; exact al_landed m d L _ _ hfa
    isplitl [H2']
    · iexists _; isplitr; swap; · iexact H2'
      ipureintro; sl_unfold_run_names; exact cv_landed m d L _ _ hfc
    isplitl [H3']; · iexists _; iexact H3'
    isplitl [Hs2]; · iexact Hs2
    isplitl [Hs3]; · iexact Hs3
    isplitl [Hot0]; · iexact Hot0
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  iintro %acc HI
  unfold invGv
  icases HI with ⟨-, ⟨%fi', %hfi', Hi⟩, ⟨%g0, H0⟩, ⟨%g1, %hg1, H1⟩, ⟨%g2, %hg2, H2⟩, ⟨%g3, H3⟩, Hs2, Hs3, Hot, %W', %hW', HO⟩
  sl_exec
  sl_step
  isplitl [Hi Ha' Hc' Hot]
  · isplitl [Hi]
    · iexists _; isplitr; swap
      · iapply (Entails.of_eq (pts_itV (F := Ideal) d L _ _)); iexact Hi
      ipureintro; exact hfi'
    isplitl [Ha']
    · iexists _; isplitr; swap
      · iapply (Entails.of_eq (pts_alV (F := Ideal) d L _ _)); iexact Ha'
      ipureintro; exact hfa
    isplitl [Hc']
    · iexists _; isplitr; swap
      · iapply (Entails.of_eq (pts_cvV (F := Ideal) d L _ _)); iexact Hc'
      ipureintro; exact hfc
    iapply (Entails.of_eq (segs_all m d L))
    iexact Hot
  isplitl [H0 H1 H2 H3 Hbufs]
  · isplitl [H0]; · iexists _; iapply (Entails.of_eq (pts_z0 (F := Ideal) d L _)); iexact H0
    isplitl [H1]; · iexists _; iapply (Entails.of_eq (pts_z1 (F := Ideal) d L _)); iexact H1
    isplitl [H2]; · iexists _; iapply (Entails.of_eq (pts_z2 (F := Ideal) d L _)); iexact H2
    isplitl [H3]; · iexists _; iapply (Entails.of_eq (pts_z3 (F := Ideal) d L _)); iexact H3
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists W'; isplitr
  · ipureintro; exact hW'
  · iexact HO

end B2

open B2 in
set_option maxRecDepth 16384 in
/-- The launch theorem's obligation for the second vector-subcore call at the value-carrying payloads: the task on
    every subcore of its grid. -/
theorem tileObl1v (m : (ℓ : Loc nD τ sig) → Buf (Elt Ideal) ℓ) (hF : (K (F := Ideal)).Facts) :
    (K (F := Ideal)).TileObl (D (F := Ideal)) 𝒱 (Pv m) v₀ 1 := by
  intro d c i O W hO _ _
  simp only [show (Pv m).ox = fun _ _ => 0 from rfl, add_zero]
  have hci : ((K (F := Ideal)).core 1 c).val < grid2.bound 0 ∧ ((K (F := Ideal)).sub 1 i).val < grid2.bound 1 := ⟨c.isLt, i.isLt⟩
  change _ ⊢ wp _ _ _ (Pipeline.liftProg (defs₀ (F := Ideal) (.scVector ((K (F := Ideal)).core 1 c) ((K (F := Ideal)).sub 1 i)) 2 ())) _
  refine BI.Entails.trans ?_ (Pipeline.wp_liftProg (D (F := Ideal)) (Pipeline.defs_kernel pcfgs defs₀) 𝒱₀ _ Set.univ none _ _)
  rw [defs₀_vector2]; simp only [SparseCore.onTile, hci, and_self, ↓reduceDIte]
  exact (tile_body2v m d (coordsV ⟨_, hci.1⟩ ⟨_, hci.2⟩) hF O W hO).trans (wp_mono frame _ _ fun _ => obl_post)

end Cert.Proof.KI

end
-- ==== Proof.LaunchV.lean ====
/-
  The idealized kernel program's run with its result's values: the launch theorem at the value-carrying obligations,
  read against the final memory.
-/
import proofs.«210137_g30502857736458_cont_9to1_2222_4_alg».proof.Proof.Common
import proofs.«210137_g30502857736458_cont_9to1_2222_4_alg».proof.Proof.MainV
import proofs.«210137_g30502857736458_cont_9to1_2222_4_alg».proof.Proof.Launch
import proofs.«210137_g30502857736458_cont_9to1_2222_4_alg».proof.Proof.Body0v
import proofs.«210137_g30502857736458_cont_9to1_2222_4_alg».proof.Proof.Body2v

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Cert.Proof.KSpec

local notation "𝕀" => MT nD τ sig (HIx 2) (Elt Ideal) ℕ UU ℕ

variable (m : (ℓ : Loc nD τ sig) → Buf (Elt Ideal) ℓ) (ρ : Dev nD → PrngReg)

def fqV (d : Dev nD) (s' : Phys nD τ sig (Elt Ideal)) : Prop :=
  fq m d s' ∧ OutOK m d (s'.mem.mem ((SparseCore.T d).loc main_v35))

set_option maxRecDepth 16384 in
theorem hfinV (d : Dev nD) (s' : Phys nD τ sig (Elt Ideal)) : iprop(FINv m d ∗ SI s') ⊢ (⌜fqV m d s'⌝ : sProp 𝕀) := by
  iintro ⟨⟨HF, %g, %hg, H35⟩, HSI⟩
  ihave H := (persistent_entails_right (SI_pointsTo_agree (st := s') (ℓ := (SparseCore.T d).loc main_v35) (I := Finset.univ) (q := fullShare) (f := g))) $$ [HSI H35]
  · isplitl [HSI] <;> iassumption
  icases H with ⟨%h5, HSI, -⟩
  ihave H2 := (hfin m d s') $$ [HF HSI]
  · isplitl [HF] <;> iassumption
  icases H2 with %h
  ipureintro
  exact ⟨h, fun idx => (h5 idx (Finset.mem_univ idx)).trans (hg idx)⟩

/-- Every weakly fair execution of the device's threads terminates, nothing faulting, the result column holding OUT of
    the arguments and the four arguments unchanged. -/
theorem run_mainV : θ_run (Cert.KernelIdeal.defs (F := Ideal)) (Cert.KernelIdeal.threads (F := Ideal)) ⟨m, fun _ => 0, ρ⟩ (fun r => ∀ c : Dev nD,
      (∀ idx : S4096x1.Idx, r.2.mem ((SparseCore.T c).loc main_v35) idx = OUT slotOf (argX m c) (argG m c) (argB m c) (argW m c) (idx 0).val)
      ∧ r.2.mem ((SparseCore.T c).loc main_arg0) = m ((SparseCore.T c).loc main_arg0) ∧ r.2.mem ((SparseCore.T c).loc main_arg1) = m ((SparseCore.T c).loc main_arg1)
      ∧ r.2.mem ((SparseCore.T c).loc main_arg2) = m ((SparseCore.T c).loc main_arg2) ∧ r.2.mem ((SparseCore.T c).loc main_arg3) = m ((SparseCore.T c).loc main_arg3)) :=
  SparseCore.Cfg.θ_run_sc (K := K (F := Ideal)) (D := D (F := Ideal)) (𝒱 := 𝒱) (EH := EH) (P := Pv m) facts v₀
    (fun q hq => match q with | 0 => nomatch hq | 1 => nomatch hq)
    (fun q _ => match q with | 0 => tileObl0v m facts | 1 => tileObl1v m facts)
    (fun q _ => match q with | 0 => SparseCore.Cfg.VecSplit.of_plain (vecSplit0v m) | 1 => SparseCore.Cfg.VecSplit.of_plain (vecSplit1v m))
    m ρ main (fun d => G_region (F := Ideal) d) (FINv m) (u₀ (F := Ideal)) (sep_elim_left.trans (hu₀ (Pv m) (fun _ _ => rfl))) (hmainV m ρ) (fqV m) (hfinV m) _
    (fun _ h c => ⟨(h c).2, (h c).1⟩)

end Cert.Proof.KI

end
-- ==== Proof.lean ====
/-
  The kernel computes, for each batch element b, out[b] = CVAL + Σ over the field pairs i < j of ALPHA[i,j] · ⟨x[b,i], x[b,j]⟩,
  where the pair products' first and second moments over the batch give each pair's mean and variance,
  ALPHA = w · γ · (var + ε)^(−1/2) and CVAL = Σ over pairs of w · (β − γ · mean · (var + ε)^(−1/2)); the reference normalises
  each pair product by its batch mean and standard deviation, scales by γ, shifts by β, weights by w and sums over the
  pairs. Over the extended reals, on finite inputs, the two are one function: the variance as the mean of squares less
  the squared mean is the mean squared deviation, and dividing by the square root is multiplying by its reciprocal.

  The three frames: each program runs to its end, nothing faulting, its arguments unchanged — for the kernel program at
  both instances the SparseCore launch theorem over the two calls' subcore tasks and the TensorCore's @main with its one
  region between them; for the reference its run as a line of host operations. The idealization rewrote nothing. The
  equivalence: the kernel program's run with the result column's values (the same launch, the values carried through
  the tasks' loop invariants, the region's body and the host operations), the reference's run, and the identity above.
-/
import proofs.«210137_g30502857736458_cont_9to1_2222_4_alg».proof.Defs
import proofs.«210137_g30502857736458_cont_9to1_2222_4_alg».proof.Proof.Gen.Kernel
import proofs.«210137_g30502857736458_cont_9to1_2222_4_alg».proof.Proof.Gen.Kernel.Skeleton
import proofs.«210137_g30502857736458_cont_9to1_2222_4_alg».proof.Proof.Gen.Kernel.Launch
import proofs.«210137_g30502857736458_cont_9to1_2222_4_alg».proof.Proof.Gen.Kernel.Points
import proofs.«210137_g30502857736458_cont_9to1_2222_4_alg».proof.Proof.Gen.KernelIdeal
import proofs.«210137_g30502857736458_cont_9to1_2222_4_alg».proof.Proof.Gen.KernelIdeal.Skeleton
import proofs.«210137_g30502857736458_cont_9to1_2222_4_alg».proof.Proof.Gen.KernelIdeal.Launch
import proofs.«210137_g30502857736458_cont_9to1_2222_4_alg».proof.Proof.Gen.KernelIdeal.Points
import proofs.«210137_g30502857736458_cont_9to1_2222_4_alg».proof.Proof.Gen.ReferenceIdeal
import proofs.«210137_g30502857736458_cont_9to1_2222_4_alg».proof.Proof.Gen.Pre_finite_inputs
import proofs.«210137_g30502857736458_cont_9to1_2222_4_alg».proof.Proof.FrameW
import proofs.«210137_g30502857736458_cont_9to1_2222_4_alg».proof.Proof.FrameI
import proofs.«210137_g30502857736458_cont_9to1_2222_4_alg».proof.Proof.RefRun
import proofs.«210137_g30502857736458_cont_9to1_2222_4_alg».proof.Proof.Algebraic
import proofs.«210137_g30502857736458_cont_9to1_2222_4_alg».proof.Proof.LaunchV
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.KW.frame_k, Cert.Proof.KI.frame_ki, Cert.Proof.Ref.frame_ri, trivial,
  Cert.Proof.Alg.algebraic_of_run fun m ρ => Cert.Proof.KI.run_mainV m ρ⟩

end Cert.Proof

end
